-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v278)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v278) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16 : Shape := ⟨2, ![100000, 16]⟩
abbrev S2x1600000 : Shape := ⟨2, ![2, 1600000]⟩
abbrev S100000x64 : Shape := ⟨2, ![100000, 64]⟩
abbrev S100000 : Shape := ⟨1, ![100000]⟩
abbrev S128x128 : Shape := ⟨2, ![128, 128]⟩
abbrev S128 : Shape := ⟨1, ![128]⟩
abbrev S10x16x16 : Shape := ⟨3, ![10, 16, 16]⟩
abbrev S10x16 : Shape := ⟨2, ![10, 16]⟩
abbrev S208x16 : Shape := ⟨2, ![208, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x16x16 : S_.BroadcastsInDim S10x16x16 (![] : Fin 0 → Fin S10x16x16.rank)
  reducesTo_S10x16x16_S_d0_1_2 : S10x16x16.ReducesTo [0, 1, 2] S_
  bcast_S_S10x16 : S_.BroadcastsInDim S10x16 (![] : Fin 0 → Fin S10x16.rank)
  reducesTo_S10x16_S_d0_1 : S10x16.ReducesTo [0, 1] S_
  bcast_S_S208x16 : S_.BroadcastsInDim S208x16 (![] : Fin 0 → Fin S208x16.rank)
  reducesTo_S208x16_S_d0_1 : S208x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S10x16x16 .f32) (main_arg10 : FVec F S10x16 .f32) (main_arg11 : FVec F S208x16 .f32) (main_arg12 : FVec F S16 .f32) (main_v33 : IVec S_ 1) : IVec S_ 1 :=
  let main_v34 : FVec F S10x16x16 .f32 := Host.absf main_arg9
  let main_cst_12 : FVec F S_ .f32 := constant S_ .f32 0x7F800000#32
  let main_v35 : FVec F S10x16x16 .f32 := broadcastInDim S10x16x16 ![] bcast_S_S10x16x16 main_cst_12
  let main_v36 : IVec S10x16x16 1 := cmpf .olt main_v34 main_v35
  let main_c_13 : IVec S_ 1 := constantI S_ 1 1#1
  let main_v37 : IVec S_ 1 := (fun x v => Host.reduce IntOp.andi x v reducesTo_S10x16x16_S_d0_1_2 h_S_) main_v36 main_c_13
  let main_v38 : IVec S_ 1 := andi main_v33 main_v37
  let main_v39 : FVec F S10x16 .f32 := Host.absf main_arg10
  let main_cst_14 : FVec F S_ .f32 := constant S_ .f32 0x7F800000#32
  let main_v40 : FVec F S10x16 .f32 := broadcastInDim S10x16 ![] bcast_S_S10x16 main_cst_14
  let main_v41 : IVec S10x16 1 := cmpf .olt main_v39 main_v40
  let main_c_15 : IVec S_ 1 := constantI S_ 1 1#1
  let main_v42 : IVec S_ 1 := (fun x v => Host.reduce IntOp.andi x v reducesTo_S10x16_S_d0_1 h_S_) main_v41 main_c_15
  let main_v43 : IVec S_ 1 := andi main_v38 main_v42
  let main_v44 : FVec F S208x16 .f32 := Host.absf main_arg11
  let main_cst_16 : FVec F S_ .f32 := constant S_ .f32 0x7F800000#32
  let main_v45 : FVec F S208x16 .f32 := broadcastInDim S208x16 ![] bcast_S_S208x16 main_cst_16
  let main_v46 : IVec S208x16 1 := cmpf .olt main_v44 main_v45
  let main_c_17 : IVec S_ 1 := constantI S_ 1 1#1
  let main_v47 : IVec S_ 1 := (fun x v => Host.reduce IntOp.andi x v reducesTo_S208x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S10x16x16 .f32) (main_arg10 : FVec F S10x16 .f32) (main_arg11 : FVec F S208x16 .f32) (main_arg12 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : FVec F S100000x16 .f32) (main_arg2 : IVec S2x1600000 32) (main_arg3 : FVec F S100000x64 .f32) (main_arg4 : IVec S100000 1) (main_arg5 : FVec F S128x128 .f32) (main_arg6 : FVec F S128 .f32) (main_arg7 : FVec F S128x128 .f32) (main_arg8 : FVec F S128 .f32) (main_arg9 : FVec F S10x16x16 .f32) (main_arg10 : FVec F S10x16 .f32) (main_arg11 : FVec F S208x16 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S100000x16 : Shape := ⟨2, ![100000, 16]⟩
abbrev S2x1600000 : Shape := ⟨2, ![2, 1600000]⟩
abbrev S100000x64 : Shape := ⟨2, ![100000, 64]⟩
abbrev S100000 : Shape := ⟨1, ![100000]⟩
abbrev S128x128 : Shape := ⟨2, ![128, 128]⟩
abbrev S128 : Shape := ⟨1, ![128]⟩
abbrev S10x16x16 : Shape := ⟨3, ![10, 16, 16]⟩
abbrev S10x16 : Shape := ⟨2, ![10, 16]⟩
abbrev S208x16 : Shape := ⟨2, ![208, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S1x16x16 : Shape := ⟨3, ![1, 16, 16]⟩
abbrev S16x16 : Shape := ⟨2, ![16, 16]⟩
abbrev S5000x16 : Shape := ⟨2, ![5000, 16]⟩
abbrev S1700000x16 : Shape := ⟨2, ![1700000, 16]⟩
abbrev S1x16 : Shape := ⟨2, ![1, 16]⟩
abbrev S128x16 : Shape := ⟨2, ![128, 16]⟩
abbrev S64x16 : Shape := ⟨2, ![64, 16]⟩
abbrev S5000x64 : Shape := ⟨2, ![5000, 64]⟩

abbrev nBuf : Space → Nat
  | .hbm => 338
  | .vmem => 172
  | .smem => 0
  | _ => 0

abbrev hbmTy0_0 (i : Nat) : BufTy := match i % 128 with
  | 0 => ⟨S100000x128, .f32⟩
  | 1 => ⟨S100000x16, .f32⟩
  | 2 => ⟨S2x1600000, .i32⟩
  | 3 => ⟨S100000x64, .f32⟩
  | 4 => ⟨S100000, .i1⟩
  | 5 => ⟨S128x128, .f32⟩
  | 6 => ⟨S128, .f32⟩
  | 7 => ⟨S128x128, .f32⟩
  | 8 => ⟨S128, .f32⟩
  | 9 => ⟨S10x16x16, .f32⟩
  | 10 => ⟨S10x16, .f32⟩
  | 11 => ⟨S208x16, .f32⟩
  | 12 => ⟨S16, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x1, .i1⟩
  | 92 => ⟨S100000x16, .i1⟩
  | 93 => ⟨S1x16x16, .f32⟩
  | 94 => ⟨S16x16, .f32⟩
  | 95 => ⟨S100000x16, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x16, .f32⟩
  | 105 => ⟨S1700000x1, .f32⟩
  | 106 => ⟨S1700000x16, .f32⟩
  | 107 => ⟨S1700000x16, .f32⟩
  | 108 => ⟨S_, .f32⟩
  | 109 => ⟨S100000x16, .f32⟩
  | 110 => ⟨S1700000x1, .i32⟩
  | 111 => ⟨S100000x16, .f32⟩
  | 112 => ⟨S1x16, .f32⟩
  | 113 => ⟨S16, .f32⟩
  | 114 => ⟨S1x16, .f32⟩
  | 115 => ⟨S100000x16, .i32⟩
  | 116 => ⟨S100000x16, .f32⟩
  | 117 => ⟨S1x16x16, .f32⟩
  | 118 => ⟨S16x16, .f32⟩
  | 119 => ⟨S100000x16, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x16, .f32⟩
  | 1 => ⟨S1700000x1, .f32⟩
  | 2 => ⟨S1700000x16, .f32⟩
  | 3 => ⟨S1700000x16, .f32⟩
  | 4 => ⟨S_, .f32⟩
  | 5 => ⟨S100000x16, .f32⟩
  | 6 => ⟨S1700000x1, .i32⟩
  | 7 => ⟨S100000x16, .f32⟩
  | 8 => ⟨S1x16, .f32⟩
  | 9 => ⟨S16, .f32⟩
  | 10 => ⟨S1x16, .f32⟩
  | 11 => ⟨S100000x16, .i32⟩
  | 12 => ⟨S100000x16, .f32⟩
  | 13 => ⟨S1x16x16, .f32⟩
  | 14 => ⟨S16x16, .f32⟩
  | 15 => ⟨S100000x16, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x16, .f32⟩
  | 25 => ⟨S1700000x1, .f32⟩
  | 26 => ⟨S1700000x16, .f32⟩
  | 27 => ⟨S1700000x16, .f32⟩
  | 28 => ⟨S_, .f32⟩
  | 29 => ⟨S100000x16, .f32⟩
  | 30 => ⟨S1700000x1, .i32⟩
  | 31 => ⟨S100000x16, .f32⟩
  | 32 => ⟨S1x16, .f32⟩
  | 33 => ⟨S16, .f32⟩
  | 34 => ⟨S1x16, .f32⟩
  | 35 => ⟨S100000x16, .i32⟩
  | 36 => ⟨S100000x16, .f32⟩
  | 37 => ⟨S1x16x16, .f32⟩
  | 38 => ⟨S16x16, .f32⟩
  | 39 => ⟨S100000x16, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x16, .f32⟩
  | 49 => ⟨S1700000x1, .f32⟩
  | 50 => ⟨S1700000x16, .f32⟩
  | 51 => ⟨S1700000x16, .f32⟩
  | 52 => ⟨S_, .f32⟩
  | 53 => ⟨S100000x16, .f32⟩
  | 54 => ⟨S1700000x1, .i32⟩
  | 55 => ⟨S100000x16, .f32⟩
  | 56 => ⟨S1x16, .f32⟩
  | 57 => ⟨S16, .f32⟩
  | 58 => ⟨S1x16, .f32⟩
  | 59 => ⟨S100000x16, .i32⟩
  | 60 => ⟨S100000x16, .f32⟩
  | 61 => ⟨S1x16x16, .f32⟩
  | 62 => ⟨S16x16, .f32⟩
  | 63 => ⟨S100000x16, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x16, .f32⟩
  | 73 => ⟨S1700000x1, .f32⟩
  | 74 => ⟨S1700000x16, .f32⟩
  | 75 => ⟨S1700000x16, .f32⟩
  | 76 => ⟨S_, .f32⟩
  | 77 => ⟨S100000x16, .f32⟩
  | 78 => ⟨S1700000x1, .i32⟩
  | 79 => ⟨S100000x16, .f32⟩
  | 80 => ⟨S1x16, .f32⟩
  | 81 => ⟨S16, .f32⟩
  | 82 => ⟨S1x16, .f32⟩
  | 83 => ⟨S100000x16, .i32⟩
  | 84 => ⟨S100000x16, .f32⟩
  | 85 => ⟨S1x16x16, .f32⟩
  | 86 => ⟨S16x16, .f32⟩
  | 87 => ⟨S100000x16, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x16, .f32⟩
  | 97 => ⟨S1700000x1, .f32⟩
  | 98 => ⟨S1700000x16, .f32⟩
  | 99 => ⟨S1700000x16, .f32⟩
  | 100 => ⟨S_, .f32⟩
  | 101 => ⟨S100000x16, .f32⟩
  | 102 => ⟨S1700000x1, .i32⟩
  | 103 => ⟨S100000x16, .f32⟩
  | 104 => ⟨S1x16, .f32⟩
  | 105 => ⟨S16, .f32⟩
  | 106 => ⟨S1x16, .f32⟩
  | 107 => ⟨S100000x16, .i32⟩
  | 108 => ⟨S100000x16, .f32⟩
  | 109 => ⟨S1x16x16, .f32⟩
  | 110 => ⟨S16x16, .f32⟩
  | 111 => ⟨S100000x16, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x16, .f32⟩
  | 121 => ⟨S1700000x1, .f32⟩
  | 122 => ⟨S1700000x16, .f32⟩
  | 123 => ⟨S1700000x16, .f32⟩
  | 124 => ⟨S_, .f32⟩
  | 125 => ⟨S100000x16, .f32⟩
  | 126 => ⟨S1700000x1, .i32⟩
  | 127 => ⟨S100000x16, .f32⟩
  | _ => ⟨S100000x128, .f32⟩

abbrev hbmTy0_2 (i : Nat) : BufTy := match i % 128 with
  | 0 => ⟨S1x16, .f32⟩
  | 1 => ⟨S16, .f32⟩
  | 2 => ⟨S1x16, .f32⟩
  | 3 => ⟨S100000x16, .i32⟩
  | 4 => ⟨S100000x16, .f32⟩
  | 5 => ⟨S1x16x16, .f32⟩
  | 6 => ⟨S16x16, .f32⟩
  | 7 => ⟨S100000x16, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x16, .f32⟩
  | 17 => ⟨S1700000x1, .f32⟩
  | 18 => ⟨S1700000x16, .f32⟩
  | 19 => ⟨S1700000x16, .f32⟩
  | 20 => ⟨S_, .f32⟩
  | 21 => ⟨S100000x16, .f32⟩
  | 22 => ⟨S1700000x1, .i32⟩
  | 23 => ⟨S100000x16, .f32⟩
  | 24 => ⟨S1x16, .f32⟩
  | 25 => ⟨S16, .f32⟩
  | 26 => ⟨S1x16, .f32⟩
  | 27 => ⟨S100000x16, .i32⟩
  | 28 => ⟨S100000x16, .f32⟩
  | 29 => ⟨S1x16x16, .f32⟩
  | 30 => ⟨S16x16, .f32⟩
  | 31 => ⟨S100000x16, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x16, .f32⟩
  | 41 => ⟨S1700000x1, .f32⟩
  | 42 => ⟨S1700000x16, .f32⟩
  | 43 => ⟨S1700000x16, .f32⟩
  | 44 => ⟨S_, .f32⟩
  | 45 => ⟨S100000x16, .f32⟩
  | 46 => ⟨S1700000x1, .i32⟩
  | 47 => ⟨S100000x16, .f32⟩
  | 48 => ⟨S1x16, .f32⟩
  | 49 => ⟨S16, .f32⟩
  | 50 => ⟨S1x16, .f32⟩
  | 51 => ⟨S100000x16, .i32⟩
  | 52 => ⟨S100000x16, .f32⟩
  | 53 => ⟨S1x16x16, .f32⟩
  | 54 => ⟨S16x16, .f32⟩
  | 55 => ⟨S100000x16, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x16, .f32⟩
  | 65 => ⟨S1700000x1, .f32⟩
  | 66 => ⟨S1700000x16, .f32⟩
  | 67 => ⟨S1700000x16, .f32⟩
  | 68 => ⟨S_, .f32⟩
  | 69 => ⟨S100000x16, .f32⟩
  | 70 => ⟨S1700000x1, .i32⟩
  | 71 => ⟨S100000x16, .f32⟩
  | 72 => ⟨S1x16, .f32⟩
  | 73 => ⟨S16, .f32⟩
  | 74 => ⟨S1x16, .f32⟩
  | 75 => ⟨S100000x16, .i32⟩
  | 76 => ⟨S100000x16, .f32⟩
  | 77 => ⟨S128x16, .f32⟩
  | 78 => ⟨S16x16, .f32⟩
  | 79 => ⟨S64x16, .f32⟩
  | 80 => ⟨S1x16, .f32⟩
  | 81 => ⟨S100000x16, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S5000x128, .f32⟩
  | 1 => ⟨S5000x128, .f32⟩
  | 2 => ⟨S128x128, .f32⟩
  | 3 => ⟨S5000x128, .f32⟩
  | 4 => ⟨S5000x128, .f32⟩
  | 5 => ⟨S5000x128, .f32⟩
  | 6 => ⟨S5000x128, .f32⟩
  | 7 => ⟨S1x128, .f32⟩
  | 8 => ⟨S5000x128, .f32⟩
  | 9 => ⟨S5000x128, .f32⟩
  | 10 => ⟨S5000x128, .f32⟩
  | 11 => ⟨S5000x128, .f32⟩
  | 12 => ⟨S128x128, .f32⟩
  | 13 => ⟨S5000x128, .f32⟩
  | 14 => ⟨S5000x128, .f32⟩
  | 15 => ⟨S5000x128, .f32⟩
  | 16 => ⟨S5000x128, .f32⟩
  | 17 => ⟨S1x128, .f32⟩
  | 18 => ⟨S5000x128, .f32⟩
  | 19 => ⟨S5000x128, .f32⟩
  | 20 => ⟨S5000x16, .f32⟩
  | 21 => ⟨S5000x16, .f32⟩
  | 22 => ⟨S16x16, .f32⟩
  | 23 => ⟨S5000x16, .f32⟩
  | 24 => ⟨S5000x16, .f32⟩
  | 25 => ⟨S5000x16, .f32⟩
  | 26 => ⟨S5000x16, .f32⟩
  | 27 => ⟨S1x16, .f32⟩
  | 28 => ⟨S5000x16, .f32⟩
  | 29 => ⟨S5000x16, .f32⟩
  | 30 => ⟨S5000x16, .i32⟩
  | 31 => ⟨S5000x16, .i32⟩
  | 32 => ⟨S5000x16, .f32⟩
  | 33 => ⟨S5000x16, .f32⟩
  | 34 => ⟨S5000x16, .f32⟩
  | 35 => ⟨S5000x16, .f32⟩
  | 36 => ⟨S16x16, .f32⟩
  | 37 => ⟨S5000x16, .f32⟩
  | 38 => ⟨S5000x16, .f32⟩
  | 39 => ⟨S5000x16, .f32⟩
  | 40 => ⟨S5000x16, .f32⟩
  | 41 => ⟨S1x16, .f32⟩
  | 42 => ⟨S5000x16, .f32⟩
  | 43 => ⟨S5000x16, .f32⟩
  | 44 => ⟨S5000x16, .i32⟩
  | 45 => ⟨S5000x16, .i32⟩
  | 46 => ⟨S5000x16, .f32⟩
  | 47 => ⟨S5000x16, .f32⟩
  | 48 => ⟨S5000x16, .f32⟩
  | 49 => ⟨S5000x16, .f32⟩
  | 50 => ⟨S16x16, .f32⟩
  | 51 => ⟨S5000x16, .f32⟩
  | 52 => ⟨S5000x16, .f32⟩
  | 53 => ⟨S5000x16, .f32⟩
  | 54 => ⟨S5000x16, .f32⟩
  | 55 => ⟨S1x16, .f32⟩
  | 56 => ⟨S5000x16, .f32⟩
  | 57 => ⟨S5000x16, .f32⟩
  | 58 => ⟨S5000x16, .i32⟩
  | 59 => ⟨S5000x16, .i32⟩
  | 60 => ⟨S5000x16, .f32⟩
  | 61 => ⟨S5000x16, .f32⟩
  | 62 => ⟨S5000x16, .f32⟩
  | 63 => ⟨S5000x16, .f32⟩
  | 64 => ⟨S16x16, .f32⟩
  | 65 => ⟨S5000x16, .f32⟩
  | 66 => ⟨S5000x16, .f32⟩
  | 67 => ⟨S5000x16, .f32⟩
  | 68 => ⟨S5000x16, .f32⟩
  | 69 => ⟨S1x16, .f32⟩
  | 70 => ⟨S5000x16, .f32⟩
  | 71 => ⟨S5000x16, .f32⟩
  | 72 => ⟨S5000x16, .i32⟩
  | 73 => ⟨S5000x16, .i32⟩
  | 74 => ⟨S5000x16, .f32⟩
  | 75 => ⟨S5000x16, .f32⟩
  | 76 => ⟨S5000x16, .f32⟩
  | 77 => ⟨S5000x16, .f32⟩
  | 78 => ⟨S16x16, .f32⟩
  | 79 => ⟨S5000x16, .f32⟩
  | 80 => ⟨S5000x16, .f32⟩
  | 81 => ⟨S5000x16, .f32⟩
  | 82 => ⟨S5000x16, .f32⟩
  | 83 => ⟨S1x16, .f32⟩
  | 84 => ⟨S5000x16, .f32⟩
  | 85 => ⟨S5000x16, .f32⟩
  | 86 => ⟨S5000x16, .i32⟩
  | 87 => ⟨S5000x16, .i32⟩
  | 88 => ⟨S5000x16, .f32⟩
  | 89 => ⟨S5000x16, .f32⟩
  | 90 => ⟨S5000x16, .f32⟩
  | 91 => ⟨S5000x16, .f32⟩
  | 92 => ⟨S16x16, .f32⟩
  | 93 => ⟨S5000x16, .f32⟩
  | 94 => ⟨S5000x16, .f32⟩
  | 95 => ⟨S5000x16, .f32⟩
  | 96 => ⟨S5000x16, .f32⟩
  | 97 => ⟨S1x16, .f32⟩
  | 98 => ⟨S5000x16, .f32⟩
  | 99 => ⟨S5000x16, .f32⟩
  | 100 => ⟨S5000x16, .i32⟩
  | 101 => ⟨S5000x16, .i32⟩
  | 102 => ⟨S5000x16, .f32⟩
  | 103 => ⟨S5000x16, .f32⟩
  | 104 => ⟨S5000x16, .f32⟩
  | 105 => ⟨S5000x16, .f32⟩
  | 106 => ⟨S16x16, .f32⟩
  | 107 => ⟨S5000x16, .f32⟩
  | 108 => ⟨S5000x16, .f32⟩
  | 109 => ⟨S5000x16, .f32⟩
  | 110 => ⟨S5000x16, .f32⟩
  | 111 => ⟨S1x16, .f32⟩
  | 112 => ⟨S5000x16, .f32⟩
  | 113 => ⟨S5000x16, .f32⟩
  | 114 => ⟨S5000x16, .i32⟩
  | 115 => ⟨S5000x16, .i32⟩
  | 116 => ⟨S5000x16, .f32⟩
  | 117 => ⟨S5000x16, .f32⟩
  | 118 => ⟨S5000x16, .f32⟩
  | 119 => ⟨S5000x16, .f32⟩
  | 120 => ⟨S16x16, .f32⟩
  | 121 => ⟨S5000x16, .f32⟩
  | 122 => ⟨S5000x16, .f32⟩
  | 123 => ⟨S5000x16, .f32⟩
  | 124 => ⟨S5000x16, .f32⟩
  | 125 => ⟨S1x16, .f32⟩
  | 126 => ⟨S5000x16, .f32⟩
  | 127 => ⟨S5000x16, .f32⟩
  | _ => ⟨S100000x128, .f32⟩

abbrev vmemTy0_1 (i : Nat) : BufTy := match i % 128 with
  | 0 => ⟨S5000x16, .i32⟩
  | 1 => ⟨S5000x16, .i32⟩
  | 2 => ⟨S5000x16, .f32⟩
  | 3 => ⟨S5000x16, .f32⟩
  | 4 => ⟨S5000x16, .f32⟩
  | 5 => ⟨S5000x16, .f32⟩
  | 6 => ⟨S16x16, .f32⟩
  | 7 => ⟨S5000x16, .f32⟩
  | 8 => ⟨S5000x16, .f32⟩
  | 9 => ⟨S5000x16, .f32⟩
  | 10 => ⟨S5000x16, .f32⟩
  | 11 => ⟨S1x16, .f32⟩
  | 12 => ⟨S5000x16, .f32⟩
  | 13 => ⟨S5000x16, .f32⟩
  | 14 => ⟨S5000x16, .i32⟩
  | 15 => ⟨S5000x16, .i32⟩
  | 16 => ⟨S5000x16, .f32⟩
  | 17 => ⟨S5000x16, .f32⟩
  | 18 => ⟨S5000x16, .f32⟩
  | 19 => ⟨S5000x16, .f32⟩
  | 20 => ⟨S16x16, .f32⟩
  | 21 => ⟨S5000x16, .f32⟩
  | 22 => ⟨S5000x16, .f32⟩
  | 23 => ⟨S5000x16, .f32⟩
  | 24 => ⟨S5000x16, .f32⟩
  | 25 => ⟨S1x16, .f32⟩
  | 26 => ⟨S5000x16, .f32⟩
  | 27 => ⟨S5000x16, .f32⟩
  | 28 => ⟨S5000x16, .i32⟩
  | 29 => ⟨S5000x16, .i32⟩
  | 30 => ⟨S5000x16, .f32⟩
  | 31 => ⟨S5000x16, .f32⟩
  | 32 => ⟨S5000x128, .f32⟩
  | 33 => ⟨S5000x128, .f32⟩
  | 34 => ⟨S5000x16, .f32⟩
  | 35 => ⟨S5000x16, .f32⟩
  | 36 => ⟨S5000x64, .f32⟩
  | 37 => ⟨S5000x64, .f32⟩
  | 38 => ⟨S128x16, .f32⟩
  | 39 => ⟨S16x16, .f32⟩
  | 40 => ⟨S64x16, .f32⟩
  | 41 => ⟨S1x16, .f32⟩
  | 42 => ⟨S5000x16, .f32⟩
  | 43 => ⟨S5000x16, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 172 → Bool
  | ⟨i, _⟩ => dmaSemScopedAt i

abbrev sig : RefSig :=
  ofTc nBuf bufTy 0 172 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_18 : Ref sig .tc := ⟨.hbm, 144, rfl⟩
abbrev main_v109 : Ref sig .tc := ⟨.hbm, 145, rfl⟩
abbrev main_v110 : Ref sig .tc := ⟨.hbm, 146, rfl⟩
abbrev main_c_19 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_20 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_21 : Ref sig .tc := ⟨.hbm, 168, rfl⟩
abbrev main_v130 : Ref sig .tc := ⟨.hbm, 169, rfl⟩
abbrev main_v131 : Ref sig .tc := ⟨.hbm, 170, rfl⟩
abbrev main_c_22 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_23 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_c_24 : Ref sig .tc := ⟨.hbm, 192, rfl⟩
abbrev main_v151 : Ref sig .tc := ⟨.hbm, 193, rfl⟩
abbrev main_v152 : Ref sig .tc := ⟨.hbm, 194, rfl⟩
abbrev main_c_25 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_26 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_c_27 : Ref sig .tc := ⟨.hbm, 216, rfl⟩
abbrev main_v172 : Ref sig .tc := ⟨.hbm, 217, rfl⟩
abbrev main_v173 : Ref sig .tc := ⟨.hbm, 218, rfl⟩
abbrev main_c_28 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_29 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_c_30 : Ref sig .tc := ⟨.hbm, 240, rfl⟩
abbrev main_v193 : Ref sig .tc := ⟨.hbm, 241, rfl⟩
abbrev main_v194 : Ref sig .tc := ⟨.hbm, 242, rfl⟩
abbrev main_c_31 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_cst_32 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_c_33 : Ref sig .tc := ⟨.hbm, 264, rfl⟩
abbrev main_v214 : Ref sig .tc := ⟨.hbm, 265, rfl⟩
abbrev main_v215 : Ref sig .tc := ⟨.hbm, 266, rfl⟩
abbrev main_c_34 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_cst_35 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_c_36 : Ref sig .tc := ⟨.hbm, 288, rfl⟩
abbrev main_v235 : Ref sig .tc := ⟨.hbm, 289, rfl⟩
abbrev main_v236 : Ref sig .tc := ⟨.hbm, 290, rfl⟩
abbrev main_c_37 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_cst_38 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_c_39 : Ref sig .tc := ⟨.hbm, 312, rfl⟩
abbrev main_v256 : Ref sig .tc := ⟨.hbm, 313, rfl⟩
abbrev main_v257 : Ref sig .tc := ⟨.hbm, 314, rfl⟩
abbrev main_c_40 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_cst_41 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc5_stg4_0 : Ref sig .tc := ⟨.vmem, 32, rfl⟩
abbrev cc5_stg4_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc7_stg4_0 : Ref sig .tc := ⟨.vmem, 46, rfl⟩
abbrev cc7_stg4_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg2_1 : Ref sig .tc := ⟨.vmem, 57, rfl⟩
abbrev cc9_stg3_0 : Ref sig .tc := ⟨.vmem, 58, rfl⟩
abbrev cc9_stg3_1 : Ref sig .tc := ⟨.vmem, 59, rfl⟩
abbrev cc9_stg4_0 : Ref sig .tc := ⟨.vmem, 60, rfl⟩
abbrev cc9_stg4_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg2_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg2_1 : Ref sig .tc := ⟨.vmem, 71, rfl⟩
abbrev cc11_stg3_0 : Ref sig .tc := ⟨.vmem, 72, rfl⟩
abbrev cc11_stg3_1 : Ref sig .tc := ⟨.vmem, 73, rfl⟩
abbrev cc11_stg4_0 : Ref sig .tc := ⟨.vmem, 74, rfl⟩
abbrev cc11_stg4_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg2_0 : Ref sig .tc := ⟨.vmem, 79, rfl⟩
abbrev cc12_stg2_1 : Ref sig .tc := ⟨.vmem, 80, rfl⟩
abbrev cc13_stg0_0 : Ref sig .tc := ⟨.vmem, 81, rfl⟩
abbrev cc13_stg0_1 : Ref sig .tc := ⟨.vmem, 82, rfl⟩
abbrev cc13_stg1_0 : Ref sig .tc := ⟨.vmem, 83, rfl⟩
abbrev cc13_stg2_0 : Ref sig .tc := ⟨.vmem, 84, rfl⟩
abbrev cc13_stg2_1 : Ref sig .tc := ⟨.vmem, 85, rfl⟩
abbrev cc13_stg3_0 : Ref sig .tc := ⟨.vmem, 86, rfl⟩
abbrev cc13_stg3_1 : Ref sig .tc := ⟨.vmem, 87, rfl⟩
abbrev cc13_stg4_0 : Ref sig .tc := ⟨.vmem, 88, rfl⟩
abbrev cc13_stg4_1 : Ref sig .tc := ⟨.vmem, 89, rfl⟩
abbrev cc14_stg0_0 : Ref sig .tc := ⟨.vmem, 90, rfl⟩
abbrev cc14_stg0_1 : Ref sig .tc := ⟨.vmem, 91, rfl⟩
abbrev cc14_stg1_0 : Ref sig .tc := ⟨.vmem, 92, rfl⟩
abbrev cc14_stg2_0 : Ref sig .tc := ⟨.vmem, 93, rfl⟩
abbrev cc14_stg2_1 : Ref sig .tc := ⟨.vmem, 94, rfl⟩
abbrev cc15_stg0_0 : Ref sig .tc := ⟨.vmem, 95, rfl⟩
abbrev cc15_stg0_1 : Ref sig .tc := ⟨.vmem, 96, rfl⟩
abbrev cc15_stg1_0 : Ref sig .tc := ⟨.vmem, 97, rfl⟩
abbrev cc15_stg2_0 : Ref sig .tc := ⟨.vmem, 98, rfl⟩
abbrev cc15_stg2_1 : Ref sig .tc := ⟨.vmem, 99, rfl⟩
abbrev cc15_stg3_0 : Ref sig .tc := ⟨.vmem, 100, rfl⟩
abbrev cc15_stg3_1 : Ref sig .tc := ⟨.vmem, 101, rfl⟩
abbrev cc15_stg4_0 : Ref sig .tc := ⟨.vmem, 102, rfl⟩
abbrev cc15_stg4_1 : Ref sig .tc := ⟨.vmem, 103, rfl⟩
abbrev cc16_stg0_0 : Ref sig .tc := ⟨.vmem, 104, rfl⟩
abbrev cc16_stg0_1 : Ref sig .tc := ⟨.vmem, 105, rfl⟩
abbrev cc16_stg1_0 : Ref sig .tc := ⟨.vmem, 106, rfl⟩
abbrev cc16_stg2_0 : Ref sig .tc := ⟨.vmem, 107, rfl⟩
abbrev cc16_stg2_1 : Ref sig .tc := ⟨.vmem, 108, rfl⟩
abbrev cc17_stg0_0 : Ref sig .tc := ⟨.vmem, 109, rfl⟩
abbrev cc17_stg0_1 : Ref sig .tc := ⟨.vmem, 110, rfl⟩
abbrev cc17_stg1_0 : Ref sig .tc := ⟨.vmem, 111, rfl⟩
abbrev cc17_stg2_0 : Ref sig .tc := ⟨.vmem, 112, rfl⟩
abbrev cc17_stg2_1 : Ref sig .tc := ⟨.vmem, 113, rfl⟩
abbrev cc17_stg3_0 : Ref sig .tc := ⟨.vmem, 114, rfl⟩
abbrev cc17_stg3_1 : Ref sig .tc := ⟨.vmem, 115, rfl⟩
abbrev cc17_stg4_0 : Ref sig .tc := ⟨.vmem, 116, rfl⟩
abbrev cc17_stg4_1 : Ref sig .tc := ⟨.vmem, 117, rfl⟩
abbrev cc18_stg0_0 : Ref sig .tc := ⟨.vmem, 118, rfl⟩
abbrev cc18_stg0_1 : Ref sig .tc := ⟨.vmem, 119, rfl⟩
abbrev cc18_stg1_0 : Ref sig .tc := ⟨.vmem, 120, rfl⟩
abbrev cc18_stg2_0 : Ref sig .tc := ⟨.vmem, 121, rfl⟩
abbrev cc18_stg2_1 : Ref sig .tc := ⟨.vmem, 122, rfl⟩
abbrev cc19_stg0_0 : Ref sig .tc := ⟨.vmem, 123, rfl⟩
abbrev cc19_stg0_1 : Ref sig .tc := ⟨.vmem, 124, rfl⟩
abbrev cc19_stg1_0 : Ref sig .tc := ⟨.vmem, 125, rfl⟩
abbrev cc19_stg2_0 : Ref sig .tc := ⟨.vmem, 126, rfl⟩
abbrev cc19_stg2_1 : Ref sig .tc := ⟨.vmem, 127, rfl⟩
abbrev cc19_stg3_0 : Ref sig .tc := ⟨.vmem, 128, rfl⟩
abbrev cc19_stg3_1 : Ref sig .tc := ⟨.vmem, 129, rfl⟩
abbrev cc19_stg4_0 : Ref sig .tc := ⟨.vmem, 130, rfl⟩
abbrev cc19_stg4_1 : Ref sig .tc := ⟨.vmem, 131, rfl⟩
abbrev cc20_stg0_0 : Ref sig .tc := ⟨.vmem, 132, rfl⟩
abbrev cc20_stg0_1 : Ref sig .tc := ⟨.vmem, 133, rfl⟩
abbrev cc20_stg1_0 : Ref sig .tc := ⟨.vmem, 134, rfl⟩
abbrev cc20_stg2_0 : Ref sig .tc := ⟨.vmem, 135, rfl⟩
abbrev cc20_stg2_1 : Ref sig .tc := ⟨.vmem, 136, rfl⟩
abbrev cc21_stg0_0 : Ref sig .tc := ⟨.vmem, 137, rfl⟩
abbrev cc21_stg0_1 : Ref sig .tc := ⟨.vmem, 138, rfl⟩
abbrev cc21_stg1_0 : Ref sig .tc := ⟨.vmem, 139, rfl⟩
abbrev cc21_stg2_0 : Ref sig .tc := ⟨.vmem, 140, rfl⟩
abbrev cc21_stg2_1 : Ref sig .tc := ⟨.vmem, 141, rfl⟩
abbrev cc21_stg3_0 : Ref sig .tc := ⟨.vmem, 142, rfl⟩
abbrev cc21_stg3_1 : Ref sig .tc := ⟨.vmem, 143, rfl⟩
abbrev cc21_stg4_0 : Ref sig .tc := ⟨.vmem, 144, rfl⟩
abbrev cc21_stg4_1 : Ref sig .tc := ⟨.vmem, 145, rfl⟩
abbrev cc22_stg0_0 : Ref sig .tc := ⟨.vmem, 146, rfl⟩
abbrev cc22_stg0_1 : Ref sig .tc := ⟨.vmem, 147, rfl⟩
abbrev cc22_stg1_0 : Ref sig .tc := ⟨.vmem, 148, rfl⟩
abbrev cc22_stg2_0 : Ref sig .tc := ⟨.vmem, 149, rfl⟩
abbrev cc22_stg2_1 : Ref sig .tc := ⟨.vmem, 150, rfl⟩
abbrev cc23_stg0_0 : Ref sig .tc := ⟨.vmem, 151, rfl⟩
abbrev cc23_stg0_1 : Ref sig .tc := ⟨.vmem, 152, rfl⟩
abbrev cc23_stg1_0 : Ref sig .tc := ⟨.vmem, 153, rfl⟩
abbrev cc23_stg2_0 : Ref sig .tc := ⟨.vmem, 154, rfl⟩
abbrev cc23_stg2_1 : Ref sig .tc := ⟨.vmem, 155, rfl⟩
abbrev cc23_stg3_0 : Ref sig .tc := ⟨.vmem, 156, rfl⟩
abbrev cc23_stg3_1 : Ref sig .tc := ⟨.vmem, 157, rfl⟩
abbrev cc23_stg4_0 : Ref sig .tc := ⟨.vmem, 158, rfl⟩
abbrev cc23_stg4_1 : Ref sig .tc := ⟨.vmem, 159, rfl⟩
abbrev cc24_stg0_0 : Ref sig .tc := ⟨.vmem, 160, rfl⟩
abbrev cc24_stg0_1 : Ref sig .tc := ⟨.vmem, 161, rfl⟩
abbrev cc24_stg1_0 : Ref sig .tc := ⟨.vmem, 162, rfl⟩
abbrev cc24_stg1_1 : Ref sig .tc := ⟨.vmem, 163, rfl⟩
abbrev cc24_stg2_0 : Ref sig .tc := ⟨.vmem, 164, rfl⟩
abbrev cc24_stg2_1 : Ref sig .tc := ⟨.vmem, 165, rfl⟩
abbrev cc24_stg3_0 : Ref sig .tc := ⟨.vmem, 166, rfl⟩
abbrev cc24_stg4_0 : Ref sig .tc := ⟨.vmem, 167, rfl⟩
abbrev cc24_stg5_0 : Ref sig .tc := ⟨.vmem, 168, rfl⟩
abbrev cc24_stg6_0 : Ref sig .tc := ⟨.vmem, 169, rfl⟩
abbrev cc24_stg7_0 : Ref sig .tc := ⟨.vmem, 170, rfl⟩
abbrev cc24_stg7_1 : Ref sig .tc := ⟨.vmem, 171, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc5_sem3_0 : DmaSem sig := 30
abbrev cc5_sem3_1 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc7_sem3_0 : DmaSem sig := 44
abbrev cc7_sem3_1 : DmaSem sig := 45
abbrev cc7_sem4_0 : DmaSem sig := 46
abbrev cc7_sem4_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem2_0 : DmaSem sig := 56
abbrev cc9_sem2_1 : DmaSem sig := 57
abbrev cc9_sem3_0 : DmaSem sig := 58
abbrev cc9_sem3_1 : DmaSem sig := 59
abbrev cc9_sem4_0 : DmaSem sig := 60
abbrev cc9_sem4_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem2_1 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem2_1 : DmaSem sig := 71
abbrev cc11_sem3_0 : DmaSem sig := 72
abbrev cc11_sem3_1 : DmaSem sig := 73
abbrev cc11_sem4_0 : DmaSem sig := 74
abbrev cc11_sem4_1 : DmaSem sig := 75
abbrev cc12_sem0_0 : DmaSem sig := 76
abbrev cc12_sem0_1 : DmaSem sig := 77
abbrev cc12_sem1_0 : DmaSem sig := 78
abbrev cc12_sem2_0 : DmaSem sig := 79
abbrev cc12_sem2_1 : DmaSem sig := 80
abbrev cc13_sem0_0 : DmaSem sig := 81
abbrev cc13_sem0_1 : DmaSem sig := 82
abbrev cc13_sem1_0 : DmaSem sig := 83
abbrev cc13_sem2_0 : DmaSem sig := 84
abbrev cc13_sem2_1 : DmaSem sig := 85
abbrev cc13_sem3_0 : DmaSem sig := 86
abbrev cc13_sem3_1 : DmaSem sig := 87
abbrev cc13_sem4_0 : DmaSem sig := 88
abbrev cc13_sem4_1 : DmaSem sig := 89
abbrev cc14_sem0_0 : DmaSem sig := 90
abbrev cc14_sem0_1 : DmaSem sig := 91
abbrev cc14_sem1_0 : DmaSem sig := 92
abbrev cc14_sem2_0 : DmaSem sig := 93
abbrev cc14_sem2_1 : DmaSem sig := 94
abbrev cc15_sem0_0 : DmaSem sig := 95
abbrev cc15_sem0_1 : DmaSem sig := 96
abbrev cc15_sem1_0 : DmaSem sig := 97
abbrev cc15_sem2_0 : DmaSem sig := 98
abbrev cc15_sem2_1 : DmaSem sig := 99
abbrev cc15_sem3_0 : DmaSem sig := 100
abbrev cc15_sem3_1 : DmaSem sig := 101
abbrev cc15_sem4_0 : DmaSem sig := 102
abbrev cc15_sem4_1 : DmaSem sig := 103
abbrev cc16_sem0_0 : DmaSem sig := 104
abbrev cc16_sem0_1 : DmaSem sig := 105
abbrev cc16_sem1_0 : DmaSem sig := 106
abbrev cc16_sem2_0 : DmaSem sig := 107
abbrev cc16_sem2_1 : DmaSem sig := 108
abbrev cc17_sem0_0 : DmaSem sig := 109
abbrev cc17_sem0_1 : DmaSem sig := 110
abbrev cc17_sem1_0 : DmaSem sig := 111
abbrev cc17_sem2_0 : DmaSem sig := 112
abbrev cc17_sem2_1 : DmaSem sig := 113
abbrev cc17_sem3_0 : DmaSem sig := 114
abbrev cc17_sem3_1 : DmaSem sig := 115
abbrev cc17_sem4_0 : DmaSem sig := 116
abbrev cc17_sem4_1 : DmaSem sig := 117
abbrev cc18_sem0_0 : DmaSem sig := 118
abbrev cc18_sem0_1 : DmaSem sig := 119
abbrev cc18_sem1_0 : DmaSem sig := 120
abbrev cc18_sem2_0 : DmaSem sig := 121
abbrev cc18_sem2_1 : DmaSem sig := 122
abbrev cc19_sem0_0 : DmaSem sig := 123
abbrev cc19_sem0_1 : DmaSem sig := 124
abbrev cc19_sem1_0 : DmaSem sig := 125
abbrev cc19_sem2_0 : DmaSem sig := 126
abbrev cc19_sem2_1 : DmaSem sig := 127
abbrev cc19_sem3_0 : DmaSem sig := 128
abbrev cc19_sem3_1 : DmaSem sig := 129
abbrev cc19_sem4_0 : DmaSem sig := 130
abbrev cc19_sem4_1 : DmaSem sig := 131
abbrev cc20_sem0_0 : DmaSem sig := 132
abbrev cc20_sem0_1 : DmaSem sig := 133
abbrev cc20_sem1_0 : DmaSem sig := 134
abbrev cc20_sem2_0 : DmaSem sig := 135
abbrev cc20_sem2_1 : DmaSem sig := 136
abbrev cc21_sem0_0 : DmaSem sig := 137
abbrev cc21_sem0_1 : DmaSem sig := 138
abbrev cc21_sem1_0 : DmaSem sig := 139
abbrev cc21_sem2_0 : DmaSem sig := 140
abbrev cc21_sem2_1 : DmaSem sig := 141
abbrev cc21_sem3_0 : DmaSem sig := 142
abbrev cc21_sem3_1 : DmaSem sig := 143
abbrev cc21_sem4_0 : DmaSem sig := 144
abbrev cc21_sem4_1 : DmaSem sig := 145
abbrev cc22_sem0_0 : DmaSem sig := 146
abbrev cc22_sem0_1 : DmaSem sig := 147
abbrev cc22_sem1_0 : DmaSem sig := 148
abbrev cc22_sem2_0 : DmaSem sig := 149
abbrev cc22_sem2_1 : DmaSem sig := 150
abbrev cc23_sem0_0 : DmaSem sig := 151
abbrev cc23_sem0_1 : DmaSem sig := 152
abbrev cc23_sem1_0 : DmaSem sig := 153
abbrev cc23_sem2_0 : DmaSem sig := 154
abbrev cc23_sem2_1 : DmaSem sig := 155
abbrev cc23_sem3_0 : DmaSem sig := 156
abbrev cc23_sem3_1 : DmaSem sig := 157
abbrev cc23_sem4_0 : DmaSem sig := 158
abbrev cc23_sem4_1 : DmaSem sig := 159
abbrev cc24_sem0_0 : DmaSem sig := 160
abbrev cc24_sem0_1 : DmaSem sig := 161
abbrev cc24_sem1_0 : DmaSem sig := 162
abbrev cc24_sem1_1 : DmaSem sig := 163
abbrev cc24_sem2_0 : DmaSem sig := 164
abbrev cc24_sem2_1 : DmaSem sig := 165
abbrev cc24_sem3_0 : DmaSem sig := 166
abbrev cc24_sem4_0 : DmaSem sig := 167
abbrev cc24_sem5_0 : DmaSem sig := 168
abbrev cc24_sem6_0 : DmaSem sig := 169
abbrev cc24_sem7_0 : DmaSem sig := 170
abbrev cc24_sem7_1 : DmaSem sig := 171

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x16 .i32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x16 .i32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x16 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S16x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x16 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x16 .i32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x16 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S16x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x16 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x16 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x16 .i32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S5000x16 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x16 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S16x16 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x16 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x16 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x16 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x16 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S5000x16 .i32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S5000x16 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x16 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S16x16 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x16 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x16 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x16 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x16 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S5000x16 .i32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S5000x16 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x16 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S16x16 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S5000x16 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![20], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x16 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x16 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x16 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S5000x16 .i32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S5000x16 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![20], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x16 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S16x16 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S5000x16 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![20], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x16 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x16 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S5000x16 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S5000x16 .i32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev stage19_4 : Fin 2 → Memref sig .tc .vmem S5000x16 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev grid20 : Pipeline.Grid := ⟨1, ![20], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x16 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S16x16 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S5000x16 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![20], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_4 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x16 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x16 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S5000x16 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev stage21_3 : Fin 2 → Memref sig .tc .vmem S5000x16 .i32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev stage21_4 : Fin 2 → Memref sig .tc .vmem S5000x16 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![true]

abbrev grid22 : Pipeline.Grid := ⟨1, ![20], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x16 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S16x16 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S5000x16 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![20], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_4 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S5000x16 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x16 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 2 → Memref sig .tc .vmem S5000x16 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev stage23_3 : Fin 2 → Memref sig .tc .vmem S5000x16 .i32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev stage23_4 : Fin 2 → Memref sig .tc .vmem S5000x16 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true]

abbrev grid24 : Pipeline.Grid := ⟨1, ![20], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_5 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_6 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_7 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S5000x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x16 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S5000x64 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 1 → Memref sig .tc .vmem S128x16 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S16x16 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 1 → Memref sig .tc .vmem S64x16 .f32 := fun | 0 => Memref.whole cc24_stg5_0 | ⟨_ + 1, h⟩ => absurd h (Nat.not_lt.2 (Nat.le_add_left _ _))
abbrev sem24_5 : Fin 1 → DmaSem sig := fun | 0 => cc24_sem5_0 | ⟨_ + 1, h⟩ => absurd h (Nat.not_lt.2 (Nat.le_add_left _ _))
abbrev reads24_5 : Fin grid24.rank → Bool := ![false]

abbrev stage24_6 : Fin 1 → Memref sig .tc .vmem S1x16 .f32 := fun | 0 => Memref.whole cc24_stg6_0 | ⟨_ + 1, h⟩ => absurd h (Nat.not_lt.2 (Nat.le_add_left _ _))
abbrev sem24_6 : Fin 1 → DmaSem sig := fun | 0 => cc24_sem6_0 | ⟨_ + 1, h⟩ => absurd h (Nat.not_lt.2 (Nat.le_add_left _ _))
abbrev reads24_6 : Fin grid24.rank → Bool := ![false]

abbrev stage24_7 : Fin 2 → Memref sig .tc .vmem S5000x16 .f32 := fun | 0 => Memref.whole cc24_stg7_0 | 1 => Memref.whole cc24_stg7_1 | ⟨_ + 2, h⟩ => absurd h (Nat.not_lt.2 (Nat.le_add_left _ _))
abbrev sem24_7 : Fin 2 → DmaSem sig := fun | 0 => cc24_sem7_0 | 1 => cc24_sem7_1 | ⟨_ + 2, h⟩ => absurd h (Nat.not_lt.2 (Nat.le_add_left _ _))
abbrev reads24_7 : Fin grid24.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  slices_S10x16x16_S1x16x16_0_0_0 : S10x16x16.Slices ![0, 0, 0] S1x16x16
  shapeCasts_S1x16x16_S16x16 : S1x16x16.ShapeCasts S16x16
  inb_S5000x16_S5000x16_0_0 : ∀ a, (![0, 0] : Fin 2 → Nat) a + S5000x16.size a ≤ S5000x16.size a
  h_S5000x16 : 0 < S5000x16.numel
  inb_S16x16_S16x16_0_0 : ∀ a, (![0, 0] : Fin 2 → Nat) a + S16x16.size a ≤ S16x16.size a
  h_S16x16 : 0 < S16x16.numel
  shapeCasts_S16x16_S16x16 : S16x16.ShapeCasts S16x16
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  slices_S10x16_S1x16_0_0 : S10x16.Slices ![0, 0] S1x16
  shapeCasts_S1x16_S16 : S1x16.ShapeCasts S16
  shapeCasts_S16_S1x16 : S16.ShapeCasts S1x16
  natLt_1_32 : 1 < 32
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  slices_S10x16x16_S1x16x16_1_0_0 : S10x16x16.Slices ![1, 0, 0] S1x16x16
  slices_S10x16_S1x16_1_0 : S10x16.Slices ![1, 0] S1x16
  slices_S10x16x16_S1x16x16_2_0_0 : S10x16x16.Slices ![2, 0, 0] S1x16x16
  slices_S10x16_S1x16_2_0 : S10x16.Slices ![2, 0] S1x16
  slices_S10x16x16_S1x16x16_3_0_0 : S10x16x16.Slices ![3, 0, 0] S1x16x16
  slices_S10x16_S1x16_3_0 : S10x16.Slices ![3, 0] S1x16
  slices_S10x16x16_S1x16x16_4_0_0 : S10x16x16.Slices ![4, 0, 0] S1x16x16
  slices_S10x16_S1x16_4_0 : S10x16.Slices ![4, 0] S1x16
  slices_S10x16x16_S1x16x16_5_0_0 : S10x16x16.Slices ![5, 0, 0] S1x16x16
  slices_S10x16_S1x16_5_0 : S10x16.Slices ![5, 0] S1x16
  slices_S10x16x16_S1x16x16_6_0_0 : S10x16x16.Slices ![6, 0, 0] S1x16x16
  slices_S10x16_S1x16_6_0 : S10x16.Slices ![6, 0] S1x16
  slices_S10x16x16_S1x16x16_7_0_0 : S10x16x16.Slices ![7, 0, 0] S1x16x16
  slices_S10x16_S1x16_7_0 : S10x16.Slices ![7, 0] S1x16
  slices_S10x16x16_S1x16x16_8_0_0 : S10x16x16.Slices ![8, 0, 0] S1x16x16
  slices_S10x16_S1x16_8_0 : S10x16.Slices ![8, 0] S1x16
  slices_S10x16x16_S1x16x16_9_0_0 : S10x16x16.Slices ![9, 0, 0] S1x16x16
  slices_S10x16_S1x16_9_0 : S10x16.Slices ![9, 0] S1x16
  slices_S208x16_S128x16_0_0 : S208x16.Slices ![0, 0] S128x16
  slices_S208x16_S16x16_128_0 : S208x16.Slices ![128, 0] S16x16
  slices_S208x16_S64x16_144_0 : S208x16.Slices ![144, 0] S64x16
  inb_S5000x64_S5000x64_0_0 : ∀ a, (![0, 0] : Fin 2 → Nat) a + S5000x64.size a ≤ S5000x64.size a
  h_S5000x64 : 0 < S5000x64.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x16_S16x16_S5000x16_1_0_0_1_n_n_wf : DotDims.WF S5000x16 S16x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x128_S128x16_S5000x16_1_0_0_1_n_n_wf : DotDims.WF S5000x128 S128x16 S5000x16 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S100000x16.size a
  hwx5_3 : ∀ i : grid5.Coords, EltTy.bits .i32 = 32 ∨ (Rect.block (s := S100000x16) S5000x16.size (cc5_transform_3 i) (hinb5_3 i)).WholeWords (EltTy.packing .i32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x16.size a ≤ S100000x16.size a
  hwx5_4 : ∀ i : grid5.Coords, EltTy.bits .f32 = 32 ∨ (Rect.block (s := S100000x16) S5000x16.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S100000x16.size a
  hwx6_0 : ∀ i : grid6.Coords, EltTy.bits .f32 = 32 ∨ (Rect.block (s := S100000x16) S5000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x16.size a ≤ S16x16.size a
  hwx6_1 : ∀ i : grid6.Coords, EltTy.bits .f32 = 32 ∨ (Rect.block (s := S16x16) S16x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x16.size a ≤ S100000x16.size a
  hwx6_2 : ∀ i : grid6.Coords, EltTy.bits .f32 = 32 ∨ (Rect.block (s := S100000x16) S5000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S100000x16.size a
  hwx7_0 : ∀ i : grid7.Coords, EltTy.bits .f32 = 32 ∨ (Rect.block (s := S100000x16) S5000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x16.size a ≤ S1x16.size a
  hwx7_1 : ∀ i : grid7.Coords, EltTy.bits .f32 = 32 ∨ (Rect.block (s := S1x16) S1x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S100000x16.size a
  hwx7_2 : ∀ i : grid7.Coords, EltTy.bits .f32 = 32 ∨ (Rect.block (s := S100000x16) S5000x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x16.size a ≤ S100000x16.size a
  hwx7_3 : ∀ i : grid7.Coords, EltTy.bits .i32 = 32 ∨ (Rect.block (s := S100000x16) S5000x16.size (cc7_transform_3 i) (hinb7_3 i)).WholeWords (EltTy.packing .i32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x16.size a ≤ S100000x16.size a
  hwx7_4 : ∀ i : grid7.Coords, EltTy.bits .f32 = 32 ∨ (Rect.block (s := S100000x16) S5000x16.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x16.size a ≤ S100000x16.size a
  hwx8_0 : ∀ i : grid8.Coords, EltTy.bits .f32 = 32 ∨ (Rect.block (s := S100000x16) S5000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16x16.size a ≤ S16x16.size a
  hwx8_1 : ∀ i : grid8.Coords, EltTy.bits .f32 = 32 ∨ (Rect.block (s := S16x16) S16x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x16.size a ≤ S100000x16.size a
  hwx8_2 : ∀ i : grid8.Coords, EltTy.bits .f32 = 32 ∨ (Rect.block (s := S100000x16) S5000x16.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x16.size a ≤ S100000x16.size a
  hwx9_0 : ∀ i : grid9.Coords, EltTy.bits .f32 = 32 ∨ (Rect.block (s := S100000x16) S5000x16.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x16.size a ≤ S1x16.size a
  hwx9_1 : ∀ i : grid9.Coords, EltTy.bits .f32 = 32 ∨ (Rect.block (s := S1x16) S1x16.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x16.size a ≤ S100000x16.size a
  hwx9_2 : ∀ i : grid9.Coords, EltTy.bits .f32 = 32 ∨ (Rect.block (s := S100000x16) S5000x16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x16.size a ≤ S100000x16.size a
  hwx9_3 : ∀ i : grid9.Coords, EltTy.bits .i32 = 32 ∨ (Rect.block (s := S100000x16) S5000x16.size (cc9_transform_3 i) (hinb9_3 i)).WholeWords (EltTy.packing .i32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x16.size a ≤ S100000x16.size a
  hwx9_4 : ∀ i : grid9.Coords, EltTy.bits .f32 = 32 ∨ (Rect.block (s := S100000x16) S5000x16.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x16.size a ≤ S100000x16.size a
  hwx10_0 : ∀ i : grid10.Coords, EltTy.bits .f32 = 32 ∨ (Rect.block (s := S100000x16) S5000x16.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S16x16.size a ≤ S16x16.size a
  hwx10_1 : ∀ i : grid10.Coords, EltTy.bits .f32 = 32 ∨ (Rect.block (s := S16x16) S16x16.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x16.size a ≤ S100000x16.size a
  hwx10_2 : ∀ i : grid10.Coords, EltTy.bits .f32 = 32 ∨ (Rect.block (s := S100000x16) S5000x16.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x16.size a ≤ S100000x16.size a
  hwx11_0 : ∀ i : grid11.Coords, EltTy.bits .f32 = 32 ∨ (Rect.block (s := S100000x16) S5000x16.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x16.size a ≤ S1x16.size a
  hwx11_1 : ∀ i : grid11.Coords, EltTy.bits .f32 = 32 ∨ (Rect.block (s := S1x16) S1x16.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x16.size a ≤ S100000x16.size a
  hwx11_2 : ∀ i : grid11.Coords, EltTy.bits .f32 = 32 ∨ (Rect.block (s := S100000x16) S5000x16.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x16.size a ≤ S100000x16.size a
  hwx11_3 : ∀ i : grid11.Coords, EltTy.bits .i32 = 32 ∨ (Rect.block (s := S100000x16) S5000x16.size (cc11_transform_3 i) (hinb11_3 i)).WholeWords (EltTy.packing .i32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x16.size a ≤ S100000x16.size a
  hwx11_4 : ∀ i : grid11.Coords, EltTy.bits .f32 = 32 ∨ (Rect.block (s := S100000x16) S5000x16.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x16.size a ≤ S100000x16.size a
  hwx12_0 : ∀ i : grid12.Coords, EltTy.bits .f32 = 32 ∨ (Rect.block (s := S100000x16) S5000x16.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S16x16.size a ≤ S16x16.size a
  hwx12_1 : ∀ i : grid12.Coords, EltTy.bits .f32 = 32 ∨ (Rect.block (s := S16x16) S16x16.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x16.size a ≤ S100000x16.size a
  hwx12_2 : ∀ i : grid12.Coords, EltTy.bits .f32 = 32 ∨ (Rect.block (s := S100000x16) S5000x16.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x16.size a ≤ S100000x16.size a
  hwx13_0 : ∀ i : grid13.Coords, EltTy.bits .f32 = 32 ∨ (Rect.block (s := S100000x16) S5000x16.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x16.size a ≤ S1x16.size a
  hwx13_1 : ∀ i : grid13.Coords, EltTy.bits .f32 = 32 ∨ (Rect.block (s := S1x16) S1x16.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x16.size a ≤ S100000x16.size a
  hwx13_2 : ∀ i : grid13.Coords, EltTy.bits .f32 = 32 ∨ (Rect.block (s := S100000x16) S5000x16.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x16.size a ≤ S100000x16.size a
  hwx13_3 : ∀ i : grid13.Coords, EltTy.bits .i32 = 32 ∨ (Rect.block (s := S100000x16) S5000x16.size (cc13_transform_3 i) (hinb13_3 i)).WholeWords (EltTy.packing .i32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x16.size a ≤ S100000x16.size a
  hwx13_4 : ∀ i : grid13.Coords, EltTy.bits .f32 = 32 ∨ (Rect.block (s := S100000x16) S5000x16.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x16.size a ≤ S100000x16.size a
  hwx14_0 : ∀ i : grid14.Coords, EltTy.bits .f32 = 32 ∨ (Rect.block (s := S100000x16) S5000x16.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S16x16.size a ≤ S16x16.size a
  hwx14_1 : ∀ i : grid14.Coords, EltTy.bits .f32 = 32 ∨ (Rect.block (s := S16x16) S16x16.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x16.size a ≤ S100000x16.size a
  hwx14_2 : ∀ i : grid14.Coords, EltTy.bits .f32 = 32 ∨ (Rect.block (s := S100000x16) S5000x16.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x16.size a ≤ S100000x16.size a
  hwx15_0 : ∀ i : grid15.Coords, EltTy.bits .f32 = 32 ∨ (Rect.block (s := S100000x16) S5000x16.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x16.size a ≤ S1x16.size a
  hwx15_1 : ∀ i : grid15.Coords, EltTy.bits .f32 = 32 ∨ (Rect.block (s := S1x16) S1x16.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x16.size a ≤ S100000x16.size a
  hwx15_2 : ∀ i : grid15.Coords, EltTy.bits .f32 = 32 ∨ (Rect.block (s := S100000x16) S5000x16.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x16.size a ≤ S100000x16.size a
  hwx15_3 : ∀ i : grid15.Coords, EltTy.bits .i32 = 32 ∨ (Rect.block (s := S100000x16) S5000x16.size (cc15_transform_3 i) (hinb15_3 i)).WholeWords (EltTy.packing .i32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S5000x16.size a ≤ S100000x16.size a
  hwx15_4 : ∀ i : grid15.Coords, EltTy.bits .f32 = 32 ∨ (Rect.block (s := S100000x16) S5000x16.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x16.size a ≤ S100000x16.size a
  hwx16_0 : ∀ i : grid16.Coords, EltTy.bits .f32 = 32 ∨ (Rect.block (s := S100000x16) S5000x16.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S16x16.size a ≤ S16x16.size a
  hwx16_1 : ∀ i : grid16.Coords, EltTy.bits .f32 = 32 ∨ (Rect.block (s := S16x16) S16x16.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x16.size a ≤ S100000x16.size a
  hwx16_2 : ∀ i : grid16.Coords, EltTy.bits .f32 = 32 ∨ (Rect.block (s := S100000x16) S5000x16.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x16.size a ≤ S100000x16.size a
  hwx17_0 : ∀ i : grid17.Coords, EltTy.bits .f32 = 32 ∨ (Rect.block (s := S100000x16) S5000x16.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x16.size a ≤ S1x16.size a
  hwx17_1 : ∀ i : grid17.Coords, EltTy.bits .f32 = 32 ∨ (Rect.block (s := S1x16) S1x16.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x16.size a ≤ S100000x16.size a
  hwx17_2 : ∀ i : grid17.Coords, EltTy.bits .f32 = 32 ∨ (Rect.block (s := S100000x16) S5000x16.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x16.size a ≤ S100000x16.size a
  hwx17_3 : ∀ i : grid17.Coords, EltTy.bits .i32 = 32 ∨ (Rect.block (s := S100000x16) S5000x16.size (cc17_transform_3 i) (hinb17_3 i)).WholeWords (EltTy.packing .i32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S5000x16.size a ≤ S100000x16.size a
  hwx17_4 : ∀ i : grid17.Coords, EltTy.bits .f32 = 32 ∨ (Rect.block (s := S100000x16) S5000x16.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x16.size a ≤ S100000x16.size a
  hwx18_0 : ∀ i : grid18.Coords, EltTy.bits .f32 = 32 ∨ (Rect.block (s := S100000x16) S5000x16.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S16x16.size a ≤ S16x16.size a
  hwx18_1 : ∀ i : grid18.Coords, EltTy.bits .f32 = 32 ∨ (Rect.block (s := S16x16) S16x16.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x16.size a ≤ S100000x16.size a
  hwx18_2 : ∀ i : grid18.Coords, EltTy.bits .f32 = 32 ∨ (Rect.block (s := S100000x16) S5000x16.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x16.size a ≤ S100000x16.size a
  hwx19_0 : ∀ i : grid19.Coords, EltTy.bits .f32 = 32 ∨ (Rect.block (s := S100000x16) S5000x16.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x16.size a ≤ S1x16.size a
  hwx19_1 : ∀ i : grid19.Coords, EltTy.bits .f32 = 32 ∨ (Rect.block (s := S1x16) S1x16.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x16.size a ≤ S100000x16.size a
  hwx19_2 : ∀ i : grid19.Coords, EltTy.bits .f32 = 32 ∨ (Rect.block (s := S100000x16) S5000x16.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S5000x16.size a ≤ S100000x16.size a
  hwx19_3 : ∀ i : grid19.Coords, EltTy.bits .i32 = 32 ∨ (Rect.block (s := S100000x16) S5000x16.size (cc19_transform_3 i) (hinb19_3 i)).WholeWords (EltTy.packing .i32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S5000x16.size a ≤ S100000x16.size a
  hwx19_4 : ∀ i : grid19.Coords, EltTy.bits .f32 = 32 ∨ (Rect.block (s := S100000x16) S5000x16.size (cc19_transform_4 i) (hinb19_4 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x16.size a ≤ S100000x16.size a
  hwx20_0 : ∀ i : grid20.Coords, EltTy.bits .f32 = 32 ∨ (Rect.block (s := S100000x16) S5000x16.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S16x16.size a ≤ S16x16.size a
  hwx20_1 : ∀ i : grid20.Coords, EltTy.bits .f32 = 32 ∨ (Rect.block (s := S16x16) S16x16.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S5000x16.size a ≤ S100000x16.size a
  hwx20_2 : ∀ i : grid20.Coords, EltTy.bits .f32 = 32 ∨ (Rect.block (s := S100000x16) S5000x16.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x16.size a ≤ S100000x16.size a
  hwx21_0 : ∀ i : grid21.Coords, EltTy.bits .f32 = 32 ∨ (Rect.block (s := S100000x16) S5000x16.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x16.size a ≤ S1x16.size a
  hwx21_1 : ∀ i : grid21.Coords, EltTy.bits .f32 = 32 ∨ (Rect.block (s := S1x16) S1x16.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x16.size a ≤ S100000x16.size a
  hwx21_2 : ∀ i : grid21.Coords, EltTy.bits .f32 = 32 ∨ (Rect.block (s := S100000x16) S5000x16.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S5000x16.size a ≤ S100000x16.size a
  hwx21_3 : ∀ i : grid21.Coords, EltTy.bits .i32 = 32 ∨ (Rect.block (s := S100000x16) S5000x16.size (cc21_transform_3 i) (hinb21_3 i)).WholeWords (EltTy.packing .i32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S5000x16.size a ≤ S100000x16.size a
  hwx21_4 : ∀ i : grid21.Coords, EltTy.bits .f32 = 32 ∨ (Rect.block (s := S100000x16) S5000x16.size (cc21_transform_4 i) (hinb21_4 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x16.size a ≤ S100000x16.size a
  hwx22_0 : ∀ i : grid22.Coords, EltTy.bits .f32 = 32 ∨ (Rect.block (s := S100000x16) S5000x16.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S16x16.size a ≤ S16x16.size a
  hwx22_1 : ∀ i : grid22.Coords, EltTy.bits .f32 = 32 ∨ (Rect.block (s := S16x16) S16x16.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x16.size a ≤ S100000x16.size a
  hwx22_2 : ∀ i : grid22.Coords, EltTy.bits .f32 = 32 ∨ (Rect.block (s := S100000x16) S5000x16.size (cc22_transform_2 i) (hinb22_2 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S5000x16.size a ≤ S100000x16.size a
  hwx23_0 : ∀ i : grid23.Coords, EltTy.bits .f32 = 32 ∨ (Rect.block (s := S100000x16) S5000x16.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x16.size a ≤ S1x16.size a
  hwx23_1 : ∀ i : grid23.Coords, EltTy.bits .f32 = 32 ∨ (Rect.block (s := S1x16) S1x16.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S5000x16.size a ≤ S100000x16.size a
  hwx23_2 : ∀ i : grid23.Coords, EltTy.bits .f32 = 32 ∨ (Rect.block (s := S100000x16) S5000x16.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S5000x16.size a ≤ S100000x16.size a
  hwx23_3 : ∀ i : grid23.Coords, EltTy.bits .i32 = 32 ∨ (Rect.block (s := S100000x16) S5000x16.size (cc23_transform_3 i) (hinb23_3 i)).WholeWords (EltTy.packing .i32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S5000x16.size a ≤ S100000x16.size a
  hwx23_4 : ∀ i : grid23.Coords, EltTy.bits .f32 = 32 ∨ (Rect.block (s := S100000x16) S5000x16.size (cc23_transform_4 i) (hinb23_4 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x128.size a ≤ S100000x128.size a
  hwx24_0 : ∀ i : grid24.Coords, EltTy.bits .f32 = 32 ∨ (Rect.block (s := S100000x128) S5000x128.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x16.size a ≤ S100000x16.size a
  hwx24_1 : ∀ i : grid24.Coords, EltTy.bits .f32 = 32 ∨ (Rect.block (s := S100000x16) S5000x16.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S5000x64.size a ≤ S100000x64.size a
  hwx24_2 : ∀ i : grid24.Coords, EltTy.bits .f32 = 32 ∨ (Rect.block (s := S100000x64) S5000x64.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S128x16.size a ≤ S128x16.size a
  hwx24_3 : ∀ i : grid24.Coords, EltTy.bits .f32 = 32 ∨ (Rect.block (s := S128x16) S128x16.size (cc24_transform_3 i) (hinb24_3 i)).WholeWords (EltTy.packing .f32)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S16x16.size a ≤ S16x16.size a
  hwx24_4 : ∀ i : grid24.Coords, EltTy.bits .f32 = 32 ∨ (Rect.block (s := S16x16) S16x16.size (cc24_transform_4 i) (hinb24_4 i)).WholeWords (EltTy.packing .f32)
  hstage24_5 : ∀ j, (stage24_5 j).IsWhole
  nbuf24_5 : grid24.bufCount reads24_5 true = 1
  hreads24_5 : ∀ i i' : grid24.Coords, (∀ a, reads24_5 a = true → i a = i' a) → cc24_transform_5 i = cc24_transform_5 i'
  hinb24_5 : ∀ (i : grid24.Coords) a, (cc24_transform_5 i a + 1) * S64x16.size a ≤ S64x16.size a
  hwx24_5 : ∀ i : grid24.Coords, EltTy.bits .f32 = 32 ∨ (Rect.block (s := S64x16) S64x16.size (cc24_transform_5 i) (hinb24_5 i)).WholeWords (EltTy.packing .f32)
  hstage24_6 : ∀ j, (stage24_6 j).IsWhole
  nbuf24_6 : grid24.bufCount reads24_6 true = 1
  hreads24_6 : ∀ i i' : grid24.Coords, (∀ a, reads24_6 a = true → i a = i' a) → cc24_transform_6 i = cc24_transform_6 i'
  hinb24_6 : ∀ (i : grid24.Coords) a, (cc24_transform_6 i a + 1) * S1x16.size a ≤ S1x16.size a
  hwx24_6 : ∀ i : grid24.Coords, EltTy.bits .f32 = 32 ∨ (Rect.block (s := S1x16) S1x16.size (cc24_transform_6 i) (hinb24_6 i)).WholeWords (EltTy.packing .f32)
  hstage24_7 : ∀ j, (stage24_7 j).IsWhole
  nbuf24_7 : grid24.bufCount reads24_7 false = 2
  hreads24_7 : ∀ i i' : grid24.Coords, (∀ a, reads24_7 a = true → i a = i' a) → cc24_transform_7 i = cc24_transform_7 i'
  hinb24_7 : ∀ (i : grid24.Coords) a, (cc24_transform_7 i a + 1) * S5000x16.size a ≤ S100000x16.size a
  hwx24_7 : ∀ i : grid24.Coords, EltTy.bits .f32 = 32 ∨ (Rect.block (s := S100000x16) S5000x16.size (cc24_transform_7 i) (hinb24_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S5000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S5000x16.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v84) S5000x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v84) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S16x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S5000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S1x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg1) S5000x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v104) S5000x16.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v105) S5000x16.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v105) S5000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S16x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v108) S5000x16.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v121) S5000x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v124) S1x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg1) S5000x16.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v125) S5000x16.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v126) S5000x16.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v126) S5000x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v128) S16x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v129) S5000x16.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v142) S5000x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v145) S1x16.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg1) S5000x16.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v146) S5000x16.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v147) S5000x16.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v147) S5000x16.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v149) S16x16.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v150) S5000x16.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v163) S5000x16.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v166) S1x16.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_arg1) S5000x16.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v167) S5000x16.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v168) S5000x16.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v168) S5000x16.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v170) S16x16.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v171) S5000x16.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v184) S5000x16.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v187) S1x16.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_arg1) S5000x16.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v188) S5000x16.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v189) S5000x16.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v189) S5000x16.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v191) S16x16.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v192) S5000x16.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v205) S5000x16.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v208) S1x16.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_arg1) S5000x16.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v209) S5000x16.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v210) S5000x16.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v210) S5000x16.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v212) S16x16.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v213) S5000x16.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v226) S5000x16.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v229) S1x16.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_arg1) S5000x16.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v230) S5000x16.size cc19_transform_3 reads19_3 false false 2 stage19_3 sem19_3
    hrank19 hreads19_3 hinb19_3 nbuf19_3 (Memref.isWhole_whole _) hwx19_3 hstage19_3

abbrev win19_4 : Pipeline.Window sig grid19 :=
  Pipeline.Window.ofSpec (Memref.whole main_v231) S5000x16.size cc19_transform_4 reads19_4 true false 2 stage19_4 sem19_4
    hrank19 hreads19_4 hinb19_4 nbuf19_4 (Memref.isWhole_whole _) hwx19_4 hstage19_4

abbrev win19 : Fin 5 → Pipeline.Window sig grid19 := fun | 0 => win19_0 | 1 => win19_1 | 2 => win19_2 | 3 => win19_3 | 4 => win19_4 | ⟨_ + 5, h⟩ => absurd h (Nat.not_lt.2 (Nat.le_add_left _ _))
abbrev spec19 : Fin 5 → Pipeline.WinSpec sig grid19.rank := fun w => (win19 w).toWinSpec

abbrev win20_0 : Pipeline.Window sig grid20 :=
  Pipeline.Window.ofSpec (Memref.whole main_v231) S5000x16.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v233) S16x16.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v234) S5000x16.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v247) S5000x16.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v250) S1x16.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_arg1) S5000x16.size cc21_transform_2 reads21_2 false false 2 stage21_2 sem21_2
    hrank21 hreads21_2 hinb21_2 nbuf21_2 (Memref.isWhole_whole _) hwx21_2 hstage21_2

abbrev win21_3 : Pipeline.Window sig grid21 :=
  Pipeline.Window.ofSpec (Memref.whole main_v251) S5000x16.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_v252) S5000x16.size cc21_transform_4 reads21_4 true false 2 stage21_4 sem21_4
    hrank21 hreads21_4 hinb21_4 nbuf21_4 (Memref.isWhole_whole _) hwx21_4 hstage21_4

abbrev win21 : Fin 5 → Pipeline.Window sig grid21 := fun | 0 => win21_0 | 1 => win21_1 | 2 => win21_2 | 3 => win21_3 | 4 => win21_4 | ⟨_ + 5, h⟩ => absurd h (Nat.not_lt.2 (Nat.le_add_left _ _))
abbrev spec21 : Fin 5 → Pipeline.WinSpec sig grid21.rank := fun w => (win21 w).toWinSpec

abbrev win22_0 : Pipeline.Window sig grid22 :=
  Pipeline.Window.ofSpec (Memref.whole main_v252) S5000x16.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v254) S16x16.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v255) S5000x16.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v268) S5000x16.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v271) S1x16.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_arg1) S5000x16.size cc23_transform_2 reads23_2 false false 2 stage23_2 sem23_2
    hrank23 hreads23_2 hinb23_2 nbuf23_2 (Memref.isWhole_whole _) hwx23_2 hstage23_2

abbrev win23_3 : Pipeline.Window sig grid23 :=
  Pipeline.Window.ofSpec (Memref.whole main_v272) S5000x16.size cc23_transform_3 reads23_3 false false 2 stage23_3 sem23_3
    hrank23 hreads23_3 hinb23_3 nbuf23_3 (Memref.isWhole_whole _) hwx23_3 hstage23_3

abbrev win23_4 : Pipeline.Window sig grid23 :=
  Pipeline.Window.ofSpec (Memref.whole main_v273) S5000x16.size cc23_transform_4 reads23_4 true false 2 stage23_4 sem23_4
    hrank23 hreads23_4 hinb23_4 nbuf23_4 (Memref.isWhole_whole _) hwx23_4 hstage23_4

abbrev win23 : Fin 5 → Pipeline.Window sig grid23 := fun | 0 => win23_0 | 1 => win23_1 | 2 => win23_2 | 3 => win23_3 | 4 => win23_4 | ⟨_ + 5, h⟩ => absurd h (Nat.not_lt.2 (Nat.le_add_left _ _))
abbrev spec23 : Fin 5 → Pipeline.WinSpec sig grid23.rank := fun w => (win23 w).toWinSpec

abbrev win24_0 : Pipeline.Window sig grid24 :=
  Pipeline.Window.ofSpec (Memref.whole main_v61) S5000x128.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v273) S5000x16.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_arg3) S5000x64.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v274) S128x16.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v275) S16x16.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v276) S64x16.size cc24_transform_5 reads24_5 false true 1 stage24_5 sem24_5
    hrank24 hreads24_5 hinb24_5 nbuf24_5 (Memref.isWhole_whole _) hwx24_5 hstage24_5

abbrev win24_6 : Pipeline.Window sig grid24 :=
  Pipeline.Window.ofSpec (Memref.whole main_v277) S1x16.size cc24_transform_6 reads24_6 false true 1 stage24_6 sem24_6
    hrank24 hreads24_6 hinb24_6 nbuf24_6 (Memref.isWhole_whole _) hwx24_6 hstage24_6

abbrev win24_7 : Pipeline.Window sig grid24 :=
  Pipeline.Window.ofSpec (Memref.whole main_v278) S5000x16.size cc24_transform_7 reads24_7 true false 2 stage24_7 sem24_7
    hrank24 hreads24_7 hinb24_7 nbuf24_7 (Memref.isWhole_whole _) hwx24_7 hstage24_7

abbrev win24 : Fin 8 → Pipeline.Window sig grid24 := fun | 0 => win24_0 | 1 => win24_1 | 2 => win24_2 | 3 => win24_3 | 4 => win24_4 | 5 => win24_5 | 6 => win24_6 | 7 => win24_7 | ⟨_ + 8, h⟩ => absurd h (Nat.not_lt.2 (Nat.le_add_left _ _))
abbrev spec24 : Fin 8 → Pipeline.WinSpec sig grid24.rank := fun w => (win24 w).toWinSpec

class Facts : Prop extends Facts₀ where

variable [Facts]
-- ==== ReferenceIdeal.lean ====
abbrev S100000x128 : Shape := ⟨2, ![100000, 128]⟩
abbrev S100000x16 : Shape := ⟨2, ![100000, 16]⟩
abbrev S2x1600000 : Shape := ⟨2, ![2, 1600000]⟩
abbrev S100000x64 : Shape := ⟨2, ![100000, 64]⟩
abbrev S100000 : Shape := ⟨1, ![100000]⟩
abbrev S128x128 : Shape := ⟨2, ![128, 128]⟩
abbrev S128 : Shape := ⟨1, ![128]⟩
abbrev S10x16x16 : Shape := ⟨3, ![10, 16, 16]⟩
abbrev S10x16 : Shape := ⟨2, ![10, 16]⟩
abbrev S208x16 : Shape := ⟨2, ![208, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x16x16 : Shape := ⟨3, ![1, 16, 16]⟩
abbrev S16x16 : Shape := ⟨2, ![16, 16]⟩
abbrev S1x16 : Shape := ⟨2, ![1, 16]⟩
abbrev S1700000x16 : Shape := ⟨2, ![1700000, 16]⟩
abbrev S100000x208 : Shape := ⟨2, ![100000, 208]⟩

abbrev nBuf : Space → Nat
  | .hbm => 397
  | .vmem => 0
  | .smem => 0
  | _ => 0

abbrev hbmTy0_0 (i : Nat) : BufTy := match i % 128 with
  | 0 => ⟨S100000x128, .f32⟩
  | 1 => ⟨S100000x16, .f32⟩
  | 2 => ⟨S2x1600000, .i32⟩
  | 3 => ⟨S100000x64, .f32⟩
  | 4 => ⟨S100000, .i1⟩
  | 5 => ⟨S128x128, .f32⟩
  | 6 => ⟨S128, .f32⟩
  | 7 => ⟨S128x128, .f32⟩
  | 8 => ⟨S128, .f32⟩
  | 9 => ⟨S10x16x16, .f32⟩
  | 10 => ⟨S10x16, .f32⟩
  | 11 => ⟨S208x16, .f32⟩
  | 12 => ⟨S16, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S100000x1, .i1⟩
  | 97 => ⟨S1x16x16, .f32⟩
  | 98 => ⟨S16x16, .f32⟩
  | 99 => ⟨S1x16, .f32⟩
  | 100 => ⟨S16, .f32⟩
  | 101 => ⟨S100000x16, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x16, .f32⟩
  | 111 => ⟨S1700000x1, .f32⟩
  | 112 => ⟨S1700000x16, .f32⟩
  | 113 => ⟨S1700000x16, .f32⟩
  | 114 => ⟨S_, .f32⟩
  | 115 => ⟨S100000x16, .f32⟩
  | 116 => ⟨S1700000x1, .i32⟩
  | 117 => ⟨S100000x16, .f32⟩
  | 118 => ⟨S1x16, .f32⟩
  | 119 => ⟨S100000x16, .f32⟩
  | 120 => ⟨S100000x16, .f32⟩
  | 121 => ⟨S_, .f32⟩
  | 122 => ⟨S100000x16, .f32⟩
  | 123 => ⟨S100000x16, .f32⟩
  | 124 => ⟨S100000x16, .i1⟩
  | 125 => ⟨S100000x16, .f32⟩
  | 126 => ⟨S1x16x16, .f32⟩
  | 127 => ⟨S16x16, .f32⟩
  | _ => ⟨S100000x128, .f32⟩

abbrev hbmTy0_1 (i : Nat) : BufTy := match i % 128 with
  | 0 => ⟨S1x16, .f32⟩
  | 1 => ⟨S16, .f32⟩
  | 2 => ⟨S100000x16, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x16, .f32⟩
  | 12 => ⟨S1700000x1, .f32⟩
  | 13 => ⟨S1700000x16, .f32⟩
  | 14 => ⟨S1700000x16, .f32⟩
  | 15 => ⟨S_, .f32⟩
  | 16 => ⟨S100000x16, .f32⟩
  | 17 => ⟨S1700000x1, .i32⟩
  | 18 => ⟨S100000x16, .f32⟩
  | 19 => ⟨S1x16, .f32⟩
  | 20 => ⟨S100000x16, .f32⟩
  | 21 => ⟨S100000x16, .f32⟩
  | 22 => ⟨S_, .f32⟩
  | 23 => ⟨S100000x16, .f32⟩
  | 24 => ⟨S100000x16, .f32⟩
  | 25 => ⟨S100000x16, .i1⟩
  | 26 => ⟨S100000x16, .f32⟩
  | 27 => ⟨S1x16x16, .f32⟩
  | 28 => ⟨S16x16, .f32⟩
  | 29 => ⟨S1x16, .f32⟩
  | 30 => ⟨S16, .f32⟩
  | 31 => ⟨S100000x16, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x16, .f32⟩
  | 41 => ⟨S1700000x1, .f32⟩
  | 42 => ⟨S1700000x16, .f32⟩
  | 43 => ⟨S1700000x16, .f32⟩
  | 44 => ⟨S_, .f32⟩
  | 45 => ⟨S100000x16, .f32⟩
  | 46 => ⟨S1700000x1, .i32⟩
  | 47 => ⟨S100000x16, .f32⟩
  | 48 => ⟨S1x16, .f32⟩
  | 49 => ⟨S100000x16, .f32⟩
  | 50 => ⟨S100000x16, .f32⟩
  | 51 => ⟨S_, .f32⟩
  | 52 => ⟨S100000x16, .f32⟩
  | 53 => ⟨S100000x16, .f32⟩
  | 54 => ⟨S100000x16, .i1⟩
  | 55 => ⟨S100000x16, .f32⟩
  | 56 => ⟨S1x16x16, .f32⟩
  | 57 => ⟨S16x16, .f32⟩
  | 58 => ⟨S1x16, .f32⟩
  | 59 => ⟨S16, .f32⟩
  | 60 => ⟨S100000x16, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x16, .f32⟩
  | 70 => ⟨S1700000x1, .f32⟩
  | 71 => ⟨S1700000x16, .f32⟩
  | 72 => ⟨S1700000x16, .f32⟩
  | 73 => ⟨S_, .f32⟩
  | 74 => ⟨S100000x16, .f32⟩
  | 75 => ⟨S1700000x1, .i32⟩
  | 76 => ⟨S100000x16, .f32⟩
  | 77 => ⟨S1x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S100000x16, .i1⟩
  | 84 => ⟨S100000x16, .f32⟩
  | 85 => ⟨S1x16x16, .f32⟩
  | 86 => ⟨S16x16, .f32⟩
  | 87 => ⟨S1x16, .f32⟩
  | 88 => ⟨S16, .f32⟩
  | 89 => ⟨S100000x16, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x16, .f32⟩
  | 99 => ⟨S1700000x1, .f32⟩
  | 100 => ⟨S1700000x16, .f32⟩
  | 101 => ⟨S1700000x16, .f32⟩
  | 102 => ⟨S_, .f32⟩
  | 103 => ⟨S100000x16, .f32⟩
  | 104 => ⟨S1700000x1, .i32⟩
  | 105 => ⟨S100000x16, .f32⟩
  | 106 => ⟨S1x16, .f32⟩
  | 107 => ⟨S100000x16, .f32⟩
  | 108 => ⟨S100000x16, .f32⟩
  | 109 => ⟨S_, .f32⟩
  | 110 => ⟨S100000x16, .f32⟩
  | 111 => ⟨S100000x16, .f32⟩
  | 112 => ⟨S100000x16, .i1⟩
  | 113 => ⟨S100000x16, .f32⟩
  | 114 => ⟨S1x16x16, .f32⟩
  | 115 => ⟨S16x16, .f32⟩
  | 116 => ⟨S1x16, .f32⟩
  | 117 => ⟨S16, .f32⟩
  | 118 => ⟨S100000x16, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x16, .f32⟩
  | _ => ⟨S100000x128, .f32⟩

abbrev hbmTy0_2 (i : Nat) : BufTy := match i % 128 with
  | 0 => ⟨S1700000x1, .f32⟩
  | 1 => ⟨S1700000x16, .f32⟩
  | 2 => ⟨S1700000x16, .f32⟩
  | 3 => ⟨S_, .f32⟩
  | 4 => ⟨S100000x16, .f32⟩
  | 5 => ⟨S1700000x1, .i32⟩
  | 6 => ⟨S100000x16, .f32⟩
  | 7 => ⟨S1x16, .f32⟩
  | 8 => ⟨S100000x16, .f32⟩
  | 9 => ⟨S100000x16, .f32⟩
  | 10 => ⟨S_, .f32⟩
  | 11 => ⟨S100000x16, .f32⟩
  | 12 => ⟨S100000x16, .f32⟩
  | 13 => ⟨S100000x16, .i1⟩
  | 14 => ⟨S100000x16, .f32⟩
  | 15 => ⟨S1x16x16, .f32⟩
  | 16 => ⟨S16x16, .f32⟩
  | 17 => ⟨S1x16, .f32⟩
  | 18 => ⟨S16, .f32⟩
  | 19 => ⟨S100000x16, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x16, .f32⟩
  | 29 => ⟨S1700000x1, .f32⟩
  | 30 => ⟨S1700000x16, .f32⟩
  | 31 => ⟨S1700000x16, .f32⟩
  | 32 => ⟨S_, .f32⟩
  | 33 => ⟨S100000x16, .f32⟩
  | 34 => ⟨S1700000x1, .i32⟩
  | 35 => ⟨S100000x16, .f32⟩
  | 36 => ⟨S1x16, .f32⟩
  | 37 => ⟨S100000x16, .f32⟩
  | 38 => ⟨S100000x16, .f32⟩
  | 39 => ⟨S_, .f32⟩
  | 40 => ⟨S100000x16, .f32⟩
  | 41 => ⟨S100000x16, .f32⟩
  | 42 => ⟨S100000x16, .i1⟩
  | 43 => ⟨S100000x16, .f32⟩
  | 44 => ⟨S1x16x16, .f32⟩
  | 45 => ⟨S16x16, .f32⟩
  | 46 => ⟨S1x16, .f32⟩
  | 47 => ⟨S16, .f32⟩
  | 48 => ⟨S100000x16, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x16, .f32⟩
  | 58 => ⟨S1700000x1, .f32⟩
  | 59 => ⟨S1700000x16, .f32⟩
  | 60 => ⟨S1700000x16, .f32⟩
  | 61 => ⟨S_, .f32⟩
  | 62 => ⟨S100000x16, .f32⟩
  | 63 => ⟨S1700000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .i1⟩
  | 72 => ⟨S100000x16, .f32⟩
  | 73 => ⟨S1x16x16, .f32⟩
  | 74 => ⟨S16x16, .f32⟩
  | 75 => ⟨S1x16, .f32⟩
  | 76 => ⟨S16, .f32⟩
  | 77 => ⟨S100000x16, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x16, .f32⟩
  | 87 => ⟨S1700000x1, .f32⟩
  | 88 => ⟨S1700000x16, .f32⟩
  | 89 => ⟨S1700000x16, .f32⟩
  | 90 => ⟨S_, .f32⟩
  | 91 => ⟨S100000x16, .f32⟩
  | 92 => ⟨S1700000x1, .i32⟩
  | 93 => ⟨S100000x16, .f32⟩
  | 94 => ⟨S1x16, .f32⟩
  | 95 => ⟨S100000x16, .f32⟩
  | 96 => ⟨S100000x16, .f32⟩
  | 97 => ⟨S_, .f32⟩
  | 98 => ⟨S100000x16, .f32⟩
  | 99 => ⟨S100000x16, .f32⟩
  | 100 => ⟨S100000x16, .i1⟩
  | 101 => ⟨S100000x16, .f32⟩
  | 102 => ⟨S1x16x16, .f32⟩
  | 103 => ⟨S16x16, .f32⟩
  | 104 => ⟨S1x16, .f32⟩
  | 105 => ⟨S16, .f32⟩
  | 106 => ⟨S100000x16, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x16, .f32⟩
  | 116 => ⟨S1700000x1, .f32⟩
  | 117 => ⟨S1700000x16, .f32⟩
  | 118 => ⟨S1700000x16, .f32⟩
  | 119 => ⟨S_, .f32⟩
  | 120 => ⟨S100000x16, .f32⟩
  | 121 => ⟨S1700000x1, .i32⟩
  | 122 => ⟨S100000x16, .f32⟩
  | 123 => ⟨S1x16, .f32⟩
  | 124 => ⟨S100000x16, .f32⟩
  | 125 => ⟨S100000x16, .f32⟩
  | 126 => ⟨S100000x16, .i1⟩
  | 127 => ⟨S100000x16, .f32⟩
  | _ => ⟨S100000x128, .f32⟩

abbrev hbmTy0_3 (i : Nat) : BufTy := match i % 128 with
  | 0 => ⟨S100000x208, .f32⟩
  | 1 => ⟨S100000x16, .f32⟩
  | 2 => ⟨S1x16, .f32⟩
  | 3 => ⟨S100000x16, .f32⟩
  | 4 => ⟨S100000x16, .f32⟩
  | 5 => ⟨S100000x16, .f32⟩
  | 6 => ⟨S100000x16, .f32⟩
  | 7 => ⟨S_, .f32⟩
  | 8 => ⟨S100000x16, .f32⟩
  | 9 => ⟨S100000x16, .f32⟩
  | 10 => ⟨S_, .f32⟩
  | 11 => ⟨S100000x16, .f32⟩
  | 12 => ⟨S100000x16, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call2_cst : Ref sig .tc := ⟨.hbm, 121, rfl⟩
abbrev main_call2_v0 : Ref sig .tc := ⟨.hbm, 122, rfl⟩
abbrev main_v87 : Ref sig .tc := ⟨.hbm, 123, rfl⟩
abbrev main_call3_v0 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_15 : Ref sig .tc := ⟨.hbm, 131, rfl⟩
abbrev main_v94 : Ref sig .tc := ⟨.hbm, 132, rfl⟩
abbrev main_v95 : Ref sig .tc := ⟨.hbm, 133, rfl⟩
abbrev main_c_16 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call4_cst : Ref sig .tc := ⟨.hbm, 150, rfl⟩
abbrev main_call4_v0 : Ref sig .tc := ⟨.hbm, 151, rfl⟩
abbrev main_v110 : Ref sig .tc := ⟨.hbm, 152, rfl⟩
abbrev main_call5_v0 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_18 : Ref sig .tc := ⟨.hbm, 160, rfl⟩
abbrev main_v117 : Ref sig .tc := ⟨.hbm, 161, rfl⟩
abbrev main_v118 : Ref sig .tc := ⟨.hbm, 162, rfl⟩
abbrev main_c_19 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_20 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_call6_cst : Ref sig .tc := ⟨.hbm, 179, rfl⟩
abbrev main_call6_v0 : Ref sig .tc := ⟨.hbm, 180, rfl⟩
abbrev main_v133 : Ref sig .tc := ⟨.hbm, 181, rfl⟩
abbrev main_call7_v0 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_21 : Ref sig .tc := ⟨.hbm, 189, rfl⟩
abbrev main_v140 : Ref sig .tc := ⟨.hbm, 190, rfl⟩
abbrev main_v141 : Ref sig .tc := ⟨.hbm, 191, rfl⟩
abbrev main_c_22 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_23 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_call8_cst : Ref sig .tc := ⟨.hbm, 208, rfl⟩
abbrev main_call8_v0 : Ref sig .tc := ⟨.hbm, 209, rfl⟩
abbrev main_v156 : Ref sig .tc := ⟨.hbm, 210, rfl⟩
abbrev main_call9_v0 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_c_24 : Ref sig .tc := ⟨.hbm, 218, rfl⟩
abbrev main_v163 : Ref sig .tc := ⟨.hbm, 219, rfl⟩
abbrev main_v164 : Ref sig .tc := ⟨.hbm, 220, rfl⟩
abbrev main_c_25 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_26 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_call10_cst : Ref sig .tc := ⟨.hbm, 237, rfl⟩
abbrev main_call10_v0 : Ref sig .tc := ⟨.hbm, 238, rfl⟩
abbrev main_v179 : Ref sig .tc := ⟨.hbm, 239, rfl⟩
abbrev main_call11_v0 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_c_27 : Ref sig .tc := ⟨.hbm, 247, rfl⟩
abbrev main_v186 : Ref sig .tc := ⟨.hbm, 248, rfl⟩
abbrev main_v187 : Ref sig .tc := ⟨.hbm, 249, rfl⟩
abbrev main_c_28 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_cst_29 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_call12_cst : Ref sig .tc := ⟨.hbm, 266, rfl⟩
abbrev main_call12_v0 : Ref sig .tc := ⟨.hbm, 267, rfl⟩
abbrev main_v202 : Ref sig .tc := ⟨.hbm, 268, rfl⟩
abbrev main_call13_v0 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_c_30 : Ref sig .tc := ⟨.hbm, 276, rfl⟩
abbrev main_v209 : Ref sig .tc := ⟨.hbm, 277, rfl⟩
abbrev main_v210 : Ref sig .tc := ⟨.hbm, 278, rfl⟩
abbrev main_c_31 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_cst_32 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_call14_cst : Ref sig .tc := ⟨.hbm, 295, rfl⟩
abbrev main_call14_v0 : Ref sig .tc := ⟨.hbm, 296, rfl⟩
abbrev main_v225 : Ref sig .tc := ⟨.hbm, 297, rfl⟩
abbrev main_call15_v0 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_c_33 : Ref sig .tc := ⟨.hbm, 305, rfl⟩
abbrev main_v232 : Ref sig .tc := ⟨.hbm, 306, rfl⟩
abbrev main_v233 : Ref sig .tc := ⟨.hbm, 307, rfl⟩
abbrev main_c_34 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_cst_35 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_call16_cst : Ref sig .tc := ⟨.hbm, 324, rfl⟩
abbrev main_call16_v0 : Ref sig .tc := ⟨.hbm, 325, rfl⟩
abbrev main_v248 : Ref sig .tc := ⟨.hbm, 326, rfl⟩
abbrev main_call17_v0 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_c_36 : Ref sig .tc := ⟨.hbm, 334, rfl⟩
abbrev main_v255 : Ref sig .tc := ⟨.hbm, 335, rfl⟩
abbrev main_v256 : Ref sig .tc := ⟨.hbm, 336, rfl⟩
abbrev main_c_37 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_cst_38 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_call18_cst : Ref sig .tc := ⟨.hbm, 353, rfl⟩
abbrev main_call18_v0 : Ref sig .tc := ⟨.hbm, 354, rfl⟩
abbrev main_v271 : Ref sig .tc := ⟨.hbm, 355, rfl⟩
abbrev main_call19_v0 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_c_39 : Ref sig .tc := ⟨.hbm, 363, rfl⟩
abbrev main_v278 : Ref sig .tc := ⟨.hbm, 364, rfl⟩
abbrev main_v279 : Ref sig .tc := ⟨.hbm, 365, rfl⟩
abbrev main_c_40 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_cst_41 : Ref sig .tc := ⟨.hbm, 375, rfl⟩
abbrev main_v288 : Ref sig .tc := ⟨.hbm, 376, rfl⟩
abbrev main_v289 : Ref sig .tc := ⟨.hbm, 377, rfl⟩
abbrev main_v290 : Ref sig .tc := ⟨.hbm, 378, rfl⟩
abbrev main_v291 : Ref sig .tc := ⟨.hbm, 379, rfl⟩
abbrev main_v292 : Ref sig .tc := ⟨.hbm, 380, rfl⟩
abbrev main_v293 : Ref sig .tc := ⟨.hbm, 381, rfl⟩
abbrev main_call20_v0 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_cst_42 : Ref sig .tc := ⟨.hbm, 391, rfl⟩
abbrev main_v302 : Ref sig .tc := ⟨.hbm, 392, rfl⟩
abbrev main_v303 : Ref sig .tc := ⟨.hbm, 393, rfl⟩
abbrev main_cst_43 : Ref sig .tc := ⟨.hbm, 394, rfl⟩
abbrev main_v304 : Ref sig .tc := ⟨.hbm, 395, rfl⟩
abbrev main_v305 : Ref sig .tc := ⟨.hbm, 396, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  slices_S10x16x16_S1x16x16_0_0_0 : S10x16x16.Slices ![0, 0, 0] S1x16x16
  shapeCasts_S1x16x16_S16x16 : S1x16x16.ShapeCasts S16x16
  slices_S10x16_S1x16_0_0 : S10x16.Slices ![0, 0] S1x16
  shapeCasts_S1x16_S16 : S1x16.ShapeCasts S16
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000x1_S100000x16_0_1 : S100000x1.BroadcastsInDim S100000x16 (![0, 1] : Fin 2 → Fin S100000x16.rank)
  slices_S10x16x16_S1x16x16_1_0_0 : S10x16x16.Slices ![1, 0, 0] S1x16x16
  slices_S10x16_S1x16_1_0 : S10x16.Slices ![1, 0] S1x16
  slices_S10x16x16_S1x16x16_2_0_0 : S10x16x16.Slices ![2, 0, 0] S1x16x16
  slices_S10x16_S1x16_2_0 : S10x16.Slices ![2, 0] S1x16
  slices_S10x16x16_S1x16x16_3_0_0 : S10x16x16.Slices ![3, 0, 0] S1x16x16
  slices_S10x16_S1x16_3_0 : S10x16.Slices ![3, 0] S1x16
  slices_S10x16x16_S1x16x16_4_0_0 : S10x16x16.Slices ![4, 0, 0] S1x16x16
  slices_S10x16_S1x16_4_0 : S10x16.Slices ![4, 0] S1x16
  slices_S10x16x16_S1x16x16_5_0_0 : S10x16x16.Slices ![5, 0, 0] S1x16x16
  slices_S10x16_S1x16_5_0 : S10x16.Slices ![5, 0] S1x16
  slices_S10x16x16_S1x16x16_6_0_0 : S10x16x16.Slices ![6, 0, 0] S1x16x16
  slices_S10x16_S1x16_6_0 : S10x16.Slices ![6, 0] S1x16
  slices_S10x16x16_S1x16x16_7_0_0 : S10x16x16.Slices ![7, 0, 0] S1x16x16
  slices_S10x16_S1x16_7_0 : S10x16.Slices ![7, 0] S1x16
  slices_S10x16x16_S1x16x16_8_0_0 : S10x16x16.Slices ![8, 0, 0] S1x16x16
  slices_S10x16_S1x16_8_0 : S10x16.Slices ![8, 0] S1x16
  slices_S10x16x16_S1x16x16_9_0_0 : S10x16x16.Slices ![9, 0, 0] S1x16x16
  slices_S10x16_S1x16_9_0 : S10x16.Slices ![9, 0] S1x16
  concatenates_S100000x128_S100000x16_S100000x64_S100000x208_d1 : Shape.Concatenates [S100000x128, S100000x16, S100000x64] S100000x208 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x16_S16x16_S100000x16_1_0_0_1_n_n_wf : DotDims.WF S100000x16 S16x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x208_S208x16_S100000x16_1_0_0_1_n_n_wf : DotDims.WF S100000x208 S208x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x208_S208x16_S100000x16_1_0_0_1_n_n : DotDims S100000x208 S208x16 S100000x16 where
  lhsContracting := [1]
  rhsContracting := [0]
  lhsNonContracting := [0]
  rhsNonContracting := [1]
  lhsBatch := []
  rhsBatch := []
  wf := dot_S100000x208_S208x16_S100000x16_1_0_0_1_n_n_wf

class Facts : Prop extends Facts₀ where

variable [Facts]
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.Dense.lean ====
/-
  The dense steps of the graph network as values at an index, over the extended reals.  First each pure payload of
  the kernel's regions read at one entry (r, q): a matrix product is the sum over the contracted coordinate, a bias row
  is added to every row, the rectification is the maximum with zero, the label update keeps an entry where the mask
  word is not zero, and the last region is the logistic function of three products and a bias.  Then the reference's
  dense steps as functions of whole arrays, spelt as the reference program spells them, and each read at one entry
  (i, q).
-/
import proofs.«146329_j1168231104595_1_alg».proof.KernelIdeal
import proofs.«146329_j1168231104595_1_alg».proof.ReferenceIdeal
import proofs.«146329_j1168231104595_1_alg».proof.Proof.Gen.KernelIdeal.Skeleton
import proofs.«146329_j1168231104595_1_alg».proof.Proof.Gen.ReferenceIdeal
import proofs.«146329_j1168231104595_1_alg».proof.Proof.LibRowOps
import proofs.«146329_j1168231104595_1_alg».proof.Proof.LibHostDot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KV.Dense

open Idealize.ShloMosaic Idealize.ShloMosaic.ValueIdx
open Cert.KernelIdeal (S5000x16 S5000x128 S5000x64 S1x16 S1x128 S16x16 S128x128 S128x16 S64x16)

/-- One bit from a comparison "not equal": it is the bit 1 exactly when the words differ. -/
theorem cmpi_ne_eq_one {w : Nat} (x y : BitVec w) : IntOp.cmpi .ne x y = (1 : BitVec 1) ↔ x ≠ y := by
  unfold IntOp.cmpi
  by_cases h : x = y
  · subst h; simp
  · have hb : (x != y) = true := bne_iff_ne.mpr h
    simp [h, hb]

/-- A select on the bit of "not equal" is the `if` on the words differing. -/
theorem select_cmpi_ne {α : Type} {w : Nat} (x y : BitVec w) (a b : α) :
    Scalar.select (IntOp.cmpi .ne x y) a b = if x ≠ y then a else b := by
  unfold Scalar.select
  by_cases h : x = y
  · rw [if_neg ((cmpi_ne_eq_one x y).not.mpr (not_not.mpr h)), if_neg (not_not.mpr h)]
  · rw [if_pos ((cmpi_ne_eq_one x y).mpr h), if_pos h]

/-! ## The pointwise payloads of the kernel read at an index -/

/-- The label update: where the mask word is not zero the kept value, elsewhere the rectified biased sum. -/
theorem pay_update (x0 : Vec Ideal S5000x16 .f32) (x2 : Vec Ideal S1x16 .f32) (x8 : Vec Ideal S5000x16 .i32)
    (x11 : Vec Ideal S5000x16 .f32) (r : Fin 5000) (q : Fin 16) :
    Cert.KernelIdeal.Gen.k5_pay1 (F := Ideal) x0 x2 x8 x11 (ix2 r q)
      = if x8 (ix2 r q) ≠ 0#32 then x11 (ix2 r q) else max (x0 (ix2 r q) + x2 (ix2 (0 : Fin 1) q)) 0 := by
  unfold Cert.KernelIdeal.Gen.k5_pay1
  simp only [shapeCast_self]
  show Scalar.select (IntOp.cmpi .ne (x8 (ix2 r q)) 0#32) (x11 (ix2 r q))
      (max (x0 (ix2 r q) + broadcastTo S5000x16 x2 _ (ix2 r q)) (Ideal.ofBits .f32 0x00000000#32)) = _
  rw [broadcastTo_1b_ab_apply, Ideal.ofBits_zero_f32, select_cmpi_ne]

/-- The last label update: the same without the rectification. -/
theorem pay_update_last (x0 : Vec Ideal S5000x16 .f32) (x2 : Vec Ideal S1x16 .f32) (x6 : Vec Ideal S5000x16 .i32)
    (x9 : Vec Ideal S5000x16 .f32) (r : Fin 5000) (q : Fin 16) :
    Cert.KernelIdeal.Gen.k23_pay1 (F := Ideal) x0 x2 x6 x9 (ix2 r q)
      = if x6 (ix2 r q) ≠ 0#32 then x9 (ix2 r q) else x0 (ix2 r q) + x2 (ix2 (0 : Fin 1) q) := by
  unfold Cert.KernelIdeal.Gen.k23_pay1
  simp only [shapeCast_self]
  show Scalar.select (IntOp.cmpi .ne (x6 (ix2 r q)) 0#32) (x9 (ix2 r q))
      (x0 (ix2 r q) + broadcastTo S5000x16 x2 _ (ix2 r q)) = _
  rw [broadcastTo_1b_ab_apply, select_cmpi_ne]

/-- A bias row added to every row, then the maximum with zero. -/
theorem pay_biasrelu (x0 : Vec Ideal S5000x128 .f32) (x2 : Vec Ideal S1x128 .f32) (r : Fin 5000) (q : Fin 128) :
    Cert.KernelIdeal.Gen.k1_pay1 (F := Ideal) x0 x2 (ix2 r q) = max (x0 (ix2 r q) + x2 (ix2 (0 : Fin 1) q)) 0 := by
  unfold Cert.KernelIdeal.Gen.k1_pay1
  simp only [shapeCast_self]
  show max (x0 (ix2 r q) + broadcastTo S5000x128 x2 _ (ix2 r q)) (Ideal.ofBits .f32 0x00000000#32) = _
  rw [broadcastTo_1b_ab_apply, Ideal.ofBits_zero_f32]

/-- A bias row added to every row. -/
theorem pay_bias (x0 : Vec Ideal S5000x128 .f32) (x2 : Vec Ideal S1x128 .f32) (r : Fin 5000) (q : Fin 128) :
    Cert.KernelIdeal.Gen.k3_pay1 (F := Ideal) x0 x2 (ix2 r q) = x0 (ix2 r q) + x2 (ix2 (0 : Fin 1) q) := by
  unfold Cert.KernelIdeal.Gen.k3_pay1
  simp only [shapeCast_self]
  show x0 (ix2 r q) + broadcastTo S5000x128 x2 _ (ix2 r q) = _
  rw [broadcastTo_1b_ab_apply]

/-! ## The matrix products of the kernel read at an index -/

/-- A matrix product accumulated into the zero splat, for a contraction record given by name with the equation that
    spells its fields: entry (r, c) is the sum over the contracted coordinate of the products of the entries. -/
theorem matmul_plain_zero_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    matmul d prec A B (constant (F := Ideal) ⟨2, ![m, n]⟩ .f32 0x00000000#32) (ix2 r c)
      = ∑ i : Fin k, A (ix2 r i) * B (ix2 i c) := by
  subst hd
  exact Cert.KernelBody.matmul_plain_zero_apply w prec A B r c

theorem pay_mm16 (x0 : Vec Ideal S5000x16 .f32) (x1 : Vec Ideal S16x16 .f32) (r : Fin 5000) (q : Fin 16) :
    Cert.KernelIdeal.Gen.k4_pay1 (F := Ideal) x0 x1 (ix2 r q) = ∑ k : Fin 16, x0 (ix2 r k) * x1 (ix2 k q) := by
  unfold Cert.KernelIdeal.Gen.k4_pay1
  simp only [shapeCast_self]
  exact matmul_plain_zero_apply' _ _ rfl _ _ _ r q

theorem pay_mm16' (x0 : Vec Ideal S5000x16 .f32) (x2 : Vec Ideal S16x16 .f32) (r : Fin 5000) (q : Fin 16) :
    Cert.KernelIdeal.Gen.k6_pay1 (F := Ideal) x0 x2 (ix2 r q) = ∑ k : Fin 16, x0 (ix2 r k) * x2 (ix2 k q) := by
  unfold Cert.KernelIdeal.Gen.k6_pay1
  simp only [shapeCast_self]
  exact matmul_plain_zero_apply' _ _ rfl _ _ _ r q

theorem pay_mm128 (x0 : Vec Ideal S5000x128 .f32) (x1 : Vec Ideal S128x128 .f32) (r : Fin 5000) (q : Fin 128) :
    Cert.KernelIdeal.Gen.k0_pay1 (F := Ideal) x0 x1 (ix2 r q) = ∑ k : Fin 128, x0 (ix2 r k) * x1 (ix2 k q) := by
  unfold Cert.KernelIdeal.Gen.k0_pay1
  exact matmul_plain_zero_apply' Cert.KernelIdeal.dot_S5000x128_S128x128_S5000x128_1_0_0_1_n_n _ rfl none
    (truncf .bf16 x0 _) (truncf .bf16 x1 _) r q

theorem pay_mm128' (x0 : Vec Ideal S5000x128 .f32) (x2 : Vec Ideal S128x128 .f32) (r : Fin 5000) (q : Fin 128) :
    Cert.KernelIdeal.Gen.k2_pay1 (F := Ideal) x0 x2 (ix2 r q) = ∑ k : Fin 128, x0 (ix2 r k) * x2 (ix2 k q) := by
  unfold Cert.KernelIdeal.Gen.k2_pay1
  simp only [shapeCast_self]
  exact matmul_plain_zero_apply' Cert.KernelIdeal.dot_S5000x128_S128x128_S5000x128_1_0_0_1_n_n _ rfl none
    (truncf .bf16 x0 _) (truncf .bf16 x2 _) r q

/-- The last region: the logistic function of the three products and the bias row. -/
theorem pay_fuse (x0 : Vec Ideal S5000x128 .f32) (x3 : Vec Ideal S5000x16 .f32) (x6 : Vec Ideal S5000x64 .f32)
    (x8 : Vec Ideal S128x16 .f32) (x11 : Vec Ideal S16x16 .f32) (x14 : Vec Ideal S64x16 .f32) (x22 : Vec Ideal S1x16 .f32)
    (r : Fin 5000) (q : Fin 16) :
    Cert.KernelIdeal.Gen.k24_pay1 (F := Ideal) x0 x3 x6 x8 x11 x14 x22 (ix2 r q)
      = Ideal.logistic ((∑ k : Fin 128, x0 (ix2 r k) * x8 (ix2 k q)) + (∑ k : Fin 16, x3 (ix2 r k) * x11 (ix2 k q))
          + (∑ k : Fin 64, x6 (ix2 r k) * x14 (ix2 k q)) + x22 (ix2 (0 : Fin 1) q)) := by
  unfold Cert.KernelIdeal.Gen.k24_pay1
  simp only [shapeCast_self]
  show Ideal.logistic (matmul (F := Ideal) _ none _ _ _ (ix2 r q) + matmul (F := Ideal) _ none _ _ _ (ix2 r q)
      + matmul (F := Ideal) _ none _ _ _ (ix2 r q) + broadcastTo S5000x16 x22 _ (ix2 r q)) = _
  rw [broadcastTo_1b_ab_apply,
    matmul_plain_zero_apply' Cert.KernelIdeal.dot_S5000x128_S128x16_S5000x16_1_0_0_1_n_n _ rfl,
    matmul_plain_zero_apply' Cert.KernelIdeal.dot_S5000x16_S16x16_S5000x16_1_0_0_1_n_n _ rfl,
    matmul_plain_zero_apply' Cert.KernelIdeal.dot_S5000x64_S64x16_S5000x16_1_0_0_1_n_n _ rfl]
  rfl

/-! ## Broadcasts of the reference read at an index -/

section Bcast
variable {α : Type}

/-- A vector placed as the one row of `[1, b]` and that row broadcast down `[a, b]`: entry (i, q) is entry q. -/
theorem bcast_row_apply {a b : ℕ} (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (v : (⟨1, ![b]⟩ : Shape).Idx → α) (i : Fin a) (q : Fin b) :
    broadcastInDim ⟨2, ![a, b]⟩ ![0, 1] h2 (broadcastInDim ⟨2, ![1, b]⟩ ![1] h1 v) (ix2 i q) = v (ix1 q) := by
  rw [broadcastInDim_apply _ h2 _ (ix2 i q) (ix2 (0 : Fin 1) q) (fun c => by
    match c with
    | ⟨0, _⟩ => rfl
    | ⟨1, _⟩ =>
      show q.val = if b = 1 then 0 else q.val
      have := q.isLt
      split <;> omega)]
  exact broadcastInDim_apply _ h1 v (ix2 (0 : Fin 1) q) (ix1 q) (fun c => by
    match c with
    | ⟨0, _⟩ =>
      show q.val = if b = 1 then 0 else q.val
      have := q.isLt
      split <;> omega)

/-- A vector placed as the one column of `[a, 1]` and that column broadcast across `[a, b]`: entry (i, q) is entry i. -/
theorem bcast_col_apply {a b : ℕ} (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (v : (⟨1, ![a]⟩ : Shape).Idx → α) (i : Fin a) (q : Fin b) :
    broadcastInDim ⟨2, ![a, b]⟩ ![0, 1] h2 (broadcastInDim ⟨2, ![a, 1]⟩ ![0] h1 v) (ix2 i q) = v (ix1 i) := by
  rw [broadcastInDim_apply _ h2 _ (ix2 i q) (ix2 i (0 : Fin 1)) (fun c => by
    match c with
    | ⟨0, _⟩ =>
      show i.val = if a = 1 then 0 else i.val
      have := i.isLt
      split <;> omega
    | ⟨1, _⟩ => rfl)]
  exact broadcastInDim_apply _ h1 v (ix2 i (0 : Fin 1)) (ix1 i) (fun c => by
    match c with
    | ⟨0, _⟩ =>
      show i.val = if a = 1 then 0 else i.val
      have := i.isLt
      split <;> omega)

/-- A scalar broadcast to a matrix reads the scalar everywhere. -/
theorem bcast_scalar_apply {a b : ℕ} (h : (⟨0, ![]⟩ : Shape).BroadcastsInDim ⟨2, ![a, b]⟩ (![] : Fin 0 → Fin 2))
    (v : (⟨0, ![]⟩ : Shape).Idx → α) (j : (⟨2, ![a, b]⟩ : Shape).Idx) :
    broadcastInDim ⟨2, ![a, b]⟩ ![] h v j = v ix0 :=
  broadcastInDim_apply _ h v j ix0 (fun c => c.elim0)

end Bcast

/-- A one-bit word widened to 32 bits is not zero exactly when it is the bit 1. -/
theorem setWidth_ne_zero_iff (m : BitVec 1) : m.setWidth 32 ≠ 0#32 ↔ m = 1#1 := by
  rcases BitVec.eq_zero_or_eq_one m with h | h <;> subst h <;> decide

/-! ## The reference's label update -/

/-- The bias vector as a matrix with every row the vector. -/
def refBiasMat16 (b : FVec Ideal Cert.ReferenceIdeal.S16 .f32) : FVec Ideal Cert.ReferenceIdeal.S100000x16 .f32 :=
  broadcastInDim Cert.ReferenceIdeal.S100000x16 ![0, 1] Cert.ReferenceIdeal.Facts₀.bcast_S1x16_S100000x16_0_1 (broadcastInDim Cert.ReferenceIdeal.S1x16 ![1] Cert.ReferenceIdeal.Facts₀.bcast_S16_S1x16_1 b)

/-- The zero matrix the rectification compares with. -/
def refZero16 : FVec Ideal Cert.ReferenceIdeal.S100000x16 .f32 :=
  broadcastInDim Cert.ReferenceIdeal.S100000x16 ![] Cert.ReferenceIdeal.Facts₀.bcast_S_S100000x16 (constant (F := Ideal) Cert.ReferenceIdeal.S_ .f32 0x00000000#32)

/-- The rectified biased sum: max (S + b, 0). -/
def refBiasRelu16 (S : FVec Ideal Cert.ReferenceIdeal.S100000x16 .f32) (b : FVec Ideal Cert.ReferenceIdeal.S16 .f32) : FVec Ideal Cert.ReferenceIdeal.S100000x16 .f32 :=
  maximumf (addf S (refBiasMat16 b)) refZero16

/-- The row mask as a matrix with every column the mask. -/
def refMaskMat16 (mask : IVec Cert.ReferenceIdeal.S100000 1) : IVec Cert.ReferenceIdeal.S100000x16 1 :=
  broadcastInDim Cert.ReferenceIdeal.S100000x16 ![0, 1] Cert.ReferenceIdeal.Facts₀.bcast_S100000x1_S100000x16_0_1
    (broadcastInDim Cert.ReferenceIdeal.S100000x1 ![0] Cert.ReferenceIdeal.Facts₀.bcast_S100000_S100000x1_0 mask)

/-- The label update: a masked row keeps `y`, another row takes the rectified biased sum. -/
def refUpdate16 (S : FVec Ideal Cert.ReferenceIdeal.S100000x16 .f32) (b : FVec Ideal Cert.ReferenceIdeal.S16 .f32) (y : FVec Ideal Cert.ReferenceIdeal.S100000x16 .f32)
    (mask : IVec Cert.ReferenceIdeal.S100000 1) : FVec Ideal Cert.ReferenceIdeal.S100000x16 .f32 :=
  select (refMaskMat16 mask) y (refBiasRelu16 S b)

/-- The last label update: the same without the rectification. -/
def refUpdateLast16 (S : FVec Ideal Cert.ReferenceIdeal.S100000x16 .f32) (b : FVec Ideal Cert.ReferenceIdeal.S16 .f32) (y : FVec Ideal Cert.ReferenceIdeal.S100000x16 .f32)
    (mask : IVec Cert.ReferenceIdeal.S100000 1) : FVec Ideal Cert.ReferenceIdeal.S100000x16 .f32 :=
  select (refMaskMat16 mask) y (addf S (refBiasMat16 b))

theorem refBiasRelu16_apply (S : FVec Ideal Cert.ReferenceIdeal.S100000x16 .f32) (b : FVec Ideal Cert.ReferenceIdeal.S16 .f32) (i : Fin 100000) (q : Fin 16) :
    refBiasRelu16 S b (ix2 i q) = max (S (ix2 i q) + b (ix1 q)) 0 := by
  show max (S (ix2 i q) + refBiasMat16 b (ix2 i q)) (refZero16 (ix2 i q)) = _
  unfold refBiasMat16 refZero16
  rw [bcast_row_apply, bcast_scalar_apply]
  show max _ (Ideal.ofBits .f32 0x00000000#32) = _
  rw [Ideal.ofBits_zero_f32]

theorem refUpdate16_apply (S : FVec Ideal Cert.ReferenceIdeal.S100000x16 .f32) (b : FVec Ideal Cert.ReferenceIdeal.S16 .f32) (y : FVec Ideal Cert.ReferenceIdeal.S100000x16 .f32)
    (mask : IVec Cert.ReferenceIdeal.S100000 1) (i : Fin 100000) (q : Fin 16) :
    refUpdate16 S b y mask (ix2 i q)
      = if mask (ix1 i) = 1#1 then y (ix2 i q) else max (S (ix2 i q) + b (ix1 q)) 0 := by
  show Scalar.select (refMaskMat16 mask (ix2 i q)) (y (ix2 i q)) (refBiasRelu16 S b (ix2 i q)) = _
  unfold refMaskMat16
  rw [bcast_col_apply, refBiasRelu16_apply]
  rfl

theorem refUpdateLast16_apply (S : FVec Ideal Cert.ReferenceIdeal.S100000x16 .f32) (b : FVec Ideal Cert.ReferenceIdeal.S16 .f32) (y : FVec Ideal Cert.ReferenceIdeal.S100000x16 .f32)
    (mask : IVec Cert.ReferenceIdeal.S100000 1) (i : Fin 100000) (q : Fin 16) :
    refUpdateLast16 S b y mask (ix2 i q)
      = if mask (ix1 i) = 1#1 then y (ix2 i q) else S (ix2 i q) + b (ix1 q) := by
  show Scalar.select (refMaskMat16 mask (ix2 i q)) (y (ix2 i q)) (S (ix2 i q) + refBiasMat16 b (ix2 i q)) = _
  unfold refMaskMat16 refBiasMat16
  rw [bcast_col_apply, bcast_row_apply]
  rfl

/-- The kernel's integer mask array: the row mask as a matrix, each bit widened to a 32-bit word. -/
def kerMask16 (mask : IVec Cert.KernelIdeal.S100000 1) : IVec Cert.KernelIdeal.S100000x16 32 :=
  extui 32 (broadcastInDim Cert.KernelIdeal.S100000x16 ![0, 1] Cert.KernelIdeal.Facts₀.bcast_S100000x1_S100000x16_0_1
    (broadcastInDim Cert.KernelIdeal.S100000x1 ![0] Cert.KernelIdeal.Facts₀.bcast_S100000_S100000x1_0 mask)) Cert.KernelIdeal.Facts₀.natLt_1_32

theorem kerMask16_apply (mask : IVec Cert.KernelIdeal.S100000 1) (i : Fin 100000) (q : Fin 16) :
    kerMask16 mask (ix2 i q) = (mask (ix1 i)).setWidth 32 := by
  show (broadcastInDim Cert.KernelIdeal.S100000x16 ![0, 1] Cert.KernelIdeal.Facts₀.bcast_S100000x1_S100000x16_0_1
    (broadcastInDim Cert.KernelIdeal.S100000x1 ![0] Cert.KernelIdeal.Facts₀.bcast_S100000_S100000x1_0 mask) (ix2 i q)).setWidth 32 = _
  rw [bcast_col_apply]

/-- The label-update region's body at a block entry against the reference's update at the matching array entry. -/
theorem update16_at (S : FVec Ideal Cert.ReferenceIdeal.S100000x16 .f32) (b : FVec Ideal Cert.ReferenceIdeal.S16 .f32) (y : FVec Ideal Cert.ReferenceIdeal.S100000x16 .f32)
    (mask : IVec Cert.ReferenceIdeal.S100000 1)
    (X0 : Vec Ideal Cert.KernelIdeal.S5000x16 .f32) (X2 : Vec Ideal Cert.KernelIdeal.S1x16 .f32) (X8 : Vec Ideal Cert.KernelIdeal.S5000x16 .i32)
    (X11 : Vec Ideal Cert.KernelIdeal.S5000x16 .f32) (T : ℕ)
    (h0 : ∀ (x : Cert.KernelIdeal.S5000x16.Idx) (k : Cert.KernelIdeal.S100000x16.Idx), (k 0).val = 5000 * T + (x 0).val → (k 1).val = (x 1).val → X0 x = S k)
    (h2 : ∀ q : Fin 16, X2 (ix2 (0 : Fin 1) q) = b (ix1 q))
    (h8 : ∀ (x : Cert.KernelIdeal.S5000x16.Idx) (k : Cert.KernelIdeal.S100000x16.Idx), (k 0).val = 5000 * T + (x 0).val → (k 1).val = (x 1).val →
      X8 x = kerMask16 mask k)
    (h11 : ∀ (x : Cert.KernelIdeal.S5000x16.Idx) (k : Cert.KernelIdeal.S100000x16.Idx), (k 0).val = 5000 * T + (x 0).val → (k 1).val = (x 1).val → X11 x = y k)
    (j : Cert.KernelIdeal.S5000x16.Idx) (i : Cert.KernelIdeal.S100000x16.Idx) (hi0 : (i 0).val = 5000 * T + (j 0).val) (hi1 : (i 1).val = (j 1).val) :
    Cert.KernelIdeal.Gen.k5_pay1 (F := Ideal) X0 X2 X8 X11 j = refUpdate16 S b y mask i := by
  obtain ⟨r, q, rfl⟩ : ∃ (r : Fin 5000) (q : Fin 16), j = ix2 r q := ⟨j 0, j 1, eq_ix2 j⟩
  obtain ⟨R, q', rfl⟩ : ∃ (R : Fin 100000) (q' : Fin 16), i = ix2 R q' := ⟨i 0, i 1, eq_ix2 i⟩
  have hq : q' = q := Fin.ext hi1
  subst hq
  rw [pay_update, refUpdate16_apply, h0 (ix2 r q') (ix2 R q') hi0 rfl, h2, h8 (ix2 r q') (ix2 R q') hi0 rfl,
    h11 (ix2 r q') (ix2 R q') hi0 rfl, kerMask16_apply]
  by_cases hm : mask (ix1 R) = 1#1
  · rw [if_pos ((setWidth_ne_zero_iff _).mpr hm), if_pos hm]
  · rw [if_neg (fun h => hm ((setWidth_ne_zero_iff _).mp h)), if_neg hm]

theorem update16last_at (S : FVec Ideal Cert.ReferenceIdeal.S100000x16 .f32) (b : FVec Ideal Cert.ReferenceIdeal.S16 .f32) (y : FVec Ideal Cert.ReferenceIdeal.S100000x16 .f32)
    (mask : IVec Cert.ReferenceIdeal.S100000 1)
    (X0 : Vec Ideal Cert.KernelIdeal.S5000x16 .f32) (X2 : Vec Ideal Cert.KernelIdeal.S1x16 .f32) (X6 : Vec Ideal Cert.KernelIdeal.S5000x16 .i32)
    (X9 : Vec Ideal Cert.KernelIdeal.S5000x16 .f32) (T : ℕ)
    (h0 : ∀ (x : Cert.KernelIdeal.S5000x16.Idx) (k : Cert.KernelIdeal.S100000x16.Idx), (k 0).val = 5000 * T + (x 0).val → (k 1).val = (x 1).val → X0 x = S k)
    (h2 : ∀ q : Fin 16, X2 (ix2 (0 : Fin 1) q) = b (ix1 q))
    (h6 : ∀ (x : Cert.KernelIdeal.S5000x16.Idx) (k : Cert.KernelIdeal.S100000x16.Idx), (k 0).val = 5000 * T + (x 0).val → (k 1).val = (x 1).val →
      X6 x = kerMask16 mask k)
    (h9 : ∀ (x : Cert.KernelIdeal.S5000x16.Idx) (k : Cert.KernelIdeal.S100000x16.Idx), (k 0).val = 5000 * T + (x 0).val → (k 1).val = (x 1).val → X9 x = y k)
    (j : Cert.KernelIdeal.S5000x16.Idx) (i : Cert.KernelIdeal.S100000x16.Idx) (hi0 : (i 0).val = 5000 * T + (j 0).val) (hi1 : (i 1).val = (j 1).val) :
    Cert.KernelIdeal.Gen.k23_pay1 (F := Ideal) X0 X2 X6 X9 j = refUpdateLast16 S b y mask i := by
  obtain ⟨r, q, rfl⟩ : ∃ (r : Fin 5000) (q : Fin 16), j = ix2 r q := ⟨j 0, j 1, eq_ix2 j⟩
  obtain ⟨R, q', rfl⟩ : ∃ (R : Fin 100000) (q' : Fin 16), i = ix2 R q' := ⟨i 0, i 1, eq_ix2 i⟩
  have hq : q' = q := Fin.ext hi1
  subst hq
  rw [pay_update_last, refUpdateLast16_apply, h0 (ix2 r q') (ix2 R q') hi0 rfl, h2, h6 (ix2 r q') (ix2 R q') hi0 rfl,
    h9 (ix2 r q') (ix2 R q') hi0 rfl, kerMask16_apply]
  by_cases hm : mask (ix1 R) = 1#1
  · rw [if_pos ((setWidth_ne_zero_iff _).mpr hm), if_pos hm]
  · rw [if_neg (fun h => hm ((setWidth_ne_zero_iff _).mp h)), if_neg hm]

/-! ## The reference's bias and rectification on the 128-column features -/

/-- The bias vector as a matrix with every row the vector. -/
def refBiasMat128 (b : FVec Ideal Cert.ReferenceIdeal.S128 .f32) : FVec Ideal Cert.ReferenceIdeal.S100000x128 .f32 :=
  broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 b)

/-- The zero matrix the rectification compares with. -/
def refZero128 : FVec Ideal Cert.ReferenceIdeal.S100000x128 .f32 :=
  broadcastInDim Cert.ReferenceIdeal.S100000x128 ![] Cert.ReferenceIdeal.Facts₀.bcast_S_S100000x128 (constant (F := Ideal) Cert.ReferenceIdeal.S_ .f32 0x00000000#32)

/-- The biased sum S + b. -/
def refBias128 (S : FVec Ideal Cert.ReferenceIdeal.S100000x128 .f32) (b : FVec Ideal Cert.ReferenceIdeal.S128 .f32) : FVec Ideal Cert.ReferenceIdeal.S100000x128 .f32 :=
  addf S (refBiasMat128 b)

/-- The rectified biased sum max (S + b, 0). -/
def refBiasRelu128 (S : FVec Ideal Cert.ReferenceIdeal.S100000x128 .f32) (b : FVec Ideal Cert.ReferenceIdeal.S128 .f32) : FVec Ideal Cert.ReferenceIdeal.S100000x128 .f32 :=
  maximumf (addf S (refBiasMat128 b)) refZero128

theorem refBias128_apply (S : FVec Ideal Cert.ReferenceIdeal.S100000x128 .f32) (b : FVec Ideal Cert.ReferenceIdeal.S128 .f32) (i : Fin 100000) (q : Fin 128) :
    refBias128 S b (ix2 i q) = S (ix2 i q) + b (ix1 q) := by
  show S (ix2 i q) + refBiasMat128 b (ix2 i q) = _
  unfold refBiasMat128
  rw [bcast_row_apply]

theorem refBiasRelu128_apply (S : FVec Ideal Cert.ReferenceIdeal.S100000x128 .f32) (b : FVec Ideal Cert.ReferenceIdeal.S128 .f32) (i : Fin 100000) (q : Fin 128) :
    refBiasRelu128 S b (ix2 i q) = max (S (ix2 i q) + b (ix1 q)) 0 := by
  show max (S (ix2 i q) + refBiasMat128 b (ix2 i q)) (refZero128 (ix2 i q)) = _
  unfold refBiasMat128 refZero128
  rw [bcast_row_apply, bcast_scalar_apply]
  show max _ (Ideal.ofBits .f32 0x00000000#32) = _
  rw [Ideal.ofBits_zero_f32]

/-- The bias-and-rectify region's body at a block entry against the reference's at the matching array entry. -/
theorem biasrelu128_at (S : FVec Ideal Cert.ReferenceIdeal.S100000x128 .f32) (b : FVec Ideal Cert.ReferenceIdeal.S128 .f32)
    (X0 : Vec Ideal Cert.KernelIdeal.S5000x128 .f32) (X2 : Vec Ideal Cert.KernelIdeal.S1x128 .f32) (T : ℕ)
    (h0 : ∀ (x : Cert.KernelIdeal.S5000x128.Idx) (k : Cert.KernelIdeal.S100000x128.Idx), (k 0).val = 5000 * T + (x 0).val → (k 1).val = (x 1).val → X0 x = S k)
    (h2 : ∀ q : Fin 128, X2 (ix2 (0 : Fin 1) q) = b (ix1 q))
    (j : Cert.KernelIdeal.S5000x128.Idx) (i : Cert.KernelIdeal.S100000x128.Idx) (hi0 : (i 0).val = 5000 * T + (j 0).val) (hi1 : (i 1).val = (j 1).val) :
    Cert.KernelIdeal.Gen.k1_pay1 (F := Ideal) X0 X2 j = refBiasRelu128 S b i := by
  obtain ⟨r, q, rfl⟩ : ∃ (r : Fin 5000) (q : Fin 128), j = ix2 r q := ⟨j 0, j 1, eq_ix2 j⟩
  obtain ⟨R, q', rfl⟩ : ∃ (R : Fin 100000) (q' : Fin 128), i = ix2 R q' := ⟨i 0, i 1, eq_ix2 i⟩
  have hq : q' = q := Fin.ext hi1
  subst hq
  rw [pay_biasrelu, refBiasRelu128_apply, h0 (ix2 r q') (ix2 R q') hi0 rfl, h2]

/-- The bias region's body at a block entry against the reference's at the matching array entry. -/
theorem bias128_at (S : FVec Ideal Cert.ReferenceIdeal.S100000x128 .f32) (b : FVec Ideal Cert.ReferenceIdeal.S128 .f32)
    (X0 : Vec Ideal Cert.KernelIdeal.S5000x128 .f32) (X2 : Vec Ideal Cert.KernelIdeal.S1x128 .f32) (T : ℕ)
    (h0 : ∀ (x : Cert.KernelIdeal.S5000x128.Idx) (k : Cert.KernelIdeal.S100000x128.Idx), (k 0).val = 5000 * T + (x 0).val → (k 1).val = (x 1).val → X0 x = S k)
    (h2 : ∀ q : Fin 128, X2 (ix2 (0 : Fin 1) q) = b (ix1 q))
    (j : Cert.KernelIdeal.S5000x128.Idx) (i : Cert.KernelIdeal.S100000x128.Idx) (hi0 : (i 0).val = 5000 * T + (j 0).val) (hi1 : (i 1).val = (j 1).val) :
    Cert.KernelIdeal.Gen.k3_pay1 (F := Ideal) X0 X2 j = refBias128 S b i := by
  obtain ⟨r, q, rfl⟩ : ∃ (r : Fin 5000) (q : Fin 128), j = ix2 r q := ⟨j 0, j 1, eq_ix2 j⟩
  obtain ⟨R, q', rfl⟩ : ∃ (R : Fin 100000) (q' : Fin 128), i = ix2 R q' := ⟨i 0, i 1, eq_ix2 i⟩
  have hq : q' = q := Fin.ext hi1
  subst hq
  rw [pay_bias, refBias128_apply, h0 (ix2 r q') (ix2 R q') hi0 rfl, h2]

/-! ## The reference's last step: features joined, one product, bias, logistic -/

/-- A sum over 0 … a + b + c − 1 is the sum of its three consecutive stretches. -/
theorem sum_fin_three {M : Type} [AddCommMonoid M] (a b c : ℕ) (f : Fin (a + b + c) → M) :
    ∑ k, f k = (∑ k : Fin a, f ⟨k.val, by omega⟩) + (∑ k : Fin b, f ⟨a + k.val, by omega⟩)
      + (∑ k : Fin c, f ⟨a + b + k.val, by omega⟩) := by
  rw [Fin.sum_univ_add, Fin.sum_univ_add]
  rfl

/-- The three feature arrays joined along the columns. -/
def refJoin (h : FVec Ideal Cert.ReferenceIdeal.S100000x128 .f32) (xl : FVec Ideal Cert.ReferenceIdeal.S100000x16 .f32) (dw : FVec Ideal Cert.ReferenceIdeal.S100000x64 .f32) :
    FVec Ideal Cert.ReferenceIdeal.S100000x208 .f32 :=
  concatenate Cert.ReferenceIdeal.S100000x208 1 [⟨Cert.ReferenceIdeal.S100000x128, h⟩, ⟨Cert.ReferenceIdeal.S100000x16, xl⟩, ⟨Cert.ReferenceIdeal.S100000x64, dw⟩]
    Cert.ReferenceIdeal.Facts₀.concatenates_S100000x128_S100000x16_S100000x64_S100000x208_d1

/-- The matrix of ones of the logistic's expansion. -/
def refOne16 : FVec Ideal Cert.ReferenceIdeal.S100000x16 .f32 :=
  broadcastInDim Cert.ReferenceIdeal.S100000x16 ![] Cert.ReferenceIdeal.Facts₀.bcast_S_S100000x16 (constant (F := Ideal) Cert.ReferenceIdeal.S_ .f32 0x3F800000#32)

/-- The last step: 1 / (1 + exp (−(join · Wf + bf))). -/
def refFuse (h : FVec Ideal Cert.ReferenceIdeal.S100000x128 .f32) (xl : FVec Ideal Cert.ReferenceIdeal.S100000x16 .f32) (dw : FVec Ideal Cert.ReferenceIdeal.S100000x64 .f32)
    (Wf : FVec Ideal Cert.ReferenceIdeal.S208x16 .f32) (bf : FVec Ideal Cert.ReferenceIdeal.S16 .f32) : FVec Ideal Cert.ReferenceIdeal.S100000x16 .f32 :=
  Host.divf refOne16 (addf refOne16 (Host.exp (Host.negf (addf
    (Host.dotGeneral (F := Ideal) Cert.ReferenceIdeal.dot_S100000x208_S208x16_S100000x16_1_0_0_1_n_n none (refJoin h xl dw) Wf)
    (refBiasMat16 bf)))))

theorem refJoin_apply_h (h : FVec Ideal Cert.ReferenceIdeal.S100000x128 .f32) (xl : FVec Ideal Cert.ReferenceIdeal.S100000x16 .f32)
    (dw : FVec Ideal Cert.ReferenceIdeal.S100000x64 .f32) (i : Fin 100000) (k : Fin 128) :
    refJoin h xl dw (ix2 i (⟨k.val, by omega⟩ : Fin 208)) = h (ix2 i k) := by
  unfold refJoin
  refine concatenate_apply_piece (t := Cert.ReferenceIdeal.S100000x208) 1 [⟨Cert.ReferenceIdeal.S100000x128, h⟩, ⟨Cert.ReferenceIdeal.S100000x16, xl⟩, ⟨Cert.ReferenceIdeal.S100000x64, dw⟩] _ _ 0 (by show (0 : ℕ) < 3; omega) Cert.ReferenceIdeal.S100000x128 h rfl rfl 0 rfl (ix2 i k) (fun b hb => ?_) ?_
  · match b with
    | ⟨0, _⟩ => rfl
    | ⟨1, _⟩ => exact absurd rfl hb
  · show 0 + k.val = k.val
    omega

theorem refJoin_apply_xl (h : FVec Ideal Cert.ReferenceIdeal.S100000x128 .f32) (xl : FVec Ideal Cert.ReferenceIdeal.S100000x16 .f32)
    (dw : FVec Ideal Cert.ReferenceIdeal.S100000x64 .f32) (i : Fin 100000) (k : Fin 16) :
    refJoin h xl dw (ix2 i (⟨128 + k.val, by omega⟩ : Fin 208)) = xl (ix2 i k) := by
  unfold refJoin
  refine concatenate_apply_piece (t := Cert.ReferenceIdeal.S100000x208) 1 [⟨Cert.ReferenceIdeal.S100000x128, h⟩, ⟨Cert.ReferenceIdeal.S100000x16, xl⟩, ⟨Cert.ReferenceIdeal.S100000x64, dw⟩] _ _ 1 (by show (1 : ℕ) < 3; omega) Cert.ReferenceIdeal.S100000x16 xl rfl rfl 128 rfl (ix2 i k) (fun b hb => ?_) ?_
  · match b with
    | ⟨0, _⟩ => rfl
    | ⟨1, _⟩ => exact absurd rfl hb
  · rfl

theorem refJoin_apply_dw (h : FVec Ideal Cert.ReferenceIdeal.S100000x128 .f32) (xl : FVec Ideal Cert.ReferenceIdeal.S100000x16 .f32)
    (dw : FVec Ideal Cert.ReferenceIdeal.S100000x64 .f32) (i : Fin 100000) (k : Fin 64) :
    refJoin h xl dw (ix2 i (⟨144 + k.val, by omega⟩ : Fin 208)) = dw (ix2 i k) := by
  unfold refJoin
  refine concatenate_apply_piece (t := Cert.ReferenceIdeal.S100000x208) 1 [⟨Cert.ReferenceIdeal.S100000x128, h⟩, ⟨Cert.ReferenceIdeal.S100000x16, xl⟩, ⟨Cert.ReferenceIdeal.S100000x64, dw⟩] _ _ 2 (by show (2 : ℕ) < 3; omega) Cert.ReferenceIdeal.S100000x64 dw rfl rfl 144 rfl (ix2 i k) (fun b hb => ?_) ?_
  · match b with
    | ⟨0, _⟩ => rfl
    | ⟨1, _⟩ => exact absurd rfl hb
  · rfl

theorem refFuse_apply (h : FVec Ideal Cert.ReferenceIdeal.S100000x128 .f32) (xl : FVec Ideal Cert.ReferenceIdeal.S100000x16 .f32)
    (dw : FVec Ideal Cert.ReferenceIdeal.S100000x64 .f32) (Wf : FVec Ideal Cert.ReferenceIdeal.S208x16 .f32) (bf : FVec Ideal Cert.ReferenceIdeal.S16 .f32)
    (i : Fin 100000) (q : Fin 16) :
    refFuse h xl dw Wf bf (ix2 i q)
      = Ideal.logistic ((∑ k : Fin 128, h (ix2 i k) * Wf (ix2 (⟨k.val, by omega⟩ : Fin 208) q))
          + (∑ k : Fin 16, xl (ix2 i k) * Wf (ix2 (⟨128 + k.val, by omega⟩ : Fin 208) q))
          + (∑ k : Fin 64, dw (ix2 i k) * Wf (ix2 (⟨144 + k.val, by omega⟩ : Fin 208) q)) + bf (ix1 q)) := by
  show Ideal.div (refOne16 (ix2 i q)) (refOne16 (ix2 i q) + Ideal.exp (-(
    Host.dotGeneral (F := Ideal) Cert.ReferenceIdeal.dot_S100000x208_S208x16_S100000x16_1_0_0_1_n_n none (refJoin h xl dw) Wf (ix2 i q)
      + refBiasMat16 bf (ix2 i q)))) = _
  have h1 : refOne16 (ix2 i q) = 1 := by
    unfold refOne16
    rw [bcast_scalar_apply]
    exact Ideal.ofBits_one_f32
  rw [h1, Cert.LibHostDot.dotGeneral_plain_apply' Cert.ReferenceIdeal.dot_S100000x208_S208x16_S100000x16_1_0_0_1_n_n
    Cert.ReferenceIdeal.dot_S100000x208_S208x16_S100000x16_1_0_0_1_n_n.wf rfl]
  unfold refBiasMat16
  rw [bcast_row_apply, sum_fin_three 128 16 64 (fun k : Fin 208 => refJoin h xl dw (ix2 i k) * Wf (ix2 k q))]
  simp only [refJoin_apply_h, refJoin_apply_xl, refJoin_apply_dw]
  rfl

/-- The last region's body at a block entry against the reference's last step at the matching array entry.  The three
    weight blocks are the three row stretches of the reference's one weight matrix. -/
theorem fuse_at (h : FVec Ideal Cert.ReferenceIdeal.S100000x128 .f32) (xl : FVec Ideal Cert.ReferenceIdeal.S100000x16 .f32) (dw : FVec Ideal Cert.ReferenceIdeal.S100000x64 .f32)
    (Wf : FVec Ideal Cert.ReferenceIdeal.S208x16 .f32) (bf : FVec Ideal Cert.ReferenceIdeal.S16 .f32)
    (X0 : Vec Ideal Cert.KernelIdeal.S5000x128 .f32) (X3 : Vec Ideal Cert.KernelIdeal.S5000x16 .f32) (X6 : Vec Ideal Cert.KernelIdeal.S5000x64 .f32)
    (X8 : Vec Ideal Cert.KernelIdeal.S128x16 .f32) (X11 : Vec Ideal Cert.KernelIdeal.S16x16 .f32) (X14 : Vec Ideal Cert.KernelIdeal.S64x16 .f32)
    (X22 : Vec Ideal Cert.KernelIdeal.S1x16 .f32) (T : ℕ)
    (h0 : ∀ (x : Cert.KernelIdeal.S5000x128.Idx) (k : Cert.KernelIdeal.S100000x128.Idx), (k 0).val = 5000 * T + (x 0).val → (k 1).val = (x 1).val → X0 x = h k)
    (h3 : ∀ (x : Cert.KernelIdeal.S5000x16.Idx) (k : Cert.KernelIdeal.S100000x16.Idx), (k 0).val = 5000 * T + (x 0).val → (k 1).val = (x 1).val → X3 x = xl k)
    (h6 : ∀ (x : Cert.KernelIdeal.S5000x64.Idx) (k : Cert.KernelIdeal.S100000x64.Idx), (k 0).val = 5000 * T + (x 0).val → (k 1).val = (x 1).val → X6 x = dw k)
    (W1 : FVec Ideal Cert.KernelIdeal.S128x16 .f32) (W2 : FVec Ideal Cert.KernelIdeal.S16x16 .f32) (W3 : FVec Ideal Cert.KernelIdeal.S64x16 .f32)
    (hW1 : W1 = extractStridedSlice Cert.KernelIdeal.S128x16 ![0, 0] Wf Cert.KernelIdeal.Facts₀.slices_S208x16_S128x16_0_0)
    (hW2 : W2 = extractStridedSlice Cert.KernelIdeal.S16x16 ![128, 0] Wf Cert.KernelIdeal.Facts₀.slices_S208x16_S16x16_128_0)
    (hW3 : W3 = extractStridedSlice Cert.KernelIdeal.S64x16 ![144, 0] Wf Cert.KernelIdeal.Facts₀.slices_S208x16_S64x16_144_0)
    (h8 : ∀ x : Cert.KernelIdeal.S128x16.Idx, X8 x = W1 x) (h11 : ∀ x : Cert.KernelIdeal.S16x16.Idx, X11 x = W2 x)
    (h14 : ∀ x : Cert.KernelIdeal.S64x16.Idx, X14 x = W3 x)
    (h22 : ∀ q : Fin 16, X22 (ix2 (0 : Fin 1) q) = bf (ix1 q))
    (j : Cert.KernelIdeal.S5000x16.Idx) (i : Cert.KernelIdeal.S100000x16.Idx) (hi0 : (i 0).val = 5000 * T + (j 0).val) (hi1 : (i 1).val = (j 1).val) :
    Cert.KernelIdeal.Gen.k24_pay1 (F := Ideal) X0 X3 X6 X8 X11 X14 X22 j = refFuse h xl dw Wf bf i := by
  obtain ⟨r, q, rfl⟩ : ∃ (r : Fin 5000) (q : Fin 16), j = ix2 r q := ⟨j 0, j 1, eq_ix2 j⟩
  obtain ⟨R, q', rfl⟩ : ∃ (R : Fin 100000) (q' : Fin 16), i = ix2 R q' := ⟨i 0, i 1, eq_ix2 i⟩
  have hq : q' = q := Fin.ext hi1
  subst hq
  rw [pay_fuse, refFuse_apply, h22]
  congr 2
  congr 1
  congr 1
  · refine Finset.sum_congr rfl fun k _ => ?_
    rw [h0 (ix2 r k) (ix2 R k) hi0 rfl, h8, hW1]
    exact congrArg _ (slice2_axis0_apply 0 Wf _ k q' ⟨k.val, by omega⟩ (Nat.zero_add _).symm)
  · refine Finset.sum_congr rfl fun k _ => ?_
    rw [h3 (ix2 r k) (ix2 R k) hi0 rfl, h11, hW2]
    exact congrArg _ (slice2_axis0_apply 128 Wf _ k q' ⟨128 + k.val, by omega⟩ rfl)
  · refine Finset.sum_congr rfl fun k _ => ?_
    rw [h6 (ix2 r k) (ix2 R k) hi0 rfl, h14, hW3]
    exact congrArg _ (slice2_axis0_apply 144 Wf _ k q' ⟨144 + k.val, by omega⟩ rfl)

end Cert.KV.Dense

end
-- ==== Proof.RefTac.lean ====
/-
  Two small tools for the reference's run: a buffer that a list of host operations does not write holds after the list
  what it held before; and running a list is running its two pieces one after the other.
-/
import proofs.«146329_j1168231104595_1_alg».proof.Proof.RunP
import Idealize.ShloMosaic.PureOps.Ideal

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

/-- Closes `after piece V b = V b` for a named piece none of whose operations writes `b`. -/
macro "keep_piece " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- Running a list in two pieces. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.ReferenceIdeal.RefRun

end
-- ==== Proof.RefVal.lean ====
/-
  No operation writes an argument: after the first 371 operations the three arguments the head reads hold their launch
  contents.
-/
import proofs.«146329_j1168231104595_1_alg».proof.Proof.RunP
import proofs.«146329_j1168231104595_1_alg».proof.Proof.RefTac

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 4000000 in
theorem pre_arg3 (c : Dev nD) :
    after (opsA (F := Ideal)) (launchContents m c) (Proc.devRef .tc main_arg3) = (m ((c.tc : Thread nD τ).loc main_arg3)) :=
  (show after (opsA (F := Ideal)) (launchContents m c) (Proc.devRef .tc main_arg3) = launchContents m c (Proc.devRef .tc main_arg3) from by keep_piece opsA)

set_option maxRecDepth 16384 in
set_option maxHeartbeats 4000000 in
theorem pre_arg11 (c : Dev nD) :
    after (opsA (F := Ideal)) (launchContents m c) (Proc.devRef .tc main_arg11) = (m ((c.tc : Thread nD τ).loc main_arg11)) :=
  (show after (opsA (F := Ideal)) (launchContents m c) (Proc.devRef .tc main_arg11) = launchContents m c (Proc.devRef .tc main_arg11) from by keep_piece opsA)

set_option maxRecDepth 16384 in
set_option maxHeartbeats 4000000 in
theorem pre_arg12 (c : Dev nD) :
    after (opsA (F := Ideal)) (launchContents m c) (Proc.devRef .tc main_arg12) = (m ((c.tc : Thread nD τ).loc main_arg12)) :=
  (show after (opsA (F := Ideal)) (launchContents m c) (Proc.devRef .tc main_arg12) = launchContents m c (Proc.devRef .tc main_arg12) from by keep_piece opsA)

end Cert.ReferenceIdeal.RefRun

end
-- ==== Proof.RefPieces.lean ====
/-
  The reference program's first 371 operations cut into 37 consecutive pieces, a new piece beginning after the index vectors, at every outlined call and after it: the graph preprocessing (row and
  column index vectors with self loops, degrees, symmetric normalisation), the two feature layers (linear map, gather,
  normalise, scatter-add, bias, rectifier after the first), the mask as a column, and the ten label layers (weight and
  bias slices, linear map, gather, normalise, scatter-add, bias, rectifier but for the last, masked update).  The list
  is their concatenation.
-/
import proofs.«146329_j1168231104595_1_alg».proof.Proof.RunP
import Idealize.ShloMosaic.PureOps.Ideal

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxHeartbeats 4000000 in
/-- Operations 0–6. -/
abbrev pP0a : List (HloOp τ sig (Elt F)) :=
  [ nullary main_v0 (iotaInDim S100000 32 0),
    unary main_arg2 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg2 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

set_option maxHeartbeats 4000000 in
/-- Operations 7–17. -/
abbrev pP0b : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

set_option maxHeartbeats 4000000 in
/-- Operations 18–20. -/
abbrev pP0c : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

set_option maxHeartbeats 4000000 in
/-- Operations 21–39. -/
abbrev pP0d : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

set_option maxHeartbeats 4000000 in
/-- Operations 40–59. -/
abbrev pF1a : List (HloOp τ sig (Elt F)) :=
  [ binary main_arg0 main_arg5 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
/-- Operations 60–62. -/
abbrev pF1b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

set_option maxHeartbeats 4000000 in
/-- Operations 63–82. -/
abbrev pF2 : List (HloOp τ sig (Elt F)) :=
  [ binary main_v47 main_arg7 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
/-- Operations 83–83. -/
abbrev pMk : List (HloOp τ sig (Elt F)) :=
  [ unary main_arg4 main_v65 (broadcastInDim S100000x1 ![0] bcast_S100000_S100000x1_0 : (⟨S100000, .i1⟩ : BufTy).Contents (Elt F) → (⟨S100000x1, .i1⟩ : BufTy).Contents (Elt F)) ]

set_option maxHeartbeats 4000000 in
/-- Operations 84–107. -/
abbrev pL0a : List (HloOp τ sig (Elt F)) :=
  [ unary main_arg9 main_v66 ((extractStridedSlice S1x16x16 ![0, 0, 0] · slices_S10x16x16_S1x16x16_0_0_0) : (⟨S10x16x16, .f32⟩ : BufTy).Contents (Elt F) → (⟨S1x16x16, .f32⟩ : BufTy).Contents (Elt F)),
    reshape main_v66 main_v67 rfl shapeCasts_S1x16x16_S16x16,
    unary main_arg10 main_v68 ((extractStridedSlice S1x16 ![0, 0] · slices_S10x16_S1x16_0_0) : (⟨S10x16, .f32⟩ : BufTy).Contents (Elt F) → (⟨S1x16, .f32⟩ : BufTy).Contents (Elt F)),
    reshape main_v68 main_v69 rfl shapeCasts_S1x16_S16,
    binary main_arg1 main_v67 main_v70 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_12 (constantI S_ 32 0#32),
    unary main_c_12 main_v71 (broadcastInDim S1700000 ![] bcast_S_S1700000 : (⟨S_, .i32⟩ : BufTy).Contents (Elt F) → (⟨S1700000, .i32⟩ : BufTy).Contents (Elt F)),
    binary main_v3 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v73 (broadcastInDim S1700000 ![] bcast_S_S1700000 : (⟨S_, .i32⟩ : BufTy).Contents (Elt F) → (⟨S1700000, .i32⟩ : BufTy).Contents (Elt F)),
    binary main_v3 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v78 (broadcastInDim S1700000x1 ![0] bcast_S1700000_S1700000x1_0 : (⟨S1700000, .f32⟩ : BufTy).Contents (Elt F) → (⟨S1700000x1, .f32⟩ : BufTy).Contents (Elt F)),
    unary main_v78 main_v79 (broadcastInDim S1700000x16 ![0, 1] bcast_S1700000x1_S1700000x16_0_1 : (⟨S1700000x1, .f32⟩ : BufTy).Contents (Elt F) → (⟨S1700000x16, .f32⟩ : BufTy).Contents (Elt F)),
    binary main_v77 main_v79 main_v80 (mulf : (⟨S1700000x16, .f32⟩ : BufTy).Contents (Elt F) → (⟨S1700000x16, .f32⟩ : BufTy).Contents (Elt F) → (⟨S1700000x16, .f32⟩ : BufTy).Contents (Elt F)),
    nullary main_cst_14 (constant S_ .f32 0x00000000#32),
    unary main_cst_14 main_v81 (broadcastInDim S100000x16 ![] bcast_S_S100000x16 : (⟨S_, .f32⟩ : BufTy).Contents (Elt F) → (⟨S100000x16, .f32⟩ : BufTy).Contents (Elt F)),
    unary main_v6 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v69 main_v84 (broadcastInDim S1x16 ![1] bcast_S16_S1x16_1 : (⟨S16, .f32⟩ : BufTy).Contents (Elt F) → (⟨S1x16, .f32⟩ : BufTy).Contents (Elt F)),
    unary main_v84 main_v85 (broadcastInDim S100000x16 ![0, 1] bcast_S1x16_S100000x16_0_1 : (⟨S1x16, .f32⟩ : BufTy).Contents (Elt F) → (⟨S100000x16, .f32⟩ : BufTy).Contents (Elt F)),
    binary main_v83 main_v85 main_v86 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 108–110. -/
abbrev pL0b : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v86) (TRef.of (T := ⟨S100000x16, .f32⟩) main_call2_v0) (TRef.of (T := ⟨S100000x16, .f32⟩) main_v87) maximumf ]

set_option maxHeartbeats 4000000 in
/-- Operations 111–112. -/
abbrev pL0c : List (HloOp τ sig (Elt F)) :=
  [ TRef.unary (TRef.of (T := ⟨S100000x1, .i1⟩) main_v65) (TRef.of (T := ⟨S100000x16, .i1⟩) main_call3_v0) (broadcastInDim S100000x16 ![0, 1] bcast_S100000x1_S100000x16_0_1),
    TRef.ternary (TRef.of (T := ⟨S100000x16, .i1⟩) main_call3_v0) (TRef.of (T := ⟨S100000x16, .f32⟩) main_arg1) (TRef.of (T := ⟨S100000x16, .f32⟩) main_v87) (TRef.of (T := ⟨S100000x16, .f32⟩) main_v88) select ]

set_option maxHeartbeats 4000000 in
/-- Operations 113–136. -/
abbrev pL1a : List (HloOp τ sig (Elt F)) :=
  [ unary main_arg9 main_v89 ((extractStridedSlice S1x16x16 ![1, 0, 0] · slices_S10x16x16_S1x16x16_1_0_0) : (⟨S10x16x16, .f32⟩ : BufTy).Contents (Elt F) → (⟨S1x16x16, .f32⟩ : BufTy).Contents (Elt F)),
    reshape main_v89 main_v90 rfl shapeCasts_S1x16x16_S16x16,
    unary main_arg10 main_v91 ((extractStridedSlice S1x16 ![1, 0] · slices_S10x16_S1x16_1_0) : (⟨S10x16, .f32⟩ : BufTy).Contents (Elt F) → (⟨S1x16, .f32⟩ : BufTy).Contents (Elt F)),
    reshape main_v91 main_v92 rfl shapeCasts_S1x16_S16,
    binary main_v88 main_v90 main_v93 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_15 (constantI S_ 32 0#32),
    unary main_c_15 main_v94 (broadcastInDim S1700000 ![] bcast_S_S1700000 : (⟨S_, .i32⟩ : BufTy).Contents (Elt F) → (⟨S1700000, .i32⟩ : BufTy).Contents (Elt F)),
    binary main_v3 main_v94 main_v95 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v96 (broadcastInDim S1700000 ![] bcast_S_S1700000 : (⟨S_, .i32⟩ : BufTy).Contents (Elt F) → (⟨S1700000, .i32⟩ : BufTy).Contents (Elt F)),
    binary main_v3 main_v96 main_v97 (addi : (⟨S1700000, .i32⟩ : BufTy).Contents (Elt F) → (⟨S1700000, .i32⟩ : BufTy).Contents (Elt F) → (⟨S1700000, .i32⟩ : BufTy).Contents (Elt F)),
    ternary main_v95 main_v97 main_v3 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v98 main_v99 (broadcastInDim S1700000x1 ![0] bcast_S1700000_S1700000x1_0 : (⟨S1700000, .i32⟩ : BufTy).Contents (Elt F) → (⟨S1700000x1, .i32⟩ : BufTy).Contents (Elt F)),
    binary main_v93 main_v99 main_v100 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v101 (broadcastInDim S1700000x1 ![0] bcast_S1700000_S1700000x1_0 : (⟨S1700000, .f32⟩ : BufTy).Contents (Elt F) → (⟨S1700000x1, .f32⟩ : BufTy).Contents (Elt F)),
    unary main_v101 main_v102 (broadcastInDim S1700000x16 ![0, 1] bcast_S1700000x1_S1700000x16_0_1 : (⟨S1700000x1, .f32⟩ : BufTy).Contents (Elt F) → (⟨S1700000x16, .f32⟩ : BufTy).Contents (Elt F)),
    binary main_v100 main_v102 main_v103 (mulf : (⟨S1700000x16, .f32⟩ : BufTy).Contents (Elt F) → (⟨S1700000x16, .f32⟩ : BufTy).Contents (Elt F) → (⟨S1700000x16, .f32⟩ : BufTy).Contents (Elt F)),
    nullary main_cst_17 (constant S_ .f32 0x00000000#32),
    unary main_cst_17 main_v104 (broadcastInDim S100000x16 ![] bcast_S_S100000x16 : (⟨S_, .f32⟩ : BufTy).Contents (Elt F) → (⟨S100000x16, .f32⟩ : BufTy).Contents (Elt F)),
    unary main_v6 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v92 main_v107 (broadcastInDim S1x16 ![1] bcast_S16_S1x16_1 : (⟨S16, .f32⟩ : BufTy).Contents (Elt F) → (⟨S1x16, .f32⟩ : BufTy).Contents (Elt F)),
    unary main_v107 main_v108 (broadcastInDim S100000x16 ![0, 1] bcast_S1x16_S100000x16_0_1 : (⟨S1x16, .f32⟩ : BufTy).Contents (Elt F) → (⟨S100000x16, .f32⟩ : BufTy).Contents (Elt F)),
    binary main_v106 main_v108 main_v109 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 137–139. -/
abbrev pL1b : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x16, .f32⟩) main_call4_v0) (broadcastInDim S100000x16 ![] bcast_S_S100000x16),
    TRef.binary (TRef.of (T := ⟨S100000x16, .f32⟩) main_v109) (TRef.of (T := ⟨S100000x16, .f32⟩) main_call4_v0) (TRef.of (T := ⟨S100000x16, .f32⟩) main_v110) maximumf ]

set_option maxHeartbeats 4000000 in
/-- Operations 140–141. -/
abbrev pL1c : List (HloOp τ sig (Elt F)) :=
  [ TRef.unary (TRef.of (T := ⟨S100000x1, .i1⟩) main_v65) (TRef.of (T := ⟨S100000x16, .i1⟩) main_call5_v0) (broadcastInDim S100000x16 ![0, 1] bcast_S100000x1_S100000x16_0_1),
    TRef.ternary (TRef.of (T := ⟨S100000x16, .i1⟩) main_call5_v0) (TRef.of (T := ⟨S100000x16, .f32⟩) main_arg1) (TRef.of (T := ⟨S100000x16, .f32⟩) main_v110) (TRef.of (T := ⟨S100000x16, .f32⟩) main_v111) select ]

set_option maxHeartbeats 4000000 in
/-- Operations 142–165. -/
abbrev pL2a : List (HloOp τ sig (Elt F)) :=
  [ unary main_arg9 main_v112 ((extractStridedSlice S1x16x16 ![2, 0, 0] · slices_S10x16x16_S1x16x16_2_0_0) : (⟨S10x16x16, .f32⟩ : BufTy).Contents (Elt F) → (⟨S1x16x16, .f32⟩ : BufTy).Contents (Elt F)),
    reshape main_v112 main_v113 rfl shapeCasts_S1x16x16_S16x16,
    unary main_arg10 main_v114 ((extractStridedSlice S1x16 ![2, 0] · slices_S10x16_S1x16_2_0) : (⟨S10x16, .f32⟩ : BufTy).Contents (Elt F) → (⟨S1x16, .f32⟩ : BufTy).Contents (Elt F)),
    reshape main_v114 main_v115 rfl shapeCasts_S1x16_S16,
    binary main_v111 main_v113 main_v116 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_18 (constantI S_ 32 0#32),
    unary main_c_18 main_v117 (broadcastInDim S1700000 ![] bcast_S_S1700000 : (⟨S_, .i32⟩ : BufTy).Contents (Elt F) → (⟨S1700000, .i32⟩ : BufTy).Contents (Elt F)),
    binary main_v3 main_v117 main_v118 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v119 (broadcastInDim S1700000 ![] bcast_S_S1700000 : (⟨S_, .i32⟩ : BufTy).Contents (Elt F) → (⟨S1700000, .i32⟩ : BufTy).Contents (Elt F)),
    binary main_v3 main_v119 main_v120 (addi : (⟨S1700000, .i32⟩ : BufTy).Contents (Elt F) → (⟨S1700000, .i32⟩ : BufTy).Contents (Elt F) → (⟨S1700000, .i32⟩ : BufTy).Contents (Elt F)),
    ternary main_v118 main_v120 main_v3 main_v121 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v121 main_v122 (broadcastInDim S1700000x1 ![0] bcast_S1700000_S1700000x1_0 : (⟨S1700000, .i32⟩ : BufTy).Contents (Elt F) → (⟨S1700000x1, .i32⟩ : BufTy).Contents (Elt F)),
    binary main_v116 main_v122 main_v123 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v124 (broadcastInDim S1700000x1 ![0] bcast_S1700000_S1700000x1_0 : (⟨S1700000, .f32⟩ : BufTy).Contents (Elt F) → (⟨S1700000x1, .f32⟩ : BufTy).Contents (Elt F)),
    unary main_v124 main_v125 (broadcastInDim S1700000x16 ![0, 1] bcast_S1700000x1_S1700000x16_0_1 : (⟨S1700000x1, .f32⟩ : BufTy).Contents (Elt F) → (⟨S1700000x16, .f32⟩ : BufTy).Contents (Elt F)),
    binary main_v123 main_v125 main_v126 (mulf : (⟨S1700000x16, .f32⟩ : BufTy).Contents (Elt F) → (⟨S1700000x16, .f32⟩ : BufTy).Contents (Elt F) → (⟨S1700000x16, .f32⟩ : BufTy).Contents (Elt F)),
    nullary main_cst_20 (constant S_ .f32 0x00000000#32),
    unary main_cst_20 main_v127 (broadcastInDim S100000x16 ![] bcast_S_S100000x16 : (⟨S_, .f32⟩ : BufTy).Contents (Elt F) → (⟨S100000x16, .f32⟩ : BufTy).Contents (Elt F)),
    unary main_v6 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v115 main_v130 (broadcastInDim S1x16 ![1] bcast_S16_S1x16_1 : (⟨S16, .f32⟩ : BufTy).Contents (Elt F) → (⟨S1x16, .f32⟩ : BufTy).Contents (Elt F)),
    unary main_v130 main_v131 (broadcastInDim S100000x16 ![0, 1] bcast_S1x16_S100000x16_0_1 : (⟨S1x16, .f32⟩ : BufTy).Contents (Elt F) → (⟨S100000x16, .f32⟩ : BufTy).Contents (Elt F)),
    binary main_v129 main_v131 main_v132 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 166–168. -/
abbrev pL2b : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S100000x16, .f32⟩) main_call6_v0) (broadcastInDim S100000x16 ![] bcast_S_S100000x16),
    TRef.binary (TRef.of (T := ⟨S100000x16, .f32⟩) main_v132) (TRef.of (T := ⟨S100000x16, .f32⟩) main_call6_v0) (TRef.of (T := ⟨S100000x16, .f32⟩) main_v133) maximumf ]

set_option maxHeartbeats 4000000 in
/-- Operations 169–170. -/
abbrev pL2c : List (HloOp τ sig (Elt F)) :=
  [ TRef.unary (TRef.of (T := ⟨S100000x1, .i1⟩) main_v65) (TRef.of (T := ⟨S100000x16, .i1⟩) main_call7_v0) (broadcastInDim S100000x16 ![0, 1] bcast_S100000x1_S100000x16_0_1),
    TRef.ternary (TRef.of (T := ⟨S100000x16, .i1⟩) main_call7_v0) (TRef.of (T := ⟨S100000x16, .f32⟩) main_arg1) (TRef.of (T := ⟨S100000x16, .f32⟩) main_v133) (TRef.of (T := ⟨S100000x16, .f32⟩) main_v134) select ]

set_option maxHeartbeats 4000000 in
/-- Operations 171–194. -/
abbrev pL3a : List (HloOp τ sig (Elt F)) :=
  [ unary main_arg9 main_v135 ((extractStridedSlice S1x16x16 ![3, 0, 0] · slices_S10x16x16_S1x16x16_3_0_0) : (⟨S10x16x16, .f32⟩ : BufTy).Contents (Elt F) → (⟨S1x16x16, .f32⟩ : BufTy).Contents (Elt F)),
    reshape main_v135 main_v136 rfl shapeCasts_S1x16x16_S16x16,
    unary main_arg10 main_v137 ((extractStridedSlice S1x16 ![3, 0] · slices_S10x16_S1x16_3_0) : (⟨S10x16, .f32⟩ : BufTy).Contents (Elt F) → (⟨S1x16, .f32⟩ : BufTy).Contents (Elt F)),
    reshape main_v137 main_v138 rfl shapeCasts_S1x16_S16,
    binary main_v134 main_v136 main_v139 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_21 (constantI S_ 32 0#32),
    unary main_c_21 main_v140 (broadcastInDim S1700000 ![] bcast_S_S1700000 : (⟨S_, .i32⟩ : BufTy).Contents (Elt F) → (⟨S1700000, .i32⟩ : BufTy).Contents (Elt F)),
    binary main_v3 main_v140 main_v141 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v142 (broadcastInDim S1700000 ![] bcast_S_S1700000 : (⟨S_, .i32⟩ : BufTy).Contents (Elt F) → (⟨S1700000, .i32⟩ : BufTy).Contents (Elt F)),
    binary main_v3 main_v142 main_v143 (addi : (⟨S1700000, .i32⟩ : BufTy).Contents (Elt F) → (⟨S1700000, .i32⟩ : BufTy).Contents (Elt F) → (⟨S1700000, .i32⟩ : BufTy).Contents (Elt F)),
    ternary main_v141 main_v143 main_v3 main_v144 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v144 main_v145 (broadcastInDim S1700000x1 ![0] bcast_S1700000_S1700000x1_0 : (⟨S1700000, .i32⟩ : BufTy).Contents (Elt F) → (⟨S1700000x1, .i32⟩ : BufTy).Contents (Elt F)),
    binary main_v139 main_v145 main_v146 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v147 (broadcastInDim S1700000x1 ![0] bcast_S1700000_S1700000x1_0 : (⟨S1700000, .f32⟩ : BufTy).Contents (Elt F) → (⟨S1700000x1, .f32⟩ : BufTy).Contents (Elt F)),
    unary main_v147 main_v148 (broadcastInDim S1700000x16 ![0, 1] bcast_S1700000x1_S1700000x16_0_1 : (⟨S1700000x1, .f32⟩ : BufTy).Contents (Elt F) → (⟨S1700000x16, .f32⟩ : BufTy).Contents (Elt F)),
    binary main_v146 main_v148 main_v149 (mulf : (⟨S1700000x16, .f32⟩ : BufTy).Contents (Elt F) → (⟨S1700000x16, .f32⟩ : BufTy).Contents (Elt F) → (⟨S1700000x16, .f32⟩ : BufTy).Contents (Elt F)),
    nullary main_cst_23 (constant S_ .f32 0x00000000#32),
    unary main_cst_23 main_v150 (broadcastInDim S100000x16 ![] bcast_S_S100000x16 : (⟨S_, .f32⟩ : BufTy).Contents (Elt F) → (⟨S100000x16, .f32⟩ : BufTy).Contents (Elt F)),
    unary main_v6 main_v151 (broadcastInDim S1700000x1 ![0] bcast_S1700000_S1700000x1_0 : (⟨S1700000, .i32⟩ : BufTy).Contents (Elt F) → (⟨S1700000x1, .i32⟩ : BufTy).Contents (Elt F)),
    ternary main_v150 main_v151 main_v149 main_v152 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v138 main_v153 (broadcastInDim S1x16 ![1] bcast_S16_S1x16_1 : (⟨S16, .f32⟩ : BufTy).Contents (Elt F) → (⟨S1x16, .f32⟩ : BufTy).Contents (Elt F)),
    unary main_v153 main_v154 (broadcastInDim S100000x16 ![0, 1] bcast_S1x16_S100000x16_0_1 : (⟨S1x16, .f32⟩ : BufTy).Contents (Elt F) → (⟨S100000x16, .f32⟩ : BufTy).Contents (Elt F)),
    binary main_v152 main_v154 main_v155 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 195–197. -/
abbrev pL3b : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S100000x16, .f32⟩) main_call8_v0) (broadcastInDim S100000x16 ![] bcast_S_S100000x16),
    TRef.binary (TRef.of (T := ⟨S100000x16, .f32⟩) main_v155) (TRef.of (T := ⟨S100000x16, .f32⟩) main_call8_v0) (TRef.of (T := ⟨S100000x16, .f32⟩) main_v156) maximumf ]

set_option maxHeartbeats 4000000 in
/-- Operations 198–199. -/
abbrev pL3c : List (HloOp τ sig (Elt F)) :=
  [ TRef.unary (TRef.of (T := ⟨S100000x1, .i1⟩) main_v65) (TRef.of (T := ⟨S100000x16, .i1⟩) main_call9_v0) (broadcastInDim S100000x16 ![0, 1] bcast_S100000x1_S100000x16_0_1),
    TRef.ternary (TRef.of (T := ⟨S100000x16, .i1⟩) main_call9_v0) (TRef.of (T := ⟨S100000x16, .f32⟩) main_arg1) (TRef.of (T := ⟨S100000x16, .f32⟩) main_v156) (TRef.of (T := ⟨S100000x16, .f32⟩) main_v157) select ]

set_option maxHeartbeats 4000000 in
/-- Operations 200–223. -/
abbrev pL4a : List (HloOp τ sig (Elt F)) :=
  [ unary main_arg9 main_v158 ((extractStridedSlice S1x16x16 ![4, 0, 0] · slices_S10x16x16_S1x16x16_4_0_0) : (⟨S10x16x16, .f32⟩ : BufTy).Contents (Elt F) → (⟨S1x16x16, .f32⟩ : BufTy).Contents (Elt F)),
    reshape main_v158 main_v159 rfl shapeCasts_S1x16x16_S16x16,
    unary main_arg10 main_v160 ((extractStridedSlice S1x16 ![4, 0] · slices_S10x16_S1x16_4_0) : (⟨S10x16, .f32⟩ : BufTy).Contents (Elt F) → (⟨S1x16, .f32⟩ : BufTy).Contents (Elt F)),
    reshape main_v160 main_v161 rfl shapeCasts_S1x16_S16,
    binary main_v157 main_v159 main_v162 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_24 (constantI S_ 32 0#32),
    unary main_c_24 main_v163 (broadcastInDim S1700000 ![] bcast_S_S1700000 : (⟨S_, .i32⟩ : BufTy).Contents (Elt F) → (⟨S1700000, .i32⟩ : BufTy).Contents (Elt F)),
    binary main_v3 main_v163 main_v164 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v165 (broadcastInDim S1700000 ![] bcast_S_S1700000 : (⟨S_, .i32⟩ : BufTy).Contents (Elt F) → (⟨S1700000, .i32⟩ : BufTy).Contents (Elt F)),
    binary main_v3 main_v165 main_v166 (addi : (⟨S1700000, .i32⟩ : BufTy).Contents (Elt F) → (⟨S1700000, .i32⟩ : BufTy).Contents (Elt F) → (⟨S1700000, .i32⟩ : BufTy).Contents (Elt F)),
    ternary main_v164 main_v166 main_v3 main_v167 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v167 main_v168 (broadcastInDim S1700000x1 ![0] bcast_S1700000_S1700000x1_0 : (⟨S1700000, .i32⟩ : BufTy).Contents (Elt F) → (⟨S1700000x1, .i32⟩ : BufTy).Contents (Elt F)),
    binary main_v162 main_v168 main_v169 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v170 (broadcastInDim S1700000x1 ![0] bcast_S1700000_S1700000x1_0 : (⟨S1700000, .f32⟩ : BufTy).Contents (Elt F) → (⟨S1700000x1, .f32⟩ : BufTy).Contents (Elt F)),
    unary main_v170 main_v171 (broadcastInDim S1700000x16 ![0, 1] bcast_S1700000x1_S1700000x16_0_1 : (⟨S1700000x1, .f32⟩ : BufTy).Contents (Elt F) → (⟨S1700000x16, .f32⟩ : BufTy).Contents (Elt F)),
    binary main_v169 main_v171 main_v172 (mulf : (⟨S1700000x16, .f32⟩ : BufTy).Contents (Elt F) → (⟨S1700000x16, .f32⟩ : BufTy).Contents (Elt F) → (⟨S1700000x16, .f32⟩ : BufTy).Contents (Elt F)),
    nullary main_cst_26 (constant S_ .f32 0x00000000#32),
    unary main_cst_26 main_v173 (broadcastInDim S100000x16 ![] bcast_S_S100000x16 : (⟨S_, .f32⟩ : BufTy).Contents (Elt F) → (⟨S100000x16, .f32⟩ : BufTy).Contents (Elt F)),
    unary main_v6 main_v174 (broadcastInDim S1700000x1 ![0] bcast_S1700000_S1700000x1_0 : (⟨S1700000, .i32⟩ : BufTy).Contents (Elt F) → (⟨S1700000x1, .i32⟩ : BufTy).Contents (Elt F)),
    ternary main_v173 main_v174 main_v172 main_v175 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v161 main_v176 (broadcastInDim S1x16 ![1] bcast_S16_S1x16_1 : (⟨S16, .f32⟩ : BufTy).Contents (Elt F) → (⟨S1x16, .f32⟩ : BufTy).Contents (Elt F)),
    unary main_v176 main_v177 (broadcastInDim S100000x16 ![0, 1] bcast_S1x16_S100000x16_0_1 : (⟨S1x16, .f32⟩ : BufTy).Contents (Elt F) → (⟨S100000x16, .f32⟩ : BufTy).Contents (Elt F)),
    binary main_v175 main_v177 main_v178 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 224–226. -/
abbrev pL4b : List (HloOp τ sig (Elt F)) :=
  [ TRef.nullary (TRef.of (T := ⟨S_, .f32⟩) main_call10_cst) (constant S_ .f32 0x00000000#32),
    TRef.unary (TRef.of (T := ⟨S_, .f32⟩) main_call10_cst) (TRef.of (T := ⟨S100000x16, .f32⟩) main_call10_v0) (broadcastInDim S100000x16 ![] bcast_S_S100000x16),
    TRef.binary (TRef.of (T := ⟨S100000x16, .f32⟩) main_v178) (TRef.of (T := ⟨S100000x16, .f32⟩) main_call10_v0) (TRef.of (T := ⟨S100000x16, .f32⟩) main_v179) maximumf ]

set_option maxHeartbeats 4000000 in
/-- Operations 227–228. -/
abbrev pL4c : List (HloOp τ sig (Elt F)) :=
  [ TRef.unary (TRef.of (T := ⟨S100000x1, .i1⟩) main_v65) (TRef.of (T := ⟨S100000x16, .i1⟩) main_call11_v0) (broadcastInDim S100000x16 ![0, 1] bcast_S100000x1_S100000x16_0_1),
    TRef.ternary (TRef.of (T := ⟨S100000x16, .i1⟩) main_call11_v0) (TRef.of (T := ⟨S100000x16, .f32⟩) main_arg1) (TRef.of (T := ⟨S100000x16, .f32⟩) main_v179) (TRef.of (T := ⟨S100000x16, .f32⟩) main_v180) select ]

set_option maxHeartbeats 4000000 in
/-- Operations 229–252. -/
abbrev pL5a : List (HloOp τ sig (Elt F)) :=
  [ unary main_arg9 main_v181 ((extractStridedSlice S1x16x16 ![5, 0, 0] · slices_S10x16x16_S1x16x16_5_0_0) : (⟨S10x16x16, .f32⟩ : BufTy).Contents (Elt F) → (⟨S1x16x16, .f32⟩ : BufTy).Contents (Elt F)),
    reshape main_v181 main_v182 rfl shapeCasts_S1x16x16_S16x16,
    unary main_arg10 main_v183 ((extractStridedSlice S1x16 ![5, 0] · slices_S10x16_S1x16_5_0) : (⟨S10x16, .f32⟩ : BufTy).Contents (Elt F) → (⟨S1x16, .f32⟩ : BufTy).Contents (Elt F)),
    reshape main_v183 main_v184 rfl shapeCasts_S1x16_S16,
    binary main_v180 main_v182 main_v185 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_27 (constantI S_ 32 0#32),
    unary main_c_27 main_v186 (broadcastInDim S1700000 ![] bcast_S_S1700000 : (⟨S_, .i32⟩ : BufTy).Contents (Elt F) → (⟨S1700000, .i32⟩ : BufTy).Contents (Elt F)),
    binary main_v3 main_v186 main_v187 (cmpi .slt : (⟨S1700000, .i32⟩ : BufTy).Contents (Elt F) → (⟨S1700000, .i32⟩ : BufTy).Contents (Elt F) → (⟨S1700000, .i1⟩ : BufTy).Contents (Elt F)),
    nullary main_c_28 (constantI S_ 32 100000#32),
    unary main_c_28 main_v188 (broadcastInDim S1700000 ![] bcast_S_S1700000 : (⟨S_, .i32⟩ : BufTy).Contents (Elt F) → (⟨S1700000, .i32⟩ : BufTy).Contents (Elt F)),
    binary main_v3 main_v188 main_v189 (addi : (⟨S1700000, .i32⟩ : BufTy).Contents (Elt F) → (⟨S1700000, .i32⟩ : BufTy).Contents (Elt F) → (⟨S1700000, .i32⟩ : BufTy).Contents (Elt F)),
    ternary main_v187 main_v189 main_v3 main_v190 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v190 main_v191 (broadcastInDim S1700000x1 ![0] bcast_S1700000_S1700000x1_0 : (⟨S1700000, .i32⟩ : BufTy).Contents (Elt F) → (⟨S1700000x1, .i32⟩ : BufTy).Contents (Elt F)),
    binary main_v185 main_v191 main_v192 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v193 (broadcastInDim S1700000x1 ![0] bcast_S1700000_S1700000x1_0 : (⟨S1700000, .f32⟩ : BufTy).Contents (Elt F) → (⟨S1700000x1, .f32⟩ : BufTy).Contents (Elt F)),
    unary main_v193 main_v194 (broadcastInDim S1700000x16 ![0, 1] bcast_S1700000x1_S1700000x16_0_1 : (⟨S1700000x1, .f32⟩ : BufTy).Contents (Elt F) → (⟨S1700000x16, .f32⟩ : BufTy).Contents (Elt F)),
    binary main_v192 main_v194 main_v195 (mulf : (⟨S1700000x16, .f32⟩ : BufTy).Contents (Elt F) → (⟨S1700000x16, .f32⟩ : BufTy).Contents (Elt F) → (⟨S1700000x16, .f32⟩ : BufTy).Contents (Elt F)),
    nullary main_cst_29 (constant S_ .f32 0x00000000#32),
    unary main_cst_29 main_v196 (broadcastInDim S100000x16 ![] bcast_S_S100000x16 : (⟨S_, .f32⟩ : BufTy).Contents (Elt F) → (⟨S100000x16, .f32⟩ : BufTy).Contents (Elt F)),
    unary main_v6 main_v197 (broadcastInDim S1700000x1 ![0] bcast_S1700000_S1700000x1_0 : (⟨S1700000, .i32⟩ : BufTy).Contents (Elt F) → (⟨S1700000x1, .i32⟩ : BufTy).Contents (Elt F)),
    ternary main_v196 main_v197 main_v195 main_v198 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v184 main_v199 (broadcastInDim S1x16 ![1] bcast_S16_S1x16_1 : (⟨S16, .f32⟩ : BufTy).Contents (Elt F) → (⟨S1x16, .f32⟩ : BufTy).Contents (Elt F)),
    unary main_v199 main_v200 (broadcastInDim S100000x16 ![0, 1] bcast_S1x16_S100000x16_0_1 : (⟨S1x16, .f32⟩ : BufTy).Contents (Elt F) → (⟨S100000x16, .f32⟩ : BufTy).Contents (Elt F)),
    binary main_v198 main_v200 main_v201 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 253–255. -/
abbrev pL5b : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S100000x16, .f32⟩) main_call12_v0) (broadcastInDim S100000x16 ![] bcast_S_S100000x16),
    TRef.binary (TRef.of (T := ⟨S100000x16, .f32⟩) main_v201) (TRef.of (T := ⟨S100000x16, .f32⟩) main_call12_v0) (TRef.of (T := ⟨S100000x16, .f32⟩) main_v202) maximumf ]

set_option maxHeartbeats 4000000 in
/-- Operations 256–257. -/
abbrev pL5c : List (HloOp τ sig (Elt F)) :=
  [ TRef.unary (TRef.of (T := ⟨S100000x1, .i1⟩) main_v65) (TRef.of (T := ⟨S100000x16, .i1⟩) main_call13_v0) (broadcastInDim S100000x16 ![0, 1] bcast_S100000x1_S100000x16_0_1),
    TRef.ternary (TRef.of (T := ⟨S100000x16, .i1⟩) main_call13_v0) (TRef.of (T := ⟨S100000x16, .f32⟩) main_arg1) (TRef.of (T := ⟨S100000x16, .f32⟩) main_v202) (TRef.of (T := ⟨S100000x16, .f32⟩) main_v203) select ]

set_option maxHeartbeats 4000000 in
/-- Operations 258–281. -/
abbrev pL6a : List (HloOp τ sig (Elt F)) :=
  [ unary main_arg9 main_v204 ((extractStridedSlice S1x16x16 ![6, 0, 0] · slices_S10x16x16_S1x16x16_6_0_0) : (⟨S10x16x16, .f32⟩ : BufTy).Contents (Elt F) → (⟨S1x16x16, .f32⟩ : BufTy).Contents (Elt F)),
    reshape main_v204 main_v205 rfl shapeCasts_S1x16x16_S16x16,
    unary main_arg10 main_v206 ((extractStridedSlice S1x16 ![6, 0] · slices_S10x16_S1x16_6_0) : (⟨S10x16, .f32⟩ : BufTy).Contents (Elt F) → (⟨S1x16, .f32⟩ : BufTy).Contents (Elt F)),
    reshape main_v206 main_v207 rfl shapeCasts_S1x16_S16,
    binary main_v203 main_v205 main_v208 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_30 (constantI S_ 32 0#32),
    unary main_c_30 main_v209 (broadcastInDim S1700000 ![] bcast_S_S1700000 : (⟨S_, .i32⟩ : BufTy).Contents (Elt F) → (⟨S1700000, .i32⟩ : BufTy).Contents (Elt F)),
    binary main_v3 main_v209 main_v210 (cmpi .slt : (⟨S1700000, .i32⟩ : BufTy).Contents (Elt F) → (⟨S1700000, .i32⟩ : BufTy).Contents (Elt F) → (⟨S1700000, .i1⟩ : BufTy).Contents (Elt F)),
    nullary main_c_31 (constantI S_ 32 100000#32),
    unary main_c_31 main_v211 (broadcastInDim S1700000 ![] bcast_S_S1700000 : (⟨S_, .i32⟩ : BufTy).Contents (Elt F) → (⟨S1700000, .i32⟩ : BufTy).Contents (Elt F)),
    binary main_v3 main_v211 main_v212 (addi : (⟨S1700000, .i32⟩ : BufTy).Contents (Elt F) → (⟨S1700000, .i32⟩ : BufTy).Contents (Elt F) → (⟨S1700000, .i32⟩ : BufTy).Contents (Elt F)),
    ternary main_v210 main_v212 main_v3 main_v213 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v213 main_v214 (broadcastInDim S1700000x1 ![0] bcast_S1700000_S1700000x1_0 : (⟨S1700000, .i32⟩ : BufTy).Contents (Elt F) → (⟨S1700000x1, .i32⟩ : BufTy).Contents (Elt F)),
    binary main_v208 main_v214 main_v215 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v216 (broadcastInDim S1700000x1 ![0] bcast_S1700000_S1700000x1_0 : (⟨S1700000, .f32⟩ : BufTy).Contents (Elt F) → (⟨S1700000x1, .f32⟩ : BufTy).Contents (Elt F)),
    unary main_v216 main_v217 (broadcastInDim S1700000x16 ![0, 1] bcast_S1700000x1_S1700000x16_0_1 : (⟨S1700000x1, .f32⟩ : BufTy).Contents (Elt F) → (⟨S1700000x16, .f32⟩ : BufTy).Contents (Elt F)),
    binary main_v215 main_v217 main_v218 (mulf : (⟨S1700000x16, .f32⟩ : BufTy).Contents (Elt F) → (⟨S1700000x16, .f32⟩ : BufTy).Contents (Elt F) → (⟨S1700000x16, .f32⟩ : BufTy).Contents (Elt F)),
    nullary main_cst_32 (constant S_ .f32 0x00000000#32),
    unary main_cst_32 main_v219 (broadcastInDim S100000x16 ![] bcast_S_S100000x16 : (⟨S_, .f32⟩ : BufTy).Contents (Elt F) → (⟨S100000x16, .f32⟩ : BufTy).Contents (Elt F)),
    unary main_v6 main_v220 (broadcastInDim S1700000x1 ![0] bcast_S1700000_S1700000x1_0 : (⟨S1700000, .i32⟩ : BufTy).Contents (Elt F) → (⟨S1700000x1, .i32⟩ : BufTy).Contents (Elt F)),
    ternary main_v219 main_v220 main_v218 main_v221 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v207 main_v222 (broadcastInDim S1x16 ![1] bcast_S16_S1x16_1 : (⟨S16, .f32⟩ : BufTy).Contents (Elt F) → (⟨S1x16, .f32⟩ : BufTy).Contents (Elt F)),
    unary main_v222 main_v223 (broadcastInDim S100000x16 ![0, 1] bcast_S1x16_S100000x16_0_1 : (⟨S1x16, .f32⟩ : BufTy).Contents (Elt F) → (⟨S100000x16, .f32⟩ : BufTy).Contents (Elt F)),
    binary main_v221 main_v223 main_v224 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 282–284. -/
abbrev pL6b : List (HloOp τ sig (Elt F)) :=
  [ TRef.nullary (TRef.of (T := ⟨S_, .f32⟩) main_call14_cst) (constant S_ .f32 0x00000000#32),
    TRef.unary (TRef.of (T := ⟨S_, .f32⟩) main_call14_cst) (TRef.of (T := ⟨S100000x16, .f32⟩) main_call14_v0) (broadcastInDim S100000x16 ![] bcast_S_S100000x16),
    TRef.binary (TRef.of (T := ⟨S100000x16, .f32⟩) main_v224) (TRef.of (T := ⟨S100000x16, .f32⟩) main_call14_v0) (TRef.of (T := ⟨S100000x16, .f32⟩) main_v225) maximumf ]

set_option maxHeartbeats 4000000 in
/-- Operations 285–286. -/
abbrev pL6c : List (HloOp τ sig (Elt F)) :=
  [ TRef.unary (TRef.of (T := ⟨S100000x1, .i1⟩) main_v65) (TRef.of (T := ⟨S100000x16, .i1⟩) main_call15_v0) (broadcastInDim S100000x16 ![0, 1] bcast_S100000x1_S100000x16_0_1),
    TRef.ternary (TRef.of (T := ⟨S100000x16, .i1⟩) main_call15_v0) (TRef.of (T := ⟨S100000x16, .f32⟩) main_arg1) (TRef.of (T := ⟨S100000x16, .f32⟩) main_v225) (TRef.of (T := ⟨S100000x16, .f32⟩) main_v226) select ]

set_option maxHeartbeats 4000000 in
/-- Operations 287–310. -/
abbrev pL7a : List (HloOp τ sig (Elt F)) :=
  [ unary main_arg9 main_v227 ((extractStridedSlice S1x16x16 ![7, 0, 0] · slices_S10x16x16_S1x16x16_7_0_0) : (⟨S10x16x16, .f32⟩ : BufTy).Contents (Elt F) → (⟨S1x16x16, .f32⟩ : BufTy).Contents (Elt F)),
    reshape main_v227 main_v228 rfl shapeCasts_S1x16x16_S16x16,
    unary main_arg10 main_v229 ((extractStridedSlice S1x16 ![7, 0] · slices_S10x16_S1x16_7_0) : (⟨S10x16, .f32⟩ : BufTy).Contents (Elt F) → (⟨S1x16, .f32⟩ : BufTy).Contents (Elt F)),
    reshape main_v229 main_v230 rfl shapeCasts_S1x16_S16,
    binary main_v226 main_v228 main_v231 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_33 (constantI S_ 32 0#32),
    unary main_c_33 main_v232 (broadcastInDim S1700000 ![] bcast_S_S1700000 : (⟨S_, .i32⟩ : BufTy).Contents (Elt F) → (⟨S1700000, .i32⟩ : BufTy).Contents (Elt F)),
    binary main_v3 main_v232 main_v233 (cmpi .slt : (⟨S1700000, .i32⟩ : BufTy).Contents (Elt F) → (⟨S1700000, .i32⟩ : BufTy).Contents (Elt F) → (⟨S1700000, .i1⟩ : BufTy).Contents (Elt F)),
    nullary main_c_34 (constantI S_ 32 100000#32),
    unary main_c_34 main_v234 (broadcastInDim S1700000 ![] bcast_S_S1700000 : (⟨S_, .i32⟩ : BufTy).Contents (Elt F) → (⟨S1700000, .i32⟩ : BufTy).Contents (Elt F)),
    binary main_v3 main_v234 main_v235 (addi : (⟨S1700000, .i32⟩ : BufTy).Contents (Elt F) → (⟨S1700000, .i32⟩ : BufTy).Contents (Elt F) → (⟨S1700000, .i32⟩ : BufTy).Contents (Elt F)),
    ternary main_v233 main_v235 main_v3 main_v236 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v236 main_v237 (broadcastInDim S1700000x1 ![0] bcast_S1700000_S1700000x1_0 : (⟨S1700000, .i32⟩ : BufTy).Contents (Elt F) → (⟨S1700000x1, .i32⟩ : BufTy).Contents (Elt F)),
    binary main_v231 main_v237 main_v238 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v239 (broadcastInDim S1700000x1 ![0] bcast_S1700000_S1700000x1_0 : (⟨S1700000, .f32⟩ : BufTy).Contents (Elt F) → (⟨S1700000x1, .f32⟩ : BufTy).Contents (Elt F)),
    unary main_v239 main_v240 (broadcastInDim S1700000x16 ![0, 1] bcast_S1700000x1_S1700000x16_0_1 : (⟨S1700000x1, .f32⟩ : BufTy).Contents (Elt F) → (⟨S1700000x16, .f32⟩ : BufTy).Contents (Elt F)),
    binary main_v238 main_v240 main_v241 (mulf : (⟨S1700000x16, .f32⟩ : BufTy).Contents (Elt F) → (⟨S1700000x16, .f32⟩ : BufTy).Contents (Elt F) → (⟨S1700000x16, .f32⟩ : BufTy).Contents (Elt F)),
    nullary main_cst_35 (constant S_ .f32 0x00000000#32),
    unary main_cst_35 main_v242 (broadcastInDim S100000x16 ![] bcast_S_S100000x16 : (⟨S_, .f32⟩ : BufTy).Contents (Elt F) → (⟨S100000x16, .f32⟩ : BufTy).Contents (Elt F)),
    unary main_v6 main_v243 (broadcastInDim S1700000x1 ![0] bcast_S1700000_S1700000x1_0 : (⟨S1700000, .i32⟩ : BufTy).Contents (Elt F) → (⟨S1700000x1, .i32⟩ : BufTy).Contents (Elt F)),
    ternary main_v242 main_v243 main_v241 main_v244 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v230 main_v245 (broadcastInDim S1x16 ![1] bcast_S16_S1x16_1 : (⟨S16, .f32⟩ : BufTy).Contents (Elt F) → (⟨S1x16, .f32⟩ : BufTy).Contents (Elt F)),
    unary main_v245 main_v246 (broadcastInDim S100000x16 ![0, 1] bcast_S1x16_S100000x16_0_1 : (⟨S1x16, .f32⟩ : BufTy).Contents (Elt F) → (⟨S100000x16, .f32⟩ : BufTy).Contents (Elt F)),
    binary main_v244 main_v246 main_v247 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 311–313. -/
abbrev pL7b : List (HloOp τ sig (Elt F)) :=
  [ TRef.nullary (TRef.of (T := ⟨S_, .f32⟩) main_call16_cst) (constant S_ .f32 0x00000000#32),
    TRef.unary (TRef.of (T := ⟨S_, .f32⟩) main_call16_cst) (TRef.of (T := ⟨S100000x16, .f32⟩) main_call16_v0) (broadcastInDim S100000x16 ![] bcast_S_S100000x16),
    TRef.binary (TRef.of (T := ⟨S100000x16, .f32⟩) main_v247) (TRef.of (T := ⟨S100000x16, .f32⟩) main_call16_v0) (TRef.of (T := ⟨S100000x16, .f32⟩) main_v248) maximumf ]

set_option maxHeartbeats 4000000 in
/-- Operations 314–315. -/
abbrev pL7c : List (HloOp τ sig (Elt F)) :=
  [ TRef.unary (TRef.of (T := ⟨S100000x1, .i1⟩) main_v65) (TRef.of (T := ⟨S100000x16, .i1⟩) main_call17_v0) (broadcastInDim S100000x16 ![0, 1] bcast_S100000x1_S100000x16_0_1),
    TRef.ternary (TRef.of (T := ⟨S100000x16, .i1⟩) main_call17_v0) (TRef.of (T := ⟨S100000x16, .f32⟩) main_arg1) (TRef.of (T := ⟨S100000x16, .f32⟩) main_v248) (TRef.of (T := ⟨S100000x16, .f32⟩) main_v249) select ]

set_option maxHeartbeats 4000000 in
/-- Operations 316–339. -/
abbrev pL8a : List (HloOp τ sig (Elt F)) :=
  [ unary main_arg9 main_v250 ((extractStridedSlice S1x16x16 ![8, 0, 0] · slices_S10x16x16_S1x16x16_8_0_0) : (⟨S10x16x16, .f32⟩ : BufTy).Contents (Elt F) → (⟨S1x16x16, .f32⟩ : BufTy).Contents (Elt F)),
    reshape main_v250 main_v251 rfl shapeCasts_S1x16x16_S16x16,
    unary main_arg10 main_v252 ((extractStridedSlice S1x16 ![8, 0] · slices_S10x16_S1x16_8_0) : (⟨S10x16, .f32⟩ : BufTy).Contents (Elt F) → (⟨S1x16, .f32⟩ : BufTy).Contents (Elt F)),
    reshape main_v252 main_v253 rfl shapeCasts_S1x16_S16,
    binary main_v249 main_v251 main_v254 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_36 (constantI S_ 32 0#32),
    unary main_c_36 main_v255 (broadcastInDim S1700000 ![] bcast_S_S1700000 : (⟨S_, .i32⟩ : BufTy).Contents (Elt F) → (⟨S1700000, .i32⟩ : BufTy).Contents (Elt F)),
    binary main_v3 main_v255 main_v256 (cmpi .slt : (⟨S1700000, .i32⟩ : BufTy).Contents (Elt F) → (⟨S1700000, .i32⟩ : BufTy).Contents (Elt F) → (⟨S1700000, .i1⟩ : BufTy).Contents (Elt F)),
    nullary main_c_37 (constantI S_ 32 100000#32),
    unary main_c_37 main_v257 (broadcastInDim S1700000 ![] bcast_S_S1700000 : (⟨S_, .i32⟩ : BufTy).Contents (Elt F) → (⟨S1700000, .i32⟩ : BufTy).Contents (Elt F)),
    binary main_v3 main_v257 main_v258 (addi : (⟨S1700000, .i32⟩ : BufTy).Contents (Elt F) → (⟨S1700000, .i32⟩ : BufTy).Contents (Elt F) → (⟨S1700000, .i32⟩ : BufTy).Contents (Elt F)),
    ternary main_v256 main_v258 main_v3 main_v259 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v259 main_v260 (broadcastInDim S1700000x1 ![0] bcast_S1700000_S1700000x1_0 : (⟨S1700000, .i32⟩ : BufTy).Contents (Elt F) → (⟨S1700000x1, .i32⟩ : BufTy).Contents (Elt F)),
    binary main_v254 main_v260 main_v261 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v262 (broadcastInDim S1700000x1 ![0] bcast_S1700000_S1700000x1_0 : (⟨S1700000, .f32⟩ : BufTy).Contents (Elt F) → (⟨S1700000x1, .f32⟩ : BufTy).Contents (Elt F)),
    unary main_v262 main_v263 (broadcastInDim S1700000x16 ![0, 1] bcast_S1700000x1_S1700000x16_0_1 : (⟨S1700000x1, .f32⟩ : BufTy).Contents (Elt F) → (⟨S1700000x16, .f32⟩ : BufTy).Contents (Elt F)),
    binary main_v261 main_v263 main_v264 (mulf : (⟨S1700000x16, .f32⟩ : BufTy).Contents (Elt F) → (⟨S1700000x16, .f32⟩ : BufTy).Contents (Elt F) → (⟨S1700000x16, .f32⟩ : BufTy).Contents (Elt F)),
    nullary main_cst_38 (constant S_ .f32 0x00000000#32),
    unary main_cst_38 main_v265 (broadcastInDim S100000x16 ![] bcast_S_S100000x16 : (⟨S_, .f32⟩ : BufTy).Contents (Elt F) → (⟨S100000x16, .f32⟩ : BufTy).Contents (Elt F)),
    unary main_v6 main_v266 (broadcastInDim S1700000x1 ![0] bcast_S1700000_S1700000x1_0 : (⟨S1700000, .i32⟩ : BufTy).Contents (Elt F) → (⟨S1700000x1, .i32⟩ : BufTy).Contents (Elt F)),
    ternary main_v265 main_v266 main_v264 main_v267 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v253 main_v268 (broadcastInDim S1x16 ![1] bcast_S16_S1x16_1 : (⟨S16, .f32⟩ : BufTy).Contents (Elt F) → (⟨S1x16, .f32⟩ : BufTy).Contents (Elt F)),
    unary main_v268 main_v269 (broadcastInDim S100000x16 ![0, 1] bcast_S1x16_S100000x16_0_1 : (⟨S1x16, .f32⟩ : BufTy).Contents (Elt F) → (⟨S100000x16, .f32⟩ : BufTy).Contents (Elt F)),
    binary main_v267 main_v269 main_v270 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 340–342. -/
abbrev pL8b : List (HloOp τ sig (Elt F)) :=
  [ TRef.nullary (TRef.of (T := ⟨S_, .f32⟩) main_call18_cst) (constant S_ .f32 0x00000000#32),
    TRef.unary (TRef.of (T := ⟨S_, .f32⟩) main_call18_cst) (TRef.of (T := ⟨S100000x16, .f32⟩) main_call18_v0) (broadcastInDim S100000x16 ![] bcast_S_S100000x16),
    TRef.binary (TRef.of (T := ⟨S100000x16, .f32⟩) main_v270) (TRef.of (T := ⟨S100000x16, .f32⟩) main_call18_v0) (TRef.of (T := ⟨S100000x16, .f32⟩) main_v271) maximumf ]

set_option maxHeartbeats 4000000 in
/-- Operations 343–344. -/
abbrev pL8c : List (HloOp τ sig (Elt F)) :=
  [ TRef.unary (TRef.of (T := ⟨S100000x1, .i1⟩) main_v65) (TRef.of (T := ⟨S100000x16, .i1⟩) main_call19_v0) (broadcastInDim S100000x16 ![0, 1] bcast_S100000x1_S100000x16_0_1),
    TRef.ternary (TRef.of (T := ⟨S100000x16, .i1⟩) main_call19_v0) (TRef.of (T := ⟨S100000x16, .f32⟩) main_arg1) (TRef.of (T := ⟨S100000x16, .f32⟩) main_v271) (TRef.of (T := ⟨S100000x16, .f32⟩) main_v272) select ]

set_option maxHeartbeats 4000000 in
/-- Operations 345–368. -/
abbrev pL9a : List (HloOp τ sig (Elt F)) :=
  [ unary main_arg9 main_v273 ((extractStridedSlice S1x16x16 ![9, 0, 0] · slices_S10x16x16_S1x16x16_9_0_0) : (⟨S10x16x16, .f32⟩ : BufTy).Contents (Elt F) → (⟨S1x16x16, .f32⟩ : BufTy).Contents (Elt F)),
    reshape main_v273 main_v274 rfl shapeCasts_S1x16x16_S16x16,
    unary main_arg10 main_v275 ((extractStridedSlice S1x16 ![9, 0] · slices_S10x16_S1x16_9_0) : (⟨S10x16, .f32⟩ : BufTy).Contents (Elt F) → (⟨S1x16, .f32⟩ : BufTy).Contents (Elt F)),
    reshape main_v275 main_v276 rfl shapeCasts_S1x16_S16,
    binary main_v272 main_v274 main_v277 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_39 (constantI S_ 32 0#32),
    unary main_c_39 main_v278 (broadcastInDim S1700000 ![] bcast_S_S1700000 : (⟨S_, .i32⟩ : BufTy).Contents (Elt F) → (⟨S1700000, .i32⟩ : BufTy).Contents (Elt F)),
    binary main_v3 main_v278 main_v279 (cmpi .slt : (⟨S1700000, .i32⟩ : BufTy).Contents (Elt F) → (⟨S1700000, .i32⟩ : BufTy).Contents (Elt F) → (⟨S1700000, .i1⟩ : BufTy).Contents (Elt F)),
    nullary main_c_40 (constantI S_ 32 100000#32),
    unary main_c_40 main_v280 (broadcastInDim S1700000 ![] bcast_S_S1700000 : (⟨S_, .i32⟩ : BufTy).Contents (Elt F) → (⟨S1700000, .i32⟩ : BufTy).Contents (Elt F)),
    binary main_v3 main_v280 main_v281 (addi : (⟨S1700000, .i32⟩ : BufTy).Contents (Elt F) → (⟨S1700000, .i32⟩ : BufTy).Contents (Elt F) → (⟨S1700000, .i32⟩ : BufTy).Contents (Elt F)),
    ternary main_v279 main_v281 main_v3 main_v282 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v282 main_v283 (broadcastInDim S1700000x1 ![0] bcast_S1700000_S1700000x1_0 : (⟨S1700000, .i32⟩ : BufTy).Contents (Elt F) → (⟨S1700000x1, .i32⟩ : BufTy).Contents (Elt F)),
    binary main_v277 main_v283 main_v284 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v285 (broadcastInDim S1700000x1 ![0] bcast_S1700000_S1700000x1_0 : (⟨S1700000, .f32⟩ : BufTy).Contents (Elt F) → (⟨S1700000x1, .f32⟩ : BufTy).Contents (Elt F)),
    unary main_v285 main_v286 (broadcastInDim S1700000x16 ![0, 1] bcast_S1700000x1_S1700000x16_0_1 : (⟨S1700000x1, .f32⟩ : BufTy).Contents (Elt F) → (⟨S1700000x16, .f32⟩ : BufTy).Contents (Elt F)),
    binary main_v284 main_v286 main_v287 (mulf : (⟨S1700000x16, .f32⟩ : BufTy).Contents (Elt F) → (⟨S1700000x16, .f32⟩ : BufTy).Contents (Elt F) → (⟨S1700000x16, .f32⟩ : BufTy).Contents (Elt F)),
    nullary main_cst_41 (constant S_ .f32 0x00000000#32),
    unary main_cst_41 main_v288 (broadcastInDim S100000x16 ![] bcast_S_S100000x16 : (⟨S_, .f32⟩ : BufTy).Contents (Elt F) → (⟨S100000x16, .f32⟩ : BufTy).Contents (Elt F)),
    unary main_v6 main_v289 (broadcastInDim S1700000x1 ![0] bcast_S1700000_S1700000x1_0 : (⟨S1700000, .i32⟩ : BufTy).Contents (Elt F) → (⟨S1700000x1, .i32⟩ : BufTy).Contents (Elt F)),
    ternary main_v288 main_v289 main_v287 main_v290 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_v276 main_v291 (broadcastInDim S1x16 ![1] bcast_S16_S1x16_1 : (⟨S16, .f32⟩ : BufTy).Contents (Elt F) → (⟨S1x16, .f32⟩ : BufTy).Contents (Elt F)),
    unary main_v291 main_v292 (broadcastInDim S100000x16 ![0, 1] bcast_S1x16_S100000x16_0_1 : (⟨S1x16, .f32⟩ : BufTy).Contents (Elt F) → (⟨S100000x16, .f32⟩ : BufTy).Contents (Elt F)),
    binary main_v290 main_v292 main_v293 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- Operations 369–370. -/
abbrev pL9c : List (HloOp τ sig (Elt F)) :=
  [ TRef.unary (TRef.of (T := ⟨S100000x1, .i1⟩) main_v65) (TRef.of (T := ⟨S100000x16, .i1⟩) main_call20_v0) (broadcastInDim S100000x16 ![0, 1] bcast_S100000x1_S100000x16_0_1),
    TRef.ternary (TRef.of (T := ⟨S100000x16, .i1⟩) main_call20_v0) (TRef.of (T := ⟨S100000x16, .f32⟩) main_arg1) (TRef.of (T := ⟨S100000x16, .f32⟩) main_v293) (TRef.of (T := ⟨S100000x16, .f32⟩) main_v294) select ]

set_option maxRecDepth 16384 in
set_option maxHeartbeats 4000000 in
/-- The first 371 operations are the pieces in order. -/
theorem opsA_split : (opsA : List (HloOp τ sig (Elt F))) = pP0a ++ (pP0b ++ (pP0c ++ (pP0d ++ (pF1a ++ (pF1b ++ (pF2 ++ (pMk ++ (pL0a ++ (pL0b ++ (pL0c ++ (pL1a ++ (pL1b ++ (pL1c ++ (pL2a ++ (pL2b ++ (pL2c ++ (pL3a ++ (pL3b ++ (pL3c ++ (pL4a ++ (pL4b ++ (pL4c ++ (pL5a ++ (pL5b ++ (pL5c ++ (pL6a ++ (pL6b ++ (pL6c ++ (pL7a ++ (pL7b ++ (pL7c ++ (pL8a ++ (pL8b ++ (pL8c ++ (pL9a ++ (pL9c)))))))))))))))))))))))))))))))))))) := rfl

end Cert.ReferenceIdeal.RefRun

end
-- ==== Proof.RefLemP.lean ====
/-
The reference program's graph preprocessing in four pieces (the index vectors; the degrees; the normalisation's select;
the edge weights): each piece's results after its operations, from any buffer valuation whose inputs hold the
reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- The graph preprocessing of the reference: the first endpoint column followed by the self-loop indices. -/
theorem p0_v3 (V : Valuation τ sig (Elt Ideal))
    (x2 : (⟨S2x1600000, .i32⟩ : BufTy).Contents (Elt Ideal))
    (h_arg2 : V (Proc.devRef .tc main_arg2) = x2) :
    StableHlo.after (pP0a (F := Ideal)) V (Proc.devRef .tc main_v3) = val_main_v3 (F := Ideal) x2 := by
  subst h_arg2
  after_results_simp <;> rfl

set_option maxRecDepth 8192 in
/-- The graph preprocessing of the reference: the second endpoint column followed by the self-loop indices. -/
theorem p0_v6 (V : Valuation τ sig (Elt Ideal))
    (x2 : (⟨S2x1600000, .i32⟩ : BufTy).Contents (Elt Ideal))
    (h_arg2 : V (Proc.devRef .tc main_arg2) = x2) :
    StableHlo.after (pP0a (F := Ideal)) V (Proc.devRef .tc main_v6) = val_main_v6 (F := Ideal) x2 := by
  subst h_arg2
  after_results_simp <;> rfl

set_option maxRecDepth 8192 in
/-- The graph preprocessing of the reference: which nodes have positive degree. -/
theorem p0b_v12 (V : Valuation τ sig (Elt Ideal))
    (x2 : (⟨S2x1600000, .i32⟩ : BufTy).Contents (Elt Ideal))
    (h_v6 : V (Proc.devRef .tc main_v6) = val_main_v6 (F := Ideal) x2) :
    StableHlo.after (pP0b (F := Ideal)) V (Proc.devRef .tc main_v12) = val_main_v12 (F := Ideal) x2 := by
  after_results_simp
  rw [h_v6]
  rfl

set_option maxRecDepth 8192 in
/-- The graph preprocessing of the reference: the reciprocal square root of each node's degree. -/
theorem p0b_v13 (V : Valuation τ sig (Elt Ideal))
    (x2 : (⟨S2x1600000, .i32⟩ : BufTy).Contents (Elt Ideal))
    (h_v6 : V (Proc.devRef .tc main_v6) = val_main_v6 (F := Ideal) x2) :
    StableHlo.after (pP0b (F := Ideal)) V (Proc.devRef .tc main_v13) = val_main_v13 (F := Ideal) x2 := by
  after_results_simp
  rw [h_v6]
  rfl

set_option maxRecDepth 8192 in
/-- The graph preprocessing of the reference: the zero that stands for the reciprocal square root at degree zero. -/
theorem p0b_cst_2 (V : Valuation τ sig (Elt Ideal)) :
    StableHlo.after (pP0b (F := Ideal)) V (Proc.devRef .tc main_cst_2) = val_main_cst_2 (F := Ideal) := by
  after_results_simp <;> rfl

set_option maxRecDepth 8192 in
/-- The graph preprocessing of the reference: the normalisation vector, the reciprocal square root of the degree where it is positive and zero elsewhere. -/
theorem p0c_v14 (V : Valuation τ sig (Elt Ideal))
    (x2 : (⟨S2x1600000, .i32⟩ : BufTy).Contents (Elt Ideal))
    (h_v12 : V (Proc.devRef .tc main_v12) = val_main_v12 (F := Ideal) x2)
    (h_v13 : V (Proc.devRef .tc main_v13) = val_main_v13 (F := Ideal) x2)
    (h_cst_2 : V (Proc.devRef .tc main_cst_2) = val_main_cst_2 (F := Ideal)) :
    StableHlo.after (pP0c (F := Ideal)) V (Proc.devRef .tc main_v14) = val_main_v14 (F := Ideal) x2 := by
  after_results_simp
  simp only [val_main_v14, val_main_call0_v1, val_main_call0_v0]
  rw [← h_v12, ← h_v13, ← h_cst_2]
  rfl

set_option maxRecDepth 8192 in
/-- The graph preprocessing of the reference: the edge weights, the product of the normalisation vector at an edge's two endpoints. -/
theorem p0d_v29 (V : Valuation τ sig (Elt Ideal))
    (x2 : (⟨S2x1600000, .i32⟩ : BufTy).Contents (Elt Ideal))
    (h_v14 : V (Proc.devRef .tc main_v14) = val_main_v14 (F := Ideal) x2)
    (h_v3 : V (Proc.devRef .tc main_v3) = val_main_v3 (F := Ideal) x2)
    (h_v6 : V (Proc.devRef .tc main_v6) = val_main_v6 (F := Ideal) x2) :
    StableHlo.after (pP0d (F := Ideal)) V (Proc.devRef .tc main_v29) = val_main_v29 (F := Ideal) x2 := by
  after_results_simp
  rw [h_v14, h_v3, h_v6]
  rfl

end Cert.ReferenceIdeal.RefRun

end
-- ==== Proof.RefLemF.lean ====
/-
The reference program's two feature layers and the mask column: each piece's last buffer after its operations, from
any buffer valuation whose inputs hold the reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- First feature layer of the reference up to its bias: linear map, gather, scale by the edge weight, scatter-add, bias. -/
theorem f1a_v46 (V : Valuation τ sig (Elt Ideal))
    (x0 : (⟨S100000x128, .f32⟩ : BufTy).Contents (Elt Ideal))
    (x2 : (⟨S2x1600000, .i32⟩ : BufTy).Contents (Elt Ideal))
    (x5 : (⟨S128x128, .f32⟩ : BufTy).Contents (Elt Ideal))
    (x6 : (⟨S128, .f32⟩ : BufTy).Contents (Elt Ideal))
    (h_arg0 : V (Proc.devRef .tc main_arg0) = x0)
    (h_arg5 : V (Proc.devRef .tc main_arg5) = x5)
    (h_arg6 : V (Proc.devRef .tc main_arg6) = x6)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pF1a (F := Ideal)) V (Proc.devRef .tc main_v46) = val_main_v46 (F := Ideal) x0 x2 x5 x6 := by
  after_results_simp
  rw [h_arg0, h_arg5, h_arg6, h_v3, h_v6, h_v29]
  rfl

set_option maxRecDepth 8192 in
/-- First feature layer's rectifier: the maximum with zero. -/
theorem f1b_v47 (V : Valuation τ sig (Elt Ideal))
    (x0 : (⟨S100000x128, .f32⟩ : BufTy).Contents (Elt Ideal))
    (x2 : (⟨S2x1600000, .i32⟩ : BufTy).Contents (Elt Ideal))
    (x5 : (⟨S128x128, .f32⟩ : BufTy).Contents (Elt Ideal))
    (x6 : (⟨S128, .f32⟩ : BufTy).Contents (Elt Ideal))
    (h_v46 : V (Proc.devRef .tc main_v46) = val_main_v46 (F := Ideal) x0 x2 x5 x6) :
    StableHlo.after (pF1b (F := Ideal)) V (Proc.devRef .tc main_v47) = val_main_v47 (F := Ideal) x0 x2 x5 x6 := by
  after_results_simp
  simp only [val_main_v47, val_main_call1_v0, val_main_call1_cst]
  rw [← h_v46]
  rfl

set_option maxRecDepth 8192 in
/-- Second feature layer of the reference: linear map, gather, scale by the edge weight, scatter-add, bias. -/
theorem f2_v64 (V : Valuation τ sig (Elt Ideal))
    (x0 : (⟨S100000x128, .f32⟩ : BufTy).Contents (Elt Ideal))
    (x2 : (⟨S2x1600000, .i32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal))
    (h_v47 : V (Proc.devRef .tc main_v47) = val_main_v47 (F := Ideal) x0 x2 x5 x6)
    (h_arg7 : V (Proc.devRef .tc main_arg7) = x7)
    (h_arg8 : V (Proc.devRef .tc main_arg8) = x8)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pF2 (F := Ideal)) V (Proc.devRef .tc main_v64) = val_main_v64 (F := Ideal) x0 x2 x5 x6 x7 x8 := by
  after_results_simp
  rw [h_v47, h_arg7, h_arg8, h_v3, h_v6, h_v29]
  rfl

set_option maxRecDepth 8192 in
/-- The node mask as a column. -/
theorem mk_v65 (V : Valuation τ sig (Elt Ideal))
    (x4 : (⟨S100000, .i1⟩ : BufTy).Contents (Elt Ideal))
    (h_arg4 : V (Proc.devRef .tc main_arg4) = x4) :
    StableHlo.after (pMk (F := Ideal)) V (Proc.devRef .tc main_v65) = val_main_v65 (F := Ideal) x4 := by
  after_results_simp
  rw [h_arg4]
  rfl

end Cert.ReferenceIdeal.RefRun

end
-- ==== Proof.RefLemL0.lean ====
/-
Label layer 0 of the reference program in three pieces (up to the bias; the rectifier; the masked update): each piece's
last buffer after its operations, from any buffer valuation whose inputs hold the reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- Label layer 0 of the reference up to its bias: the weight and bias slices, the linear map, the gather, the scaling by the edge weight, the scatter-add and the bias, from the layer's input and the edge columns and weights at the reference's stages. -/
theorem l0a (V : Valuation τ sig (Elt Ideal))
    (x1 : (⟨S100000x16, .f32⟩ : BufTy).Contents (Elt Ideal))
    (x2 : (⟨S2x1600000, .i32⟩ : BufTy).Contents (Elt Ideal))
    (x9 : (⟨S10x16x16, .f32⟩ : BufTy).Contents (Elt Ideal))
    (x10 : (⟨S10x16, .f32⟩ : BufTy).Contents (Elt Ideal))
    (h_arg1 : V (Proc.devRef .tc main_arg1) = x1)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pL0a (F := Ideal)) V (Proc.devRef .tc main_v86) = val_main_v86 (F := Ideal) x1 x2 x9 x10 := by
  after_results_simp
  rw [h_arg1, h_arg9, h_arg10, h_v3, h_v6, h_v29]
  rfl

set_option maxRecDepth 8192 in
/-- Label layer 0's rectifier: the maximum with zero. -/
theorem l0b (V : Valuation τ sig (Elt Ideal))
    (x1 : (⟨S100000x16, .f32⟩ : BufTy).Contents (Elt Ideal))
    (x2 : (⟨S2x1600000, .i32⟩ : BufTy).Contents (Elt Ideal))
    (x9 : (⟨S10x16x16, .f32⟩ : BufTy).Contents (Elt Ideal))
    (x10 : (⟨S10x16, .f32⟩ : BufTy).Contents (Elt Ideal))
    (h_v86 : V (Proc.devRef .tc main_v86) = val_main_v86 (F := Ideal) x1 x2 x9 x10) :
    StableHlo.after (pL0b (F := Ideal)) V (Proc.devRef .tc main_v87) = val_main_v87 (F := Ideal) x1 x2 x9 x10 := by
  after_results_simp
  simp only [val_main_v87, val_main_call2_v0, val_main_call2_cst]
  rw [← h_v86]
  rfl

set_option maxRecDepth 8192 in
/-- Label layer 0's masked update: the given labels where the mask holds, the layer's result elsewhere. -/
theorem l0c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v87 : V (Proc.devRef .tc main_v87) = val_main_v87 (F := Ideal) x1 x2 x9 x10) :
    StableHlo.after (pL0c (F := Ideal)) V (Proc.devRef .tc main_v88) = val_main_v88 (F := Ideal) x1 x2 x4 x9 x10 := by
  subst h_arg1
  after_results_simp
  simp only [val_main_v88, val_main_call3_v0]
  rw [← h_v65, ← h_v87]
  rfl

end Cert.ReferenceIdeal.RefRun

end
-- ==== Proof.RefLemL1.lean ====
/-
Label layer 1 of the reference program in three pieces (up to the bias; the rectifier; the masked update): each piece's
last buffer after its operations, from any buffer valuation whose inputs hold the reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- Label layer 1 of the reference up to its bias: the weight and bias slices, the linear map, the gather, the scaling by the edge weight, the scatter-add and the bias, from the layer's input and the edge columns and weights at the reference's stages. -/
theorem l1a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v88) = val_main_v88 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pL1a (F := Ideal)) V (Proc.devRef .tc main_v109) = val_main_v109 (F := Ideal) x1 x2 x4 x9 x10 := by
  after_results_simp
  rw [h_in, h_arg9, h_arg10, h_v3, h_v6, h_v29]
  rfl

set_option maxRecDepth 8192 in
/-- Label layer 1's rectifier: the maximum with zero. -/
theorem l1b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v109 : V (Proc.devRef .tc main_v109) = val_main_v109 (F := Ideal) x1 x2 x4 x9 x10) :
    StableHlo.after (pL1b (F := Ideal)) V (Proc.devRef .tc main_v110) = val_main_v110 (F := Ideal) x1 x2 x4 x9 x10 := by
  after_results_simp
  simp only [val_main_v110, val_main_call4_v0, val_main_call4_cst]
  rw [← h_v109]
  rfl

set_option maxRecDepth 8192 in
/-- Label layer 1's masked update: the given labels where the mask holds, the layer's result elsewhere. -/
theorem l1c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v110 : V (Proc.devRef .tc main_v110) = val_main_v110 (F := Ideal) x1 x2 x4 x9 x10) :
    StableHlo.after (pL1c (F := Ideal)) V (Proc.devRef .tc main_v111) = val_main_v111 (F := Ideal) x1 x2 x4 x9 x10 := by
  subst h_arg1
  after_results_simp
  simp only [val_main_v111, val_main_call5_v0]
  rw [← h_v65, ← h_v110]
  rfl

end Cert.ReferenceIdeal.RefRun

end
-- ==== Proof.RefLemL2.lean ====
/-
Label layer 2 of the reference program in three pieces (up to the bias; the rectifier; the masked update): each piece's
last buffer after its operations, from any buffer valuation whose inputs hold the reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- Label layer 2 of the reference up to its bias: the weight and bias slices, the linear map, the gather, the scaling by the edge weight, the scatter-add and the bias, from the layer's input and the edge columns and weights at the reference's stages. -/
theorem l2a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v111) = val_main_v111 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pL2a (F := Ideal)) V (Proc.devRef .tc main_v132) = val_main_v132 (F := Ideal) x1 x2 x4 x9 x10 := by
  after_results_simp
  rw [h_in, h_arg9, h_arg10, h_v3, h_v6, h_v29]
  rfl

set_option maxRecDepth 8192 in
/-- Label layer 2's rectifier: the maximum with zero. -/
theorem l2b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v132 : V (Proc.devRef .tc main_v132) = val_main_v132 (F := Ideal) x1 x2 x4 x9 x10) :
    StableHlo.after (pL2b (F := Ideal)) V (Proc.devRef .tc main_v133) = val_main_v133 (F := Ideal) x1 x2 x4 x9 x10 := by
  after_results_simp
  simp only [val_main_v133, val_main_call6_v0, val_main_call6_cst]
  rw [← h_v132]
  rfl

set_option maxRecDepth 8192 in
/-- Label layer 2's masked update: the given labels where the mask holds, the layer's result elsewhere. -/
theorem l2c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v133 : V (Proc.devRef .tc main_v133) = val_main_v133 (F := Ideal) x1 x2 x4 x9 x10) :
    StableHlo.after (pL2c (F := Ideal)) V (Proc.devRef .tc main_v134) = val_main_v134 (F := Ideal) x1 x2 x4 x9 x10 := by
  subst h_arg1
  after_results_simp
  simp only [val_main_v134, val_main_call7_v0]
  rw [← h_v65, ← h_v133]
  rfl

end Cert.ReferenceIdeal.RefRun

end
-- ==== Proof.RefLemL3.lean ====
/-
Label layer 3 of the reference program in three pieces (up to the bias; the rectifier; the masked update): each piece's
last buffer after its operations, from any buffer valuation whose inputs hold the reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- Label layer 3 of the reference up to its bias: the weight and bias slices, the linear map, the gather, the scaling by the edge weight, the scatter-add and the bias, from the layer's input and the edge columns and weights at the reference's stages. -/
theorem l3a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v134) = val_main_v134 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pL3a (F := Ideal)) V (Proc.devRef .tc main_v155) = val_main_v155 (F := Ideal) x1 x2 x4 x9 x10 := by
  after_results_simp
  rw [h_in, h_arg9, h_arg10, h_v3, h_v6, h_v29]
  rfl

set_option maxRecDepth 8192 in
/-- Label layer 3's rectifier: the maximum with zero. -/
theorem l3b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v155 : V (Proc.devRef .tc main_v155) = val_main_v155 (F := Ideal) x1 x2 x4 x9 x10) :
    StableHlo.after (pL3b (F := Ideal)) V (Proc.devRef .tc main_v156) = val_main_v156 (F := Ideal) x1 x2 x4 x9 x10 := by
  after_results_simp
  simp only [val_main_v156, val_main_call8_v0, val_main_call8_cst]
  rw [← h_v155]
  rfl

set_option maxRecDepth 8192 in
/-- Label layer 3's masked update: the given labels where the mask holds, the layer's result elsewhere. -/
theorem l3c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v156 : V (Proc.devRef .tc main_v156) = val_main_v156 (F := Ideal) x1 x2 x4 x9 x10) :
    StableHlo.after (pL3c (F := Ideal)) V (Proc.devRef .tc main_v157) = val_main_v157 (F := Ideal) x1 x2 x4 x9 x10 := by
  subst h_arg1
  after_results_simp
  simp only [val_main_v157, val_main_call9_v0]
  rw [← h_v65, ← h_v156]
  rfl

end Cert.ReferenceIdeal.RefRun

end
-- ==== Proof.RefLemL4.lean ====
/-
Label layer 4 of the reference program in three pieces (up to the bias; the rectifier; the masked update): each piece's
last buffer after its operations, from any buffer valuation whose inputs hold the reference's stages.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.ReadP Idealize.ShloMosaic Idealize.ShloMosaic.TcCoe Idealize.SL.Sem

set_option maxRecDepth 8192 in
/-- Label layer 4 of the reference up to its bias: the weight and bias slices, the linear map, the gather, the scaling by the edge weight, the scatter-add and the bias, from the layer's input and the edge columns and weights at the reference's stages. -/
theorem l4a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v157) = val_main_v157 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    StableHlo.after (pL4a (F := Ideal)) V (Proc.devRef .tc main_v178) = val_main_v178 (F := Ideal) x1 x2 x4 x9 x10 := by
  after_results_simp
  rw [h_in, h_arg9, h_arg10, h_v3, h_v6, h_v29]
  rfl

set_option maxRecDepth 8192 in
/-- Label layer 4's rectifier: the maximum with zero. -/
theorem l4b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v178 : V (Proc.devRef .tc main_v178) = val_main_v178 (F := Ideal) x1 x2 x4 x9 x10) :
    StableHlo.after (pL4b (F := Ideal)) V (Proc.devRef .tc main_v179) = val_main_v179 (F := Ideal) x1 x2 x4 x9 x10 := by
  after_results_simp
  simp only [val_main_v179, val_main_call10_v0, val_main_call10_cst]
  rw [← h_v178]
  rfl

set_option maxRecDepth 8192 in
/-- Label layer 4's masked update: the given labels where the mask holds, the layer's result elsewhere. -/
theorem l4c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v179 : V (Proc.devRef .tc main_v179) = val_main_v179 (F := Ideal) x1 x2 x4 x9 x10) :
    StableHlo.after (pL4c (F := Ideal)) V (Proc.devRef .tc main_v180) = val_main_v180 (F := Ideal) x1 x2 x4 x9 x10 := by
  subst h_arg1
  after_results_simp
  simp only [val_main_v180, val_main_call11_v0]
  rw [← h_v65, ← h_v179]
  rfl

end Cert.ReferenceIdeal.RefRun

end
-- ==== Proof.RefLemL5.lean ====
/-
  Label layer 5 of the reference, in three consecutive pieces: the linear map with the layer's weight followed by the
  normalised aggregation over the edges and the layer's bias; the rectifier; the masked update, which keeps the given label
  on a masked row.  Run from any buffer contents that hold a piece's inputs at the reference's stages, the piece leaves
  in its output buffer the reference's next stage.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

set_option maxRecDepth 8192 in
/-- The linear map, the aggregation and the bias: with the previous labels, the weight and bias arguments, the two
    endpoint columns and the edge weights at the reference's stages, the biased sum is the reference's. -/
theorem l5a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v180) = val_main_v180 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    after (pL5a (F := Ideal)) V (Proc.devRef .tc main_v201) = val_main_v201 (F := Ideal) x1 x2 x4 x9 x10 := by
  after_results_simp
  rw [h_in, h_arg9, h_arg10, h_v3, h_v6, h_v29]
  rfl

set_option maxRecDepth 8192 in
/-- The rectifier: the maximum of the biased sum with the zero matrix. -/
theorem l5b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v201 : V (Proc.devRef .tc main_v201) = val_main_v201 (F := Ideal) x1 x2 x4 x9 x10) :
    after (pL5b (F := Ideal)) V (Proc.devRef .tc main_v202) = val_main_v202 (F := Ideal) x1 x2 x4 x9 x10 := by
  after_results_simp
  simp only [val_main_v202, val_main_call12_v0, val_main_call12_cst]
  rw [← h_v201]
  rfl

set_option maxRecDepth 8192 in
/-- The masked update: a masked row keeps the given label, another row takes the layer's value. -/
theorem l5c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v202 : V (Proc.devRef .tc main_v202) = val_main_v202 (F := Ideal) x1 x2 x4 x9 x10) :
    after (pL5c (F := Ideal)) V (Proc.devRef .tc main_v203) = val_main_v203 (F := Ideal) x1 x2 x4 x9 x10 := by
  after_results_simp
  simp only [val_main_v203, val_main_call13_v0]
  rw [← h_v202, ← h_v65, ← h_arg1]
  rfl

end Cert.ReferenceIdeal.RefRun

end
-- ==== Proof.RefLemL6.lean ====
/-
  Label layer 6 of the reference, in three consecutive pieces: the linear map with the layer's weight followed by the
  normalised aggregation over the edges and the layer's bias; the rectifier; the masked update, which keeps the given label
  on a masked row.  Run from any buffer contents that hold a piece's inputs at the reference's stages, the piece leaves
  in its output buffer the reference's next stage.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

set_option maxRecDepth 8192 in
/-- The linear map, the aggregation and the bias: with the previous labels, the weight and bias arguments, the two
    endpoint columns and the edge weights at the reference's stages, the biased sum is the reference's. -/
theorem l6a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v203) = val_main_v203 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    after (pL6a (F := Ideal)) V (Proc.devRef .tc main_v224) = val_main_v224 (F := Ideal) x1 x2 x4 x9 x10 := by
  after_results_simp
  rw [h_in, h_arg9, h_arg10, h_v3, h_v6, h_v29]
  rfl

set_option maxRecDepth 8192 in
/-- The rectifier: the maximum of the biased sum with the zero matrix. -/
theorem l6b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v224 : V (Proc.devRef .tc main_v224) = val_main_v224 (F := Ideal) x1 x2 x4 x9 x10) :
    after (pL6b (F := Ideal)) V (Proc.devRef .tc main_v225) = val_main_v225 (F := Ideal) x1 x2 x4 x9 x10 := by
  after_results_simp
  simp only [val_main_v225, val_main_call14_v0, val_main_call14_cst]
  rw [← h_v224]
  rfl

set_option maxRecDepth 8192 in
/-- The masked update: a masked row keeps the given label, another row takes the layer's value. -/
theorem l6c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v225 : V (Proc.devRef .tc main_v225) = val_main_v225 (F := Ideal) x1 x2 x4 x9 x10) :
    after (pL6c (F := Ideal)) V (Proc.devRef .tc main_v226) = val_main_v226 (F := Ideal) x1 x2 x4 x9 x10 := by
  after_results_simp
  simp only [val_main_v226, val_main_call15_v0]
  rw [← h_v225, ← h_v65, ← h_arg1]
  rfl

end Cert.ReferenceIdeal.RefRun

end
-- ==== Proof.RefLemL7.lean ====
/-
  Label layer 7 of the reference, in three consecutive pieces: the linear map with the layer's weight followed by the
  normalised aggregation over the edges and the layer's bias; the rectifier; the masked update, which keeps the given label
  on a masked row.  Run from any buffer contents that hold a piece's inputs at the reference's stages, the piece leaves
  in its output buffer the reference's next stage.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

set_option maxRecDepth 8192 in
/-- The linear map, the aggregation and the bias: with the previous labels, the weight and bias arguments, the two
    endpoint columns and the edge weights at the reference's stages, the biased sum is the reference's. -/
theorem l7a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v226) = val_main_v226 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    after (pL7a (F := Ideal)) V (Proc.devRef .tc main_v247) = val_main_v247 (F := Ideal) x1 x2 x4 x9 x10 := by
  after_results_simp
  rw [h_in, h_arg9, h_arg10, h_v3, h_v6, h_v29]
  rfl

set_option maxRecDepth 8192 in
/-- The rectifier: the maximum of the biased sum with the zero matrix. -/
theorem l7b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v247 : V (Proc.devRef .tc main_v247) = val_main_v247 (F := Ideal) x1 x2 x4 x9 x10) :
    after (pL7b (F := Ideal)) V (Proc.devRef .tc main_v248) = val_main_v248 (F := Ideal) x1 x2 x4 x9 x10 := by
  after_results_simp
  simp only [val_main_v248, val_main_call16_v0, val_main_call16_cst]
  rw [← h_v247]
  rfl

set_option maxRecDepth 8192 in
/-- The masked update: a masked row keeps the given label, another row takes the layer's value. -/
theorem l7c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v248 : V (Proc.devRef .tc main_v248) = val_main_v248 (F := Ideal) x1 x2 x4 x9 x10) :
    after (pL7c (F := Ideal)) V (Proc.devRef .tc main_v249) = val_main_v249 (F := Ideal) x1 x2 x4 x9 x10 := by
  after_results_simp
  simp only [val_main_v249, val_main_call17_v0]
  rw [← h_v248, ← h_v65, ← h_arg1]
  rfl

end Cert.ReferenceIdeal.RefRun

end
-- ==== Proof.RefLemL8.lean ====
/-
  Label layer 8 of the reference, in three consecutive pieces: the linear map with the layer's weight followed by the
  normalised aggregation over the edges and the layer's bias; the rectifier; the masked update, which keeps the given label
  on a masked row.  Run from any buffer contents that hold a piece's inputs at the reference's stages, the piece leaves
  in its output buffer the reference's next stage.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

set_option maxRecDepth 8192 in
/-- The linear map, the aggregation and the bias: with the previous labels, the weight and bias arguments, the two
    endpoint columns and the edge weights at the reference's stages, the biased sum is the reference's. -/
theorem l8a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v249) = val_main_v249 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    after (pL8a (F := Ideal)) V (Proc.devRef .tc main_v270) = val_main_v270 (F := Ideal) x1 x2 x4 x9 x10 := by
  after_results_simp
  rw [h_in, h_arg9, h_arg10, h_v3, h_v6, h_v29]
  rfl

set_option maxRecDepth 8192 in
/-- The rectifier: the maximum of the biased sum with the zero matrix. -/
theorem l8b (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v270 : V (Proc.devRef .tc main_v270) = val_main_v270 (F := Ideal) x1 x2 x4 x9 x10) :
    after (pL8b (F := Ideal)) V (Proc.devRef .tc main_v271) = val_main_v271 (F := Ideal) x1 x2 x4 x9 x10 := by
  after_results_simp
  simp only [val_main_v271, val_main_call18_v0, val_main_call18_cst]
  rw [← h_v270]
  rfl

set_option maxRecDepth 8192 in
/-- The masked update: a masked row keeps the given label, another row takes the layer's value. -/
theorem l8c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v271 : V (Proc.devRef .tc main_v271) = val_main_v271 (F := Ideal) x1 x2 x4 x9 x10) :
    after (pL8c (F := Ideal)) V (Proc.devRef .tc main_v272) = val_main_v272 (F := Ideal) x1 x2 x4 x9 x10 := by
  after_results_simp
  simp only [val_main_v272, val_main_call19_v0]
  rw [← h_v271, ← h_v65, ← h_arg1]
  rfl

end Cert.ReferenceIdeal.RefRun

end
-- ==== Proof.RefLemL9.lean ====
/-
  Label layer 9 of the reference, in two consecutive pieces: the linear map with the layer's weight followed by the
  normalised aggregation over the edges and the layer's bias; the masked update, which keeps the given label
  on a masked row.  Run from any buffer contents that hold a piece's inputs at the reference's stages, the piece leaves
  in its output buffer the reference's next stage.
-/
import proofs.«146329_j1168231104595_1_alg».proof.Proof.RefPieces
import proofs.«146329_j1168231104595_1_alg».proof.Proof.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

set_option maxRecDepth 8192 in
/-- The linear map, the aggregation and the bias: with the previous labels, the weight and bias arguments, the two
    endpoint columns and the edge weights at the reference's stages, the biased sum is the reference's. -/
theorem l9a (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_in : V (Proc.devRef .tc main_v272) = val_main_v272 (F := Ideal) x1 x2 x4 x9 x10)
    (h_arg9 : V (Proc.devRef .tc main_arg9) = x9)
    (h_arg10 : V (Proc.devRef .tc main_arg10) = x10)
    (h_v3 : V (Proc.devRef .tc main_v3) = val_main_v3 (F := Ideal) x2)
    (h_v6 : V (Proc.devRef .tc main_v6) = val_main_v6 (F := Ideal) x2)
    (h_v29 : V (Proc.devRef .tc main_v29) = val_main_v29 (F := Ideal) x2) :
    after (pL9a (F := Ideal)) V (Proc.devRef .tc main_v293) = val_main_v293 (F := Ideal) x1 x2 x4 x9 x10 := by
  after_results_simp
  rw [h_in, h_arg9, h_arg10, h_v3, h_v6, h_v29]
  rfl

set_option maxRecDepth 8192 in
/-- The masked update: a masked row keeps the given label, another row takes the layer's value. -/
theorem l9c (V : Valuation τ sig (Elt Ideal))
    (x1 : (⟨S100000x16, .f32⟩ : BufTy).Contents (Elt Ideal))
    (x2 : (⟨S2x1600000, .i32⟩ : BufTy).Contents (Elt Ideal))
    (x4 : (⟨S100000, .i1⟩ : BufTy).Contents (Elt Ideal))
    (x9 : (⟨S10x16x16, .f32⟩ : BufTy).Contents (Elt Ideal))
    (x10 : (⟨S10x16, .f32⟩ : BufTy).Contents (Elt Ideal))
    (h_v65 : V (Proc.devRef .tc main_v65) = val_main_v65 (F := Ideal) x4)
    (h_arg1 : V (Proc.devRef .tc main_arg1) = x1)
    (h_v293 : V (Proc.devRef .tc main_v293) = val_main_v293 (F := Ideal) x1 x2 x4 x9 x10) :
    after (pL9c (F := Ideal)) V (Proc.devRef .tc main_v294) = val_main_v294 (F := Ideal) x1 x2 x4 x9 x10 := by
  after_results_simp
  simp only [val_main_v294, val_main_call20_v0]
  rw [← h_v293, ← h_v65, ← h_arg1]
  rfl

end Cert.ReferenceIdeal.RefRun

end
-- ==== Proof.RefChain.lean ====
/-
  The reference program's first 371 operations, piece by piece.  U₀ is the launch memory and each next stage applies one
  piece.  A buffer that a piece does not write holds after it what it held before; with that, the arguments, the graph's
  index and normalisation vectors, the mask column and the convolved features are read where they were left, and each
  piece's output holds the reference's corresponding stage of the launch arguments.
-/
import proofs.«146329_j1168231104595_1_alg».proof.Proof.RefPieces
import proofs.«146329_j1168231104595_1_alg».proof.Proof.RefTac
import proofs.«146329_j1168231104595_1_alg».proof.Proof.ReadP
import proofs.«146329_j1168231104595_1_alg».proof.Proof.RefLemP
import proofs.«146329_j1168231104595_1_alg».proof.Proof.RefLemF
import proofs.«146329_j1168231104595_1_alg».proof.Proof.RefLemL0
import proofs.«146329_j1168231104595_1_alg».proof.Proof.RefLemL1
import proofs.«146329_j1168231104595_1_alg».proof.Proof.RefLemL2
import proofs.«146329_j1168231104595_1_alg».proof.Proof.RefLemL3
import proofs.«146329_j1168231104595_1_alg».proof.Proof.RefLemL4
import proofs.«146329_j1168231104595_1_alg».proof.Proof.RefLemL5
import proofs.«146329_j1168231104595_1_alg».proof.Proof.RefLemL6
import proofs.«146329_j1168231104595_1_alg».proof.Proof.RefLemL7
import proofs.«146329_j1168231104595_1_alg».proof.Proof.RefLemL8
import proofs.«146329_j1168231104595_1_alg».proof.Proof.RefLemL9

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ)

/-! ## The stages -/

abbrev U0 (c : Dev nD) : Valuation τ sig (Elt Ideal) := launchContents m c
abbrev U1 (c : Dev nD) : Valuation τ sig (Elt Ideal) := after (pP0a (F := Ideal)) (U0 m c)
abbrev U2 (c : Dev nD) : Valuation τ sig (Elt Ideal) := after (pP0b (F := Ideal)) (U1 m c)
abbrev U3 (c : Dev nD) : Valuation τ sig (Elt Ideal) := after (pP0c (F := Ideal)) (U2 m c)
abbrev U4 (c : Dev nD) : Valuation τ sig (Elt Ideal) := after (pP0d (F := Ideal)) (U3 m c)
abbrev U5 (c : Dev nD) : Valuation τ sig (Elt Ideal) := after (pF1a (F := Ideal)) (U4 m c)
abbrev U6 (c : Dev nD) : Valuation τ sig (Elt Ideal) := after (pF1b (F := Ideal)) (U5 m c)
abbrev U7 (c : Dev nD) : Valuation τ sig (Elt Ideal) := after (pF2 (F := Ideal)) (U6 m c)
abbrev U8 (c : Dev nD) : Valuation τ sig (Elt Ideal) := after (pMk (F := Ideal)) (U7 m c)
abbrev U9 (c : Dev nD) : Valuation τ sig (Elt Ideal) := after (pL0a (F := Ideal)) (U8 m c)
abbrev U10 (c : Dev nD) : Valuation τ sig (Elt Ideal) := after (pL0b (F := Ideal)) (U9 m c)
abbrev U11 (c : Dev nD) : Valuation τ sig (Elt Ideal) := after (pL0c (F := Ideal)) (U10 m c)
abbrev U12 (c : Dev nD) : Valuation τ sig (Elt Ideal) := after (pL1a (F := Ideal)) (U11 m c)
abbrev U13 (c : Dev nD) : Valuation τ sig (Elt Ideal) := after (pL1b (F := Ideal)) (U12 m c)
abbrev U14 (c : Dev nD) : Valuation τ sig (Elt Ideal) := after (pL1c (F := Ideal)) (U13 m c)
abbrev U15 (c : Dev nD) : Valuation τ sig (Elt Ideal) := after (pL2a (F := Ideal)) (U14 m c)
abbrev U16 (c : Dev nD) : Valuation τ sig (Elt Ideal) := after (pL2b (F := Ideal)) (U15 m c)
abbrev U17 (c : Dev nD) : Valuation τ sig (Elt Ideal) := after (pL2c (F := Ideal)) (U16 m c)
abbrev U18 (c : Dev nD) : Valuation τ sig (Elt Ideal) := after (pL3a (F := Ideal)) (U17 m c)
abbrev U19 (c : Dev nD) : Valuation τ sig (Elt Ideal) := after (pL3b (F := Ideal)) (U18 m c)
abbrev U20 (c : Dev nD) : Valuation τ sig (Elt Ideal) := after (pL3c (F := Ideal)) (U19 m c)
abbrev U21 (c : Dev nD) : Valuation τ sig (Elt Ideal) := after (pL4a (F := Ideal)) (U20 m c)
abbrev U22 (c : Dev nD) : Valuation τ sig (Elt Ideal) := after (pL4b (F := Ideal)) (U21 m c)
abbrev U23 (c : Dev nD) : Valuation τ sig (Elt Ideal) := after (pL4c (F := Ideal)) (U22 m c)
abbrev U24 (c : Dev nD) : Valuation τ sig (Elt Ideal) := after (pL5a (F := Ideal)) (U23 m c)
abbrev U25 (c : Dev nD) : Valuation τ sig (Elt Ideal) := after (pL5b (F := Ideal)) (U24 m c)
abbrev U26 (c : Dev nD) : Valuation τ sig (Elt Ideal) := after (pL5c (F := Ideal)) (U25 m c)
abbrev U27 (c : Dev nD) : Valuation τ sig (Elt Ideal) := after (pL6a (F := Ideal)) (U26 m c)
abbrev U28 (c : Dev nD) : Valuation τ sig (Elt Ideal) := after (pL6b (F := Ideal)) (U27 m c)
abbrev U29 (c : Dev nD) : Valuation τ sig (Elt Ideal) := after (pL6c (F := Ideal)) (U28 m c)
abbrev U30 (c : Dev nD) : Valuation τ sig (Elt Ideal) := after (pL7a (F := Ideal)) (U29 m c)
abbrev U31 (c : Dev nD) : Valuation τ sig (Elt Ideal) := after (pL7b (F := Ideal)) (U30 m c)
abbrev U32 (c : Dev nD) : Valuation τ sig (Elt Ideal) := after (pL7c (F := Ideal)) (U31 m c)
abbrev U33 (c : Dev nD) : Valuation τ sig (Elt Ideal) := after (pL8a (F := Ideal)) (U32 m c)
abbrev U34 (c : Dev nD) : Valuation τ sig (Elt Ideal) := after (pL8b (F := Ideal)) (U33 m c)
abbrev U35 (c : Dev nD) : Valuation τ sig (Elt Ideal) := after (pL8c (F := Ideal)) (U34 m c)
abbrev U36 (c : Dev nD) : Valuation τ sig (Elt Ideal) := after (pL9a (F := Ideal)) (U35 m c)
abbrev U37 (c : Dev nD) : Valuation τ sig (Elt Ideal) := after (pL9c (F := Ideal)) (U36 m c)

set_option maxRecDepth 16384 in
/-- The first 371 operations from the launch memory reach the last stage. -/
theorem opsA_after (c : Dev nD) : after (opsA (F := Ideal)) (launchContents m c) = U37 m c := by
  rw [opsA_split]
  simp only [after_append]

/-! ## What no piece writes stays -/

theorem rk_arg0_1 (c : Dev nD) : U1 m c (Proc.devRef .tc main_arg0) = U0 m c (Proc.devRef .tc main_arg0) :=
  (show U1 m c (Proc.devRef .tc main_arg0) = U0 m c (Proc.devRef .tc main_arg0) from by keep_piece pP0a)
theorem rk_arg0_2 (c : Dev nD) : U2 m c (Proc.devRef .tc main_arg0) = U0 m c (Proc.devRef .tc main_arg0) :=
  ((show U2 m c (Proc.devRef .tc main_arg0) = U1 m c (Proc.devRef .tc main_arg0) from by keep_piece pP0b)).trans (rk_arg0_1 m c)
theorem rk_arg0_3 (c : Dev nD) : U3 m c (Proc.devRef .tc main_arg0) = U0 m c (Proc.devRef .tc main_arg0) :=
  ((show U3 m c (Proc.devRef .tc main_arg0) = U2 m c (Proc.devRef .tc main_arg0) from by keep_piece pP0c)).trans (rk_arg0_2 m c)
theorem rk_arg0_4 (c : Dev nD) : U4 m c (Proc.devRef .tc main_arg0) = U0 m c (Proc.devRef .tc main_arg0) :=
  ((show U4 m c (Proc.devRef .tc main_arg0) = U3 m c (Proc.devRef .tc main_arg0) from by keep_piece pP0d)).trans (rk_arg0_3 m c)

theorem rk_arg5_1 (c : Dev nD) : U1 m c (Proc.devRef .tc main_arg5) = U0 m c (Proc.devRef .tc main_arg5) :=
  (show U1 m c (Proc.devRef .tc main_arg5) = U0 m c (Proc.devRef .tc main_arg5) from by keep_piece pP0a)
theorem rk_arg5_2 (c : Dev nD) : U2 m c (Proc.devRef .tc main_arg5) = U0 m c (Proc.devRef .tc main_arg5) :=
  ((show U2 m c (Proc.devRef .tc main_arg5) = U1 m c (Proc.devRef .tc main_arg5) from by keep_piece pP0b)).trans (rk_arg5_1 m c)
theorem rk_arg5_3 (c : Dev nD) : U3 m c (Proc.devRef .tc main_arg5) = U0 m c (Proc.devRef .tc main_arg5) :=
  ((show U3 m c (Proc.devRef .tc main_arg5) = U2 m c (Proc.devRef .tc main_arg5) from by keep_piece pP0c)).trans (rk_arg5_2 m c)
theorem rk_arg5_4 (c : Dev nD) : U4 m c (Proc.devRef .tc main_arg5) = U0 m c (Proc.devRef .tc main_arg5) :=
  ((show U4 m c (Proc.devRef .tc main_arg5) = U3 m c (Proc.devRef .tc main_arg5) from by keep_piece pP0d)).trans (rk_arg5_3 m c)

theorem rk_arg6_1 (c : Dev nD) : U1 m c (Proc.devRef .tc main_arg6) = U0 m c (Proc.devRef .tc main_arg6) :=
  (show U1 m c (Proc.devRef .tc main_arg6) = U0 m c (Proc.devRef .tc main_arg6) from by keep_piece pP0a)
theorem rk_arg6_2 (c : Dev nD) : U2 m c (Proc.devRef .tc main_arg6) = U0 m c (Proc.devRef .tc main_arg6) :=
  ((show U2 m c (Proc.devRef .tc main_arg6) = U1 m c (Proc.devRef .tc main_arg6) from by keep_piece pP0b)).trans (rk_arg6_1 m c)
theorem rk_arg6_3 (c : Dev nD) : U3 m c (Proc.devRef .tc main_arg6) = U0 m c (Proc.devRef .tc main_arg6) :=
  ((show U3 m c (Proc.devRef .tc main_arg6) = U2 m c (Proc.devRef .tc main_arg6) from by keep_piece pP0c)).trans (rk_arg6_2 m c)
theorem rk_arg6_4 (c : Dev nD) : U4 m c (Proc.devRef .tc main_arg6) = U0 m c (Proc.devRef .tc main_arg6) :=
  ((show U4 m c (Proc.devRef .tc main_arg6) = U3 m c (Proc.devRef .tc main_arg6) from by keep_piece pP0d)).trans (rk_arg6_3 m c)

theorem rk_arg7_1 (c : Dev nD) : U1 m c (Proc.devRef .tc main_arg7) = U0 m c (Proc.devRef .tc main_arg7) :=
  (show U1 m c (Proc.devRef .tc main_arg7) = U0 m c (Proc.devRef .tc main_arg7) from by keep_piece pP0a)
theorem rk_arg7_2 (c : Dev nD) : U2 m c (Proc.devRef .tc main_arg7) = U0 m c (Proc.devRef .tc main_arg7) :=
  ((show U2 m c (Proc.devRef .tc main_arg7) = U1 m c (Proc.devRef .tc main_arg7) from by keep_piece pP0b)).trans (rk_arg7_1 m c)
theorem rk_arg7_3 (c : Dev nD) : U3 m c (Proc.devRef .tc main_arg7) = U0 m c (Proc.devRef .tc main_arg7) :=
  ((show U3 m c (Proc.devRef .tc main_arg7) = U2 m c (Proc.devRef .tc main_arg7) from by keep_piece pP0c)).trans (rk_arg7_2 m c)
theorem rk_arg7_4 (c : Dev nD) : U4 m c (Proc.devRef .tc main_arg7) = U0 m c (Proc.devRef .tc main_arg7) :=
  ((show U4 m c (Proc.devRef .tc main_arg7) = U3 m c (Proc.devRef .tc main_arg7) from by keep_piece pP0d)).trans (rk_arg7_3 m c)
theorem rk_arg7_5 (c : Dev nD) : U5 m c (Proc.devRef .tc main_arg7) = U0 m c (Proc.devRef .tc main_arg7) :=
  ((show U5 m c (Proc.devRef .tc main_arg7) = U4 m c (Proc.devRef .tc main_arg7) from by keep_piece pF1a)).trans (rk_arg7_4 m c)
theorem rk_arg7_6 (c : Dev nD) : U6 m c (Proc.devRef .tc main_arg7) = U0 m c (Proc.devRef .tc main_arg7) :=
  ((show U6 m c (Proc.devRef .tc main_arg7) = U5 m c (Proc.devRef .tc main_arg7) from by keep_piece pF1b)).trans (rk_arg7_5 m c)

theorem rk_arg8_1 (c : Dev nD) : U1 m c (Proc.devRef .tc main_arg8) = U0 m c (Proc.devRef .tc main_arg8) :=
  (show U1 m c (Proc.devRef .tc main_arg8) = U0 m c (Proc.devRef .tc main_arg8) from by keep_piece pP0a)
theorem rk_arg8_2 (c : Dev nD) : U2 m c (Proc.devRef .tc main_arg8) = U0 m c (Proc.devRef .tc main_arg8) :=
  ((show U2 m c (Proc.devRef .tc main_arg8) = U1 m c (Proc.devRef .tc main_arg8) from by keep_piece pP0b)).trans (rk_arg8_1 m c)
theorem rk_arg8_3 (c : Dev nD) : U3 m c (Proc.devRef .tc main_arg8) = U0 m c (Proc.devRef .tc main_arg8) :=
  ((show U3 m c (Proc.devRef .tc main_arg8) = U2 m c (Proc.devRef .tc main_arg8) from by keep_piece pP0c)).trans (rk_arg8_2 m c)
theorem rk_arg8_4 (c : Dev nD) : U4 m c (Proc.devRef .tc main_arg8) = U0 m c (Proc.devRef .tc main_arg8) :=
  ((show U4 m c (Proc.devRef .tc main_arg8) = U3 m c (Proc.devRef .tc main_arg8) from by keep_piece pP0d)).trans (rk_arg8_3 m c)
theorem rk_arg8_5 (c : Dev nD) : U5 m c (Proc.devRef .tc main_arg8) = U0 m c (Proc.devRef .tc main_arg8) :=
  ((show U5 m c (Proc.devRef .tc main_arg8) = U4 m c (Proc.devRef .tc main_arg8) from by keep_piece pF1a)).trans (rk_arg8_4 m c)
theorem rk_arg8_6 (c : Dev nD) : U6 m c (Proc.devRef .tc main_arg8) = U0 m c (Proc.devRef .tc main_arg8) :=
  ((show U6 m c (Proc.devRef .tc main_arg8) = U5 m c (Proc.devRef .tc main_arg8) from by keep_piece pF1b)).trans (rk_arg8_5 m c)

theorem rk_arg4_1 (c : Dev nD) : U1 m c (Proc.devRef .tc main_arg4) = U0 m c (Proc.devRef .tc main_arg4) :=
  (show U1 m c (Proc.devRef .tc main_arg4) = U0 m c (Proc.devRef .tc main_arg4) from by keep_piece pP0a)
theorem rk_arg4_2 (c : Dev nD) : U2 m c (Proc.devRef .tc main_arg4) = U0 m c (Proc.devRef .tc main_arg4) :=
  ((show U2 m c (Proc.devRef .tc main_arg4) = U1 m c (Proc.devRef .tc main_arg4) from by keep_piece pP0b)).trans (rk_arg4_1 m c)
theorem rk_arg4_3 (c : Dev nD) : U3 m c (Proc.devRef .tc main_arg4) = U0 m c (Proc.devRef .tc main_arg4) :=
  ((show U3 m c (Proc.devRef .tc main_arg4) = U2 m c (Proc.devRef .tc main_arg4) from by keep_piece pP0c)).trans (rk_arg4_2 m c)
theorem rk_arg4_4 (c : Dev nD) : U4 m c (Proc.devRef .tc main_arg4) = U0 m c (Proc.devRef .tc main_arg4) :=
  ((show U4 m c (Proc.devRef .tc main_arg4) = U3 m c (Proc.devRef .tc main_arg4) from by keep_piece pP0d)).trans (rk_arg4_3 m c)
theorem rk_arg4_5 (c : Dev nD) : U5 m c (Proc.devRef .tc main_arg4) = U0 m c (Proc.devRef .tc main_arg4) :=
  ((show U5 m c (Proc.devRef .tc main_arg4) = U4 m c (Proc.devRef .tc main_arg4) from by keep_piece pF1a)).trans (rk_arg4_4 m c)
theorem rk_arg4_6 (c : Dev nD) : U6 m c (Proc.devRef .tc main_arg4) = U0 m c (Proc.devRef .tc main_arg4) :=
  ((show U6 m c (Proc.devRef .tc main_arg4) = U5 m c (Proc.devRef .tc main_arg4) from by keep_piece pF1b)).trans (rk_arg4_5 m c)
theorem rk_arg4_7 (c : Dev nD) : U7 m c (Proc.devRef .tc main_arg4) = U0 m c (Proc.devRef .tc main_arg4) :=
  ((show U7 m c (Proc.devRef .tc main_arg4) = U6 m c (Proc.devRef .tc main_arg4) from by keep_piece pF2)).trans (rk_arg4_6 m c)

theorem rk_arg1_1 (c : Dev nD) : U1 m c (Proc.devRef .tc main_arg1) = U0 m c (Proc.devRef .tc main_arg1) :=
  (show U1 m c (Proc.devRef .tc main_arg1) = U0 m c (Proc.devRef .tc main_arg1) from by keep_piece pP0a)
theorem rk_arg1_2 (c : Dev nD) : U2 m c (Proc.devRef .tc main_arg1) = U0 m c (Proc.devRef .tc main_arg1) :=
  ((show U2 m c (Proc.devRef .tc main_arg1) = U1 m c (Proc.devRef .tc main_arg1) from by keep_piece pP0b)).trans (rk_arg1_1 m c)
theorem rk_arg1_3 (c : Dev nD) : U3 m c (Proc.devRef .tc main_arg1) = U0 m c (Proc.devRef .tc main_arg1) :=
  ((show U3 m c (Proc.devRef .tc main_arg1) = U2 m c (Proc.devRef .tc main_arg1) from by keep_piece pP0c)).trans (rk_arg1_2 m c)
theorem rk_arg1_4 (c : Dev nD) : U4 m c (Proc.devRef .tc main_arg1) = U0 m c (Proc.devRef .tc main_arg1) :=
  ((show U4 m c (Proc.devRef .tc main_arg1) = U3 m c (Proc.devRef .tc main_arg1) from by keep_piece pP0d)).trans (rk_arg1_3 m c)
theorem rk_arg1_5 (c : Dev nD) : U5 m c (Proc.devRef .tc main_arg1) = U0 m c (Proc.devRef .tc main_arg1) :=
  ((show U5 m c (Proc.devRef .tc main_arg1) = U4 m c (Proc.devRef .tc main_arg1) from by keep_piece pF1a)).trans (rk_arg1_4 m c)
theorem rk_arg1_6 (c : Dev nD) : U6 m c (Proc.devRef .tc main_arg1) = U0 m c (Proc.devRef .tc main_arg1) :=
  ((show U6 m c (Proc.devRef .tc main_arg1) = U5 m c (Proc.devRef .tc main_arg1) from by keep_piece pF1b)).trans (rk_arg1_5 m c)
theorem rk_arg1_7 (c : Dev nD) : U7 m c (Proc.devRef .tc main_arg1) = U0 m c (Proc.devRef .tc main_arg1) :=
  ((show U7 m c (Proc.devRef .tc main_arg1) = U6 m c (Proc.devRef .tc main_arg1) from by keep_piece pF2)).trans (rk_arg1_6 m c)
theorem rk_arg1_8 (c : Dev nD) : U8 m c (Proc.devRef .tc main_arg1) = U0 m c (Proc.devRef .tc main_arg1) :=
  ((show U8 m c (Proc.devRef .tc main_arg1) = U7 m c (Proc.devRef .tc main_arg1) from by keep_piece pMk)).trans (rk_arg1_7 m c)
theorem rk_arg1_9 (c : Dev nD) : U9 m c (Proc.devRef .tc main_arg1) = U0 m c (Proc.devRef .tc main_arg1) :=
  ((show U9 m c (Proc.devRef .tc main_arg1) = U8 m c (Proc.devRef .tc main_arg1) from by keep_piece pL0a)).trans (rk_arg1_8 m c)
theorem rk_arg1_10 (c : Dev nD) : U10 m c (Proc.devRef .tc main_arg1) = U0 m c (Proc.devRef .tc main_arg1) :=
  ((show U10 m c (Proc.devRef .tc main_arg1) = U9 m c (Proc.devRef .tc main_arg1) from by keep_piece pL0b)).trans (rk_arg1_9 m c)
theorem rk_arg1_11 (c : Dev nD) : U11 m c (Proc.devRef .tc main_arg1) = U0 m c (Proc.devRef .tc main_arg1) :=
  ((show U11 m c (Proc.devRef .tc main_arg1) = U10 m c (Proc.devRef .tc main_arg1) from by keep_piece pL0c)).trans (rk_arg1_10 m c)
theorem rk_arg1_12 (c : Dev nD) : U12 m c (Proc.devRef .tc main_arg1) = U0 m c (Proc.devRef .tc main_arg1) :=
  ((show U12 m c (Proc.devRef .tc main_arg1) = U11 m c (Proc.devRef .tc main_arg1) from by keep_piece pL1a)).trans (rk_arg1_11 m c)
theorem rk_arg1_13 (c : Dev nD) : U13 m c (Proc.devRef .tc main_arg1) = U0 m c (Proc.devRef .tc main_arg1) :=
  ((show U13 m c (Proc.devRef .tc main_arg1) = U12 m c (Proc.devRef .tc main_arg1) from by keep_piece pL1b)).trans (rk_arg1_12 m c)
theorem rk_arg1_14 (c : Dev nD) : U14 m c (Proc.devRef .tc main_arg1) = U0 m c (Proc.devRef .tc main_arg1) :=
  ((show U14 m c (Proc.devRef .tc main_arg1) = U13 m c (Proc.devRef .tc main_arg1) from by keep_piece pL1c)).trans (rk_arg1_13 m c)
theorem rk_arg1_15 (c : Dev nD) : U15 m c (Proc.devRef .tc main_arg1) = U0 m c (Proc.devRef .tc main_arg1) :=
  ((show U15 m c (Proc.devRef .tc main_arg1) = U14 m c (Proc.devRef .tc main_arg1) from by keep_piece pL2a)).trans (rk_arg1_14 m c)
theorem rk_arg1_16 (c : Dev nD) : U16 m c (Proc.devRef .tc main_arg1) = U0 m c (Proc.devRef .tc main_arg1) :=
  ((show U16 m c (Proc.devRef .tc main_arg1) = U15 m c (Proc.devRef .tc main_arg1) from by keep_piece pL2b)).trans (rk_arg1_15 m c)
theorem rk_arg1_17 (c : Dev nD) : U17 m c (Proc.devRef .tc main_arg1) = U0 m c (Proc.devRef .tc main_arg1) :=
  ((show U17 m c (Proc.devRef .tc main_arg1) = U16 m c (Proc.devRef .tc main_arg1) from by keep_piece pL2c)).trans (rk_arg1_16 m c)
theorem rk_arg1_18 (c : Dev nD) : U18 m c (Proc.devRef .tc main_arg1) = U0 m c (Proc.devRef .tc main_arg1) :=
  ((show U18 m c (Proc.devRef .tc main_arg1) = U17 m c (Proc.devRef .tc main_arg1) from by keep_piece pL3a)).trans (rk_arg1_17 m c)
theorem rk_arg1_19 (c : Dev nD) : U19 m c (Proc.devRef .tc main_arg1) = U0 m c (Proc.devRef .tc main_arg1) :=
  ((show U19 m c (Proc.devRef .tc main_arg1) = U18 m c (Proc.devRef .tc main_arg1) from by keep_piece pL3b)).trans (rk_arg1_18 m c)
theorem rk_arg1_20 (c : Dev nD) : U20 m c (Proc.devRef .tc main_arg1) = U0 m c (Proc.devRef .tc main_arg1) :=
  ((show U20 m c (Proc.devRef .tc main_arg1) = U19 m c (Proc.devRef .tc main_arg1) from by keep_piece pL3c)).trans (rk_arg1_19 m c)
theorem rk_arg1_21 (c : Dev nD) : U21 m c (Proc.devRef .tc main_arg1) = U0 m c (Proc.devRef .tc main_arg1) :=
  ((show U21 m c (Proc.devRef .tc main_arg1) = U20 m c (Proc.devRef .tc main_arg1) from by keep_piece pL4a)).trans (rk_arg1_20 m c)
theorem rk_arg1_22 (c : Dev nD) : U22 m c (Proc.devRef .tc main_arg1) = U0 m c (Proc.devRef .tc main_arg1) :=
  ((show U22 m c (Proc.devRef .tc main_arg1) = U21 m c (Proc.devRef .tc main_arg1) from by keep_piece pL4b)).trans (rk_arg1_21 m c)
theorem rk_arg1_23 (c : Dev nD) : U23 m c (Proc.devRef .tc main_arg1) = U0 m c (Proc.devRef .tc main_arg1) :=
  ((show U23 m c (Proc.devRef .tc main_arg1) = U22 m c (Proc.devRef .tc main_arg1) from by keep_piece pL4c)).trans (rk_arg1_22 m c)
theorem rk_arg1_24 (c : Dev nD) : U24 m c (Proc.devRef .tc main_arg1) = U0 m c (Proc.devRef .tc main_arg1) :=
  ((show U24 m c (Proc.devRef .tc main_arg1) = U23 m c (Proc.devRef .tc main_arg1) from by keep_piece pL5a)).trans (rk_arg1_23 m c)
theorem rk_arg1_25 (c : Dev nD) : U25 m c (Proc.devRef .tc main_arg1) = U0 m c (Proc.devRef .tc main_arg1) :=
  ((show U25 m c (Proc.devRef .tc main_arg1) = U24 m c (Proc.devRef .tc main_arg1) from by keep_piece pL5b)).trans (rk_arg1_24 m c)
theorem rk_arg1_26 (c : Dev nD) : U26 m c (Proc.devRef .tc main_arg1) = U0 m c (Proc.devRef .tc main_arg1) :=
  ((show U26 m c (Proc.devRef .tc main_arg1) = U25 m c (Proc.devRef .tc main_arg1) from by keep_piece pL5c)).trans (rk_arg1_25 m c)
theorem rk_arg1_27 (c : Dev nD) : U27 m c (Proc.devRef .tc main_arg1) = U0 m c (Proc.devRef .tc main_arg1) :=
  ((show U27 m c (Proc.devRef .tc main_arg1) = U26 m c (Proc.devRef .tc main_arg1) from by keep_piece pL6a)).trans (rk_arg1_26 m c)
theorem rk_arg1_28 (c : Dev nD) : U28 m c (Proc.devRef .tc main_arg1) = U0 m c (Proc.devRef .tc main_arg1) :=
  ((show U28 m c (Proc.devRef .tc main_arg1) = U27 m c (Proc.devRef .tc main_arg1) from by keep_piece pL6b)).trans (rk_arg1_27 m c)
theorem rk_arg1_29 (c : Dev nD) : U29 m c (Proc.devRef .tc main_arg1) = U0 m c (Proc.devRef .tc main_arg1) :=
  ((show U29 m c (Proc.devRef .tc main_arg1) = U28 m c (Proc.devRef .tc main_arg1) from by keep_piece pL6c)).trans (rk_arg1_28 m c)
theorem rk_arg1_30 (c : Dev nD) : U30 m c (Proc.devRef .tc main_arg1) = U0 m c (Proc.devRef .tc main_arg1) :=
  ((show U30 m c (Proc.devRef .tc main_arg1) = U29 m c (Proc.devRef .tc main_arg1) from by keep_piece pL7a)).trans (rk_arg1_29 m c)
theorem rk_arg1_31 (c : Dev nD) : U31 m c (Proc.devRef .tc main_arg1) = U0 m c (Proc.devRef .tc main_arg1) :=
  ((show U31 m c (Proc.devRef .tc main_arg1) = U30 m c (Proc.devRef .tc main_arg1) from by keep_piece pL7b)).trans (rk_arg1_30 m c)
theorem rk_arg1_32 (c : Dev nD) : U32 m c (Proc.devRef .tc main_arg1) = U0 m c (Proc.devRef .tc main_arg1) :=
  ((show U32 m c (Proc.devRef .tc main_arg1) = U31 m c (Proc.devRef .tc main_arg1) from by keep_piece pL7c)).trans (rk_arg1_31 m c)
theorem rk_arg1_33 (c : Dev nD) : U33 m c (Proc.devRef .tc main_arg1) = U0 m c (Proc.devRef .tc main_arg1) :=
  ((show U33 m c (Proc.devRef .tc main_arg1) = U32 m c (Proc.devRef .tc main_arg1) from by keep_piece pL8a)).trans (rk_arg1_32 m c)
theorem rk_arg1_34 (c : Dev nD) : U34 m c (Proc.devRef .tc main_arg1) = U0 m c (Proc.devRef .tc main_arg1) :=
  ((show U34 m c (Proc.devRef .tc main_arg1) = U33 m c (Proc.devRef .tc main_arg1) from by keep_piece pL8b)).trans (rk_arg1_33 m c)
theorem rk_arg1_35 (c : Dev nD) : U35 m c (Proc.devRef .tc main_arg1) = U0 m c (Proc.devRef .tc main_arg1) :=
  ((show U35 m c (Proc.devRef .tc main_arg1) = U34 m c (Proc.devRef .tc main_arg1) from by keep_piece pL8c)).trans (rk_arg1_34 m c)
theorem rk_arg1_36 (c : Dev nD) : U36 m c (Proc.devRef .tc main_arg1) = U0 m c (Proc.devRef .tc main_arg1) :=
  ((show U36 m c (Proc.devRef .tc main_arg1) = U35 m c (Proc.devRef .tc main_arg1) from by keep_piece pL9a)).trans (rk_arg1_35 m c)

theorem rk_arg9_1 (c : Dev nD) : U1 m c (Proc.devRef .tc main_arg9) = U0 m c (Proc.devRef .tc main_arg9) :=
  (show U1 m c (Proc.devRef .tc main_arg9) = U0 m c (Proc.devRef .tc main_arg9) from by keep_piece pP0a)
theorem rk_arg9_2 (c : Dev nD) : U2 m c (Proc.devRef .tc main_arg9) = U0 m c (Proc.devRef .tc main_arg9) :=
  ((show U2 m c (Proc.devRef .tc main_arg9) = U1 m c (Proc.devRef .tc main_arg9) from by keep_piece pP0b)).trans (rk_arg9_1 m c)
theorem rk_arg9_3 (c : Dev nD) : U3 m c (Proc.devRef .tc main_arg9) = U0 m c (Proc.devRef .tc main_arg9) :=
  ((show U3 m c (Proc.devRef .tc main_arg9) = U2 m c (Proc.devRef .tc main_arg9) from by keep_piece pP0c)).trans (rk_arg9_2 m c)
theorem rk_arg9_4 (c : Dev nD) : U4 m c (Proc.devRef .tc main_arg9) = U0 m c (Proc.devRef .tc main_arg9) :=
  ((show U4 m c (Proc.devRef .tc main_arg9) = U3 m c (Proc.devRef .tc main_arg9) from by keep_piece pP0d)).trans (rk_arg9_3 m c)
theorem rk_arg9_5 (c : Dev nD) : U5 m c (Proc.devRef .tc main_arg9) = U0 m c (Proc.devRef .tc main_arg9) :=
  ((show U5 m c (Proc.devRef .tc main_arg9) = U4 m c (Proc.devRef .tc main_arg9) from by keep_piece pF1a)).trans (rk_arg9_4 m c)
theorem rk_arg9_6 (c : Dev nD) : U6 m c (Proc.devRef .tc main_arg9) = U0 m c (Proc.devRef .tc main_arg9) :=
  ((show U6 m c (Proc.devRef .tc main_arg9) = U5 m c (Proc.devRef .tc main_arg9) from by keep_piece pF1b)).trans (rk_arg9_5 m c)
theorem rk_arg9_7 (c : Dev nD) : U7 m c (Proc.devRef .tc main_arg9) = U0 m c (Proc.devRef .tc main_arg9) :=
  ((show U7 m c (Proc.devRef .tc main_arg9) = U6 m c (Proc.devRef .tc main_arg9) from by keep_piece pF2)).trans (rk_arg9_6 m c)
theorem rk_arg9_8 (c : Dev nD) : U8 m c (Proc.devRef .tc main_arg9) = U0 m c (Proc.devRef .tc main_arg9) :=
  ((show U8 m c (Proc.devRef .tc main_arg9) = U7 m c (Proc.devRef .tc main_arg9) from by keep_piece pMk)).trans (rk_arg9_7 m c)
theorem rk_arg9_9 (c : Dev nD) : U9 m c (Proc.devRef .tc main_arg9) = U0 m c (Proc.devRef .tc main_arg9) :=
  ((show U9 m c (Proc.devRef .tc main_arg9) = U8 m c (Proc.devRef .tc main_arg9) from by keep_piece pL0a)).trans (rk_arg9_8 m c)
theorem rk_arg9_10 (c : Dev nD) : U10 m c (Proc.devRef .tc main_arg9) = U0 m c (Proc.devRef .tc main_arg9) :=
  ((show U10 m c (Proc.devRef .tc main_arg9) = U9 m c (Proc.devRef .tc main_arg9) from by keep_piece pL0b)).trans (rk_arg9_9 m c)
theorem rk_arg9_11 (c : Dev nD) : U11 m c (Proc.devRef .tc main_arg9) = U0 m c (Proc.devRef .tc main_arg9) :=
  ((show U11 m c (Proc.devRef .tc main_arg9) = U10 m c (Proc.devRef .tc main_arg9) from by keep_piece pL0c)).trans (rk_arg9_10 m c)
theorem rk_arg9_12 (c : Dev nD) : U12 m c (Proc.devRef .tc main_arg9) = U0 m c (Proc.devRef .tc main_arg9) :=
  ((show U12 m c (Proc.devRef .tc main_arg9) = U11 m c (Proc.devRef .tc main_arg9) from by keep_piece pL1a)).trans (rk_arg9_11 m c)
theorem rk_arg9_13 (c : Dev nD) : U13 m c (Proc.devRef .tc main_arg9) = U0 m c (Proc.devRef .tc main_arg9) :=
  ((show U13 m c (Proc.devRef .tc main_arg9) = U12 m c (Proc.devRef .tc main_arg9) from by keep_piece pL1b)).trans (rk_arg9_12 m c)
theorem rk_arg9_14 (c : Dev nD) : U14 m c (Proc.devRef .tc main_arg9) = U0 m c (Proc.devRef .tc main_arg9) :=
  ((show U14 m c (Proc.devRef .tc main_arg9) = U13 m c (Proc.devRef .tc main_arg9) from by keep_piece pL1c)).trans (rk_arg9_13 m c)
theorem rk_arg9_15 (c : Dev nD) : U15 m c (Proc.devRef .tc main_arg9) = U0 m c (Proc.devRef .tc main_arg9) :=
  ((show U15 m c (Proc.devRef .tc main_arg9) = U14 m c (Proc.devRef .tc main_arg9) from by keep_piece pL2a)).trans (rk_arg9_14 m c)
theorem rk_arg9_16 (c : Dev nD) : U16 m c (Proc.devRef .tc main_arg9) = U0 m c (Proc.devRef .tc main_arg9) :=
  ((show U16 m c (Proc.devRef .tc main_arg9) = U15 m c (Proc.devRef .tc main_arg9) from by keep_piece pL2b)).trans (rk_arg9_15 m c)
theorem rk_arg9_17 (c : Dev nD) : U17 m c (Proc.devRef .tc main_arg9) = U0 m c (Proc.devRef .tc main_arg9) :=
  ((show U17 m c (Proc.devRef .tc main_arg9) = U16 m c (Proc.devRef .tc main_arg9) from by keep_piece pL2c)).trans (rk_arg9_16 m c)
theorem rk_arg9_18 (c : Dev nD) : U18 m c (Proc.devRef .tc main_arg9) = U0 m c (Proc.devRef .tc main_arg9) :=
  ((show U18 m c (Proc.devRef .tc main_arg9) = U17 m c (Proc.devRef .tc main_arg9) from by keep_piece pL3a)).trans (rk_arg9_17 m c)
theorem rk_arg9_19 (c : Dev nD) : U19 m c (Proc.devRef .tc main_arg9) = U0 m c (Proc.devRef .tc main_arg9) :=
  ((show U19 m c (Proc.devRef .tc main_arg9) = U18 m c (Proc.devRef .tc main_arg9) from by keep_piece pL3b)).trans (rk_arg9_18 m c)
theorem rk_arg9_20 (c : Dev nD) : U20 m c (Proc.devRef .tc main_arg9) = U0 m c (Proc.devRef .tc main_arg9) :=
  ((show U20 m c (Proc.devRef .tc main_arg9) = U19 m c (Proc.devRef .tc main_arg9) from by keep_piece pL3c)).trans (rk_arg9_19 m c)
theorem rk_arg9_21 (c : Dev nD) : U21 m c (Proc.devRef .tc main_arg9) = U0 m c (Proc.devRef .tc main_arg9) :=
  ((show U21 m c (Proc.devRef .tc main_arg9) = U20 m c (Proc.devRef .tc main_arg9) from by keep_piece pL4a)).trans (rk_arg9_20 m c)
theorem rk_arg9_22 (c : Dev nD) : U22 m c (Proc.devRef .tc main_arg9) = U0 m c (Proc.devRef .tc main_arg9) :=
  ((show U22 m c (Proc.devRef .tc main_arg9) = U21 m c (Proc.devRef .tc main_arg9) from by keep_piece pL4b)).trans (rk_arg9_21 m c)
theorem rk_arg9_23 (c : Dev nD) : U23 m c (Proc.devRef .tc main_arg9) = U0 m c (Proc.devRef .tc main_arg9) :=
  ((show U23 m c (Proc.devRef .tc main_arg9) = U22 m c (Proc.devRef .tc main_arg9) from by keep_piece pL4c)).trans (rk_arg9_22 m c)
theorem rk_arg9_24 (c : Dev nD) : U24 m c (Proc.devRef .tc main_arg9) = U0 m c (Proc.devRef .tc main_arg9) :=
  ((show U24 m c (Proc.devRef .tc main_arg9) = U23 m c (Proc.devRef .tc main_arg9) from by keep_piece pL5a)).trans (rk_arg9_23 m c)
theorem rk_arg9_25 (c : Dev nD) : U25 m c (Proc.devRef .tc main_arg9) = U0 m c (Proc.devRef .tc main_arg9) :=
  ((show U25 m c (Proc.devRef .tc main_arg9) = U24 m c (Proc.devRef .tc main_arg9) from by keep_piece pL5b)).trans (rk_arg9_24 m c)
theorem rk_arg9_26 (c : Dev nD) : U26 m c (Proc.devRef .tc main_arg9) = U0 m c (Proc.devRef .tc main_arg9) :=
  ((show U26 m c (Proc.devRef .tc main_arg9) = U25 m c (Proc.devRef .tc main_arg9) from by keep_piece pL5c)).trans (rk_arg9_25 m c)
theorem rk_arg9_27 (c : Dev nD) : U27 m c (Proc.devRef .tc main_arg9) = U0 m c (Proc.devRef .tc main_arg9) :=
  ((show U27 m c (Proc.devRef .tc main_arg9) = U26 m c (Proc.devRef .tc main_arg9) from by keep_piece pL6a)).trans (rk_arg9_26 m c)
theorem rk_arg9_28 (c : Dev nD) : U28 m c (Proc.devRef .tc main_arg9) = U0 m c (Proc.devRef .tc main_arg9) :=
  ((show U28 m c (Proc.devRef .tc main_arg9) = U27 m c (Proc.devRef .tc main_arg9) from by keep_piece pL6b)).trans (rk_arg9_27 m c)
theorem rk_arg9_29 (c : Dev nD) : U29 m c (Proc.devRef .tc main_arg9) = U0 m c (Proc.devRef .tc main_arg9) :=
  ((show U29 m c (Proc.devRef .tc main_arg9) = U28 m c (Proc.devRef .tc main_arg9) from by keep_piece pL6c)).trans (rk_arg9_28 m c)
theorem rk_arg9_30 (c : Dev nD) : U30 m c (Proc.devRef .tc main_arg9) = U0 m c (Proc.devRef .tc main_arg9) :=
  ((show U30 m c (Proc.devRef .tc main_arg9) = U29 m c (Proc.devRef .tc main_arg9) from by keep_piece pL7a)).trans (rk_arg9_29 m c)
theorem rk_arg9_31 (c : Dev nD) : U31 m c (Proc.devRef .tc main_arg9) = U0 m c (Proc.devRef .tc main_arg9) :=
  ((show U31 m c (Proc.devRef .tc main_arg9) = U30 m c (Proc.devRef .tc main_arg9) from by keep_piece pL7b)).trans (rk_arg9_30 m c)
theorem rk_arg9_32 (c : Dev nD) : U32 m c (Proc.devRef .tc main_arg9) = U0 m c (Proc.devRef .tc main_arg9) :=
  ((show U32 m c (Proc.devRef .tc main_arg9) = U31 m c (Proc.devRef .tc main_arg9) from by keep_piece pL7c)).trans (rk_arg9_31 m c)
theorem rk_arg9_33 (c : Dev nD) : U33 m c (Proc.devRef .tc main_arg9) = U0 m c (Proc.devRef .tc main_arg9) :=
  ((show U33 m c (Proc.devRef .tc main_arg9) = U32 m c (Proc.devRef .tc main_arg9) from by keep_piece pL8a)).trans (rk_arg9_32 m c)
theorem rk_arg9_34 (c : Dev nD) : U34 m c (Proc.devRef .tc main_arg9) = U0 m c (Proc.devRef .tc main_arg9) :=
  ((show U34 m c (Proc.devRef .tc main_arg9) = U33 m c (Proc.devRef .tc main_arg9) from by keep_piece pL8b)).trans (rk_arg9_33 m c)
theorem rk_arg9_35 (c : Dev nD) : U35 m c (Proc.devRef .tc main_arg9) = U0 m c (Proc.devRef .tc main_arg9) :=
  ((show U35 m c (Proc.devRef .tc main_arg9) = U34 m c (Proc.devRef .tc main_arg9) from by keep_piece pL8c)).trans (rk_arg9_34 m c)

theorem rk_arg10_1 (c : Dev nD) : U1 m c (Proc.devRef .tc main_arg10) = U0 m c (Proc.devRef .tc main_arg10) :=
  (show U1 m c (Proc.devRef .tc main_arg10) = U0 m c (Proc.devRef .tc main_arg10) from by keep_piece pP0a)
theorem rk_arg10_2 (c : Dev nD) : U2 m c (Proc.devRef .tc main_arg10) = U0 m c (Proc.devRef .tc main_arg10) :=
  ((show U2 m c (Proc.devRef .tc main_arg10) = U1 m c (Proc.devRef .tc main_arg10) from by keep_piece pP0b)).trans (rk_arg10_1 m c)
theorem rk_arg10_3 (c : Dev nD) : U3 m c (Proc.devRef .tc main_arg10) = U0 m c (Proc.devRef .tc main_arg10) :=
  ((show U3 m c (Proc.devRef .tc main_arg10) = U2 m c (Proc.devRef .tc main_arg10) from by keep_piece pP0c)).trans (rk_arg10_2 m c)
theorem rk_arg10_4 (c : Dev nD) : U4 m c (Proc.devRef .tc main_arg10) = U0 m c (Proc.devRef .tc main_arg10) :=
  ((show U4 m c (Proc.devRef .tc main_arg10) = U3 m c (Proc.devRef .tc main_arg10) from by keep_piece pP0d)).trans (rk_arg10_3 m c)
theorem rk_arg10_5 (c : Dev nD) : U5 m c (Proc.devRef .tc main_arg10) = U0 m c (Proc.devRef .tc main_arg10) :=
  ((show U5 m c (Proc.devRef .tc main_arg10) = U4 m c (Proc.devRef .tc main_arg10) from by keep_piece pF1a)).trans (rk_arg10_4 m c)
theorem rk_arg10_6 (c : Dev nD) : U6 m c (Proc.devRef .tc main_arg10) = U0 m c (Proc.devRef .tc main_arg10) :=
  ((show U6 m c (Proc.devRef .tc main_arg10) = U5 m c (Proc.devRef .tc main_arg10) from by keep_piece pF1b)).trans (rk_arg10_5 m c)
theorem rk_arg10_7 (c : Dev nD) : U7 m c (Proc.devRef .tc main_arg10) = U0 m c (Proc.devRef .tc main_arg10) :=
  ((show U7 m c (Proc.devRef .tc main_arg10) = U6 m c (Proc.devRef .tc main_arg10) from by keep_piece pF2)).trans (rk_arg10_6 m c)
theorem rk_arg10_8 (c : Dev nD) : U8 m c (Proc.devRef .tc main_arg10) = U0 m c (Proc.devRef .tc main_arg10) :=
  ((show U8 m c (Proc.devRef .tc main_arg10) = U7 m c (Proc.devRef .tc main_arg10) from by keep_piece pMk)).trans (rk_arg10_7 m c)
theorem rk_arg10_9 (c : Dev nD) : U9 m c (Proc.devRef .tc main_arg10) = U0 m c (Proc.devRef .tc main_arg10) :=
  ((show U9 m c (Proc.devRef .tc main_arg10) = U8 m c (Proc.devRef .tc main_arg10) from by keep_piece pL0a)).trans (rk_arg10_8 m c)
theorem rk_arg10_10 (c : Dev nD) : U10 m c (Proc.devRef .tc main_arg10) = U0 m c (Proc.devRef .tc main_arg10) :=
  ((show U10 m c (Proc.devRef .tc main_arg10) = U9 m c (Proc.devRef .tc main_arg10) from by keep_piece pL0b)).trans (rk_arg10_9 m c)
theorem rk_arg10_11 (c : Dev nD) : U11 m c (Proc.devRef .tc main_arg10) = U0 m c (Proc.devRef .tc main_arg10) :=
  ((show U11 m c (Proc.devRef .tc main_arg10) = U10 m c (Proc.devRef .tc main_arg10) from by keep_piece pL0c)).trans (rk_arg10_10 m c)
theorem rk_arg10_12 (c : Dev nD) : U12 m c (Proc.devRef .tc main_arg10) = U0 m c (Proc.devRef .tc main_arg10) :=
  ((show U12 m c (Proc.devRef .tc main_arg10) = U11 m c (Proc.devRef .tc main_arg10) from by keep_piece pL1a)).trans (rk_arg10_11 m c)
theorem rk_arg10_13 (c : Dev nD) : U13 m c (Proc.devRef .tc main_arg10) = U0 m c (Proc.devRef .tc main_arg10) :=
  ((show U13 m c (Proc.devRef .tc main_arg10) = U12 m c (Proc.devRef .tc main_arg10) from by keep_piece pL1b)).trans (rk_arg10_12 m c)
theorem rk_arg10_14 (c : Dev nD) : U14 m c (Proc.devRef .tc main_arg10) = U0 m c (Proc.devRef .tc main_arg10) :=
  ((show U14 m c (Proc.devRef .tc main_arg10) = U13 m c (Proc.devRef .tc main_arg10) from by keep_piece pL1c)).trans (rk_arg10_13 m c)
theorem rk_arg10_15 (c : Dev nD) : U15 m c (Proc.devRef .tc main_arg10) = U0 m c (Proc.devRef .tc main_arg10) :=
  ((show U15 m c (Proc.devRef .tc main_arg10) = U14 m c (Proc.devRef .tc main_arg10) from by keep_piece pL2a)).trans (rk_arg10_14 m c)
theorem rk_arg10_16 (c : Dev nD) : U16 m c (Proc.devRef .tc main_arg10) = U0 m c (Proc.devRef .tc main_arg10) :=
  ((show U16 m c (Proc.devRef .tc main_arg10) = U15 m c (Proc.devRef .tc main_arg10) from by keep_piece pL2b)).trans (rk_arg10_15 m c)
theorem rk_arg10_17 (c : Dev nD) : U17 m c (Proc.devRef .tc main_arg10) = U0 m c (Proc.devRef .tc main_arg10) :=
  ((show U17 m c (Proc.devRef .tc main_arg10) = U16 m c (Proc.devRef .tc main_arg10) from by keep_piece pL2c)).trans (rk_arg10_16 m c)
theorem rk_arg10_18 (c : Dev nD) : U18 m c (Proc.devRef .tc main_arg10) = U0 m c (Proc.devRef .tc main_arg10) :=
  ((show U18 m c (Proc.devRef .tc main_arg10) = U17 m c (Proc.devRef .tc main_arg10) from by keep_piece pL3a)).trans (rk_arg10_17 m c)
theorem rk_arg10_19 (c : Dev nD) : U19 m c (Proc.devRef .tc main_arg10) = U0 m c (Proc.devRef .tc main_arg10) :=
  ((show U19 m c (Proc.devRef .tc main_arg10) = U18 m c (Proc.devRef .tc main_arg10) from by keep_piece pL3b)).trans (rk_arg10_18 m c)
theorem rk_arg10_20 (c : Dev nD) : U20 m c (Proc.devRef .tc main_arg10) = U0 m c (Proc.devRef .tc main_arg10) :=
  ((show U20 m c (Proc.devRef .tc main_arg10) = U19 m c (Proc.devRef .tc main_arg10) from by keep_piece pL3c)).trans (rk_arg10_19 m c)
theorem rk_arg10_21 (c : Dev nD) : U21 m c (Proc.devRef .tc main_arg10) = U0 m c (Proc.devRef .tc main_arg10) :=
  ((show U21 m c (Proc.devRef .tc main_arg10) = U20 m c (Proc.devRef .tc main_arg10) from by keep_piece pL4a)).trans (rk_arg10_20 m c)
theorem rk_arg10_22 (c : Dev nD) : U22 m c (Proc.devRef .tc main_arg10) = U0 m c (Proc.devRef .tc main_arg10) :=
  ((show U22 m c (Proc.devRef .tc main_arg10) = U21 m c (Proc.devRef .tc main_arg10) from by keep_piece pL4b)).trans (rk_arg10_21 m c)
theorem rk_arg10_23 (c : Dev nD) : U23 m c (Proc.devRef .tc main_arg10) = U0 m c (Proc.devRef .tc main_arg10) :=
  ((show U23 m c (Proc.devRef .tc main_arg10) = U22 m c (Proc.devRef .tc main_arg10) from by keep_piece pL4c)).trans (rk_arg10_22 m c)
theorem rk_arg10_24 (c : Dev nD) : U24 m c (Proc.devRef .tc main_arg10) = U0 m c (Proc.devRef .tc main_arg10) :=
  ((show U24 m c (Proc.devRef .tc main_arg10) = U23 m c (Proc.devRef .tc main_arg10) from by keep_piece pL5a)).trans (rk_arg10_23 m c)
theorem rk_arg10_25 (c : Dev nD) : U25 m c (Proc.devRef .tc main_arg10) = U0 m c (Proc.devRef .tc main_arg10) :=
  ((show U25 m c (Proc.devRef .tc main_arg10) = U24 m c (Proc.devRef .tc main_arg10) from by keep_piece pL5b)).trans (rk_arg10_24 m c)
theorem rk_arg10_26 (c : Dev nD) : U26 m c (Proc.devRef .tc main_arg10) = U0 m c (Proc.devRef .tc main_arg10) :=
  ((show U26 m c (Proc.devRef .tc main_arg10) = U25 m c (Proc.devRef .tc main_arg10) from by keep_piece pL5c)).trans (rk_arg10_25 m c)
theorem rk_arg10_27 (c : Dev nD) : U27 m c (Proc.devRef .tc main_arg10) = U0 m c (Proc.devRef .tc main_arg10) :=
  ((show U27 m c (Proc.devRef .tc main_arg10) = U26 m c (Proc.devRef .tc main_arg10) from by keep_piece pL6a)).trans (rk_arg10_26 m c)
theorem rk_arg10_28 (c : Dev nD) : U28 m c (Proc.devRef .tc main_arg10) = U0 m c (Proc.devRef .tc main_arg10) :=
  ((show U28 m c (Proc.devRef .tc main_arg10) = U27 m c (Proc.devRef .tc main_arg10) from by keep_piece pL6b)).trans (rk_arg10_27 m c)
theorem rk_arg10_29 (c : Dev nD) : U29 m c (Proc.devRef .tc main_arg10) = U0 m c (Proc.devRef .tc main_arg10) :=
  ((show U29 m c (Proc.devRef .tc main_arg10) = U28 m c (Proc.devRef .tc main_arg10) from by keep_piece pL6c)).trans (rk_arg10_28 m c)
theorem rk_arg10_30 (c : Dev nD) : U30 m c (Proc.devRef .tc main_arg10) = U0 m c (Proc.devRef .tc main_arg10) :=
  ((show U30 m c (Proc.devRef .tc main_arg10) = U29 m c (Proc.devRef .tc main_arg10) from by keep_piece pL7a)).trans (rk_arg10_29 m c)
theorem rk_arg10_31 (c : Dev nD) : U31 m c (Proc.devRef .tc main_arg10) = U0 m c (Proc.devRef .tc main_arg10) :=
  ((show U31 m c (Proc.devRef .tc main_arg10) = U30 m c (Proc.devRef .tc main_arg10) from by keep_piece pL7b)).trans (rk_arg10_30 m c)
theorem rk_arg10_32 (c : Dev nD) : U32 m c (Proc.devRef .tc main_arg10) = U0 m c (Proc.devRef .tc main_arg10) :=
  ((show U32 m c (Proc.devRef .tc main_arg10) = U31 m c (Proc.devRef .tc main_arg10) from by keep_piece pL7c)).trans (rk_arg10_31 m c)
theorem rk_arg10_33 (c : Dev nD) : U33 m c (Proc.devRef .tc main_arg10) = U0 m c (Proc.devRef .tc main_arg10) :=
  ((show U33 m c (Proc.devRef .tc main_arg10) = U32 m c (Proc.devRef .tc main_arg10) from by keep_piece pL8a)).trans (rk_arg10_32 m c)
theorem rk_arg10_34 (c : Dev nD) : U34 m c (Proc.devRef .tc main_arg10) = U0 m c (Proc.devRef .tc main_arg10) :=
  ((show U34 m c (Proc.devRef .tc main_arg10) = U33 m c (Proc.devRef .tc main_arg10) from by keep_piece pL8b)).trans (rk_arg10_33 m c)
theorem rk_arg10_35 (c : Dev nD) : U35 m c (Proc.devRef .tc main_arg10) = U0 m c (Proc.devRef .tc main_arg10) :=
  ((show U35 m c (Proc.devRef .tc main_arg10) = U34 m c (Proc.devRef .tc main_arg10) from by keep_piece pL8c)).trans (rk_arg10_34 m c)

theorem rk_v3_2 (c : Dev nD) : U2 m c (Proc.devRef .tc main_v3) = U1 m c (Proc.devRef .tc main_v3) :=
  (show U2 m c (Proc.devRef .tc main_v3) = U1 m c (Proc.devRef .tc main_v3) from by keep_piece pP0b)
theorem rk_v3_3 (c : Dev nD) : U3 m c (Proc.devRef .tc main_v3) = U1 m c (Proc.devRef .tc main_v3) :=
  ((show U3 m c (Proc.devRef .tc main_v3) = U2 m c (Proc.devRef .tc main_v3) from by keep_piece pP0c)).trans (rk_v3_2 m c)
theorem rk_v3_4 (c : Dev nD) : U4 m c (Proc.devRef .tc main_v3) = U1 m c (Proc.devRef .tc main_v3) :=
  ((show U4 m c (Proc.devRef .tc main_v3) = U3 m c (Proc.devRef .tc main_v3) from by keep_piece pP0d)).trans (rk_v3_3 m c)
theorem rk_v3_5 (c : Dev nD) : U5 m c (Proc.devRef .tc main_v3) = U1 m c (Proc.devRef .tc main_v3) :=
  ((show U5 m c (Proc.devRef .tc main_v3) = U4 m c (Proc.devRef .tc main_v3) from by keep_piece pF1a)).trans (rk_v3_4 m c)
theorem rk_v3_6 (c : Dev nD) : U6 m c (Proc.devRef .tc main_v3) = U1 m c (Proc.devRef .tc main_v3) :=
  ((show U6 m c (Proc.devRef .tc main_v3) = U5 m c (Proc.devRef .tc main_v3) from by keep_piece pF1b)).trans (rk_v3_5 m c)
theorem rk_v3_7 (c : Dev nD) : U7 m c (Proc.devRef .tc main_v3) = U1 m c (Proc.devRef .tc main_v3) :=
  ((show U7 m c (Proc.devRef .tc main_v3) = U6 m c (Proc.devRef .tc main_v3) from by keep_piece pF2)).trans (rk_v3_6 m c)
theorem rk_v3_8 (c : Dev nD) : U8 m c (Proc.devRef .tc main_v3) = U1 m c (Proc.devRef .tc main_v3) :=
  ((show U8 m c (Proc.devRef .tc main_v3) = U7 m c (Proc.devRef .tc main_v3) from by keep_piece pMk)).trans (rk_v3_7 m c)
theorem rk_v3_9 (c : Dev nD) : U9 m c (Proc.devRef .tc main_v3) = U1 m c (Proc.devRef .tc main_v3) :=
  ((show U9 m c (Proc.devRef .tc main_v3) = U8 m c (Proc.devRef .tc main_v3) from by keep_piece pL0a)).trans (rk_v3_8 m c)
theorem rk_v3_10 (c : Dev nD) : U10 m c (Proc.devRef .tc main_v3) = U1 m c (Proc.devRef .tc main_v3) :=
  ((show U10 m c (Proc.devRef .tc main_v3) = U9 m c (Proc.devRef .tc main_v3) from by keep_piece pL0b)).trans (rk_v3_9 m c)
theorem rk_v3_11 (c : Dev nD) : U11 m c (Proc.devRef .tc main_v3) = U1 m c (Proc.devRef .tc main_v3) :=
  ((show U11 m c (Proc.devRef .tc main_v3) = U10 m c (Proc.devRef .tc main_v3) from by keep_piece pL0c)).trans (rk_v3_10 m c)
theorem rk_v3_12 (c : Dev nD) : U12 m c (Proc.devRef .tc main_v3) = U1 m c (Proc.devRef .tc main_v3) :=
  ((show U12 m c (Proc.devRef .tc main_v3) = U11 m c (Proc.devRef .tc main_v3) from by keep_piece pL1a)).trans (rk_v3_11 m c)
theorem rk_v3_13 (c : Dev nD) : U13 m c (Proc.devRef .tc main_v3) = U1 m c (Proc.devRef .tc main_v3) :=
  ((show U13 m c (Proc.devRef .tc main_v3) = U12 m c (Proc.devRef .tc main_v3) from by keep_piece pL1b)).trans (rk_v3_12 m c)
theorem rk_v3_14 (c : Dev nD) : U14 m c (Proc.devRef .tc main_v3) = U1 m c (Proc.devRef .tc main_v3) :=
  ((show U14 m c (Proc.devRef .tc main_v3) = U13 m c (Proc.devRef .tc main_v3) from by keep_piece pL1c)).trans (rk_v3_13 m c)
theorem rk_v3_15 (c : Dev nD) : U15 m c (Proc.devRef .tc main_v3) = U1 m c (Proc.devRef .tc main_v3) :=
  ((show U15 m c (Proc.devRef .tc main_v3) = U14 m c (Proc.devRef .tc main_v3) from by keep_piece pL2a)).trans (rk_v3_14 m c)
theorem rk_v3_16 (c : Dev nD) : U16 m c (Proc.devRef .tc main_v3) = U1 m c (Proc.devRef .tc main_v3) :=
  ((show U16 m c (Proc.devRef .tc main_v3) = U15 m c (Proc.devRef .tc main_v3) from by keep_piece pL2b)).trans (rk_v3_15 m c)
theorem rk_v3_17 (c : Dev nD) : U17 m c (Proc.devRef .tc main_v3) = U1 m c (Proc.devRef .tc main_v3) :=
  ((show U17 m c (Proc.devRef .tc main_v3) = U16 m c (Proc.devRef .tc main_v3) from by keep_piece pL2c)).trans (rk_v3_16 m c)
theorem rk_v3_18 (c : Dev nD) : U18 m c (Proc.devRef .tc main_v3) = U1 m c (Proc.devRef .tc main_v3) :=
  ((show U18 m c (Proc.devRef .tc main_v3) = U17 m c (Proc.devRef .tc main_v3) from by keep_piece pL3a)).trans (rk_v3_17 m c)
theorem rk_v3_19 (c : Dev nD) : U19 m c (Proc.devRef .tc main_v3) = U1 m c (Proc.devRef .tc main_v3) :=
  ((show U19 m c (Proc.devRef .tc main_v3) = U18 m c (Proc.devRef .tc main_v3) from by keep_piece pL3b)).trans (rk_v3_18 m c)
theorem rk_v3_20 (c : Dev nD) : U20 m c (Proc.devRef .tc main_v3) = U1 m c (Proc.devRef .tc main_v3) :=
  ((show U20 m c (Proc.devRef .tc main_v3) = U19 m c (Proc.devRef .tc main_v3) from by keep_piece pL3c)).trans (rk_v3_19 m c)
theorem rk_v3_21 (c : Dev nD) : U21 m c (Proc.devRef .tc main_v3) = U1 m c (Proc.devRef .tc main_v3) :=
  ((show U21 m c (Proc.devRef .tc main_v3) = U20 m c (Proc.devRef .tc main_v3) from by keep_piece pL4a)).trans (rk_v3_20 m c)
theorem rk_v3_22 (c : Dev nD) : U22 m c (Proc.devRef .tc main_v3) = U1 m c (Proc.devRef .tc main_v3) :=
  ((show U22 m c (Proc.devRef .tc main_v3) = U21 m c (Proc.devRef .tc main_v3) from by keep_piece pL4b)).trans (rk_v3_21 m c)
theorem rk_v3_23 (c : Dev nD) : U23 m c (Proc.devRef .tc main_v3) = U1 m c (Proc.devRef .tc main_v3) :=
  ((show U23 m c (Proc.devRef .tc main_v3) = U22 m c (Proc.devRef .tc main_v3) from by keep_piece pL4c)).trans (rk_v3_22 m c)
theorem rk_v3_24 (c : Dev nD) : U24 m c (Proc.devRef .tc main_v3) = U1 m c (Proc.devRef .tc main_v3) :=
  ((show U24 m c (Proc.devRef .tc main_v3) = U23 m c (Proc.devRef .tc main_v3) from by keep_piece pL5a)).trans (rk_v3_23 m c)
theorem rk_v3_25 (c : Dev nD) : U25 m c (Proc.devRef .tc main_v3) = U1 m c (Proc.devRef .tc main_v3) :=
  ((show U25 m c (Proc.devRef .tc main_v3) = U24 m c (Proc.devRef .tc main_v3) from by keep_piece pL5b)).trans (rk_v3_24 m c)
theorem rk_v3_26 (c : Dev nD) : U26 m c (Proc.devRef .tc main_v3) = U1 m c (Proc.devRef .tc main_v3) :=
  ((show U26 m c (Proc.devRef .tc main_v3) = U25 m c (Proc.devRef .tc main_v3) from by keep_piece pL5c)).trans (rk_v3_25 m c)
theorem rk_v3_27 (c : Dev nD) : U27 m c (Proc.devRef .tc main_v3) = U1 m c (Proc.devRef .tc main_v3) :=
  ((show U27 m c (Proc.devRef .tc main_v3) = U26 m c (Proc.devRef .tc main_v3) from by keep_piece pL6a)).trans (rk_v3_26 m c)
theorem rk_v3_28 (c : Dev nD) : U28 m c (Proc.devRef .tc main_v3) = U1 m c (Proc.devRef .tc main_v3) :=
  ((show U28 m c (Proc.devRef .tc main_v3) = U27 m c (Proc.devRef .tc main_v3) from by keep_piece pL6b)).trans (rk_v3_27 m c)
theorem rk_v3_29 (c : Dev nD) : U29 m c (Proc.devRef .tc main_v3) = U1 m c (Proc.devRef .tc main_v3) :=
  ((show U29 m c (Proc.devRef .tc main_v3) = U28 m c (Proc.devRef .tc main_v3) from by keep_piece pL6c)).trans (rk_v3_28 m c)
theorem rk_v3_30 (c : Dev nD) : U30 m c (Proc.devRef .tc main_v3) = U1 m c (Proc.devRef .tc main_v3) :=
  ((show U30 m c (Proc.devRef .tc main_v3) = U29 m c (Proc.devRef .tc main_v3) from by keep_piece pL7a)).trans (rk_v3_29 m c)
theorem rk_v3_31 (c : Dev nD) : U31 m c (Proc.devRef .tc main_v3) = U1 m c (Proc.devRef .tc main_v3) :=
  ((show U31 m c (Proc.devRef .tc main_v3) = U30 m c (Proc.devRef .tc main_v3) from by keep_piece pL7b)).trans (rk_v3_30 m c)
theorem rk_v3_32 (c : Dev nD) : U32 m c (Proc.devRef .tc main_v3) = U1 m c (Proc.devRef .tc main_v3) :=
  ((show U32 m c (Proc.devRef .tc main_v3) = U31 m c (Proc.devRef .tc main_v3) from by keep_piece pL7c)).trans (rk_v3_31 m c)
theorem rk_v3_33 (c : Dev nD) : U33 m c (Proc.devRef .tc main_v3) = U1 m c (Proc.devRef .tc main_v3) :=
  ((show U33 m c (Proc.devRef .tc main_v3) = U32 m c (Proc.devRef .tc main_v3) from by keep_piece pL8a)).trans (rk_v3_32 m c)
theorem rk_v3_34 (c : Dev nD) : U34 m c (Proc.devRef .tc main_v3) = U1 m c (Proc.devRef .tc main_v3) :=
  ((show U34 m c (Proc.devRef .tc main_v3) = U33 m c (Proc.devRef .tc main_v3) from by keep_piece pL8b)).trans (rk_v3_33 m c)
theorem rk_v3_35 (c : Dev nD) : U35 m c (Proc.devRef .tc main_v3) = U1 m c (Proc.devRef .tc main_v3) :=
  ((show U35 m c (Proc.devRef .tc main_v3) = U34 m c (Proc.devRef .tc main_v3) from by keep_piece pL8c)).trans (rk_v3_34 m c)

theorem rk_v6_2 (c : Dev nD) : U2 m c (Proc.devRef .tc main_v6) = U1 m c (Proc.devRef .tc main_v6) :=
  (show U2 m c (Proc.devRef .tc main_v6) = U1 m c (Proc.devRef .tc main_v6) from by keep_piece pP0b)
theorem rk_v6_3 (c : Dev nD) : U3 m c (Proc.devRef .tc main_v6) = U1 m c (Proc.devRef .tc main_v6) :=
  ((show U3 m c (Proc.devRef .tc main_v6) = U2 m c (Proc.devRef .tc main_v6) from by keep_piece pP0c)).trans (rk_v6_2 m c)
theorem rk_v6_4 (c : Dev nD) : U4 m c (Proc.devRef .tc main_v6) = U1 m c (Proc.devRef .tc main_v6) :=
  ((show U4 m c (Proc.devRef .tc main_v6) = U3 m c (Proc.devRef .tc main_v6) from by keep_piece pP0d)).trans (rk_v6_3 m c)
theorem rk_v6_5 (c : Dev nD) : U5 m c (Proc.devRef .tc main_v6) = U1 m c (Proc.devRef .tc main_v6) :=
  ((show U5 m c (Proc.devRef .tc main_v6) = U4 m c (Proc.devRef .tc main_v6) from by keep_piece pF1a)).trans (rk_v6_4 m c)
theorem rk_v6_6 (c : Dev nD) : U6 m c (Proc.devRef .tc main_v6) = U1 m c (Proc.devRef .tc main_v6) :=
  ((show U6 m c (Proc.devRef .tc main_v6) = U5 m c (Proc.devRef .tc main_v6) from by keep_piece pF1b)).trans (rk_v6_5 m c)
theorem rk_v6_7 (c : Dev nD) : U7 m c (Proc.devRef .tc main_v6) = U1 m c (Proc.devRef .tc main_v6) :=
  ((show U7 m c (Proc.devRef .tc main_v6) = U6 m c (Proc.devRef .tc main_v6) from by keep_piece pF2)).trans (rk_v6_6 m c)
theorem rk_v6_8 (c : Dev nD) : U8 m c (Proc.devRef .tc main_v6) = U1 m c (Proc.devRef .tc main_v6) :=
  ((show U8 m c (Proc.devRef .tc main_v6) = U7 m c (Proc.devRef .tc main_v6) from by keep_piece pMk)).trans (rk_v6_7 m c)
theorem rk_v6_9 (c : Dev nD) : U9 m c (Proc.devRef .tc main_v6) = U1 m c (Proc.devRef .tc main_v6) :=
  ((show U9 m c (Proc.devRef .tc main_v6) = U8 m c (Proc.devRef .tc main_v6) from by keep_piece pL0a)).trans (rk_v6_8 m c)
theorem rk_v6_10 (c : Dev nD) : U10 m c (Proc.devRef .tc main_v6) = U1 m c (Proc.devRef .tc main_v6) :=
  ((show U10 m c (Proc.devRef .tc main_v6) = U9 m c (Proc.devRef .tc main_v6) from by keep_piece pL0b)).trans (rk_v6_9 m c)
theorem rk_v6_11 (c : Dev nD) : U11 m c (Proc.devRef .tc main_v6) = U1 m c (Proc.devRef .tc main_v6) :=
  ((show U11 m c (Proc.devRef .tc main_v6) = U10 m c (Proc.devRef .tc main_v6) from by keep_piece pL0c)).trans (rk_v6_10 m c)
theorem rk_v6_12 (c : Dev nD) : U12 m c (Proc.devRef .tc main_v6) = U1 m c (Proc.devRef .tc main_v6) :=
  ((show U12 m c (Proc.devRef .tc main_v6) = U11 m c (Proc.devRef .tc main_v6) from by keep_piece pL1a)).trans (rk_v6_11 m c)
theorem rk_v6_13 (c : Dev nD) : U13 m c (Proc.devRef .tc main_v6) = U1 m c (Proc.devRef .tc main_v6) :=
  ((show U13 m c (Proc.devRef .tc main_v6) = U12 m c (Proc.devRef .tc main_v6) from by keep_piece pL1b)).trans (rk_v6_12 m c)
theorem rk_v6_14 (c : Dev nD) : U14 m c (Proc.devRef .tc main_v6) = U1 m c (Proc.devRef .tc main_v6) :=
  ((show U14 m c (Proc.devRef .tc main_v6) = U13 m c (Proc.devRef .tc main_v6) from by keep_piece pL1c)).trans (rk_v6_13 m c)
theorem rk_v6_15 (c : Dev nD) : U15 m c (Proc.devRef .tc main_v6) = U1 m c (Proc.devRef .tc main_v6) :=
  ((show U15 m c (Proc.devRef .tc main_v6) = U14 m c (Proc.devRef .tc main_v6) from by keep_piece pL2a)).trans (rk_v6_14 m c)
theorem rk_v6_16 (c : Dev nD) : U16 m c (Proc.devRef .tc main_v6) = U1 m c (Proc.devRef .tc main_v6) :=
  ((show U16 m c (Proc.devRef .tc main_v6) = U15 m c (Proc.devRef .tc main_v6) from by keep_piece pL2b)).trans (rk_v6_15 m c)
theorem rk_v6_17 (c : Dev nD) : U17 m c (Proc.devRef .tc main_v6) = U1 m c (Proc.devRef .tc main_v6) :=
  ((show U17 m c (Proc.devRef .tc main_v6) = U16 m c (Proc.devRef .tc main_v6) from by keep_piece pL2c)).trans (rk_v6_16 m c)
theorem rk_v6_18 (c : Dev nD) : U18 m c (Proc.devRef .tc main_v6) = U1 m c (Proc.devRef .tc main_v6) :=
  ((show U18 m c (Proc.devRef .tc main_v6) = U17 m c (Proc.devRef .tc main_v6) from by keep_piece pL3a)).trans (rk_v6_17 m c)
theorem rk_v6_19 (c : Dev nD) : U19 m c (Proc.devRef .tc main_v6) = U1 m c (Proc.devRef .tc main_v6) :=
  ((show U19 m c (Proc.devRef .tc main_v6) = U18 m c (Proc.devRef .tc main_v6) from by keep_piece pL3b)).trans (rk_v6_18 m c)
theorem rk_v6_20 (c : Dev nD) : U20 m c (Proc.devRef .tc main_v6) = U1 m c (Proc.devRef .tc main_v6) :=
  ((show U20 m c (Proc.devRef .tc main_v6) = U19 m c (Proc.devRef .tc main_v6) from by keep_piece pL3c)).trans (rk_v6_19 m c)
theorem rk_v6_21 (c : Dev nD) : U21 m c (Proc.devRef .tc main_v6) = U1 m c (Proc.devRef .tc main_v6) :=
  ((show U21 m c (Proc.devRef .tc main_v6) = U20 m c (Proc.devRef .tc main_v6) from by keep_piece pL4a)).trans (rk_v6_20 m c)
theorem rk_v6_22 (c : Dev nD) : U22 m c (Proc.devRef .tc main_v6) = U1 m c (Proc.devRef .tc main_v6) :=
  ((show U22 m c (Proc.devRef .tc main_v6) = U21 m c (Proc.devRef .tc main_v6) from by keep_piece pL4b)).trans (rk_v6_21 m c)
theorem rk_v6_23 (c : Dev nD) : U23 m c (Proc.devRef .tc main_v6) = U1 m c (Proc.devRef .tc main_v6) :=
  ((show U23 m c (Proc.devRef .tc main_v6) = U22 m c (Proc.devRef .tc main_v6) from by keep_piece pL4c)).trans (rk_v6_22 m c)
theorem rk_v6_24 (c : Dev nD) : U24 m c (Proc.devRef .tc main_v6) = U1 m c (Proc.devRef .tc main_v6) :=
  ((show U24 m c (Proc.devRef .tc main_v6) = U23 m c (Proc.devRef .tc main_v6) from by keep_piece pL5a)).trans (rk_v6_23 m c)
theorem rk_v6_25 (c : Dev nD) : U25 m c (Proc.devRef .tc main_v6) = U1 m c (Proc.devRef .tc main_v6) :=
  ((show U25 m c (Proc.devRef .tc main_v6) = U24 m c (Proc.devRef .tc main_v6) from by keep_piece pL5b)).trans (rk_v6_24 m c)
theorem rk_v6_26 (c : Dev nD) : U26 m c (Proc.devRef .tc main_v6) = U1 m c (Proc.devRef .tc main_v6) :=
  ((show U26 m c (Proc.devRef .tc main_v6) = U25 m c (Proc.devRef .tc main_v6) from by keep_piece pL5c)).trans (rk_v6_25 m c)
theorem rk_v6_27 (c : Dev nD) : U27 m c (Proc.devRef .tc main_v6) = U1 m c (Proc.devRef .tc main_v6) :=
  ((show U27 m c (Proc.devRef .tc main_v6) = U26 m c (Proc.devRef .tc main_v6) from by keep_piece pL6a)).trans (rk_v6_26 m c)
theorem rk_v6_28 (c : Dev nD) : U28 m c (Proc.devRef .tc main_v6) = U1 m c (Proc.devRef .tc main_v6) :=
  ((show U28 m c (Proc.devRef .tc main_v6) = U27 m c (Proc.devRef .tc main_v6) from by keep_piece pL6b)).trans (rk_v6_27 m c)
theorem rk_v6_29 (c : Dev nD) : U29 m c (Proc.devRef .tc main_v6) = U1 m c (Proc.devRef .tc main_v6) :=
  ((show U29 m c (Proc.devRef .tc main_v6) = U28 m c (Proc.devRef .tc main_v6) from by keep_piece pL6c)).trans (rk_v6_28 m c)
theorem rk_v6_30 (c : Dev nD) : U30 m c (Proc.devRef .tc main_v6) = U1 m c (Proc.devRef .tc main_v6) :=
  ((show U30 m c (Proc.devRef .tc main_v6) = U29 m c (Proc.devRef .tc main_v6) from by keep_piece pL7a)).trans (rk_v6_29 m c)
theorem rk_v6_31 (c : Dev nD) : U31 m c (Proc.devRef .tc main_v6) = U1 m c (Proc.devRef .tc main_v6) :=
  ((show U31 m c (Proc.devRef .tc main_v6) = U30 m c (Proc.devRef .tc main_v6) from by keep_piece pL7b)).trans (rk_v6_30 m c)
theorem rk_v6_32 (c : Dev nD) : U32 m c (Proc.devRef .tc main_v6) = U1 m c (Proc.devRef .tc main_v6) :=
  ((show U32 m c (Proc.devRef .tc main_v6) = U31 m c (Proc.devRef .tc main_v6) from by keep_piece pL7c)).trans (rk_v6_31 m c)
theorem rk_v6_33 (c : Dev nD) : U33 m c (Proc.devRef .tc main_v6) = U1 m c (Proc.devRef .tc main_v6) :=
  ((show U33 m c (Proc.devRef .tc main_v6) = U32 m c (Proc.devRef .tc main_v6) from by keep_piece pL8a)).trans (rk_v6_32 m c)
theorem rk_v6_34 (c : Dev nD) : U34 m c (Proc.devRef .tc main_v6) = U1 m c (Proc.devRef .tc main_v6) :=
  ((show U34 m c (Proc.devRef .tc main_v6) = U33 m c (Proc.devRef .tc main_v6) from by keep_piece pL8b)).trans (rk_v6_33 m c)
theorem rk_v6_35 (c : Dev nD) : U35 m c (Proc.devRef .tc main_v6) = U1 m c (Proc.devRef .tc main_v6) :=
  ((show U35 m c (Proc.devRef .tc main_v6) = U34 m c (Proc.devRef .tc main_v6) from by keep_piece pL8c)).trans (rk_v6_34 m c)

theorem rk_v29_5 (c : Dev nD) : U5 m c (Proc.devRef .tc main_v29) = U4 m c (Proc.devRef .tc main_v29) :=
  (show U5 m c (Proc.devRef .tc main_v29) = U4 m c (Proc.devRef .tc main_v29) from by keep_piece pF1a)
theorem rk_v29_6 (c : Dev nD) : U6 m c (Proc.devRef .tc main_v29) = U4 m c (Proc.devRef .tc main_v29) :=
  ((show U6 m c (Proc.devRef .tc main_v29) = U5 m c (Proc.devRef .tc main_v29) from by keep_piece pF1b)).trans (rk_v29_5 m c)
theorem rk_v29_7 (c : Dev nD) : U7 m c (Proc.devRef .tc main_v29) = U4 m c (Proc.devRef .tc main_v29) :=
  ((show U7 m c (Proc.devRef .tc main_v29) = U6 m c (Proc.devRef .tc main_v29) from by keep_piece pF2)).trans (rk_v29_6 m c)
theorem rk_v29_8 (c : Dev nD) : U8 m c (Proc.devRef .tc main_v29) = U4 m c (Proc.devRef .tc main_v29) :=
  ((show U8 m c (Proc.devRef .tc main_v29) = U7 m c (Proc.devRef .tc main_v29) from by keep_piece pMk)).trans (rk_v29_7 m c)
theorem rk_v29_9 (c : Dev nD) : U9 m c (Proc.devRef .tc main_v29) = U4 m c (Proc.devRef .tc main_v29) :=
  ((show U9 m c (Proc.devRef .tc main_v29) = U8 m c (Proc.devRef .tc main_v29) from by keep_piece pL0a)).trans (rk_v29_8 m c)
theorem rk_v29_10 (c : Dev nD) : U10 m c (Proc.devRef .tc main_v29) = U4 m c (Proc.devRef .tc main_v29) :=
  ((show U10 m c (Proc.devRef .tc main_v29) = U9 m c (Proc.devRef .tc main_v29) from by keep_piece pL0b)).trans (rk_v29_9 m c)
theorem rk_v29_11 (c : Dev nD) : U11 m c (Proc.devRef .tc main_v29) = U4 m c (Proc.devRef .tc main_v29) :=
  ((show U11 m c (Proc.devRef .tc main_v29) = U10 m c (Proc.devRef .tc main_v29) from by keep_piece pL0c)).trans (rk_v29_10 m c)
theorem rk_v29_12 (c : Dev nD) : U12 m c (Proc.devRef .tc main_v29) = U4 m c (Proc.devRef .tc main_v29) :=
  ((show U12 m c (Proc.devRef .tc main_v29) = U11 m c (Proc.devRef .tc main_v29) from by keep_piece pL1a)).trans (rk_v29_11 m c)
theorem rk_v29_13 (c : Dev nD) : U13 m c (Proc.devRef .tc main_v29) = U4 m c (Proc.devRef .tc main_v29) :=
  ((show U13 m c (Proc.devRef .tc main_v29) = U12 m c (Proc.devRef .tc main_v29) from by keep_piece pL1b)).trans (rk_v29_12 m c)
theorem rk_v29_14 (c : Dev nD) : U14 m c (Proc.devRef .tc main_v29) = U4 m c (Proc.devRef .tc main_v29) :=
  ((show U14 m c (Proc.devRef .tc main_v29) = U13 m c (Proc.devRef .tc main_v29) from by keep_piece pL1c)).trans (rk_v29_13 m c)
theorem rk_v29_15 (c : Dev nD) : U15 m c (Proc.devRef .tc main_v29) = U4 m c (Proc.devRef .tc main_v29) :=
  ((show U15 m c (Proc.devRef .tc main_v29) = U14 m c (Proc.devRef .tc main_v29) from by keep_piece pL2a)).trans (rk_v29_14 m c)
theorem rk_v29_16 (c : Dev nD) : U16 m c (Proc.devRef .tc main_v29) = U4 m c (Proc.devRef .tc main_v29) :=
  ((show U16 m c (Proc.devRef .tc main_v29) = U15 m c (Proc.devRef .tc main_v29) from by keep_piece pL2b)).trans (rk_v29_15 m c)
theorem rk_v29_17 (c : Dev nD) : U17 m c (Proc.devRef .tc main_v29) = U4 m c (Proc.devRef .tc main_v29) :=
  ((show U17 m c (Proc.devRef .tc main_v29) = U16 m c (Proc.devRef .tc main_v29) from by keep_piece pL2c)).trans (rk_v29_16 m c)
theorem rk_v29_18 (c : Dev nD) : U18 m c (Proc.devRef .tc main_v29) = U4 m c (Proc.devRef .tc main_v29) :=
  ((show U18 m c (Proc.devRef .tc main_v29) = U17 m c (Proc.devRef .tc main_v29) from by keep_piece pL3a)).trans (rk_v29_17 m c)
theorem rk_v29_19 (c : Dev nD) : U19 m c (Proc.devRef .tc main_v29) = U4 m c (Proc.devRef .tc main_v29) :=
  ((show U19 m c (Proc.devRef .tc main_v29) = U18 m c (Proc.devRef .tc main_v29) from by keep_piece pL3b)).trans (rk_v29_18 m c)
theorem rk_v29_20 (c : Dev nD) : U20 m c (Proc.devRef .tc main_v29) = U4 m c (Proc.devRef .tc main_v29) :=
  ((show U20 m c (Proc.devRef .tc main_v29) = U19 m c (Proc.devRef .tc main_v29) from by keep_piece pL3c)).trans (rk_v29_19 m c)
theorem rk_v29_21 (c : Dev nD) : U21 m c (Proc.devRef .tc main_v29) = U4 m c (Proc.devRef .tc main_v29) :=
  ((show U21 m c (Proc.devRef .tc main_v29) = U20 m c (Proc.devRef .tc main_v29) from by keep_piece pL4a)).trans (rk_v29_20 m c)
theorem rk_v29_22 (c : Dev nD) : U22 m c (Proc.devRef .tc main_v29) = U4 m c (Proc.devRef .tc main_v29) :=
  ((show U22 m c (Proc.devRef .tc main_v29) = U21 m c (Proc.devRef .tc main_v29) from by keep_piece pL4b)).trans (rk_v29_21 m c)
theorem rk_v29_23 (c : Dev nD) : U23 m c (Proc.devRef .tc main_v29) = U4 m c (Proc.devRef .tc main_v29) :=
  ((show U23 m c (Proc.devRef .tc main_v29) = U22 m c (Proc.devRef .tc main_v29) from by keep_piece pL4c)).trans (rk_v29_22 m c)
theorem rk_v29_24 (c : Dev nD) : U24 m c (Proc.devRef .tc main_v29) = U4 m c (Proc.devRef .tc main_v29) :=
  ((show U24 m c (Proc.devRef .tc main_v29) = U23 m c (Proc.devRef .tc main_v29) from by keep_piece pL5a)).trans (rk_v29_23 m c)
theorem rk_v29_25 (c : Dev nD) : U25 m c (Proc.devRef .tc main_v29) = U4 m c (Proc.devRef .tc main_v29) :=
  ((show U25 m c (Proc.devRef .tc main_v29) = U24 m c (Proc.devRef .tc main_v29) from by keep_piece pL5b)).trans (rk_v29_24 m c)
theorem rk_v29_26 (c : Dev nD) : U26 m c (Proc.devRef .tc main_v29) = U4 m c (Proc.devRef .tc main_v29) :=
  ((show U26 m c (Proc.devRef .tc main_v29) = U25 m c (Proc.devRef .tc main_v29) from by keep_piece pL5c)).trans (rk_v29_25 m c)
theorem rk_v29_27 (c : Dev nD) : U27 m c (Proc.devRef .tc main_v29) = U4 m c (Proc.devRef .tc main_v29) :=
  ((show U27 m c (Proc.devRef .tc main_v29) = U26 m c (Proc.devRef .tc main_v29) from by keep_piece pL6a)).trans (rk_v29_26 m c)
theorem rk_v29_28 (c : Dev nD) : U28 m c (Proc.devRef .tc main_v29) = U4 m c (Proc.devRef .tc main_v29) :=
  ((show U28 m c (Proc.devRef .tc main_v29) = U27 m c (Proc.devRef .tc main_v29) from by keep_piece pL6b)).trans (rk_v29_27 m c)
theorem rk_v29_29 (c : Dev nD) : U29 m c (Proc.devRef .tc main_v29) = U4 m c (Proc.devRef .tc main_v29) :=
  ((show U29 m c (Proc.devRef .tc main_v29) = U28 m c (Proc.devRef .tc main_v29) from by keep_piece pL6c)).trans (rk_v29_28 m c)
theorem rk_v29_30 (c : Dev nD) : U30 m c (Proc.devRef .tc main_v29) = U4 m c (Proc.devRef .tc main_v29) :=
  ((show U30 m c (Proc.devRef .tc main_v29) = U29 m c (Proc.devRef .tc main_v29) from by keep_piece pL7a)).trans (rk_v29_29 m c)
theorem rk_v29_31 (c : Dev nD) : U31 m c (Proc.devRef .tc main_v29) = U4 m c (Proc.devRef .tc main_v29) :=
  ((show U31 m c (Proc.devRef .tc main_v29) = U30 m c (Proc.devRef .tc main_v29) from by keep_piece pL7b)).trans (rk_v29_30 m c)
theorem rk_v29_32 (c : Dev nD) : U32 m c (Proc.devRef .tc main_v29) = U4 m c (Proc.devRef .tc main_v29) :=
  ((show U32 m c (Proc.devRef .tc main_v29) = U31 m c (Proc.devRef .tc main_v29) from by keep_piece pL7c)).trans (rk_v29_31 m c)
theorem rk_v29_33 (c : Dev nD) : U33 m c (Proc.devRef .tc main_v29) = U4 m c (Proc.devRef .tc main_v29) :=
  ((show U33 m c (Proc.devRef .tc main_v29) = U32 m c (Proc.devRef .tc main_v29) from by keep_piece pL8a)).trans (rk_v29_32 m c)
theorem rk_v29_34 (c : Dev nD) : U34 m c (Proc.devRef .tc main_v29) = U4 m c (Proc.devRef .tc main_v29) :=
  ((show U34 m c (Proc.devRef .tc main_v29) = U33 m c (Proc.devRef .tc main_v29) from by keep_piece pL8b)).trans (rk_v29_33 m c)
theorem rk_v29_35 (c : Dev nD) : U35 m c (Proc.devRef .tc main_v29) = U4 m c (Proc.devRef .tc main_v29) :=
  ((show U35 m c (Proc.devRef .tc main_v29) = U34 m c (Proc.devRef .tc main_v29) from by keep_piece pL8c)).trans (rk_v29_34 m c)

theorem rk_v65_9 (c : Dev nD) : U9 m c (Proc.devRef .tc main_v65) = U8 m c (Proc.devRef .tc main_v65) :=
  (show U9 m c (Proc.devRef .tc main_v65) = U8 m c (Proc.devRef .tc main_v65) from by keep_piece pL0a)
theorem rk_v65_10 (c : Dev nD) : U10 m c (Proc.devRef .tc main_v65) = U8 m c (Proc.devRef .tc main_v65) :=
  ((show U10 m c (Proc.devRef .tc main_v65) = U9 m c (Proc.devRef .tc main_v65) from by keep_piece pL0b)).trans (rk_v65_9 m c)
theorem rk_v65_11 (c : Dev nD) : U11 m c (Proc.devRef .tc main_v65) = U8 m c (Proc.devRef .tc main_v65) :=
  ((show U11 m c (Proc.devRef .tc main_v65) = U10 m c (Proc.devRef .tc main_v65) from by keep_piece pL0c)).trans (rk_v65_10 m c)
theorem rk_v65_12 (c : Dev nD) : U12 m c (Proc.devRef .tc main_v65) = U8 m c (Proc.devRef .tc main_v65) :=
  ((show U12 m c (Proc.devRef .tc main_v65) = U11 m c (Proc.devRef .tc main_v65) from by keep_piece pL1a)).trans (rk_v65_11 m c)
theorem rk_v65_13 (c : Dev nD) : U13 m c (Proc.devRef .tc main_v65) = U8 m c (Proc.devRef .tc main_v65) :=
  ((show U13 m c (Proc.devRef .tc main_v65) = U12 m c (Proc.devRef .tc main_v65) from by keep_piece pL1b)).trans (rk_v65_12 m c)
theorem rk_v65_14 (c : Dev nD) : U14 m c (Proc.devRef .tc main_v65) = U8 m c (Proc.devRef .tc main_v65) :=
  ((show U14 m c (Proc.devRef .tc main_v65) = U13 m c (Proc.devRef .tc main_v65) from by keep_piece pL1c)).trans (rk_v65_13 m c)
theorem rk_v65_15 (c : Dev nD) : U15 m c (Proc.devRef .tc main_v65) = U8 m c (Proc.devRef .tc main_v65) :=
  ((show U15 m c (Proc.devRef .tc main_v65) = U14 m c (Proc.devRef .tc main_v65) from by keep_piece pL2a)).trans (rk_v65_14 m c)
theorem rk_v65_16 (c : Dev nD) : U16 m c (Proc.devRef .tc main_v65) = U8 m c (Proc.devRef .tc main_v65) :=
  ((show U16 m c (Proc.devRef .tc main_v65) = U15 m c (Proc.devRef .tc main_v65) from by keep_piece pL2b)).trans (rk_v65_15 m c)
theorem rk_v65_17 (c : Dev nD) : U17 m c (Proc.devRef .tc main_v65) = U8 m c (Proc.devRef .tc main_v65) :=
  ((show U17 m c (Proc.devRef .tc main_v65) = U16 m c (Proc.devRef .tc main_v65) from by keep_piece pL2c)).trans (rk_v65_16 m c)
theorem rk_v65_18 (c : Dev nD) : U18 m c (Proc.devRef .tc main_v65) = U8 m c (Proc.devRef .tc main_v65) :=
  ((show U18 m c (Proc.devRef .tc main_v65) = U17 m c (Proc.devRef .tc main_v65) from by keep_piece pL3a)).trans (rk_v65_17 m c)
theorem rk_v65_19 (c : Dev nD) : U19 m c (Proc.devRef .tc main_v65) = U8 m c (Proc.devRef .tc main_v65) :=
  ((show U19 m c (Proc.devRef .tc main_v65) = U18 m c (Proc.devRef .tc main_v65) from by keep_piece pL3b)).trans (rk_v65_18 m c)
theorem rk_v65_20 (c : Dev nD) : U20 m c (Proc.devRef .tc main_v65) = U8 m c (Proc.devRef .tc main_v65) :=
  ((show U20 m c (Proc.devRef .tc main_v65) = U19 m c (Proc.devRef .tc main_v65) from by keep_piece pL3c)).trans (rk_v65_19 m c)
theorem rk_v65_21 (c : Dev nD) : U21 m c (Proc.devRef .tc main_v65) = U8 m c (Proc.devRef .tc main_v65) :=
  ((show U21 m c (Proc.devRef .tc main_v65) = U20 m c (Proc.devRef .tc main_v65) from by keep_piece pL4a)).trans (rk_v65_20 m c)
theorem rk_v65_22 (c : Dev nD) : U22 m c (Proc.devRef .tc main_v65) = U8 m c (Proc.devRef .tc main_v65) :=
  ((show U22 m c (Proc.devRef .tc main_v65) = U21 m c (Proc.devRef .tc main_v65) from by keep_piece pL4b)).trans (rk_v65_21 m c)
theorem rk_v65_23 (c : Dev nD) : U23 m c (Proc.devRef .tc main_v65) = U8 m c (Proc.devRef .tc main_v65) :=
  ((show U23 m c (Proc.devRef .tc main_v65) = U22 m c (Proc.devRef .tc main_v65) from by keep_piece pL4c)).trans (rk_v65_22 m c)
theorem rk_v65_24 (c : Dev nD) : U24 m c (Proc.devRef .tc main_v65) = U8 m c (Proc.devRef .tc main_v65) :=
  ((show U24 m c (Proc.devRef .tc main_v65) = U23 m c (Proc.devRef .tc main_v65) from by keep_piece pL5a)).trans (rk_v65_23 m c)
theorem rk_v65_25 (c : Dev nD) : U25 m c (Proc.devRef .tc main_v65) = U8 m c (Proc.devRef .tc main_v65) :=
  ((show U25 m c (Proc.devRef .tc main_v65) = U24 m c (Proc.devRef .tc main_v65) from by keep_piece pL5b)).trans (rk_v65_24 m c)
theorem rk_v65_26 (c : Dev nD) : U26 m c (Proc.devRef .tc main_v65) = U8 m c (Proc.devRef .tc main_v65) :=
  ((show U26 m c (Proc.devRef .tc main_v65) = U25 m c (Proc.devRef .tc main_v65) from by keep_piece pL5c)).trans (rk_v65_25 m c)
theorem rk_v65_27 (c : Dev nD) : U27 m c (Proc.devRef .tc main_v65) = U8 m c (Proc.devRef .tc main_v65) :=
  ((show U27 m c (Proc.devRef .tc main_v65) = U26 m c (Proc.devRef .tc main_v65) from by keep_piece pL6a)).trans (rk_v65_26 m c)
theorem rk_v65_28 (c : Dev nD) : U28 m c (Proc.devRef .tc main_v65) = U8 m c (Proc.devRef .tc main_v65) :=
  ((show U28 m c (Proc.devRef .tc main_v65) = U27 m c (Proc.devRef .tc main_v65) from by keep_piece pL6b)).trans (rk_v65_27 m c)
theorem rk_v65_29 (c : Dev nD) : U29 m c (Proc.devRef .tc main_v65) = U8 m c (Proc.devRef .tc main_v65) :=
  ((show U29 m c (Proc.devRef .tc main_v65) = U28 m c (Proc.devRef .tc main_v65) from by keep_piece pL6c)).trans (rk_v65_28 m c)
theorem rk_v65_30 (c : Dev nD) : U30 m c (Proc.devRef .tc main_v65) = U8 m c (Proc.devRef .tc main_v65) :=
  ((show U30 m c (Proc.devRef .tc main_v65) = U29 m c (Proc.devRef .tc main_v65) from by keep_piece pL7a)).trans (rk_v65_29 m c)
theorem rk_v65_31 (c : Dev nD) : U31 m c (Proc.devRef .tc main_v65) = U8 m c (Proc.devRef .tc main_v65) :=
  ((show U31 m c (Proc.devRef .tc main_v65) = U30 m c (Proc.devRef .tc main_v65) from by keep_piece pL7b)).trans (rk_v65_30 m c)
theorem rk_v65_32 (c : Dev nD) : U32 m c (Proc.devRef .tc main_v65) = U8 m c (Proc.devRef .tc main_v65) :=
  ((show U32 m c (Proc.devRef .tc main_v65) = U31 m c (Proc.devRef .tc main_v65) from by keep_piece pL7c)).trans (rk_v65_31 m c)
theorem rk_v65_33 (c : Dev nD) : U33 m c (Proc.devRef .tc main_v65) = U8 m c (Proc.devRef .tc main_v65) :=
  ((show U33 m c (Proc.devRef .tc main_v65) = U32 m c (Proc.devRef .tc main_v65) from by keep_piece pL8a)).trans (rk_v65_32 m c)
theorem rk_v65_34 (c : Dev nD) : U34 m c (Proc.devRef .tc main_v65) = U8 m c (Proc.devRef .tc main_v65) :=
  ((show U34 m c (Proc.devRef .tc main_v65) = U33 m c (Proc.devRef .tc main_v65) from by keep_piece pL8b)).trans (rk_v65_33 m c)
theorem rk_v65_35 (c : Dev nD) : U35 m c (Proc.devRef .tc main_v65) = U8 m c (Proc.devRef .tc main_v65) :=
  ((show U35 m c (Proc.devRef .tc main_v65) = U34 m c (Proc.devRef .tc main_v65) from by keep_piece pL8c)).trans (rk_v65_34 m c)
theorem rk_v65_36 (c : Dev nD) : U36 m c (Proc.devRef .tc main_v65) = U8 m c (Proc.devRef .tc main_v65) :=
  ((show U36 m c (Proc.devRef .tc main_v65) = U35 m c (Proc.devRef .tc main_v65) from by keep_piece pL9a)).trans (rk_v65_35 m c)

theorem rk_v64_8 (c : Dev nD) : U8 m c (Proc.devRef .tc main_v64) = U7 m c (Proc.devRef .tc main_v64) :=
  (show U8 m c (Proc.devRef .tc main_v64) = U7 m c (Proc.devRef .tc main_v64) from by keep_piece pMk)
theorem rk_v64_9 (c : Dev nD) : U9 m c (Proc.devRef .tc main_v64) = U7 m c (Proc.devRef .tc main_v64) :=
  ((show U9 m c (Proc.devRef .tc main_v64) = U8 m c (Proc.devRef .tc main_v64) from by keep_piece pL0a)).trans (rk_v64_8 m c)
theorem rk_v64_10 (c : Dev nD) : U10 m c (Proc.devRef .tc main_v64) = U7 m c (Proc.devRef .tc main_v64) :=
  ((show U10 m c (Proc.devRef .tc main_v64) = U9 m c (Proc.devRef .tc main_v64) from by keep_piece pL0b)).trans (rk_v64_9 m c)
theorem rk_v64_11 (c : Dev nD) : U11 m c (Proc.devRef .tc main_v64) = U7 m c (Proc.devRef .tc main_v64) :=
  ((show U11 m c (Proc.devRef .tc main_v64) = U10 m c (Proc.devRef .tc main_v64) from by keep_piece pL0c)).trans (rk_v64_10 m c)
theorem rk_v64_12 (c : Dev nD) : U12 m c (Proc.devRef .tc main_v64) = U7 m c (Proc.devRef .tc main_v64) :=
  ((show U12 m c (Proc.devRef .tc main_v64) = U11 m c (Proc.devRef .tc main_v64) from by keep_piece pL1a)).trans (rk_v64_11 m c)
theorem rk_v64_13 (c : Dev nD) : U13 m c (Proc.devRef .tc main_v64) = U7 m c (Proc.devRef .tc main_v64) :=
  ((show U13 m c (Proc.devRef .tc main_v64) = U12 m c (Proc.devRef .tc main_v64) from by keep_piece pL1b)).trans (rk_v64_12 m c)
theorem rk_v64_14 (c : Dev nD) : U14 m c (Proc.devRef .tc main_v64) = U7 m c (Proc.devRef .tc main_v64) :=
  ((show U14 m c (Proc.devRef .tc main_v64) = U13 m c (Proc.devRef .tc main_v64) from by keep_piece pL1c)).trans (rk_v64_13 m c)
theorem rk_v64_15 (c : Dev nD) : U15 m c (Proc.devRef .tc main_v64) = U7 m c (Proc.devRef .tc main_v64) :=
  ((show U15 m c (Proc.devRef .tc main_v64) = U14 m c (Proc.devRef .tc main_v64) from by keep_piece pL2a)).trans (rk_v64_14 m c)
theorem rk_v64_16 (c : Dev nD) : U16 m c (Proc.devRef .tc main_v64) = U7 m c (Proc.devRef .tc main_v64) :=
  ((show U16 m c (Proc.devRef .tc main_v64) = U15 m c (Proc.devRef .tc main_v64) from by keep_piece pL2b)).trans (rk_v64_15 m c)
theorem rk_v64_17 (c : Dev nD) : U17 m c (Proc.devRef .tc main_v64) = U7 m c (Proc.devRef .tc main_v64) :=
  ((show U17 m c (Proc.devRef .tc main_v64) = U16 m c (Proc.devRef .tc main_v64) from by keep_piece pL2c)).trans (rk_v64_16 m c)
theorem rk_v64_18 (c : Dev nD) : U18 m c (Proc.devRef .tc main_v64) = U7 m c (Proc.devRef .tc main_v64) :=
  ((show U18 m c (Proc.devRef .tc main_v64) = U17 m c (Proc.devRef .tc main_v64) from by keep_piece pL3a)).trans (rk_v64_17 m c)
theorem rk_v64_19 (c : Dev nD) : U19 m c (Proc.devRef .tc main_v64) = U7 m c (Proc.devRef .tc main_v64) :=
  ((show U19 m c (Proc.devRef .tc main_v64) = U18 m c (Proc.devRef .tc main_v64) from by keep_piece pL3b)).trans (rk_v64_18 m c)
theorem rk_v64_20 (c : Dev nD) : U20 m c (Proc.devRef .tc main_v64) = U7 m c (Proc.devRef .tc main_v64) :=
  ((show U20 m c (Proc.devRef .tc main_v64) = U19 m c (Proc.devRef .tc main_v64) from by keep_piece pL3c)).trans (rk_v64_19 m c)
theorem rk_v64_21 (c : Dev nD) : U21 m c (Proc.devRef .tc main_v64) = U7 m c (Proc.devRef .tc main_v64) :=
  ((show U21 m c (Proc.devRef .tc main_v64) = U20 m c (Proc.devRef .tc main_v64) from by keep_piece pL4a)).trans (rk_v64_20 m c)
theorem rk_v64_22 (c : Dev nD) : U22 m c (Proc.devRef .tc main_v64) = U7 m c (Proc.devRef .tc main_v64) :=
  ((show U22 m c (Proc.devRef .tc main_v64) = U21 m c (Proc.devRef .tc main_v64) from by keep_piece pL4b)).trans (rk_v64_21 m c)
theorem rk_v64_23 (c : Dev nD) : U23 m c (Proc.devRef .tc main_v64) = U7 m c (Proc.devRef .tc main_v64) :=
  ((show U23 m c (Proc.devRef .tc main_v64) = U22 m c (Proc.devRef .tc main_v64) from by keep_piece pL4c)).trans (rk_v64_22 m c)
theorem rk_v64_24 (c : Dev nD) : U24 m c (Proc.devRef .tc main_v64) = U7 m c (Proc.devRef .tc main_v64) :=
  ((show U24 m c (Proc.devRef .tc main_v64) = U23 m c (Proc.devRef .tc main_v64) from by keep_piece pL5a)).trans (rk_v64_23 m c)
theorem rk_v64_25 (c : Dev nD) : U25 m c (Proc.devRef .tc main_v64) = U7 m c (Proc.devRef .tc main_v64) :=
  ((show U25 m c (Proc.devRef .tc main_v64) = U24 m c (Proc.devRef .tc main_v64) from by keep_piece pL5b)).trans (rk_v64_24 m c)
theorem rk_v64_26 (c : Dev nD) : U26 m c (Proc.devRef .tc main_v64) = U7 m c (Proc.devRef .tc main_v64) :=
  ((show U26 m c (Proc.devRef .tc main_v64) = U25 m c (Proc.devRef .tc main_v64) from by keep_piece pL5c)).trans (rk_v64_25 m c)
theorem rk_v64_27 (c : Dev nD) : U27 m c (Proc.devRef .tc main_v64) = U7 m c (Proc.devRef .tc main_v64) :=
  ((show U27 m c (Proc.devRef .tc main_v64) = U26 m c (Proc.devRef .tc main_v64) from by keep_piece pL6a)).trans (rk_v64_26 m c)
theorem rk_v64_28 (c : Dev nD) : U28 m c (Proc.devRef .tc main_v64) = U7 m c (Proc.devRef .tc main_v64) :=
  ((show U28 m c (Proc.devRef .tc main_v64) = U27 m c (Proc.devRef .tc main_v64) from by keep_piece pL6b)).trans (rk_v64_27 m c)
theorem rk_v64_29 (c : Dev nD) : U29 m c (Proc.devRef .tc main_v64) = U7 m c (Proc.devRef .tc main_v64) :=
  ((show U29 m c (Proc.devRef .tc main_v64) = U28 m c (Proc.devRef .tc main_v64) from by keep_piece pL6c)).trans (rk_v64_28 m c)
theorem rk_v64_30 (c : Dev nD) : U30 m c (Proc.devRef .tc main_v64) = U7 m c (Proc.devRef .tc main_v64) :=
  ((show U30 m c (Proc.devRef .tc main_v64) = U29 m c (Proc.devRef .tc main_v64) from by keep_piece pL7a)).trans (rk_v64_29 m c)
theorem rk_v64_31 (c : Dev nD) : U31 m c (Proc.devRef .tc main_v64) = U7 m c (Proc.devRef .tc main_v64) :=
  ((show U31 m c (Proc.devRef .tc main_v64) = U30 m c (Proc.devRef .tc main_v64) from by keep_piece pL7b)).trans (rk_v64_30 m c)
theorem rk_v64_32 (c : Dev nD) : U32 m c (Proc.devRef .tc main_v64) = U7 m c (Proc.devRef .tc main_v64) :=
  ((show U32 m c (Proc.devRef .tc main_v64) = U31 m c (Proc.devRef .tc main_v64) from by keep_piece pL7c)).trans (rk_v64_31 m c)
theorem rk_v64_33 (c : Dev nD) : U33 m c (Proc.devRef .tc main_v64) = U7 m c (Proc.devRef .tc main_v64) :=
  ((show U33 m c (Proc.devRef .tc main_v64) = U32 m c (Proc.devRef .tc main_v64) from by keep_piece pL8a)).trans (rk_v64_32 m c)
theorem rk_v64_34 (c : Dev nD) : U34 m c (Proc.devRef .tc main_v64) = U7 m c (Proc.devRef .tc main_v64) :=
  ((show U34 m c (Proc.devRef .tc main_v64) = U33 m c (Proc.devRef .tc main_v64) from by keep_piece pL8b)).trans (rk_v64_33 m c)
theorem rk_v64_35 (c : Dev nD) : U35 m c (Proc.devRef .tc main_v64) = U7 m c (Proc.devRef .tc main_v64) :=
  ((show U35 m c (Proc.devRef .tc main_v64) = U34 m c (Proc.devRef .tc main_v64) from by keep_piece pL8c)).trans (rk_v64_34 m c)
theorem rk_v64_36 (c : Dev nD) : U36 m c (Proc.devRef .tc main_v64) = U7 m c (Proc.devRef .tc main_v64) :=
  ((show U36 m c (Proc.devRef .tc main_v64) = U35 m c (Proc.devRef .tc main_v64) from by keep_piece pL9a)).trans (rk_v64_35 m c)
theorem rk_v64_37 (c : Dev nD) : U37 m c (Proc.devRef .tc main_v64) = U7 m c (Proc.devRef .tc main_v64) :=
  ((show U37 m c (Proc.devRef .tc main_v64) = U36 m c (Proc.devRef .tc main_v64) from by keep_piece pL9c)).trans (rk_v64_36 m c)

/-! ## Each piece's output is the reference's stage of the arguments -/

theorem s_v3 (c : Dev nD) : U1 m c (Proc.devRef .tc main_v3) = Cert.ReferenceIdeal.ReadP.val_main_v3 (F := Ideal) (m ((c.tc : Thread nD τ).loc main_arg2)) := p0_v3 (U0 m c) _ rfl
theorem s_v6 (c : Dev nD) : U1 m c (Proc.devRef .tc main_v6) = Cert.ReferenceIdeal.ReadP.val_main_v6 (F := Ideal) (m ((c.tc : Thread nD τ).loc main_arg2)) := p0_v6 (U0 m c) _ rfl
theorem s_v12 (c : Dev nD) : U2 m c (Proc.devRef .tc main_v12) = Cert.ReferenceIdeal.ReadP.val_main_v12 (F := Ideal) (m ((c.tc : Thread nD τ).loc main_arg2)) := p0b_v12 (U1 m c) _ (s_v6 m c)
theorem s_v13 (c : Dev nD) : U2 m c (Proc.devRef .tc main_v13) = Cert.ReferenceIdeal.ReadP.val_main_v13 (F := Ideal) (m ((c.tc : Thread nD τ).loc main_arg2)) := p0b_v13 (U1 m c) _ (s_v6 m c)
theorem s_cst_2 (c : Dev nD) : U2 m c (Proc.devRef .tc main_cst_2) = Cert.ReferenceIdeal.ReadP.val_main_cst_2 (F := Ideal) := p0b_cst_2 (U1 m c)
theorem s_v14 (c : Dev nD) : U3 m c (Proc.devRef .tc main_v14) = Cert.ReferenceIdeal.ReadP.val_main_v14 (F := Ideal) (m ((c.tc : Thread nD τ).loc main_arg2)) := p0c_v14 (U2 m c) _ (s_v12 m c) (s_v13 m c) (s_cst_2 m c)
theorem s_v29 (c : Dev nD) : U4 m c (Proc.devRef .tc main_v29) = Cert.ReferenceIdeal.ReadP.val_main_v29 (F := Ideal) (m ((c.tc : Thread nD τ).loc main_arg2)) := p0d_v29 (U3 m c) _ (s_v14 m c) ((rk_v3_3 m c).trans (s_v3 m c)) ((rk_v6_3 m c).trans (s_v6 m c))
theorem s_v46 (c : Dev nD) : U5 m c (Proc.devRef .tc main_v46) = Cert.ReferenceIdeal.ReadP.val_main_v46 (F := Ideal) (m ((c.tc : Thread nD τ).loc main_arg0)) (m ((c.tc : Thread nD τ).loc main_arg2)) (m ((c.tc : Thread nD τ).loc main_arg5)) (m ((c.tc : Thread nD τ).loc main_arg6)) :=
  f1a_v46 (U4 m c) _ _ _ _ (rk_arg0_4 m c) (rk_arg5_4 m c) (rk_arg6_4 m c) ((rk_v3_4 m c).trans (s_v3 m c)) ((rk_v6_4 m c).trans (s_v6 m c)) (s_v29 m c)
theorem s_v47 (c : Dev nD) : U6 m c (Proc.devRef .tc main_v47) = Cert.ReferenceIdeal.ReadP.val_main_v47 (F := Ideal) (m ((c.tc : Thread nD τ).loc main_arg0)) (m ((c.tc : Thread nD τ).loc main_arg2)) (m ((c.tc : Thread nD τ).loc main_arg5)) (m ((c.tc : Thread nD τ).loc main_arg6)) := f1b_v47 (U5 m c) _ _ _ _ (s_v46 m c)
theorem s_v64 (c : Dev nD) : U7 m c (Proc.devRef .tc main_v64) = Cert.ReferenceIdeal.ReadP.val_main_v64 (F := Ideal) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  f2_v64 (U6 m c) _ _ _ _ _ _ (s_v47 m c) (rk_arg7_6 m c) (rk_arg8_6 m c) ((rk_v3_6 m c).trans (s_v3 m c)) ((rk_v6_6 m c).trans (s_v6 m c)) ((rk_v29_6 m c).trans (s_v29 m c))
theorem s_v65 (c : Dev nD) : U8 m c (Proc.devRef .tc main_v65) = Cert.ReferenceIdeal.ReadP.val_main_v65 (F := Ideal) (m ((c.tc : Thread nD τ).loc main_arg4)) := mk_v65 (U7 m c) _ (rk_arg4_7 m c)

theorem s_L0a (c : Dev nD) : U9 m c (Proc.devRef .tc main_v86) = Cert.ReferenceIdeal.ReadP.val_main_v86 (F := Ideal) (m ((c.tc : Thread nD τ).loc main_arg1)) (m ((c.tc : Thread nD τ).loc main_arg2)) (m ((c.tc : Thread nD τ).loc main_arg9)) (m ((c.tc : Thread nD τ).loc main_arg10)) :=
  l0a (U8 m c) _ _ _ _ (rk_arg1_8 m c) (rk_arg9_8 m c) (rk_arg10_8 m c) ((rk_v3_8 m c).trans (s_v3 m c)) ((rk_v6_8 m c).trans (s_v6 m c)) ((rk_v29_8 m c).trans (s_v29 m c))
theorem s_L0b (c : Dev nD) : U10 m c (Proc.devRef .tc main_v87) = Cert.ReferenceIdeal.ReadP.val_main_v87 (F := Ideal) (m ((c.tc : Thread nD τ).loc main_arg1)) (m ((c.tc : Thread nD τ).loc main_arg2)) (m ((c.tc : Thread nD τ).loc main_arg9)) (m ((c.tc : Thread nD τ).loc main_arg10)) := l0b (U9 m c) _ _ _ _ (s_L0a m c)
theorem s_L0c (c : Dev nD) : U11 m c (Proc.devRef .tc main_v88) = Cert.ReferenceIdeal.ReadP.val_main_v88 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l0c (U10 m c) _ _ _ _ _ ((rk_v65_10 m c).trans (s_v65 m c)) (rk_arg1_10 m c) (s_L0b m c)

theorem s_L1a (c : Dev nD) : U12 m c (Proc.devRef .tc main_v109) = Cert.ReferenceIdeal.ReadP.val_main_v109 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l1a (U11 m c) _ _ _ _ _ (s_L0c m c) (rk_arg9_11 m c) (rk_arg10_11 m c) ((rk_v3_11 m c).trans (s_v3 m c)) ((rk_v6_11 m c).trans (s_v6 m c)) ((rk_v29_11 m c).trans (s_v29 m c))
theorem s_L1b (c : Dev nD) : U13 m c (Proc.devRef .tc main_v110) = Cert.ReferenceIdeal.ReadP.val_main_v110 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l1b (U12 m c) _ _ _ _ _ (s_L1a m c)
theorem s_L1c (c : Dev nD) : U14 m c (Proc.devRef .tc main_v111) = Cert.ReferenceIdeal.ReadP.val_main_v111 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l1c (U13 m c) _ _ _ _ _ ((rk_v65_13 m c).trans (s_v65 m c)) (rk_arg1_13 m c) (s_L1b m c)

theorem s_L2a (c : Dev nD) : U15 m c (Proc.devRef .tc main_v132) = Cert.ReferenceIdeal.ReadP.val_main_v132 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l2a (U14 m c) _ _ _ _ _ (s_L1c m c) (rk_arg9_14 m c) (rk_arg10_14 m c) ((rk_v3_14 m c).trans (s_v3 m c)) ((rk_v6_14 m c).trans (s_v6 m c)) ((rk_v29_14 m c).trans (s_v29 m c))
theorem s_L2b (c : Dev nD) : U16 m c (Proc.devRef .tc main_v133) = Cert.ReferenceIdeal.ReadP.val_main_v133 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l2b (U15 m c) _ _ _ _ _ (s_L2a m c)
theorem s_L2c (c : Dev nD) : U17 m c (Proc.devRef .tc main_v134) = Cert.ReferenceIdeal.ReadP.val_main_v134 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l2c (U16 m c) _ _ _ _ _ ((rk_v65_16 m c).trans (s_v65 m c)) (rk_arg1_16 m c) (s_L2b m c)

theorem s_L3a (c : Dev nD) : U18 m c (Proc.devRef .tc main_v155) = Cert.ReferenceIdeal.ReadP.val_main_v155 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l3a (U17 m c) _ _ _ _ _ (s_L2c m c) (rk_arg9_17 m c) (rk_arg10_17 m c) ((rk_v3_17 m c).trans (s_v3 m c)) ((rk_v6_17 m c).trans (s_v6 m c)) ((rk_v29_17 m c).trans (s_v29 m c))
theorem s_L3b (c : Dev nD) : U19 m c (Proc.devRef .tc main_v156) = Cert.ReferenceIdeal.ReadP.val_main_v156 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l3b (U18 m c) _ _ _ _ _ (s_L3a m c)
theorem s_L3c (c : Dev nD) : U20 m c (Proc.devRef .tc main_v157) = Cert.ReferenceIdeal.ReadP.val_main_v157 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l3c (U19 m c) _ _ _ _ _ ((rk_v65_19 m c).trans (s_v65 m c)) (rk_arg1_19 m c) (s_L3b m c)

theorem s_L4a (c : Dev nD) : U21 m c (Proc.devRef .tc main_v178) = Cert.ReferenceIdeal.ReadP.val_main_v178 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l4a (U20 m c) _ _ _ _ _ (s_L3c m c) (rk_arg9_20 m c) (rk_arg10_20 m c) ((rk_v3_20 m c).trans (s_v3 m c)) ((rk_v6_20 m c).trans (s_v6 m c)) ((rk_v29_20 m c).trans (s_v29 m c))
theorem s_L4b (c : Dev nD) : U22 m c (Proc.devRef .tc main_v179) = Cert.ReferenceIdeal.ReadP.val_main_v179 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l4b (U21 m c) _ _ _ _ _ (s_L4a m c)
theorem s_L4c (c : Dev nD) : U23 m c (Proc.devRef .tc main_v180) = Cert.ReferenceIdeal.ReadP.val_main_v180 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l4c (U22 m c) _ _ _ _ _ ((rk_v65_22 m c).trans (s_v65 m c)) (rk_arg1_22 m c) (s_L4b m c)

theorem s_L5a (c : Dev nD) : U24 m c (Proc.devRef .tc main_v201) = Cert.ReferenceIdeal.ReadP.val_main_v201 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l5a (U23 m c) _ _ _ _ _ (s_L4c m c) (rk_arg9_23 m c) (rk_arg10_23 m c) ((rk_v3_23 m c).trans (s_v3 m c)) ((rk_v6_23 m c).trans (s_v6 m c)) ((rk_v29_23 m c).trans (s_v29 m c))
theorem s_L5b (c : Dev nD) : U25 m c (Proc.devRef .tc main_v202) = Cert.ReferenceIdeal.ReadP.val_main_v202 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l5b (U24 m c) _ _ _ _ _ (s_L5a m c)
theorem s_L5c (c : Dev nD) : U26 m c (Proc.devRef .tc main_v203) = Cert.ReferenceIdeal.ReadP.val_main_v203 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l5c (U25 m c) _ _ _ _ _ ((rk_v65_25 m c).trans (s_v65 m c)) (rk_arg1_25 m c) (s_L5b m c)

theorem s_L6a (c : Dev nD) : U27 m c (Proc.devRef .tc main_v224) = Cert.ReferenceIdeal.ReadP.val_main_v224 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l6a (U26 m c) _ _ _ _ _ (s_L5c m c) (rk_arg9_26 m c) (rk_arg10_26 m c) ((rk_v3_26 m c).trans (s_v3 m c)) ((rk_v6_26 m c).trans (s_v6 m c)) ((rk_v29_26 m c).trans (s_v29 m c))
theorem s_L6b (c : Dev nD) : U28 m c (Proc.devRef .tc main_v225) = Cert.ReferenceIdeal.ReadP.val_main_v225 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l6b (U27 m c) _ _ _ _ _ (s_L6a m c)
theorem s_L6c (c : Dev nD) : U29 m c (Proc.devRef .tc main_v226) = Cert.ReferenceIdeal.ReadP.val_main_v226 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l6c (U28 m c) _ _ _ _ _ ((rk_v65_28 m c).trans (s_v65 m c)) (rk_arg1_28 m c) (s_L6b m c)

theorem s_L7a (c : Dev nD) : U30 m c (Proc.devRef .tc main_v247) = Cert.ReferenceIdeal.ReadP.val_main_v247 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l7a (U29 m c) _ _ _ _ _ (s_L6c m c) (rk_arg9_29 m c) (rk_arg10_29 m c) ((rk_v3_29 m c).trans (s_v3 m c)) ((rk_v6_29 m c).trans (s_v6 m c)) ((rk_v29_29 m c).trans (s_v29 m c))
theorem s_L7b (c : Dev nD) : U31 m c (Proc.devRef .tc main_v248) = Cert.ReferenceIdeal.ReadP.val_main_v248 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l7b (U30 m c) _ _ _ _ _ (s_L7a m c)
theorem s_L7c (c : Dev nD) : U32 m c (Proc.devRef .tc main_v249) = Cert.ReferenceIdeal.ReadP.val_main_v249 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l7c (U31 m c) _ _ _ _ _ ((rk_v65_31 m c).trans (s_v65 m c)) (rk_arg1_31 m c) (s_L7b m c)

theorem s_L8a (c : Dev nD) : U33 m c (Proc.devRef .tc main_v270) = Cert.ReferenceIdeal.ReadP.val_main_v270 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l8a (U32 m c) _ _ _ _ _ (s_L7c m c) (rk_arg9_32 m c) (rk_arg10_32 m c) ((rk_v3_32 m c).trans (s_v3 m c)) ((rk_v6_32 m c).trans (s_v6 m c)) ((rk_v29_32 m c).trans (s_v29 m c))
theorem s_L8b (c : Dev nD) : U34 m c (Proc.devRef .tc main_v271) = Cert.ReferenceIdeal.ReadP.val_main_v271 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := l8b (U33 m c) _ _ _ _ _ (s_L8a m c)
theorem s_L8c (c : Dev nD) : U35 m c (Proc.devRef .tc main_v272) = Cert.ReferenceIdeal.ReadP.val_main_v272 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l8c (U34 m c) _ _ _ _ _ ((rk_v65_34 m c).trans (s_v65 m c)) (rk_arg1_34 m c) (s_L8b m c)

theorem s_L9a (c : Dev nD) : U36 m c (Proc.devRef .tc main_v293) = Cert.ReferenceIdeal.ReadP.val_main_v293 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l9a (U35 m c) _ _ _ _ _ (s_L8c m c) (rk_arg9_35 m c) (rk_arg10_35 m c) ((rk_v3_35 m c).trans (s_v3 m c)) ((rk_v6_35 m c).trans (s_v6 m c)) ((rk_v29_35 m c).trans (s_v29 m c))
theorem s_L9c (c : Dev nD) : U37 m c (Proc.devRef .tc main_v294) = Cert.ReferenceIdeal.ReadP.val_main_v294 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) :=
  l9c (U36 m c) _ _ _ _ _ ((rk_v65_36 m c).trans (s_v65 m c)) (rk_arg1_36 m c) (s_L9a m c)

/-! ## The two values the head reads, after the first 371 operations -/

theorem pre_v64 (c : Dev nD) :
    after (opsA (F := Ideal)) (launchContents m c) (Proc.devRef .tc main_v64) = Cert.ReferenceIdeal.ReadP.val_main_v64 (F := Ideal) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  rw [opsA_after]
  exact (rk_v64_37 m c).trans (s_v64 m c)

theorem pre_v294 (c : Dev nD) :
    after (opsA (F := Ideal)) (launchContents m c) (Proc.devRef .tc main_v294) = Cert.ReferenceIdeal.ReadP.val_main_v294 (F := Ideal) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg10)) := by
  rw [opsA_after]
  exact s_L9c m c

end Cert.ReferenceIdeal.RefRun

end
-- ==== Proof.RefArgsA.lean ====
/-
  No operation of the reference program writes an argument: after the whole list each argument buffer holds its launch
  contents (arguments 0–6).
-/
import proofs.«146329_j1168231104595_1_alg».proof.Proof.RunP
import Idealize.ShloMosaic.PureOps.Ideal

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 100000000 in
theorem arg0 (c : Dev nD) :
    after (ops (F := Ideal)) (launchContents m c) (Proc.devRef .tc main_arg0) = (m ((c.tc : Thread nD τ).loc main_arg0)) := by
  after_results_simp <;> rfl

set_option maxRecDepth 16384 in
set_option maxHeartbeats 100000000 in
theorem arg1 (c : Dev nD) :
    after (ops (F := Ideal)) (launchContents m c) (Proc.devRef .tc main_arg1) = (m ((c.tc : Thread nD τ).loc main_arg1)) := by
  after_results_simp <;> rfl

set_option maxRecDepth 16384 in
set_option maxHeartbeats 100000000 in
theorem arg2 (c : Dev nD) :
    after (ops (F := Ideal)) (launchContents m c) (Proc.devRef .tc main_arg2) = (m ((c.tc : Thread nD τ).loc main_arg2)) := by
  after_results_simp <;> rfl

set_option maxRecDepth 16384 in
set_option maxHeartbeats 100000000 in
theorem arg3 (c : Dev nD) :
    after (ops (F := Ideal)) (launchContents m c) (Proc.devRef .tc main_arg3) = (m ((c.tc : Thread nD τ).loc main_arg3)) := by
  after_results_simp <;> rfl

set_option maxRecDepth 16384 in
set_option maxHeartbeats 100000000 in
theorem arg4 (c : Dev nD) :
    after (ops (F := Ideal)) (launchContents m c) (Proc.devRef .tc main_arg4) = (m ((c.tc : Thread nD τ).loc main_arg4)) := by
  after_results_simp <;> rfl

set_option maxRecDepth 16384 in
set_option maxHeartbeats 100000000 in
theorem arg5 (c : Dev nD) :
    after (ops (F := Ideal)) (launchContents m c) (Proc.devRef .tc main_arg5) = (m ((c.tc : Thread nD τ).loc main_arg5)) := by
  after_results_simp <;> rfl

set_option maxRecDepth 16384 in
set_option maxHeartbeats 100000000 in
theorem arg6 (c : Dev nD) :
    after (ops (F := Ideal)) (launchContents m c) (Proc.devRef .tc main_arg6) = (m ((c.tc : Thread nD τ).loc main_arg6)) := by
  after_results_simp <;> rfl

end Cert.ReferenceIdeal.RefRun

end
-- ==== Proof.RefArgsB.lean ====
/-
  No operation of the reference program writes an argument: after the whole list each argument buffer holds its launch
  contents (arguments 7–12).
-/
import proofs.«146329_j1168231104595_1_alg».proof.Proof.RunP
import Idealize.ShloMosaic.PureOps.Ideal

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 100000000 in
theorem arg7 (c : Dev nD) :
    after (ops (F := Ideal)) (launchContents m c) (Proc.devRef .tc main_arg7) = (m ((c.tc : Thread nD τ).loc main_arg7)) := by
  after_results_simp <;> rfl

set_option maxRecDepth 16384 in
set_option maxHeartbeats 100000000 in
theorem arg8 (c : Dev nD) :
    after (ops (F := Ideal)) (launchContents m c) (Proc.devRef .tc main_arg8) = (m ((c.tc : Thread nD τ).loc main_arg8)) := by
  after_results_simp <;> rfl

set_option maxRecDepth 16384 in
set_option maxHeartbeats 100000000 in
theorem arg9 (c : Dev nD) :
    after (ops (F := Ideal)) (launchContents m c) (Proc.devRef .tc main_arg9) = (m ((c.tc : Thread nD τ).loc main_arg9)) := by
  after_results_simp <;> rfl

set_option maxRecDepth 16384 in
set_option maxHeartbeats 100000000 in
theorem arg10 (c : Dev nD) :
    after (ops (F := Ideal)) (launchContents m c) (Proc.devRef .tc main_arg10) = (m ((c.tc : Thread nD τ).loc main_arg10)) := by
  after_results_simp <;> rfl

set_option maxRecDepth 16384 in
set_option maxHeartbeats 100000000 in
theorem arg11 (c : Dev nD) :
    after (ops (F := Ideal)) (launchContents m c) (Proc.devRef .tc main_arg11) = (m ((c.tc : Thread nD τ).loc main_arg11)) := by
  after_results_simp <;> rfl

set_option maxRecDepth 16384 in
set_option maxHeartbeats 100000000 in
theorem arg12 (c : Dev nD) :
    after (ops (F := Ideal)) (launchContents m c) (Proc.devRef .tc main_arg12) = (m ((c.tc : Thread nD τ).loc main_arg12)) := by
  after_results_simp <;> rfl

end Cert.ReferenceIdeal.RefRun

end
-- ==== Proof.RefRun.lean ====
/-
  The reference program's run, read back.  Every weakly fair execution terminates with each buffer at the fold of the
  operations' results over the launch contents.  The list is cut in front of the one operation that joins three arrays:
  what the first 371 operations leave in the five buffers the head reads is known (the two computed arrays hold their
  stages of the arguments, the three arguments are as launched), and the last 13 operations, applied to ANY contents,
  compute the head's function of those five buffers' contents; so the result buffer ends at the reference's last stage of
  the arguments, and the arguments end as launched.
-/
import proofs.«146329_j1168231104595_1_alg».proof.Proof.RunP
import proofs.«146329_j1168231104595_1_alg».proof.Proof.ReadP
import proofs.«146329_j1168231104595_1_alg».proof.Proof.Dense
import proofs.«146329_j1168231104595_1_alg».proof.Proof.RefVal
import proofs.«146329_j1168231104595_1_alg».proof.Proof.RefChain
import proofs.«146329_j1168231104595_1_alg».proof.Proof.RefArgsA
import proofs.«146329_j1168231104595_1_alg».proof.Proof.RefArgsB

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 4000000 in
/-- The last 13 operations over any contents: the head's function of the five buffers they read. -/
theorem suffix_of (V : Valuation τ sig (Elt Ideal))
    (x64 : (⟨S100000x128, .f32⟩ : BufTy).Contents (Elt Ideal)) (x294 : (⟨S100000x16, .f32⟩ : BufTy).Contents (Elt Ideal)) (x3 : (⟨S100000x64, .f32⟩ : BufTy).Contents (Elt Ideal))
    (x11 : (⟨S208x16, .f32⟩ : BufTy).Contents (Elt Ideal)) (x12 : (⟨S16, .f32⟩ : BufTy).Contents (Elt Ideal))
    (h64 : V (Proc.devRef .tc main_v64) = x64) (h294 : V (Proc.devRef .tc main_v294) = x294)
    (h3 : V (Proc.devRef .tc main_arg3) = x3) (h11 : V (Proc.devRef .tc main_arg11) = x11) (h12 : V (Proc.devRef .tc main_arg12) = x12) :
    after (opsB (F := Ideal)) V (Proc.devRef .tc main_v305) = Cert.KV.Dense.refFuse x64 x294 x3 x11 x12 := by
  subst h64 h294 h3 h11 h12
  after_results_simp
  rfl

set_option maxRecDepth 16384 in
set_option maxHeartbeats 4000000 in
/-- The result buffer after the whole list: the reference's last stage of the launch arguments. -/
theorem result_eq (c : Dev nD) :
    after (ops (F := Ideal)) (launchContents m c) (Proc.devRef .tc main_v305) = Cert.ReferenceIdeal.ReadP.val_main_v305 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [ops_split, after_append]
  exact (suffix_of _ _ _ _ _ _ (pre_v64 m c) (pre_v294 m c) (pre_arg3 m c) (pre_arg11 m c) (pre_arg12 m c)).trans rfl

set_option maxRecDepth 16384 in
set_option maxHeartbeats 40000000 in
/-- Every weakly fair execution of the reference terminates with the result at its last stage of the arguments and the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v305) = Cert.ReferenceIdeal.ReadP.val_main_v305 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v305).trans (result_eq m c),
      (h c main_arg0).trans (arg0 m c),
      (h c main_arg1).trans (arg1 m c),
      (h c main_arg2).trans (arg2 m c),
      (h c main_arg3).trans (arg3 m c),
      (h c main_arg4).trans (arg4 m c),
      (h c main_arg5).trans (arg5 m c),
      (h c main_arg6).trans (arg6 m c),
      (h c main_arg7).trans (arg7 m c),
      (h c main_arg8).trans (arg8 m c),
      (h c main_arg9).trans (arg9 m c),
      (h c main_arg10).trans (arg10 m c),
      (h c main_arg11).trans (arg11 m c),
      (h c main_arg12).trans (arg12 m c)⟩)
    (run_seq scopedRefs_eq scopedSems_eq defs main (fun _ => ops) main_eq (fun _ => ops_sub) m ρ)

end Cert.ReferenceIdeal.RefRun

end
-- ==== Proof.KRun.lean ====
/-
  The idealized kernel's whole run, read once more with its result named.  The program is 25 tiled regions among
  stretches of host operations; the contents of every buffer at each boundary between them is a fold from the launch
  memory (a host stretch applies its operations, a region replaces its output array by what its grid points wrote back).
  Every weakly fair execution terminates without a fault, the thirteen argument arrays end as launched, and the result
  array ends at the last stage of that fold read at the result buffer.  The value of that last stage, as a function of
  the arguments, is worked out stage by stage in the sibling modules.
-/
import proofs.«146329_j1168231104595_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    stage of the boundary fold read at the result buffer, and each argument array ends as launched. -/
theorem run_value : θ_run defs (onTc (τ := τ) (main (F := F))) ⟨m, fun _ => 0, ρ⟩ (fun r => ∀ c : Dev nD,
      r.2.mem ((c.tc : Thread nD τ).loc main_v278) = W51 m ρ c (Proc.devRef .tc main_v278)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W51 m ρ c b)
    (hfin := fun c s' => by
      iintro ⟨⟨Hh, -⟩, HSI⟩
      unfold StableHlo.held
      imodintro
      iapply (pointsTo_read_all (Pipeline.ucRefs τ sig) (fun b => (((c : Thread nD τ)).1, b)) (W51 m ρ c) s')
      isplitl [Hh] <;> iassumption)
    (hQ := fun s h c =>
      ⟨h c _ (mem_uc main_v278 (by decide)),
       (h c _ (mem_uc main_arg0 (by decide))).trans (W51_main_arg0 m ρ c),
       (h c _ (mem_uc main_arg1 (by decide))).trans (W51_main_arg1 m ρ c),
       (h c _ (mem_uc main_arg2 (by decide))).trans (W51_main_arg2 m ρ c),
       (h c _ (mem_uc main_arg3 (by decide))).trans (W51_main_arg3 m ρ c),
       (h c _ (mem_uc main_arg4 (by decide))).trans (W51_main_arg4 m ρ c),
       (h c _ (mem_uc main_arg5 (by decide))).trans (W51_main_arg5 m ρ c),
       (h c _ (mem_uc main_arg6 (by decide))).trans (W51_main_arg6 m ρ c),
       (h c _ (mem_uc main_arg7 (by decide))).trans (W51_main_arg7 m ρ c),
       (h c _ (mem_uc main_arg8 (by decide))).trans (W51_main_arg8 m ρ c),
       (h c _ (mem_uc main_arg9 (by decide))).trans (W51_main_arg9 m ρ c),
       (h c _ (mem_uc main_arg10 (by decide))).trans (W51_main_arg10 m ρ c),
       (h c _ (mem_uc main_arg11 (by decide))).trans (W51_main_arg11 m ρ c),
       (h c _ (mem_uc main_arg12 (by decide))).trans (W51_main_arg12 m ρ c)⟩)

end Cert.KernelIdeal.KV

end
-- ==== Proof.KForms.lean ====
/-
  The tiled linear maps read against the whole matrix products.  A grid point T of a region sees rows 5000·T …
  5000·T + 4999 of the left operand and the whole of the weight; the product's entry (r, q) of the block is the sum over
  the contracted coordinate k of block(r, k) · weight(k, q), and block(r, k) is the array's entry (5000·T + r, k), so the
  block's entry is the whole product's entry at row 5000·T + r, column q.
-/
import proofs.«146329_j1168231104595_1_alg».proof.KernelIdeal
import proofs.«146329_j1168231104595_1_alg».proof.ReferenceIdeal
import proofs.«146329_j1168231104595_1_alg».proof.Proof.Gen.KernelIdeal
import proofs.«146329_j1168231104595_1_alg».proof.Proof.Gen.ReferenceIdeal
import proofs.«146329_j1168231104595_1_alg».proof.Proof.Gen.KernelIdeal.Skeleton
import proofs.«146329_j1168231104595_1_alg».proof.Proof.LibRowOps
import proofs.«146329_j1168231104595_1_alg».proof.Proof.LibHostDot
import proofs.«146329_j1168231104595_1_alg».proof.Proof.Dense
import Idealize.ShloMosaic.Lib.Pipeline.Value
import Idealize.ShloMosaic.Lib.ValueIdx
import Idealize.ShloMosaic.PureOps.Ideal.Laws

noncomputable section

open scoped BigOperators

namespace Cert.KV.KForms

open Cert.KernelIdeal Cert.KernelIdeal.Gen Idealize.ShloMosaic Idealize.ShloMosaic.TcCoe
open Idealize.ShloMosaic.ValueIdx

/-! ## A block entry is the array entry of its row -/

/-- Splitting a block index and the matching array index into coordinates: same column, row 5000·T + r. -/
theorem split {n : ℕ} (T : ℕ) (j : (⟨2, ![5000, n]⟩ : Shape).Idx) (i : (⟨2, ![100000, n]⟩ : Shape).Idx)
    (hi0 : (i 0).val = 5000 * T + (j 0).val) (hi1 : (i 1).val = (j 1).val) :
    ∃ (r : Fin 5000) (R : Fin 100000) (q : Fin n), j = ix2 r q ∧ i = ix2 R q ∧ R.val = 5000 * T + r.val :=
  ⟨j 0, i 0, j 1, eq_ix2 j, (eq_ix2 i).trans (congrArg (fun q : Fin n => ix2 (i 0 : Fin 100000) q) (Fin.ext hi1)), hi0⟩

/-! ## The matrix products: a block's product entry is the whole product's entry of its row -/

theorem mm16_at (A : FVec Ideal Cert.ReferenceIdeal.S100000x16 .f32) (B : FVec Ideal Cert.ReferenceIdeal.S16x16 .f32)
    (X0 : Vec Ideal S5000x16 .f32) (X1 : Vec Ideal S16x16 .f32) (T : ℕ)
    (h0 : ∀ (x : S5000x16.Idx) (k : S100000x16.Idx), (k 0).val = 5000 * T + (x 0).val → (k 1).val = (x 1).val → X0 x = A k)
    (h1 : ∀ x : S16x16.Idx, X1 x = B x)
    (j : S5000x16.Idx) (i : S100000x16.Idx) (hi0 : (i 0).val = 5000 * T + (j 0).val) (hi1 : (i 1).val = (j 1).val) :
    k4_pay1 (F := Ideal) X0 X1 j
      = Host.dotGeneral (F := Ideal) Cert.ReferenceIdeal.dot_S100000x16_S16x16_S100000x16_1_0_0_1_n_n none A B i := by
  obtain ⟨r, R, q, rfl, rfl, hR⟩ := split T j i hi0 hi1
  refine Eq.trans ?_ (Cert.LibHostDot.dotGeneral_plain_apply' Cert.ReferenceIdeal.dot_S100000x16_S16x16_S100000x16_1_0_0_1_n_n
    Cert.ReferenceIdeal.dot_S100000x16_S16x16_S100000x16_1_0_0_1_n_n.wf rfl none A B R q).symm
  rw [Cert.KV.Dense.pay_mm16]
  refine Finset.sum_congr rfl fun k _ => ?_
  rw [h0 (ix2 r k) (ix2 R k) hR rfl, h1]

theorem mm16_at' (A : FVec Ideal Cert.ReferenceIdeal.S100000x16 .f32) (B : FVec Ideal Cert.ReferenceIdeal.S16x16 .f32)
    (X0 : Vec Ideal S5000x16 .f32) (X1 : Vec Ideal S16x16 .f32) (T : ℕ)
    (h0 : ∀ (x : S5000x16.Idx) (k : S100000x16.Idx), (k 0).val = 5000 * T + (x 0).val → (k 1).val = (x 1).val → X0 x = A k)
    (h1 : ∀ x : S16x16.Idx, X1 x = B x)
    (j : S5000x16.Idx) (i : S100000x16.Idx) (hi0 : (i 0).val = 5000 * T + (j 0).val) (hi1 : (i 1).val = (j 1).val) :
    k6_pay1 (F := Ideal) X0 X1 j
      = Host.dotGeneral (F := Ideal) Cert.ReferenceIdeal.dot_S100000x16_S16x16_S100000x16_1_0_0_1_n_n none A B i := by
  obtain ⟨r, R, q, rfl, rfl, hR⟩ := split T j i hi0 hi1
  refine Eq.trans ?_ (Cert.LibHostDot.dotGeneral_plain_apply' Cert.ReferenceIdeal.dot_S100000x16_S16x16_S100000x16_1_0_0_1_n_n
    Cert.ReferenceIdeal.dot_S100000x16_S16x16_S100000x16_1_0_0_1_n_n.wf rfl none A B R q).symm
  rw [Cert.KV.Dense.pay_mm16']
  refine Finset.sum_congr rfl fun k _ => ?_
  rw [h0 (ix2 r k) (ix2 R k) hR rfl, h1]

theorem mm128_at (A : FVec Ideal Cert.ReferenceIdeal.S100000x128 .f32) (B : FVec Ideal Cert.ReferenceIdeal.S128x128 .f32)
    (X0 : Vec Ideal S5000x128 .f32) (X1 : Vec Ideal S128x128 .f32) (T : ℕ)
    (h0 : ∀ (x : S5000x128.Idx) (k : S100000x128.Idx), (k 0).val = 5000 * T + (x 0).val → (k 1).val = (x 1).val → X0 x = A k)
    (h1 : ∀ x : S128x128.Idx, X1 x = B x)
    (j : S5000x128.Idx) (i : S100000x128.Idx) (hi0 : (i 0).val = 5000 * T + (j 0).val) (hi1 : (i 1).val = (j 1).val) :
    k0_pay1 (F := Ideal) X0 X1 j
      = Host.dotGeneral (F := Ideal) Cert.ReferenceIdeal.dot_S100000x128_S128x128_S100000x128_1_0_0_1_n_n none A B i := by
  obtain ⟨r, R, q, rfl, rfl, hR⟩ := split T j i hi0 hi1
  refine Eq.trans ?_ (Cert.LibHostDot.dotGeneral_plain_apply' Cert.ReferenceIdeal.dot_S100000x128_S128x128_S100000x128_1_0_0_1_n_n
    Cert.ReferenceIdeal.dot_S100000x128_S128x128_S100000x128_1_0_0_1_n_n.wf rfl none A B R q).symm
  rw [Cert.KV.Dense.pay_mm128]
  refine Finset.sum_congr rfl fun k _ => ?_
  rw [h0 (ix2 r k) (ix2 R k) hR rfl, h1]

theorem mm128_at' (A : FVec Ideal Cert.ReferenceIdeal.S100000x128 .f32) (B : FVec Ideal Cert.ReferenceIdeal.S128x128 .f32)
    (X0 : Vec Ideal S5000x128 .f32) (X1 : Vec Ideal S128x128 .f32) (T : ℕ)
    (h0 : ∀ (x : S5000x128.Idx) (k : S100000x128.Idx), (k 0).val = 5000 * T + (x 0).val → (k 1).val = (x 1).val → X0 x = A k)
    (h1 : ∀ x : S128x128.Idx, X1 x = B x)
    (j : S5000x128.Idx) (i : S100000x128.Idx) (hi0 : (i 0).val = 5000 * T + (j 0).val) (hi1 : (i 1).val = (j 1).val) :
    k2_pay1 (F := Ideal) X0 X1 j
      = Host.dotGeneral (F := Ideal) Cert.ReferenceIdeal.dot_S100000x128_S128x128_S100000x128_1_0_0_1_n_n none A B i := by
  obtain ⟨r, R, q, rfl, rfl, hR⟩ := split T j i hi0 hi1
  refine Eq.trans ?_ (Cert.LibHostDot.dotGeneral_plain_apply' Cert.ReferenceIdeal.dot_S100000x128_S128x128_S100000x128_1_0_0_1_n_n
    Cert.ReferenceIdeal.dot_S100000x128_S128x128_S100000x128_1_0_0_1_n_n.wf rfl none A B R q).symm
  rw [Cert.KV.Dense.pay_mm128']
  refine Finset.sum_congr rfl fun k _ => ?_
  rw [h0 (ix2 r k) (ix2 R k) hR rfl, h1]

end Cert.KV.KForms

end
-- ==== Proof.Reg0.lean ====
/-
  Region 0: a feature layer's linear map.  Point t reads rows 5000·t … of the feature array (128 columns) and the whole
  128×128 weight and writes the same rows of the product; read back after the last point the output array is the plain
  matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 5000·t … 5000·t + 4999 of its array. -/
theorem iblk0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c (Pipeline.arrRef spec0 0) : S100000x128.Idx → Elt Ideal .f32) k := by
  obtain ⟨e0, e1, -, -, -, -⟩ := idx t
  unfold iblk0
  rw [View.read_apply]
  show (V c (Pipeline.arrRef spec0 0) : S100000x128.Idx → Elt Ideal .f32) _ = _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Window 1's block at every point is the whole of its (small) array. -/
theorem iblk1_apply (c : Dev nD) (t : Fin cfg0.N) (x : S128x128.Idx) :
    (iblk0 V c 1 t : Vec Ideal S128x128 .f32) x = (V c (Pipeline.arrRef spec0 1) : S128x128.Idx → Elt Ideal .f32) x := by
  obtain ⟨-, -, e0, e1, -, -⟩ := idx t
  unfold iblk0
  rw [View.read_apply]
  show (V c (Pipeline.arrRef spec0 1) : S128x128.Idx → Elt Ideal .f32) _ = _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- What point t writes back is block t of the whole-array function of the arrays as the region finds them. -/
theorem flushed_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none (V c (Pipeline.arrRef spec0 0) : FVec Ideal S100000x128 .f32) (V c (Pipeline.arrRef spec0 1) : FVec Ideal S128x128 .f32)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e0, e1⟩ := idx t
  funext j
  refine Cert.KV.KForms.mm128_at (V c (Pipeline.arrRef spec0 0) : FVec Ideal S100000x128 .f32) (V c (Pipeline.arrRef spec0 1) : FVec Ideal S128x128 .f32) (iblk0 V c 0 t) (iblk0 V c 1 t) t.val (fun x k h0 h1 => iblk0_apply V c t x k h0 h1) (fun x => iblk1_apply V c t x) j _ ?_ ?_
  · show win0_2.index t 0 * 5000 + 1 * (j 0).val = 5000 * t.val + (j 0).val; rw [e0]; omega
  · show win0_2.index t 1 * 128 + 1 * (j 1).val = (j 1).val; rw [e1]; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row lies in some point's block: row i in block i / 5000. -/
theorem cover (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_2 _, ?_⟩
  rw [mem_blk]
  obtain ⟨-, -, -, -, e0, e1⟩ := idx ⟨(i 0).val / 5000, by rw [hN]; omega⟩
  intro a
  match a with
  | ⟨0, _⟩ => show win0_2.index _ 0 * 5000 ≤ (i 0).val ∧ (i 0).val < win0_2.index _ 0 * 5000 + 5000; rw [e0]; show (i 0).val / 5000 * 5000 ≤ (i 0).val ∧ (i 0).val < (i 0).val / 5000 * 5000 + 5000; omega
  | ⟨1, _⟩ => show win0_2.index _ 1 * 128 ≤ (i 1).val ∧ (i 1).val < win0_2.index _ 1 * 128 + 128; rw [e1]; omega

/-- The output array after the region, as one function of the arrays the region finds. -/
theorem final (c : Dev nD) :
    (dat0 V c).arrAt 2 cfg0.N
      = Host.dotGeneral (F := Ideal) (φ₁ := .f32) (φ₂ := .f32) Cert.ReferenceIdeal.dot_S100000x128_S128x128_S100000x128_1_0_0_1_n_n none (V c (Pipeline.arrRef spec0 0) : FVec Ideal S100000x128 .f32) (V c (Pipeline.arrRef spec0 1) : FVec Ideal S128x128 .f32) :=
  (dat0 V c).arrAt_eq_of_cover 2 _ (fun t _ => flushed_eq V c t) (cover)

end Cert.KernelIdeal.KV.Reg0

end
-- ==== Proof.Reg1.lean ====
/-
  Region 1: a feature layer's bias step.  Point t reads rows 5000·t … of the aggregated sums (128 columns) and the whole
  bias row and writes the sums plus the bias, cut off below at zero; read back after the last point the output array is that
  function of the sums as the region finds them and of the bias vector whose row the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point t is rows 5000·t … 5000·t + 4999 of its array. -/
theorem iblk0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c (Pipeline.arrRef spec1 0) : S100000x128.Idx → Elt Ideal .f32) k := by
  obtain ⟨e0, e1, -, -, -, -⟩ := idx t
  unfold iblk1
  rw [View.read_apply]
  show (V c (Pipeline.arrRef spec1 0) : S100000x128.Idx → Elt Ideal .f32) _ = _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Window 1's block at every point is the whole of its (small) array. -/
theorem iblk1_apply (c : Dev nD) (t : Fin cfg1.N) (x : S1x128.Idx) :
    (iblk1 V c 1 t : Vec Ideal S1x128 .f32) x = (V c (Pipeline.arrRef spec1 1) : S1x128.Idx → Elt Ideal .f32) x := by
  obtain ⟨-, -, e0, e1, -, -⟩ := idx t
  unfold iblk1
  rw [View.read_apply]
  show (V c (Pipeline.arrRef spec1 1) : S1x128.Idx → Elt Ideal .f32) _ = _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- What point t writes back is block t of the whole-array function of the arrays as the region finds them. -/
theorem flushed_eq (c : Dev nD) (b : FVec Ideal Cert.ReferenceIdeal.S128 .f32)
    (hb : ∀ q : Fin 128, (V c (Pipeline.arrRef spec1 1) : S1x128.Idx → Elt Ideal .f32) (ix2 (0 : Fin 1) q) = b (ix1 q)) (t : Fin cfg1.N) :
    (dat1 V c).flushed 2 t = ((cfg1.win 2).blk t).view.read (Elt Ideal)
      (Cert.KV.Dense.refBiasRelu128 (V c (Pipeline.arrRef spec1 0) : FVec Ideal S100000x128 .f32) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e0, e1⟩ := idx t
  funext j
  refine Cert.KV.Dense.biasrelu128_at (V c (Pipeline.arrRef spec1 0) : FVec Ideal S100000x128 .f32) b (iblk1 V c 0 t) (iblk1 V c 1 t) t.val (fun x k h0 h1 => iblk0_apply V c t x k h0 h1) (fun q => (iblk1_apply V c t (ix2 (0 : Fin 1) q)).trans (hb q)) j _ ?_ ?_
  · show win1_2.index t 0 * 5000 + 1 * (j 0).val = 5000 * t.val + (j 0).val; rw [e0]; omega
  · show win1_2.index t 1 * 128 + 1 * (j 1).val = (j 1).val; rw [e1]; omega

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row lies in some point's block: row i in block i / 5000. -/
theorem cover (i : S100000x128.Idx) : ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_2 _, ?_⟩
  rw [mem_blk]
  obtain ⟨-, -, -, -, e0, e1⟩ := idx ⟨(i 0).val / 5000, by rw [hN]; omega⟩
  intro a
  match a with
  | ⟨0, _⟩ => show win1_2.index _ 0 * 5000 ≤ (i 0).val ∧ (i 0).val < win1_2.index _ 0 * 5000 + 5000; rw [e0]; show (i 0).val / 5000 * 5000 ≤ (i 0).val ∧ (i 0).val < (i 0).val / 5000 * 5000 + 5000; omega
  | ⟨1, _⟩ => show win1_2.index _ 1 * 128 ≤ (i 1).val ∧ (i 1).val < win1_2.index _ 1 * 128 + 128; rw [e1]; omega

/-- The output array after the region, as one function of the arrays the region finds. -/
theorem final (c : Dev nD) (b : FVec Ideal Cert.ReferenceIdeal.S128 .f32)
    (hb : ∀ q : Fin 128, (V c (Pipeline.arrRef spec1 1) : S1x128.Idx → Elt Ideal .f32) (ix2 (0 : Fin 1) q) = b (ix1 q)) :
    (dat1 V c).arrAt 2 cfg1.N
      = Cert.KV.Dense.refBiasRelu128 (V c (Pipeline.arrRef spec1 0) : FVec Ideal S100000x128 .f32) b :=
  (dat1 V c).arrAt_eq_of_cover 2 _ (fun t _ => flushed_eq V c b hb t) (cover)

end Cert.KernelIdeal.KV.Reg1

end
-- ==== Proof.Reg2.lean ====
/-
  Region 2: a feature layer's linear map.  Point t reads rows 5000·t … of the feature array (128 columns) and the whole
  128×128 weight and writes the same rows of the product; read back after the last point the output array is the plain
  matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Window 0's block at point t is rows 5000·t … 5000·t + 4999 of its array. -/
theorem iblk0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c (Pipeline.arrRef spec2 0) : S100000x128.Idx → Elt Ideal .f32) k := by
  obtain ⟨e0, e1, -, -, -, -⟩ := idx t
  unfold iblk2
  rw [View.read_apply]
  show (V c (Pipeline.arrRef spec2 0) : S100000x128.Idx → Elt Ideal .f32) _ = _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Window 1's block at every point is the whole of its (small) array. -/
theorem iblk1_apply (c : Dev nD) (t : Fin cfg2.N) (x : S128x128.Idx) :
    (iblk2 V c 1 t : Vec Ideal S128x128 .f32) x = (V c (Pipeline.arrRef spec2 1) : S128x128.Idx → Elt Ideal .f32) x := by
  obtain ⟨-, -, e0, e1, -, -⟩ := idx t
  unfold iblk2
  rw [View.read_apply]
  show (V c (Pipeline.arrRef spec2 1) : S128x128.Idx → Elt Ideal .f32) _ = _
  congr 1
  funext a
  apply Fin.ext
  match a with
  | ⟨0, _⟩ => show win2_1.index t 0 * 128 + 1 * (x 0).val = (x 0).val; rw [e0]; omega
  | ⟨1, _⟩ => show win2_1.index t 1 * 128 + 1 * (x 1).val = (x 1).val; rw [e1]; omega

/-- What point t writes back is block t of the whole-array function of the arrays as the region finds them. -/
theorem flushed_eq (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S100000x128_S128x128_S100000x128_1_0_0_1_n_n none (V c (Pipeline.arrRef spec2 0) : FVec Ideal S100000x128 .f32) (V c (Pipeline.arrRef spec2 1) : FVec Ideal S128x128 .f32)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e0, e1⟩ := idx t
  funext j
  refine Cert.KV.KForms.mm128_at' (V c (Pipeline.arrRef spec2 0) : FVec Ideal S100000x128 .f32) (V c (Pipeline.arrRef spec2 1) : FVec Ideal S128x128 .f32) (iblk2 V c 0 t) (iblk2 V c 1 t) t.val (fun x k h0 h1 => iblk0_apply V c t x k h0 h1) (fun x => iblk1_apply V c t x) j _ ?_ ?_
  · show win2_2.index t 0 * 5000 + 1 * (j 0).val = 5000 * t.val + (j 0).val; rw [e0]; omega
  · show win2_2.index t 1 * 128 + 1 * (j 1).val = (j 1).val; rw [e1]; omega

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every row lies in some point's block: row i in block i / 5000. -/
theorem cover (i : S100000x128.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  refine ⟨⟨(i 0).val / 5000, by rw [hN]; omega⟩, flush2_2 _, ?_⟩
  rw [mem_blk]
  obtain ⟨-, -, -, -, e0, e1⟩ := idx ⟨(i 0).val / 5000, by rw [hN]; omega⟩
  intro a
  match a with
  | ⟨0, _⟩ => show win2_2.index _ 0 * 5000 ≤ (i 0).val ∧ (i 0).val < win2_2.index _ 0 * 5000 + 5000; rw [e0]; show (i 0).val / 5000 * 5000 ≤ (i 0).val ∧ (i 0).val < (i 0).val / 5000 * 5000 + 5000; omega
  | ⟨1, _⟩ => show win2_2.index _ 1 * 128 ≤ (i 1).val ∧ (i 1).val < win2_2.index _ 1 * 128 + 128; rw [e1]; omega

/-- The output array after the region, as one function of the arrays the region finds. -/
theorem final (c : Dev nD) :
    (dat2 V c).arrAt 2 cfg2.N
      = Host.dotGeneral (F := Ideal) (φ₁ := .f32) (φ₂ := .f32) Cert.ReferenceIdeal.dot_S100000x128_S128x128_S100000x128_1_0_0_1_n_n none (V c (Pipeline.arrRef spec2 0) : FVec Ideal S100000x128 .f32) (V c (Pipeline.arrRef spec2 1) : FVec Ideal S128x128 .f32) :=
  (dat2 V c).arrAt_eq_of_cover 2 _ (fun t _ => flushed_eq V c t) (cover)

end Cert.KernelIdeal.KV.Reg2

end
-- ==== Proof.Reg3.lean ====
/-
  Region 3: a feature layer's bias step.  Point t reads rows 5000·t … of the aggregated sums (128 columns) and the whole
  bias row and writes the sums plus the bias; read back after the last point the output array is that
  function of the sums as the region finds them and of the bias vector whose row the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point t is rows 5000·t … 5000·t + 4999 of its array. -/
theorem iblk0_apply (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c (Pipeline.arrRef spec3 0) : S100000x128.Idx → Elt Ideal .f32) k := by
  obtain ⟨e0, e1, -, -, -, -⟩ := idx t
  unfold iblk3
  rw [View.read_apply]
  show (V c (Pipeline.arrRef spec3 0) : S100000x128.Idx → Elt Ideal .f32) _ = _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- Window 1's block at every point is the whole of its (small) array. -/
theorem iblk1_apply (c : Dev nD) (t : Fin cfg3.N) (x : S1x128.Idx) :
    (iblk3 V c 1 t : Vec Ideal S1x128 .f32) x = (V c (Pipeline.arrRef spec3 1) : S1x128.Idx → Elt Ideal .f32) x := by
  obtain ⟨-, -, e0, e1, -, -⟩ := idx t
  unfold iblk3
  rw [View.read_apply]
  show (V c (Pipeline.arrRef spec3 1) : S1x128.Idx → Elt Ideal .f32) _ = _
  congr 1
  funext a
  apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

/-- What point t writes back is block t of the whole-array function of the arrays as the region finds them. -/
theorem flushed_eq (c : Dev nD) (b : FVec Ideal Cert.ReferenceIdeal.S128 .f32)
    (hb : ∀ q : Fin 128, (V c (Pipeline.arrRef spec3 1) : S1x128.Idx → Elt Ideal .f32) (ix2 (0 : Fin 1) q) = b (ix1 q)) (t : Fin cfg3.N) :
    (dat3 V c).flushed 2 t = ((cfg3.win 2).blk t).view.read (Elt Ideal)
      (Cert.KV.Dense.refBias128 (V c (Pipeline.arrRef spec3 0) : FVec Ideal S100000x128 .f32) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e0, e1⟩ := idx t
  funext j
  refine Cert.KV.Dense.bias128_at (V c (Pipeline.arrRef spec3 0) : FVec Ideal S100000x128 .f32) b (iblk3 V c 0 t) (iblk3 V c 1 t) t.val (fun x k h0 h1 => iblk0_apply V c t x k h0 h1) (fun q => (iblk1_apply V c t (ix2 (0 : Fin 1) q)).trans (hb q)) j _ ?_ ?_
  · show win3_2.index t 0 * 5000 + 1 * (j 0).val = 5000 * t.val + (j 0).val; rw [e0]; omega
  · show win3_2.index t 1 * 128 + 1 * (j 1).val = (j 1).val; rw [e1]; omega

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every row lies in some point's block: row i in block i / 5000. -/
theorem cover (i : S100000x128.Idx) : ∃ t : Fin cfg3.N, (cfg3.win 2).flush t = true ∧ i ∈ ((cfg3.win 2).blk t).view.set := by
  have hN : cfg3.N = 20 := N_3
  have hi0 : (i 0).val < 100000 := (i 0).isLt
  have hi1 : (i 1).val < 128 := (i 1).isLt
  refine ⟨⟨(i 0).val / 5000, by rw [hN]; omega⟩, flush3_2 _, ?_⟩
  rw [mem_blk]
  obtain ⟨-, -, -, -, e0, e1⟩ := idx ⟨(i 0).val / 5000, by rw [hN]; omega⟩
  intro a
  match a with
  | ⟨0, _⟩ => show win3_2.index _ 0 * 5000 ≤ (i 0).val ∧ (i 0).val < win3_2.index _ 0 * 5000 + 5000; rw [e0]; show (i 0).val / 5000 * 5000 ≤ (i 0).val ∧ (i 0).val < (i 0).val / 5000 * 5000 + 5000; omega
  | ⟨1, _⟩ => show win3_2.index _ 1 * 128 ≤ (i 1).val ∧ (i 1).val < win3_2.index _ 1 * 128 + 128; rw [e1]; omega

/-- The output array after the region, as one function of the arrays the region finds. -/
theorem final (c : Dev nD) (b : FVec Ideal Cert.ReferenceIdeal.S128 .f32)
    (hb : ∀ q : Fin 128, (V c (Pipeline.arrRef spec3 1) : S1x128.Idx → Elt Ideal .f32) (ix2 (0 : Fin 1) q) = b (ix1 q)) :
    (dat3 V c).arrAt 2 cfg3.N
      = Cert.KV.Dense.refBias128 (V c (Pipeline.arrRef spec3 0) : FVec Ideal S100000x128 .f32) b :=
  (dat3 V c).arrAt_eq_of_cover 2 _ (fun t _ => flushed_eq V c b hb t) (cover)

end Cert.KernelIdeal.KV.Reg3

end
-- ==== Proof.HostPro.lean ====
/-
The prologue's host stretches (the self-loops, the degrees, the normalisation vector, the edge weights): what they
write, read as the reference's stages. Every statement is first proved for an arbitrary buffer valuation `V` at the
stretch's entry (`_of`); the last three are at the run's contents when the first region is entered.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- The edges' first endpoint column followed by the self-loop indices `0 … N-1`. -/
theorem host0_v3_of (V : Valuation KernelIdeal.τ KernelIdeal.sig (Elt Ideal))
    (x2 : (⟨ReferenceIdeal.S2x1600000, .i32⟩ : BufTy).Contents (Elt Ideal))
    (h_arg2 : V (Proc.devRef .tc KernelIdeal.main_arg2) = x2) :
    StableHlo.after (hostOps0 (F := Ideal)) V (Proc.devRef .tc KernelIdeal.main_v3) = val_main_v3 (F := Ideal) x2 := by
  subst h_arg2
  after_results_simp
  rfl

set_option maxRecDepth 8192 in
/-- The edges' second endpoint column followed by the self-loop indices `0 … N-1`. -/
theorem host0_v6_of (V : Valuation KernelIdeal.τ KernelIdeal.sig (Elt Ideal))
    (x2 : (⟨ReferenceIdeal.S2x1600000, .i32⟩ : BufTy).Contents (Elt Ideal))
    (h_arg2 : V (Proc.devRef .tc KernelIdeal.main_arg2) = x2) :
    StableHlo.after (hostOps0 (F := Ideal)) V (Proc.devRef .tc KernelIdeal.main_v6) = val_main_v6 (F := Ideal) x2 := by
  subst h_arg2
  after_results_simp
  rfl

set_option maxRecDepth 8192 in
/-- Which nodes have positive degree (the scatter-add of ones over the second endpoint column, compared with zero). -/
theorem host0_v12_of (V : Valuation KernelIdeal.τ KernelIdeal.sig (Elt Ideal))
    (x2 : (⟨ReferenceIdeal.S2x1600000, .i32⟩ : BufTy).Contents (Elt Ideal))
    (h_arg2 : V (Proc.devRef .tc KernelIdeal.main_arg2) = x2) :
    StableHlo.after (hostOps0 (F := Ideal)) V (Proc.devRef .tc KernelIdeal.main_v12) = val_main_v12 (F := Ideal) x2 := by
  subst h_arg2
  after_results_simp
  rfl

set_option maxRecDepth 8192 in
/-- The reciprocal square root of each node's degree. -/
theorem host0_v13_of (V : Valuation KernelIdeal.τ KernelIdeal.sig (Elt Ideal))
    (x2 : (⟨ReferenceIdeal.S2x1600000, .i32⟩ : BufTy).Contents (Elt Ideal))
    (h_arg2 : V (Proc.devRef .tc KernelIdeal.main_arg2) = x2) :
    StableHlo.after (hostOps0 (F := Ideal)) V (Proc.devRef .tc KernelIdeal.main_v13) = val_main_v13 (F := Ideal) x2 := by
  subst h_arg2
  after_results_simp
  rfl

set_option maxRecDepth 8192 in
/-- The zero that replaces the reciprocal square root at a node of degree zero. -/
theorem host0_cst_2_of (V : Valuation KernelIdeal.τ KernelIdeal.sig (Elt Ideal)) :
    StableHlo.after (hostOps0 (F := Ideal)) V (Proc.devRef .tc KernelIdeal.main_cst_2) = val_main_cst_2 (F := Ideal) := by
  after_results_simp <;> rfl

set_option maxRecDepth 8192 in
/-- The normalisation vector: the reciprocal square root of the degree where it is positive, zero elsewhere. -/
theorem host0_1_v14_of (V : Valuation KernelIdeal.τ KernelIdeal.sig (Elt Ideal))
    (x2 : (⟨ReferenceIdeal.S2x1600000, .i32⟩ : BufTy).Contents (Elt Ideal))
    (h_v12 : V (Proc.devRef .tc KernelIdeal.main_v12) = val_main_v12 (F := Ideal) x2)
    (h_v13 : V (Proc.devRef .tc KernelIdeal.main_v13) = val_main_v13 (F := Ideal) x2)
    (h_cst_2 : V (Proc.devRef .tc KernelIdeal.main_cst_2) = val_main_cst_2 (F := Ideal)) :
    StableHlo.after (hostOps0_1 (F := Ideal)) V (Proc.devRef .tc KernelIdeal.main_v14) = val_main_v14 (F := Ideal) x2 := by
  after_results_simp
  simp only [val_main_v14, val_main_call0_v1, val_main_call0_v0]
  rw [← h_v12, ← h_v13, ← h_cst_2]
  rfl

set_option maxRecDepth 8192 in
/-- The edge weights: the product of the normalisation vector at the edge's two endpoints. -/
theorem host0_2_v29_of (V : Valuation KernelIdeal.τ KernelIdeal.sig (Elt Ideal))
    (x2 : (⟨ReferenceIdeal.S2x1600000, .i32⟩ : BufTy).Contents (Elt Ideal))
    (h_v14 : V (Proc.devRef .tc KernelIdeal.main_v14) = val_main_v14 (F := Ideal) x2)
    (h_v3 : V (Proc.devRef .tc KernelIdeal.main_v3) = val_main_v3 (F := Ideal) x2)
    (h_v6 : V (Proc.devRef .tc KernelIdeal.main_v6) = val_main_v6 (F := Ideal) x2) :
    StableHlo.after (hostOps0_2 (F := Ideal)) V (Proc.devRef .tc KernelIdeal.main_v29) = val_main_v29 (F := Ideal) x2 := by
  after_results_simp
  rw [h_v14, h_v3, h_v6]
  rfl

set_option maxRecDepth 8192 in
/-- The select that forms the normalisation vector leaves the first endpoint column as it was. -/
theorem host0_1_keep_v3_of (V : Valuation KernelIdeal.τ KernelIdeal.sig (Elt Ideal)) :
    StableHlo.after (hostOps0_1 (F := Ideal)) V (Proc.devRef .tc KernelIdeal.main_v3) = V (Proc.devRef .tc KernelIdeal.main_v3) := by
  after_results_simp

set_option maxRecDepth 8192 in
/-- The select that forms the normalisation vector leaves the second endpoint column as it was. -/
theorem host0_1_keep_v6_of (V : Valuation KernelIdeal.τ KernelIdeal.sig (Elt Ideal)) :
    StableHlo.after (hostOps0_1 (F := Ideal)) V (Proc.devRef .tc KernelIdeal.main_v6) = V (Proc.devRef .tc KernelIdeal.main_v6) := by
  after_results_simp

set_option maxRecDepth 8192 in
/-- Forming the edge weights leaves the first endpoint column as it was. -/
theorem host0_2_keep_v3_of (V : Valuation KernelIdeal.τ KernelIdeal.sig (Elt Ideal)) :
    StableHlo.after (hostOps0_2 (F := Ideal)) V (Proc.devRef .tc KernelIdeal.main_v3) = V (Proc.devRef .tc KernelIdeal.main_v3) := by
  after_results_simp

set_option maxRecDepth 8192 in
/-- Forming the edge weights leaves the second endpoint column as it was. -/
theorem host0_2_keep_v6_of (V : Valuation KernelIdeal.τ KernelIdeal.sig (Elt Ideal)) :
    StableHlo.after (hostOps0_2 (F := Ideal)) V (Proc.devRef .tc KernelIdeal.main_v6) = V (Proc.devRef .tc KernelIdeal.main_v6) := by
  after_results_simp

/-! ## From the launch memory to the first region's entry -/

/-- At the first region's entry the first endpoint column is the reference's, of the launch's edge list. -/
theorem host0_v3 (c : Dev KernelIdeal.nD) :
    W3 (F := Ideal) m ρ c (Proc.devRef .tc KernelIdeal.main_v3) = val_main_v3 (F := Ideal) (m ((c : Thread KernelIdeal.nD KernelIdeal.τ).loc KernelIdeal.main_arg2)) :=
  (host0_2_keep_v3_of (W2 (F := Ideal) m ρ c)).trans ((host0_1_keep_v3_of (W1 (F := Ideal) m ρ c)).trans (host0_v3_of (W0 (F := Ideal) m ρ c) _ rfl))

/-- At the first region's entry the second endpoint column is the reference's, of the launch's edge list. -/
theorem host0_v6 (c : Dev KernelIdeal.nD) :
    W3 (F := Ideal) m ρ c (Proc.devRef .tc KernelIdeal.main_v6) = val_main_v6 (F := Ideal) (m ((c : Thread KernelIdeal.nD KernelIdeal.τ).loc KernelIdeal.main_arg2)) :=
  (host0_2_keep_v6_of (W2 (F := Ideal) m ρ c)).trans ((host0_1_keep_v6_of (W1 (F := Ideal) m ρ c)).trans (host0_v6_of (W0 (F := Ideal) m ρ c) _ rfl))

/-- At the first region's entry the edge weights are the reference's, of the launch's edge list. -/
theorem host0_v29 (c : Dev KernelIdeal.nD) :
    W3 (F := Ideal) m ρ c (Proc.devRef .tc KernelIdeal.main_v29) = val_main_v29 (F := Ideal) (m ((c : Thread KernelIdeal.nD KernelIdeal.τ).loc KernelIdeal.main_arg2)) :=
  host0_2_v29_of (W2 (F := Ideal) m ρ c) (m ((c : Thread KernelIdeal.nD KernelIdeal.τ).loc KernelIdeal.main_arg2))
    (host0_1_v14_of (W1 (F := Ideal) m ρ c) (m ((c : Thread KernelIdeal.nD KernelIdeal.τ).loc KernelIdeal.main_arg2))
      (host0_v12_of (W0 (F := Ideal) m ρ c) _ rfl) (host0_v13_of (W0 (F := Ideal) m ρ c) _ rfl) (host0_cst_2_of (W0 (F := Ideal) m ρ c)))
    ((host0_1_keep_v3_of (W1 (F := Ideal) m ρ c)).trans (host0_v3_of (W0 (F := Ideal) m ρ c) _ rfl))
    ((host0_1_keep_v6_of (W1 (F := Ideal) m ρ c)).trans (host0_v6_of (W0 (F := Ideal) m ρ c) _ rfl))

end Cert.KV.Host

end
-- ==== Proof.HostFeat.lean ====
/-
Host stretches around the two feature layers and before the label layers: what each writes, read as the
reference's stages. Every statement is first proved for an arbitrary buffer valuation `V` at the stretch's entry (`_of`),
then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- First feature layer, aggregation. With the stretch's inputs at the reference's stages (the projected features, the two edge-endpoint columns, the edge weights), its scatter-add result is the reference's: each edge's source row is gathered, scaled by the edge weight and added into the destination row. -/
theorem host1_v43_of (V : Valuation KernelIdeal.τ KernelIdeal.sig (Elt Ideal))
    (x0 : (⟨ReferenceIdeal.S100000x128, .f32⟩ : BufTy).Contents (Elt Ideal))
    (x2 : (⟨ReferenceIdeal.S2x1600000, .i32⟩ : BufTy).Contents (Elt Ideal))
    (x5 : (⟨ReferenceIdeal.S128x128, .f32⟩ : BufTy).Contents (Elt Ideal))
    (h_v6 : V (Proc.devRef .tc KernelIdeal.main_v6) = val_main_v6 (F := Ideal) x2)
    (h_v30 : V (Proc.devRef .tc KernelIdeal.main_v30) = val_main_v30 (F := Ideal) x0 x5)
    (h_v3 : V (Proc.devRef .tc KernelIdeal.main_v3) = val_main_v3 (F := Ideal) x2)
    (h_v29 : V (Proc.devRef .tc KernelIdeal.main_v29) = val_main_v29 (F := Ideal) x2) :
    StableHlo.after (hostOps1 (F := Ideal)) V (Proc.devRef .tc KernelIdeal.main_v43) = val_main_v43 (F := Ideal) x0 x2 x5 := by
  after_results_simp
  rw [h_v6, h_v30, h_v3, h_v29]
  rfl

/-- The same at the run's stage contents: the stretch's entry is stage 4, its exit stage 5. -/
theorem host1_v43 (c : Dev KernelIdeal.nD)
    (x0 : (⟨ReferenceIdeal.S100000x128, .f32⟩ : BufTy).Contents (Elt Ideal))
    (x2 : (⟨ReferenceIdeal.S2x1600000, .i32⟩ : BufTy).Contents (Elt Ideal))
    (x5 : (⟨ReferenceIdeal.S128x128, .f32⟩ : BufTy).Contents (Elt Ideal))
    (h_v6 : W4 (F := Ideal) m ρ c (Proc.devRef .tc KernelIdeal.main_v6) = val_main_v6 (F := Ideal) x2)
    (h_v30 : W4 (F := Ideal) m ρ c (Proc.devRef .tc KernelIdeal.main_v30) = val_main_v30 (F := Ideal) x0 x5)
    (h_v3 : W4 (F := Ideal) m ρ c (Proc.devRef .tc KernelIdeal.main_v3) = val_main_v3 (F := Ideal) x2)
    (h_v29 : W4 (F := Ideal) m ρ c (Proc.devRef .tc KernelIdeal.main_v29) = val_main_v29 (F := Ideal) x2) :
    W5 (F := Ideal) m ρ c (Proc.devRef .tc KernelIdeal.main_v43) = val_main_v43 (F := Ideal) x0 x2 x5 :=
  host1_v43_of (W4 (F := Ideal) m ρ c) x0 x2 x5 h_v6 h_v30 h_v3 h_v29

set_option maxRecDepth 8192 in
/-- First feature layer, bias: the `[128]` vector relaid as one `[1,128]` row. -/
theorem host1_v44_of (V : Valuation KernelIdeal.τ KernelIdeal.sig (Elt Ideal)) :
    StableHlo.after (hostOps1 (F := Ideal)) V (Proc.devRef .tc KernelIdeal.main_v44)
      = shapeCast KernelIdeal.S1x128 (V (Proc.devRef .tc KernelIdeal.main_arg6) : (⟨KernelIdeal.S128, .f32⟩ : BufTy).Contents (Elt Ideal)) KernelIdeal.Facts₀.shapeCasts_S128_S1x128 := by
  after_results_simp <;> rfl

/-- The same at the run's stage contents: the stretch's entry is stage 4, its exit stage 5. -/
theorem host1_v44 (c : Dev KernelIdeal.nD) :
    W5 (F := Ideal) m ρ c (Proc.devRef .tc KernelIdeal.main_v44)
      = shapeCast KernelIdeal.S1x128 ((W4 (F := Ideal) m ρ c) (Proc.devRef .tc KernelIdeal.main_arg6) : (⟨KernelIdeal.S128, .f32⟩ : BufTy).Contents (Elt Ideal)) KernelIdeal.Facts₀.shapeCasts_S128_S1x128 :=
  host1_v44_of (W4 (F := Ideal) m ρ c)

set_option maxRecDepth 8192 in
/-- Second feature layer, aggregation: the same gather, scale by the edge weight and scatter-add, over the second projection. -/
theorem host3_v59_of (V : Valuation KernelIdeal.τ KernelIdeal.sig (Elt Ideal))
    (x0 : (⟨ReferenceIdeal.S100000x128, .f32⟩ : BufTy).Contents (Elt Ideal))
    (x2 : (⟨ReferenceIdeal.S2x1600000, .i32⟩ : BufTy).Contents (Elt Ideal))
    (x5 : (⟨ReferenceIdeal.S128x128, .f32⟩ : BufTy).Contents (Elt Ideal))
    (x6 : (⟨ReferenceIdeal.S128, .f32⟩ : BufTy).Contents (Elt Ideal))
    (x7 : (⟨ReferenceIdeal.S128x128, .f32⟩ : BufTy).Contents (Elt Ideal))
    (h_v6 : V (Proc.devRef .tc KernelIdeal.main_v6) = val_main_v6 (F := Ideal) x2)
    (h_v46 : V (Proc.devRef .tc KernelIdeal.main_v46) = val_main_v48 (F := Ideal) x0 x2 x5 x6 x7)
    (h_v3 : V (Proc.devRef .tc KernelIdeal.main_v3) = val_main_v3 (F := Ideal) x2)
    (h_v29 : V (Proc.devRef .tc KernelIdeal.main_v29) = val_main_v29 (F := Ideal) x2) :
    StableHlo.after (hostOps3 (F := Ideal)) V (Proc.devRef .tc KernelIdeal.main_v59) = val_main_v61 (F := Ideal) x0 x2 x5 x6 x7 := by
  after_results_simp
  rw [h_v6, h_v46, h_v3, h_v29]
  rfl

/-- The same at the run's stage contents: the stretch's entry is stage 7, its exit stage 8. -/
theorem host3_v59 (c : Dev KernelIdeal.nD)
    (x0 : (⟨ReferenceIdeal.S100000x128, .f32⟩ : BufTy).Contents (Elt Ideal))
    (x2 : (⟨ReferenceIdeal.S2x1600000, .i32⟩ : BufTy).Contents (Elt Ideal))
    (x5 : (⟨ReferenceIdeal.S128x128, .f32⟩ : BufTy).Contents (Elt Ideal))
    (x6 : (⟨ReferenceIdeal.S128, .f32⟩ : BufTy).Contents (Elt Ideal))
    (x7 : (⟨ReferenceIdeal.S128x128, .f32⟩ : BufTy).Contents (Elt Ideal))
    (h_v6 : W7 (F := Ideal) m ρ c (Proc.devRef .tc KernelIdeal.main_v6) = val_main_v6 (F := Ideal) x2)
    (h_v46 : W7 (F := Ideal) m ρ c (Proc.devRef .tc KernelIdeal.main_v46) = val_main_v48 (F := Ideal) x0 x2 x5 x6 x7)
    (h_v3 : W7 (F := Ideal) m ρ c (Proc.devRef .tc KernelIdeal.main_v3) = val_main_v3 (F := Ideal) x2)
    (h_v29 : W7 (F := Ideal) m ρ c (Proc.devRef .tc KernelIdeal.main_v29) = val_main_v29 (F := Ideal) x2) :
    W8 (F := Ideal) m ρ c (Proc.devRef .tc KernelIdeal.main_v59) = val_main_v61 (F := Ideal) x0 x2 x5 x6 x7 :=
  host3_v59_of (W7 (F := Ideal) m ρ c) x0 x2 x5 x6 x7 h_v6 h_v46 h_v3 h_v29

set_option maxRecDepth 8192 in
/-- Second feature layer, bias: the `[128]` vector relaid as one `[1,128]` row. -/
theorem host3_v60_of (V : Valuation KernelIdeal.τ KernelIdeal.sig (Elt Ideal)) :
    StableHlo.after (hostOps3 (F := Ideal)) V (Proc.devRef .tc KernelIdeal.main_v60)
      = shapeCast KernelIdeal.S1x128 (V (Proc.devRef .tc KernelIdeal.main_arg8) : (⟨KernelIdeal.S128, .f32⟩ : BufTy).Contents (Elt Ideal)) KernelIdeal.Facts₀.shapeCasts_S128_S1x128 := by
  after_results_simp <;> rfl

/-- The same at the run's stage contents: the stretch's entry is stage 7, its exit stage 8. -/
theorem host3_v60 (c : Dev KernelIdeal.nD) :
    W8 (F := Ideal) m ρ c (Proc.devRef .tc KernelIdeal.main_v60)
      = shapeCast KernelIdeal.S1x128 ((W7 (F := Ideal) m ρ c) (Proc.devRef .tc KernelIdeal.main_arg8) : (⟨KernelIdeal.S128, .f32⟩ : BufTy).Contents (Elt Ideal)) KernelIdeal.Facts₀.shapeCasts_S128_S1x128 :=
  host3_v60_of (W7 (F := Ideal) m ρ c)

set_option maxRecDepth 8192 in
/-- The node mask as a `[N,1]` column. -/
theorem host4_v62_of (V : Valuation KernelIdeal.τ KernelIdeal.sig (Elt Ideal))
    (x4 : (⟨ReferenceIdeal.S100000, .i1⟩ : BufTy).Contents (Elt Ideal))
    (h_arg4 : V (Proc.devRef .tc KernelIdeal.main_arg4) = x4) :
    StableHlo.after (hostOps4 (F := Ideal)) V (Proc.devRef .tc KernelIdeal.main_v62) = val_main_v65 (F := Ideal) x4 := by
  after_results_simp
  rw [h_arg4]
  rfl

/-- The same at the run's stage contents: the stretch's entry is stage 9, its exit stage 10. -/
theorem host4_v62 (c : Dev KernelIdeal.nD)
    (x4 : (⟨ReferenceIdeal.S100000, .i1⟩ : BufTy).Contents (Elt Ideal))
    (h_arg4 : W9 (F := Ideal) m ρ c (Proc.devRef .tc KernelIdeal.main_arg4) = x4) :
    W10 (F := Ideal) m ρ c (Proc.devRef .tc KernelIdeal.main_v62) = val_main_v65 (F := Ideal) x4 :=
  host4_v62_of (W9 (F := Ideal) m ρ c) x4 h_arg4

set_option maxRecDepth 8192 in
/-- The node mask spread over the 16 label columns: the condition of every label layer's final select. -/
theorem host4_v63_of (V : Valuation KernelIdeal.τ KernelIdeal.sig (Elt Ideal))
    (x4 : (⟨ReferenceIdeal.S100000, .i1⟩ : BufTy).Contents (Elt Ideal))
    (h_arg4 : V (Proc.devRef .tc KernelIdeal.main_arg4) = x4) :
    StableHlo.after (hostOps4 (F := Ideal)) V (Proc.devRef .tc KernelIdeal.main_v63) = val_main_call3_v0 (F := Ideal) x4 := by
  after_results_simp
  rw [h_arg4]
  rfl

/-- The same at the run's stage contents: the stretch's entry is stage 9, its exit stage 10. -/
theorem host4_v63 (c : Dev KernelIdeal.nD)
    (x4 : (⟨ReferenceIdeal.S100000, .i1⟩ : BufTy).Contents (Elt Ideal))
    (h_arg4 : W9 (F := Ideal) m ρ c (Proc.devRef .tc KernelIdeal.main_arg4) = x4) :
    W10 (F := Ideal) m ρ c (Proc.devRef .tc KernelIdeal.main_v63) = val_main_call3_v0 (F := Ideal) x4 :=
  host4_v63_of (W9 (F := Ideal) m ρ c) x4 h_arg4

set_option maxRecDepth 8192 in
/-- Label layer 0's `[16,16]` weight: slab 0 of the stacked weights. -/
theorem host4_v65_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps4 (F := Ideal)) V (Proc.devRef .tc KernelIdeal.main_v65) = val_main_v67 (F := Ideal) x9 := by
  after_results_simp
  rw [h_arg9]
  rfl

/-- The same at the run's stage contents: the stretch's entry is stage 9, its exit stage 10. -/
theorem host4_v65 (c : Dev KernelIdeal.nD)
    (x9 : (⟨ReferenceIdeal.S10x16x16, .f32⟩ : BufTy).Contents (Elt Ideal))
    (h_arg9 : W9 (F := Ideal) m ρ c (Proc.devRef .tc KernelIdeal.main_arg9) = x9) :
    W10 (F := Ideal) m ρ c (Proc.devRef .tc KernelIdeal.main_v65) = val_main_v67 (F := Ideal) x9 :=
  host4_v65_of (W9 (F := Ideal) m ρ c) x9 h_arg9

end Cert.KV.Host

end
-- ==== Proof.KVTac.lean ====
/-
  Two small tools for reading one buffer through the program's stages: a buffer that a stretch of host operations does
  not write holds after the stretch what it held before.
-/
import proofs.«146329_j1168231104595_1_alg».proof.Proof.Gen.KernelIdeal.Frame

namespace Cert.KernelIdeal.KV

open Cert.KernelIdeal Cert.KernelIdeal.Gen Idealize.ShloMosaic

/-- Closes `after ops V b = V b` for a named stretch `ops` none of whose operations writes `b`: the operations' written
    buffers are listed and each is told apart from `b` by its position in the buffer table. -/
macro "keep_host " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

end Cert.KernelIdeal.KV
-- ==== Proof.KeepA0.lean ====
/-
  The buffer arg0 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA0

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg0) = W0 m ρ c (Proc.devRef .tc main_arg0) :=
  (show W1 m ρ c (Proc.devRef .tc main_arg0) = W0 m ρ c (Proc.devRef .tc main_arg0) from (by keep_host hostOps0))
theorem k2 (c : Dev nD) : W2 m ρ c (Proc.devRef .tc main_arg0) = W0 m ρ c (Proc.devRef .tc main_arg0) :=
  ((show W2 m ρ c (Proc.devRef .tc main_arg0) = W1 m ρ c (Proc.devRef .tc main_arg0) from (by keep_host hostOps0_1))).trans (k1 m ρ c)
theorem k3 (c : Dev nD) : W3 m ρ c (Proc.devRef .tc main_arg0) = W0 m ρ c (Proc.devRef .tc main_arg0) :=
  ((show W3 m ρ c (Proc.devRef .tc main_arg0) = W2 m ρ c (Proc.devRef .tc main_arg0) from (by keep_host hostOps0_2))).trans (k2 m ρ c)

end Cert.KernelIdeal.KV.KeepA0

end
-- ==== Proof.KeepA5.lean ====
/-
  The buffer arg5 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA5

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg5) = W0 m ρ c (Proc.devRef .tc main_arg5) :=
  (show W1 m ρ c (Proc.devRef .tc main_arg5) = W0 m ρ c (Proc.devRef .tc main_arg5) from (by keep_host hostOps0))
theorem k2 (c : Dev nD) : W2 m ρ c (Proc.devRef .tc main_arg5) = W0 m ρ c (Proc.devRef .tc main_arg5) :=
  ((show W2 m ρ c (Proc.devRef .tc main_arg5) = W1 m ρ c (Proc.devRef .tc main_arg5) from (by keep_host hostOps0_1))).trans (k1 m ρ c)
theorem k3 (c : Dev nD) : W3 m ρ c (Proc.devRef .tc main_arg5) = W0 m ρ c (Proc.devRef .tc main_arg5) :=
  ((show W3 m ρ c (Proc.devRef .tc main_arg5) = W2 m ρ c (Proc.devRef .tc main_arg5) from (by keep_host hostOps0_2))).trans (k2 m ρ c)

end Cert.KernelIdeal.KV.KeepA5

end
-- ==== Proof.KeepA6.lean ====
/-
  The buffer arg6 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA6

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg6) = W0 m ρ c (Proc.devRef .tc main_arg6) :=
  (show W1 m ρ c (Proc.devRef .tc main_arg6) = W0 m ρ c (Proc.devRef .tc main_arg6) from (by keep_host hostOps0))
theorem k2 (c : Dev nD) : W2 m ρ c (Proc.devRef .tc main_arg6) = W0 m ρ c (Proc.devRef .tc main_arg6) :=
  ((show W2 m ρ c (Proc.devRef .tc main_arg6) = W1 m ρ c (Proc.devRef .tc main_arg6) from (by keep_host hostOps0_1))).trans (k1 m ρ c)
theorem k3 (c : Dev nD) : W3 m ρ c (Proc.devRef .tc main_arg6) = W0 m ρ c (Proc.devRef .tc main_arg6) :=
  ((show W3 m ρ c (Proc.devRef .tc main_arg6) = W2 m ρ c (Proc.devRef .tc main_arg6) from (by keep_host hostOps0_2))).trans (k2 m ρ c)
theorem k4 (c : Dev nD) : W4 m ρ c (Proc.devRef .tc main_arg6) = W0 m ρ c (Proc.devRef .tc main_arg6) :=
  (W4_of_ne m ρ c main_arg6 (by decide)).trans (k3 m ρ c)

end Cert.KernelIdeal.KV.KeepA6

end
-- ==== Proof.KeepA7.lean ====
/-
  The buffer arg7 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA7

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg7) = W0 m ρ c (Proc.devRef .tc main_arg7) :=
  (show W1 m ρ c (Proc.devRef .tc main_arg7) = W0 m ρ c (Proc.devRef .tc main_arg7) from (by keep_host hostOps0))
theorem k2 (c : Dev nD) : W2 m ρ c (Proc.devRef .tc main_arg7) = W0 m ρ c (Proc.devRef .tc main_arg7) :=
  ((show W2 m ρ c (Proc.devRef .tc main_arg7) = W1 m ρ c (Proc.devRef .tc main_arg7) from (by keep_host hostOps0_1))).trans (k1 m ρ c)
theorem k3 (c : Dev nD) : W3 m ρ c (Proc.devRef .tc main_arg7) = W0 m ρ c (Proc.devRef .tc main_arg7) :=
  ((show W3 m ρ c (Proc.devRef .tc main_arg7) = W2 m ρ c (Proc.devRef .tc main_arg7) from (by keep_host hostOps0_2))).trans (k2 m ρ c)
theorem k4 (c : Dev nD) : W4 m ρ c (Proc.devRef .tc main_arg7) = W0 m ρ c (Proc.devRef .tc main_arg7) :=
  (W4_of_ne m ρ c main_arg7 (by decide)).trans (k3 m ρ c)
theorem k5 (c : Dev nD) : W5 m ρ c (Proc.devRef .tc main_arg7) = W0 m ρ c (Proc.devRef .tc main_arg7) :=
  ((show W5 m ρ c (Proc.devRef .tc main_arg7) = W4 m ρ c (Proc.devRef .tc main_arg7) from (by keep_host hostOps1))).trans (k4 m ρ c)
theorem k6 (c : Dev nD) : W6 m ρ c (Proc.devRef .tc main_arg7) = W0 m ρ c (Proc.devRef .tc main_arg7) :=
  (W6_of_ne m ρ c main_arg7 (by decide)).trans (k5 m ρ c)

end Cert.KernelIdeal.KV.KeepA7

end
-- ==== Proof.KeepA8.lean ====
/-
  The buffer arg8 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA8

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg8) = W0 m ρ c (Proc.devRef .tc main_arg8) :=
  (show W1 m ρ c (Proc.devRef .tc main_arg8) = W0 m ρ c (Proc.devRef .tc main_arg8) from (by keep_host hostOps0))
theorem k2 (c : Dev nD) : W2 m ρ c (Proc.devRef .tc main_arg8) = W0 m ρ c (Proc.devRef .tc main_arg8) :=
  ((show W2 m ρ c (Proc.devRef .tc main_arg8) = W1 m ρ c (Proc.devRef .tc main_arg8) from (by keep_host hostOps0_1))).trans (k1 m ρ c)
theorem k3 (c : Dev nD) : W3 m ρ c (Proc.devRef .tc main_arg8) = W0 m ρ c (Proc.devRef .tc main_arg8) :=
  ((show W3 m ρ c (Proc.devRef .tc main_arg8) = W2 m ρ c (Proc.devRef .tc main_arg8) from (by keep_host hostOps0_2))).trans (k2 m ρ c)
theorem k4 (c : Dev nD) : W4 m ρ c (Proc.devRef .tc main_arg8) = W0 m ρ c (Proc.devRef .tc main_arg8) :=
  (W4_of_ne m ρ c main_arg8 (by decide)).trans (k3 m ρ c)
theorem k5 (c : Dev nD) : W5 m ρ c (Proc.devRef .tc main_arg8) = W0 m ρ c (Proc.devRef .tc main_arg8) :=
  ((show W5 m ρ c (Proc.devRef .tc main_arg8) = W4 m ρ c (Proc.devRef .tc main_arg8) from (by keep_host hostOps1))).trans (k4 m ρ c)
theorem k6 (c : Dev nD) : W6 m ρ c (Proc.devRef .tc main_arg8) = W0 m ρ c (Proc.devRef .tc main_arg8) :=
  (W6_of_ne m ρ c main_arg8 (by decide)).trans (k5 m ρ c)
theorem k7 (c : Dev nD) : W7 m ρ c (Proc.devRef .tc main_arg8) = W0 m ρ c (Proc.devRef .tc main_arg8) :=
  (W7_of_ne m ρ c main_arg8 (by decide)).trans (k6 m ρ c)

end Cert.KernelIdeal.KV.KeepA8

end
-- ==== Proof.KeepV3.lean ====
/-
  The buffer v3 is written by no region and by no host stretch after stage 3: at every later stage it holds what it
  held at stage 3.  One step per stage: a region leaves every buffer that is not one of its arrays, a host
  stretch every buffer none of its operations writes.
-/
import proofs.«146329_j1168231104595_1_alg».proof.Proof.KVTac

set_option maxRecDepth 16384

noncomputable section

namespace Cert.KernelIdeal.KV.KeepV3

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k4 (c : Dev nD) : W4 m ρ c (Proc.devRef .tc main_v3) = W3 m ρ c (Proc.devRef .tc main_v3) :=
  W4_of_ne m ρ c main_v3 (by decide)
theorem k5 (c : Dev nD) : W5 m ρ c (Proc.devRef .tc main_v3) = W3 m ρ c (Proc.devRef .tc main_v3) :=
  ((show W5 m ρ c (Proc.devRef .tc main_v3) = W4 m ρ c (Proc.devRef .tc main_v3) from (by keep_host hostOps1))).trans (k4 m ρ c)
theorem k6 (c : Dev nD) : W6 m ρ c (Proc.devRef .tc main_v3) = W3 m ρ c (Proc.devRef .tc main_v3) :=
  (W6_of_ne m ρ c main_v3 (by decide)).trans (k5 m ρ c)
theorem k7 (c : Dev nD) : W7 m ρ c (Proc.devRef .tc main_v3) = W3 m ρ c (Proc.devRef .tc main_v3) :=
  (W7_of_ne m ρ c main_v3 (by decide)).trans (k6 m ρ c)
theorem k8 (c : Dev nD) : W8 m ρ c (Proc.devRef .tc main_v3) = W3 m ρ c (Proc.devRef .tc main_v3) :=
  ((show W8 m ρ c (Proc.devRef .tc main_v3) = W7 m ρ c (Proc.devRef .tc main_v3) from (by keep_host hostOps3))).trans (k7 m ρ c)
theorem k9 (c : Dev nD) : W9 m ρ c (Proc.devRef .tc main_v3) = W3 m ρ c (Proc.devRef .tc main_v3) :=
  (W9_of_ne m ρ c main_v3 (by decide)).trans (k8 m ρ c)
theorem k10 (c : Dev nD) : W10 m ρ c (Proc.devRef .tc main_v3) = W3 m ρ c (Proc.devRef .tc main_v3) :=
  ((show W10 m ρ c (Proc.devRef .tc main_v3) = W9 m ρ c (Proc.devRef .tc main_v3) from (by keep_host hostOps4))).trans (k9 m ρ c)
theorem k11 (c : Dev nD) : W11 m ρ c (Proc.devRef .tc main_v3) = W3 m ρ c (Proc.devRef .tc main_v3) :=
  (W11_of_ne m ρ c main_v3 (by decide)).trans (k10 m ρ c)
theorem k12 (c : Dev nD) : W12 m ρ c (Proc.devRef .tc main_v3) = W3 m ρ c (Proc.devRef .tc main_v3) :=
  ((show W12 m ρ c (Proc.devRef .tc main_v3) = W11 m ρ c (Proc.devRef .tc main_v3) from (by keep_host hostOps5))).trans (k11 m ρ c)
theorem k13 (c : Dev nD) : W13 m ρ c (Proc.devRef .tc main_v3) = W3 m ρ c (Proc.devRef .tc main_v3) :=
  (W13_of_ne m ρ c main_v3 (by decide)).trans (k12 m ρ c)
theorem k14 (c : Dev nD) : W14 m ρ c (Proc.devRef .tc main_v3) = W3 m ρ c (Proc.devRef .tc main_v3) :=
  ((show W14 m ρ c (Proc.devRef .tc main_v3) = W13 m ρ c (Proc.devRef .tc main_v3) from (by keep_host hostOps6))).trans (k13 m ρ c)
theorem k15 (c : Dev nD) : W15 m ρ c (Proc.devRef .tc main_v3) = W3 m ρ c (Proc.devRef .tc main_v3) :=
  (W15_of_ne m ρ c main_v3 (by decide)).trans (k14 m ρ c)
theorem k16 (c : Dev nD) : W16 m ρ c (Proc.devRef .tc main_v3) = W3 m ρ c (Proc.devRef .tc main_v3) :=
  ((show W16 m ρ c (Proc.devRef .tc main_v3) = W15 m ρ c (Proc.devRef .tc main_v3) from (by keep_host hostOps7))).trans (k15 m ρ c)
theorem k17 (c : Dev nD) : W17 m ρ c (Proc.devRef .tc main_v3) = W3 m ρ c (Proc.devRef .tc main_v3) :=
  (W17_of_ne m ρ c main_v3 (by decide)).trans (k16 m ρ c)
theorem k18 (c : Dev nD) : W18 m ρ c (Proc.devRef .tc main_v3) = W3 m ρ c (Proc.devRef .tc main_v3) :=
  ((show W18 m ρ c (Proc.devRef .tc main_v3) = W17 m ρ c (Proc.devRef .tc main_v3) from (by keep_host hostOps8))).trans (k17 m ρ c)
theorem k19 (c : Dev nD) : W19 m ρ c (Proc.devRef .tc main_v3) = W3 m ρ c (Proc.devRef .tc main_v3) :=
  (W19_of_ne m ρ c main_v3 (by decide)).trans (k18 m ρ c)
theorem k20 (c : Dev nD) : W20 m ρ c (Proc.devRef .tc main_v3) = W3 m ρ c (Proc.devRef .tc main_v3) :=
  ((show W20 m ρ c (Proc.devRef .tc main_v3) = W19 m ρ c (Proc.devRef .tc main_v3) from (by keep_host hostOps9))).trans (k19 m ρ c)
theorem k21 (c : Dev nD) : W21 m ρ c (Proc.devRef .tc main_v3) = W3 m ρ c (Proc.devRef .tc main_v3) :=
  (W21_of_ne m ρ c main_v3 (by decide)).trans (k20 m ρ c)
theorem k22 (c : Dev nD) : W22 m ρ c (Proc.devRef .tc main_v3) = W3 m ρ c (Proc.devRef .tc main_v3) :=
  ((show W22 m ρ c (Proc.devRef .tc main_v3) = W21 m ρ c (Proc.devRef .tc main_v3) from (by keep_host hostOps10))).trans (k21 m ρ c)
theorem k23 (c : Dev nD) : W23 m ρ c (Proc.devRef .tc main_v3) = W3 m ρ c (Proc.devRef .tc main_v3) :=
  (W23_of_ne m ρ c main_v3 (by decide)).trans (k22 m ρ c)
theorem k24 (c : Dev nD) : W24 m ρ c (Proc.devRef .tc main_v3) = W3 m ρ c (Proc.devRef .tc main_v3) :=
  ((show W24 m ρ c (Proc.devRef .tc main_v3) = W23 m ρ c (Proc.devRef .tc main_v3) from (by keep_host hostOps11))).trans (k23 m ρ c)
theorem k25 (c : Dev nD) : W25 m ρ c (Proc.devRef .tc main_v3) = W3 m ρ c (Proc.devRef .tc main_v3) :=
  (W25_of_ne m ρ c main_v3 (by decide)).trans (k24 m ρ c)
theorem k26 (c : Dev nD) : W26 m ρ c (Proc.devRef .tc main_v3) = W3 m ρ c (Proc.devRef .tc main_v3) :=
  ((show W26 m ρ c (Proc.devRef .tc main_v3) = W25 m ρ c (Proc.devRef .tc main_v3) from (by keep_host hostOps12))).trans (k25 m ρ c)
theorem k27 (c : Dev nD) : W27 m ρ c (Proc.devRef .tc main_v3) = W3 m ρ c (Proc.devRef .tc main_v3) :=
  (W27_of_ne m ρ c main_v3 (by decide)).trans (k26 m ρ c)
theorem k28 (c : Dev nD) : W28 m ρ c (Proc.devRef .tc main_v3) = W3 m ρ c (Proc.devRef .tc main_v3) :=
  ((show W28 m ρ c (Proc.devRef .tc main_v3) = W27 m ρ c (Proc.devRef .tc main_v3) from (by keep_host hostOps13))).trans (k27 m ρ c)
theorem k29 (c : Dev nD) : W29 m ρ c (Proc.devRef .tc main_v3) = W3 m ρ c (Proc.devRef .tc main_v3) :=
  (W29_of_ne m ρ c main_v3 (by decide)).trans (k28 m ρ c)
theorem k30 (c : Dev nD) : W30 m ρ c (Proc.devRef .tc main_v3) = W3 m ρ c (Proc.devRef .tc main_v3) :=
  ((show W30 m ρ c (Proc.devRef .tc main_v3) = W29 m ρ c (Proc.devRef .tc main_v3) from (by keep_host hostOps14))).trans (k29 m ρ c)
theorem k31 (c : Dev nD) : W31 m ρ c (Proc.devRef .tc main_v3) = W3 m ρ c (Proc.devRef .tc main_v3) :=
  (W31_of_ne m ρ c main_v3 (by decide)).trans (k30 m ρ c)
theorem k32 (c : Dev nD) : W32 m ρ c (Proc.devRef .tc main_v3) = W3 m ρ c (Proc.devRef .tc main_v3) :=
  ((show W32 m ρ c (Proc.devRef .tc main_v3) = W31 m ρ c (Proc.devRef .tc main_v3) from (by keep_host hostOps15))).trans (k31 m ρ c)
theorem k33 (c : Dev nD) : W33 m ρ c (Proc.devRef .tc main_v3) = W3 m ρ c (Proc.devRef .tc main_v3) :=
  (W33_of_ne m ρ c main_v3 (by decide)).trans (k32 m ρ c)
theorem k34 (c : Dev nD) : W34 m ρ c (Proc.devRef .tc main_v3) = W3 m ρ c (Proc.devRef .tc main_v3) :=
  ((show W34 m ρ c (Proc.devRef .tc main_v3) = W33 m ρ c (Proc.devRef .tc main_v3) from (by keep_host hostOps16))).trans (k33 m ρ c)
theorem k35 (c : Dev nD) : W35 m ρ c (Proc.devRef .tc main_v3) = W3 m ρ c (Proc.devRef .tc main_v3) :=
  (W35_of_ne m ρ c main_v3 (by decide)).trans (k34 m ρ c)
theorem k36 (c : Dev nD) : W36 m ρ c (Proc.devRef .tc main_v3) = W3 m ρ c (Proc.devRef .tc main_v3) :=
  ((show W36 m ρ c (Proc.devRef .tc main_v3) = W35 m ρ c (Proc.devRef .tc main_v3) from (by keep_host hostOps17))).trans (k35 m ρ c)
theorem k37 (c : Dev nD) : W37 m ρ c (Proc.devRef .tc main_v3) = W3 m ρ c (Proc.devRef .tc main_v3) :=
  (W37_of_ne m ρ c main_v3 (by decide)).trans (k36 m ρ c)
theorem k38 (c : Dev nD) : W38 m ρ c (Proc.devRef .tc main_v3) = W3 m ρ c (Proc.devRef .tc main_v3) :=
  ((show W38 m ρ c (Proc.devRef .tc main_v3) = W37 m ρ c (Proc.devRef .tc main_v3) from (by keep_host hostOps18))).trans (k37 m ρ c)
theorem k39 (c : Dev nD) : W39 m ρ c (Proc.devRef .tc main_v3) = W3 m ρ c (Proc.devRef .tc main_v3) :=
  (W39_of_ne m ρ c main_v3 (by decide)).trans (k38 m ρ c)
theorem k40 (c : Dev nD) : W40 m ρ c (Proc.devRef .tc main_v3) = W3 m ρ c (Proc.devRef .tc main_v3) :=
  ((show W40 m ρ c (Proc.devRef .tc main_v3) = W39 m ρ c (Proc.devRef .tc main_v3) from (by keep_host hostOps19))).trans (k39 m ρ c)
theorem k41 (c : Dev nD) : W41 m ρ c (Proc.devRef .tc main_v3) = W3 m ρ c (Proc.devRef .tc main_v3) :=
  (W41_of_ne m ρ c main_v3 (by decide)).trans (k40 m ρ c)
theorem k42 (c : Dev nD) : W42 m ρ c (Proc.devRef .tc main_v3) = W3 m ρ c (Proc.devRef .tc main_v3) :=
  ((show W42 m ρ c (Proc.devRef .tc main_v3) = W41 m ρ c (Proc.devRef .tc main_v3) from (by keep_host hostOps20))).trans (k41 m ρ c)
theorem k43 (c : Dev nD) : W43 m ρ c (Proc.devRef .tc main_v3) = W3 m ρ c (Proc.devRef .tc main_v3) :=
  (W43_of_ne m ρ c main_v3 (by decide)).trans (k42 m ρ c)
theorem k44 (c : Dev nD) : W44 m ρ c (Proc.devRef .tc main_v3) = W3 m ρ c (Proc.devRef .tc main_v3) :=
  ((show W44 m ρ c (Proc.devRef .tc main_v3) = W43 m ρ c (Proc.devRef .tc main_v3) from (by keep_host hostOps21))).trans (k43 m ρ c)
theorem k45 (c : Dev nD) : W45 m ρ c (Proc.devRef .tc main_v3) = W3 m ρ c (Proc.devRef .tc main_v3) :=
  (W45_of_ne m ρ c main_v3 (by decide)).trans (k44 m ρ c)
theorem k46 (c : Dev nD) : W46 m ρ c (Proc.devRef .tc main_v3) = W3 m ρ c (Proc.devRef .tc main_v3) :=
  ((show W46 m ρ c (Proc.devRef .tc main_v3) = W45 m ρ c (Proc.devRef .tc main_v3) from (by keep_host hostOps22))).trans (k45 m ρ c)
theorem k47 (c : Dev nD) : W47 m ρ c (Proc.devRef .tc main_v3) = W3 m ρ c (Proc.devRef .tc main_v3) :=
  (W47_of_ne m ρ c main_v3 (by decide)).trans (k46 m ρ c)

end Cert.KernelIdeal.KV.KeepV3

end
-- ==== Proof.KeepV6.lean ====
/-
  The buffer v6 is written by no region and by no host stretch after stage 3: at every later stage it holds what it
  held at stage 3.  One step per stage: a region leaves every buffer that is not one of its arrays, a host
  stretch every buffer none of its operations writes.
-/
import proofs.«146329_j1168231104595_1_alg».proof.Proof.KVTac

set_option maxRecDepth 16384

noncomputable section

namespace Cert.KernelIdeal.KV.KeepV6

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k4 (c : Dev nD) : W4 m ρ c (Proc.devRef .tc main_v6) = W3 m ρ c (Proc.devRef .tc main_v6) :=
  W4_of_ne m ρ c main_v6 (by decide)
theorem k5 (c : Dev nD) : W5 m ρ c (Proc.devRef .tc main_v6) = W3 m ρ c (Proc.devRef .tc main_v6) :=
  ((show W5 m ρ c (Proc.devRef .tc main_v6) = W4 m ρ c (Proc.devRef .tc main_v6) from (by keep_host hostOps1))).trans (k4 m ρ c)
theorem k6 (c : Dev nD) : W6 m ρ c (Proc.devRef .tc main_v6) = W3 m ρ c (Proc.devRef .tc main_v6) :=
  (W6_of_ne m ρ c main_v6 (by decide)).trans (k5 m ρ c)
theorem k7 (c : Dev nD) : W7 m ρ c (Proc.devRef .tc main_v6) = W3 m ρ c (Proc.devRef .tc main_v6) :=
  (W7_of_ne m ρ c main_v6 (by decide)).trans (k6 m ρ c)
theorem k8 (c : Dev nD) : W8 m ρ c (Proc.devRef .tc main_v6) = W3 m ρ c (Proc.devRef .tc main_v6) :=
  ((show W8 m ρ c (Proc.devRef .tc main_v6) = W7 m ρ c (Proc.devRef .tc main_v6) from (by keep_host hostOps3))).trans (k7 m ρ c)
theorem k9 (c : Dev nD) : W9 m ρ c (Proc.devRef .tc main_v6) = W3 m ρ c (Proc.devRef .tc main_v6) :=
  (W9_of_ne m ρ c main_v6 (by decide)).trans (k8 m ρ c)
theorem k10 (c : Dev nD) : W10 m ρ c (Proc.devRef .tc main_v6) = W3 m ρ c (Proc.devRef .tc main_v6) :=
  ((show W10 m ρ c (Proc.devRef .tc main_v6) = W9 m ρ c (Proc.devRef .tc main_v6) from (by keep_host hostOps4))).trans (k9 m ρ c)
theorem k11 (c : Dev nD) : W11 m ρ c (Proc.devRef .tc main_v6) = W3 m ρ c (Proc.devRef .tc main_v6) :=
  (W11_of_ne m ρ c main_v6 (by decide)).trans (k10 m ρ c)
theorem k12 (c : Dev nD) : W12 m ρ c (Proc.devRef .tc main_v6) = W3 m ρ c (Proc.devRef .tc main_v6) :=
  ((show W12 m ρ c (Proc.devRef .tc main_v6) = W11 m ρ c (Proc.devRef .tc main_v6) from (by keep_host hostOps5))).trans (k11 m ρ c)
theorem k13 (c : Dev nD) : W13 m ρ c (Proc.devRef .tc main_v6) = W3 m ρ c (Proc.devRef .tc main_v6) :=
  (W13_of_ne m ρ c main_v6 (by decide)).trans (k12 m ρ c)
theorem k14 (c : Dev nD) : W14 m ρ c (Proc.devRef .tc main_v6) = W3 m ρ c (Proc.devRef .tc main_v6) :=
  ((show W14 m ρ c (Proc.devRef .tc main_v6) = W13 m ρ c (Proc.devRef .tc main_v6) from (by keep_host hostOps6))).trans (k13 m ρ c)
theorem k15 (c : Dev nD) : W15 m ρ c (Proc.devRef .tc main_v6) = W3 m ρ c (Proc.devRef .tc main_v6) :=
  (W15_of_ne m ρ c main_v6 (by decide)).trans (k14 m ρ c)
theorem k16 (c : Dev nD) : W16 m ρ c (Proc.devRef .tc main_v6) = W3 m ρ c (Proc.devRef .tc main_v6) :=
  ((show W16 m ρ c (Proc.devRef .tc main_v6) = W15 m ρ c (Proc.devRef .tc main_v6) from (by keep_host hostOps7))).trans (k15 m ρ c)
theorem k17 (c : Dev nD) : W17 m ρ c (Proc.devRef .tc main_v6) = W3 m ρ c (Proc.devRef .tc main_v6) :=
  (W17_of_ne m ρ c main_v6 (by decide)).trans (k16 m ρ c)
theorem k18 (c : Dev nD) : W18 m ρ c (Proc.devRef .tc main_v6) = W3 m ρ c (Proc.devRef .tc main_v6) :=
  ((show W18 m ρ c (Proc.devRef .tc main_v6) = W17 m ρ c (Proc.devRef .tc main_v6) from (by keep_host hostOps8))).trans (k17 m ρ c)
theorem k19 (c : Dev nD) : W19 m ρ c (Proc.devRef .tc main_v6) = W3 m ρ c (Proc.devRef .tc main_v6) :=
  (W19_of_ne m ρ c main_v6 (by decide)).trans (k18 m ρ c)
theorem k20 (c : Dev nD) : W20 m ρ c (Proc.devRef .tc main_v6) = W3 m ρ c (Proc.devRef .tc main_v6) :=
  ((show W20 m ρ c (Proc.devRef .tc main_v6) = W19 m ρ c (Proc.devRef .tc main_v6) from (by keep_host hostOps9))).trans (k19 m ρ c)
theorem k21 (c : Dev nD) : W21 m ρ c (Proc.devRef .tc main_v6) = W3 m ρ c (Proc.devRef .tc main_v6) :=
  (W21_of_ne m ρ c main_v6 (by decide)).trans (k20 m ρ c)
theorem k22 (c : Dev nD) : W22 m ρ c (Proc.devRef .tc main_v6) = W3 m ρ c (Proc.devRef .tc main_v6) :=
  ((show W22 m ρ c (Proc.devRef .tc main_v6) = W21 m ρ c (Proc.devRef .tc main_v6) from (by keep_host hostOps10))).trans (k21 m ρ c)
theorem k23 (c : Dev nD) : W23 m ρ c (Proc.devRef .tc main_v6) = W3 m ρ c (Proc.devRef .tc main_v6) :=
  (W23_of_ne m ρ c main_v6 (by decide)).trans (k22 m ρ c)
theorem k24 (c : Dev nD) : W24 m ρ c (Proc.devRef .tc main_v6) = W3 m ρ c (Proc.devRef .tc main_v6) :=
  ((show W24 m ρ c (Proc.devRef .tc main_v6) = W23 m ρ c (Proc.devRef .tc main_v6) from (by keep_host hostOps11))).trans (k23 m ρ c)
theorem k25 (c : Dev nD) : W25 m ρ c (Proc.devRef .tc main_v6) = W3 m ρ c (Proc.devRef .tc main_v6) :=
  (W25_of_ne m ρ c main_v6 (by decide)).trans (k24 m ρ c)
theorem k26 (c : Dev nD) : W26 m ρ c (Proc.devRef .tc main_v6) = W3 m ρ c (Proc.devRef .tc main_v6) :=
  ((show W26 m ρ c (Proc.devRef .tc main_v6) = W25 m ρ c (Proc.devRef .tc main_v6) from (by keep_host hostOps12))).trans (k25 m ρ c)
theorem k27 (c : Dev nD) : W27 m ρ c (Proc.devRef .tc main_v6) = W3 m ρ c (Proc.devRef .tc main_v6) :=
  (W27_of_ne m ρ c main_v6 (by decide)).trans (k26 m ρ c)
theorem k28 (c : Dev nD) : W28 m ρ c (Proc.devRef .tc main_v6) = W3 m ρ c (Proc.devRef .tc main_v6) :=
  ((show W28 m ρ c (Proc.devRef .tc main_v6) = W27 m ρ c (Proc.devRef .tc main_v6) from (by keep_host hostOps13))).trans (k27 m ρ c)
theorem k29 (c : Dev nD) : W29 m ρ c (Proc.devRef .tc main_v6) = W3 m ρ c (Proc.devRef .tc main_v6) :=
  (W29_of_ne m ρ c main_v6 (by decide)).trans (k28 m ρ c)
theorem k30 (c : Dev nD) : W30 m ρ c (Proc.devRef .tc main_v6) = W3 m ρ c (Proc.devRef .tc main_v6) :=
  ((show W30 m ρ c (Proc.devRef .tc main_v6) = W29 m ρ c (Proc.devRef .tc main_v6) from (by keep_host hostOps14))).trans (k29 m ρ c)
theorem k31 (c : Dev nD) : W31 m ρ c (Proc.devRef .tc main_v6) = W3 m ρ c (Proc.devRef .tc main_v6) :=
  (W31_of_ne m ρ c main_v6 (by decide)).trans (k30 m ρ c)
theorem k32 (c : Dev nD) : W32 m ρ c (Proc.devRef .tc main_v6) = W3 m ρ c (Proc.devRef .tc main_v6) :=
  ((show W32 m ρ c (Proc.devRef .tc main_v6) = W31 m ρ c (Proc.devRef .tc main_v6) from (by keep_host hostOps15))).trans (k31 m ρ c)
theorem k33 (c : Dev nD) : W33 m ρ c (Proc.devRef .tc main_v6) = W3 m ρ c (Proc.devRef .tc main_v6) :=
  (W33_of_ne m ρ c main_v6 (by decide)).trans (k32 m ρ c)
theorem k34 (c : Dev nD) : W34 m ρ c (Proc.devRef .tc main_v6) = W3 m ρ c (Proc.devRef .tc main_v6) :=
  ((show W34 m ρ c (Proc.devRef .tc main_v6) = W33 m ρ c (Proc.devRef .tc main_v6) from (by keep_host hostOps16))).trans (k33 m ρ c)
theorem k35 (c : Dev nD) : W35 m ρ c (Proc.devRef .tc main_v6) = W3 m ρ c (Proc.devRef .tc main_v6) :=
  (W35_of_ne m ρ c main_v6 (by decide)).trans (k34 m ρ c)
theorem k36 (c : Dev nD) : W36 m ρ c (Proc.devRef .tc main_v6) = W3 m ρ c (Proc.devRef .tc main_v6) :=
  ((show W36 m ρ c (Proc.devRef .tc main_v6) = W35 m ρ c (Proc.devRef .tc main_v6) from (by keep_host hostOps17))).trans (k35 m ρ c)
theorem k37 (c : Dev nD) : W37 m ρ c (Proc.devRef .tc main_v6) = W3 m ρ c (Proc.devRef .tc main_v6) :=
  (W37_of_ne m ρ c main_v6 (by decide)).trans (k36 m ρ c)
theorem k38 (c : Dev nD) : W38 m ρ c (Proc.devRef .tc main_v6) = W3 m ρ c (Proc.devRef .tc main_v6) :=
  ((show W38 m ρ c (Proc.devRef .tc main_v6) = W37 m ρ c (Proc.devRef .tc main_v6) from (by keep_host hostOps18))).trans (k37 m ρ c)
theorem k39 (c : Dev nD) : W39 m ρ c (Proc.devRef .tc main_v6) = W3 m ρ c (Proc.devRef .tc main_v6) :=
  (W39_of_ne m ρ c main_v6 (by decide)).trans (k38 m ρ c)
theorem k40 (c : Dev nD) : W40 m ρ c (Proc.devRef .tc main_v6) = W3 m ρ c (Proc.devRef .tc main_v6) :=
  ((show W40 m ρ c (Proc.devRef .tc main_v6) = W39 m ρ c (Proc.devRef .tc main_v6) from (by keep_host hostOps19))).trans (k39 m ρ c)
theorem k41 (c : Dev nD) : W41 m ρ c (Proc.devRef .tc main_v6) = W3 m ρ c (Proc.devRef .tc main_v6) :=
  (W41_of_ne m ρ c main_v6 (by decide)).trans (k40 m ρ c)
theorem k42 (c : Dev nD) : W42 m ρ c (Proc.devRef .tc main_v6) = W3 m ρ c (Proc.devRef .tc main_v6) :=
  ((show W42 m ρ c (Proc.devRef .tc main_v6) = W41 m ρ c (Proc.devRef .tc main_v6) from (by keep_host hostOps20))).trans (k41 m ρ c)
theorem k43 (c : Dev nD) : W43 m ρ c (Proc.devRef .tc main_v6) = W3 m ρ c (Proc.devRef .tc main_v6) :=
  (W43_of_ne m ρ c main_v6 (by decide)).trans (k42 m ρ c)
theorem k44 (c : Dev nD) : W44 m ρ c (Proc.devRef .tc main_v6) = W3 m ρ c (Proc.devRef .tc main_v6) :=
  ((show W44 m ρ c (Proc.devRef .tc main_v6) = W43 m ρ c (Proc.devRef .tc main_v6) from (by keep_host hostOps21))).trans (k43 m ρ c)
theorem k45 (c : Dev nD) : W45 m ρ c (Proc.devRef .tc main_v6) = W3 m ρ c (Proc.devRef .tc main_v6) :=
  (W45_of_ne m ρ c main_v6 (by decide)).trans (k44 m ρ c)
theorem k46 (c : Dev nD) : W46 m ρ c (Proc.devRef .tc main_v6) = W3 m ρ c (Proc.devRef .tc main_v6) :=
  ((show W46 m ρ c (Proc.devRef .tc main_v6) = W45 m ρ c (Proc.devRef .tc main_v6) from (by keep_host hostOps22))).trans (k45 m ρ c)
theorem k47 (c : Dev nD) : W47 m ρ c (Proc.devRef .tc main_v6) = W3 m ρ c (Proc.devRef .tc main_v6) :=
  (W47_of_ne m ρ c main_v6 (by decide)).trans (k46 m ρ c)

end Cert.KernelIdeal.KV.KeepV6

end
-- ==== Proof.KeepV29.lean ====
/-
  The buffer v29 is written by no region and by no host stretch after stage 3: at every later stage it holds what it
  held at stage 3.  One step per stage: a region leaves every buffer that is not one of its arrays, a host
  stretch every buffer none of its operations writes.
-/
import proofs.«146329_j1168231104595_1_alg».proof.Proof.KVTac

set_option maxRecDepth 16384

noncomputable section

namespace Cert.KernelIdeal.KV.KeepV29

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k4 (c : Dev nD) : W4 m ρ c (Proc.devRef .tc main_v29) = W3 m ρ c (Proc.devRef .tc main_v29) :=
  W4_of_ne m ρ c main_v29 (by decide)
theorem k5 (c : Dev nD) : W5 m ρ c (Proc.devRef .tc main_v29) = W3 m ρ c (Proc.devRef .tc main_v29) :=
  ((show W5 m ρ c (Proc.devRef .tc main_v29) = W4 m ρ c (Proc.devRef .tc main_v29) from (by keep_host hostOps1))).trans (k4 m ρ c)
theorem k6 (c : Dev nD) : W6 m ρ c (Proc.devRef .tc main_v29) = W3 m ρ c (Proc.devRef .tc main_v29) :=
  (W6_of_ne m ρ c main_v29 (by decide)).trans (k5 m ρ c)
theorem k7 (c : Dev nD) : W7 m ρ c (Proc.devRef .tc main_v29) = W3 m ρ c (Proc.devRef .tc main_v29) :=
  (W7_of_ne m ρ c main_v29 (by decide)).trans (k6 m ρ c)
theorem k8 (c : Dev nD) : W8 m ρ c (Proc.devRef .tc main_v29) = W3 m ρ c (Proc.devRef .tc main_v29) :=
  ((show W8 m ρ c (Proc.devRef .tc main_v29) = W7 m ρ c (Proc.devRef .tc main_v29) from (by keep_host hostOps3))).trans (k7 m ρ c)
theorem k9 (c : Dev nD) : W9 m ρ c (Proc.devRef .tc main_v29) = W3 m ρ c (Proc.devRef .tc main_v29) :=
  (W9_of_ne m ρ c main_v29 (by decide)).trans (k8 m ρ c)
theorem k10 (c : Dev nD) : W10 m ρ c (Proc.devRef .tc main_v29) = W3 m ρ c (Proc.devRef .tc main_v29) :=
  ((show W10 m ρ c (Proc.devRef .tc main_v29) = W9 m ρ c (Proc.devRef .tc main_v29) from (by keep_host hostOps4))).trans (k9 m ρ c)
theorem k11 (c : Dev nD) : W11 m ρ c (Proc.devRef .tc main_v29) = W3 m ρ c (Proc.devRef .tc main_v29) :=
  (W11_of_ne m ρ c main_v29 (by decide)).trans (k10 m ρ c)
theorem k12 (c : Dev nD) : W12 m ρ c (Proc.devRef .tc main_v29) = W3 m ρ c (Proc.devRef .tc main_v29) :=
  ((show W12 m ρ c (Proc.devRef .tc main_v29) = W11 m ρ c (Proc.devRef .tc main_v29) from (by keep_host hostOps5))).trans (k11 m ρ c)
theorem k13 (c : Dev nD) : W13 m ρ c (Proc.devRef .tc main_v29) = W3 m ρ c (Proc.devRef .tc main_v29) :=
  (W13_of_ne m ρ c main_v29 (by decide)).trans (k12 m ρ c)
theorem k14 (c : Dev nD) : W14 m ρ c (Proc.devRef .tc main_v29) = W3 m ρ c (Proc.devRef .tc main_v29) :=
  ((show W14 m ρ c (Proc.devRef .tc main_v29) = W13 m ρ c (Proc.devRef .tc main_v29) from (by keep_host hostOps6))).trans (k13 m ρ c)
theorem k15 (c : Dev nD) : W15 m ρ c (Proc.devRef .tc main_v29) = W3 m ρ c (Proc.devRef .tc main_v29) :=
  (W15_of_ne m ρ c main_v29 (by decide)).trans (k14 m ρ c)
theorem k16 (c : Dev nD) : W16 m ρ c (Proc.devRef .tc main_v29) = W3 m ρ c (Proc.devRef .tc main_v29) :=
  ((show W16 m ρ c (Proc.devRef .tc main_v29) = W15 m ρ c (Proc.devRef .tc main_v29) from (by keep_host hostOps7))).trans (k15 m ρ c)
theorem k17 (c : Dev nD) : W17 m ρ c (Proc.devRef .tc main_v29) = W3 m ρ c (Proc.devRef .tc main_v29) :=
  (W17_of_ne m ρ c main_v29 (by decide)).trans (k16 m ρ c)
theorem k18 (c : Dev nD) : W18 m ρ c (Proc.devRef .tc main_v29) = W3 m ρ c (Proc.devRef .tc main_v29) :=
  ((show W18 m ρ c (Proc.devRef .tc main_v29) = W17 m ρ c (Proc.devRef .tc main_v29) from (by keep_host hostOps8))).trans (k17 m ρ c)
theorem k19 (c : Dev nD) : W19 m ρ c (Proc.devRef .tc main_v29) = W3 m ρ c (Proc.devRef .tc main_v29) :=
  (W19_of_ne m ρ c main_v29 (by decide)).trans (k18 m ρ c)
theorem k20 (c : Dev nD) : W20 m ρ c (Proc.devRef .tc main_v29) = W3 m ρ c (Proc.devRef .tc main_v29) :=
  ((show W20 m ρ c (Proc.devRef .tc main_v29) = W19 m ρ c (Proc.devRef .tc main_v29) from (by keep_host hostOps9))).trans (k19 m ρ c)
theorem k21 (c : Dev nD) : W21 m ρ c (Proc.devRef .tc main_v29) = W3 m ρ c (Proc.devRef .tc main_v29) :=
  (W21_of_ne m ρ c main_v29 (by decide)).trans (k20 m ρ c)
theorem k22 (c : Dev nD) : W22 m ρ c (Proc.devRef .tc main_v29) = W3 m ρ c (Proc.devRef .tc main_v29) :=
  ((show W22 m ρ c (Proc.devRef .tc main_v29) = W21 m ρ c (Proc.devRef .tc main_v29) from (by keep_host hostOps10))).trans (k21 m ρ c)
theorem k23 (c : Dev nD) : W23 m ρ c (Proc.devRef .tc main_v29) = W3 m ρ c (Proc.devRef .tc main_v29) :=
  (W23_of_ne m ρ c main_v29 (by decide)).trans (k22 m ρ c)
theorem k24 (c : Dev nD) : W24 m ρ c (Proc.devRef .tc main_v29) = W3 m ρ c (Proc.devRef .tc main_v29) :=
  ((show W24 m ρ c (Proc.devRef .tc main_v29) = W23 m ρ c (Proc.devRef .tc main_v29) from (by keep_host hostOps11))).trans (k23 m ρ c)
theorem k25 (c : Dev nD) : W25 m ρ c (Proc.devRef .tc main_v29) = W3 m ρ c (Proc.devRef .tc main_v29) :=
  (W25_of_ne m ρ c main_v29 (by decide)).trans (k24 m ρ c)
theorem k26 (c : Dev nD) : W26 m ρ c (Proc.devRef .tc main_v29) = W3 m ρ c (Proc.devRef .tc main_v29) :=
  ((show W26 m ρ c (Proc.devRef .tc main_v29) = W25 m ρ c (Proc.devRef .tc main_v29) from (by keep_host hostOps12))).trans (k25 m ρ c)
theorem k27 (c : Dev nD) : W27 m ρ c (Proc.devRef .tc main_v29) = W3 m ρ c (Proc.devRef .tc main_v29) :=
  (W27_of_ne m ρ c main_v29 (by decide)).trans (k26 m ρ c)
theorem k28 (c : Dev nD) : W28 m ρ c (Proc.devRef .tc main_v29) = W3 m ρ c (Proc.devRef .tc main_v29) :=
  ((show W28 m ρ c (Proc.devRef .tc main_v29) = W27 m ρ c (Proc.devRef .tc main_v29) from (by keep_host hostOps13))).trans (k27 m ρ c)
theorem k29 (c : Dev nD) : W29 m ρ c (Proc.devRef .tc main_v29) = W3 m ρ c (Proc.devRef .tc main_v29) :=
  (W29_of_ne m ρ c main_v29 (by decide)).trans (k28 m ρ c)
theorem k30 (c : Dev nD) : W30 m ρ c (Proc.devRef .tc main_v29) = W3 m ρ c (Proc.devRef .tc main_v29) :=
  ((show W30 m ρ c (Proc.devRef .tc main_v29) = W29 m ρ c (Proc.devRef .tc main_v29) from (by keep_host hostOps14))).trans (k29 m ρ c)
theorem k31 (c : Dev nD) : W31 m ρ c (Proc.devRef .tc main_v29) = W3 m ρ c (Proc.devRef .tc main_v29) :=
  (W31_of_ne m ρ c main_v29 (by decide)).trans (k30 m ρ c)
theorem k32 (c : Dev nD) : W32 m ρ c (Proc.devRef .tc main_v29) = W3 m ρ c (Proc.devRef .tc main_v29) :=
  ((show W32 m ρ c (Proc.devRef .tc main_v29) = W31 m ρ c (Proc.devRef .tc main_v29) from (by keep_host hostOps15))).trans (k31 m ρ c)
theorem k33 (c : Dev nD) : W33 m ρ c (Proc.devRef .tc main_v29) = W3 m ρ c (Proc.devRef .tc main_v29) :=
  (W33_of_ne m ρ c main_v29 (by decide)).trans (k32 m ρ c)
theorem k34 (c : Dev nD) : W34 m ρ c (Proc.devRef .tc main_v29) = W3 m ρ c (Proc.devRef .tc main_v29) :=
  ((show W34 m ρ c (Proc.devRef .tc main_v29) = W33 m ρ c (Proc.devRef .tc main_v29) from (by keep_host hostOps16))).trans (k33 m ρ c)
theorem k35 (c : Dev nD) : W35 m ρ c (Proc.devRef .tc main_v29) = W3 m ρ c (Proc.devRef .tc main_v29) :=
  (W35_of_ne m ρ c main_v29 (by decide)).trans (k34 m ρ c)
theorem k36 (c : Dev nD) : W36 m ρ c (Proc.devRef .tc main_v29) = W3 m ρ c (Proc.devRef .tc main_v29) :=
  ((show W36 m ρ c (Proc.devRef .tc main_v29) = W35 m ρ c (Proc.devRef .tc main_v29) from (by keep_host hostOps17))).trans (k35 m ρ c)
theorem k37 (c : Dev nD) : W37 m ρ c (Proc.devRef .tc main_v29) = W3 m ρ c (Proc.devRef .tc main_v29) :=
  (W37_of_ne m ρ c main_v29 (by decide)).trans (k36 m ρ c)
theorem k38 (c : Dev nD) : W38 m ρ c (Proc.devRef .tc main_v29) = W3 m ρ c (Proc.devRef .tc main_v29) :=
  ((show W38 m ρ c (Proc.devRef .tc main_v29) = W37 m ρ c (Proc.devRef .tc main_v29) from (by keep_host hostOps18))).trans (k37 m ρ c)
theorem k39 (c : Dev nD) : W39 m ρ c (Proc.devRef .tc main_v29) = W3 m ρ c (Proc.devRef .tc main_v29) :=
  (W39_of_ne m ρ c main_v29 (by decide)).trans (k38 m ρ c)
theorem k40 (c : Dev nD) : W40 m ρ c (Proc.devRef .tc main_v29) = W3 m ρ c (Proc.devRef .tc main_v29) :=
  ((show W40 m ρ c (Proc.devRef .tc main_v29) = W39 m ρ c (Proc.devRef .tc main_v29) from (by keep_host hostOps19))).trans (k39 m ρ c)
theorem k41 (c : Dev nD) : W41 m ρ c (Proc.devRef .tc main_v29) = W3 m ρ c (Proc.devRef .tc main_v29) :=
  (W41_of_ne m ρ c main_v29 (by decide)).trans (k40 m ρ c)
theorem k42 (c : Dev nD) : W42 m ρ c (Proc.devRef .tc main_v29) = W3 m ρ c (Proc.devRef .tc main_v29) :=
  ((show W42 m ρ c (Proc.devRef .tc main_v29) = W41 m ρ c (Proc.devRef .tc main_v29) from (by keep_host hostOps20))).trans (k41 m ρ c)
theorem k43 (c : Dev nD) : W43 m ρ c (Proc.devRef .tc main_v29) = W3 m ρ c (Proc.devRef .tc main_v29) :=
  (W43_of_ne m ρ c main_v29 (by decide)).trans (k42 m ρ c)
theorem k44 (c : Dev nD) : W44 m ρ c (Proc.devRef .tc main_v29) = W3 m ρ c (Proc.devRef .tc main_v29) :=
  ((show W44 m ρ c (Proc.devRef .tc main_v29) = W43 m ρ c (Proc.devRef .tc main_v29) from (by keep_host hostOps21))).trans (k43 m ρ c)
theorem k45 (c : Dev nD) : W45 m ρ c (Proc.devRef .tc main_v29) = W3 m ρ c (Proc.devRef .tc main_v29) :=
  (W45_of_ne m ρ c main_v29 (by decide)).trans (k44 m ρ c)
theorem k46 (c : Dev nD) : W46 m ρ c (Proc.devRef .tc main_v29) = W3 m ρ c (Proc.devRef .tc main_v29) :=
  ((show W46 m ρ c (Proc.devRef .tc main_v29) = W45 m ρ c (Proc.devRef .tc main_v29) from (by keep_host hostOps22))).trans (k45 m ρ c)
theorem k47 (c : Dev nD) : W47 m ρ c (Proc.devRef .tc main_v29) = W3 m ρ c (Proc.devRef .tc main_v29) :=
  (W47_of_ne m ρ c main_v29 (by decide)).trans (k46 m ρ c)

end Cert.KernelIdeal.KV.KeepV29

end
-- ==== Proof.ChainFeat.lean ====
/-
  The feature stack, stage by stage: the first linear map (a whole matrix product of the features and the first weight),
  the layer's gather, normalisation and scatter-add (the same host operations as the reference's, applied to that
  product), the bias and rectifier, the second linear map, its aggregation and its bias.  At each stage the buffer just
  written holds the reference's corresponding value of the launch arguments; the arguments and the graph's index and
  normalisation vectors are read where they were left, no later stage writing them.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg0
import proofs.«146329_j1168231104595_1_alg».proof.Proof.Reg1
import proofs.«146329_j1168231104595_1_alg».proof.Proof.Reg2
import proofs.«146329_j1168231104595_1_alg».proof.Proof.Reg3
import proofs.«146329_j1168231104595_1_alg».proof.Proof.HostPro
import proofs.«146329_j1168231104595_1_alg».proof.Proof.HostFeat
import proofs.«146329_j1168231104595_1_alg».proof.Proof.KeepA0
import proofs.«146329_j1168231104595_1_alg».proof.Proof.KeepA5
import proofs.«146329_j1168231104595_1_alg».proof.Proof.KeepA6
import proofs.«146329_j1168231104595_1_alg».proof.Proof.KeepA7
import proofs.«146329_j1168231104595_1_alg».proof.Proof.KeepA8
import proofs.«146329_j1168231104595_1_alg».proof.Proof.KeepV3
import proofs.«146329_j1168231104595_1_alg».proof.Proof.KeepV6
import proofs.«146329_j1168231104595_1_alg».proof.Proof.KeepV29

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- After region 0: the first linear map. -/
theorem st4 (c : Dev nD) : W4 (F := Ideal) m ρ c (Proc.devRef .tc main_v30) = Cert.ReferenceIdeal.ReadP.val_main_v30 (F := Ideal) (m ((c : Thread nD τ).loc main_arg0)) (m ((c : Thread nD τ).loc main_arg5)) := by
  have A0 : W3 (F := Ideal) m ρ c (Proc.devRef .tc main_arg0) = (m ((c : Thread nD τ).loc main_arg0)) := KeepA0.k3 m ρ c
  have A5 : W3 (F := Ideal) m ρ c (Proc.devRef .tc main_arg5) = (m ((c : Thread nD τ).loc main_arg5)) := KeepA5.k3 m ρ c
  refine ((W4_arr m ρ c 2).trans (Reg0.final (V3 (F := Ideal) m ρ) c)).trans ?_
  show Host.dotGeneral (F := Ideal) (φ₁ := .f32) (φ₂ := .f32) Cert.ReferenceIdeal.dot_S100000x128_S128x128_S100000x128_1_0_0_1_n_n none (W3 (F := Ideal) m ρ c (Proc.devRef .tc main_arg0)) (W3 (F := Ideal) m ρ c (Proc.devRef .tc main_arg5)) = _
  rw [A0, A5]
  rfl

/-- After the first aggregation: the scatter-add of the gathered, normalised rows of the first linear map. -/
theorem st5 (c : Dev nD) : W5 (F := Ideal) m ρ c (Proc.devRef .tc main_v43) = Cert.ReferenceIdeal.ReadP.val_main_v43 (F := Ideal) (m ((c : Thread nD τ).loc main_arg0)) (m ((c : Thread nD τ).loc main_arg2)) (m ((c : Thread nD τ).loc main_arg5)) := by
  have h3 : W4 (F := Ideal) m ρ c (Proc.devRef .tc main_v3) = Cert.ReferenceIdeal.ReadP.val_main_v3 (F := Ideal) (m ((c : Thread nD τ).loc main_arg2)) := (KeepV3.k4 m ρ c).trans (Cert.KV.Host.host0_v3 m ρ c)
  have h6 : W4 (F := Ideal) m ρ c (Proc.devRef .tc main_v6) = Cert.ReferenceIdeal.ReadP.val_main_v6 (F := Ideal) (m ((c : Thread nD τ).loc main_arg2)) := (KeepV6.k4 m ρ c).trans (Cert.KV.Host.host0_v6 m ρ c)
  have h29 : W4 (F := Ideal) m ρ c (Proc.devRef .tc main_v29) = Cert.ReferenceIdeal.ReadP.val_main_v29 (F := Ideal) (m ((c : Thread nD τ).loc main_arg2)) := (KeepV29.k4 m ρ c).trans (Cert.KV.Host.host0_v29 m ρ c)
  exact Cert.KV.Host.host1_v43 m ρ c _ _ _ h6 (st4 m ρ c) h3 h29

/-- The bias row region 1 finds is the first bias vector. -/
theorem brow1 (c : Dev nD) (q : Fin 128) :
    (V5 (F := Ideal) m ρ c (Pipeline.arrRef spec1 1) : S1x128.Idx → Elt Ideal .f32) (ix2 (0 : Fin 1) q) = (m ((c : Thread nD τ).loc main_arg6)) (ix1 q) := by
  show (W5 (F := Ideal) m ρ c (Proc.devRef .tc main_v44) : S1x128.Idx → Elt Ideal .f32) (ix2 (0 : Fin 1) q) = _
  rw [Cert.KV.Host.host1_v44 m ρ c, KeepA6.k4 m ρ c]
  exact Cert.KernelBody.shapeCast_row_apply _ _ q

/-- After region 1: bias and rectifier. -/
theorem st6 (c : Dev nD) : W6 (F := Ideal) m ρ c (Proc.devRef .tc main_v45) = Cert.ReferenceIdeal.ReadP.val_main_v47 (F := Ideal) (m ((c : Thread nD τ).loc main_arg0)) (m ((c : Thread nD τ).loc main_arg2)) (m ((c : Thread nD τ).loc main_arg5)) (m ((c : Thread nD τ).loc main_arg6)) := by
  refine ((W6_arr m ρ c 2).trans (Reg1.final (V5 (F := Ideal) m ρ) c (m ((c : Thread nD τ).loc main_arg6)) (brow1 m ρ c))).trans ?_
  show Cert.KV.Dense.refBiasRelu128 (W5 (F := Ideal) m ρ c (Proc.devRef .tc main_v43)) (m ((c : Thread nD τ).loc main_arg6)) = _
  rw [st5 m ρ c]
  rfl

/-- After region 2: the second linear map. -/
theorem st7 (c : Dev nD) : W7 (F := Ideal) m ρ c (Proc.devRef .tc main_v46) = Cert.ReferenceIdeal.ReadP.val_main_v48 (F := Ideal) (m ((c : Thread nD τ).loc main_arg0)) (m ((c : Thread nD τ).loc main_arg2)) (m ((c : Thread nD τ).loc main_arg5)) (m ((c : Thread nD τ).loc main_arg6)) (m ((c : Thread nD τ).loc main_arg7)) := by
  have A7 : W6 (F := Ideal) m ρ c (Proc.devRef .tc main_arg7) = (m ((c : Thread nD τ).loc main_arg7)) := KeepA7.k6 m ρ c
  refine ((W7_arr m ρ c 2).trans (Reg2.final (V6 (F := Ideal) m ρ) c)).trans ?_
  show Host.dotGeneral (F := Ideal) (φ₁ := .f32) (φ₂ := .f32) Cert.ReferenceIdeal.dot_S100000x128_S128x128_S100000x128_1_0_0_1_n_n none (W6 (F := Ideal) m ρ c (Proc.devRef .tc main_v45)) (W6 (F := Ideal) m ρ c (Proc.devRef .tc main_arg7)) = _
  rw [st6 m ρ c, A7]
  rfl

/-- After the second aggregation. -/
theorem st8 (c : Dev nD) : W8 (F := Ideal) m ρ c (Proc.devRef .tc main_v59) = Cert.ReferenceIdeal.ReadP.val_main_v61 (F := Ideal) (m ((c : Thread nD τ).loc main_arg0)) (m ((c : Thread nD τ).loc main_arg2)) (m ((c : Thread nD τ).loc main_arg5)) (m ((c : Thread nD τ).loc main_arg6)) (m ((c : Thread nD τ).loc main_arg7)) := by
  have h3 : W7 (F := Ideal) m ρ c (Proc.devRef .tc main_v3) = Cert.ReferenceIdeal.ReadP.val_main_v3 (F := Ideal) (m ((c : Thread nD τ).loc main_arg2)) := (KeepV3.k7 m ρ c).trans (Cert.KV.Host.host0_v3 m ρ c)
  have h6 : W7 (F := Ideal) m ρ c (Proc.devRef .tc main_v6) = Cert.ReferenceIdeal.ReadP.val_main_v6 (F := Ideal) (m ((c : Thread nD τ).loc main_arg2)) := (KeepV6.k7 m ρ c).trans (Cert.KV.Host.host0_v6 m ρ c)
  have h29 : W7 (F := Ideal) m ρ c (Proc.devRef .tc main_v29) = Cert.ReferenceIdeal.ReadP.val_main_v29 (F := Ideal) (m ((c : Thread nD τ).loc main_arg2)) := (KeepV29.k7 m ρ c).trans (Cert.KV.Host.host0_v29 m ρ c)
  exact Cert.KV.Host.host3_v59 m ρ c _ _ _ _ _ h6 (st7 m ρ c) h3 h29

/-- The bias row region 3 finds is the second bias vector. -/
theorem brow3 (c : Dev nD) (q : Fin 128) :
    (V8 (F := Ideal) m ρ c (Pipeline.arrRef spec3 1) : S1x128.Idx → Elt Ideal .f32) (ix2 (0 : Fin 1) q) = (m ((c : Thread nD τ).loc main_arg8)) (ix1 q) := by
  show (W8 (F := Ideal) m ρ c (Proc.devRef .tc main_v60) : S1x128.Idx → Elt Ideal .f32) (ix2 (0 : Fin 1) q) = _
  rw [Cert.KV.Host.host3_v60 m ρ c, KeepA8.k7 m ρ c]
  exact Cert.KernelBody.shapeCast_row_apply _ _ q

/-- After region 3: the feature stack's output. -/
theorem st9 (c : Dev nD) : W9 (F := Ideal) m ρ c (Proc.devRef .tc main_v61) = Cert.ReferenceIdeal.ReadP.val_main_v64 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  refine ((W9_arr m ρ c 2).trans (Reg3.final (V8 (F := Ideal) m ρ) c (m ((c : Thread nD τ).loc main_arg8)) (brow3 m ρ c))).trans ?_
  show Cert.KV.Dense.refBias128 (W8 (F := Ideal) m ρ c (Proc.devRef .tc main_v59)) (m ((c : Thread nD τ).loc main_arg8)) = _
  rw [st8 m ρ c]
  rfl

end Cert.KernelIdeal.KV

end
-- ==== Proof.Reg4.lean ====
/-
  Region 4: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point t is rows 5000·t … 5000·t + 4999 of its array. -/
theorem iblk0_apply (c : Dev nD) (t : Fin cfg4.N) (x : S5000x16.Idx) (k : S100000x16.Idx)
    (hk0 : (k 0).val = 5000 * t.val + (x 0).val) (hk1 : (k 1).val = (x 1).val) :
    (iblk4 V c 0 t : Vec Ideal S5000x16 .f32) x = (V c (Pipeline.arrRef spec4 0) : S100000x16.Idx → Elt Ideal .f32) k := by
  obtain ⟨e0, e1, -, -, -, -⟩ := idx t
  unfold iblk4
  rw [View.read_apply]
  show (V c (Pipeline.arrRef spec4 0) : S100000x16.Idx → Elt Ideal .f32) _ = _
  congr 1
  funext a
  apply Fin.ext
  match a with
  | ⟨0, _⟩ => show win4_0.index t 0 * 5000 + 1 * (x 0).val = (k 0).val; rw [e0, hk0]; omega
  | ⟨1, _⟩ => show win4_0.index t 1 * 16 + 1 * (x 1).val = (k 1).val; rw [e1, hk1]; omega

/-- Window 1's block at every point is the whole of its (small) array. -/
theorem iblk1_apply (c : Dev nD) (t : Fin cfg4.N) (x : S16x16.Idx) :
    (iblk4 V c 1 t : Vec Ideal S16x16 .f32) x = (V c (Pipeline.arrRef spec4 1) : S16x16.Idx → Elt Ideal .f32) x := by
  obtain ⟨-, -, e0, e1, -, -⟩ := idx t
  unfold iblk4
  rw [View.read_apply]
  show (V c (Pipeline.arrRef spec4 1) : S16x16.Idx → Elt Ideal .f32) _ = _
  congr 1
  funext a
  apply Fin.ext
  match a with
  | ⟨0, _⟩ => show win4_1.index t 0 * 16 + 1 * (x 0).val = (x 0).val; rw [e0]; omega
  | ⟨1, _⟩ => show win4_1.index t 1 * 16 + 1 * (x 1).val = (x 1).val; rw [e1]; omega

/-- What point t writes back is block t of the whole-array function of the arrays as the region finds them. -/
theorem flushed_eq (c : Dev nD) (t : Fin cfg4.N) :
    (dat4 V c).flushed 2 t = ((cfg4.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec4 0) : FVec Ideal S100000x16 .f32) (V c (Pipeline.arrRef spec4 1) : FVec Ideal S16x16 .f32)) := by
  show (cfg4.win 2).cut (grid4.coords t) ((dat4 V c).after 2 t) = _
  rw [after4_2]
  unfold out4_2
  rw [View.canon_unit_zero hz]
  simp only [View.ld_unit_zero (S := S5000x16) hz, View.ld_unit_zero (S := S16x16) hz]
  obtain ⟨-, -, -, -, e0, e1⟩ := idx t
  funext j
  refine Cert.KV.KForms.mm16_at (V c (Pipeline.arrRef spec4 0) : FVec Ideal S100000x16 .f32) (V c (Pipeline.arrRef spec4 1) : FVec Ideal S16x16 .f32) (iblk4 V c 0 t) (iblk4 V c 1 t) t.val (fun x k h0 h1 => iblk0_apply V c t x k h0 h1) (fun x => iblk1_apply V c t x) j _ ?_ ?_
  · show win4_2.index t 0 * 5000 + 1 * (j 0).val = 5000 * t.val + (j 0).val; rw [e0]; omega
  · show win4_2.index t 1 * 16 + 1 * (j 1).val = (j 1).val; rw [e1]; omega

/-- An index of the output array is in point t's block iff each coordinate is in the block's range on its axis. -/
theorem mem_blk (t : Fin cfg4.N) (i : S100000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v66).slice (win4_2.rect t)).set ↔ _
  rw [View.set_slice_whole, Rect.mem_set_unit]
  exact Iff.rfl

/-- Every row lies in some point's block: row i in block i / 5000. -/
theorem cover (i : S100000x16.Idx) : ∃ t : Fin cfg4.N, (cfg4.win 2).flush t = true ∧ i ∈ ((cfg4.win 2).blk t).view.set := by
  have hN : cfg4.N = 20 := N_4
  have hi0 : (i 0).val < 100000 := (i 0).isLt
  have hi1 : (i 1).val < 16 := (i 1).isLt
  refine ⟨⟨(i 0).val / 5000, by rw [hN]; omega⟩, flush4_2 _, ?_⟩
  rw [mem_blk]
  obtain ⟨-, -, -, -, e0, e1⟩ := idx ⟨(i 0).val / 5000, by rw [hN]; omega⟩
  intro a
  match a with
  | ⟨0, _⟩ => show win4_2.index _ 0 * 5000 ≤ (i 0).val ∧ (i 0).val < win4_2.index _ 0 * 5000 + 5000; rw [e0]; show (i 0).val / 5000 * 5000 ≤ (i 0).val ∧ (i 0).val < (i 0).val / 5000 * 5000 + 5000; omega
  | ⟨1, _⟩ => show win4_2.index _ 1 * 16 ≤ (i 1).val ∧ (i 1).val < win4_2.index _ 1 * 16 + 16; rw [e1]; omega

/-- The output array after the region, as one function of the arrays the region finds. -/
theorem final (c : Dev nD) :
    (dat4 V c).arrAt 2 cfg4.N
      = Host.dotGeneral (F := Ideal) (φ₁ := .f32) (φ₂ := .f32) Cert.ReferenceIdeal.dot_S100000x16_S16x16_S100000x16_1_0_0_1_n_n none (V c (Pipeline.arrRef spec4 0) : FVec Ideal S100000x16 .f32) (V c (Pipeline.arrRef spec4 1) : FVec Ideal S16x16 .f32) :=
  (dat4 V c).arrAt_eq_of_cover 2 _ (fun t _ => flushed_eq V c t) (cover)

end Cert.KernelIdeal.KV.Reg4

end
-- ==== Proof.Reg5.lean ====
/-
  Region 5: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Window 0's block at point t is rows 5000·t … 5000·t + 4999 of its array. -/
theorem iblk0_apply (c : Dev nD) (t : Fin cfg5.N) (x : S5000x16.Idx) (k : S100000x16.Idx)
    (hk0 : (k 0).val = 5000 * t.val + (x 0).val) (hk1 : (k 1).val = (x 1).val) :
    (iblk5 V c 0 t : Vec Ideal S5000x16 .f32) x = (V c (Pipeline.arrRef spec5 0) : S100000x16.Idx → Elt Ideal .f32) k := by
  obtain ⟨e0, e1, -, -, -, -, -, -, -, -⟩ := idx t
  unfold iblk5
  rw [View.read_apply]
  show (V c (Pipeline.arrRef spec5 0) : S100000x16.Idx → Elt Ideal .f32) _ = _
  congr 1
  funext a
  apply Fin.ext
  match a with
  | ⟨0, _⟩ => show win5_0.index t 0 * 5000 + 1 * (x 0).val = (k 0).val; rw [e0, hk0]; omega
  | ⟨1, _⟩ => show win5_0.index t 1 * 16 + 1 * (x 1).val = (k 1).val; rw [e1, hk1]; omega

/-- Window 1's block at every point is the whole of its (small) array. -/
theorem iblk1_apply (c : Dev nD) (t : Fin cfg5.N) (x : S1x16.Idx) :
    (iblk5 V c 1 t : Vec Ideal S1x16 .f32) x = (V c (Pipeline.arrRef spec5 1) : S1x16.Idx → Elt Ideal .f32) x := by
  obtain ⟨-, -, e0, e1, -, -, -, -, -, -⟩ := idx t
  unfold iblk5
  rw [View.read_apply]
  show (V c (Pipeline.arrRef spec5 1) : S1x16.Idx → Elt Ideal .f32) _ = _
  congr 1
  funext a
  apply Fin.ext
  match a with
  | ⟨0, _⟩ => show win5_1.index t 0 * 1 + 1 * (x 0).val = (x 0).val; rw [e0]; omega
  | ⟨1, _⟩ => show win5_1.index t 1 * 16 + 1 * (x 1).val = (x 1).val; rw [e1]; omega

/-- Window 2's block at point t is rows 5000·t … 5000·t + 4999 of its array. -/
theorem iblk2_apply (c : Dev nD) (t : Fin cfg5.N) (x : S5000x16.Idx) (k : S100000x16.Idx)
    (hk0 : (k 0).val = 5000 * t.val + (x 0).val) (hk1 : (k 1).val = (x 1).val) :
    (iblk5 V c 2 t : Vec Ideal S5000x16 .f32) x = (V c (Pipeline.arrRef spec5 2) : S100000x16.Idx → Elt Ideal .f32) k := by
  obtain ⟨-, -, -, -, e0, e1, -, -, -, -⟩ := idx t
  unfold iblk5
  rw [View.read_apply]
  show (V c (Pipeline.arrRef spec5 2) : S100000x16.Idx → Elt Ideal .f32) _ = _
  congr 1
  funext a
  apply Fin.ext
  match a with
  | ⟨0, _⟩ => show win5_2.index t 0 * 5000 + 1 * (x 0).val = (k 0).val; rw [e0, hk0]; omega
  | ⟨1, _⟩ => show win5_2.index t 1 * 16 + 1 * (x 1).val = (k 1).val; rw [e1, hk1]; omega

/-- Window 3's block at point t is rows 5000·t … 5000·t + 4999 of its array. -/
theorem iblk3_apply (c : Dev nD) (t : Fin cfg5.N) (x : S5000x16.Idx) (k : S100000x16.Idx)
    (hk0 : (k 0).val = 5000 * t.val + (x 0).val) (hk1 : (k 1).val = (x 1).val) :
    (iblk5 V c 3 t : Vec Ideal S5000x16 .i32) x = (V c (Pipeline.arrRef spec5 3) : S100000x16.Idx → Elt Ideal .i32) k := by
  obtain ⟨-, -, -, -, -, -, e0, e1, -, -⟩ := idx t
  unfold iblk5
  rw [View.read_apply]
  show (V c (Pipeline.arrRef spec5 3) : S100000x16.Idx → Elt Ideal .i32) _ = _
  congr 1
  funext a
  apply Fin.ext
  match a with
  | ⟨0, _⟩ => show win5_3.index t 0 * 5000 + 1 * (x 0).val = (k 0).val; rw [e0, hk0]; omega
  | ⟨1, _⟩ => show win5_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec5 1) : S1x16.Idx → Elt Ideal .f32) (ix2 (0 : Fin 1) q) = b (ix1 q))
    (hm : (V c (Pipeline.arrRef spec5 3) : S100000x16.Idx → BitVec 32) = Cert.KV.Dense.kerMask16 mask) (t : Fin cfg5.N) :
    (dat5 V c).flushed 4 t = ((cfg5.win 4).blk t).view.read (Elt Ideal)
      (Cert.KV.Dense.refUpdate16 (V c (Pipeline.arrRef spec5 0) : FVec Ideal S100000x16 .f32) b (V c (Pipeline.arrRef spec5 2) : FVec Ideal S100000x16 .f32) mask) := by
  show (cfg5.win 4).cut (grid5.coords t) ((dat5 V c).after 4 t) = _
  rw [after5_4]
  unfold out5_4
  rw [View.canon_unit_zero hz]
  simp only [View.ld_unit_zero (S := S5000x16) hz, View.ld_unit_zero (S := S1x16) hz]
  obtain ⟨-, -, -, -, -, -, -, -, e0, e1⟩ := idx t
  funext j
  refine Cert.KV.Dense.update16_at (V c (Pipeline.arrRef spec5 0) : FVec Ideal S100000x16 .f32) b (V c (Pipeline.arrRef spec5 2) : FVec Ideal S100000x16 .f32) mask (iblk5 V c 0 t) (iblk5 V c 1 t) (iblk5 V c 3 t) (iblk5 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win5_4.index t 0 * 5000 + 1 * (j 0).val = 5000 * t.val + (j 0).val; rw [e0]; omega
  · show win5_4.index t 1 * 16 + 1 * (j 1).val = (j 1).val; rw [e1]; omega

/-- An index of the output array is in point t's block iff each coordinate is in the block's range on its axis. -/
theorem mem_blk (t : Fin cfg5.N) (i : S100000x16.Idx) :
    i ∈ ((cfg5.win 4).blk t).view.set ↔ ∀ a : Fin 2, win5_4.index t a * S5000x16.size a ≤ (i a).val ∧ (i a).val < win5_4.index t a * S5000x16.size a + S5000x16.size a := by
  show i ∈ ((View.whole main_v84).slice (win5_4.rect t)).set ↔ _
  rw [View.set_slice_whole, Rect.mem_set_unit]
  exact Iff.rfl

/-- Every row lies in some point's block: row i in block i / 5000. -/
theorem cover (i : S100000x16.Idx) : ∃ t : Fin cfg5.N, (cfg5.win 4).flush t = true ∧ i ∈ ((cfg5.win 4).blk t).view.set := by
  have hN : cfg5.N = 20 := N_5
  have hi0 : (i 0).val < 100000 := (i 0).isLt
  have hi1 : (i 1).val < 16 := (i 1).isLt
  refine ⟨⟨(i 0).val / 5000, by rw [hN]; omega⟩, flush5_4 _, ?_⟩
  rw [mem_blk]
  obtain ⟨-, -, -, -, -, -, -, -, e0, e1⟩ := idx ⟨(i 0).val / 5000, by rw [hN]; omega⟩
  intro a
  match a with
  | ⟨0, _⟩ => show win5_4.index _ 0 * 5000 ≤ (i 0).val ∧ (i 0).val < win5_4.index _ 0 * 5000 + 5000; rw [e0]; show (i 0).val / 5000 * 5000 ≤ (i 0).val ∧ (i 0).val < (i 0).val / 5000 * 5000 + 5000; omega
  | ⟨1, _⟩ => show win5_4.index _ 1 * 16 ≤ (i 1).val ∧ (i 1).val < win5_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec5 1) : S1x16.Idx → Elt Ideal .f32) (ix2 (0 : Fin 1) q) = b (ix1 q))
    (hm : (V c (Pipeline.arrRef spec5 3) : S100000x16.Idx → BitVec 32) = Cert.KV.Dense.kerMask16 mask) :
    (dat5 V c).arrAt 4 cfg5.N
      = Cert.KV.Dense.refUpdate16 (V c (Pipeline.arrRef spec5 0) : FVec Ideal S100000x16 .f32) b (V c (Pipeline.arrRef spec5 2) : FVec Ideal S100000x16 .f32) mask :=
  (dat5 V c).arrAt_eq_of_cover 4 _ (fun t _ => flushed_eq V c b mask hb hm t) (cover)

end Cert.KernelIdeal.KV.Reg5

end
-- ==== Proof.HostL0.lean ====
/-
Host stretches of label layer 0: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 0, aggregation. With the stretch's inputs at the reference's stages (the projected labels, the two edge-endpoint columns, the edge weights), its scatter-add result is the reference's: each edge's source row is gathered, scaled by the edge weight and added into the destination row. -/
theorem host5_v79_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x9 : (⟨ReferenceIdeal.S10x16x16, .f32⟩ : BufTy).Contents (Elt Ideal))
    (h_v6 : V (Proc.devRef .tc KernelIdeal.main_v6) = val_main_v6 (F := Ideal) x2)
    (h_v66 : V (Proc.devRef .tc KernelIdeal.main_v66) = val_main_v70 (F := Ideal) x1 x9)
    (h_v3 : V (Proc.devRef .tc KernelIdeal.main_v3) = val_main_v3 (F := Ideal) x2)
    (h_v29 : V (Proc.devRef .tc KernelIdeal.main_v29) = val_main_v29 (F := Ideal) x2) :
    StableHlo.after (hostOps5 (F := Ideal)) V (Proc.devRef .tc KernelIdeal.main_v79) = val_main_v83 (F := Ideal) x1 x2 x9 := by
  after_results_simp
  rw [h_v6, h_v66, h_v3, h_v29]
  rfl

/-- The same at the run's stage contents: the stretch's entry is stage 11, its exit stage 12. -/
theorem host5_v79 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x9 : (⟨ReferenceIdeal.S10x16x16, .f32⟩ : BufTy).Contents (Elt Ideal))
    (h_v6 : W11 (F := Ideal) m ρ c (Proc.devRef .tc KernelIdeal.main_v6) = val_main_v6 (F := Ideal) x2)
    (h_v66 : W11 (F := Ideal) m ρ c (Proc.devRef .tc KernelIdeal.main_v66) = val_main_v70 (F := Ideal) x1 x9)
    (h_v3 : W11 (F := Ideal) m ρ c (Proc.devRef .tc KernelIdeal.main_v3) = val_main_v3 (F := Ideal) x2)
    (h_v29 : W11 (F := Ideal) m ρ c (Proc.devRef .tc KernelIdeal.main_v29) = val_main_v29 (F := Ideal) x2) :
    W12 (F := Ideal) m ρ c (Proc.devRef .tc KernelIdeal.main_v79) = val_main_v83 (F := Ideal) x1 x2 x9 :=
  host5_v79_of (W11 (F := Ideal) m ρ c) x1 x2 x9 h_v6 h_v66 h_v3 h_v29

set_option maxRecDepth 8192 in
/-- Label layer 0's bias as a `[16]` vector: row 0 of the stacked biases. -/
theorem host5_v81_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps5 (F := Ideal)) V (Proc.devRef .tc KernelIdeal.main_v81) = val_main_v69 (F := Ideal) x10 := by
  after_results_simp
  rw [h_arg10]
  rfl

/-- The same at the run's stage contents: the stretch's entry is stage 11, its exit stage 12. -/
theorem host5_v81 (c : Dev KernelIdeal.nD)
    (x10 : (⟨ReferenceIdeal.S10x16, .f32⟩ : BufTy).Contents (Elt Ideal))
    (h_arg10 : W11 (F := Ideal) m ρ c (Proc.devRef .tc KernelIdeal.main_arg10) = x10) :
    W12 (F := Ideal) m ρ c (Proc.devRef .tc KernelIdeal.main_v81) = val_main_v69 (F := Ideal) x10 :=
  host5_v81_of (W11 (F := Ideal) m ρ c) x10 h_arg10

set_option maxRecDepth 8192 in
/-- Label layer 0's bias as one `[1,16]` row: row 0 of the stacked biases, relaid. -/
theorem host5_v82_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps5 (F := Ideal)) V (Proc.devRef .tc KernelIdeal.main_v82)
      = shapeCast KernelIdeal.S1x16 (val_main_v69 (F := Ideal) x10) KernelIdeal.Facts₀.shapeCasts_S16_S1x16 := by
  after_results_simp
  rw [h_arg10]
  rfl

/-- The same at the run's stage contents: the stretch's entry is stage 11, its exit stage 12. -/
theorem host5_v82 (c : Dev KernelIdeal.nD)
    (x10 : (⟨ReferenceIdeal.S10x16, .f32⟩ : BufTy).Contents (Elt Ideal))
    (h_arg10 : W11 (F := Ideal) m ρ c (Proc.devRef .tc KernelIdeal.main_arg10) = x10) :
    W12 (F := Ideal) m ρ c (Proc.devRef .tc KernelIdeal.main_v82)
      = shapeCast KernelIdeal.S1x16 (val_main_v69 (F := Ideal) x10) KernelIdeal.Facts₀.shapeCasts_S16_S1x16 :=
  host5_v82_of (W11 (F := Ideal) m ρ c) x10 h_arg10

set_option maxRecDepth 8192 in
/-- The node mask over the 16 label columns, widened from one bit to 32-bit integers. -/
theorem host5_v83_of (V : Valuation KernelIdeal.τ KernelIdeal.sig (Elt Ideal)) :
    StableHlo.after (hostOps5 (F := Ideal)) V (Proc.devRef .tc KernelIdeal.main_v83)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 11, its exit stage 12. -/
theorem host5_v83 (c : Dev KernelIdeal.nD) :
    W12 (F := Ideal) m ρ c (Proc.devRef .tc KernelIdeal.main_v83)
      = extui 32 ((W11 (F := Ideal) m ρ c) (Proc.devRef .tc KernelIdeal.main_v63) : (⟨KernelIdeal.S100000x16, .i1⟩ : BufTy).Contents (Elt Ideal)) KernelIdeal.Facts₀.natLt_1_32 :=
  host5_v83_of (W11 (F := Ideal) m ρ c)

end Cert.KV.Host

end
-- ==== Proof.KeepA1.lean ====
/-
  The label array (argument 1) is written by no region and by no host stretch: at every stage it holds the launch memory.
  One step per stage: a host stretch leaves every buffer none of its operations writes; a region leaves every buffer that
  is not one of its arrays, and leaves an array it only reads (here: the first linear map's left operand, and every
  update's given labels) as it found it.
-/
import proofs.«146329_j1168231104595_1_alg».proof.Proof.KVTac

set_option maxRecDepth 16384

noncomputable section

namespace Cert.KernelIdeal.KV.KeepA1

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg1) = W0 m ρ c (Proc.devRef .tc main_arg1) :=
  (show W1 m ρ c (Proc.devRef .tc main_arg1) = W0 m ρ c (Proc.devRef .tc main_arg1) from (by keep_host hostOps0))
theorem k2 (c : Dev nD) : W2 m ρ c (Proc.devRef .tc main_arg1) = W0 m ρ c (Proc.devRef .tc main_arg1) :=
  ((show W2 m ρ c (Proc.devRef .tc main_arg1) = W1 m ρ c (Proc.devRef .tc main_arg1) from (by keep_host hostOps0_1))).trans (k1 m ρ c)
theorem k3 (c : Dev nD) : W3 m ρ c (Proc.devRef .tc main_arg1) = W0 m ρ c (Proc.devRef .tc main_arg1) :=
  ((show W3 m ρ c (Proc.devRef .tc main_arg1) = W2 m ρ c (Proc.devRef .tc main_arg1) from (by keep_host hostOps0_2))).trans (k2 m ρ c)
theorem k4 (c : Dev nD) : W4 m ρ c (Proc.devRef .tc main_arg1) = W0 m ρ c (Proc.devRef .tc main_arg1) :=
  (W4_of_ne m ρ c main_arg1 (by decide)).trans (k3 m ρ c)
theorem k5 (c : Dev nD) : W5 m ρ c (Proc.devRef .tc main_arg1) = W0 m ρ c (Proc.devRef .tc main_arg1) :=
  ((show W5 m ρ c (Proc.devRef .tc main_arg1) = W4 m ρ c (Proc.devRef .tc main_arg1) from (by keep_host hostOps1))).trans (k4 m ρ c)
theorem k6 (c : Dev nD) : W6 m ρ c (Proc.devRef .tc main_arg1) = W0 m ρ c (Proc.devRef .tc main_arg1) :=
  (W6_of_ne m ρ c main_arg1 (by decide)).trans (k5 m ρ c)
theorem k7 (c : Dev nD) : W7 m ρ c (Proc.devRef .tc main_arg1) = W0 m ρ c (Proc.devRef .tc main_arg1) :=
  (W7_of_ne m ρ c main_arg1 (by decide)).trans (k6 m ρ c)
theorem k8 (c : Dev nD) : W8 m ρ c (Proc.devRef .tc main_arg1) = W0 m ρ c (Proc.devRef .tc main_arg1) :=
  ((show W8 m ρ c (Proc.devRef .tc main_arg1) = W7 m ρ c (Proc.devRef .tc main_arg1) from (by keep_host hostOps3))).trans (k7 m ρ c)
theorem k9 (c : Dev nD) : W9 m ρ c (Proc.devRef .tc main_arg1) = W0 m ρ c (Proc.devRef .tc main_arg1) :=
  (W9_of_ne m ρ c main_arg1 (by decide)).trans (k8 m ρ c)
theorem k10 (c : Dev nD) : W10 m ρ c (Proc.devRef .tc main_arg1) = W0 m ρ c (Proc.devRef .tc main_arg1) :=
  ((show W10 m ρ c (Proc.devRef .tc main_arg1) = W9 m ρ c (Proc.devRef .tc main_arg1) from (by keep_host hostOps4))).trans (k9 m ρ c)
theorem k11 (c : Dev nD) : W11 m ρ c (Proc.devRef .tc main_arg1) = W0 m ρ c (Proc.devRef .tc main_arg1) :=
  ((W11_arr m ρ c 0).trans (((dat4 (V10 m ρ) c).arrAt_in 0 rfl _).trans (A_eq4 (V10 m ρ) c 0))).trans (k10 m ρ c)
theorem k12 (c : Dev nD) : W12 m ρ c (Proc.devRef .tc main_arg1) = W0 m ρ c (Proc.devRef .tc main_arg1) :=
  ((show W12 m ρ c (Proc.devRef .tc main_arg1) = W11 m ρ c (Proc.devRef .tc main_arg1) from (by keep_host hostOps5))).trans (k11 m ρ c)
theorem k13 (c : Dev nD) : W13 m ρ c (Proc.devRef .tc main_arg1) = W0 m ρ c (Proc.devRef .tc main_arg1) :=
  ((W13_arr m ρ c 2).trans (((dat5 (V12 m ρ) c).arrAt_in 2 rfl _).trans (A_eq5 (V12 m ρ) c 2))).trans (k12 m ρ c)
theorem k14 (c : Dev nD) : W14 m ρ c (Proc.devRef .tc main_arg1) = W0 m ρ c (Proc.devRef .tc main_arg1) :=
  ((show W14 m ρ c (Proc.devRef .tc main_arg1) = W13 m ρ c (Proc.devRef .tc main_arg1) from (by keep_host hostOps6))).trans (k13 m ρ c)
theorem k15 (c : Dev nD) : W15 m ρ c (Proc.devRef .tc main_arg1) = W0 m ρ c (Proc.devRef .tc main_arg1) :=
  (W15_of_ne m ρ c main_arg1 (by decide)).trans (k14 m ρ c)
theorem k16 (c : Dev nD) : W16 m ρ c (Proc.devRef .tc main_arg1) = W0 m ρ c (Proc.devRef .tc main_arg1) :=
  ((show W16 m ρ c (Proc.devRef .tc main_arg1) = W15 m ρ c (Proc.devRef .tc main_arg1) from (by keep_host hostOps7))).trans (k15 m ρ c)
theorem k17 (c : Dev nD) : W17 m ρ c (Proc.devRef .tc main_arg1) = W0 m ρ c (Proc.devRef .tc main_arg1) :=
  ((W17_arr m ρ c 2).trans (((dat7 (V16 m ρ) c).arrAt_in 2 rfl _).trans (A_eq7 (V16 m ρ) c 2))).trans (k16 m ρ c)
theorem k18 (c : Dev nD) : W18 m ρ c (Proc.devRef .tc main_arg1) = W0 m ρ c (Proc.devRef .tc main_arg1) :=
  ((show W18 m ρ c (Proc.devRef .tc main_arg1) = W17 m ρ c (Proc.devRef .tc main_arg1) from (by keep_host hostOps8))).trans (k17 m ρ c)
theorem k19 (c : Dev nD) : W19 m ρ c (Proc.devRef .tc main_arg1) = W0 m ρ c (Proc.devRef .tc main_arg1) :=
  (W19_of_ne m ρ c main_arg1 (by decide)).trans (k18 m ρ c)
theorem k20 (c : Dev nD) : W20 m ρ c (Proc.devRef .tc main_arg1) = W0 m ρ c (Proc.devRef .tc main_arg1) :=
  ((show W20 m ρ c (Proc.devRef .tc main_arg1) = W19 m ρ c (Proc.devRef .tc main_arg1) from (by keep_host hostOps9))).trans (k19 m ρ c)
theorem k21 (c : Dev nD) : W21 m ρ c (Proc.devRef .tc main_arg1) = W0 m ρ c (Proc.devRef .tc main_arg1) :=
  ((W21_arr m ρ c 2).trans (((dat9 (V20 m ρ) c).arrAt_in 2 rfl _).trans (A_eq9 (V20 m ρ) c 2))).trans (k20 m ρ c)
theorem k22 (c : Dev nD) : W22 m ρ c (Proc.devRef .tc main_arg1) = W0 m ρ c (Proc.devRef .tc main_arg1) :=
  ((show W22 m ρ c (Proc.devRef .tc main_arg1) = W21 m ρ c (Proc.devRef .tc main_arg1) from (by keep_host hostOps10))).trans (k21 m ρ c)
theorem k23 (c : Dev nD) : W23 m ρ c (Proc.devRef .tc main_arg1) = W0 m ρ c (Proc.devRef .tc main_arg1) :=
  (W23_of_ne m ρ c main_arg1 (by decide)).trans (k22 m ρ c)
theorem k24 (c : Dev nD) : W24 m ρ c (Proc.devRef .tc main_arg1) = W0 m ρ c (Proc.devRef .tc main_arg1) :=
  ((show W24 m ρ c (Proc.devRef .tc main_arg1) = W23 m ρ c (Proc.devRef .tc main_arg1) from (by keep_host hostOps11))).trans (k23 m ρ c)
theorem k25 (c : Dev nD) : W25 m ρ c (Proc.devRef .tc main_arg1) = W0 m ρ c (Proc.devRef .tc main_arg1) :=
  ((W25_arr m ρ c 2).trans (((dat11 (V24 m ρ) c).arrAt_in 2 rfl _).trans (A_eq11 (V24 m ρ) c 2))).trans (k24 m ρ c)
theorem k26 (c : Dev nD) : W26 m ρ c (Proc.devRef .tc main_arg1) = W0 m ρ c (Proc.devRef .tc main_arg1) :=
  ((show W26 m ρ c (Proc.devRef .tc main_arg1) = W25 m ρ c (Proc.devRef .tc main_arg1) from (by keep_host hostOps12))).trans (k25 m ρ c)
theorem k27 (c : Dev nD) : W27 m ρ c (Proc.devRef .tc main_arg1) = W0 m ρ c (Proc.devRef .tc main_arg1) :=
  (W27_of_ne m ρ c main_arg1 (by decide)).trans (k26 m ρ c)
theorem k28 (c : Dev nD) : W28 m ρ c (Proc.devRef .tc main_arg1) = W0 m ρ c (Proc.devRef .tc main_arg1) :=
  ((show W28 m ρ c (Proc.devRef .tc main_arg1) = W27 m ρ c (Proc.devRef .tc main_arg1) from (by keep_host hostOps13))).trans (k27 m ρ c)
theorem k29 (c : Dev nD) : W29 m ρ c (Proc.devRef .tc main_arg1) = W0 m ρ c (Proc.devRef .tc main_arg1) :=
  ((W29_arr m ρ c 2).trans (((dat13 (V28 m ρ) c).arrAt_in 2 rfl _).trans (A_eq13 (V28 m ρ) c 2))).trans (k28 m ρ c)
theorem k30 (c : Dev nD) : W30 m ρ c (Proc.devRef .tc main_arg1) = W0 m ρ c (Proc.devRef .tc main_arg1) :=
  ((show W30 m ρ c (Proc.devRef .tc main_arg1) = W29 m ρ c (Proc.devRef .tc main_arg1) from (by keep_host hostOps14))).trans (k29 m ρ c)
theorem k31 (c : Dev nD) : W31 m ρ c (Proc.devRef .tc main_arg1) = W0 m ρ c (Proc.devRef .tc main_arg1) :=
  (W31_of_ne m ρ c main_arg1 (by decide)).trans (k30 m ρ c)
theorem k32 (c : Dev nD) : W32 m ρ c (Proc.devRef .tc main_arg1) = W0 m ρ c (Proc.devRef .tc main_arg1) :=
  ((show W32 m ρ c (Proc.devRef .tc main_arg1) = W31 m ρ c (Proc.devRef .tc main_arg1) from (by keep_host hostOps15))).trans (k31 m ρ c)
theorem k33 (c : Dev nD) : W33 m ρ c (Proc.devRef .tc main_arg1) = W0 m ρ c (Proc.devRef .tc main_arg1) :=
  ((W33_arr m ρ c 2).trans (((dat15 (V32 m ρ) c).arrAt_in 2 rfl _).trans (A_eq15 (V32 m ρ) c 2))).trans (k32 m ρ c)
theorem k34 (c : Dev nD) : W34 m ρ c (Proc.devRef .tc main_arg1) = W0 m ρ c (Proc.devRef .tc main_arg1) :=
  ((show W34 m ρ c (Proc.devRef .tc main_arg1) = W33 m ρ c (Proc.devRef .tc main_arg1) from (by keep_host hostOps16))).trans (k33 m ρ c)
theorem k35 (c : Dev nD) : W35 m ρ c (Proc.devRef .tc main_arg1) = W0 m ρ c (Proc.devRef .tc main_arg1) :=
  (W35_of_ne m ρ c main_arg1 (by decide)).trans (k34 m ρ c)
theorem k36 (c : Dev nD) : W36 m ρ c (Proc.devRef .tc main_arg1) = W0 m ρ c (Proc.devRef .tc main_arg1) :=
  ((show W36 m ρ c (Proc.devRef .tc main_arg1) = W35 m ρ c (Proc.devRef .tc main_arg1) from (by keep_host hostOps17))).trans (k35 m ρ c)
theorem k37 (c : Dev nD) : W37 m ρ c (Proc.devRef .tc main_arg1) = W0 m ρ c (Proc.devRef .tc main_arg1) :=
  ((W37_arr m ρ c 2).trans (((dat17 (V36 m ρ) c).arrAt_in 2 rfl _).trans (A_eq17 (V36 m ρ) c 2))).trans (k36 m ρ c)
theorem k38 (c : Dev nD) : W38 m ρ c (Proc.devRef .tc main_arg1) = W0 m ρ c (Proc.devRef .tc main_arg1) :=
  ((show W38 m ρ c (Proc.devRef .tc main_arg1) = W37 m ρ c (Proc.devRef .tc main_arg1) from (by keep_host hostOps18))).trans (k37 m ρ c)
theorem k39 (c : Dev nD) : W39 m ρ c (Proc.devRef .tc main_arg1) = W0 m ρ c (Proc.devRef .tc main_arg1) :=
  (W39_of_ne m ρ c main_arg1 (by decide)).trans (k38 m ρ c)
theorem k40 (c : Dev nD) : W40 m ρ c (Proc.devRef .tc main_arg1) = W0 m ρ c (Proc.devRef .tc main_arg1) :=
  ((show W40 m ρ c (Proc.devRef .tc main_arg1) = W39 m ρ c (Proc.devRef .tc main_arg1) from (by keep_host hostOps19))).trans (k39 m ρ c)
theorem k41 (c : Dev nD) : W41 m ρ c (Proc.devRef .tc main_arg1) = W0 m ρ c (Proc.devRef .tc main_arg1) :=
  ((W41_arr m ρ c 2).trans (((dat19 (V40 m ρ) c).arrAt_in 2 rfl _).trans (A_eq19 (V40 m ρ) c 2))).trans (k40 m ρ c)
theorem k42 (c : Dev nD) : W42 m ρ c (Proc.devRef .tc main_arg1) = W0 m ρ c (Proc.devRef .tc main_arg1) :=
  ((show W42 m ρ c (Proc.devRef .tc main_arg1) = W41 m ρ c (Proc.devRef .tc main_arg1) from (by keep_host hostOps20))).trans (k41 m ρ c)
theorem k43 (c : Dev nD) : W43 m ρ c (Proc.devRef .tc main_arg1) = W0 m ρ c (Proc.devRef .tc main_arg1) :=
  (W43_of_ne m ρ c main_arg1 (by decide)).trans (k42 m ρ c)
theorem k44 (c : Dev nD) : W44 m ρ c (Proc.devRef .tc main_arg1) = W0 m ρ c (Proc.devRef .tc main_arg1) :=
  ((show W44 m ρ c (Proc.devRef .tc main_arg1) = W43 m ρ c (Proc.devRef .tc main_arg1) from (by keep_host hostOps21))).trans (k43 m ρ c)
theorem k45 (c : Dev nD) : W45 m ρ c (Proc.devRef .tc main_arg1) = W0 m ρ c (Proc.devRef .tc main_arg1) :=
  ((W45_arr m ρ c 2).trans (((dat21 (V44 m ρ) c).arrAt_in 2 rfl _).trans (A_eq21 (V44 m ρ) c 2))).trans (k44 m ρ c)
theorem k46 (c : Dev nD) : W46 m ρ c (Proc.devRef .tc main_arg1) = W0 m ρ c (Proc.devRef .tc main_arg1) :=
  ((show W46 m ρ c (Proc.devRef .tc main_arg1) = W45 m ρ c (Proc.devRef .tc main_arg1) from (by keep_host hostOps22))).trans (k45 m ρ c)
theorem k47 (c : Dev nD) : W47 m ρ c (Proc.devRef .tc main_arg1) = W0 m ρ c (Proc.devRef .tc main_arg1) :=
  (W47_of_ne m ρ c main_arg1 (by decide)).trans (k46 m ρ c)
theorem k48 (c : Dev nD) : W48 m ρ c (Proc.devRef .tc main_arg1) = W0 m ρ c (Proc.devRef .tc main_arg1) :=
  ((show W48 m ρ c (Proc.devRef .tc main_arg1) = W47 m ρ c (Proc.devRef .tc main_arg1) from (by keep_host hostOps23))).trans (k47 m ρ c)

end Cert.KernelIdeal.KV.KeepA1

end
-- ==== Proof.KeepA4.lean ====
/-
  The buffer arg4 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA4

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg4) = W0 m ρ c (Proc.devRef .tc main_arg4) :=
  (show W1 m ρ c (Proc.devRef .tc main_arg4) = W0 m ρ c (Proc.devRef .tc main_arg4) from (by keep_host hostOps0))
theorem k2 (c : Dev nD) : W2 m ρ c (Proc.devRef .tc main_arg4) = W0 m ρ c (Proc.devRef .tc main_arg4) :=
  ((show W2 m ρ c (Proc.devRef .tc main_arg4) = W1 m ρ c (Proc.devRef .tc main_arg4) from (by keep_host hostOps0_1))).trans (k1 m ρ c)
theorem k3 (c : Dev nD) : W3 m ρ c (Proc.devRef .tc main_arg4) = W0 m ρ c (Proc.devRef .tc main_arg4) :=
  ((show W3 m ρ c (Proc.devRef .tc main_arg4) = W2 m ρ c (Proc.devRef .tc main_arg4) from (by keep_host hostOps0_2))).trans (k2 m ρ c)
theorem k4 (c : Dev nD) : W4 m ρ c (Proc.devRef .tc main_arg4) = W0 m ρ c (Proc.devRef .tc main_arg4) :=
  (W4_of_ne m ρ c main_arg4 (by decide)).trans (k3 m ρ c)
theorem k5 (c : Dev nD) : W5 m ρ c (Proc.devRef .tc main_arg4) = W0 m ρ c (Proc.devRef .tc main_arg4) :=
  ((show W5 m ρ c (Proc.devRef .tc main_arg4) = W4 m ρ c (Proc.devRef .tc main_arg4) from (by keep_host hostOps1))).trans (k4 m ρ c)
theorem k6 (c : Dev nD) : W6 m ρ c (Proc.devRef .tc main_arg4) = W0 m ρ c (Proc.devRef .tc main_arg4) :=
  (W6_of_ne m ρ c main_arg4 (by decide)).trans (k5 m ρ c)
theorem k7 (c : Dev nD) : W7 m ρ c (Proc.devRef .tc main_arg4) = W0 m ρ c (Proc.devRef .tc main_arg4) :=
  (W7_of_ne m ρ c main_arg4 (by decide)).trans (k6 m ρ c)
theorem k8 (c : Dev nD) : W8 m ρ c (Proc.devRef .tc main_arg4) = W0 m ρ c (Proc.devRef .tc main_arg4) :=
  ((show W8 m ρ c (Proc.devRef .tc main_arg4) = W7 m ρ c (Proc.devRef .tc main_arg4) from (by keep_host hostOps3))).trans (k7 m ρ c)
theorem k9 (c : Dev nD) : W9 m ρ c (Proc.devRef .tc main_arg4) = W0 m ρ c (Proc.devRef .tc main_arg4) :=
  (W9_of_ne m ρ c main_arg4 (by decide)).trans (k8 m ρ c)

end Cert.KernelIdeal.KV.KeepA4

end
-- ==== Proof.KeepA9.lean ====
/-
  The buffer arg9 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA9

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg9) = W0 m ρ c (Proc.devRef .tc main_arg9) :=
  (show W1 m ρ c (Proc.devRef .tc main_arg9) = W0 m ρ c (Proc.devRef .tc main_arg9) from (by keep_host hostOps0))
theorem k2 (c : Dev nD) : W2 m ρ c (Proc.devRef .tc main_arg9) = W0 m ρ c (Proc.devRef .tc main_arg9) :=
  ((show W2 m ρ c (Proc.devRef .tc main_arg9) = W1 m ρ c (Proc.devRef .tc main_arg9) from (by keep_host hostOps0_1))).trans (k1 m ρ c)
theorem k3 (c : Dev nD) : W3 m ρ c (Proc.devRef .tc main_arg9) = W0 m ρ c (Proc.devRef .tc main_arg9) :=
  ((show W3 m ρ c (Proc.devRef .tc main_arg9) = W2 m ρ c (Proc.devRef .tc main_arg9) from (by keep_host hostOps0_2))).trans (k2 m ρ c)
theorem k4 (c : Dev nD) : W4 m ρ c (Proc.devRef .tc main_arg9) = W0 m ρ c (Proc.devRef .tc main_arg9) :=
  (W4_of_ne m ρ c main_arg9 (by decide)).trans (k3 m ρ c)
theorem k5 (c : Dev nD) : W5 m ρ c (Proc.devRef .tc main_arg9) = W0 m ρ c (Proc.devRef .tc main_arg9) :=
  ((show W5 m ρ c (Proc.devRef .tc main_arg9) = W4 m ρ c (Proc.devRef .tc main_arg9) from (by keep_host hostOps1))).trans (k4 m ρ c)
theorem k6 (c : Dev nD) : W6 m ρ c (Proc.devRef .tc main_arg9) = W0 m ρ c (Proc.devRef .tc main_arg9) :=
  (W6_of_ne m ρ c main_arg9 (by decide)).trans (k5 m ρ c)
theorem k7 (c : Dev nD) : W7 m ρ c (Proc.devRef .tc main_arg9) = W0 m ρ c (Proc.devRef .tc main_arg9) :=
  (W7_of_ne m ρ c main_arg9 (by decide)).trans (k6 m ρ c)
theorem k8 (c : Dev nD) : W8 m ρ c (Proc.devRef .tc main_arg9) = W0 m ρ c (Proc.devRef .tc main_arg9) :=
  ((show W8 m ρ c (Proc.devRef .tc main_arg9) = W7 m ρ c (Proc.devRef .tc main_arg9) from (by keep_host hostOps3))).trans (k7 m ρ c)
theorem k9 (c : Dev nD) : W9 m ρ c (Proc.devRef .tc main_arg9) = W0 m ρ c (Proc.devRef .tc main_arg9) :=
  (W9_of_ne m ρ c main_arg9 (by decide)).trans (k8 m ρ c)
theorem k10 (c : Dev nD) : W10 m ρ c (Proc.devRef .tc main_arg9) = W0 m ρ c (Proc.devRef .tc main_arg9) :=
  ((show W10 m ρ c (Proc.devRef .tc main_arg9) = W9 m ρ c (Proc.devRef .tc main_arg9) from (by keep_host hostOps4))).trans (k9 m ρ c)
theorem k11 (c : Dev nD) : W11 m ρ c (Proc.devRef .tc main_arg9) = W0 m ρ c (Proc.devRef .tc main_arg9) :=
  (W11_of_ne m ρ c main_arg9 (by decide)).trans (k10 m ρ c)
theorem k12 (c : Dev nD) : W12 m ρ c (Proc.devRef .tc main_arg9) = W0 m ρ c (Proc.devRef .tc main_arg9) :=
  ((show W12 m ρ c (Proc.devRef .tc main_arg9) = W11 m ρ c (Proc.devRef .tc main_arg9) from (by keep_host hostOps5))).trans (k11 m ρ c)
theorem k13 (c : Dev nD) : W13 m ρ c (Proc.devRef .tc main_arg9) = W0 m ρ c (Proc.devRef .tc main_arg9) :=
  (W13_of_ne m ρ c main_arg9 (by decide)).trans (k12 m ρ c)
theorem k14 (c : Dev nD) : W14 m ρ c (Proc.devRef .tc main_arg9) = W0 m ρ c (Proc.devRef .tc main_arg9) :=
  ((show W14 m ρ c (Proc.devRef .tc main_arg9) = W13 m ρ c (Proc.devRef .tc main_arg9) from (by keep_host hostOps6))).trans (k13 m ρ c)
theorem k15 (c : Dev nD) : W15 m ρ c (Proc.devRef .tc main_arg9) = W0 m ρ c (Proc.devRef .tc main_arg9) :=
  (W15_of_ne m ρ c main_arg9 (by decide)).trans (k14 m ρ c)
theorem k16 (c : Dev nD) : W16 m ρ c (Proc.devRef .tc main_arg9) = W0 m ρ c (Proc.devRef .tc main_arg9) :=
  ((show W16 m ρ c (Proc.devRef .tc main_arg9) = W15 m ρ c (Proc.devRef .tc main_arg9) from (by keep_host hostOps7))).trans (k15 m ρ c)
theorem k17 (c : Dev nD) : W17 m ρ c (Proc.devRef .tc main_arg9) = W0 m ρ c (Proc.devRef .tc main_arg9) :=
  (W17_of_ne m ρ c main_arg9 (by decide)).trans (k16 m ρ c)
theorem k18 (c : Dev nD) : W18 m ρ c (Proc.devRef .tc main_arg9) = W0 m ρ c (Proc.devRef .tc main_arg9) :=
  ((show W18 m ρ c (Proc.devRef .tc main_arg9) = W17 m ρ c (Proc.devRef .tc main_arg9) from (by keep_host hostOps8))).trans (k17 m ρ c)
theorem k19 (c : Dev nD) : W19 m ρ c (Proc.devRef .tc main_arg9) = W0 m ρ c (Proc.devRef .tc main_arg9) :=
  (W19_of_ne m ρ c main_arg9 (by decide)).trans (k18 m ρ c)
theorem k20 (c : Dev nD) : W20 m ρ c (Proc.devRef .tc main_arg9) = W0 m ρ c (Proc.devRef .tc main_arg9) :=
  ((show W20 m ρ c (Proc.devRef .tc main_arg9) = W19 m ρ c (Proc.devRef .tc main_arg9) from (by keep_host hostOps9))).trans (k19 m ρ c)
theorem k21 (c : Dev nD) : W21 m ρ c (Proc.devRef .tc main_arg9) = W0 m ρ c (Proc.devRef .tc main_arg9) :=
  (W21_of_ne m ρ c main_arg9 (by decide)).trans (k20 m ρ c)
theorem k22 (c : Dev nD) : W22 m ρ c (Proc.devRef .tc main_arg9) = W0 m ρ c (Proc.devRef .tc main_arg9) :=
  ((show W22 m ρ c (Proc.devRef .tc main_arg9) = W21 m ρ c (Proc.devRef .tc main_arg9) from (by keep_host hostOps10))).trans (k21 m ρ c)
theorem k23 (c : Dev nD) : W23 m ρ c (Proc.devRef .tc main_arg9) = W0 m ρ c (Proc.devRef .tc main_arg9) :=
  (W23_of_ne m ρ c main_arg9 (by decide)).trans (k22 m ρ c)
theorem k24 (c : Dev nD) : W24 m ρ c (Proc.devRef .tc main_arg9) = W0 m ρ c (Proc.devRef .tc main_arg9) :=
  ((show W24 m ρ c (Proc.devRef .tc main_arg9) = W23 m ρ c (Proc.devRef .tc main_arg9) from (by keep_host hostOps11))).trans (k23 m ρ c)
theorem k25 (c : Dev nD) : W25 m ρ c (Proc.devRef .tc main_arg9) = W0 m ρ c (Proc.devRef .tc main_arg9) :=
  (W25_of_ne m ρ c main_arg9 (by decide)).trans (k24 m ρ c)
theorem k26 (c : Dev nD) : W26 m ρ c (Proc.devRef .tc main_arg9) = W0 m ρ c (Proc.devRef .tc main_arg9) :=
  ((show W26 m ρ c (Proc.devRef .tc main_arg9) = W25 m ρ c (Proc.devRef .tc main_arg9) from (by keep_host hostOps12))).trans (k25 m ρ c)
theorem k27 (c : Dev nD) : W27 m ρ c (Proc.devRef .tc main_arg9) = W0 m ρ c (Proc.devRef .tc main_arg9) :=
  (W27_of_ne m ρ c main_arg9 (by decide)).trans (k26 m ρ c)
theorem k28 (c : Dev nD) : W28 m ρ c (Proc.devRef .tc main_arg9) = W0 m ρ c (Proc.devRef .tc main_arg9) :=
  ((show W28 m ρ c (Proc.devRef .tc main_arg9) = W27 m ρ c (Proc.devRef .tc main_arg9) from (by keep_host hostOps13))).trans (k27 m ρ c)
theorem k29 (c : Dev nD) : W29 m ρ c (Proc.devRef .tc main_arg9) = W0 m ρ c (Proc.devRef .tc main_arg9) :=
  (W29_of_ne m ρ c main_arg9 (by decide)).trans (k28 m ρ c)
theorem k30 (c : Dev nD) : W30 m ρ c (Proc.devRef .tc main_arg9) = W0 m ρ c (Proc.devRef .tc main_arg9) :=
  ((show W30 m ρ c (Proc.devRef .tc main_arg9) = W29 m ρ c (Proc.devRef .tc main_arg9) from (by keep_host hostOps14))).trans (k29 m ρ c)
theorem k31 (c : Dev nD) : W31 m ρ c (Proc.devRef .tc main_arg9) = W0 m ρ c (Proc.devRef .tc main_arg9) :=
  (W31_of_ne m ρ c main_arg9 (by decide)).trans (k30 m ρ c)
theorem k32 (c : Dev nD) : W32 m ρ c (Proc.devRef .tc main_arg9) = W0 m ρ c (Proc.devRef .tc main_arg9) :=
  ((show W32 m ρ c (Proc.devRef .tc main_arg9) = W31 m ρ c (Proc.devRef .tc main_arg9) from (by keep_host hostOps15))).trans (k31 m ρ c)
theorem k33 (c : Dev nD) : W33 m ρ c (Proc.devRef .tc main_arg9) = W0 m ρ c (Proc.devRef .tc main_arg9) :=
  (W33_of_ne m ρ c main_arg9 (by decide)).trans (k32 m ρ c)
theorem k34 (c : Dev nD) : W34 m ρ c (Proc.devRef .tc main_arg9) = W0 m ρ c (Proc.devRef .tc main_arg9) :=
  ((show W34 m ρ c (Proc.devRef .tc main_arg9) = W33 m ρ c (Proc.devRef .tc main_arg9) from (by keep_host hostOps16))).trans (k33 m ρ c)
theorem k35 (c : Dev nD) : W35 m ρ c (Proc.devRef .tc main_arg9) = W0 m ρ c (Proc.devRef .tc main_arg9) :=
  (W35_of_ne m ρ c main_arg9 (by decide)).trans (k34 m ρ c)
theorem k36 (c : Dev nD) : W36 m ρ c (Proc.devRef .tc main_arg9) = W0 m ρ c (Proc.devRef .tc main_arg9) :=
  ((show W36 m ρ c (Proc.devRef .tc main_arg9) = W35 m ρ c (Proc.devRef .tc main_arg9) from (by keep_host hostOps17))).trans (k35 m ρ c)
theorem k37 (c : Dev nD) : W37 m ρ c (Proc.devRef .tc main_arg9) = W0 m ρ c (Proc.devRef .tc main_arg9) :=
  (W37_of_ne m ρ c main_arg9 (by decide)).trans (k36 m ρ c)
theorem k38 (c : Dev nD) : W38 m ρ c (Proc.devRef .tc main_arg9) = W0 m ρ c (Proc.devRef .tc main_arg9) :=
  ((show W38 m ρ c (Proc.devRef .tc main_arg9) = W37 m ρ c (Proc.devRef .tc main_arg9) from (by keep_host hostOps18))).trans (k37 m ρ c)
theorem k39 (c : Dev nD) : W39 m ρ c (Proc.devRef .tc main_arg9) = W0 m ρ c (Proc.devRef .tc main_arg9) :=
  (W39_of_ne m ρ c main_arg9 (by decide)).trans (k38 m ρ c)
theorem k40 (c : Dev nD) : W40 m ρ c (Proc.devRef .tc main_arg9) = W0 m ρ c (Proc.devRef .tc main_arg9) :=
  ((show W40 m ρ c (Proc.devRef .tc main_arg9) = W39 m ρ c (Proc.devRef .tc main_arg9) from (by keep_host hostOps19))).trans (k39 m ρ c)
theorem k41 (c : Dev nD) : W41 m ρ c (Proc.devRef .tc main_arg9) = W0 m ρ c (Proc.devRef .tc main_arg9) :=
  (W41_of_ne m ρ c main_arg9 (by decide)).trans (k40 m ρ c)
theorem k42 (c : Dev nD) : W42 m ρ c (Proc.devRef .tc main_arg9) = W0 m ρ c (Proc.devRef .tc main_arg9) :=
  ((show W42 m ρ c (Proc.devRef .tc main_arg9) = W41 m ρ c (Proc.devRef .tc main_arg9) from (by keep_host hostOps20))).trans (k41 m ρ c)
theorem k43 (c : Dev nD) : W43 m ρ c (Proc.devRef .tc main_arg9) = W0 m ρ c (Proc.devRef .tc main_arg9) :=
  (W43_of_ne m ρ c main_arg9 (by decide)).trans (k42 m ρ c)
theorem k44 (c : Dev nD) : W44 m ρ c (Proc.devRef .tc main_arg9) = W0 m ρ c (Proc.devRef .tc main_arg9) :=
  ((show W44 m ρ c (Proc.devRef .tc main_arg9) = W43 m ρ c (Proc.devRef .tc main_arg9) from (by keep_host hostOps21))).trans (k43 m ρ c)
theorem k45 (c : Dev nD) : W45 m ρ c (Proc.devRef .tc main_arg9) = W0 m ρ c (Proc.devRef .tc main_arg9) :=
  (W45_of_ne m ρ c main_arg9 (by decide)).trans (k44 m ρ c)

end Cert.KernelIdeal.KV.KeepA9

end
-- ==== Proof.KeepA10.lean ====
/-
  The buffer arg10 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA10

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg10) = W0 m ρ c (Proc.devRef .tc main_arg10) :=
  (show W1 m ρ c (Proc.devRef .tc main_arg10) = W0 m ρ c (Proc.devRef .tc main_arg10) from (by keep_host hostOps0))
theorem k2 (c : Dev nD) : W2 m ρ c (Proc.devRef .tc main_arg10) = W0 m ρ c (Proc.devRef .tc main_arg10) :=
  ((show W2 m ρ c (Proc.devRef .tc main_arg10) = W1 m ρ c (Proc.devRef .tc main_arg10) from (by keep_host hostOps0_1))).trans (k1 m ρ c)
theorem k3 (c : Dev nD) : W3 m ρ c (Proc.devRef .tc main_arg10) = W0 m ρ c (Proc.devRef .tc main_arg10) :=
  ((show W3 m ρ c (Proc.devRef .tc main_arg10) = W2 m ρ c (Proc.devRef .tc main_arg10) from (by keep_host hostOps0_2))).trans (k2 m ρ c)
theorem k4 (c : Dev nD) : W4 m ρ c (Proc.devRef .tc main_arg10) = W0 m ρ c (Proc.devRef .tc main_arg10) :=
  (W4_of_ne m ρ c main_arg10 (by decide)).trans (k3 m ρ c)
theorem k5 (c : Dev nD) : W5 m ρ c (Proc.devRef .tc main_arg10) = W0 m ρ c (Proc.devRef .tc main_arg10) :=
  ((show W5 m ρ c (Proc.devRef .tc main_arg10) = W4 m ρ c (Proc.devRef .tc main_arg10) from (by keep_host hostOps1))).trans (k4 m ρ c)
theorem k6 (c : Dev nD) : W6 m ρ c (Proc.devRef .tc main_arg10) = W0 m ρ c (Proc.devRef .tc main_arg10) :=
  (W6_of_ne m ρ c main_arg10 (by decide)).trans (k5 m ρ c)
theorem k7 (c : Dev nD) : W7 m ρ c (Proc.devRef .tc main_arg10) = W0 m ρ c (Proc.devRef .tc main_arg10) :=
  (W7_of_ne m ρ c main_arg10 (by decide)).trans (k6 m ρ c)
theorem k8 (c : Dev nD) : W8 m ρ c (Proc.devRef .tc main_arg10) = W0 m ρ c (Proc.devRef .tc main_arg10) :=
  ((show W8 m ρ c (Proc.devRef .tc main_arg10) = W7 m ρ c (Proc.devRef .tc main_arg10) from (by keep_host hostOps3))).trans (k7 m ρ c)
theorem k9 (c : Dev nD) : W9 m ρ c (Proc.devRef .tc main_arg10) = W0 m ρ c (Proc.devRef .tc main_arg10) :=
  (W9_of_ne m ρ c main_arg10 (by decide)).trans (k8 m ρ c)
theorem k10 (c : Dev nD) : W10 m ρ c (Proc.devRef .tc main_arg10) = W0 m ρ c (Proc.devRef .tc main_arg10) :=
  ((show W10 m ρ c (Proc.devRef .tc main_arg10) = W9 m ρ c (Proc.devRef .tc main_arg10) from (by keep_host hostOps4))).trans (k9 m ρ c)
theorem k11 (c : Dev nD) : W11 m ρ c (Proc.devRef .tc main_arg10) = W0 m ρ c (Proc.devRef .tc main_arg10) :=
  (W11_of_ne m ρ c main_arg10 (by decide)).trans (k10 m ρ c)
theorem k12 (c : Dev nD) : W12 m ρ c (Proc.devRef .tc main_arg10) = W0 m ρ c (Proc.devRef .tc main_arg10) :=
  ((show W12 m ρ c (Proc.devRef .tc main_arg10) = W11 m ρ c (Proc.devRef .tc main_arg10) from (by keep_host hostOps5))).trans (k11 m ρ c)
theorem k13 (c : Dev nD) : W13 m ρ c (Proc.devRef .tc main_arg10) = W0 m ρ c (Proc.devRef .tc main_arg10) :=
  (W13_of_ne m ρ c main_arg10 (by decide)).trans (k12 m ρ c)
theorem k14 (c : Dev nD) : W14 m ρ c (Proc.devRef .tc main_arg10) = W0 m ρ c (Proc.devRef .tc main_arg10) :=
  ((show W14 m ρ c (Proc.devRef .tc main_arg10) = W13 m ρ c (Proc.devRef .tc main_arg10) from (by keep_host hostOps6))).trans (k13 m ρ c)
theorem k15 (c : Dev nD) : W15 m ρ c (Proc.devRef .tc main_arg10) = W0 m ρ c (Proc.devRef .tc main_arg10) :=
  (W15_of_ne m ρ c main_arg10 (by decide)).trans (k14 m ρ c)
theorem k16 (c : Dev nD) : W16 m ρ c (Proc.devRef .tc main_arg10) = W0 m ρ c (Proc.devRef .tc main_arg10) :=
  ((show W16 m ρ c (Proc.devRef .tc main_arg10) = W15 m ρ c (Proc.devRef .tc main_arg10) from (by keep_host hostOps7))).trans (k15 m ρ c)
theorem k17 (c : Dev nD) : W17 m ρ c (Proc.devRef .tc main_arg10) = W0 m ρ c (Proc.devRef .tc main_arg10) :=
  (W17_of_ne m ρ c main_arg10 (by decide)).trans (k16 m ρ c)
theorem k18 (c : Dev nD) : W18 m ρ c (Proc.devRef .tc main_arg10) = W0 m ρ c (Proc.devRef .tc main_arg10) :=
  ((show W18 m ρ c (Proc.devRef .tc main_arg10) = W17 m ρ c (Proc.devRef .tc main_arg10) from (by keep_host hostOps8))).trans (k17 m ρ c)
theorem k19 (c : Dev nD) : W19 m ρ c (Proc.devRef .tc main_arg10) = W0 m ρ c (Proc.devRef .tc main_arg10) :=
  (W19_of_ne m ρ c main_arg10 (by decide)).trans (k18 m ρ c)
theorem k20 (c : Dev nD) : W20 m ρ c (Proc.devRef .tc main_arg10) = W0 m ρ c (Proc.devRef .tc main_arg10) :=
  ((show W20 m ρ c (Proc.devRef .tc main_arg10) = W19 m ρ c (Proc.devRef .tc main_arg10) from (by keep_host hostOps9))).trans (k19 m ρ c)
theorem k21 (c : Dev nD) : W21 m ρ c (Proc.devRef .tc main_arg10) = W0 m ρ c (Proc.devRef .tc main_arg10) :=
  (W21_of_ne m ρ c main_arg10 (by decide)).trans (k20 m ρ c)
theorem k22 (c : Dev nD) : W22 m ρ c (Proc.devRef .tc main_arg10) = W0 m ρ c (Proc.devRef .tc main_arg10) :=
  ((show W22 m ρ c (Proc.devRef .tc main_arg10) = W21 m ρ c (Proc.devRef .tc main_arg10) from (by keep_host hostOps10))).trans (k21 m ρ c)
theorem k23 (c : Dev nD) : W23 m ρ c (Proc.devRef .tc main_arg10) = W0 m ρ c (Proc.devRef .tc main_arg10) :=
  (W23_of_ne m ρ c main_arg10 (by decide)).trans (k22 m ρ c)
theorem k24 (c : Dev nD) : W24 m ρ c (Proc.devRef .tc main_arg10) = W0 m ρ c (Proc.devRef .tc main_arg10) :=
  ((show W24 m ρ c (Proc.devRef .tc main_arg10) = W23 m ρ c (Proc.devRef .tc main_arg10) from (by keep_host hostOps11))).trans (k23 m ρ c)
theorem k25 (c : Dev nD) : W25 m ρ c (Proc.devRef .tc main_arg10) = W0 m ρ c (Proc.devRef .tc main_arg10) :=
  (W25_of_ne m ρ c main_arg10 (by decide)).trans (k24 m ρ c)
theorem k26 (c : Dev nD) : W26 m ρ c (Proc.devRef .tc main_arg10) = W0 m ρ c (Proc.devRef .tc main_arg10) :=
  ((show W26 m ρ c (Proc.devRef .tc main_arg10) = W25 m ρ c (Proc.devRef .tc main_arg10) from (by keep_host hostOps12))).trans (k25 m ρ c)
theorem k27 (c : Dev nD) : W27 m ρ c (Proc.devRef .tc main_arg10) = W0 m ρ c (Proc.devRef .tc main_arg10) :=
  (W27_of_ne m ρ c main_arg10 (by decide)).trans (k26 m ρ c)
theorem k28 (c : Dev nD) : W28 m ρ c (Proc.devRef .tc main_arg10) = W0 m ρ c (Proc.devRef .tc main_arg10) :=
  ((show W28 m ρ c (Proc.devRef .tc main_arg10) = W27 m ρ c (Proc.devRef .tc main_arg10) from (by keep_host hostOps13))).trans (k27 m ρ c)
theorem k29 (c : Dev nD) : W29 m ρ c (Proc.devRef .tc main_arg10) = W0 m ρ c (Proc.devRef .tc main_arg10) :=
  (W29_of_ne m ρ c main_arg10 (by decide)).trans (k28 m ρ c)
theorem k30 (c : Dev nD) : W30 m ρ c (Proc.devRef .tc main_arg10) = W0 m ρ c (Proc.devRef .tc main_arg10) :=
  ((show W30 m ρ c (Proc.devRef .tc main_arg10) = W29 m ρ c (Proc.devRef .tc main_arg10) from (by keep_host hostOps14))).trans (k29 m ρ c)
theorem k31 (c : Dev nD) : W31 m ρ c (Proc.devRef .tc main_arg10) = W0 m ρ c (Proc.devRef .tc main_arg10) :=
  (W31_of_ne m ρ c main_arg10 (by decide)).trans (k30 m ρ c)
theorem k32 (c : Dev nD) : W32 m ρ c (Proc.devRef .tc main_arg10) = W0 m ρ c (Proc.devRef .tc main_arg10) :=
  ((show W32 m ρ c (Proc.devRef .tc main_arg10) = W31 m ρ c (Proc.devRef .tc main_arg10) from (by keep_host hostOps15))).trans (k31 m ρ c)
theorem k33 (c : Dev nD) : W33 m ρ c (Proc.devRef .tc main_arg10) = W0 m ρ c (Proc.devRef .tc main_arg10) :=
  (W33_of_ne m ρ c main_arg10 (by decide)).trans (k32 m ρ c)
theorem k34 (c : Dev nD) : W34 m ρ c (Proc.devRef .tc main_arg10) = W0 m ρ c (Proc.devRef .tc main_arg10) :=
  ((show W34 m ρ c (Proc.devRef .tc main_arg10) = W33 m ρ c (Proc.devRef .tc main_arg10) from (by keep_host hostOps16))).trans (k33 m ρ c)
theorem k35 (c : Dev nD) : W35 m ρ c (Proc.devRef .tc main_arg10) = W0 m ρ c (Proc.devRef .tc main_arg10) :=
  (W35_of_ne m ρ c main_arg10 (by decide)).trans (k34 m ρ c)
theorem k36 (c : Dev nD) : W36 m ρ c (Proc.devRef .tc main_arg10) = W0 m ρ c (Proc.devRef .tc main_arg10) :=
  ((show W36 m ρ c (Proc.devRef .tc main_arg10) = W35 m ρ c (Proc.devRef .tc main_arg10) from (by keep_host hostOps17))).trans (k35 m ρ c)
theorem k37 (c : Dev nD) : W37 m ρ c (Proc.devRef .tc main_arg10) = W0 m ρ c (Proc.devRef .tc main_arg10) :=
  (W37_of_ne m ρ c main_arg10 (by decide)).trans (k36 m ρ c)
theorem k38 (c : Dev nD) : W38 m ρ c (Proc.devRef .tc main_arg10) = W0 m ρ c (Proc.devRef .tc main_arg10) :=
  ((show W38 m ρ c (Proc.devRef .tc main_arg10) = W37 m ρ c (Proc.devRef .tc main_arg10) from (by keep_host hostOps18))).trans (k37 m ρ c)
theorem k39 (c : Dev nD) : W39 m ρ c (Proc.devRef .tc main_arg10) = W0 m ρ c (Proc.devRef .tc main_arg10) :=
  (W39_of_ne m ρ c main_arg10 (by decide)).trans (k38 m ρ c)
theorem k40 (c : Dev nD) : W40 m ρ c (Proc.devRef .tc main_arg10) = W0 m ρ c (Proc.devRef .tc main_arg10) :=
  ((show W40 m ρ c (Proc.devRef .tc main_arg10) = W39 m ρ c (Proc.devRef .tc main_arg10) from (by keep_host hostOps19))).trans (k39 m ρ c)
theorem k41 (c : Dev nD) : W41 m ρ c (Proc.devRef .tc main_arg10) = W0 m ρ c (Proc.devRef .tc main_arg10) :=
  (W41_of_ne m ρ c main_arg10 (by decide)).trans (k40 m ρ c)
theorem k42 (c : Dev nD) : W42 m ρ c (Proc.devRef .tc main_arg10) = W0 m ρ c (Proc.devRef .tc main_arg10) :=
  ((show W42 m ρ c (Proc.devRef .tc main_arg10) = W41 m ρ c (Proc.devRef .tc main_arg10) from (by keep_host hostOps20))).trans (k41 m ρ c)
theorem k43 (c : Dev nD) : W43 m ρ c (Proc.devRef .tc main_arg10) = W0 m ρ c (Proc.devRef .tc main_arg10) :=
  (W43_of_ne m ρ c main_arg10 (by decide)).trans (k42 m ρ c)
theorem k44 (c : Dev nD) : W44 m ρ c (Proc.devRef .tc main_arg10) = W0 m ρ c (Proc.devRef .tc main_arg10) :=
  ((show W44 m ρ c (Proc.devRef .tc main_arg10) = W43 m ρ c (Proc.devRef .tc main_arg10) from (by keep_host hostOps21))).trans (k43 m ρ c)
theorem k45 (c : Dev nD) : W45 m ρ c (Proc.devRef .tc main_arg10) = W0 m ρ c (Proc.devRef .tc main_arg10) :=
  (W45_of_ne m ρ c main_arg10 (by decide)).trans (k44 m ρ c)
theorem k46 (c : Dev nD) : W46 m ρ c (Proc.devRef .tc main_arg10) = W0 m ρ c (Proc.devRef .tc main_arg10) :=
  ((show W46 m ρ c (Proc.devRef .tc main_arg10) = W45 m ρ c (Proc.devRef .tc main_arg10) from (by keep_host hostOps22))).trans (k45 m ρ c)
theorem k47 (c : Dev nD) : W47 m ρ c (Proc.devRef .tc main_arg10) = W0 m ρ c (Proc.devRef .tc main_arg10) :=
  (W47_of_ne m ρ c main_arg10 (by decide)).trans (k46 m ρ c)

end Cert.KernelIdeal.KV.KeepA10

end
-- ==== Proof.KeepV63.lean ====
/-
  The buffer v63 is written by no region and by no host stretch after stage 10: at every later stage it holds what it
  held at stage 10.  One step per stage: a region leaves every buffer that is not one of its arrays, a host
  stretch every buffer none of its operations writes.
-/
import proofs.«146329_j1168231104595_1_alg».proof.Proof.KVTac

set_option maxRecDepth 16384

noncomputable section

namespace Cert.KernelIdeal.KV.KeepV63

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k11 (c : Dev nD) : W11 m ρ c (Proc.devRef .tc main_v63) = W10 m ρ c (Proc.devRef .tc main_v63) :=
  W11_of_ne m ρ c main_v63 (by decide)
theorem k12 (c : Dev nD) : W12 m ρ c (Proc.devRef .tc main_v63) = W10 m ρ c (Proc.devRef .tc main_v63) :=
  ((show W12 m ρ c (Proc.devRef .tc main_v63) = W11 m ρ c (Proc.devRef .tc main_v63) from (by keep_host hostOps5))).trans (k11 m ρ c)
theorem k13 (c : Dev nD) : W13 m ρ c (Proc.devRef .tc main_v63) = W10 m ρ c (Proc.devRef .tc main_v63) :=
  (W13_of_ne m ρ c main_v63 (by decide)).trans (k12 m ρ c)
theorem k14 (c : Dev nD) : W14 m ρ c (Proc.devRef .tc main_v63) = W10 m ρ c (Proc.devRef .tc main_v63) :=
  ((show W14 m ρ c (Proc.devRef .tc main_v63) = W13 m ρ c (Proc.devRef .tc main_v63) from (by keep_host hostOps6))).trans (k13 m ρ c)
theorem k15 (c : Dev nD) : W15 m ρ c (Proc.devRef .tc main_v63) = W10 m ρ c (Proc.devRef .tc main_v63) :=
  (W15_of_ne m ρ c main_v63 (by decide)).trans (k14 m ρ c)
theorem k16 (c : Dev nD) : W16 m ρ c (Proc.devRef .tc main_v63) = W10 m ρ c (Proc.devRef .tc main_v63) :=
  ((show W16 m ρ c (Proc.devRef .tc main_v63) = W15 m ρ c (Proc.devRef .tc main_v63) from (by keep_host hostOps7))).trans (k15 m ρ c)
theorem k17 (c : Dev nD) : W17 m ρ c (Proc.devRef .tc main_v63) = W10 m ρ c (Proc.devRef .tc main_v63) :=
  (W17_of_ne m ρ c main_v63 (by decide)).trans (k16 m ρ c)
theorem k18 (c : Dev nD) : W18 m ρ c (Proc.devRef .tc main_v63) = W10 m ρ c (Proc.devRef .tc main_v63) :=
  ((show W18 m ρ c (Proc.devRef .tc main_v63) = W17 m ρ c (Proc.devRef .tc main_v63) from (by keep_host hostOps8))).trans (k17 m ρ c)
theorem k19 (c : Dev nD) : W19 m ρ c (Proc.devRef .tc main_v63) = W10 m ρ c (Proc.devRef .tc main_v63) :=
  (W19_of_ne m ρ c main_v63 (by decide)).trans (k18 m ρ c)
theorem k20 (c : Dev nD) : W20 m ρ c (Proc.devRef .tc main_v63) = W10 m ρ c (Proc.devRef .tc main_v63) :=
  ((show W20 m ρ c (Proc.devRef .tc main_v63) = W19 m ρ c (Proc.devRef .tc main_v63) from (by keep_host hostOps9))).trans (k19 m ρ c)
theorem k21 (c : Dev nD) : W21 m ρ c (Proc.devRef .tc main_v63) = W10 m ρ c (Proc.devRef .tc main_v63) :=
  (W21_of_ne m ρ c main_v63 (by decide)).trans (k20 m ρ c)
theorem k22 (c : Dev nD) : W22 m ρ c (Proc.devRef .tc main_v63) = W10 m ρ c (Proc.devRef .tc main_v63) :=
  ((show W22 m ρ c (Proc.devRef .tc main_v63) = W21 m ρ c (Proc.devRef .tc main_v63) from (by keep_host hostOps10))).trans (k21 m ρ c)
theorem k23 (c : Dev nD) : W23 m ρ c (Proc.devRef .tc main_v63) = W10 m ρ c (Proc.devRef .tc main_v63) :=
  (W23_of_ne m ρ c main_v63 (by decide)).trans (k22 m ρ c)
theorem k24 (c : Dev nD) : W24 m ρ c (Proc.devRef .tc main_v63) = W10 m ρ c (Proc.devRef .tc main_v63) :=
  ((show W24 m ρ c (Proc.devRef .tc main_v63) = W23 m ρ c (Proc.devRef .tc main_v63) from (by keep_host hostOps11))).trans (k23 m ρ c)
theorem k25 (c : Dev nD) : W25 m ρ c (Proc.devRef .tc main_v63) = W10 m ρ c (Proc.devRef .tc main_v63) :=
  (W25_of_ne m ρ c main_v63 (by decide)).trans (k24 m ρ c)
theorem k26 (c : Dev nD) : W26 m ρ c (Proc.devRef .tc main_v63) = W10 m ρ c (Proc.devRef .tc main_v63) :=
  ((show W26 m ρ c (Proc.devRef .tc main_v63) = W25 m ρ c (Proc.devRef .tc main_v63) from (by keep_host hostOps12))).trans (k25 m ρ c)
theorem k27 (c : Dev nD) : W27 m ρ c (Proc.devRef .tc main_v63) = W10 m ρ c (Proc.devRef .tc main_v63) :=
  (W27_of_ne m ρ c main_v63 (by decide)).trans (k26 m ρ c)
theorem k28 (c : Dev nD) : W28 m ρ c (Proc.devRef .tc main_v63) = W10 m ρ c (Proc.devRef .tc main_v63) :=
  ((show W28 m ρ c (Proc.devRef .tc main_v63) = W27 m ρ c (Proc.devRef .tc main_v63) from (by keep_host hostOps13))).trans (k27 m ρ c)
theorem k29 (c : Dev nD) : W29 m ρ c (Proc.devRef .tc main_v63) = W10 m ρ c (Proc.devRef .tc main_v63) :=
  (W29_of_ne m ρ c main_v63 (by decide)).trans (k28 m ρ c)
theorem k30 (c : Dev nD) : W30 m ρ c (Proc.devRef .tc main_v63) = W10 m ρ c (Proc.devRef .tc main_v63) :=
  ((show W30 m ρ c (Proc.devRef .tc main_v63) = W29 m ρ c (Proc.devRef .tc main_v63) from (by keep_host hostOps14))).trans (k29 m ρ c)
theorem k31 (c : Dev nD) : W31 m ρ c (Proc.devRef .tc main_v63) = W10 m ρ c (Proc.devRef .tc main_v63) :=
  (W31_of_ne m ρ c main_v63 (by decide)).trans (k30 m ρ c)
theorem k32 (c : Dev nD) : W32 m ρ c (Proc.devRef .tc main_v63) = W10 m ρ c (Proc.devRef .tc main_v63) :=
  ((show W32 m ρ c (Proc.devRef .tc main_v63) = W31 m ρ c (Proc.devRef .tc main_v63) from (by keep_host hostOps15))).trans (k31 m ρ c)
theorem k33 (c : Dev nD) : W33 m ρ c (Proc.devRef .tc main_v63) = W10 m ρ c (Proc.devRef .tc main_v63) :=
  (W33_of_ne m ρ c main_v63 (by decide)).trans (k32 m ρ c)
theorem k34 (c : Dev nD) : W34 m ρ c (Proc.devRef .tc main_v63) = W10 m ρ c (Proc.devRef .tc main_v63) :=
  ((show W34 m ρ c (Proc.devRef .tc main_v63) = W33 m ρ c (Proc.devRef .tc main_v63) from (by keep_host hostOps16))).trans (k33 m ρ c)
theorem k35 (c : Dev nD) : W35 m ρ c (Proc.devRef .tc main_v63) = W10 m ρ c (Proc.devRef .tc main_v63) :=
  (W35_of_ne m ρ c main_v63 (by decide)).trans (k34 m ρ c)
theorem k36 (c : Dev nD) : W36 m ρ c (Proc.devRef .tc main_v63) = W10 m ρ c (Proc.devRef .tc main_v63) :=
  ((show W36 m ρ c (Proc.devRef .tc main_v63) = W35 m ρ c (Proc.devRef .tc main_v63) from (by keep_host hostOps17))).trans (k35 m ρ c)
theorem k37 (c : Dev nD) : W37 m ρ c (Proc.devRef .tc main_v63) = W10 m ρ c (Proc.devRef .tc main_v63) :=
  (W37_of_ne m ρ c main_v63 (by decide)).trans (k36 m ρ c)
theorem k38 (c : Dev nD) : W38 m ρ c (Proc.devRef .tc main_v63) = W10 m ρ c (Proc.devRef .tc main_v63) :=
  ((show W38 m ρ c (Proc.devRef .tc main_v63) = W37 m ρ c (Proc.devRef .tc main_v63) from (by keep_host hostOps18))).trans (k37 m ρ c)
theorem k39 (c : Dev nD) : W39 m ρ c (Proc.devRef .tc main_v63) = W10 m ρ c (Proc.devRef .tc main_v63) :=
  (W39_of_ne m ρ c main_v63 (by decide)).trans (k38 m ρ c)
theorem k40 (c : Dev nD) : W40 m ρ c (Proc.devRef .tc main_v63) = W10 m ρ c (Proc.devRef .tc main_v63) :=
  ((show W40 m ρ c (Proc.devRef .tc main_v63) = W39 m ρ c (Proc.devRef .tc main_v63) from (by keep_host hostOps19))).trans (k39 m ρ c)
theorem k41 (c : Dev nD) : W41 m ρ c (Proc.devRef .tc main_v63) = W10 m ρ c (Proc.devRef .tc main_v63) :=
  (W41_of_ne m ρ c main_v63 (by decide)).trans (k40 m ρ c)
theorem k42 (c : Dev nD) : W42 m ρ c (Proc.devRef .tc main_v63) = W10 m ρ c (Proc.devRef .tc main_v63) :=
  ((show W42 m ρ c (Proc.devRef .tc main_v63) = W41 m ρ c (Proc.devRef .tc main_v63) from (by keep_host hostOps20))).trans (k41 m ρ c)
theorem k43 (c : Dev nD) : W43 m ρ c (Proc.devRef .tc main_v63) = W10 m ρ c (Proc.devRef .tc main_v63) :=
  (W43_of_ne m ρ c main_v63 (by decide)).trans (k42 m ρ c)
theorem k44 (c : Dev nD) : W44 m ρ c (Proc.devRef .tc main_v63) = W10 m ρ c (Proc.devRef .tc main_v63) :=
  ((show W44 m ρ c (Proc.devRef .tc main_v63) = W43 m ρ c (Proc.devRef .tc main_v63) from (by keep_host hostOps21))).trans (k43 m ρ c)
theorem k45 (c : Dev nD) : W45 m ρ c (Proc.devRef .tc main_v63) = W10 m ρ c (Proc.devRef .tc main_v63) :=
  (W45_of_ne m ρ c main_v63 (by decide)).trans (k44 m ρ c)
theorem k46 (c : Dev nD) : W46 m ρ c (Proc.devRef .tc main_v63) = W10 m ρ c (Proc.devRef .tc main_v63) :=
  ((show W46 m ρ c (Proc.devRef .tc main_v63) = W45 m ρ c (Proc.devRef .tc main_v63) from (by keep_host hostOps22))).trans (k45 m ρ c)
theorem k47 (c : Dev nD) : W47 m ρ c (Proc.devRef .tc main_v63) = W10 m ρ c (Proc.devRef .tc main_v63) :=
  (W47_of_ne m ρ c main_v63 (by decide)).trans (k46 m ρ c)

end Cert.KernelIdeal.KV.KeepV63

end
-- ==== Proof.ChainL0.lean ====
/-
  Label layer 0, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg4
import proofs.«146329_j1168231104595_1_alg».proof.Proof.Reg5
import proofs.«146329_j1168231104595_1_alg».proof.Proof.HostPro
import proofs.«146329_j1168231104595_1_alg».proof.Proof.HostFeat
import proofs.«146329_j1168231104595_1_alg».proof.Proof.HostL0
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L0_w (c : Dev nD) : W10 (F := Ideal) m ρ c (Proc.devRef .tc main_v65) = Cert.ReferenceIdeal.ReadP.val_main_v67 (F := Ideal) (m ((c : Thread nD τ).loc main_arg9)) :=
  Cert.KV.Host.host4_v65 m ρ c _ (KeepA9.k9 m ρ c)

/-- The layer's linear map: the whole product of the current labels and the weight. -/
theorem L0_mm (c : Dev nD) : W11 (F := Ideal) m ρ c (Proc.devRef .tc main_v66) = Cert.ReferenceIdeal.ReadP.val_main_v70 (F := Ideal) (m ((c : Thread nD τ).loc main_arg1)) (m ((c : Thread nD τ).loc main_arg9)) := by
  have hx : W10 (F := Ideal) m ρ c (Proc.devRef .tc main_arg1) = (m ((c : Thread nD τ).loc main_arg1)) := KeepA1.k10 m ρ c
  refine ((W11_arr m ρ c 2).trans (Reg4.final (V10 (F := Ideal) m ρ) c)).trans ?_
  show Host.dotGeneral (F := Ideal) (φ₁ := .f32) (φ₂ := .f32) Cert.ReferenceIdeal.dot_S100000x16_S16x16_S100000x16_1_0_0_1_n_n none (W10 (F := Ideal) m ρ c (Proc.devRef .tc main_arg1)) (W10 (F := Ideal) m ρ c (Proc.devRef .tc main_v65)) = _
  rw [hx, L0_w m ρ c]
  rfl

/-- The layer's aggregation. -/
theorem L0_agg (c : Dev nD) : W12 (F := Ideal) m ρ c (Proc.devRef .tc main_v79) = Cert.ReferenceIdeal.ReadP.val_main_v83 (F := Ideal) (m ((c : Thread nD τ).loc main_arg1)) (m ((c : Thread nD τ).loc main_arg2)) (m ((c : Thread nD τ).loc main_arg9)) := by
  have h3 : W11 (F := Ideal) m ρ c (Proc.devRef .tc main_v3) = Cert.ReferenceIdeal.ReadP.val_main_v3 (F := Ideal) (m ((c : Thread nD τ).loc main_arg2)) := (KeepV3.k11 m ρ c).trans (Cert.KV.Host.host0_v3 m ρ c)
  have h6 : W11 (F := Ideal) m ρ c (Proc.devRef .tc main_v6) = Cert.ReferenceIdeal.ReadP.val_main_v6 (F := Ideal) (m ((c : Thread nD τ).loc main_arg2)) := (KeepV6.k11 m ρ c).trans (Cert.KV.Host.host0_v6 m ρ c)
  have h29 : W11 (F := Ideal) m ρ c (Proc.devRef .tc main_v29) = Cert.ReferenceIdeal.ReadP.val_main_v29 (F := Ideal) (m ((c : Thread nD τ).loc main_arg2)) := (KeepV29.k11 m ρ c).trans (Cert.KV.Host.host0_v29 m ρ c)
  exact Cert.KV.Host.host5_v79 m ρ c _ _ _ h6 (L0_mm m ρ c) h3 h29

/-- The bias row the update finds is the layer's bias vector. -/
theorem L0_brow (c : Dev nD) (q : Fin 16) :
    (V12 (F := Ideal) m ρ c (Pipeline.arrRef spec5 1) : S1x16.Idx → Elt Ideal .f32) (ix2 (0 : Fin 1) q) = (Cert.ReferenceIdeal.ReadP.val_main_v69 (F := Ideal) (m ((c : Thread nD τ).loc main_arg10))) (ix1 q) := by
  show (W12 (F := Ideal) m ρ c (Proc.devRef .tc main_v82) : S1x16.Idx → Elt Ideal .f32) (ix2 (0 : Fin 1) q) = _
  rw [Cert.KV.Host.host5_v82 m ρ c _ (KeepA10.k11 m ρ c)]
  exact Cert.KernelBody.shapeCast_row_apply _ _ q

/-- The integer mask the update finds is the mask bit of the row, widened. -/
theorem L0_mask (c : Dev nD) :
    (V12 (F := Ideal) m ρ c (Pipeline.arrRef spec5 3) : S100000x16.Idx → BitVec 32) = Cert.KV.Dense.kerMask16 (m ((c : Thread nD τ).loc main_arg4)) := by
  show (W12 (F := Ideal) m ρ c (Proc.devRef .tc main_v83) : S100000x16.Idx → BitVec 32) = _
  rw [Cert.KV.Host.host5_v83 m ρ c, (KeepV63.k11 m ρ c).trans (Cert.KV.Host.host4_v63 m ρ c _ (KeepA4.k9 m ρ c))]
  rfl

/-- The layer's output labels. -/
theorem layer0 (c : Dev nD) : W13 (F := Ideal) m ρ c (Proc.devRef .tc main_v84) = Cert.ReferenceIdeal.ReadP.val_main_v88 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W12 (F := Ideal) m ρ c (Proc.devRef .tc main_arg1) = (m ((c : Thread nD τ).loc main_arg1)) := KeepA1.k12 m ρ c
  refine ((W13_arr m ρ c 4).trans (Reg5.final (V12 (F := Ideal) m ρ) c (Cert.ReferenceIdeal.ReadP.val_main_v69 (F := Ideal) (m ((c : Thread nD τ).loc main_arg10))) (m ((c : Thread nD τ).loc main_arg4)) (L0_brow m ρ c) (L0_mask m ρ c))).trans ?_
  show Cert.KV.Dense.refUpdate16 (W12 (F := Ideal) m ρ c (Proc.devRef .tc main_v79)) (Cert.ReferenceIdeal.ReadP.val_main_v69 (F := Ideal) (m ((c : Thread nD τ).loc main_arg10))) (W12 (F := Ideal) m ρ c (Proc.devRef .tc main_arg1)) (m ((c : Thread nD τ).loc main_arg4)) = _
  rw [L0_agg m ρ c, hy]
  rfl

end Cert.KernelIdeal.KV

end
-- ==== Proof.Reg6.lean ====
/-
  Region 6: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Window 0's block at point t is rows 5000·t … 5000·t + 4999 of its array. -/
theorem iblk0_apply (c : Dev nD) (t : Fin cfg6.N) (x : S5000x16.Idx) (k : S100000x16.Idx)
    (hk0 : (k 0).val = 5000 * t.val + (x 0).val) (hk1 : (k 1).val = (x 1).val) :
    (iblk6 V c 0 t : Vec Ideal S5000x16 .f32) x = (V c (Pipeline.arrRef spec6 0) : S100000x16.Idx → Elt Ideal .f32) k := by
  obtain ⟨e0, e1, -, -, -, -⟩ := idx t
  unfold iblk6
  rw [View.read_apply]
  show (V c (Pipeline.arrRef spec6 0) : S100000x16.Idx → Elt Ideal .f32) _ = _
  congr 1
  funext a
  apply Fin.ext
  match a with
  | ⟨0, _⟩ => show win6_0.index t 0 * 5000 + 1 * (x 0).val = (k 0).val; rw [e0, hk0]; omega
  | ⟨1, _⟩ => show win6_0.index t 1 * 16 + 1 * (x 1).val = (k 1).val; rw [e1, hk1]; omega

/-- Window 1's block at every point is the whole of its (small) array. -/
theorem iblk1_apply (c : Dev nD) (t : Fin cfg6.N) (x : S16x16.Idx) :
    (iblk6 V c 1 t : Vec Ideal S16x16 .f32) x = (V c (Pipeline.arrRef spec6 1) : S16x16.Idx → Elt Ideal .f32) x := by
  obtain ⟨-, -, e0, e1, -, -⟩ := idx t
  unfold iblk6
  rw [View.read_apply]
  show (V c (Pipeline.arrRef spec6 1) : S16x16.Idx → Elt Ideal .f32) _ = _
  congr 1
  funext a
  apply Fin.ext
  match a with
  | ⟨0, _⟩ => show win6_1.index t 0 * 16 + 1 * (x 0).val = (x 0).val; rw [e0]; omega
  | ⟨1, _⟩ => show win6_1.index t 1 * 16 + 1 * (x 1).val = (x 1).val; rw [e1]; omega

/-- What point t writes back is block t of the whole-array function of the arrays as the region finds them. -/
theorem flushed_eq (c : Dev nD) (t : Fin cfg6.N) :
    (dat6 V c).flushed 2 t = ((cfg6.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec6 0) : FVec Ideal S100000x16 .f32) (V c (Pipeline.arrRef spec6 1) : FVec Ideal S16x16 .f32)) := by
  show (cfg6.win 2).cut (grid6.coords t) ((dat6 V c).after 2 t) = _
  rw [after6_2]
  unfold out6_2
  rw [View.canon_unit_zero hz]
  simp only [View.ld_unit_zero (S := S5000x16) hz, View.ld_unit_zero (S := S16x16) hz]
  obtain ⟨-, -, -, -, e0, e1⟩ := idx t
  funext j
  refine Cert.KV.KForms.mm16_at' (V c (Pipeline.arrRef spec6 0) : FVec Ideal S100000x16 .f32) (V c (Pipeline.arrRef spec6 1) : FVec Ideal S16x16 .f32) (iblk6 V c 0 t) (iblk6 V c 1 t) t.val (fun x k h0 h1 => iblk0_apply V c t x k h0 h1) (fun x => iblk1_apply V c t x) j _ ?_ ?_
  · show win6_2.index t 0 * 5000 + 1 * (j 0).val = 5000 * t.val + (j 0).val; rw [e0]; omega
  · show win6_2.index t 1 * 16 + 1 * (j 1).val = (j 1).val; rw [e1]; omega

/-- An index of the output array is in point t's block iff each coordinate is in the block's range on its axis. -/
theorem mem_blk (t : Fin cfg6.N) (i : S100000x16.Idx) :
    i ∈ ((cfg6.win 2).blk t).view.set ↔ ∀ a : Fin 2, win6_2.index t a * S5000x16.size a ≤ (i a).val ∧ (i a).val < win6_2.index t a * S5000x16.size a + S5000x16.size a := by
  show i ∈ ((View.whole main_v87).slice (win6_2.rect t)).set ↔ _
  rw [View.set_slice_whole, Rect.mem_set_unit]
  exact Iff.rfl

/-- Every row lies in some point's block: row i in block i / 5000. -/
theorem cover (i : S100000x16.Idx) : ∃ t : Fin cfg6.N, (cfg6.win 2).flush t = true ∧ i ∈ ((cfg6.win 2).blk t).view.set := by
  have hN : cfg6.N = 20 := N_6
  have hi0 : (i 0).val < 100000 := (i 0).isLt
  have hi1 : (i 1).val < 16 := (i 1).isLt
  refine ⟨⟨(i 0).val / 5000, by rw [hN]; omega⟩, flush6_2 _, ?_⟩
  rw [mem_blk]
  obtain ⟨-, -, -, -, e0, e1⟩ := idx ⟨(i 0).val / 5000, by rw [hN]; omega⟩
  intro a
  match a with
  | ⟨0, _⟩ => show win6_2.index _ 0 * 5000 ≤ (i 0).val ∧ (i 0).val < win6_2.index _ 0 * 5000 + 5000; rw [e0]; show (i 0).val / 5000 * 5000 ≤ (i 0).val ∧ (i 0).val < (i 0).val / 5000 * 5000 + 5000; omega
  | ⟨1, _⟩ => show win6_2.index _ 1 * 16 ≤ (i 1).val ∧ (i 1).val < win6_2.index _ 1 * 16 + 16; rw [e1]; omega

/-- The output array after the region, as one function of the arrays the region finds. -/
theorem final (c : Dev nD) :
    (dat6 V c).arrAt 2 cfg6.N
      = Host.dotGeneral (F := Ideal) (φ₁ := .f32) (φ₂ := .f32) Cert.ReferenceIdeal.dot_S100000x16_S16x16_S100000x16_1_0_0_1_n_n none (V c (Pipeline.arrRef spec6 0) : FVec Ideal S100000x16 .f32) (V c (Pipeline.arrRef spec6 1) : FVec Ideal S16x16 .f32) :=
  (dat6 V c).arrAt_eq_of_cover 2 _ (fun t _ => flushed_eq V c t) (cover)

end Cert.KernelIdeal.KV.Reg6

end
-- ==== Proof.Reg7.lean ====
/-
  Region 7: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Window 0's block at point t is rows 5000·t … 5000·t + 4999 of its array. -/
theorem iblk0_apply (c : Dev nD) (t : Fin cfg7.N) (x : S5000x16.Idx) (k : S100000x16.Idx)
    (hk0 : (k 0).val = 5000 * t.val + (x 0).val) (hk1 : (k 1).val = (x 1).val) :
    (iblk7 V c 0 t : Vec Ideal S5000x16 .f32) x = (V c (Pipeline.arrRef spec7 0) : S100000x16.Idx → Elt Ideal .f32) k := by
  obtain ⟨e0, e1, -, -, -, -, -, -, -, -⟩ := idx t
  unfold iblk7
  rw [View.read_apply]
  show (V c (Pipeline.arrRef spec7 0) : S100000x16.Idx → Elt Ideal .f32) _ = _
  congr 1
  funext a
  apply Fin.ext
  match a with
  | ⟨0, _⟩ => show win7_0.index t 0 * 5000 + 1 * (x 0).val = (k 0).val; rw [e0, hk0]; omega
  | ⟨1, _⟩ => show win7_0.index t 1 * 16 + 1 * (x 1).val = (k 1).val; rw [e1, hk1]; omega

/-- Window 1's block at every point is the whole of its (small) array. -/
theorem iblk1_apply (c : Dev nD) (t : Fin cfg7.N) (x : S1x16.Idx) :
    (iblk7 V c 1 t : Vec Ideal S1x16 .f32) x = (V c (Pipeline.arrRef spec7 1) : S1x16.Idx → Elt Ideal .f32) x := by
  obtain ⟨-, -, e0, e1, -, -, -, -, -, -⟩ := idx t
  unfold iblk7
  rw [View.read_apply]
  show (V c (Pipeline.arrRef spec7 1) : S1x16.Idx → Elt Ideal .f32) _ = _
  congr 1
  funext a
  apply Fin.ext
  match a with
  | ⟨0, _⟩ => show win7_1.index t 0 * 1 + 1 * (x 0).val = (x 0).val; rw [e0]; omega
  | ⟨1, _⟩ => show win7_1.index t 1 * 16 + 1 * (x 1).val = (x 1).val; rw [e1]; omega

/-- Window 2's block at point t is rows 5000·t … 5000·t + 4999 of its array. -/
theorem iblk2_apply (c : Dev nD) (t : Fin cfg7.N) (x : S5000x16.Idx) (k : S100000x16.Idx)
    (hk0 : (k 0).val = 5000 * t.val + (x 0).val) (hk1 : (k 1).val = (x 1).val) :
    (iblk7 V c 2 t : Vec Ideal S5000x16 .f32) x = (V c (Pipeline.arrRef spec7 2) : S100000x16.Idx → Elt Ideal .f32) k := by
  obtain ⟨-, -, -, -, e0, e1, -, -, -, -⟩ := idx t
  unfold iblk7
  rw [View.read_apply]
  show (V c (Pipeline.arrRef spec7 2) : S100000x16.Idx → Elt Ideal .f32) _ = _
  congr 1
  funext a
  apply Fin.ext
  match a with
  | ⟨0, _⟩ => show win7_2.index t 0 * 5000 + 1 * (x 0).val = (k 0).val; rw [e0, hk0]; omega
  | ⟨1, _⟩ => show win7_2.index t 1 * 16 + 1 * (x 1).val = (k 1).val; rw [e1, hk1]; omega

/-- Window 3's block at point t is rows 5000·t … 5000·t + 4999 of its array. -/
theorem iblk3_apply (c : Dev nD) (t : Fin cfg7.N) (x : S5000x16.Idx) (k : S100000x16.Idx)
    (hk0 : (k 0).val = 5000 * t.val + (x 0).val) (hk1 : (k 1).val = (x 1).val) :
    (iblk7 V c 3 t : Vec Ideal S5000x16 .i32) x = (V c (Pipeline.arrRef spec7 3) : S100000x16.Idx → Elt Ideal .i32) k := by
  obtain ⟨-, -, -, -, -, -, e0, e1, -, -⟩ := idx t
  unfold iblk7
  rw [View.read_apply]
  show (V c (Pipeline.arrRef spec7 3) : S100000x16.Idx → Elt Ideal .i32) _ = _
  congr 1
  funext a
  apply Fin.ext
  match a with
  | ⟨0, _⟩ => show win7_3.index t 0 * 5000 + 1 * (x 0).val = (k 0).val; rw [e0, hk0]; omega
  | ⟨1, _⟩ => show win7_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec7 1) : S1x16.Idx → Elt Ideal .f32) (ix2 (0 : Fin 1) q) = b (ix1 q))
    (hm : (V c (Pipeline.arrRef spec7 3) : S100000x16.Idx → BitVec 32) = Cert.KV.Dense.kerMask16 mask) (t : Fin cfg7.N) :
    (dat7 V c).flushed 4 t = ((cfg7.win 4).blk t).view.read (Elt Ideal)
      (Cert.KV.Dense.refUpdate16 (V c (Pipeline.arrRef spec7 0) : FVec Ideal S100000x16 .f32) b (V c (Pipeline.arrRef spec7 2) : FVec Ideal S100000x16 .f32) mask) := by
  show (cfg7.win 4).cut (grid7.coords t) ((dat7 V c).after 4 t) = _
  rw [after7_4]
  unfold out7_4
  rw [View.canon_unit_zero hz]
  simp only [View.ld_unit_zero (S := S5000x16) hz, View.ld_unit_zero (S := S1x16) hz]
  obtain ⟨-, -, -, -, -, -, -, -, e0, e1⟩ := idx t
  funext j
  refine (show k7_pay1 (F := Ideal) (iblk7 V c 0 t) (iblk7 V c 1 t) (iblk7 V c 3 t) (iblk7 V c 2 t) j = k5_pay1 (F := Ideal) (iblk7 V c 0 t) (iblk7 V c 1 t) (iblk7 V c 3 t) (iblk7 V c 2 t) j from rfl).trans ?_
  refine Cert.KV.Dense.update16_at (V c (Pipeline.arrRef spec7 0) : FVec Ideal S100000x16 .f32) b (V c (Pipeline.arrRef spec7 2) : FVec Ideal S100000x16 .f32) mask (iblk7 V c 0 t) (iblk7 V c 1 t) (iblk7 V c 3 t) (iblk7 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win7_4.index t 0 * 5000 + 1 * (j 0).val = 5000 * t.val + (j 0).val; rw [e0]; omega
  · show win7_4.index t 1 * 16 + 1 * (j 1).val = (j 1).val; rw [e1]; omega

/-- An index of the output array is in point t's block iff each coordinate is in the block's range on its axis. -/
theorem mem_blk (t : Fin cfg7.N) (i : S100000x16.Idx) :
    i ∈ ((cfg7.win 4).blk t).view.set ↔ ∀ a : Fin 2, win7_4.index t a * S5000x16.size a ≤ (i a).val ∧ (i a).val < win7_4.index t a * S5000x16.size a + S5000x16.size a := by
  show i ∈ ((View.whole main_v105).slice (win7_4.rect t)).set ↔ _
  rw [View.set_slice_whole, Rect.mem_set_unit]
  exact Iff.rfl

/-- Every row lies in some point's block: row i in block i / 5000. -/
theorem cover (i : S100000x16.Idx) : ∃ t : Fin cfg7.N, (cfg7.win 4).flush t = true ∧ i ∈ ((cfg7.win 4).blk t).view.set := by
  have hN : cfg7.N = 20 := N_7
  have hi0 : (i 0).val < 100000 := (i 0).isLt
  have hi1 : (i 1).val < 16 := (i 1).isLt
  refine ⟨⟨(i 0).val / 5000, by rw [hN]; omega⟩, flush7_4 _, ?_⟩
  rw [mem_blk]
  obtain ⟨-, -, -, -, -, -, -, -, e0, e1⟩ := idx ⟨(i 0).val / 5000, by rw [hN]; omega⟩
  intro a
  match a with
  | ⟨0, _⟩ => show win7_4.index _ 0 * 5000 ≤ (i 0).val ∧ (i 0).val < win7_4.index _ 0 * 5000 + 5000; rw [e0]; show (i 0).val / 5000 * 5000 ≤ (i 0).val ∧ (i 0).val < (i 0).val / 5000 * 5000 + 5000; omega
  | ⟨1, _⟩ => show win7_4.index _ 1 * 16 ≤ (i 1).val ∧ (i 1).val < win7_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec7 1) : S1x16.Idx → Elt Ideal .f32) (ix2 (0 : Fin 1) q) = b (ix1 q))
    (hm : (V c (Pipeline.arrRef spec7 3) : S100000x16.Idx → BitVec 32) = Cert.KV.Dense.kerMask16 mask) :
    (dat7 V c).arrAt 4 cfg7.N
      = Cert.KV.Dense.refUpdate16 (V c (Pipeline.arrRef spec7 0) : FVec Ideal S100000x16 .f32) b (V c (Pipeline.arrRef spec7 2) : FVec Ideal S100000x16 .f32) mask :=
  (dat7 V c).arrAt_eq_of_cover 4 _ (fun t _ => flushed_eq V c b mask hb hm t) (cover)

end Cert.KernelIdeal.KV.Reg7

end
-- ==== Proof.HostL1.lean ====
/-
Host stretches of label layer 1: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 1's `[16,16]` weight: slab 1 of the stacked weights. -/
theorem host6_v86_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps6 (F := Ideal)) V (Proc.devRef .tc KernelIdeal.main_v86) = val_main_v90 (F := Ideal) x9 := by
  after_results_simp
  rw [h_arg9]
  rfl

/-- The same at the run's stage contents: the stretch's entry is stage 13, its exit stage 14. -/
theorem host6_v86 (c : Dev KernelIdeal.nD)
    (x9 : (⟨ReferenceIdeal.S10x16x16, .f32⟩ : BufTy).Contents (Elt Ideal))
    (h_arg9 : W13 (F := Ideal) m ρ c (Proc.devRef .tc KernelIdeal.main_arg9) = x9) :
    W14 (F := Ideal) m ρ c (Proc.devRef .tc KernelIdeal.main_v86) = val_main_v90 (F := Ideal) x9 :=
  host6_v86_of (W13 (F := Ideal) m ρ c) x9 h_arg9

set_option maxRecDepth 8192 in
/-- Label layer 1, aggregation. With the stretch's inputs at the reference's stages (the projected labels, the two edge-endpoint columns, the edge weights), its scatter-add result is the reference's: each edge's source row is gathered, scaled by the edge weight and added into the destination row. -/
theorem host7_v100_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v87 : V (Proc.devRef .tc KernelIdeal.main_v87) = val_main_v93 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps7 (F := Ideal)) V (Proc.devRef .tc KernelIdeal.main_v100) = val_main_v106 (F := Ideal) x1 x2 x4 x9 x10 := by
  after_results_simp
  rw [h_v6, h_v87, h_v3, h_v29]
  rfl

/-- The same at the run's stage contents: the stretch's entry is stage 15, its exit stage 16. -/
theorem host7_v100 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W15 (F := Ideal) m ρ c (Proc.devRef .tc KernelIdeal.main_v6) = val_main_v6 (F := Ideal) x2)
    (h_v87 : W15 (F := Ideal) m ρ c (Proc.devRef .tc KernelIdeal.main_v87) = val_main_v93 (F := Ideal) x1 x2 x4 x9 x10)
    (h_v3 : W15 (F := Ideal) m ρ c (Proc.devRef .tc KernelIdeal.main_v3) = val_main_v3 (F := Ideal) x2)
    (h_v29 : W15 (F := Ideal) m ρ c (Proc.devRef .tc KernelIdeal.main_v29) = val_main_v29 (F := Ideal) x2) :
    W16 (F := Ideal) m ρ c (Proc.devRef .tc KernelIdeal.main_v100) = val_main_v106 (F := Ideal) x1 x2 x4 x9 x10 :=
  host7_v100_of (W15 (F := Ideal) m ρ c) x1 x2 x4 x9 x10 h_v6 h_v87 h_v3 h_v29

set_option maxRecDepth 8192 in
/-- Label layer 1's bias as a `[16]` vector: row 1 of the stacked biases. -/
theorem host7_v102_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps7 (F := Ideal)) V (Proc.devRef .tc KernelIdeal.main_v102) = val_main_v92 (F := Ideal) x10 := by
  after_results_simp
  rw [h_arg10]
  rfl

/-- The same at the run's stage contents: the stretch's entry is stage 15, its exit stage 16. -/
theorem host7_v102 (c : Dev KernelIdeal.nD)
    (x10 : (⟨ReferenceIdeal.S10x16, .f32⟩ : BufTy).Contents (Elt Ideal))
    (h_arg10 : W15 (F := Ideal) m ρ c (Proc.devRef .tc KernelIdeal.main_arg10) = x10) :
    W16 (F := Ideal) m ρ c (Proc.devRef .tc KernelIdeal.main_v102) = val_main_v92 (F := Ideal) x10 :=
  host7_v102_of (W15 (F := Ideal) m ρ c) x10 h_arg10

set_option maxRecDepth 8192 in
/-- Label layer 1's bias as one `[1,16]` row: row 1 of the stacked biases, relaid. -/
theorem host7_v103_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps7 (F := Ideal)) V (Proc.devRef .tc KernelIdeal.main_v103)
      = shapeCast KernelIdeal.S1x16 (val_main_v92 (F := Ideal) x10) KernelIdeal.Facts₀.shapeCasts_S16_S1x16 := by
  after_results_simp
  rw [h_arg10]
  rfl

/-- The same at the run's stage contents: the stretch's entry is stage 15, its exit stage 16. -/
theorem host7_v103 (c : Dev KernelIdeal.nD)
    (x10 : (⟨ReferenceIdeal.S10x16, .f32⟩ : BufTy).Contents (Elt Ideal))
    (h_arg10 : W15 (F := Ideal) m ρ c (Proc.devRef .tc KernelIdeal.main_arg10) = x10) :
    W16 (F := Ideal) m ρ c (Proc.devRef .tc KernelIdeal.main_v103)
      = shapeCast KernelIdeal.S1x16 (val_main_v92 (F := Ideal) x10) KernelIdeal.Facts₀.shapeCasts_S16_S1x16 :=
  host7_v103_of (W15 (F := Ideal) m ρ c) x10 h_arg10

set_option maxRecDepth 8192 in
/-- The node mask over the 16 label columns, widened from one bit to 32-bit integers. -/
theorem host7_v104_of (V : Valuation KernelIdeal.τ KernelIdeal.sig (Elt Ideal)) :
    StableHlo.after (hostOps7 (F := Ideal)) V (Proc.devRef .tc KernelIdeal.main_v104)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 15, its exit stage 16. -/
theorem host7_v104 (c : Dev KernelIdeal.nD) :
    W16 (F := Ideal) m ρ c (Proc.devRef .tc KernelIdeal.main_v104)
      = extui 32 ((W15 (F := Ideal) m ρ c) (Proc.devRef .tc KernelIdeal.main_v63) : (⟨KernelIdeal.S100000x16, .i1⟩ : BufTy).Contents (Elt Ideal)) KernelIdeal.Facts₀.natLt_1_32 :=
  host7_v104_of (W15 (F := Ideal) m ρ c)

end Cert.KV.Host

end
-- ==== Proof.ChainL1.lean ====
/-
  Label layer 1, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg6
import proofs.«146329_j1168231104595_1_alg».proof.Proof.Reg7
import proofs.«146329_j1168231104595_1_alg».proof.Proof.HostPro
import proofs.«146329_j1168231104595_1_alg».proof.Proof.HostFeat
import proofs.«146329_j1168231104595_1_alg».proof.Proof.HostL1
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L1_w (c : Dev nD) : W14 (F := Ideal) m ρ c (Proc.devRef .tc main_v86) = Cert.ReferenceIdeal.ReadP.val_main_v90 (F := Ideal) (m ((c : Thread nD τ).loc main_arg9)) :=
  Cert.KV.Host.host6_v86 m ρ c _ (KeepA9.k13 m ρ c)

/-- The layer's linear map: the whole product of the current labels and the weight. -/
theorem L1_mm (c : Dev nD)
    (hin : W13 (F := Ideal) m ρ c (Proc.devRef .tc main_v84) = Cert.ReferenceIdeal.ReadP.val_main_v88 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W15 (F := Ideal) m ρ c (Proc.devRef .tc main_v87) = Cert.ReferenceIdeal.ReadP.val_main_v93 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W14 (F := Ideal) m ρ c (Proc.devRef .tc main_v84) = Cert.ReferenceIdeal.ReadP.val_main_v88 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W14 (F := Ideal) m ρ c (Proc.devRef .tc main_v84) = W13 (F := Ideal) m ρ c (Proc.devRef .tc main_v84) from by keep_host hostOps6).trans hin
  refine ((W15_arr m ρ c 2).trans (Reg6.final (V14 (F := Ideal) m ρ) c)).trans ?_
  show Host.dotGeneral (F := Ideal) (φ₁ := .f32) (φ₂ := .f32) Cert.ReferenceIdeal.dot_S100000x16_S16x16_S100000x16_1_0_0_1_n_n none (W14 (F := Ideal) m ρ c (Proc.devRef .tc main_v84)) (W14 (F := Ideal) m ρ c (Proc.devRef .tc main_v86)) = _
  rw [hx, L1_w m ρ c]
  rfl

/-- The layer's aggregation. -/
theorem L1_agg (c : Dev nD)
    (hin : W13 (F := Ideal) m ρ c (Proc.devRef .tc main_v84) = Cert.ReferenceIdeal.ReadP.val_main_v88 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W16 (F := Ideal) m ρ c (Proc.devRef .tc main_v100) = Cert.ReferenceIdeal.ReadP.val_main_v106 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W15 (F := Ideal) m ρ c (Proc.devRef .tc main_v3) = Cert.ReferenceIdeal.ReadP.val_main_v3 (F := Ideal) (m ((c : Thread nD τ).loc main_arg2)) := (KeepV3.k15 m ρ c).trans (Cert.KV.Host.host0_v3 m ρ c)
  have h6 : W15 (F := Ideal) m ρ c (Proc.devRef .tc main_v6) = Cert.ReferenceIdeal.ReadP.val_main_v6 (F := Ideal) (m ((c : Thread nD τ).loc main_arg2)) := (KeepV6.k15 m ρ c).trans (Cert.KV.Host.host0_v6 m ρ c)
  have h29 : W15 (F := Ideal) m ρ c (Proc.devRef .tc main_v29) = Cert.ReferenceIdeal.ReadP.val_main_v29 (F := Ideal) (m ((c : Thread nD τ).loc main_arg2)) := (KeepV29.k15 m ρ c).trans (Cert.KV.Host.host0_v29 m ρ c)
  exact Cert.KV.Host.host7_v100 m ρ c _ _ _ _ _ h6 (L1_mm m ρ c hin) h3 h29

/-- The bias row the update finds is the layer's bias vector. -/
theorem L1_brow (c : Dev nD) (q : Fin 16) :
    (V16 (F := Ideal) m ρ c (Pipeline.arrRef spec7 1) : S1x16.Idx → Elt Ideal .f32) (ix2 (0 : Fin 1) q) = (Cert.ReferenceIdeal.ReadP.val_main_v92 (F := Ideal) (m ((c : Thread nD τ).loc main_arg10))) (ix1 q) := by
  show (W16 (F := Ideal) m ρ c (Proc.devRef .tc main_v103) : S1x16.Idx → Elt Ideal .f32) (ix2 (0 : Fin 1) q) = _
  rw [Cert.KV.Host.host7_v103 m ρ c _ (KeepA10.k15 m ρ c)]
  exact Cert.KernelBody.shapeCast_row_apply _ _ q

/-- The integer mask the update finds is the mask bit of the row, widened. -/
theorem L1_mask (c : Dev nD) :
    (V16 (F := Ideal) m ρ c (Pipeline.arrRef spec7 3) : S100000x16.Idx → BitVec 32) = Cert.KV.Dense.kerMask16 (m ((c : Thread nD τ).loc main_arg4)) := by
  show (W16 (F := Ideal) m ρ c (Proc.devRef .tc main_v104) : S100000x16.Idx → BitVec 32) = _
  rw [Cert.KV.Host.host7_v104 m ρ c, (KeepV63.k15 m ρ c).trans (Cert.KV.Host.host4_v63 m ρ c _ (KeepA4.k9 m ρ c))]
  rfl

/-- The layer's output labels. -/
theorem layer1 (c : Dev nD)
    (hin : W13 (F := Ideal) m ρ c (Proc.devRef .tc main_v84) = Cert.ReferenceIdeal.ReadP.val_main_v88 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W17 (F := Ideal) m ρ c (Proc.devRef .tc main_v105) = Cert.ReferenceIdeal.ReadP.val_main_v111 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W16 (F := Ideal) m ρ c (Proc.devRef .tc main_arg1) = (m ((c : Thread nD τ).loc main_arg1)) := KeepA1.k16 m ρ c
  refine ((W17_arr m ρ c 4).trans (Reg7.final (V16 (F := Ideal) m ρ) c (Cert.ReferenceIdeal.ReadP.val_main_v92 (F := Ideal) (m ((c : Thread nD τ).loc main_arg10))) (m ((c : Thread nD τ).loc main_arg4)) (L1_brow m ρ c) (L1_mask m ρ c))).trans ?_
  show Cert.KV.Dense.refUpdate16 (W16 (F := Ideal) m ρ c (Proc.devRef .tc main_v100)) (Cert.ReferenceIdeal.ReadP.val_main_v92 (F := Ideal) (m ((c : Thread nD τ).loc main_arg10))) (W16 (F := Ideal) m ρ c (Proc.devRef .tc main_arg1)) (m ((c : Thread nD τ).loc main_arg4)) = _
  rw [L1_agg m ρ c hin, hy]
  rfl

end Cert.KernelIdeal.KV

end
-- ==== Proof.Reg8.lean ====
/-
  Region 8: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Window 0's block at point t is rows 5000·t … 5000·t + 4999 of its array. -/
theorem iblk0_apply (c : Dev nD) (t : Fin cfg8.N) (x : S5000x16.Idx) (k : S100000x16.Idx)
    (hk0 : (k 0).val = 5000 * t.val + (x 0).val) (hk1 : (k 1).val = (x 1).val) :
    (iblk8 V c 0 t : Vec Ideal S5000x16 .f32) x = (V c (Pipeline.arrRef spec8 0) : S100000x16.Idx → Elt Ideal .f32) k := by
  obtain ⟨e0, e1, -, -, -, -⟩ := idx t
  unfold iblk8
  rw [View.read_apply]
  show (V c (Pipeline.arrRef spec8 0) : S100000x16.Idx → Elt Ideal .f32) _ = _
  congr 1
  funext a
  apply Fin.ext
  match a with
  | ⟨0, _⟩ => show win8_0.index t 0 * 5000 + 1 * (x 0).val = (k 0).val; rw [e0, hk0]; omega
  | ⟨1, _⟩ => show win8_0.index t 1 * 16 + 1 * (x 1).val = (k 1).val; rw [e1, hk1]; omega

/-- Window 1's block at every point is the whole of its (small) array. -/
theorem iblk1_apply (c : Dev nD) (t : Fin cfg8.N) (x : S16x16.Idx) :
    (iblk8 V c 1 t : Vec Ideal S16x16 .f32) x = (V c (Pipeline.arrRef spec8 1) : S16x16.Idx → Elt Ideal .f32) x := by
  obtain ⟨-, -, e0, e1, -, -⟩ := idx t
  unfold iblk8
  rw [View.read_apply]
  show (V c (Pipeline.arrRef spec8 1) : S16x16.Idx → Elt Ideal .f32) _ = _
  congr 1
  funext a
  apply Fin.ext
  match a with
  | ⟨0, _⟩ => show win8_1.index t 0 * 16 + 1 * (x 0).val = (x 0).val; rw [e0]; omega
  | ⟨1, _⟩ => show win8_1.index t 1 * 16 + 1 * (x 1).val = (x 1).val; rw [e1]; omega

/-- What point t writes back is block t of the whole-array function of the arrays as the region finds them. -/
theorem flushed_eq (c : Dev nD) (t : Fin cfg8.N) :
    (dat8 V c).flushed 2 t = ((cfg8.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec8 0) : FVec Ideal S100000x16 .f32) (V c (Pipeline.arrRef spec8 1) : FVec Ideal S16x16 .f32)) := by
  show (cfg8.win 2).cut (grid8.coords t) ((dat8 V c).after 2 t) = _
  rw [after8_2]
  unfold out8_2
  rw [View.canon_unit_zero hz]
  simp only [View.ld_unit_zero (S := S5000x16) hz, View.ld_unit_zero (S := S16x16) hz]
  obtain ⟨-, -, -, -, e0, e1⟩ := idx t
  funext j
  refine (show k8_pay1 (F := Ideal) (iblk8 V c 0 t) (iblk8 V c 1 t) j = k6_pay1 (F := Ideal) (iblk8 V c 0 t) (iblk8 V c 1 t) j from rfl).trans ?_
  refine Cert.KV.KForms.mm16_at' (V c (Pipeline.arrRef spec8 0) : FVec Ideal S100000x16 .f32) (V c (Pipeline.arrRef spec8 1) : FVec Ideal S16x16 .f32) (iblk8 V c 0 t) (iblk8 V c 1 t) t.val (fun x k h0 h1 => iblk0_apply V c t x k h0 h1) (fun x => iblk1_apply V c t x) j _ ?_ ?_
  · show win8_2.index t 0 * 5000 + 1 * (j 0).val = 5000 * t.val + (j 0).val; rw [e0]; omega
  · show win8_2.index t 1 * 16 + 1 * (j 1).val = (j 1).val; rw [e1]; omega

/-- An index of the output array is in point t's block iff each coordinate is in the block's range on its axis. -/
theorem mem_blk (t : Fin cfg8.N) (i : S100000x16.Idx) :
    i ∈ ((cfg8.win 2).blk t).view.set ↔ ∀ a : Fin 2, win8_2.index t a * S5000x16.size a ≤ (i a).val ∧ (i a).val < win8_2.index t a * S5000x16.size a + S5000x16.size a := by
  show i ∈ ((View.whole main_v108).slice (win8_2.rect t)).set ↔ _
  rw [View.set_slice_whole, Rect.mem_set_unit]
  exact Iff.rfl

/-- Every row lies in some point's block: row i in block i / 5000. -/
theorem cover (i : S100000x16.Idx) : ∃ t : Fin cfg8.N, (cfg8.win 2).flush t = true ∧ i ∈ ((cfg8.win 2).blk t).view.set := by
  have hN : cfg8.N = 20 := N_8
  have hi0 : (i 0).val < 100000 := (i 0).isLt
  have hi1 : (i 1).val < 16 := (i 1).isLt
  refine ⟨⟨(i 0).val / 5000, by rw [hN]; omega⟩, flush8_2 _, ?_⟩
  rw [mem_blk]
  obtain ⟨-, -, -, -, e0, e1⟩ := idx ⟨(i 0).val / 5000, by rw [hN]; omega⟩
  intro a
  match a with
  | ⟨0, _⟩ => show win8_2.index _ 0 * 5000 ≤ (i 0).val ∧ (i 0).val < win8_2.index _ 0 * 5000 + 5000; rw [e0]; show (i 0).val / 5000 * 5000 ≤ (i 0).val ∧ (i 0).val < (i 0).val / 5000 * 5000 + 5000; omega
  | ⟨1, _⟩ => show win8_2.index _ 1 * 16 ≤ (i 1).val ∧ (i 1).val < win8_2.index _ 1 * 16 + 16; rw [e1]; omega

/-- The output array after the region, as one function of the arrays the region finds. -/
theorem final (c : Dev nD) :
    (dat8 V c).arrAt 2 cfg8.N
      = Host.dotGeneral (F := Ideal) (φ₁ := .f32) (φ₂ := .f32) Cert.ReferenceIdeal.dot_S100000x16_S16x16_S100000x16_1_0_0_1_n_n none (V c (Pipeline.arrRef spec8 0) : FVec Ideal S100000x16 .f32) (V c (Pipeline.arrRef spec8 1) : FVec Ideal S16x16 .f32) :=
  (dat8 V c).arrAt_eq_of_cover 2 _ (fun t _ => flushed_eq V c t) (cover)

end Cert.KernelIdeal.KV.Reg8

end
-- ==== Proof.Reg9.lean ====
/-
  Region 9: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg9

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- Window 0's block at point t is rows 5000·t … 5000·t + 4999 of its array. -/
theorem iblk0_apply (c : Dev nD) (t : Fin cfg9.N) (x : S5000x16.Idx) (k : S100000x16.Idx)
    (hk0 : (k 0).val = 5000 * t.val + (x 0).val) (hk1 : (k 1).val = (x 1).val) :
    (iblk9 V c 0 t : Vec Ideal S5000x16 .f32) x = (V c (Pipeline.arrRef spec9 0) : S100000x16.Idx → Elt Ideal .f32) k := by
  obtain ⟨e0, e1, -, -, -, -, -, -, -, -⟩ := idx t
  unfold iblk9
  rw [View.read_apply]
  show (V c (Pipeline.arrRef spec9 0) : S100000x16.Idx → Elt Ideal .f32) _ = _
  congr 1
  funext a
  apply Fin.ext
  match a with
  | ⟨0, _⟩ => show win9_0.index t 0 * 5000 + 1 * (x 0).val = (k 0).val; rw [e0, hk0]; omega
  | ⟨1, _⟩ => show win9_0.index t 1 * 16 + 1 * (x 1).val = (k 1).val; rw [e1, hk1]; omega

/-- Window 1's block at every point is the whole of its (small) array. -/
theorem iblk1_apply (c : Dev nD) (t : Fin cfg9.N) (x : S1x16.Idx) :
    (iblk9 V c 1 t : Vec Ideal S1x16 .f32) x = (V c (Pipeline.arrRef spec9 1) : S1x16.Idx → Elt Ideal .f32) x := by
  obtain ⟨-, -, e0, e1, -, -, -, -, -, -⟩ := idx t
  unfold iblk9
  rw [View.read_apply]
  show (V c (Pipeline.arrRef spec9 1) : S1x16.Idx → Elt Ideal .f32) _ = _
  congr 1
  funext a
  apply Fin.ext
  match a with
  | ⟨0, _⟩ => show win9_1.index t 0 * 1 + 1 * (x 0).val = (x 0).val; rw [e0]; omega
  | ⟨1, _⟩ => show win9_1.index t 1 * 16 + 1 * (x 1).val = (x 1).val; rw [e1]; omega

/-- Window 2's block at point t is rows 5000·t … 5000·t + 4999 of its array. -/
theorem iblk2_apply (c : Dev nD) (t : Fin cfg9.N) (x : S5000x16.Idx) (k : S100000x16.Idx)
    (hk0 : (k 0).val = 5000 * t.val + (x 0).val) (hk1 : (k 1).val = (x 1).val) :
    (iblk9 V c 2 t : Vec Ideal S5000x16 .f32) x = (V c (Pipeline.arrRef spec9 2) : S100000x16.Idx → Elt Ideal .f32) k := by
  obtain ⟨-, -, -, -, e0, e1, -, -, -, -⟩ := idx t
  unfold iblk9
  rw [View.read_apply]
  show (V c (Pipeline.arrRef spec9 2) : S100000x16.Idx → Elt Ideal .f32) _ = _
  congr 1
  funext a
  apply Fin.ext
  match a with
  | ⟨0, _⟩ => show win9_2.index t 0 * 5000 + 1 * (x 0).val = (k 0).val; rw [e0, hk0]; omega
  | ⟨1, _⟩ => show win9_2.index t 1 * 16 + 1 * (x 1).val = (k 1).val; rw [e1, hk1]; omega

/-- Window 3's block at point t is rows 5000·t … 5000·t + 4999 of its array. -/
theorem iblk3_apply (c : Dev nD) (t : Fin cfg9.N) (x : S5000x16.Idx) (k : S100000x16.Idx)
    (hk0 : (k 0).val = 5000 * t.val + (x 0).val) (hk1 : (k 1).val = (x 1).val) :
    (iblk9 V c 3 t : Vec Ideal S5000x16 .i32) x = (V c (Pipeline.arrRef spec9 3) : S100000x16.Idx → Elt Ideal .i32) k := by
  obtain ⟨-, -, -, -, -, -, e0, e1, -, -⟩ := idx t
  unfold iblk9
  rw [View.read_apply]
  show (V c (Pipeline.arrRef spec9 3) : S100000x16.Idx → Elt Ideal .i32) _ = _
  congr 1
  funext a
  apply Fin.ext
  match a with
  | ⟨0, _⟩ => show win9_3.index t 0 * 5000 + 1 * (x 0).val = (k 0).val; rw [e0, hk0]; omega
  | ⟨1, _⟩ => show win9_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec9 1) : S1x16.Idx → Elt Ideal .f32) (ix2 (0 : Fin 1) q) = b (ix1 q))
    (hm : (V c (Pipeline.arrRef spec9 3) : S100000x16.Idx → BitVec 32) = Cert.KV.Dense.kerMask16 mask) (t : Fin cfg9.N) :
    (dat9 V c).flushed 4 t = ((cfg9.win 4).blk t).view.read (Elt Ideal)
      (Cert.KV.Dense.refUpdate16 (V c (Pipeline.arrRef spec9 0) : FVec Ideal S100000x16 .f32) b (V c (Pipeline.arrRef spec9 2) : FVec Ideal S100000x16 .f32) mask) := by
  show (cfg9.win 4).cut (grid9.coords t) ((dat9 V c).after 4 t) = _
  rw [after9_4]
  unfold out9_4
  rw [View.canon_unit_zero hz]
  simp only [View.ld_unit_zero (S := S5000x16) hz, View.ld_unit_zero (S := S1x16) hz]
  obtain ⟨-, -, -, -, -, -, -, -, e0, e1⟩ := idx t
  funext j
  refine (show k9_pay1 (F := Ideal) (iblk9 V c 0 t) (iblk9 V c 1 t) (iblk9 V c 3 t) (iblk9 V c 2 t) j = k5_pay1 (F := Ideal) (iblk9 V c 0 t) (iblk9 V c 1 t) (iblk9 V c 3 t) (iblk9 V c 2 t) j from rfl).trans ?_
  refine Cert.KV.Dense.update16_at (V c (Pipeline.arrRef spec9 0) : FVec Ideal S100000x16 .f32) b (V c (Pipeline.arrRef spec9 2) : FVec Ideal S100000x16 .f32) mask (iblk9 V c 0 t) (iblk9 V c 1 t) (iblk9 V c 3 t) (iblk9 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win9_4.index t 0 * 5000 + 1 * (j 0).val = 5000 * t.val + (j 0).val; rw [e0]; omega
  · show win9_4.index t 1 * 16 + 1 * (j 1).val = (j 1).val; rw [e1]; omega

/-- An index of the output array is in point t's block iff each coordinate is in the block's range on its axis. -/
theorem mem_blk (t : Fin cfg9.N) (i : S100000x16.Idx) :
    i ∈ ((cfg9.win 4).blk t).view.set ↔ ∀ a : Fin 2, win9_4.index t a * S5000x16.size a ≤ (i a).val ∧ (i a).val < win9_4.index t a * S5000x16.size a + S5000x16.size a := by
  show i ∈ ((View.whole main_v126).slice (win9_4.rect t)).set ↔ _
  rw [View.set_slice_whole, Rect.mem_set_unit]
  exact Iff.rfl

/-- Every row lies in some point's block: row i in block i / 5000. -/
theorem cover (i : S100000x16.Idx) : ∃ t : Fin cfg9.N, (cfg9.win 4).flush t = true ∧ i ∈ ((cfg9.win 4).blk t).view.set := by
  have hN : cfg9.N = 20 := N_9
  have hi0 : (i 0).val < 100000 := (i 0).isLt
  have hi1 : (i 1).val < 16 := (i 1).isLt
  refine ⟨⟨(i 0).val / 5000, by rw [hN]; omega⟩, flush9_4 _, ?_⟩
  rw [mem_blk]
  obtain ⟨-, -, -, -, -, -, -, -, e0, e1⟩ := idx ⟨(i 0).val / 5000, by rw [hN]; omega⟩
  intro a
  match a with
  | ⟨0, _⟩ => show win9_4.index _ 0 * 5000 ≤ (i 0).val ∧ (i 0).val < win9_4.index _ 0 * 5000 + 5000; rw [e0]; show (i 0).val / 5000 * 5000 ≤ (i 0).val ∧ (i 0).val < (i 0).val / 5000 * 5000 + 5000; omega
  | ⟨1, _⟩ => show win9_4.index _ 1 * 16 ≤ (i 1).val ∧ (i 1).val < win9_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec9 1) : S1x16.Idx → Elt Ideal .f32) (ix2 (0 : Fin 1) q) = b (ix1 q))
    (hm : (V c (Pipeline.arrRef spec9 3) : S100000x16.Idx → BitVec 32) = Cert.KV.Dense.kerMask16 mask) :
    (dat9 V c).arrAt 4 cfg9.N
      = Cert.KV.Dense.refUpdate16 (V c (Pipeline.arrRef spec9 0) : FVec Ideal S100000x16 .f32) b (V c (Pipeline.arrRef spec9 2) : FVec Ideal S100000x16 .f32) mask :=
  (dat9 V c).arrAt_eq_of_cover 4 _ (fun t _ => flushed_eq V c b mask hb hm t) (cover)

end Cert.KernelIdeal.KV.Reg9

end
-- ==== Proof.HostL2.lean ====
/-
Host stretches of label layer 2: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 2's `[16,16]` weight: slab 2 of the stacked weights. -/
theorem host8_v107_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps8 (F := Ideal)) V (Proc.devRef .tc KernelIdeal.main_v107) = val_main_v113 (F := Ideal) x9 := by
  after_results_simp
  rw [h_arg9]
  rfl

/-- The same at the run's stage contents: the stretch's entry is stage 17, its exit stage 18. -/
theorem host8_v107 (c : Dev KernelIdeal.nD)
    (x9 : (⟨ReferenceIdeal.S10x16x16, .f32⟩ : BufTy).Contents (Elt Ideal))
    (h_arg9 : W17 (F := Ideal) m ρ c (Proc.devRef .tc KernelIdeal.main_arg9) = x9) :
    W18 (F := Ideal) m ρ c (Proc.devRef .tc KernelIdeal.main_v107) = val_main_v113 (F := Ideal) x9 :=
  host8_v107_of (W17 (F := Ideal) m ρ c) x9 h_arg9

set_option maxRecDepth 8192 in
/-- Label layer 2, aggregation. With the stretch's inputs at the reference's stages (the projected labels, the two edge-endpoint columns, the edge weights), its scatter-add result is the reference's: each edge's source row is gathered, scaled by the edge weight and added into the destination row. -/
theorem host9_v121_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v108 : V (Proc.devRef .tc KernelIdeal.main_v108) = val_main_v116 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps9 (F := Ideal)) V (Proc.devRef .tc KernelIdeal.main_v121) = val_main_v129 (F := Ideal) x1 x2 x4 x9 x10 := by
  after_results_simp
  rw [h_v6, h_v108, h_v3, h_v29]
  rfl

/-- The same at the run's stage contents: the stretch's entry is stage 19, its exit stage 20. -/
theorem host9_v121 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W19 (F := Ideal) m ρ c (Proc.devRef .tc KernelIdeal.main_v6) = val_main_v6 (F := Ideal) x2)
    (h_v108 : W19 (F := Ideal) m ρ c (Proc.devRef .tc KernelIdeal.main_v108) = val_main_v116 (F := Ideal) x1 x2 x4 x9 x10)
    (h_v3 : W19 (F := Ideal) m ρ c (Proc.devRef .tc KernelIdeal.main_v3) = val_main_v3 (F := Ideal) x2)
    (h_v29 : W19 (F := Ideal) m ρ c (Proc.devRef .tc KernelIdeal.main_v29) = val_main_v29 (F := Ideal) x2) :
    W20 (F := Ideal) m ρ c (Proc.devRef .tc KernelIdeal.main_v121) = val_main_v129 (F := Ideal) x1 x2 x4 x9 x10 :=
  host9_v121_of (W19 (F := Ideal) m ρ c) x1 x2 x4 x9 x10 h_v6 h_v108 h_v3 h_v29

set_option maxRecDepth 8192 in
/-- Label layer 2's bias as a `[16]` vector: row 2 of the stacked biases. -/
theorem host9_v123_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps9 (F := Ideal)) V (Proc.devRef .tc KernelIdeal.main_v123) = val_main_v115 (F := Ideal) x10 := by
  after_results_simp
  rw [h_arg10]
  rfl

/-- The same at the run's stage contents: the stretch's entry is stage 19, its exit stage 20. -/
theorem host9_v123 (c : Dev KernelIdeal.nD)
    (x10 : (⟨ReferenceIdeal.S10x16, .f32⟩ : BufTy).Contents (Elt Ideal))
    (h_arg10 : W19 (F := Ideal) m ρ c (Proc.devRef .tc KernelIdeal.main_arg10) = x10) :
    W20 (F := Ideal) m ρ c (Proc.devRef .tc KernelIdeal.main_v123) = val_main_v115 (F := Ideal) x10 :=
  host9_v123_of (W19 (F := Ideal) m ρ c) x10 h_arg10

set_option maxRecDepth 8192 in
/-- Label layer 2's bias as one `[1,16]` row: row 2 of the stacked biases, relaid. -/
theorem host9_v124_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps9 (F := Ideal)) V (Proc.devRef .tc KernelIdeal.main_v124)
      = shapeCast KernelIdeal.S1x16 (val_main_v115 (F := Ideal) x10) KernelIdeal.Facts₀.shapeCasts_S16_S1x16 := by
  after_results_simp
  rw [h_arg10]
  rfl

/-- The same at the run's stage contents: the stretch's entry is stage 19, its exit stage 20. -/
theorem host9_v124 (c : Dev KernelIdeal.nD)
    (x10 : (⟨ReferenceIdeal.S10x16, .f32⟩ : BufTy).Contents (Elt Ideal))
    (h_arg10 : W19 (F := Ideal) m ρ c (Proc.devRef .tc KernelIdeal.main_arg10) = x10) :
    W20 (F := Ideal) m ρ c (Proc.devRef .tc KernelIdeal.main_v124)
      = shapeCast KernelIdeal.S1x16 (val_main_v115 (F := Ideal) x10) KernelIdeal.Facts₀.shapeCasts_S16_S1x16 :=
  host9_v124_of (W19 (F := Ideal) m ρ c) x10 h_arg10

set_option maxRecDepth 8192 in
/-- The node mask over the 16 label columns, widened from one bit to 32-bit integers. -/
theorem host9_v125_of (V : Valuation KernelIdeal.τ KernelIdeal.sig (Elt Ideal)) :
    StableHlo.after (hostOps9 (F := Ideal)) V (Proc.devRef .tc KernelIdeal.main_v125)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 19, its exit stage 20. -/
theorem host9_v125 (c : Dev KernelIdeal.nD) :
    W20 (F := Ideal) m ρ c (Proc.devRef .tc KernelIdeal.main_v125)
      = extui 32 ((W19 (F := Ideal) m ρ c) (Proc.devRef .tc KernelIdeal.main_v63) : (⟨KernelIdeal.S100000x16, .i1⟩ : BufTy).Contents (Elt Ideal)) KernelIdeal.Facts₀.natLt_1_32 :=
  host9_v125_of (W19 (F := Ideal) m ρ c)

end Cert.KV.Host

end
-- ==== Proof.ChainL2.lean ====
/-
  Label layer 2, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg8
import proofs.«146329_j1168231104595_1_alg».proof.Proof.Reg9
import proofs.«146329_j1168231104595_1_alg».proof.Proof.HostPro
import proofs.«146329_j1168231104595_1_alg».proof.Proof.HostFeat
import proofs.«146329_j1168231104595_1_alg».proof.Proof.HostL2
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L2_w (c : Dev nD) : W18 (F := Ideal) m ρ c (Proc.devRef .tc main_v107) = Cert.ReferenceIdeal.ReadP.val_main_v113 (F := Ideal) (m ((c : Thread nD τ).loc main_arg9)) :=
  Cert.KV.Host.host8_v107 m ρ c _ (KeepA9.k17 m ρ c)

/-- The layer's linear map: the whole product of the current labels and the weight. -/
theorem L2_mm (c : Dev nD)
    (hin : W17 (F := Ideal) m ρ c (Proc.devRef .tc main_v105) = Cert.ReferenceIdeal.ReadP.val_main_v111 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W19 (F := Ideal) m ρ c (Proc.devRef .tc main_v108) = Cert.ReferenceIdeal.ReadP.val_main_v116 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W18 (F := Ideal) m ρ c (Proc.devRef .tc main_v105) = Cert.ReferenceIdeal.ReadP.val_main_v111 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W18 (F := Ideal) m ρ c (Proc.devRef .tc main_v105) = W17 (F := Ideal) m ρ c (Proc.devRef .tc main_v105) from by keep_host hostOps8).trans hin
  refine ((W19_arr m ρ c 2).trans (Reg8.final (V18 (F := Ideal) m ρ) c)).trans ?_
  show Host.dotGeneral (F := Ideal) (φ₁ := .f32) (φ₂ := .f32) Cert.ReferenceIdeal.dot_S100000x16_S16x16_S100000x16_1_0_0_1_n_n none (W18 (F := Ideal) m ρ c (Proc.devRef .tc main_v105)) (W18 (F := Ideal) m ρ c (Proc.devRef .tc main_v107)) = _
  rw [hx, L2_w m ρ c]
  rfl

/-- The layer's aggregation. -/
theorem L2_agg (c : Dev nD)
    (hin : W17 (F := Ideal) m ρ c (Proc.devRef .tc main_v105) = Cert.ReferenceIdeal.ReadP.val_main_v111 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W20 (F := Ideal) m ρ c (Proc.devRef .tc main_v121) = Cert.ReferenceIdeal.ReadP.val_main_v129 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W19 (F := Ideal) m ρ c (Proc.devRef .tc main_v3) = Cert.ReferenceIdeal.ReadP.val_main_v3 (F := Ideal) (m ((c : Thread nD τ).loc main_arg2)) := (KeepV3.k19 m ρ c).trans (Cert.KV.Host.host0_v3 m ρ c)
  have h6 : W19 (F := Ideal) m ρ c (Proc.devRef .tc main_v6) = Cert.ReferenceIdeal.ReadP.val_main_v6 (F := Ideal) (m ((c : Thread nD τ).loc main_arg2)) := (KeepV6.k19 m ρ c).trans (Cert.KV.Host.host0_v6 m ρ c)
  have h29 : W19 (F := Ideal) m ρ c (Proc.devRef .tc main_v29) = Cert.ReferenceIdeal.ReadP.val_main_v29 (F := Ideal) (m ((c : Thread nD τ).loc main_arg2)) := (KeepV29.k19 m ρ c).trans (Cert.KV.Host.host0_v29 m ρ c)
  exact Cert.KV.Host.host9_v121 m ρ c _ _ _ _ _ h6 (L2_mm m ρ c hin) h3 h29

/-- The bias row the update finds is the layer's bias vector. -/
theorem L2_brow (c : Dev nD) (q : Fin 16) :
    (V20 (F := Ideal) m ρ c (Pipeline.arrRef spec9 1) : S1x16.Idx → Elt Ideal .f32) (ix2 (0 : Fin 1) q) = (Cert.ReferenceIdeal.ReadP.val_main_v115 (F := Ideal) (m ((c : Thread nD τ).loc main_arg10))) (ix1 q) := by
  show (W20 (F := Ideal) m ρ c (Proc.devRef .tc main_v124) : S1x16.Idx → Elt Ideal .f32) (ix2 (0 : Fin 1) q) = _
  rw [Cert.KV.Host.host9_v124 m ρ c _ (KeepA10.k19 m ρ c)]
  exact Cert.KernelBody.shapeCast_row_apply _ _ q

/-- The integer mask the update finds is the mask bit of the row, widened. -/
theorem L2_mask (c : Dev nD) :
    (V20 (F := Ideal) m ρ c (Pipeline.arrRef spec9 3) : S100000x16.Idx → BitVec 32) = Cert.KV.Dense.kerMask16 (m ((c : Thread nD τ).loc main_arg4)) := by
  show (W20 (F := Ideal) m ρ c (Proc.devRef .tc main_v125) : S100000x16.Idx → BitVec 32) = _
  rw [Cert.KV.Host.host9_v125 m ρ c, (KeepV63.k19 m ρ c).trans (Cert.KV.Host.host4_v63 m ρ c _ (KeepA4.k9 m ρ c))]
  rfl

/-- The layer's output labels. -/
theorem layer2 (c : Dev nD)
    (hin : W17 (F := Ideal) m ρ c (Proc.devRef .tc main_v105) = Cert.ReferenceIdeal.ReadP.val_main_v111 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W21 (F := Ideal) m ρ c (Proc.devRef .tc main_v126) = Cert.ReferenceIdeal.ReadP.val_main_v134 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W20 (F := Ideal) m ρ c (Proc.devRef .tc main_arg1) = (m ((c : Thread nD τ).loc main_arg1)) := KeepA1.k20 m ρ c
  refine ((W21_arr m ρ c 4).trans (Reg9.final (V20 (F := Ideal) m ρ) c (Cert.ReferenceIdeal.ReadP.val_main_v115 (F := Ideal) (m ((c : Thread nD τ).loc main_arg10))) (m ((c : Thread nD τ).loc main_arg4)) (L2_brow m ρ c) (L2_mask m ρ c))).trans ?_
  show Cert.KV.Dense.refUpdate16 (W20 (F := Ideal) m ρ c (Proc.devRef .tc main_v121)) (Cert.ReferenceIdeal.ReadP.val_main_v115 (F := Ideal) (m ((c : Thread nD τ).loc main_arg10))) (W20 (F := Ideal) m ρ c (Proc.devRef .tc main_arg1)) (m ((c : Thread nD τ).loc main_arg4)) = _
  rw [L2_agg m ρ c hin, hy]
  rfl

end Cert.KernelIdeal.KV

end
-- ==== Proof.Reg10.lean ====
/-
  Region 10: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg10

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- Window 0's block at point t is rows 5000·t … 5000·t + 4999 of its array. -/
theorem iblk0_apply (c : Dev nD) (t : Fin cfg10.N) (x : S5000x16.Idx) (k : S100000x16.Idx)
    (hk0 : (k 0).val = 5000 * t.val + (x 0).val) (hk1 : (k 1).val = (x 1).val) :
    (iblk10 V c 0 t : Vec Ideal S5000x16 .f32) x = (V c (Pipeline.arrRef spec10 0) : S100000x16.Idx → Elt Ideal .f32) k := by
  obtain ⟨e0, e1, -, -, -, -⟩ := idx t
  unfold iblk10
  rw [View.read_apply]
  show (V c (Pipeline.arrRef spec10 0) : S100000x16.Idx → Elt Ideal .f32) _ = _
  congr 1
  funext a
  apply Fin.ext
  match a with
  | ⟨0, _⟩ => show win10_0.index t 0 * 5000 + 1 * (x 0).val = (k 0).val; rw [e0, hk0]; omega
  | ⟨1, _⟩ => show win10_0.index t 1 * 16 + 1 * (x 1).val = (k 1).val; rw [e1, hk1]; omega

/-- Window 1's block at every point is the whole of its (small) array. -/
theorem iblk1_apply (c : Dev nD) (t : Fin cfg10.N) (x : S16x16.Idx) :
    (iblk10 V c 1 t : Vec Ideal S16x16 .f32) x = (V c (Pipeline.arrRef spec10 1) : S16x16.Idx → Elt Ideal .f32) x := by
  obtain ⟨-, -, e0, e1, -, -⟩ := idx t
  unfold iblk10
  rw [View.read_apply]
  show (V c (Pipeline.arrRef spec10 1) : S16x16.Idx → Elt Ideal .f32) _ = _
  congr 1
  funext a
  apply Fin.ext
  match a with
  | ⟨0, _⟩ => show win10_1.index t 0 * 16 + 1 * (x 0).val = (x 0).val; rw [e0]; omega
  | ⟨1, _⟩ => show win10_1.index t 1 * 16 + 1 * (x 1).val = (x 1).val; rw [e1]; omega

/-- What point t writes back is block t of the whole-array function of the arrays as the region finds them. -/
theorem flushed_eq (c : Dev nD) (t : Fin cfg10.N) :
    (dat10 V c).flushed 2 t = ((cfg10.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec10 0) : FVec Ideal S100000x16 .f32) (V c (Pipeline.arrRef spec10 1) : FVec Ideal S16x16 .f32)) := by
  show (cfg10.win 2).cut (grid10.coords t) ((dat10 V c).after 2 t) = _
  rw [after10_2]
  unfold out10_2
  rw [View.canon_unit_zero hz]
  simp only [View.ld_unit_zero (S := S5000x16) hz, View.ld_unit_zero (S := S16x16) hz]
  obtain ⟨-, -, -, -, e0, e1⟩ := idx t
  funext j
  refine (show k10_pay1 (F := Ideal) (iblk10 V c 0 t) (iblk10 V c 1 t) j = k6_pay1 (F := Ideal) (iblk10 V c 0 t) (iblk10 V c 1 t) j from rfl).trans ?_
  refine Cert.KV.KForms.mm16_at' (V c (Pipeline.arrRef spec10 0) : FVec Ideal S100000x16 .f32) (V c (Pipeline.arrRef spec10 1) : FVec Ideal S16x16 .f32) (iblk10 V c 0 t) (iblk10 V c 1 t) t.val (fun x k h0 h1 => iblk0_apply V c t x k h0 h1) (fun x => iblk1_apply V c t x) j _ ?_ ?_
  · show win10_2.index t 0 * 5000 + 1 * (j 0).val = 5000 * t.val + (j 0).val; rw [e0]; omega
  · show win10_2.index t 1 * 16 + 1 * (j 1).val = (j 1).val; rw [e1]; omega

/-- An index of the output array is in point t's block iff each coordinate is in the block's range on its axis. -/
theorem mem_blk (t : Fin cfg10.N) (i : S100000x16.Idx) :
    i ∈ ((cfg10.win 2).blk t).view.set ↔ ∀ a : Fin 2, win10_2.index t a * S5000x16.size a ≤ (i a).val ∧ (i a).val < win10_2.index t a * S5000x16.size a + S5000x16.size a := by
  show i ∈ ((View.whole main_v129).slice (win10_2.rect t)).set ↔ _
  rw [View.set_slice_whole, Rect.mem_set_unit]
  exact Iff.rfl

/-- Every row lies in some point's block: row i in block i / 5000. -/
theorem cover (i : S100000x16.Idx) : ∃ t : Fin cfg10.N, (cfg10.win 2).flush t = true ∧ i ∈ ((cfg10.win 2).blk t).view.set := by
  have hN : cfg10.N = 20 := N_10
  have hi0 : (i 0).val < 100000 := (i 0).isLt
  have hi1 : (i 1).val < 16 := (i 1).isLt
  refine ⟨⟨(i 0).val / 5000, by rw [hN]; omega⟩, flush10_2 _, ?_⟩
  rw [mem_blk]
  obtain ⟨-, -, -, -, e0, e1⟩ := idx ⟨(i 0).val / 5000, by rw [hN]; omega⟩
  intro a
  match a with
  | ⟨0, _⟩ => show win10_2.index _ 0 * 5000 ≤ (i 0).val ∧ (i 0).val < win10_2.index _ 0 * 5000 + 5000; rw [e0]; show (i 0).val / 5000 * 5000 ≤ (i 0).val ∧ (i 0).val < (i 0).val / 5000 * 5000 + 5000; omega
  | ⟨1, _⟩ => show win10_2.index _ 1 * 16 ≤ (i 1).val ∧ (i 1).val < win10_2.index _ 1 * 16 + 16; rw [e1]; omega

/-- The output array after the region, as one function of the arrays the region finds. -/
theorem final (c : Dev nD) :
    (dat10 V c).arrAt 2 cfg10.N
      = Host.dotGeneral (F := Ideal) (φ₁ := .f32) (φ₂ := .f32) Cert.ReferenceIdeal.dot_S100000x16_S16x16_S100000x16_1_0_0_1_n_n none (V c (Pipeline.arrRef spec10 0) : FVec Ideal S100000x16 .f32) (V c (Pipeline.arrRef spec10 1) : FVec Ideal S16x16 .f32) :=
  (dat10 V c).arrAt_eq_of_cover 2 _ (fun t _ => flushed_eq V c t) (cover)

end Cert.KernelIdeal.KV.Reg10

end
-- ==== Proof.Reg11.lean ====
/-
  Region 11: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg11

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- Window 0's block at point t is rows 5000·t … 5000·t + 4999 of its array. -/
theorem iblk0_apply (c : Dev nD) (t : Fin cfg11.N) (x : S5000x16.Idx) (k : S100000x16.Idx)
    (hk0 : (k 0).val = 5000 * t.val + (x 0).val) (hk1 : (k 1).val = (x 1).val) :
    (iblk11 V c 0 t : Vec Ideal S5000x16 .f32) x = (V c (Pipeline.arrRef spec11 0) : S100000x16.Idx → Elt Ideal .f32) k := by
  obtain ⟨e0, e1, -, -, -, -, -, -, -, -⟩ := idx t
  unfold iblk11
  rw [View.read_apply]
  show (V c (Pipeline.arrRef spec11 0) : S100000x16.Idx → Elt Ideal .f32) _ = _
  congr 1
  funext a
  apply Fin.ext
  match a with
  | ⟨0, _⟩ => show win11_0.index t 0 * 5000 + 1 * (x 0).val = (k 0).val; rw [e0, hk0]; omega
  | ⟨1, _⟩ => show win11_0.index t 1 * 16 + 1 * (x 1).val = (k 1).val; rw [e1, hk1]; omega

/-- Window 1's block at every point is the whole of its (small) array. -/
theorem iblk1_apply (c : Dev nD) (t : Fin cfg11.N) (x : S1x16.Idx) :
    (iblk11 V c 1 t : Vec Ideal S1x16 .f32) x = (V c (Pipeline.arrRef spec11 1) : S1x16.Idx → Elt Ideal .f32) x := by
  obtain ⟨-, -, e0, e1, -, -, -, -, -, -⟩ := idx t
  unfold iblk11
  rw [View.read_apply]
  show (V c (Pipeline.arrRef spec11 1) : S1x16.Idx → Elt Ideal .f32) _ = _
  congr 1
  funext a
  apply Fin.ext
  match a with
  | ⟨0, _⟩ => show win11_1.index t 0 * 1 + 1 * (x 0).val = (x 0).val; rw [e0]; omega
  | ⟨1, _⟩ => show win11_1.index t 1 * 16 + 1 * (x 1).val = (x 1).val; rw [e1]; omega

/-- Window 2's block at point t is rows 5000·t … 5000·t + 4999 of its array. -/
theorem iblk2_apply (c : Dev nD) (t : Fin cfg11.N) (x : S5000x16.Idx) (k : S100000x16.Idx)
    (hk0 : (k 0).val = 5000 * t.val + (x 0).val) (hk1 : (k 1).val = (x 1).val) :
    (iblk11 V c 2 t : Vec Ideal S5000x16 .f32) x = (V c (Pipeline.arrRef spec11 2) : S100000x16.Idx → Elt Ideal .f32) k := by
  obtain ⟨-, -, -, -, e0, e1, -, -, -, -⟩ := idx t
  unfold iblk11
  rw [View.read_apply]
  show (V c (Pipeline.arrRef spec11 2) : S100000x16.Idx → Elt Ideal .f32) _ = _
  congr 1
  funext a
  apply Fin.ext
  match a with
  | ⟨0, _⟩ => show win11_2.index t 0 * 5000 + 1 * (x 0).val = (k 0).val; rw [e0, hk0]; omega
  | ⟨1, _⟩ => show win11_2.index t 1 * 16 + 1 * (x 1).val = (k 1).val; rw [e1, hk1]; omega

/-- Window 3's block at point t is rows 5000·t … 5000·t + 4999 of its array. -/
theorem iblk3_apply (c : Dev nD) (t : Fin cfg11.N) (x : S5000x16.Idx) (k : S100000x16.Idx)
    (hk0 : (k 0).val = 5000 * t.val + (x 0).val) (hk1 : (k 1).val = (x 1).val) :
    (iblk11 V c 3 t : Vec Ideal S5000x16 .i32) x = (V c (Pipeline.arrRef spec11 3) : S100000x16.Idx → Elt Ideal .i32) k := by
  obtain ⟨-, -, -, -, -, -, e0, e1, -, -⟩ := idx t
  unfold iblk11
  rw [View.read_apply]
  show (V c (Pipeline.arrRef spec11 3) : S100000x16.Idx → Elt Ideal .i32) _ = _
  congr 1
  funext a
  apply Fin.ext
  match a with
  | ⟨0, _⟩ => show win11_3.index t 0 * 5000 + 1 * (x 0).val = (k 0).val; rw [e0, hk0]; omega
  | ⟨1, _⟩ => show win11_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec11 1) : S1x16.Idx → Elt Ideal .f32) (ix2 (0 : Fin 1) q) = b (ix1 q))
    (hm : (V c (Pipeline.arrRef spec11 3) : S100000x16.Idx → BitVec 32) = Cert.KV.Dense.kerMask16 mask) (t : Fin cfg11.N) :
    (dat11 V c).flushed 4 t = ((cfg11.win 4).blk t).view.read (Elt Ideal)
      (Cert.KV.Dense.refUpdate16 (V c (Pipeline.arrRef spec11 0) : FVec Ideal S100000x16 .f32) b (V c (Pipeline.arrRef spec11 2) : FVec Ideal S100000x16 .f32) mask) := by
  show (cfg11.win 4).cut (grid11.coords t) ((dat11 V c).after 4 t) = _
  rw [after11_4]
  unfold out11_4
  rw [View.canon_unit_zero hz]
  simp only [View.ld_unit_zero (S := S5000x16) hz, View.ld_unit_zero (S := S1x16) hz]
  obtain ⟨-, -, -, -, -, -, -, -, e0, e1⟩ := idx t
  funext j
  refine (show k11_pay1 (F := Ideal) (iblk11 V c 0 t) (iblk11 V c 1 t) (iblk11 V c 3 t) (iblk11 V c 2 t) j = k5_pay1 (F := Ideal) (iblk11 V c 0 t) (iblk11 V c 1 t) (iblk11 V c 3 t) (iblk11 V c 2 t) j from rfl).trans ?_
  refine Cert.KV.Dense.update16_at (V c (Pipeline.arrRef spec11 0) : FVec Ideal S100000x16 .f32) b (V c (Pipeline.arrRef spec11 2) : FVec Ideal S100000x16 .f32) mask (iblk11 V c 0 t) (iblk11 V c 1 t) (iblk11 V c 3 t) (iblk11 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win11_4.index t 0 * 5000 + 1 * (j 0).val = 5000 * t.val + (j 0).val; rw [e0]; omega
  · show win11_4.index t 1 * 16 + 1 * (j 1).val = (j 1).val; rw [e1]; omega

/-- An index of the output array is in point t's block iff each coordinate is in the block's range on its axis. -/
theorem mem_blk (t : Fin cfg11.N) (i : S100000x16.Idx) :
    i ∈ ((cfg11.win 4).blk t).view.set ↔ ∀ a : Fin 2, win11_4.index t a * S5000x16.size a ≤ (i a).val ∧ (i a).val < win11_4.index t a * S5000x16.size a + S5000x16.size a := by
  show i ∈ ((View.whole main_v147).slice (win11_4.rect t)).set ↔ _
  rw [View.set_slice_whole, Rect.mem_set_unit]
  exact Iff.rfl

/-- Every row lies in some point's block: row i in block i / 5000. -/
theorem cover (i : S100000x16.Idx) : ∃ t : Fin cfg11.N, (cfg11.win 4).flush t = true ∧ i ∈ ((cfg11.win 4).blk t).view.set := by
  have hN : cfg11.N = 20 := N_11
  have hi0 : (i 0).val < 100000 := (i 0).isLt
  have hi1 : (i 1).val < 16 := (i 1).isLt
  refine ⟨⟨(i 0).val / 5000, by rw [hN]; omega⟩, flush11_4 _, ?_⟩
  rw [mem_blk]
  obtain ⟨-, -, -, -, -, -, -, -, e0, e1⟩ := idx ⟨(i 0).val / 5000, by rw [hN]; omega⟩
  intro a
  match a with
  | ⟨0, _⟩ => show win11_4.index _ 0 * 5000 ≤ (i 0).val ∧ (i 0).val < win11_4.index _ 0 * 5000 + 5000; rw [e0]; show (i 0).val / 5000 * 5000 ≤ (i 0).val ∧ (i 0).val < (i 0).val / 5000 * 5000 + 5000; omega
  | ⟨1, _⟩ => show win11_4.index _ 1 * 16 ≤ (i 1).val ∧ (i 1).val < win11_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec11 1) : S1x16.Idx → Elt Ideal .f32) (ix2 (0 : Fin 1) q) = b (ix1 q))
    (hm : (V c (Pipeline.arrRef spec11 3) : S100000x16.Idx → BitVec 32) = Cert.KV.Dense.kerMask16 mask) :
    (dat11 V c).arrAt 4 cfg11.N
      = Cert.KV.Dense.refUpdate16 (V c (Pipeline.arrRef spec11 0) : FVec Ideal S100000x16 .f32) b (V c (Pipeline.arrRef spec11 2) : FVec Ideal S100000x16 .f32) mask :=
  (dat11 V c).arrAt_eq_of_cover 4 _ (fun t _ => flushed_eq V c b mask hb hm t) (cover)

end Cert.KernelIdeal.KV.Reg11

end
-- ==== Proof.HostL3.lean ====
/-
Host stretches of label layer 3: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 3's `[16,16]` weight: slab 3 of the stacked weights. -/
theorem host10_v128_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps10 (F := Ideal)) V (Proc.devRef .tc KernelIdeal.main_v128) = val_main_v136 (F := Ideal) x9 := by
  after_results_simp
  rw [h_arg9]
  rfl

/-- The same at the run's stage contents: the stretch's entry is stage 21, its exit stage 22. -/
theorem host10_v128 (c : Dev KernelIdeal.nD)
    (x9 : (⟨ReferenceIdeal.S10x16x16, .f32⟩ : BufTy).Contents (Elt Ideal))
    (h_arg9 : W21 (F := Ideal) m ρ c (Proc.devRef .tc KernelIdeal.main_arg9) = x9) :
    W22 (F := Ideal) m ρ c (Proc.devRef .tc KernelIdeal.main_v128) = val_main_v136 (F := Ideal) x9 :=
  host10_v128_of (W21 (F := Ideal) m ρ c) x9 h_arg9

set_option maxRecDepth 8192 in
/-- Label layer 3, aggregation. With the stretch's inputs at the reference's stages (the projected labels, the two edge-endpoint columns, the edge weights), its scatter-add result is the reference's: each edge's source row is gathered, scaled by the edge weight and added into the destination row. -/
theorem host11_v142_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v129 : V (Proc.devRef .tc KernelIdeal.main_v129) = val_main_v139 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps11 (F := Ideal)) V (Proc.devRef .tc KernelIdeal.main_v142) = val_main_v152 (F := Ideal) x1 x2 x4 x9 x10 := by
  after_results_simp
  rw [h_v6, h_v129, h_v3, h_v29]
  rfl

/-- The same at the run's stage contents: the stretch's entry is stage 23, its exit stage 24. -/
theorem host11_v142 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W23 (F := Ideal) m ρ c (Proc.devRef .tc KernelIdeal.main_v6) = val_main_v6 (F := Ideal) x2)
    (h_v129 : W23 (F := Ideal) m ρ c (Proc.devRef .tc KernelIdeal.main_v129) = val_main_v139 (F := Ideal) x1 x2 x4 x9 x10)
    (h_v3 : W23 (F := Ideal) m ρ c (Proc.devRef .tc KernelIdeal.main_v3) = val_main_v3 (F := Ideal) x2)
    (h_v29 : W23 (F := Ideal) m ρ c (Proc.devRef .tc KernelIdeal.main_v29) = val_main_v29 (F := Ideal) x2) :
    W24 (F := Ideal) m ρ c (Proc.devRef .tc KernelIdeal.main_v142) = val_main_v152 (F := Ideal) x1 x2 x4 x9 x10 :=
  host11_v142_of (W23 (F := Ideal) m ρ c) x1 x2 x4 x9 x10 h_v6 h_v129 h_v3 h_v29

set_option maxRecDepth 8192 in
/-- Label layer 3's bias as a `[16]` vector: row 3 of the stacked biases. -/
theorem host11_v144_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps11 (F := Ideal)) V (Proc.devRef .tc KernelIdeal.main_v144) = val_main_v138 (F := Ideal) x10 := by
  after_results_simp
  rw [h_arg10]
  rfl

/-- The same at the run's stage contents: the stretch's entry is stage 23, its exit stage 24. -/
theorem host11_v144 (c : Dev KernelIdeal.nD)
    (x10 : (⟨ReferenceIdeal.S10x16, .f32⟩ : BufTy).Contents (Elt Ideal))
    (h_arg10 : W23 (F := Ideal) m ρ c (Proc.devRef .tc KernelIdeal.main_arg10) = x10) :
    W24 (F := Ideal) m ρ c (Proc.devRef .tc KernelIdeal.main_v144) = val_main_v138 (F := Ideal) x10 :=
  host11_v144_of (W23 (F := Ideal) m ρ c) x10 h_arg10

set_option maxRecDepth 8192 in
/-- Label layer 3's bias as one `[1,16]` row: row 3 of the stacked biases, relaid. -/
theorem host11_v145_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps11 (F := Ideal)) V (Proc.devRef .tc KernelIdeal.main_v145)
      = shapeCast KernelIdeal.S1x16 (val_main_v138 (F := Ideal) x10) KernelIdeal.Facts₀.shapeCasts_S16_S1x16 := by
  after_results_simp
  rw [h_arg10]
  rfl

/-- The same at the run's stage contents: the stretch's entry is stage 23, its exit stage 24. -/
theorem host11_v145 (c : Dev KernelIdeal.nD)
    (x10 : (⟨ReferenceIdeal.S10x16, .f32⟩ : BufTy).Contents (Elt Ideal))
    (h_arg10 : W23 (F := Ideal) m ρ c (Proc.devRef .tc KernelIdeal.main_arg10) = x10) :
    W24 (F := Ideal) m ρ c (Proc.devRef .tc KernelIdeal.main_v145)
      = shapeCast KernelIdeal.S1x16 (val_main_v138 (F := Ideal) x10) KernelIdeal.Facts₀.shapeCasts_S16_S1x16 :=
  host11_v145_of (W23 (F := Ideal) m ρ c) x10 h_arg10

set_option maxRecDepth 8192 in
/-- The node mask over the 16 label columns, widened from one bit to 32-bit integers. -/
theorem host11_v146_of (V : Valuation KernelIdeal.τ KernelIdeal.sig (Elt Ideal)) :
    StableHlo.after (hostOps11 (F := Ideal)) V (Proc.devRef .tc KernelIdeal.main_v146)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 23, its exit stage 24. -/
theorem host11_v146 (c : Dev KernelIdeal.nD) :
    W24 (F := Ideal) m ρ c (Proc.devRef .tc KernelIdeal.main_v146)
      = extui 32 ((W23 (F := Ideal) m ρ c) (Proc.devRef .tc KernelIdeal.main_v63) : (⟨KernelIdeal.S100000x16, .i1⟩ : BufTy).Contents (Elt Ideal)) KernelIdeal.Facts₀.natLt_1_32 :=
  host11_v146_of (W23 (F := Ideal) m ρ c)

end Cert.KV.Host

end
-- ==== Proof.ChainL3.lean ====
/-
  Label layer 3, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg10
import proofs.«146329_j1168231104595_1_alg».proof.Proof.Reg11
import proofs.«146329_j1168231104595_1_alg».proof.Proof.HostPro
import proofs.«146329_j1168231104595_1_alg».proof.Proof.HostFeat
import proofs.«146329_j1168231104595_1_alg».proof.Proof.HostL3
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L3_w (c : Dev nD) : W22 (F := Ideal) m ρ c (Proc.devRef .tc main_v128) = Cert.ReferenceIdeal.ReadP.val_main_v136 (F := Ideal) (m ((c : Thread nD τ).loc main_arg9)) :=
  Cert.KV.Host.host10_v128 m ρ c _ (KeepA9.k21 m ρ c)

/-- The layer's linear map: the whole product of the current labels and the weight. -/
theorem L3_mm (c : Dev nD)
    (hin : W21 (F := Ideal) m ρ c (Proc.devRef .tc main_v126) = Cert.ReferenceIdeal.ReadP.val_main_v134 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W23 (F := Ideal) m ρ c (Proc.devRef .tc main_v129) = Cert.ReferenceIdeal.ReadP.val_main_v139 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W22 (F := Ideal) m ρ c (Proc.devRef .tc main_v126) = Cert.ReferenceIdeal.ReadP.val_main_v134 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W22 (F := Ideal) m ρ c (Proc.devRef .tc main_v126) = W21 (F := Ideal) m ρ c (Proc.devRef .tc main_v126) from by keep_host hostOps10).trans hin
  refine ((W23_arr m ρ c 2).trans (Reg10.final (V22 (F := Ideal) m ρ) c)).trans ?_
  show Host.dotGeneral (F := Ideal) (φ₁ := .f32) (φ₂ := .f32) Cert.ReferenceIdeal.dot_S100000x16_S16x16_S100000x16_1_0_0_1_n_n none (W22 (F := Ideal) m ρ c (Proc.devRef .tc main_v126)) (W22 (F := Ideal) m ρ c (Proc.devRef .tc main_v128)) = _
  rw [hx, L3_w m ρ c]
  rfl

/-- The layer's aggregation. -/
theorem L3_agg (c : Dev nD)
    (hin : W21 (F := Ideal) m ρ c (Proc.devRef .tc main_v126) = Cert.ReferenceIdeal.ReadP.val_main_v134 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W24 (F := Ideal) m ρ c (Proc.devRef .tc main_v142) = Cert.ReferenceIdeal.ReadP.val_main_v152 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W23 (F := Ideal) m ρ c (Proc.devRef .tc main_v3) = Cert.ReferenceIdeal.ReadP.val_main_v3 (F := Ideal) (m ((c : Thread nD τ).loc main_arg2)) := (KeepV3.k23 m ρ c).trans (Cert.KV.Host.host0_v3 m ρ c)
  have h6 : W23 (F := Ideal) m ρ c (Proc.devRef .tc main_v6) = Cert.ReferenceIdeal.ReadP.val_main_v6 (F := Ideal) (m ((c : Thread nD τ).loc main_arg2)) := (KeepV6.k23 m ρ c).trans (Cert.KV.Host.host0_v6 m ρ c)
  have h29 : W23 (F := Ideal) m ρ c (Proc.devRef .tc main_v29) = Cert.ReferenceIdeal.ReadP.val_main_v29 (F := Ideal) (m ((c : Thread nD τ).loc main_arg2)) := (KeepV29.k23 m ρ c).trans (Cert.KV.Host.host0_v29 m ρ c)
  exact Cert.KV.Host.host11_v142 m ρ c _ _ _ _ _ h6 (L3_mm m ρ c hin) h3 h29

/-- The bias row the update finds is the layer's bias vector. -/
theorem L3_brow (c : Dev nD) (q : Fin 16) :
    (V24 (F := Ideal) m ρ c (Pipeline.arrRef spec11 1) : S1x16.Idx → Elt Ideal .f32) (ix2 (0 : Fin 1) q) = (Cert.ReferenceIdeal.ReadP.val_main_v138 (F := Ideal) (m ((c : Thread nD τ).loc main_arg10))) (ix1 q) := by
  show (W24 (F := Ideal) m ρ c (Proc.devRef .tc main_v145) : S1x16.Idx → Elt Ideal .f32) (ix2 (0 : Fin 1) q) = _
  rw [Cert.KV.Host.host11_v145 m ρ c _ (KeepA10.k23 m ρ c)]
  exact Cert.KernelBody.shapeCast_row_apply _ _ q

/-- The integer mask the update finds is the mask bit of the row, widened. -/
theorem L3_mask (c : Dev nD) :
    (V24 (F := Ideal) m ρ c (Pipeline.arrRef spec11 3) : S100000x16.Idx → BitVec 32) = Cert.KV.Dense.kerMask16 (m ((c : Thread nD τ).loc main_arg4)) := by
  show (W24 (F := Ideal) m ρ c (Proc.devRef .tc main_v146) : S100000x16.Idx → BitVec 32) = _
  rw [Cert.KV.Host.host11_v146 m ρ c, (KeepV63.k23 m ρ c).trans (Cert.KV.Host.host4_v63 m ρ c _ (KeepA4.k9 m ρ c))]
  rfl

/-- The layer's output labels. -/
theorem layer3 (c : Dev nD)
    (hin : W21 (F := Ideal) m ρ c (Proc.devRef .tc main_v126) = Cert.ReferenceIdeal.ReadP.val_main_v134 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W25 (F := Ideal) m ρ c (Proc.devRef .tc main_v147) = Cert.ReferenceIdeal.ReadP.val_main_v157 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W24 (F := Ideal) m ρ c (Proc.devRef .tc main_arg1) = (m ((c : Thread nD τ).loc main_arg1)) := KeepA1.k24 m ρ c
  refine ((W25_arr m ρ c 4).trans (Reg11.final (V24 (F := Ideal) m ρ) c (Cert.ReferenceIdeal.ReadP.val_main_v138 (F := Ideal) (m ((c : Thread nD τ).loc main_arg10))) (m ((c : Thread nD τ).loc main_arg4)) (L3_brow m ρ c) (L3_mask m ρ c))).trans ?_
  show Cert.KV.Dense.refUpdate16 (W24 (F := Ideal) m ρ c (Proc.devRef .tc main_v142)) (Cert.ReferenceIdeal.ReadP.val_main_v138 (F := Ideal) (m ((c : Thread nD τ).loc main_arg10))) (W24 (F := Ideal) m ρ c (Proc.devRef .tc main_arg1)) (m ((c : Thread nD τ).loc main_arg4)) = _
  rw [L3_agg m ρ c hin, hy]
  rfl

end Cert.KernelIdeal.KV

end
-- ==== Proof.Reg12.lean ====
/-
  Region 12: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg12

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- Window 0's block at point t is rows 5000·t … 5000·t + 4999 of its array. -/
theorem iblk0_apply (c : Dev nD) (t : Fin cfg12.N) (x : S5000x16.Idx) (k : S100000x16.Idx)
    (hk0 : (k 0).val = 5000 * t.val + (x 0).val) (hk1 : (k 1).val = (x 1).val) :
    (iblk12 V c 0 t : Vec Ideal S5000x16 .f32) x = (V c (Pipeline.arrRef spec12 0) : S100000x16.Idx → Elt Ideal .f32) k := by
  obtain ⟨e0, e1, -, -, -, -⟩ := idx t
  unfold iblk12
  rw [View.read_apply]
  show (V c (Pipeline.arrRef spec12 0) : S100000x16.Idx → Elt Ideal .f32) _ = _
  congr 1
  funext a
  apply Fin.ext
  match a with
  | ⟨0, _⟩ => show win12_0.index t 0 * 5000 + 1 * (x 0).val = (k 0).val; rw [e0, hk0]; omega
  | ⟨1, _⟩ => show win12_0.index t 1 * 16 + 1 * (x 1).val = (k 1).val; rw [e1, hk1]; omega

/-- Window 1's block at every point is the whole of its (small) array. -/
theorem iblk1_apply (c : Dev nD) (t : Fin cfg12.N) (x : S16x16.Idx) :
    (iblk12 V c 1 t : Vec Ideal S16x16 .f32) x = (V c (Pipeline.arrRef spec12 1) : S16x16.Idx → Elt Ideal .f32) x := by
  obtain ⟨-, -, e0, e1, -, -⟩ := idx t
  unfold iblk12
  rw [View.read_apply]
  show (V c (Pipeline.arrRef spec12 1) : S16x16.Idx → Elt Ideal .f32) _ = _
  congr 1
  funext a
  apply Fin.ext
  match a with
  | ⟨0, _⟩ => show win12_1.index t 0 * 16 + 1 * (x 0).val = (x 0).val; rw [e0]; omega
  | ⟨1, _⟩ => show win12_1.index t 1 * 16 + 1 * (x 1).val = (x 1).val; rw [e1]; omega

/-- What point t writes back is block t of the whole-array function of the arrays as the region finds them. -/
theorem flushed_eq (c : Dev nD) (t : Fin cfg12.N) :
    (dat12 V c).flushed 2 t = ((cfg12.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec12 0) : FVec Ideal S100000x16 .f32) (V c (Pipeline.arrRef spec12 1) : FVec Ideal S16x16 .f32)) := by
  show (cfg12.win 2).cut (grid12.coords t) ((dat12 V c).after 2 t) = _
  rw [after12_2]
  unfold out12_2
  rw [View.canon_unit_zero hz]
  simp only [View.ld_unit_zero (S := S5000x16) hz, View.ld_unit_zero (S := S16x16) hz]
  obtain ⟨-, -, -, -, e0, e1⟩ := idx t
  funext j
  refine (show k12_pay1 (F := Ideal) (iblk12 V c 0 t) (iblk12 V c 1 t) j = k6_pay1 (F := Ideal) (iblk12 V c 0 t) (iblk12 V c 1 t) j from rfl).trans ?_
  refine Cert.KV.KForms.mm16_at' (V c (Pipeline.arrRef spec12 0) : FVec Ideal S100000x16 .f32) (V c (Pipeline.arrRef spec12 1) : FVec Ideal S16x16 .f32) (iblk12 V c 0 t) (iblk12 V c 1 t) t.val (fun x k h0 h1 => iblk0_apply V c t x k h0 h1) (fun x => iblk1_apply V c t x) j _ ?_ ?_
  · show win12_2.index t 0 * 5000 + 1 * (j 0).val = 5000 * t.val + (j 0).val; rw [e0]; omega
  · show win12_2.index t 1 * 16 + 1 * (j 1).val = (j 1).val; rw [e1]; omega

/-- An index of the output array is in point t's block iff each coordinate is in the block's range on its axis. -/
theorem mem_blk (t : Fin cfg12.N) (i : S100000x16.Idx) :
    i ∈ ((cfg12.win 2).blk t).view.set ↔ ∀ a : Fin 2, win12_2.index t a * S5000x16.size a ≤ (i a).val ∧ (i a).val < win12_2.index t a * S5000x16.size a + S5000x16.size a := by
  show i ∈ ((View.whole main_v150).slice (win12_2.rect t)).set ↔ _
  rw [View.set_slice_whole, Rect.mem_set_unit]
  exact Iff.rfl

/-- Every row lies in some point's block: row i in block i / 5000. -/
theorem cover (i : S100000x16.Idx) : ∃ t : Fin cfg12.N, (cfg12.win 2).flush t = true ∧ i ∈ ((cfg12.win 2).blk t).view.set := by
  have hN : cfg12.N = 20 := N_12
  have hi0 : (i 0).val < 100000 := (i 0).isLt
  have hi1 : (i 1).val < 16 := (i 1).isLt
  refine ⟨⟨(i 0).val / 5000, by rw [hN]; omega⟩, flush12_2 _, ?_⟩
  rw [mem_blk]
  obtain ⟨-, -, -, -, e0, e1⟩ := idx ⟨(i 0).val / 5000, by rw [hN]; omega⟩
  intro a
  match a with
  | ⟨0, _⟩ => show win12_2.index _ 0 * 5000 ≤ (i 0).val ∧ (i 0).val < win12_2.index _ 0 * 5000 + 5000; rw [e0]; show (i 0).val / 5000 * 5000 ≤ (i 0).val ∧ (i 0).val < (i 0).val / 5000 * 5000 + 5000; omega
  | ⟨1, _⟩ => show win12_2.index _ 1 * 16 ≤ (i 1).val ∧ (i 1).val < win12_2.index _ 1 * 16 + 16; rw [e1]; omega

/-- The output array after the region, as one function of the arrays the region finds. -/
theorem final (c : Dev nD) :
    (dat12 V c).arrAt 2 cfg12.N
      = Host.dotGeneral (F := Ideal) (φ₁ := .f32) (φ₂ := .f32) Cert.ReferenceIdeal.dot_S100000x16_S16x16_S100000x16_1_0_0_1_n_n none (V c (Pipeline.arrRef spec12 0) : FVec Ideal S100000x16 .f32) (V c (Pipeline.arrRef spec12 1) : FVec Ideal S16x16 .f32) :=
  (dat12 V c).arrAt_eq_of_cover 2 _ (fun t _ => flushed_eq V c t) (cover)

end Cert.KernelIdeal.KV.Reg12

end
-- ==== Proof.Reg13.lean ====
/-
  Region 13: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg13

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0 :=
  (by decide +kernel : ∀ t : Fin grid13.N, _)

/-- Window 0's block at point t is rows 5000·t … 5000·t + 4999 of its array. -/
theorem iblk0_apply (c : Dev nD) (t : Fin cfg13.N) (x : S5000x16.Idx) (k : S100000x16.Idx)
    (hk0 : (k 0).val = 5000 * t.val + (x 0).val) (hk1 : (k 1).val = (x 1).val) :
    (iblk13 V c 0 t : Vec Ideal S5000x16 .f32) x = (V c (Pipeline.arrRef spec13 0) : S100000x16.Idx → Elt Ideal .f32) k := by
  obtain ⟨e0, e1, -, -, -, -, -, -, -, -⟩ := idx t
  unfold iblk13
  rw [View.read_apply]
  show (V c (Pipeline.arrRef spec13 0) : S100000x16.Idx → Elt Ideal .f32) _ = _
  congr 1
  funext a
  apply Fin.ext
  match a with
  | ⟨0, _⟩ => show win13_0.index t 0 * 5000 + 1 * (x 0).val = (k 0).val; rw [e0, hk0]; omega
  | ⟨1, _⟩ => show win13_0.index t 1 * 16 + 1 * (x 1).val = (k 1).val; rw [e1, hk1]; omega

/-- Window 1's block at every point is the whole of its (small) array. -/
theorem iblk1_apply (c : Dev nD) (t : Fin cfg13.N) (x : S1x16.Idx) :
    (iblk13 V c 1 t : Vec Ideal S1x16 .f32) x = (V c (Pipeline.arrRef spec13 1) : S1x16.Idx → Elt Ideal .f32) x := by
  obtain ⟨-, -, e0, e1, -, -, -, -, -, -⟩ := idx t
  unfold iblk13
  rw [View.read_apply]
  show (V c (Pipeline.arrRef spec13 1) : S1x16.Idx → Elt Ideal .f32) _ = _
  congr 1
  funext a
  apply Fin.ext
  match a with
  | ⟨0, _⟩ => show win13_1.index t 0 * 1 + 1 * (x 0).val = (x 0).val; rw [e0]; omega
  | ⟨1, _⟩ => show win13_1.index t 1 * 16 + 1 * (x 1).val = (x 1).val; rw [e1]; omega

/-- Window 2's block at point t is rows 5000·t … 5000·t + 4999 of its array. -/
theorem iblk2_apply (c : Dev nD) (t : Fin cfg13.N) (x : S5000x16.Idx) (k : S100000x16.Idx)
    (hk0 : (k 0).val = 5000 * t.val + (x 0).val) (hk1 : (k 1).val = (x 1).val) :
    (iblk13 V c 2 t : Vec Ideal S5000x16 .f32) x = (V c (Pipeline.arrRef spec13 2) : S100000x16.Idx → Elt Ideal .f32) k := by
  obtain ⟨-, -, -, -, e0, e1, -, -, -, -⟩ := idx t
  unfold iblk13
  rw [View.read_apply]
  show (V c (Pipeline.arrRef spec13 2) : S100000x16.Idx → Elt Ideal .f32) _ = _
  congr 1
  funext a
  apply Fin.ext
  match a with
  | ⟨0, _⟩ => show win13_2.index t 0 * 5000 + 1 * (x 0).val = (k 0).val; rw [e0, hk0]; omega
  | ⟨1, _⟩ => show win13_2.index t 1 * 16 + 1 * (x 1).val = (k 1).val; rw [e1, hk1]; omega

/-- Window 3's block at point t is rows 5000·t … 5000·t + 4999 of its array. -/
theorem iblk3_apply (c : Dev nD) (t : Fin cfg13.N) (x : S5000x16.Idx) (k : S100000x16.Idx)
    (hk0 : (k 0).val = 5000 * t.val + (x 0).val) (hk1 : (k 1).val = (x 1).val) :
    (iblk13 V c 3 t : Vec Ideal S5000x16 .i32) x = (V c (Pipeline.arrRef spec13 3) : S100000x16.Idx → Elt Ideal .i32) k := by
  obtain ⟨-, -, -, -, -, -, e0, e1, -, -⟩ := idx t
  unfold iblk13
  rw [View.read_apply]
  show (V c (Pipeline.arrRef spec13 3) : S100000x16.Idx → Elt Ideal .i32) _ = _
  congr 1
  funext a
  apply Fin.ext
  match a with
  | ⟨0, _⟩ => show win13_3.index t 0 * 5000 + 1 * (x 0).val = (k 0).val; rw [e0, hk0]; omega
  | ⟨1, _⟩ => show win13_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec13 1) : S1x16.Idx → Elt Ideal .f32) (ix2 (0 : Fin 1) q) = b (ix1 q))
    (hm : (V c (Pipeline.arrRef spec13 3) : S100000x16.Idx → BitVec 32) = Cert.KV.Dense.kerMask16 mask) (t : Fin cfg13.N) :
    (dat13 V c).flushed 4 t = ((cfg13.win 4).blk t).view.read (Elt Ideal)
      (Cert.KV.Dense.refUpdate16 (V c (Pipeline.arrRef spec13 0) : FVec Ideal S100000x16 .f32) b (V c (Pipeline.arrRef spec13 2) : FVec Ideal S100000x16 .f32) mask) := by
  show (cfg13.win 4).cut (grid13.coords t) ((dat13 V c).after 4 t) = _
  rw [after13_4]
  unfold out13_4
  rw [View.canon_unit_zero hz]
  simp only [View.ld_unit_zero (S := S5000x16) hz, View.ld_unit_zero (S := S1x16) hz]
  obtain ⟨-, -, -, -, -, -, -, -, e0, e1⟩ := idx t
  funext j
  refine (show k13_pay1 (F := Ideal) (iblk13 V c 0 t) (iblk13 V c 1 t) (iblk13 V c 3 t) (iblk13 V c 2 t) j = k5_pay1 (F := Ideal) (iblk13 V c 0 t) (iblk13 V c 1 t) (iblk13 V c 3 t) (iblk13 V c 2 t) j from rfl).trans ?_
  refine Cert.KV.Dense.update16_at (V c (Pipeline.arrRef spec13 0) : FVec Ideal S100000x16 .f32) b (V c (Pipeline.arrRef spec13 2) : FVec Ideal S100000x16 .f32) mask (iblk13 V c 0 t) (iblk13 V c 1 t) (iblk13 V c 3 t) (iblk13 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win13_4.index t 0 * 5000 + 1 * (j 0).val = 5000 * t.val + (j 0).val; rw [e0]; omega
  · show win13_4.index t 1 * 16 + 1 * (j 1).val = (j 1).val; rw [e1]; omega

/-- An index of the output array is in point t's block iff each coordinate is in the block's range on its axis. -/
theorem mem_blk (t : Fin cfg13.N) (i : S100000x16.Idx) :
    i ∈ ((cfg13.win 4).blk t).view.set ↔ ∀ a : Fin 2, win13_4.index t a * S5000x16.size a ≤ (i a).val ∧ (i a).val < win13_4.index t a * S5000x16.size a + S5000x16.size a := by
  show i ∈ ((View.whole main_v168).slice (win13_4.rect t)).set ↔ _
  rw [View.set_slice_whole, Rect.mem_set_unit]
  exact Iff.rfl

/-- Every row lies in some point's block: row i in block i / 5000. -/
theorem cover (i : S100000x16.Idx) : ∃ t : Fin cfg13.N, (cfg13.win 4).flush t = true ∧ i ∈ ((cfg13.win 4).blk t).view.set := by
  have hN : cfg13.N = 20 := N_13
  have hi0 : (i 0).val < 100000 := (i 0).isLt
  have hi1 : (i 1).val < 16 := (i 1).isLt
  refine ⟨⟨(i 0).val / 5000, by rw [hN]; omega⟩, flush13_4 _, ?_⟩
  rw [mem_blk]
  obtain ⟨-, -, -, -, -, -, -, -, e0, e1⟩ := idx ⟨(i 0).val / 5000, by rw [hN]; omega⟩
  intro a
  match a with
  | ⟨0, _⟩ => show win13_4.index _ 0 * 5000 ≤ (i 0).val ∧ (i 0).val < win13_4.index _ 0 * 5000 + 5000; rw [e0]; show (i 0).val / 5000 * 5000 ≤ (i 0).val ∧ (i 0).val < (i 0).val / 5000 * 5000 + 5000; omega
  | ⟨1, _⟩ => show win13_4.index _ 1 * 16 ≤ (i 1).val ∧ (i 1).val < win13_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec13 1) : S1x16.Idx → Elt Ideal .f32) (ix2 (0 : Fin 1) q) = b (ix1 q))
    (hm : (V c (Pipeline.arrRef spec13 3) : S100000x16.Idx → BitVec 32) = Cert.KV.Dense.kerMask16 mask) :
    (dat13 V c).arrAt 4 cfg13.N
      = Cert.KV.Dense.refUpdate16 (V c (Pipeline.arrRef spec13 0) : FVec Ideal S100000x16 .f32) b (V c (Pipeline.arrRef spec13 2) : FVec Ideal S100000x16 .f32) mask :=
  (dat13 V c).arrAt_eq_of_cover 4 _ (fun t _ => flushed_eq V c b mask hb hm t) (cover)

end Cert.KernelIdeal.KV.Reg13

end
-- ==== Proof.HostL4.lean ====
/-
Host stretches of label layer 4: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 4's `[16,16]` weight: slab 4 of the stacked weights. -/
theorem host12_v149_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps12 (F := Ideal)) V (Proc.devRef .tc KernelIdeal.main_v149) = val_main_v159 (F := Ideal) x9 := by
  after_results_simp
  rw [h_arg9]
  rfl

/-- The same at the run's stage contents: the stretch's entry is stage 25, its exit stage 26. -/
theorem host12_v149 (c : Dev KernelIdeal.nD)
    (x9 : (⟨ReferenceIdeal.S10x16x16, .f32⟩ : BufTy).Contents (Elt Ideal))
    (h_arg9 : W25 (F := Ideal) m ρ c (Proc.devRef .tc KernelIdeal.main_arg9) = x9) :
    W26 (F := Ideal) m ρ c (Proc.devRef .tc KernelIdeal.main_v149) = val_main_v159 (F := Ideal) x9 :=
  host12_v149_of (W25 (F := Ideal) m ρ c) x9 h_arg9

set_option maxRecDepth 8192 in
/-- Label layer 4, aggregation. With the stretch's inputs at the reference's stages (the projected labels, the two edge-endpoint columns, the edge weights), its scatter-add result is the reference's: each edge's source row is gathered, scaled by the edge weight and added into the destination row. -/
theorem host13_v163_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v150 : V (Proc.devRef .tc KernelIdeal.main_v150) = val_main_v162 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps13 (F := Ideal)) V (Proc.devRef .tc KernelIdeal.main_v163) = val_main_v175 (F := Ideal) x1 x2 x4 x9 x10 := by
  after_results_simp
  rw [h_v6, h_v150, h_v3, h_v29]
  rfl

/-- The same at the run's stage contents: the stretch's entry is stage 27, its exit stage 28. -/
theorem host13_v163 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W27 (F := Ideal) m ρ c (Proc.devRef .tc KernelIdeal.main_v6) = val_main_v6 (F := Ideal) x2)
    (h_v150 : W27 (F := Ideal) m ρ c (Proc.devRef .tc KernelIdeal.main_v150) = val_main_v162 (F := Ideal) x1 x2 x4 x9 x10)
    (h_v3 : W27 (F := Ideal) m ρ c (Proc.devRef .tc KernelIdeal.main_v3) = val_main_v3 (F := Ideal) x2)
    (h_v29 : W27 (F := Ideal) m ρ c (Proc.devRef .tc KernelIdeal.main_v29) = val_main_v29 (F := Ideal) x2) :
    W28 (F := Ideal) m ρ c (Proc.devRef .tc KernelIdeal.main_v163) = val_main_v175 (F := Ideal) x1 x2 x4 x9 x10 :=
  host13_v163_of (W27 (F := Ideal) m ρ c) x1 x2 x4 x9 x10 h_v6 h_v150 h_v3 h_v29

set_option maxRecDepth 8192 in
/-- Label layer 4's bias as a `[16]` vector: row 4 of the stacked biases. -/
theorem host13_v165_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps13 (F := Ideal)) V (Proc.devRef .tc KernelIdeal.main_v165) = val_main_v161 (F := Ideal) x10 := by
  after_results_simp
  rw [h_arg10]
  rfl

/-- The same at the run's stage contents: the stretch's entry is stage 27, its exit stage 28. -/
theorem host13_v165 (c : Dev KernelIdeal.nD)
    (x10 : (⟨ReferenceIdeal.S10x16, .f32⟩ : BufTy).Contents (Elt Ideal))
    (h_arg10 : W27 (F := Ideal) m ρ c (Proc.devRef .tc KernelIdeal.main_arg10) = x10) :
    W28 (F := Ideal) m ρ c (Proc.devRef .tc KernelIdeal.main_v165) = val_main_v161 (F := Ideal) x10 :=
  host13_v165_of (W27 (F := Ideal) m ρ c) x10 h_arg10

set_option maxRecDepth 8192 in
/-- Label layer 4's bias as one `[1,16]` row: row 4 of the stacked biases, relaid. -/
theorem host13_v166_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps13 (F := Ideal)) V (Proc.devRef .tc KernelIdeal.main_v166)
      = shapeCast KernelIdeal.S1x16 (val_main_v161 (F := Ideal) x10) KernelIdeal.Facts₀.shapeCasts_S16_S1x16 := by
  after_results_simp
  rw [h_arg10]
  rfl

/-- The same at the run's stage contents: the stretch's entry is stage 27, its exit stage 28. -/
theorem host13_v166 (c : Dev KernelIdeal.nD)
    (x10 : (⟨ReferenceIdeal.S10x16, .f32⟩ : BufTy).Contents (Elt Ideal))
    (h_arg10 : W27 (F := Ideal) m ρ c (Proc.devRef .tc KernelIdeal.main_arg10) = x10) :
    W28 (F := Ideal) m ρ c (Proc.devRef .tc KernelIdeal.main_v166)
      = shapeCast KernelIdeal.S1x16 (val_main_v161 (F := Ideal) x10) KernelIdeal.Facts₀.shapeCasts_S16_S1x16 :=
  host13_v166_of (W27 (F := Ideal) m ρ c) x10 h_arg10

set_option maxRecDepth 8192 in
/-- The node mask over the 16 label columns, widened from one bit to 32-bit integers. -/
theorem host13_v167_of (V : Valuation KernelIdeal.τ KernelIdeal.sig (Elt Ideal)) :
    StableHlo.after (hostOps13 (F := Ideal)) V (Proc.devRef .tc KernelIdeal.main_v167)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 27, its exit stage 28. -/
theorem host13_v167 (c : Dev KernelIdeal.nD) :
    W28 (F := Ideal) m ρ c (Proc.devRef .tc KernelIdeal.main_v167)
      = extui 32 ((W27 (F := Ideal) m ρ c) (Proc.devRef .tc KernelIdeal.main_v63) : (⟨KernelIdeal.S100000x16, .i1⟩ : BufTy).Contents (Elt Ideal)) KernelIdeal.Facts₀.natLt_1_32 :=
  host13_v167_of (W27 (F := Ideal) m ρ c)

end Cert.KV.Host

end
-- ==== Proof.ChainL4.lean ====
/-
  Label layer 4, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg12
import proofs.«146329_j1168231104595_1_alg».proof.Proof.Reg13
import proofs.«146329_j1168231104595_1_alg».proof.Proof.HostPro
import proofs.«146329_j1168231104595_1_alg».proof.Proof.HostFeat
import proofs.«146329_j1168231104595_1_alg».proof.Proof.HostL4
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L4_w (c : Dev nD) : W26 (F := Ideal) m ρ c (Proc.devRef .tc main_v149) = Cert.ReferenceIdeal.ReadP.val_main_v159 (F := Ideal) (m ((c : Thread nD τ).loc main_arg9)) :=
  Cert.KV.Host.host12_v149 m ρ c _ (KeepA9.k25 m ρ c)

/-- The layer's linear map: the whole product of the current labels and the weight. -/
theorem L4_mm (c : Dev nD)
    (hin : W25 (F := Ideal) m ρ c (Proc.devRef .tc main_v147) = Cert.ReferenceIdeal.ReadP.val_main_v157 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W27 (F := Ideal) m ρ c (Proc.devRef .tc main_v150) = Cert.ReferenceIdeal.ReadP.val_main_v162 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W26 (F := Ideal) m ρ c (Proc.devRef .tc main_v147) = Cert.ReferenceIdeal.ReadP.val_main_v157 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W26 (F := Ideal) m ρ c (Proc.devRef .tc main_v147) = W25 (F := Ideal) m ρ c (Proc.devRef .tc main_v147) from by keep_host hostOps12).trans hin
  refine ((W27_arr m ρ c 2).trans (Reg12.final (V26 (F := Ideal) m ρ) c)).trans ?_
  show Host.dotGeneral (F := Ideal) (φ₁ := .f32) (φ₂ := .f32) Cert.ReferenceIdeal.dot_S100000x16_S16x16_S100000x16_1_0_0_1_n_n none (W26 (F := Ideal) m ρ c (Proc.devRef .tc main_v147)) (W26 (F := Ideal) m ρ c (Proc.devRef .tc main_v149)) = _
  rw [hx, L4_w m ρ c]
  rfl

/-- The layer's aggregation. -/
theorem L4_agg (c : Dev nD)
    (hin : W25 (F := Ideal) m ρ c (Proc.devRef .tc main_v147) = Cert.ReferenceIdeal.ReadP.val_main_v157 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W28 (F := Ideal) m ρ c (Proc.devRef .tc main_v163) = Cert.ReferenceIdeal.ReadP.val_main_v175 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W27 (F := Ideal) m ρ c (Proc.devRef .tc main_v3) = Cert.ReferenceIdeal.ReadP.val_main_v3 (F := Ideal) (m ((c : Thread nD τ).loc main_arg2)) := (KeepV3.k27 m ρ c).trans (Cert.KV.Host.host0_v3 m ρ c)
  have h6 : W27 (F := Ideal) m ρ c (Proc.devRef .tc main_v6) = Cert.ReferenceIdeal.ReadP.val_main_v6 (F := Ideal) (m ((c : Thread nD τ).loc main_arg2)) := (KeepV6.k27 m ρ c).trans (Cert.KV.Host.host0_v6 m ρ c)
  have h29 : W27 (F := Ideal) m ρ c (Proc.devRef .tc main_v29) = Cert.ReferenceIdeal.ReadP.val_main_v29 (F := Ideal) (m ((c : Thread nD τ).loc main_arg2)) := (KeepV29.k27 m ρ c).trans (Cert.KV.Host.host0_v29 m ρ c)
  exact Cert.KV.Host.host13_v163 m ρ c _ _ _ _ _ h6 (L4_mm m ρ c hin) h3 h29

/-- The bias row the update finds is the layer's bias vector. -/
theorem L4_brow (c : Dev nD) (q : Fin 16) :
    (V28 (F := Ideal) m ρ c (Pipeline.arrRef spec13 1) : S1x16.Idx → Elt Ideal .f32) (ix2 (0 : Fin 1) q) = (Cert.ReferenceIdeal.ReadP.val_main_v161 (F := Ideal) (m ((c : Thread nD τ).loc main_arg10))) (ix1 q) := by
  show (W28 (F := Ideal) m ρ c (Proc.devRef .tc main_v166) : S1x16.Idx → Elt Ideal .f32) (ix2 (0 : Fin 1) q) = _
  rw [Cert.KV.Host.host13_v166 m ρ c _ (KeepA10.k27 m ρ c)]
  exact Cert.KernelBody.shapeCast_row_apply _ _ q

/-- The integer mask the update finds is the mask bit of the row, widened. -/
theorem L4_mask (c : Dev nD) :
    (V28 (F := Ideal) m ρ c (Pipeline.arrRef spec13 3) : S100000x16.Idx → BitVec 32) = Cert.KV.Dense.kerMask16 (m ((c : Thread nD τ).loc main_arg4)) := by
  show (W28 (F := Ideal) m ρ c (Proc.devRef .tc main_v167) : S100000x16.Idx → BitVec 32) = _
  rw [Cert.KV.Host.host13_v167 m ρ c, (KeepV63.k27 m ρ c).trans (Cert.KV.Host.host4_v63 m ρ c _ (KeepA4.k9 m ρ c))]
  rfl

/-- The layer's output labels. -/
theorem layer4 (c : Dev nD)
    (hin : W25 (F := Ideal) m ρ c (Proc.devRef .tc main_v147) = Cert.ReferenceIdeal.ReadP.val_main_v157 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W29 (F := Ideal) m ρ c (Proc.devRef .tc main_v168) = Cert.ReferenceIdeal.ReadP.val_main_v180 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W28 (F := Ideal) m ρ c (Proc.devRef .tc main_arg1) = (m ((c : Thread nD τ).loc main_arg1)) := KeepA1.k28 m ρ c
  refine ((W29_arr m ρ c 4).trans (Reg13.final (V28 (F := Ideal) m ρ) c (Cert.ReferenceIdeal.ReadP.val_main_v161 (F := Ideal) (m ((c : Thread nD τ).loc main_arg10))) (m ((c : Thread nD τ).loc main_arg4)) (L4_brow m ρ c) (L4_mask m ρ c))).trans ?_
  show Cert.KV.Dense.refUpdate16 (W28 (F := Ideal) m ρ c (Proc.devRef .tc main_v163)) (Cert.ReferenceIdeal.ReadP.val_main_v161 (F := Ideal) (m ((c : Thread nD τ).loc main_arg10))) (W28 (F := Ideal) m ρ c (Proc.devRef .tc main_arg1)) (m ((c : Thread nD τ).loc main_arg4)) = _
  rw [L4_agg m ρ c hin, hy]
  rfl

end Cert.KernelIdeal.KV

end
-- ==== Proof.Reg14.lean ====
/-
  Region 14: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg14

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- Window 0's block at point t is rows 5000·t … 5000·t + 4999 of its array. -/
theorem iblk0_apply (c : Dev nD) (t : Fin cfg14.N) (x : S5000x16.Idx) (k : S100000x16.Idx)
    (hk0 : (k 0).val = 5000 * t.val + (x 0).val) (hk1 : (k 1).val = (x 1).val) :
    (iblk14 V c 0 t : Vec Ideal S5000x16 .f32) x = (V c (Pipeline.arrRef spec14 0) : S100000x16.Idx → Elt Ideal .f32) k := by
  obtain ⟨e0, e1, -, -, -, -⟩ := idx t
  unfold iblk14
  rw [View.read_apply]
  show (V c (Pipeline.arrRef spec14 0) : S100000x16.Idx → Elt Ideal .f32) _ = _
  congr 1
  funext a
  apply Fin.ext
  match a with
  | ⟨0, _⟩ => show win14_0.index t 0 * 5000 + 1 * (x 0).val = (k 0).val; rw [e0, hk0]; omega
  | ⟨1, _⟩ => show win14_0.index t 1 * 16 + 1 * (x 1).val = (k 1).val; rw [e1, hk1]; omega

/-- Window 1's block at every point is the whole of its (small) array. -/
theorem iblk1_apply (c : Dev nD) (t : Fin cfg14.N) (x : S16x16.Idx) :
    (iblk14 V c 1 t : Vec Ideal S16x16 .f32) x = (V c (Pipeline.arrRef spec14 1) : S16x16.Idx → Elt Ideal .f32) x := by
  obtain ⟨-, -, e0, e1, -, -⟩ := idx t
  unfold iblk14
  rw [View.read_apply]
  show (V c (Pipeline.arrRef spec14 1) : S16x16.Idx → Elt Ideal .f32) _ = _
  congr 1
  funext a
  apply Fin.ext
  match a with
  | ⟨0, _⟩ => show win14_1.index t 0 * 16 + 1 * (x 0).val = (x 0).val; rw [e0]; omega
  | ⟨1, _⟩ => show win14_1.index t 1 * 16 + 1 * (x 1).val = (x 1).val; rw [e1]; omega

/-- What point t writes back is block t of the whole-array function of the arrays as the region finds them. -/
theorem flushed_eq (c : Dev nD) (t : Fin cfg14.N) :
    (dat14 V c).flushed 2 t = ((cfg14.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec14 0) : FVec Ideal S100000x16 .f32) (V c (Pipeline.arrRef spec14 1) : FVec Ideal S16x16 .f32)) := by
  show (cfg14.win 2).cut (grid14.coords t) ((dat14 V c).after 2 t) = _
  rw [after14_2]
  unfold out14_2
  rw [View.canon_unit_zero hz]
  simp only [View.ld_unit_zero (S := S5000x16) hz, View.ld_unit_zero (S := S16x16) hz]
  obtain ⟨-, -, -, -, e0, e1⟩ := idx t
  funext j
  refine (show k14_pay1 (F := Ideal) (iblk14 V c 0 t) (iblk14 V c 1 t) j = k6_pay1 (F := Ideal) (iblk14 V c 0 t) (iblk14 V c 1 t) j from rfl).trans ?_
  refine Cert.KV.KForms.mm16_at' (V c (Pipeline.arrRef spec14 0) : FVec Ideal S100000x16 .f32) (V c (Pipeline.arrRef spec14 1) : FVec Ideal S16x16 .f32) (iblk14 V c 0 t) (iblk14 V c 1 t) t.val (fun x k h0 h1 => iblk0_apply V c t x k h0 h1) (fun x => iblk1_apply V c t x) j _ ?_ ?_
  · show win14_2.index t 0 * 5000 + 1 * (j 0).val = 5000 * t.val + (j 0).val; rw [e0]; omega
  · show win14_2.index t 1 * 16 + 1 * (j 1).val = (j 1).val; rw [e1]; omega

/-- An index of the output array is in point t's block iff each coordinate is in the block's range on its axis. -/
theorem mem_blk (t : Fin cfg14.N) (i : S100000x16.Idx) :
    i ∈ ((cfg14.win 2).blk t).view.set ↔ ∀ a : Fin 2, win14_2.index t a * S5000x16.size a ≤ (i a).val ∧ (i a).val < win14_2.index t a * S5000x16.size a + S5000x16.size a := by
  show i ∈ ((View.whole main_v171).slice (win14_2.rect t)).set ↔ _
  rw [View.set_slice_whole, Rect.mem_set_unit]
  exact Iff.rfl

/-- Every row lies in some point's block: row i in block i / 5000. -/
theorem cover (i : S100000x16.Idx) : ∃ t : Fin cfg14.N, (cfg14.win 2).flush t = true ∧ i ∈ ((cfg14.win 2).blk t).view.set := by
  have hN : cfg14.N = 20 := N_14
  have hi0 : (i 0).val < 100000 := (i 0).isLt
  have hi1 : (i 1).val < 16 := (i 1).isLt
  refine ⟨⟨(i 0).val / 5000, by rw [hN]; omega⟩, flush14_2 _, ?_⟩
  rw [mem_blk]
  obtain ⟨-, -, -, -, e0, e1⟩ := idx ⟨(i 0).val / 5000, by rw [hN]; omega⟩
  intro a
  match a with
  | ⟨0, _⟩ => show win14_2.index _ 0 * 5000 ≤ (i 0).val ∧ (i 0).val < win14_2.index _ 0 * 5000 + 5000; rw [e0]; show (i 0).val / 5000 * 5000 ≤ (i 0).val ∧ (i 0).val < (i 0).val / 5000 * 5000 + 5000; omega
  | ⟨1, _⟩ => show win14_2.index _ 1 * 16 ≤ (i 1).val ∧ (i 1).val < win14_2.index _ 1 * 16 + 16; rw [e1]; omega

/-- The output array after the region, as one function of the arrays the region finds. -/
theorem final (c : Dev nD) :
    (dat14 V c).arrAt 2 cfg14.N
      = Host.dotGeneral (F := Ideal) (φ₁ := .f32) (φ₂ := .f32) Cert.ReferenceIdeal.dot_S100000x16_S16x16_S100000x16_1_0_0_1_n_n none (V c (Pipeline.arrRef spec14 0) : FVec Ideal S100000x16 .f32) (V c (Pipeline.arrRef spec14 1) : FVec Ideal S16x16 .f32) :=
  (dat14 V c).arrAt_eq_of_cover 2 _ (fun t _ => flushed_eq V c t) (cover)

end Cert.KernelIdeal.KV.Reg14

end
-- ==== Proof.Reg15.lean ====
/-
  Region 15: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg15

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0
    ∧ win15_4.index t (0 : Fin 2) = t.val ∧ win15_4.index t (1 : Fin 2) = 0 :=
  (by decide +kernel : ∀ t : Fin grid15.N, _)

/-- Window 0's block at point t is rows 5000·t … 5000·t + 4999 of its array. -/
theorem iblk0_apply (c : Dev nD) (t : Fin cfg15.N) (x : S5000x16.Idx) (k : S100000x16.Idx)
    (hk0 : (k 0).val = 5000 * t.val + (x 0).val) (hk1 : (k 1).val = (x 1).val) :
    (iblk15 V c 0 t : Vec Ideal S5000x16 .f32) x = (V c (Pipeline.arrRef spec15 0) : S100000x16.Idx → Elt Ideal .f32) k := by
  obtain ⟨e0, e1, -, -, -, -, -, -, -, -⟩ := idx t
  unfold iblk15
  rw [View.read_apply]
  show (V c (Pipeline.arrRef spec15 0) : S100000x16.Idx → Elt Ideal .f32) _ = _
  congr 1
  funext a
  apply Fin.ext
  match a with
  | ⟨0, _⟩ => show win15_0.index t 0 * 5000 + 1 * (x 0).val = (k 0).val; rw [e0, hk0]; omega
  | ⟨1, _⟩ => show win15_0.index t 1 * 16 + 1 * (x 1).val = (k 1).val; rw [e1, hk1]; omega

/-- Window 1's block at every point is the whole of its (small) array. -/
theorem iblk1_apply (c : Dev nD) (t : Fin cfg15.N) (x : S1x16.Idx) :
    (iblk15 V c 1 t : Vec Ideal S1x16 .f32) x = (V c (Pipeline.arrRef spec15 1) : S1x16.Idx → Elt Ideal .f32) x := by
  obtain ⟨-, -, e0, e1, -, -, -, -, -, -⟩ := idx t
  unfold iblk15
  rw [View.read_apply]
  show (V c (Pipeline.arrRef spec15 1) : S1x16.Idx → Elt Ideal .f32) _ = _
  congr 1
  funext a
  apply Fin.ext
  match a with
  | ⟨0, _⟩ => show win15_1.index t 0 * 1 + 1 * (x 0).val = (x 0).val; rw [e0]; omega
  | ⟨1, _⟩ => show win15_1.index t 1 * 16 + 1 * (x 1).val = (x 1).val; rw [e1]; omega

/-- Window 2's block at point t is rows 5000·t … 5000·t + 4999 of its array. -/
theorem iblk2_apply (c : Dev nD) (t : Fin cfg15.N) (x : S5000x16.Idx) (k : S100000x16.Idx)
    (hk0 : (k 0).val = 5000 * t.val + (x 0).val) (hk1 : (k 1).val = (x 1).val) :
    (iblk15 V c 2 t : Vec Ideal S5000x16 .f32) x = (V c (Pipeline.arrRef spec15 2) : S100000x16.Idx → Elt Ideal .f32) k := by
  obtain ⟨-, -, -, -, e0, e1, -, -, -, -⟩ := idx t
  unfold iblk15
  rw [View.read_apply]
  show (V c (Pipeline.arrRef spec15 2) : S100000x16.Idx → Elt Ideal .f32) _ = _
  congr 1
  funext a
  apply Fin.ext
  match a with
  | ⟨0, _⟩ => show win15_2.index t 0 * 5000 + 1 * (x 0).val = (k 0).val; rw [e0, hk0]; omega
  | ⟨1, _⟩ => show win15_2.index t 1 * 16 + 1 * (x 1).val = (k 1).val; rw [e1, hk1]; omega

/-- Window 3's block at point t is rows 5000·t … 5000·t + 4999 of its array. -/
theorem iblk3_apply (c : Dev nD) (t : Fin cfg15.N) (x : S5000x16.Idx) (k : S100000x16.Idx)
    (hk0 : (k 0).val = 5000 * t.val + (x 0).val) (hk1 : (k 1).val = (x 1).val) :
    (iblk15 V c 3 t : Vec Ideal S5000x16 .i32) x = (V c (Pipeline.arrRef spec15 3) : S100000x16.Idx → Elt Ideal .i32) k := by
  obtain ⟨-, -, -, -, -, -, e0, e1, -, -⟩ := idx t
  unfold iblk15
  rw [View.read_apply]
  show (V c (Pipeline.arrRef spec15 3) : S100000x16.Idx → Elt Ideal .i32) _ = _
  congr 1
  funext a
  apply Fin.ext
  match a with
  | ⟨0, _⟩ => show win15_3.index t 0 * 5000 + 1 * (x 0).val = (k 0).val; rw [e0, hk0]; omega
  | ⟨1, _⟩ => show win15_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec15 1) : S1x16.Idx → Elt Ideal .f32) (ix2 (0 : Fin 1) q) = b (ix1 q))
    (hm : (V c (Pipeline.arrRef spec15 3) : S100000x16.Idx → BitVec 32) = Cert.KV.Dense.kerMask16 mask) (t : Fin cfg15.N) :
    (dat15 V c).flushed 4 t = ((cfg15.win 4).blk t).view.read (Elt Ideal)
      (Cert.KV.Dense.refUpdate16 (V c (Pipeline.arrRef spec15 0) : FVec Ideal S100000x16 .f32) b (V c (Pipeline.arrRef spec15 2) : FVec Ideal S100000x16 .f32) mask) := by
  show (cfg15.win 4).cut (grid15.coords t) ((dat15 V c).after 4 t) = _
  rw [after15_4]
  unfold out15_4
  rw [View.canon_unit_zero hz]
  simp only [View.ld_unit_zero (S := S5000x16) hz, View.ld_unit_zero (S := S1x16) hz]
  obtain ⟨-, -, -, -, -, -, -, -, e0, e1⟩ := idx t
  funext j
  refine (show k15_pay1 (F := Ideal) (iblk15 V c 0 t) (iblk15 V c 1 t) (iblk15 V c 3 t) (iblk15 V c 2 t) j = k5_pay1 (F := Ideal) (iblk15 V c 0 t) (iblk15 V c 1 t) (iblk15 V c 3 t) (iblk15 V c 2 t) j from rfl).trans ?_
  refine Cert.KV.Dense.update16_at (V c (Pipeline.arrRef spec15 0) : FVec Ideal S100000x16 .f32) b (V c (Pipeline.arrRef spec15 2) : FVec Ideal S100000x16 .f32) mask (iblk15 V c 0 t) (iblk15 V c 1 t) (iblk15 V c 3 t) (iblk15 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win15_4.index t 0 * 5000 + 1 * (j 0).val = 5000 * t.val + (j 0).val; rw [e0]; omega
  · show win15_4.index t 1 * 16 + 1 * (j 1).val = (j 1).val; rw [e1]; omega

/-- An index of the output array is in point t's block iff each coordinate is in the block's range on its axis. -/
theorem mem_blk (t : Fin cfg15.N) (i : S100000x16.Idx) :
    i ∈ ((cfg15.win 4).blk t).view.set ↔ ∀ a : Fin 2, win15_4.index t a * S5000x16.size a ≤ (i a).val ∧ (i a).val < win15_4.index t a * S5000x16.size a + S5000x16.size a := by
  show i ∈ ((View.whole main_v189).slice (win15_4.rect t)).set ↔ _
  rw [View.set_slice_whole, Rect.mem_set_unit]
  exact Iff.rfl

/-- Every row lies in some point's block: row i in block i / 5000. -/
theorem cover (i : S100000x16.Idx) : ∃ t : Fin cfg15.N, (cfg15.win 4).flush t = true ∧ i ∈ ((cfg15.win 4).blk t).view.set := by
  have hN : cfg15.N = 20 := N_15
  have hi0 : (i 0).val < 100000 := (i 0).isLt
  have hi1 : (i 1).val < 16 := (i 1).isLt
  refine ⟨⟨(i 0).val / 5000, by rw [hN]; omega⟩, flush15_4 _, ?_⟩
  rw [mem_blk]
  obtain ⟨-, -, -, -, -, -, -, -, e0, e1⟩ := idx ⟨(i 0).val / 5000, by rw [hN]; omega⟩
  intro a
  match a with
  | ⟨0, _⟩ => show win15_4.index _ 0 * 5000 ≤ (i 0).val ∧ (i 0).val < win15_4.index _ 0 * 5000 + 5000; rw [e0]; show (i 0).val / 5000 * 5000 ≤ (i 0).val ∧ (i 0).val < (i 0).val / 5000 * 5000 + 5000; omega
  | ⟨1, _⟩ => show win15_4.index _ 1 * 16 ≤ (i 1).val ∧ (i 1).val < win15_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec15 1) : S1x16.Idx → Elt Ideal .f32) (ix2 (0 : Fin 1) q) = b (ix1 q))
    (hm : (V c (Pipeline.arrRef spec15 3) : S100000x16.Idx → BitVec 32) = Cert.KV.Dense.kerMask16 mask) :
    (dat15 V c).arrAt 4 cfg15.N
      = Cert.KV.Dense.refUpdate16 (V c (Pipeline.arrRef spec15 0) : FVec Ideal S100000x16 .f32) b (V c (Pipeline.arrRef spec15 2) : FVec Ideal S100000x16 .f32) mask :=
  (dat15 V c).arrAt_eq_of_cover 4 _ (fun t _ => flushed_eq V c b mask hb hm t) (cover)

end Cert.KernelIdeal.KV.Reg15

end
-- ==== Proof.HostL5.lean ====
/-
Host stretches of label layer 5: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 5's `[16,16]` weight: slab 5 of the stacked weights. -/
theorem host14_v170_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps14 (F := Ideal)) V (Proc.devRef .tc KernelIdeal.main_v170) = val_main_v182 (F := Ideal) x9 := by
  after_results_simp
  rw [h_arg9]
  rfl

/-- The same at the run's stage contents: the stretch's entry is stage 29, its exit stage 30. -/
theorem host14_v170 (c : Dev KernelIdeal.nD)
    (x9 : (⟨ReferenceIdeal.S10x16x16, .f32⟩ : BufTy).Contents (Elt Ideal))
    (h_arg9 : W29 (F := Ideal) m ρ c (Proc.devRef .tc KernelIdeal.main_arg9) = x9) :
    W30 (F := Ideal) m ρ c (Proc.devRef .tc KernelIdeal.main_v170) = val_main_v182 (F := Ideal) x9 :=
  host14_v170_of (W29 (F := Ideal) m ρ c) x9 h_arg9

set_option maxRecDepth 8192 in
/-- Label layer 5, aggregation. With the stretch's inputs at the reference's stages (the projected labels, the two edge-endpoint columns, the edge weights), its scatter-add result is the reference's: each edge's source row is gathered, scaled by the edge weight and added into the destination row. -/
theorem host15_v184_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v171 : V (Proc.devRef .tc KernelIdeal.main_v171) = val_main_v185 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps15 (F := Ideal)) V (Proc.devRef .tc KernelIdeal.main_v184) = val_main_v198 (F := Ideal) x1 x2 x4 x9 x10 := by
  after_results_simp
  rw [h_v6, h_v171, h_v3, h_v29]
  rfl

/-- The same at the run's stage contents: the stretch's entry is stage 31, its exit stage 32. -/
theorem host15_v184 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W31 (F := Ideal) m ρ c (Proc.devRef .tc KernelIdeal.main_v6) = val_main_v6 (F := Ideal) x2)
    (h_v171 : W31 (F := Ideal) m ρ c (Proc.devRef .tc KernelIdeal.main_v171) = val_main_v185 (F := Ideal) x1 x2 x4 x9 x10)
    (h_v3 : W31 (F := Ideal) m ρ c (Proc.devRef .tc KernelIdeal.main_v3) = val_main_v3 (F := Ideal) x2)
    (h_v29 : W31 (F := Ideal) m ρ c (Proc.devRef .tc KernelIdeal.main_v29) = val_main_v29 (F := Ideal) x2) :
    W32 (F := Ideal) m ρ c (Proc.devRef .tc KernelIdeal.main_v184) = val_main_v198 (F := Ideal) x1 x2 x4 x9 x10 :=
  host15_v184_of (W31 (F := Ideal) m ρ c) x1 x2 x4 x9 x10 h_v6 h_v171 h_v3 h_v29

set_option maxRecDepth 8192 in
/-- Label layer 5's bias as a `[16]` vector: row 5 of the stacked biases. -/
theorem host15_v186_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps15 (F := Ideal)) V (Proc.devRef .tc KernelIdeal.main_v186) = val_main_v184 (F := Ideal) x10 := by
  after_results_simp
  rw [h_arg10]
  rfl

/-- The same at the run's stage contents: the stretch's entry is stage 31, its exit stage 32. -/
theorem host15_v186 (c : Dev KernelIdeal.nD)
    (x10 : (⟨ReferenceIdeal.S10x16, .f32⟩ : BufTy).Contents (Elt Ideal))
    (h_arg10 : W31 (F := Ideal) m ρ c (Proc.devRef .tc KernelIdeal.main_arg10) = x10) :
    W32 (F := Ideal) m ρ c (Proc.devRef .tc KernelIdeal.main_v186) = val_main_v184 (F := Ideal) x10 :=
  host15_v186_of (W31 (F := Ideal) m ρ c) x10 h_arg10

set_option maxRecDepth 8192 in
/-- Label layer 5's bias as one `[1,16]` row: row 5 of the stacked biases, relaid. -/
theorem host15_v187_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps15 (F := Ideal)) V (Proc.devRef .tc KernelIdeal.main_v187)
      = shapeCast KernelIdeal.S1x16 (val_main_v184 (F := Ideal) x10) KernelIdeal.Facts₀.shapeCasts_S16_S1x16 := by
  after_results_simp
  rw [h_arg10]
  rfl

/-- The same at the run's stage contents: the stretch's entry is stage 31, its exit stage 32. -/
theorem host15_v187 (c : Dev KernelIdeal.nD)
    (x10 : (⟨ReferenceIdeal.S10x16, .f32⟩ : BufTy).Contents (Elt Ideal))
    (h_arg10 : W31 (F := Ideal) m ρ c (Proc.devRef .tc KernelIdeal.main_arg10) = x10) :
    W32 (F := Ideal) m ρ c (Proc.devRef .tc KernelIdeal.main_v187)
      = shapeCast KernelIdeal.S1x16 (val_main_v184 (F := Ideal) x10) KernelIdeal.Facts₀.shapeCasts_S16_S1x16 :=
  host15_v187_of (W31 (F := Ideal) m ρ c) x10 h_arg10

set_option maxRecDepth 8192 in
/-- The node mask over the 16 label columns, widened from one bit to 32-bit integers. -/
theorem host15_v188_of (V : Valuation KernelIdeal.τ KernelIdeal.sig (Elt Ideal)) :
    StableHlo.after (hostOps15 (F := Ideal)) V (Proc.devRef .tc KernelIdeal.main_v188)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 31, its exit stage 32. -/
theorem host15_v188 (c : Dev KernelIdeal.nD) :
    W32 (F := Ideal) m ρ c (Proc.devRef .tc KernelIdeal.main_v188)
      = extui 32 ((W31 (F := Ideal) m ρ c) (Proc.devRef .tc KernelIdeal.main_v63) : (⟨KernelIdeal.S100000x16, .i1⟩ : BufTy).Contents (Elt Ideal)) KernelIdeal.Facts₀.natLt_1_32 :=
  host15_v188_of (W31 (F := Ideal) m ρ c)

end Cert.KV.Host

end
-- ==== Proof.ChainL5.lean ====
/-
  Label layer 5, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg14
import proofs.«146329_j1168231104595_1_alg».proof.Proof.Reg15
import proofs.«146329_j1168231104595_1_alg».proof.Proof.HostPro
import proofs.«146329_j1168231104595_1_alg».proof.Proof.HostFeat
import proofs.«146329_j1168231104595_1_alg».proof.Proof.HostL5
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L5_w (c : Dev nD) : W30 (F := Ideal) m ρ c (Proc.devRef .tc main_v170) = Cert.ReferenceIdeal.ReadP.val_main_v182 (F := Ideal) (m ((c : Thread nD τ).loc main_arg9)) :=
  Cert.KV.Host.host14_v170 m ρ c _ (KeepA9.k29 m ρ c)

/-- The layer's linear map: the whole product of the current labels and the weight. -/
theorem L5_mm (c : Dev nD)
    (hin : W29 (F := Ideal) m ρ c (Proc.devRef .tc main_v168) = Cert.ReferenceIdeal.ReadP.val_main_v180 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W31 (F := Ideal) m ρ c (Proc.devRef .tc main_v171) = Cert.ReferenceIdeal.ReadP.val_main_v185 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W30 (F := Ideal) m ρ c (Proc.devRef .tc main_v168) = Cert.ReferenceIdeal.ReadP.val_main_v180 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W30 (F := Ideal) m ρ c (Proc.devRef .tc main_v168) = W29 (F := Ideal) m ρ c (Proc.devRef .tc main_v168) from by keep_host hostOps14).trans hin
  refine ((W31_arr m ρ c 2).trans (Reg14.final (V30 (F := Ideal) m ρ) c)).trans ?_
  show Host.dotGeneral (F := Ideal) (φ₁ := .f32) (φ₂ := .f32) Cert.ReferenceIdeal.dot_S100000x16_S16x16_S100000x16_1_0_0_1_n_n none (W30 (F := Ideal) m ρ c (Proc.devRef .tc main_v168)) (W30 (F := Ideal) m ρ c (Proc.devRef .tc main_v170)) = _
  rw [hx, L5_w m ρ c]
  rfl

/-- The layer's aggregation. -/
theorem L5_agg (c : Dev nD)
    (hin : W29 (F := Ideal) m ρ c (Proc.devRef .tc main_v168) = Cert.ReferenceIdeal.ReadP.val_main_v180 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W32 (F := Ideal) m ρ c (Proc.devRef .tc main_v184) = Cert.ReferenceIdeal.ReadP.val_main_v198 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W31 (F := Ideal) m ρ c (Proc.devRef .tc main_v3) = Cert.ReferenceIdeal.ReadP.val_main_v3 (F := Ideal) (m ((c : Thread nD τ).loc main_arg2)) := (KeepV3.k31 m ρ c).trans (Cert.KV.Host.host0_v3 m ρ c)
  have h6 : W31 (F := Ideal) m ρ c (Proc.devRef .tc main_v6) = Cert.ReferenceIdeal.ReadP.val_main_v6 (F := Ideal) (m ((c : Thread nD τ).loc main_arg2)) := (KeepV6.k31 m ρ c).trans (Cert.KV.Host.host0_v6 m ρ c)
  have h29 : W31 (F := Ideal) m ρ c (Proc.devRef .tc main_v29) = Cert.ReferenceIdeal.ReadP.val_main_v29 (F := Ideal) (m ((c : Thread nD τ).loc main_arg2)) := (KeepV29.k31 m ρ c).trans (Cert.KV.Host.host0_v29 m ρ c)
  exact Cert.KV.Host.host15_v184 m ρ c _ _ _ _ _ h6 (L5_mm m ρ c hin) h3 h29

/-- The bias row the update finds is the layer's bias vector. -/
theorem L5_brow (c : Dev nD) (q : Fin 16) :
    (V32 (F := Ideal) m ρ c (Pipeline.arrRef spec15 1) : S1x16.Idx → Elt Ideal .f32) (ix2 (0 : Fin 1) q) = (Cert.ReferenceIdeal.ReadP.val_main_v184 (F := Ideal) (m ((c : Thread nD τ).loc main_arg10))) (ix1 q) := by
  show (W32 (F := Ideal) m ρ c (Proc.devRef .tc main_v187) : S1x16.Idx → Elt Ideal .f32) (ix2 (0 : Fin 1) q) = _
  rw [Cert.KV.Host.host15_v187 m ρ c _ (KeepA10.k31 m ρ c)]
  exact Cert.KernelBody.shapeCast_row_apply _ _ q

/-- The integer mask the update finds is the mask bit of the row, widened. -/
theorem L5_mask (c : Dev nD) :
    (V32 (F := Ideal) m ρ c (Pipeline.arrRef spec15 3) : S100000x16.Idx → BitVec 32) = Cert.KV.Dense.kerMask16 (m ((c : Thread nD τ).loc main_arg4)) := by
  show (W32 (F := Ideal) m ρ c (Proc.devRef .tc main_v188) : S100000x16.Idx → BitVec 32) = _
  rw [Cert.KV.Host.host15_v188 m ρ c, (KeepV63.k31 m ρ c).trans (Cert.KV.Host.host4_v63 m ρ c _ (KeepA4.k9 m ρ c))]
  rfl

/-- The layer's output labels. -/
theorem layer5 (c : Dev nD)
    (hin : W29 (F := Ideal) m ρ c (Proc.devRef .tc main_v168) = Cert.ReferenceIdeal.ReadP.val_main_v180 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W33 (F := Ideal) m ρ c (Proc.devRef .tc main_v189) = Cert.ReferenceIdeal.ReadP.val_main_v203 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W32 (F := Ideal) m ρ c (Proc.devRef .tc main_arg1) = (m ((c : Thread nD τ).loc main_arg1)) := KeepA1.k32 m ρ c
  refine ((W33_arr m ρ c 4).trans (Reg15.final (V32 (F := Ideal) m ρ) c (Cert.ReferenceIdeal.ReadP.val_main_v184 (F := Ideal) (m ((c : Thread nD τ).loc main_arg10))) (m ((c : Thread nD τ).loc main_arg4)) (L5_brow m ρ c) (L5_mask m ρ c))).trans ?_
  show Cert.KV.Dense.refUpdate16 (W32 (F := Ideal) m ρ c (Proc.devRef .tc main_v184)) (Cert.ReferenceIdeal.ReadP.val_main_v184 (F := Ideal) (m ((c : Thread nD τ).loc main_arg10))) (W32 (F := Ideal) m ρ c (Proc.devRef .tc main_arg1)) (m ((c : Thread nD τ).loc main_arg4)) = _
  rw [L5_agg m ρ c hin, hy]
  rfl

end Cert.KernelIdeal.KV

end
-- ==== Proof.Reg16.lean ====
/-
  Region 16: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg16

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0 :=
  (by decide +kernel : ∀ t : Fin grid16.N, _)

/-- Window 0's block at point t is rows 5000·t … 5000·t + 4999 of its array. -/
theorem iblk0_apply (c : Dev nD) (t : Fin cfg16.N) (x : S5000x16.Idx) (k : S100000x16.Idx)
    (hk0 : (k 0).val = 5000 * t.val + (x 0).val) (hk1 : (k 1).val = (x 1).val) :
    (iblk16 V c 0 t : Vec Ideal S5000x16 .f32) x = (V c (Pipeline.arrRef spec16 0) : S100000x16.Idx → Elt Ideal .f32) k := by
  obtain ⟨e0, e1, -, -, -, -⟩ := idx t
  unfold iblk16
  rw [View.read_apply]
  show (V c (Pipeline.arrRef spec16 0) : S100000x16.Idx → Elt Ideal .f32) _ = _
  congr 1
  funext a
  apply Fin.ext
  match a with
  | ⟨0, _⟩ => show win16_0.index t 0 * 5000 + 1 * (x 0).val = (k 0).val; rw [e0, hk0]; omega
  | ⟨1, _⟩ => show win16_0.index t 1 * 16 + 1 * (x 1).val = (k 1).val; rw [e1, hk1]; omega

/-- Window 1's block at every point is the whole of its (small) array. -/
theorem iblk1_apply (c : Dev nD) (t : Fin cfg16.N) (x : S16x16.Idx) :
    (iblk16 V c 1 t : Vec Ideal S16x16 .f32) x = (V c (Pipeline.arrRef spec16 1) : S16x16.Idx → Elt Ideal .f32) x := by
  obtain ⟨-, -, e0, e1, -, -⟩ := idx t
  unfold iblk16
  rw [View.read_apply]
  show (V c (Pipeline.arrRef spec16 1) : S16x16.Idx → Elt Ideal .f32) _ = _
  congr 1
  funext a
  apply Fin.ext
  match a with
  | ⟨0, _⟩ => show win16_1.index t 0 * 16 + 1 * (x 0).val = (x 0).val; rw [e0]; omega
  | ⟨1, _⟩ => show win16_1.index t 1 * 16 + 1 * (x 1).val = (x 1).val; rw [e1]; omega

/-- What point t writes back is block t of the whole-array function of the arrays as the region finds them. -/
theorem flushed_eq (c : Dev nD) (t : Fin cfg16.N) :
    (dat16 V c).flushed 2 t = ((cfg16.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec16 0) : FVec Ideal S100000x16 .f32) (V c (Pipeline.arrRef spec16 1) : FVec Ideal S16x16 .f32)) := by
  show (cfg16.win 2).cut (grid16.coords t) ((dat16 V c).after 2 t) = _
  rw [after16_2]
  unfold out16_2
  rw [View.canon_unit_zero hz]
  simp only [View.ld_unit_zero (S := S5000x16) hz, View.ld_unit_zero (S := S16x16) hz]
  obtain ⟨-, -, -, -, e0, e1⟩ := idx t
  funext j
  refine (show k16_pay1 (F := Ideal) (iblk16 V c 0 t) (iblk16 V c 1 t) j = k6_pay1 (F := Ideal) (iblk16 V c 0 t) (iblk16 V c 1 t) j from rfl).trans ?_
  refine Cert.KV.KForms.mm16_at' (V c (Pipeline.arrRef spec16 0) : FVec Ideal S100000x16 .f32) (V c (Pipeline.arrRef spec16 1) : FVec Ideal S16x16 .f32) (iblk16 V c 0 t) (iblk16 V c 1 t) t.val (fun x k h0 h1 => iblk0_apply V c t x k h0 h1) (fun x => iblk1_apply V c t x) j _ ?_ ?_
  · show win16_2.index t 0 * 5000 + 1 * (j 0).val = 5000 * t.val + (j 0).val; rw [e0]; omega
  · show win16_2.index t 1 * 16 + 1 * (j 1).val = (j 1).val; rw [e1]; omega

/-- An index of the output array is in point t's block iff each coordinate is in the block's range on its axis. -/
theorem mem_blk (t : Fin cfg16.N) (i : S100000x16.Idx) :
    i ∈ ((cfg16.win 2).blk t).view.set ↔ ∀ a : Fin 2, win16_2.index t a * S5000x16.size a ≤ (i a).val ∧ (i a).val < win16_2.index t a * S5000x16.size a + S5000x16.size a := by
  show i ∈ ((View.whole main_v192).slice (win16_2.rect t)).set ↔ _
  rw [View.set_slice_whole, Rect.mem_set_unit]
  exact Iff.rfl

/-- Every row lies in some point's block: row i in block i / 5000. -/
theorem cover (i : S100000x16.Idx) : ∃ t : Fin cfg16.N, (cfg16.win 2).flush t = true ∧ i ∈ ((cfg16.win 2).blk t).view.set := by
  have hN : cfg16.N = 20 := N_16
  have hi0 : (i 0).val < 100000 := (i 0).isLt
  have hi1 : (i 1).val < 16 := (i 1).isLt
  refine ⟨⟨(i 0).val / 5000, by rw [hN]; omega⟩, flush16_2 _, ?_⟩
  rw [mem_blk]
  obtain ⟨-, -, -, -, e0, e1⟩ := idx ⟨(i 0).val / 5000, by rw [hN]; omega⟩
  intro a
  match a with
  | ⟨0, _⟩ => show win16_2.index _ 0 * 5000 ≤ (i 0).val ∧ (i 0).val < win16_2.index _ 0 * 5000 + 5000; rw [e0]; show (i 0).val / 5000 * 5000 ≤ (i 0).val ∧ (i 0).val < (i 0).val / 5000 * 5000 + 5000; omega
  | ⟨1, _⟩ => show win16_2.index _ 1 * 16 ≤ (i 1).val ∧ (i 1).val < win16_2.index _ 1 * 16 + 16; rw [e1]; omega

/-- The output array after the region, as one function of the arrays the region finds. -/
theorem final (c : Dev nD) :
    (dat16 V c).arrAt 2 cfg16.N
      = Host.dotGeneral (F := Ideal) (φ₁ := .f32) (φ₂ := .f32) Cert.ReferenceIdeal.dot_S100000x16_S16x16_S100000x16_1_0_0_1_n_n none (V c (Pipeline.arrRef spec16 0) : FVec Ideal S100000x16 .f32) (V c (Pipeline.arrRef spec16 1) : FVec Ideal S16x16 .f32) :=
  (dat16 V c).arrAt_eq_of_cover 2 _ (fun t _ => flushed_eq V c t) (cover)

end Cert.KernelIdeal.KV.Reg16

end
-- ==== Proof.Reg17.lean ====
/-
  Region 17: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg17

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0
    ∧ win17_4.index t (0 : Fin 2) = t.val ∧ win17_4.index t (1 : Fin 2) = 0 :=
  (by decide +kernel : ∀ t : Fin grid17.N, _)

/-- Window 0's block at point t is rows 5000·t … 5000·t + 4999 of its array. -/
theorem iblk0_apply (c : Dev nD) (t : Fin cfg17.N) (x : S5000x16.Idx) (k : S100000x16.Idx)
    (hk0 : (k 0).val = 5000 * t.val + (x 0).val) (hk1 : (k 1).val = (x 1).val) :
    (iblk17 V c 0 t : Vec Ideal S5000x16 .f32) x = (V c (Pipeline.arrRef spec17 0) : S100000x16.Idx → Elt Ideal .f32) k := by
  obtain ⟨e0, e1, -, -, -, -, -, -, -, -⟩ := idx t
  unfold iblk17
  rw [View.read_apply]
  show (V c (Pipeline.arrRef spec17 0) : S100000x16.Idx → Elt Ideal .f32) _ = _
  congr 1
  funext a
  apply Fin.ext
  match a with
  | ⟨0, _⟩ => show win17_0.index t 0 * 5000 + 1 * (x 0).val = (k 0).val; rw [e0, hk0]; omega
  | ⟨1, _⟩ => show win17_0.index t 1 * 16 + 1 * (x 1).val = (k 1).val; rw [e1, hk1]; omega

/-- Window 1's block at every point is the whole of its (small) array. -/
theorem iblk1_apply (c : Dev nD) (t : Fin cfg17.N) (x : S1x16.Idx) :
    (iblk17 V c 1 t : Vec Ideal S1x16 .f32) x = (V c (Pipeline.arrRef spec17 1) : S1x16.Idx → Elt Ideal .f32) x := by
  obtain ⟨-, -, e0, e1, -, -, -, -, -, -⟩ := idx t
  unfold iblk17
  rw [View.read_apply]
  show (V c (Pipeline.arrRef spec17 1) : S1x16.Idx → Elt Ideal .f32) _ = _
  congr 1
  funext a
  apply Fin.ext
  match a with
  | ⟨0, _⟩ => show win17_1.index t 0 * 1 + 1 * (x 0).val = (x 0).val; rw [e0]; omega
  | ⟨1, _⟩ => show win17_1.index t 1 * 16 + 1 * (x 1).val = (x 1).val; rw [e1]; omega

/-- Window 2's block at point t is rows 5000·t … 5000·t + 4999 of its array. -/
theorem iblk2_apply (c : Dev nD) (t : Fin cfg17.N) (x : S5000x16.Idx) (k : S100000x16.Idx)
    (hk0 : (k 0).val = 5000 * t.val + (x 0).val) (hk1 : (k 1).val = (x 1).val) :
    (iblk17 V c 2 t : Vec Ideal S5000x16 .f32) x = (V c (Pipeline.arrRef spec17 2) : S100000x16.Idx → Elt Ideal .f32) k := by
  obtain ⟨-, -, -, -, e0, e1, -, -, -, -⟩ := idx t
  unfold iblk17
  rw [View.read_apply]
  show (V c (Pipeline.arrRef spec17 2) : S100000x16.Idx → Elt Ideal .f32) _ = _
  congr 1
  funext a
  apply Fin.ext
  match a with
  | ⟨0, _⟩ => show win17_2.index t 0 * 5000 + 1 * (x 0).val = (k 0).val; rw [e0, hk0]; omega
  | ⟨1, _⟩ => show win17_2.index t 1 * 16 + 1 * (x 1).val = (k 1).val; rw [e1, hk1]; omega

/-- Window 3's block at point t is rows 5000·t … 5000·t + 4999 of its array. -/
theorem iblk3_apply (c : Dev nD) (t : Fin cfg17.N) (x : S5000x16.Idx) (k : S100000x16.Idx)
    (hk0 : (k 0).val = 5000 * t.val + (x 0).val) (hk1 : (k 1).val = (x 1).val) :
    (iblk17 V c 3 t : Vec Ideal S5000x16 .i32) x = (V c (Pipeline.arrRef spec17 3) : S100000x16.Idx → Elt Ideal .i32) k := by
  obtain ⟨-, -, -, -, -, -, e0, e1, -, -⟩ := idx t
  unfold iblk17
  rw [View.read_apply]
  show (V c (Pipeline.arrRef spec17 3) : S100000x16.Idx → Elt Ideal .i32) _ = _
  congr 1
  funext a
  apply Fin.ext
  match a with
  | ⟨0, _⟩ => show win17_3.index t 0 * 5000 + 1 * (x 0).val = (k 0).val; rw [e0, hk0]; omega
  | ⟨1, _⟩ => show win17_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec17 1) : S1x16.Idx → Elt Ideal .f32) (ix2 (0 : Fin 1) q) = b (ix1 q))
    (hm : (V c (Pipeline.arrRef spec17 3) : S100000x16.Idx → BitVec 32) = Cert.KV.Dense.kerMask16 mask) (t : Fin cfg17.N) :
    (dat17 V c).flushed 4 t = ((cfg17.win 4).blk t).view.read (Elt Ideal)
      (Cert.KV.Dense.refUpdate16 (V c (Pipeline.arrRef spec17 0) : FVec Ideal S100000x16 .f32) b (V c (Pipeline.arrRef spec17 2) : FVec Ideal S100000x16 .f32) mask) := by
  show (cfg17.win 4).cut (grid17.coords t) ((dat17 V c).after 4 t) = _
  rw [after17_4]
  unfold out17_4
  rw [View.canon_unit_zero hz]
  simp only [View.ld_unit_zero (S := S5000x16) hz, View.ld_unit_zero (S := S1x16) hz]
  obtain ⟨-, -, -, -, -, -, -, -, e0, e1⟩ := idx t
  funext j
  refine (show k17_pay1 (F := Ideal) (iblk17 V c 0 t) (iblk17 V c 1 t) (iblk17 V c 3 t) (iblk17 V c 2 t) j = k5_pay1 (F := Ideal) (iblk17 V c 0 t) (iblk17 V c 1 t) (iblk17 V c 3 t) (iblk17 V c 2 t) j from rfl).trans ?_
  refine Cert.KV.Dense.update16_at (V c (Pipeline.arrRef spec17 0) : FVec Ideal S100000x16 .f32) b (V c (Pipeline.arrRef spec17 2) : FVec Ideal S100000x16 .f32) mask (iblk17 V c 0 t) (iblk17 V c 1 t) (iblk17 V c 3 t) (iblk17 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win17_4.index t 0 * 5000 + 1 * (j 0).val = 5000 * t.val + (j 0).val; rw [e0]; omega
  · show win17_4.index t 1 * 16 + 1 * (j 1).val = (j 1).val; rw [e1]; omega

/-- An index of the output array is in point t's block iff each coordinate is in the block's range on its axis. -/
theorem mem_blk (t : Fin cfg17.N) (i : S100000x16.Idx) :
    i ∈ ((cfg17.win 4).blk t).view.set ↔ ∀ a : Fin 2, win17_4.index t a * S5000x16.size a ≤ (i a).val ∧ (i a).val < win17_4.index t a * S5000x16.size a + S5000x16.size a := by
  show i ∈ ((View.whole main_v210).slice (win17_4.rect t)).set ↔ _
  rw [View.set_slice_whole, Rect.mem_set_unit]
  exact Iff.rfl

/-- Every row lies in some point's block: row i in block i / 5000. -/
theorem cover (i : S100000x16.Idx) : ∃ t : Fin cfg17.N, (cfg17.win 4).flush t = true ∧ i ∈ ((cfg17.win 4).blk t).view.set := by
  have hN : cfg17.N = 20 := N_17
  have hi0 : (i 0).val < 100000 := (i 0).isLt
  have hi1 : (i 1).val < 16 := (i 1).isLt
  refine ⟨⟨(i 0).val / 5000, by rw [hN]; omega⟩, flush17_4 _, ?_⟩
  rw [mem_blk]
  obtain ⟨-, -, -, -, -, -, -, -, e0, e1⟩ := idx ⟨(i 0).val / 5000, by rw [hN]; omega⟩
  intro a
  match a with
  | ⟨0, _⟩ => show win17_4.index _ 0 * 5000 ≤ (i 0).val ∧ (i 0).val < win17_4.index _ 0 * 5000 + 5000; rw [e0]; show (i 0).val / 5000 * 5000 ≤ (i 0).val ∧ (i 0).val < (i 0).val / 5000 * 5000 + 5000; omega
  | ⟨1, _⟩ => show win17_4.index _ 1 * 16 ≤ (i 1).val ∧ (i 1).val < win17_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec17 1) : S1x16.Idx → Elt Ideal .f32) (ix2 (0 : Fin 1) q) = b (ix1 q))
    (hm : (V c (Pipeline.arrRef spec17 3) : S100000x16.Idx → BitVec 32) = Cert.KV.Dense.kerMask16 mask) :
    (dat17 V c).arrAt 4 cfg17.N
      = Cert.KV.Dense.refUpdate16 (V c (Pipeline.arrRef spec17 0) : FVec Ideal S100000x16 .f32) b (V c (Pipeline.arrRef spec17 2) : FVec Ideal S100000x16 .f32) mask :=
  (dat17 V c).arrAt_eq_of_cover 4 _ (fun t _ => flushed_eq V c b mask hb hm t) (cover)

end Cert.KernelIdeal.KV.Reg17

end
-- ==== Proof.HostL6.lean ====
/-
Host stretches of label layer 6: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 6's `[16,16]` weight: slab 6 of the stacked weights. -/
theorem host16_v191_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps16 (F := Ideal)) V (Proc.devRef .tc KernelIdeal.main_v191) = val_main_v205 (F := Ideal) x9 := by
  after_results_simp
  rw [h_arg9]
  rfl

/-- The same at the run's stage contents: the stretch's entry is stage 33, its exit stage 34. -/
theorem host16_v191 (c : Dev KernelIdeal.nD)
    (x9 : (⟨ReferenceIdeal.S10x16x16, .f32⟩ : BufTy).Contents (Elt Ideal))
    (h_arg9 : W33 (F := Ideal) m ρ c (Proc.devRef .tc KernelIdeal.main_arg9) = x9) :
    W34 (F := Ideal) m ρ c (Proc.devRef .tc KernelIdeal.main_v191) = val_main_v205 (F := Ideal) x9 :=
  host16_v191_of (W33 (F := Ideal) m ρ c) x9 h_arg9

set_option maxRecDepth 8192 in
/-- Label layer 6, aggregation. With the stretch's inputs at the reference's stages (the projected labels, the two edge-endpoint columns, the edge weights), its scatter-add result is the reference's: each edge's source row is gathered, scaled by the edge weight and added into the destination row. -/
theorem host17_v205_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v192 : V (Proc.devRef .tc KernelIdeal.main_v192) = val_main_v208 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps17 (F := Ideal)) V (Proc.devRef .tc KernelIdeal.main_v205) = val_main_v221 (F := Ideal) x1 x2 x4 x9 x10 := by
  after_results_simp
  rw [h_v6, h_v192, h_v3, h_v29]
  rfl

/-- The same at the run's stage contents: the stretch's entry is stage 35, its exit stage 36. -/
theorem host17_v205 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W35 (F := Ideal) m ρ c (Proc.devRef .tc KernelIdeal.main_v6) = val_main_v6 (F := Ideal) x2)
    (h_v192 : W35 (F := Ideal) m ρ c (Proc.devRef .tc KernelIdeal.main_v192) = val_main_v208 (F := Ideal) x1 x2 x4 x9 x10)
    (h_v3 : W35 (F := Ideal) m ρ c (Proc.devRef .tc KernelIdeal.main_v3) = val_main_v3 (F := Ideal) x2)
    (h_v29 : W35 (F := Ideal) m ρ c (Proc.devRef .tc KernelIdeal.main_v29) = val_main_v29 (F := Ideal) x2) :
    W36 (F := Ideal) m ρ c (Proc.devRef .tc KernelIdeal.main_v205) = val_main_v221 (F := Ideal) x1 x2 x4 x9 x10 :=
  host17_v205_of (W35 (F := Ideal) m ρ c) x1 x2 x4 x9 x10 h_v6 h_v192 h_v3 h_v29

set_option maxRecDepth 8192 in
/-- Label layer 6's bias as a `[16]` vector: row 6 of the stacked biases. -/
theorem host17_v207_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps17 (F := Ideal)) V (Proc.devRef .tc KernelIdeal.main_v207) = val_main_v207 (F := Ideal) x10 := by
  after_results_simp
  rw [h_arg10]
  rfl

/-- The same at the run's stage contents: the stretch's entry is stage 35, its exit stage 36. -/
theorem host17_v207 (c : Dev KernelIdeal.nD)
    (x10 : (⟨ReferenceIdeal.S10x16, .f32⟩ : BufTy).Contents (Elt Ideal))
    (h_arg10 : W35 (F := Ideal) m ρ c (Proc.devRef .tc KernelIdeal.main_arg10) = x10) :
    W36 (F := Ideal) m ρ c (Proc.devRef .tc KernelIdeal.main_v207) = val_main_v207 (F := Ideal) x10 :=
  host17_v207_of (W35 (F := Ideal) m ρ c) x10 h_arg10

set_option maxRecDepth 8192 in
/-- Label layer 6's bias as one `[1,16]` row: row 6 of the stacked biases, relaid. -/
theorem host17_v208_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps17 (F := Ideal)) V (Proc.devRef .tc KernelIdeal.main_v208)
      = shapeCast KernelIdeal.S1x16 (val_main_v207 (F := Ideal) x10) KernelIdeal.Facts₀.shapeCasts_S16_S1x16 := by
  after_results_simp
  rw [h_arg10]
  rfl

/-- The same at the run's stage contents: the stretch's entry is stage 35, its exit stage 36. -/
theorem host17_v208 (c : Dev KernelIdeal.nD)
    (x10 : (⟨ReferenceIdeal.S10x16, .f32⟩ : BufTy).Contents (Elt Ideal))
    (h_arg10 : W35 (F := Ideal) m ρ c (Proc.devRef .tc KernelIdeal.main_arg10) = x10) :
    W36 (F := Ideal) m ρ c (Proc.devRef .tc KernelIdeal.main_v208)
      = shapeCast KernelIdeal.S1x16 (val_main_v207 (F := Ideal) x10) KernelIdeal.Facts₀.shapeCasts_S16_S1x16 :=
  host17_v208_of (W35 (F := Ideal) m ρ c) x10 h_arg10

set_option maxRecDepth 8192 in
/-- The node mask over the 16 label columns, widened from one bit to 32-bit integers. -/
theorem host17_v209_of (V : Valuation KernelIdeal.τ KernelIdeal.sig (Elt Ideal)) :
    StableHlo.after (hostOps17 (F := Ideal)) V (Proc.devRef .tc KernelIdeal.main_v209)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 35, its exit stage 36. -/
theorem host17_v209 (c : Dev KernelIdeal.nD) :
    W36 (F := Ideal) m ρ c (Proc.devRef .tc KernelIdeal.main_v209)
      = extui 32 ((W35 (F := Ideal) m ρ c) (Proc.devRef .tc KernelIdeal.main_v63) : (⟨KernelIdeal.S100000x16, .i1⟩ : BufTy).Contents (Elt Ideal)) KernelIdeal.Facts₀.natLt_1_32 :=
  host17_v209_of (W35 (F := Ideal) m ρ c)

end Cert.KV.Host

end
-- ==== Proof.ChainL6.lean ====
/-
  Label layer 6, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg16
import proofs.«146329_j1168231104595_1_alg».proof.Proof.Reg17
import proofs.«146329_j1168231104595_1_alg».proof.Proof.HostPro
import proofs.«146329_j1168231104595_1_alg».proof.Proof.HostFeat
import proofs.«146329_j1168231104595_1_alg».proof.Proof.HostL6
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L6_w (c : Dev nD) : W34 (F := Ideal) m ρ c (Proc.devRef .tc main_v191) = Cert.ReferenceIdeal.ReadP.val_main_v205 (F := Ideal) (m ((c : Thread nD τ).loc main_arg9)) :=
  Cert.KV.Host.host16_v191 m ρ c _ (KeepA9.k33 m ρ c)

/-- The layer's linear map: the whole product of the current labels and the weight. -/
theorem L6_mm (c : Dev nD)
    (hin : W33 (F := Ideal) m ρ c (Proc.devRef .tc main_v189) = Cert.ReferenceIdeal.ReadP.val_main_v203 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W35 (F := Ideal) m ρ c (Proc.devRef .tc main_v192) = Cert.ReferenceIdeal.ReadP.val_main_v208 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W34 (F := Ideal) m ρ c (Proc.devRef .tc main_v189) = Cert.ReferenceIdeal.ReadP.val_main_v203 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W34 (F := Ideal) m ρ c (Proc.devRef .tc main_v189) = W33 (F := Ideal) m ρ c (Proc.devRef .tc main_v189) from by keep_host hostOps16).trans hin
  refine ((W35_arr m ρ c 2).trans (Reg16.final (V34 (F := Ideal) m ρ) c)).trans ?_
  show Host.dotGeneral (F := Ideal) (φ₁ := .f32) (φ₂ := .f32) Cert.ReferenceIdeal.dot_S100000x16_S16x16_S100000x16_1_0_0_1_n_n none (W34 (F := Ideal) m ρ c (Proc.devRef .tc main_v189)) (W34 (F := Ideal) m ρ c (Proc.devRef .tc main_v191)) = _
  rw [hx, L6_w m ρ c]
  rfl

/-- The layer's aggregation. -/
theorem L6_agg (c : Dev nD)
    (hin : W33 (F := Ideal) m ρ c (Proc.devRef .tc main_v189) = Cert.ReferenceIdeal.ReadP.val_main_v203 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W36 (F := Ideal) m ρ c (Proc.devRef .tc main_v205) = Cert.ReferenceIdeal.ReadP.val_main_v221 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W35 (F := Ideal) m ρ c (Proc.devRef .tc main_v3) = Cert.ReferenceIdeal.ReadP.val_main_v3 (F := Ideal) (m ((c : Thread nD τ).loc main_arg2)) := (KeepV3.k35 m ρ c).trans (Cert.KV.Host.host0_v3 m ρ c)
  have h6 : W35 (F := Ideal) m ρ c (Proc.devRef .tc main_v6) = Cert.ReferenceIdeal.ReadP.val_main_v6 (F := Ideal) (m ((c : Thread nD τ).loc main_arg2)) := (KeepV6.k35 m ρ c).trans (Cert.KV.Host.host0_v6 m ρ c)
  have h29 : W35 (F := Ideal) m ρ c (Proc.devRef .tc main_v29) = Cert.ReferenceIdeal.ReadP.val_main_v29 (F := Ideal) (m ((c : Thread nD τ).loc main_arg2)) := (KeepV29.k35 m ρ c).trans (Cert.KV.Host.host0_v29 m ρ c)
  exact Cert.KV.Host.host17_v205 m ρ c _ _ _ _ _ h6 (L6_mm m ρ c hin) h3 h29

/-- The bias row the update finds is the layer's bias vector. -/
theorem L6_brow (c : Dev nD) (q : Fin 16) :
    (V36 (F := Ideal) m ρ c (Pipeline.arrRef spec17 1) : S1x16.Idx → Elt Ideal .f32) (ix2 (0 : Fin 1) q) = (Cert.ReferenceIdeal.ReadP.val_main_v207 (F := Ideal) (m ((c : Thread nD τ).loc main_arg10))) (ix1 q) := by
  show (W36 (F := Ideal) m ρ c (Proc.devRef .tc main_v208) : S1x16.Idx → Elt Ideal .f32) (ix2 (0 : Fin 1) q) = _
  rw [Cert.KV.Host.host17_v208 m ρ c _ (KeepA10.k35 m ρ c)]
  exact Cert.KernelBody.shapeCast_row_apply _ _ q

/-- The integer mask the update finds is the mask bit of the row, widened. -/
theorem L6_mask (c : Dev nD) :
    (V36 (F := Ideal) m ρ c (Pipeline.arrRef spec17 3) : S100000x16.Idx → BitVec 32) = Cert.KV.Dense.kerMask16 (m ((c : Thread nD τ).loc main_arg4)) := by
  show (W36 (F := Ideal) m ρ c (Proc.devRef .tc main_v209) : S100000x16.Idx → BitVec 32) = _
  rw [Cert.KV.Host.host17_v209 m ρ c, (KeepV63.k35 m ρ c).trans (Cert.KV.Host.host4_v63 m ρ c _ (KeepA4.k9 m ρ c))]
  rfl

/-- The layer's output labels. -/
theorem layer6 (c : Dev nD)
    (hin : W33 (F := Ideal) m ρ c (Proc.devRef .tc main_v189) = Cert.ReferenceIdeal.ReadP.val_main_v203 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W37 (F := Ideal) m ρ c (Proc.devRef .tc main_v210) = Cert.ReferenceIdeal.ReadP.val_main_v226 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W36 (F := Ideal) m ρ c (Proc.devRef .tc main_arg1) = (m ((c : Thread nD τ).loc main_arg1)) := KeepA1.k36 m ρ c
  refine ((W37_arr m ρ c 4).trans (Reg17.final (V36 (F := Ideal) m ρ) c (Cert.ReferenceIdeal.ReadP.val_main_v207 (F := Ideal) (m ((c : Thread nD τ).loc main_arg10))) (m ((c : Thread nD τ).loc main_arg4)) (L6_brow m ρ c) (L6_mask m ρ c))).trans ?_
  show Cert.KV.Dense.refUpdate16 (W36 (F := Ideal) m ρ c (Proc.devRef .tc main_v205)) (Cert.ReferenceIdeal.ReadP.val_main_v207 (F := Ideal) (m ((c : Thread nD τ).loc main_arg10))) (W36 (F := Ideal) m ρ c (Proc.devRef .tc main_arg1)) (m ((c : Thread nD τ).loc main_arg4)) = _
  rw [L6_agg m ρ c hin, hy]
  rfl

end Cert.KernelIdeal.KV

end
-- ==== Proof.Reg18.lean ====
/-
  Region 18: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg18

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0 :=
  (by decide +kernel : ∀ t : Fin grid18.N, _)

/-- Window 0's block at point t is rows 5000·t … 5000·t + 4999 of its array. -/
theorem iblk0_apply (c : Dev nD) (t : Fin cfg18.N) (x : S5000x16.Idx) (k : S100000x16.Idx)
    (hk0 : (k 0).val = 5000 * t.val + (x 0).val) (hk1 : (k 1).val = (x 1).val) :
    (iblk18 V c 0 t : Vec Ideal S5000x16 .f32) x = (V c (Pipeline.arrRef spec18 0) : S100000x16.Idx → Elt Ideal .f32) k := by
  obtain ⟨e0, e1, -, -, -, -⟩ := idx t
  unfold iblk18
  rw [View.read_apply]
  show (V c (Pipeline.arrRef spec18 0) : S100000x16.Idx → Elt Ideal .f32) _ = _
  congr 1
  funext a
  apply Fin.ext
  match a with
  | ⟨0, _⟩ => show win18_0.index t 0 * 5000 + 1 * (x 0).val = (k 0).val; rw [e0, hk0]; omega
  | ⟨1, _⟩ => show win18_0.index t 1 * 16 + 1 * (x 1).val = (k 1).val; rw [e1, hk1]; omega

/-- Window 1's block at every point is the whole of its (small) array. -/
theorem iblk1_apply (c : Dev nD) (t : Fin cfg18.N) (x : S16x16.Idx) :
    (iblk18 V c 1 t : Vec Ideal S16x16 .f32) x = (V c (Pipeline.arrRef spec18 1) : S16x16.Idx → Elt Ideal .f32) x := by
  obtain ⟨-, -, e0, e1, -, -⟩ := idx t
  unfold iblk18
  rw [View.read_apply]
  show (V c (Pipeline.arrRef spec18 1) : S16x16.Idx → Elt Ideal .f32) _ = _
  congr 1
  funext a
  apply Fin.ext
  match a with
  | ⟨0, _⟩ => show win18_1.index t 0 * 16 + 1 * (x 0).val = (x 0).val; rw [e0]; omega
  | ⟨1, _⟩ => show win18_1.index t 1 * 16 + 1 * (x 1).val = (x 1).val; rw [e1]; omega

/-- What point t writes back is block t of the whole-array function of the arrays as the region finds them. -/
theorem flushed_eq (c : Dev nD) (t : Fin cfg18.N) :
    (dat18 V c).flushed 2 t = ((cfg18.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec18 0) : FVec Ideal S100000x16 .f32) (V c (Pipeline.arrRef spec18 1) : FVec Ideal S16x16 .f32)) := by
  show (cfg18.win 2).cut (grid18.coords t) ((dat18 V c).after 2 t) = _
  rw [after18_2]
  unfold out18_2
  rw [View.canon_unit_zero hz]
  simp only [View.ld_unit_zero (S := S5000x16) hz, View.ld_unit_zero (S := S16x16) hz]
  obtain ⟨-, -, -, -, e0, e1⟩ := idx t
  funext j
  refine (show k18_pay1 (F := Ideal) (iblk18 V c 0 t) (iblk18 V c 1 t) j = k6_pay1 (F := Ideal) (iblk18 V c 0 t) (iblk18 V c 1 t) j from rfl).trans ?_
  refine Cert.KV.KForms.mm16_at' (V c (Pipeline.arrRef spec18 0) : FVec Ideal S100000x16 .f32) (V c (Pipeline.arrRef spec18 1) : FVec Ideal S16x16 .f32) (iblk18 V c 0 t) (iblk18 V c 1 t) t.val (fun x k h0 h1 => iblk0_apply V c t x k h0 h1) (fun x => iblk1_apply V c t x) j _ ?_ ?_
  · show win18_2.index t 0 * 5000 + 1 * (j 0).val = 5000 * t.val + (j 0).val; rw [e0]; omega
  · show win18_2.index t 1 * 16 + 1 * (j 1).val = (j 1).val; rw [e1]; omega

/-- An index of the output array is in point t's block iff each coordinate is in the block's range on its axis. -/
theorem mem_blk (t : Fin cfg18.N) (i : S100000x16.Idx) :
    i ∈ ((cfg18.win 2).blk t).view.set ↔ ∀ a : Fin 2, win18_2.index t a * S5000x16.size a ≤ (i a).val ∧ (i a).val < win18_2.index t a * S5000x16.size a + S5000x16.size a := by
  show i ∈ ((View.whole main_v213).slice (win18_2.rect t)).set ↔ _
  rw [View.set_slice_whole, Rect.mem_set_unit]
  exact Iff.rfl

/-- Every row lies in some point's block: row i in block i / 5000. -/
theorem cover (i : S100000x16.Idx) : ∃ t : Fin cfg18.N, (cfg18.win 2).flush t = true ∧ i ∈ ((cfg18.win 2).blk t).view.set := by
  have hN : cfg18.N = 20 := N_18
  have hi0 : (i 0).val < 100000 := (i 0).isLt
  have hi1 : (i 1).val < 16 := (i 1).isLt
  refine ⟨⟨(i 0).val / 5000, by rw [hN]; omega⟩, flush18_2 _, ?_⟩
  rw [mem_blk]
  obtain ⟨-, -, -, -, e0, e1⟩ := idx ⟨(i 0).val / 5000, by rw [hN]; omega⟩
  intro a
  match a with
  | ⟨0, _⟩ => show win18_2.index _ 0 * 5000 ≤ (i 0).val ∧ (i 0).val < win18_2.index _ 0 * 5000 + 5000; rw [e0]; show (i 0).val / 5000 * 5000 ≤ (i 0).val ∧ (i 0).val < (i 0).val / 5000 * 5000 + 5000; omega
  | ⟨1, _⟩ => show win18_2.index _ 1 * 16 ≤ (i 1).val ∧ (i 1).val < win18_2.index _ 1 * 16 + 16; rw [e1]; omega

/-- The output array after the region, as one function of the arrays the region finds. -/
theorem final (c : Dev nD) :
    (dat18 V c).arrAt 2 cfg18.N
      = Host.dotGeneral (F := Ideal) (φ₁ := .f32) (φ₂ := .f32) Cert.ReferenceIdeal.dot_S100000x16_S16x16_S100000x16_1_0_0_1_n_n none (V c (Pipeline.arrRef spec18 0) : FVec Ideal S100000x16 .f32) (V c (Pipeline.arrRef spec18 1) : FVec Ideal S16x16 .f32) :=
  (dat18 V c).arrAt_eq_of_cover 2 _ (fun t _ => flushed_eq V c t) (cover)

end Cert.KernelIdeal.KV.Reg18

end
-- ==== Proof.Reg19.lean ====
/-
  Region 19: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg19

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg19.N,
    win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0
    ∧ win19_4.index t (0 : Fin 2) = t.val ∧ win19_4.index t (1 : Fin 2) = 0 :=
  (by decide +kernel : ∀ t : Fin grid19.N, _)

/-- Window 0's block at point t is rows 5000·t … 5000·t + 4999 of its array. -/
theorem iblk0_apply (c : Dev nD) (t : Fin cfg19.N) (x : S5000x16.Idx) (k : S100000x16.Idx)
    (hk0 : (k 0).val = 5000 * t.val + (x 0).val) (hk1 : (k 1).val = (x 1).val) :
    (iblk19 V c 0 t : Vec Ideal S5000x16 .f32) x = (V c (Pipeline.arrRef spec19 0) : S100000x16.Idx → Elt Ideal .f32) k := by
  obtain ⟨e0, e1, -, -, -, -, -, -, -, -⟩ := idx t
  unfold iblk19
  rw [View.read_apply]
  show (V c (Pipeline.arrRef spec19 0) : S100000x16.Idx → Elt Ideal .f32) _ = _
  congr 1
  funext a
  apply Fin.ext
  match a with
  | ⟨0, _⟩ => show win19_0.index t 0 * 5000 + 1 * (x 0).val = (k 0).val; rw [e0, hk0]; omega
  | ⟨1, _⟩ => show win19_0.index t 1 * 16 + 1 * (x 1).val = (k 1).val; rw [e1, hk1]; omega

/-- Window 1's block at every point is the whole of its (small) array. -/
theorem iblk1_apply (c : Dev nD) (t : Fin cfg19.N) (x : S1x16.Idx) :
    (iblk19 V c 1 t : Vec Ideal S1x16 .f32) x = (V c (Pipeline.arrRef spec19 1) : S1x16.Idx → Elt Ideal .f32) x := by
  obtain ⟨-, -, e0, e1, -, -, -, -, -, -⟩ := idx t
  unfold iblk19
  rw [View.read_apply]
  show (V c (Pipeline.arrRef spec19 1) : S1x16.Idx → Elt Ideal .f32) _ = _
  congr 1
  funext a
  apply Fin.ext
  match a with
  | ⟨0, _⟩ => show win19_1.index t 0 * 1 + 1 * (x 0).val = (x 0).val; rw [e0]; omega
  | ⟨1, _⟩ => show win19_1.index t 1 * 16 + 1 * (x 1).val = (x 1).val; rw [e1]; omega

/-- Window 2's block at point t is rows 5000·t … 5000·t + 4999 of its array. -/
theorem iblk2_apply (c : Dev nD) (t : Fin cfg19.N) (x : S5000x16.Idx) (k : S100000x16.Idx)
    (hk0 : (k 0).val = 5000 * t.val + (x 0).val) (hk1 : (k 1).val = (x 1).val) :
    (iblk19 V c 2 t : Vec Ideal S5000x16 .f32) x = (V c (Pipeline.arrRef spec19 2) : S100000x16.Idx → Elt Ideal .f32) k := by
  obtain ⟨-, -, -, -, e0, e1, -, -, -, -⟩ := idx t
  unfold iblk19
  rw [View.read_apply]
  show (V c (Pipeline.arrRef spec19 2) : S100000x16.Idx → Elt Ideal .f32) _ = _
  congr 1
  funext a
  apply Fin.ext
  match a with
  | ⟨0, _⟩ => show win19_2.index t 0 * 5000 + 1 * (x 0).val = (k 0).val; rw [e0, hk0]; omega
  | ⟨1, _⟩ => show win19_2.index t 1 * 16 + 1 * (x 1).val = (k 1).val; rw [e1, hk1]; omega

/-- Window 3's block at point t is rows 5000·t … 5000·t + 4999 of its array. -/
theorem iblk3_apply (c : Dev nD) (t : Fin cfg19.N) (x : S5000x16.Idx) (k : S100000x16.Idx)
    (hk0 : (k 0).val = 5000 * t.val + (x 0).val) (hk1 : (k 1).val = (x 1).val) :
    (iblk19 V c 3 t : Vec Ideal S5000x16 .i32) x = (V c (Pipeline.arrRef spec19 3) : S100000x16.Idx → Elt Ideal .i32) k := by
  obtain ⟨-, -, -, -, -, -, e0, e1, -, -⟩ := idx t
  unfold iblk19
  rw [View.read_apply]
  show (V c (Pipeline.arrRef spec19 3) : S100000x16.Idx → Elt Ideal .i32) _ = _
  congr 1
  funext a
  apply Fin.ext
  match a with
  | ⟨0, _⟩ => show win19_3.index t 0 * 5000 + 1 * (x 0).val = (k 0).val; rw [e0, hk0]; omega
  | ⟨1, _⟩ => show win19_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec19 1) : S1x16.Idx → Elt Ideal .f32) (ix2 (0 : Fin 1) q) = b (ix1 q))
    (hm : (V c (Pipeline.arrRef spec19 3) : S100000x16.Idx → BitVec 32) = Cert.KV.Dense.kerMask16 mask) (t : Fin cfg19.N) :
    (dat19 V c).flushed 4 t = ((cfg19.win 4).blk t).view.read (Elt Ideal)
      (Cert.KV.Dense.refUpdate16 (V c (Pipeline.arrRef spec19 0) : FVec Ideal S100000x16 .f32) b (V c (Pipeline.arrRef spec19 2) : FVec Ideal S100000x16 .f32) mask) := by
  show (cfg19.win 4).cut (grid19.coords t) ((dat19 V c).after 4 t) = _
  rw [after19_4]
  unfold out19_4
  rw [View.canon_unit_zero hz]
  simp only [View.ld_unit_zero (S := S5000x16) hz, View.ld_unit_zero (S := S1x16) hz]
  obtain ⟨-, -, -, -, -, -, -, -, e0, e1⟩ := idx t
  funext j
  refine (show k19_pay1 (F := Ideal) (iblk19 V c 0 t) (iblk19 V c 1 t) (iblk19 V c 3 t) (iblk19 V c 2 t) j = k5_pay1 (F := Ideal) (iblk19 V c 0 t) (iblk19 V c 1 t) (iblk19 V c 3 t) (iblk19 V c 2 t) j from rfl).trans ?_
  refine Cert.KV.Dense.update16_at (V c (Pipeline.arrRef spec19 0) : FVec Ideal S100000x16 .f32) b (V c (Pipeline.arrRef spec19 2) : FVec Ideal S100000x16 .f32) mask (iblk19 V c 0 t) (iblk19 V c 1 t) (iblk19 V c 3 t) (iblk19 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win19_4.index t 0 * 5000 + 1 * (j 0).val = 5000 * t.val + (j 0).val; rw [e0]; omega
  · show win19_4.index t 1 * 16 + 1 * (j 1).val = (j 1).val; rw [e1]; omega

/-- An index of the output array is in point t's block iff each coordinate is in the block's range on its axis. -/
theorem mem_blk (t : Fin cfg19.N) (i : S100000x16.Idx) :
    i ∈ ((cfg19.win 4).blk t).view.set ↔ ∀ a : Fin 2, win19_4.index t a * S5000x16.size a ≤ (i a).val ∧ (i a).val < win19_4.index t a * S5000x16.size a + S5000x16.size a := by
  show i ∈ ((View.whole main_v231).slice (win19_4.rect t)).set ↔ _
  rw [View.set_slice_whole, Rect.mem_set_unit]
  exact Iff.rfl

/-- Every row lies in some point's block: row i in block i / 5000. -/
theorem cover (i : S100000x16.Idx) : ∃ t : Fin cfg19.N, (cfg19.win 4).flush t = true ∧ i ∈ ((cfg19.win 4).blk t).view.set := by
  have hN : cfg19.N = 20 := N_19
  have hi0 : (i 0).val < 100000 := (i 0).isLt
  have hi1 : (i 1).val < 16 := (i 1).isLt
  refine ⟨⟨(i 0).val / 5000, by rw [hN]; omega⟩, flush19_4 _, ?_⟩
  rw [mem_blk]
  obtain ⟨-, -, -, -, -, -, -, -, e0, e1⟩ := idx ⟨(i 0).val / 5000, by rw [hN]; omega⟩
  intro a
  match a with
  | ⟨0, _⟩ => show win19_4.index _ 0 * 5000 ≤ (i 0).val ∧ (i 0).val < win19_4.index _ 0 * 5000 + 5000; rw [e0]; show (i 0).val / 5000 * 5000 ≤ (i 0).val ∧ (i 0).val < (i 0).val / 5000 * 5000 + 5000; omega
  | ⟨1, _⟩ => show win19_4.index _ 1 * 16 ≤ (i 1).val ∧ (i 1).val < win19_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec19 1) : S1x16.Idx → Elt Ideal .f32) (ix2 (0 : Fin 1) q) = b (ix1 q))
    (hm : (V c (Pipeline.arrRef spec19 3) : S100000x16.Idx → BitVec 32) = Cert.KV.Dense.kerMask16 mask) :
    (dat19 V c).arrAt 4 cfg19.N
      = Cert.KV.Dense.refUpdate16 (V c (Pipeline.arrRef spec19 0) : FVec Ideal S100000x16 .f32) b (V c (Pipeline.arrRef spec19 2) : FVec Ideal S100000x16 .f32) mask :=
  (dat19 V c).arrAt_eq_of_cover 4 _ (fun t _ => flushed_eq V c b mask hb hm t) (cover)

end Cert.KernelIdeal.KV.Reg19

end
-- ==== Proof.HostL7.lean ====
/-
Host stretches of label layer 7: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 7's `[16,16]` weight: slab 7 of the stacked weights. -/
theorem host18_v212_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps18 (F := Ideal)) V (Proc.devRef .tc KernelIdeal.main_v212) = val_main_v228 (F := Ideal) x9 := by
  after_results_simp
  rw [h_arg9]
  rfl

/-- The same at the run's stage contents: the stretch's entry is stage 37, its exit stage 38. -/
theorem host18_v212 (c : Dev KernelIdeal.nD)
    (x9 : (⟨ReferenceIdeal.S10x16x16, .f32⟩ : BufTy).Contents (Elt Ideal))
    (h_arg9 : W37 (F := Ideal) m ρ c (Proc.devRef .tc KernelIdeal.main_arg9) = x9) :
    W38 (F := Ideal) m ρ c (Proc.devRef .tc KernelIdeal.main_v212) = val_main_v228 (F := Ideal) x9 :=
  host18_v212_of (W37 (F := Ideal) m ρ c) x9 h_arg9

set_option maxRecDepth 8192 in
/-- Label layer 7, aggregation. With the stretch's inputs at the reference's stages (the projected labels, the two edge-endpoint columns, the edge weights), its scatter-add result is the reference's: each edge's source row is gathered, scaled by the edge weight and added into the destination row. -/
theorem host19_v226_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v213 : V (Proc.devRef .tc KernelIdeal.main_v213) = val_main_v231 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps19 (F := Ideal)) V (Proc.devRef .tc KernelIdeal.main_v226) = val_main_v244 (F := Ideal) x1 x2 x4 x9 x10 := by
  after_results_simp
  rw [h_v6, h_v213, h_v3, h_v29]
  rfl

/-- The same at the run's stage contents: the stretch's entry is stage 39, its exit stage 40. -/
theorem host19_v226 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W39 (F := Ideal) m ρ c (Proc.devRef .tc KernelIdeal.main_v6) = val_main_v6 (F := Ideal) x2)
    (h_v213 : W39 (F := Ideal) m ρ c (Proc.devRef .tc KernelIdeal.main_v213) = val_main_v231 (F := Ideal) x1 x2 x4 x9 x10)
    (h_v3 : W39 (F := Ideal) m ρ c (Proc.devRef .tc KernelIdeal.main_v3) = val_main_v3 (F := Ideal) x2)
    (h_v29 : W39 (F := Ideal) m ρ c (Proc.devRef .tc KernelIdeal.main_v29) = val_main_v29 (F := Ideal) x2) :
    W40 (F := Ideal) m ρ c (Proc.devRef .tc KernelIdeal.main_v226) = val_main_v244 (F := Ideal) x1 x2 x4 x9 x10 :=
  host19_v226_of (W39 (F := Ideal) m ρ c) x1 x2 x4 x9 x10 h_v6 h_v213 h_v3 h_v29

set_option maxRecDepth 8192 in
/-- Label layer 7's bias as a `[16]` vector: row 7 of the stacked biases. -/
theorem host19_v228_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps19 (F := Ideal)) V (Proc.devRef .tc KernelIdeal.main_v228) = val_main_v230 (F := Ideal) x10 := by
  after_results_simp
  rw [h_arg10]
  rfl

/-- The same at the run's stage contents: the stretch's entry is stage 39, its exit stage 40. -/
theorem host19_v228 (c : Dev KernelIdeal.nD)
    (x10 : (⟨ReferenceIdeal.S10x16, .f32⟩ : BufTy).Contents (Elt Ideal))
    (h_arg10 : W39 (F := Ideal) m ρ c (Proc.devRef .tc KernelIdeal.main_arg10) = x10) :
    W40 (F := Ideal) m ρ c (Proc.devRef .tc KernelIdeal.main_v228) = val_main_v230 (F := Ideal) x10 :=
  host19_v228_of (W39 (F := Ideal) m ρ c) x10 h_arg10

set_option maxRecDepth 8192 in
/-- Label layer 7's bias as one `[1,16]` row: row 7 of the stacked biases, relaid. -/
theorem host19_v229_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps19 (F := Ideal)) V (Proc.devRef .tc KernelIdeal.main_v229)
      = shapeCast KernelIdeal.S1x16 (val_main_v230 (F := Ideal) x10) KernelIdeal.Facts₀.shapeCasts_S16_S1x16 := by
  after_results_simp
  rw [h_arg10]
  rfl

/-- The same at the run's stage contents: the stretch's entry is stage 39, its exit stage 40. -/
theorem host19_v229 (c : Dev KernelIdeal.nD)
    (x10 : (⟨ReferenceIdeal.S10x16, .f32⟩ : BufTy).Contents (Elt Ideal))
    (h_arg10 : W39 (F := Ideal) m ρ c (Proc.devRef .tc KernelIdeal.main_arg10) = x10) :
    W40 (F := Ideal) m ρ c (Proc.devRef .tc KernelIdeal.main_v229)
      = shapeCast KernelIdeal.S1x16 (val_main_v230 (F := Ideal) x10) KernelIdeal.Facts₀.shapeCasts_S16_S1x16 :=
  host19_v229_of (W39 (F := Ideal) m ρ c) x10 h_arg10

set_option maxRecDepth 8192 in
/-- The node mask over the 16 label columns, widened from one bit to 32-bit integers. -/
theorem host19_v230_of (V : Valuation KernelIdeal.τ KernelIdeal.sig (Elt Ideal)) :
    StableHlo.after (hostOps19 (F := Ideal)) V (Proc.devRef .tc KernelIdeal.main_v230)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 39, its exit stage 40. -/
theorem host19_v230 (c : Dev KernelIdeal.nD) :
    W40 (F := Ideal) m ρ c (Proc.devRef .tc KernelIdeal.main_v230)
      = extui 32 ((W39 (F := Ideal) m ρ c) (Proc.devRef .tc KernelIdeal.main_v63) : (⟨KernelIdeal.S100000x16, .i1⟩ : BufTy).Contents (Elt Ideal)) KernelIdeal.Facts₀.natLt_1_32 :=
  host19_v230_of (W39 (F := Ideal) m ρ c)

end Cert.KV.Host

end
-- ==== Proof.ChainL7.lean ====
/-
  Label layer 7, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg18
import proofs.«146329_j1168231104595_1_alg».proof.Proof.Reg19
import proofs.«146329_j1168231104595_1_alg».proof.Proof.HostPro
import proofs.«146329_j1168231104595_1_alg».proof.Proof.HostFeat
import proofs.«146329_j1168231104595_1_alg».proof.Proof.HostL7
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L7_w (c : Dev nD) : W38 (F := Ideal) m ρ c (Proc.devRef .tc main_v212) = Cert.ReferenceIdeal.ReadP.val_main_v228 (F := Ideal) (m ((c : Thread nD τ).loc main_arg9)) :=
  Cert.KV.Host.host18_v212 m ρ c _ (KeepA9.k37 m ρ c)

/-- The layer's linear map: the whole product of the current labels and the weight. -/
theorem L7_mm (c : Dev nD)
    (hin : W37 (F := Ideal) m ρ c (Proc.devRef .tc main_v210) = Cert.ReferenceIdeal.ReadP.val_main_v226 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W39 (F := Ideal) m ρ c (Proc.devRef .tc main_v213) = Cert.ReferenceIdeal.ReadP.val_main_v231 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W38 (F := Ideal) m ρ c (Proc.devRef .tc main_v210) = Cert.ReferenceIdeal.ReadP.val_main_v226 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W38 (F := Ideal) m ρ c (Proc.devRef .tc main_v210) = W37 (F := Ideal) m ρ c (Proc.devRef .tc main_v210) from by keep_host hostOps18).trans hin
  refine ((W39_arr m ρ c 2).trans (Reg18.final (V38 (F := Ideal) m ρ) c)).trans ?_
  show Host.dotGeneral (F := Ideal) (φ₁ := .f32) (φ₂ := .f32) Cert.ReferenceIdeal.dot_S100000x16_S16x16_S100000x16_1_0_0_1_n_n none (W38 (F := Ideal) m ρ c (Proc.devRef .tc main_v210)) (W38 (F := Ideal) m ρ c (Proc.devRef .tc main_v212)) = _
  rw [hx, L7_w m ρ c]
  rfl

/-- The layer's aggregation. -/
theorem L7_agg (c : Dev nD)
    (hin : W37 (F := Ideal) m ρ c (Proc.devRef .tc main_v210) = Cert.ReferenceIdeal.ReadP.val_main_v226 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W40 (F := Ideal) m ρ c (Proc.devRef .tc main_v226) = Cert.ReferenceIdeal.ReadP.val_main_v244 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W39 (F := Ideal) m ρ c (Proc.devRef .tc main_v3) = Cert.ReferenceIdeal.ReadP.val_main_v3 (F := Ideal) (m ((c : Thread nD τ).loc main_arg2)) := (KeepV3.k39 m ρ c).trans (Cert.KV.Host.host0_v3 m ρ c)
  have h6 : W39 (F := Ideal) m ρ c (Proc.devRef .tc main_v6) = Cert.ReferenceIdeal.ReadP.val_main_v6 (F := Ideal) (m ((c : Thread nD τ).loc main_arg2)) := (KeepV6.k39 m ρ c).trans (Cert.KV.Host.host0_v6 m ρ c)
  have h29 : W39 (F := Ideal) m ρ c (Proc.devRef .tc main_v29) = Cert.ReferenceIdeal.ReadP.val_main_v29 (F := Ideal) (m ((c : Thread nD τ).loc main_arg2)) := (KeepV29.k39 m ρ c).trans (Cert.KV.Host.host0_v29 m ρ c)
  exact Cert.KV.Host.host19_v226 m ρ c _ _ _ _ _ h6 (L7_mm m ρ c hin) h3 h29

/-- The bias row the update finds is the layer's bias vector. -/
theorem L7_brow (c : Dev nD) (q : Fin 16) :
    (V40 (F := Ideal) m ρ c (Pipeline.arrRef spec19 1) : S1x16.Idx → Elt Ideal .f32) (ix2 (0 : Fin 1) q) = (Cert.ReferenceIdeal.ReadP.val_main_v230 (F := Ideal) (m ((c : Thread nD τ).loc main_arg10))) (ix1 q) := by
  show (W40 (F := Ideal) m ρ c (Proc.devRef .tc main_v229) : S1x16.Idx → Elt Ideal .f32) (ix2 (0 : Fin 1) q) = _
  rw [Cert.KV.Host.host19_v229 m ρ c _ (KeepA10.k39 m ρ c)]
  exact Cert.KernelBody.shapeCast_row_apply _ _ q

/-- The integer mask the update finds is the mask bit of the row, widened. -/
theorem L7_mask (c : Dev nD) :
    (V40 (F := Ideal) m ρ c (Pipeline.arrRef spec19 3) : S100000x16.Idx → BitVec 32) = Cert.KV.Dense.kerMask16 (m ((c : Thread nD τ).loc main_arg4)) := by
  show (W40 (F := Ideal) m ρ c (Proc.devRef .tc main_v230) : S100000x16.Idx → BitVec 32) = _
  rw [Cert.KV.Host.host19_v230 m ρ c, (KeepV63.k39 m ρ c).trans (Cert.KV.Host.host4_v63 m ρ c _ (KeepA4.k9 m ρ c))]
  rfl

/-- The layer's output labels. -/
theorem layer7 (c : Dev nD)
    (hin : W37 (F := Ideal) m ρ c (Proc.devRef .tc main_v210) = Cert.ReferenceIdeal.ReadP.val_main_v226 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W41 (F := Ideal) m ρ c (Proc.devRef .tc main_v231) = Cert.ReferenceIdeal.ReadP.val_main_v249 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W40 (F := Ideal) m ρ c (Proc.devRef .tc main_arg1) = (m ((c : Thread nD τ).loc main_arg1)) := KeepA1.k40 m ρ c
  refine ((W41_arr m ρ c 4).trans (Reg19.final (V40 (F := Ideal) m ρ) c (Cert.ReferenceIdeal.ReadP.val_main_v230 (F := Ideal) (m ((c : Thread nD τ).loc main_arg10))) (m ((c : Thread nD τ).loc main_arg4)) (L7_brow m ρ c) (L7_mask m ρ c))).trans ?_
  show Cert.KV.Dense.refUpdate16 (W40 (F := Ideal) m ρ c (Proc.devRef .tc main_v226)) (Cert.ReferenceIdeal.ReadP.val_main_v230 (F := Ideal) (m ((c : Thread nD τ).loc main_arg10))) (W40 (F := Ideal) m ρ c (Proc.devRef .tc main_arg1)) (m ((c : Thread nD τ).loc main_arg4)) = _
  rw [L7_agg m ρ c hin, hy]
  rfl

end Cert.KernelIdeal.KV

end
-- ==== Proof.Reg20.lean ====
/-
  Region 20: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg20

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0 :=
  (by decide +kernel : ∀ t : Fin grid20.N, _)

/-- Window 0's block at point t is rows 5000·t … 5000·t + 4999 of its array. -/
theorem iblk0_apply (c : Dev nD) (t : Fin cfg20.N) (x : S5000x16.Idx) (k : S100000x16.Idx)
    (hk0 : (k 0).val = 5000 * t.val + (x 0).val) (hk1 : (k 1).val = (x 1).val) :
    (iblk20 V c 0 t : Vec Ideal S5000x16 .f32) x = (V c (Pipeline.arrRef spec20 0) : S100000x16.Idx → Elt Ideal .f32) k := by
  obtain ⟨e0, e1, -, -, -, -⟩ := idx t
  unfold iblk20
  rw [View.read_apply]
  show (V c (Pipeline.arrRef spec20 0) : S100000x16.Idx → Elt Ideal .f32) _ = _
  congr 1
  funext a
  apply Fin.ext
  match a with
  | ⟨0, _⟩ => show win20_0.index t 0 * 5000 + 1 * (x 0).val = (k 0).val; rw [e0, hk0]; omega
  | ⟨1, _⟩ => show win20_0.index t 1 * 16 + 1 * (x 1).val = (k 1).val; rw [e1, hk1]; omega

/-- Window 1's block at every point is the whole of its (small) array. -/
theorem iblk1_apply (c : Dev nD) (t : Fin cfg20.N) (x : S16x16.Idx) :
    (iblk20 V c 1 t : Vec Ideal S16x16 .f32) x = (V c (Pipeline.arrRef spec20 1) : S16x16.Idx → Elt Ideal .f32) x := by
  obtain ⟨-, -, e0, e1, -, -⟩ := idx t
  unfold iblk20
  rw [View.read_apply]
  show (V c (Pipeline.arrRef spec20 1) : S16x16.Idx → Elt Ideal .f32) _ = _
  congr 1
  funext a
  apply Fin.ext
  match a with
  | ⟨0, _⟩ => show win20_1.index t 0 * 16 + 1 * (x 0).val = (x 0).val; rw [e0]; omega
  | ⟨1, _⟩ => show win20_1.index t 1 * 16 + 1 * (x 1).val = (x 1).val; rw [e1]; omega

/-- What point t writes back is block t of the whole-array function of the arrays as the region finds them. -/
theorem flushed_eq (c : Dev nD) (t : Fin cfg20.N) :
    (dat20 V c).flushed 2 t = ((cfg20.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec20 0) : FVec Ideal S100000x16 .f32) (V c (Pipeline.arrRef spec20 1) : FVec Ideal S16x16 .f32)) := by
  show (cfg20.win 2).cut (grid20.coords t) ((dat20 V c).after 2 t) = _
  rw [after20_2]
  unfold out20_2
  rw [View.canon_unit_zero hz]
  simp only [View.ld_unit_zero (S := S5000x16) hz, View.ld_unit_zero (S := S16x16) hz]
  obtain ⟨-, -, -, -, e0, e1⟩ := idx t
  funext j
  refine (show k20_pay1 (F := Ideal) (iblk20 V c 0 t) (iblk20 V c 1 t) j = k6_pay1 (F := Ideal) (iblk20 V c 0 t) (iblk20 V c 1 t) j from rfl).trans ?_
  refine Cert.KV.KForms.mm16_at' (V c (Pipeline.arrRef spec20 0) : FVec Ideal S100000x16 .f32) (V c (Pipeline.arrRef spec20 1) : FVec Ideal S16x16 .f32) (iblk20 V c 0 t) (iblk20 V c 1 t) t.val (fun x k h0 h1 => iblk0_apply V c t x k h0 h1) (fun x => iblk1_apply V c t x) j _ ?_ ?_
  · show win20_2.index t 0 * 5000 + 1 * (j 0).val = 5000 * t.val + (j 0).val; rw [e0]; omega
  · show win20_2.index t 1 * 16 + 1 * (j 1).val = (j 1).val; rw [e1]; omega

/-- An index of the output array is in point t's block iff each coordinate is in the block's range on its axis. -/
theorem mem_blk (t : Fin cfg20.N) (i : S100000x16.Idx) :
    i ∈ ((cfg20.win 2).blk t).view.set ↔ ∀ a : Fin 2, win20_2.index t a * S5000x16.size a ≤ (i a).val ∧ (i a).val < win20_2.index t a * S5000x16.size a + S5000x16.size a := by
  show i ∈ ((View.whole main_v234).slice (win20_2.rect t)).set ↔ _
  rw [View.set_slice_whole, Rect.mem_set_unit]
  exact Iff.rfl

/-- Every row lies in some point's block: row i in block i / 5000. -/
theorem cover (i : S100000x16.Idx) : ∃ t : Fin cfg20.N, (cfg20.win 2).flush t = true ∧ i ∈ ((cfg20.win 2).blk t).view.set := by
  have hN : cfg20.N = 20 := N_20
  have hi0 : (i 0).val < 100000 := (i 0).isLt
  have hi1 : (i 1).val < 16 := (i 1).isLt
  refine ⟨⟨(i 0).val / 5000, by rw [hN]; omega⟩, flush20_2 _, ?_⟩
  rw [mem_blk]
  obtain ⟨-, -, -, -, e0, e1⟩ := idx ⟨(i 0).val / 5000, by rw [hN]; omega⟩
  intro a
  match a with
  | ⟨0, _⟩ => show win20_2.index _ 0 * 5000 ≤ (i 0).val ∧ (i 0).val < win20_2.index _ 0 * 5000 + 5000; rw [e0]; show (i 0).val / 5000 * 5000 ≤ (i 0).val ∧ (i 0).val < (i 0).val / 5000 * 5000 + 5000; omega
  | ⟨1, _⟩ => show win20_2.index _ 1 * 16 ≤ (i 1).val ∧ (i 1).val < win20_2.index _ 1 * 16 + 16; rw [e1]; omega

/-- The output array after the region, as one function of the arrays the region finds. -/
theorem final (c : Dev nD) :
    (dat20 V c).arrAt 2 cfg20.N
      = Host.dotGeneral (F := Ideal) (φ₁ := .f32) (φ₂ := .f32) Cert.ReferenceIdeal.dot_S100000x16_S16x16_S100000x16_1_0_0_1_n_n none (V c (Pipeline.arrRef spec20 0) : FVec Ideal S100000x16 .f32) (V c (Pipeline.arrRef spec20 1) : FVec Ideal S16x16 .f32) :=
  (dat20 V c).arrAt_eq_of_cover 2 _ (fun t _ => flushed_eq V c t) (cover)

end Cert.KernelIdeal.KV.Reg20

end
-- ==== Proof.Reg21.lean ====
/-
  Region 21: a label layer's masked update.  Point t reads rows 5000·t … of the aggregated sums, of the given labels and
  of the integer mask, and the whole bias row; it writes, entry by entry, the given label where the mask word is nonzero
  and otherwise the sum plus the bias cut off below at zero.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg21

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = t.val ∧ win21_2.index t (1 : Fin 2) = 0
    ∧ win21_3.index t (0 : Fin 2) = t.val ∧ win21_3.index t (1 : Fin 2) = 0
    ∧ win21_4.index t (0 : Fin 2) = t.val ∧ win21_4.index t (1 : Fin 2) = 0 :=
  (by decide +kernel : ∀ t : Fin grid21.N, _)

/-- Window 0's block at point t is rows 5000·t … 5000·t + 4999 of its array. -/
theorem iblk0_apply (c : Dev nD) (t : Fin cfg21.N) (x : S5000x16.Idx) (k : S100000x16.Idx)
    (hk0 : (k 0).val = 5000 * t.val + (x 0).val) (hk1 : (k 1).val = (x 1).val) :
    (iblk21 V c 0 t : Vec Ideal S5000x16 .f32) x = (V c (Pipeline.arrRef spec21 0) : S100000x16.Idx → Elt Ideal .f32) k := by
  obtain ⟨e0, e1, -, -, -, -, -, -, -, -⟩ := idx t
  unfold iblk21
  rw [View.read_apply]
  show (V c (Pipeline.arrRef spec21 0) : S100000x16.Idx → Elt Ideal .f32) _ = _
  congr 1
  funext a
  apply Fin.ext
  match a with
  | ⟨0, _⟩ => show win21_0.index t 0 * 5000 + 1 * (x 0).val = (k 0).val; rw [e0, hk0]; omega
  | ⟨1, _⟩ => show win21_0.index t 1 * 16 + 1 * (x 1).val = (k 1).val; rw [e1, hk1]; omega

/-- Window 1's block at every point is the whole of its (small) array. -/
theorem iblk1_apply (c : Dev nD) (t : Fin cfg21.N) (x : S1x16.Idx) :
    (iblk21 V c 1 t : Vec Ideal S1x16 .f32) x = (V c (Pipeline.arrRef spec21 1) : S1x16.Idx → Elt Ideal .f32) x := by
  obtain ⟨-, -, e0, e1, -, -, -, -, -, -⟩ := idx t
  unfold iblk21
  rw [View.read_apply]
  show (V c (Pipeline.arrRef spec21 1) : S1x16.Idx → Elt Ideal .f32) _ = _
  congr 1
  funext a
  apply Fin.ext
  match a with
  | ⟨0, _⟩ => show win21_1.index t 0 * 1 + 1 * (x 0).val = (x 0).val; rw [e0]; omega
  | ⟨1, _⟩ => show win21_1.index t 1 * 16 + 1 * (x 1).val = (x 1).val; rw [e1]; omega

/-- Window 2's block at point t is rows 5000·t … 5000·t + 4999 of its array. -/
theorem iblk2_apply (c : Dev nD) (t : Fin cfg21.N) (x : S5000x16.Idx) (k : S100000x16.Idx)
    (hk0 : (k 0).val = 5000 * t.val + (x 0).val) (hk1 : (k 1).val = (x 1).val) :
    (iblk21 V c 2 t : Vec Ideal S5000x16 .f32) x = (V c (Pipeline.arrRef spec21 2) : S100000x16.Idx → Elt Ideal .f32) k := by
  obtain ⟨-, -, -, -, e0, e1, -, -, -, -⟩ := idx t
  unfold iblk21
  rw [View.read_apply]
  show (V c (Pipeline.arrRef spec21 2) : S100000x16.Idx → Elt Ideal .f32) _ = _
  congr 1
  funext a
  apply Fin.ext
  match a with
  | ⟨0, _⟩ => show win21_2.index t 0 * 5000 + 1 * (x 0).val = (k 0).val; rw [e0, hk0]; omega
  | ⟨1, _⟩ => show win21_2.index t 1 * 16 + 1 * (x 1).val = (k 1).val; rw [e1, hk1]; omega

/-- Window 3's block at point t is rows 5000·t … 5000·t + 4999 of its array. -/
theorem iblk3_apply (c : Dev nD) (t : Fin cfg21.N) (x : S5000x16.Idx) (k : S100000x16.Idx)
    (hk0 : (k 0).val = 5000 * t.val + (x 0).val) (hk1 : (k 1).val = (x 1).val) :
    (iblk21 V c 3 t : Vec Ideal S5000x16 .i32) x = (V c (Pipeline.arrRef spec21 3) : S100000x16.Idx → Elt Ideal .i32) k := by
  obtain ⟨-, -, -, -, -, -, e0, e1, -, -⟩ := idx t
  unfold iblk21
  rw [View.read_apply]
  show (V c (Pipeline.arrRef spec21 3) : S100000x16.Idx → Elt Ideal .i32) _ = _
  congr 1
  funext a
  apply Fin.ext
  match a with
  | ⟨0, _⟩ => show win21_3.index t 0 * 5000 + 1 * (x 0).val = (k 0).val; rw [e0, hk0]; omega
  | ⟨1, _⟩ => show win21_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec21 1) : S1x16.Idx → Elt Ideal .f32) (ix2 (0 : Fin 1) q) = b (ix1 q))
    (hm : (V c (Pipeline.arrRef spec21 3) : S100000x16.Idx → BitVec 32) = Cert.KV.Dense.kerMask16 mask) (t : Fin cfg21.N) :
    (dat21 V c).flushed 4 t = ((cfg21.win 4).blk t).view.read (Elt Ideal)
      (Cert.KV.Dense.refUpdate16 (V c (Pipeline.arrRef spec21 0) : FVec Ideal S100000x16 .f32) b (V c (Pipeline.arrRef spec21 2) : FVec Ideal S100000x16 .f32) mask) := by
  show (cfg21.win 4).cut (grid21.coords t) ((dat21 V c).after 4 t) = _
  rw [after21_4]
  unfold out21_4
  rw [View.canon_unit_zero hz]
  simp only [View.ld_unit_zero (S := S5000x16) hz, View.ld_unit_zero (S := S1x16) hz]
  obtain ⟨-, -, -, -, -, -, -, -, e0, e1⟩ := idx t
  funext j
  refine (show k21_pay1 (F := Ideal) (iblk21 V c 0 t) (iblk21 V c 1 t) (iblk21 V c 3 t) (iblk21 V c 2 t) j = k5_pay1 (F := Ideal) (iblk21 V c 0 t) (iblk21 V c 1 t) (iblk21 V c 3 t) (iblk21 V c 2 t) j from rfl).trans ?_
  refine Cert.KV.Dense.update16_at (V c (Pipeline.arrRef spec21 0) : FVec Ideal S100000x16 .f32) b (V c (Pipeline.arrRef spec21 2) : FVec Ideal S100000x16 .f32) mask (iblk21 V c 0 t) (iblk21 V c 1 t) (iblk21 V c 3 t) (iblk21 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win21_4.index t 0 * 5000 + 1 * (j 0).val = 5000 * t.val + (j 0).val; rw [e0]; omega
  · show win21_4.index t 1 * 16 + 1 * (j 1).val = (j 1).val; rw [e1]; omega

/-- An index of the output array is in point t's block iff each coordinate is in the block's range on its axis. -/
theorem mem_blk (t : Fin cfg21.N) (i : S100000x16.Idx) :
    i ∈ ((cfg21.win 4).blk t).view.set ↔ ∀ a : Fin 2, win21_4.index t a * S5000x16.size a ≤ (i a).val ∧ (i a).val < win21_4.index t a * S5000x16.size a + S5000x16.size a := by
  show i ∈ ((View.whole main_v252).slice (win21_4.rect t)).set ↔ _
  rw [View.set_slice_whole, Rect.mem_set_unit]
  exact Iff.rfl

/-- Every row lies in some point's block: row i in block i / 5000. -/
theorem cover (i : S100000x16.Idx) : ∃ t : Fin cfg21.N, (cfg21.win 4).flush t = true ∧ i ∈ ((cfg21.win 4).blk t).view.set := by
  have hN : cfg21.N = 20 := N_21
  have hi0 : (i 0).val < 100000 := (i 0).isLt
  have hi1 : (i 1).val < 16 := (i 1).isLt
  refine ⟨⟨(i 0).val / 5000, by rw [hN]; omega⟩, flush21_4 _, ?_⟩
  rw [mem_blk]
  obtain ⟨-, -, -, -, -, -, -, -, e0, e1⟩ := idx ⟨(i 0).val / 5000, by rw [hN]; omega⟩
  intro a
  match a with
  | ⟨0, _⟩ => show win21_4.index _ 0 * 5000 ≤ (i 0).val ∧ (i 0).val < win21_4.index _ 0 * 5000 + 5000; rw [e0]; show (i 0).val / 5000 * 5000 ≤ (i 0).val ∧ (i 0).val < (i 0).val / 5000 * 5000 + 5000; omega
  | ⟨1, _⟩ => show win21_4.index _ 1 * 16 ≤ (i 1).val ∧ (i 1).val < win21_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec21 1) : S1x16.Idx → Elt Ideal .f32) (ix2 (0 : Fin 1) q) = b (ix1 q))
    (hm : (V c (Pipeline.arrRef spec21 3) : S100000x16.Idx → BitVec 32) = Cert.KV.Dense.kerMask16 mask) :
    (dat21 V c).arrAt 4 cfg21.N
      = Cert.KV.Dense.refUpdate16 (V c (Pipeline.arrRef spec21 0) : FVec Ideal S100000x16 .f32) b (V c (Pipeline.arrRef spec21 2) : FVec Ideal S100000x16 .f32) mask :=
  (dat21 V c).arrAt_eq_of_cover 4 _ (fun t _ => flushed_eq V c b mask hb hm t) (cover)

end Cert.KernelIdeal.KV.Reg21

end
-- ==== Proof.HostL8.lean ====
/-
Host stretches of label layer 8: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 8's `[16,16]` weight: slab 8 of the stacked weights. -/
theorem host20_v233_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps20 (F := Ideal)) V (Proc.devRef .tc KernelIdeal.main_v233) = val_main_v251 (F := Ideal) x9 := by
  after_results_simp
  rw [h_arg9]
  rfl

/-- The same at the run's stage contents: the stretch's entry is stage 41, its exit stage 42. -/
theorem host20_v233 (c : Dev KernelIdeal.nD)
    (x9 : (⟨ReferenceIdeal.S10x16x16, .f32⟩ : BufTy).Contents (Elt Ideal))
    (h_arg9 : W41 (F := Ideal) m ρ c (Proc.devRef .tc KernelIdeal.main_arg9) = x9) :
    W42 (F := Ideal) m ρ c (Proc.devRef .tc KernelIdeal.main_v233) = val_main_v251 (F := Ideal) x9 :=
  host20_v233_of (W41 (F := Ideal) m ρ c) x9 h_arg9

set_option maxRecDepth 8192 in
/-- Label layer 8, aggregation. With the stretch's inputs at the reference's stages (the projected labels, the two edge-endpoint columns, the edge weights), its scatter-add result is the reference's: each edge's source row is gathered, scaled by the edge weight and added into the destination row. -/
theorem host21_v247_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v234 : V (Proc.devRef .tc KernelIdeal.main_v234) = val_main_v254 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps21 (F := Ideal)) V (Proc.devRef .tc KernelIdeal.main_v247) = val_main_v267 (F := Ideal) x1 x2 x4 x9 x10 := by
  after_results_simp
  rw [h_v6, h_v234, h_v3, h_v29]
  rfl

/-- The same at the run's stage contents: the stretch's entry is stage 43, its exit stage 44. -/
theorem host21_v247 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W43 (F := Ideal) m ρ c (Proc.devRef .tc KernelIdeal.main_v6) = val_main_v6 (F := Ideal) x2)
    (h_v234 : W43 (F := Ideal) m ρ c (Proc.devRef .tc KernelIdeal.main_v234) = val_main_v254 (F := Ideal) x1 x2 x4 x9 x10)
    (h_v3 : W43 (F := Ideal) m ρ c (Proc.devRef .tc KernelIdeal.main_v3) = val_main_v3 (F := Ideal) x2)
    (h_v29 : W43 (F := Ideal) m ρ c (Proc.devRef .tc KernelIdeal.main_v29) = val_main_v29 (F := Ideal) x2) :
    W44 (F := Ideal) m ρ c (Proc.devRef .tc KernelIdeal.main_v247) = val_main_v267 (F := Ideal) x1 x2 x4 x9 x10 :=
  host21_v247_of (W43 (F := Ideal) m ρ c) x1 x2 x4 x9 x10 h_v6 h_v234 h_v3 h_v29

set_option maxRecDepth 8192 in
/-- Label layer 8's bias as a `[16]` vector: row 8 of the stacked biases. -/
theorem host21_v249_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps21 (F := Ideal)) V (Proc.devRef .tc KernelIdeal.main_v249) = val_main_v253 (F := Ideal) x10 := by
  after_results_simp
  rw [h_arg10]
  rfl

/-- The same at the run's stage contents: the stretch's entry is stage 43, its exit stage 44. -/
theorem host21_v249 (c : Dev KernelIdeal.nD)
    (x10 : (⟨ReferenceIdeal.S10x16, .f32⟩ : BufTy).Contents (Elt Ideal))
    (h_arg10 : W43 (F := Ideal) m ρ c (Proc.devRef .tc KernelIdeal.main_arg10) = x10) :
    W44 (F := Ideal) m ρ c (Proc.devRef .tc KernelIdeal.main_v249) = val_main_v253 (F := Ideal) x10 :=
  host21_v249_of (W43 (F := Ideal) m ρ c) x10 h_arg10

set_option maxRecDepth 8192 in
/-- Label layer 8's bias as one `[1,16]` row: row 8 of the stacked biases, relaid. -/
theorem host21_v250_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps21 (F := Ideal)) V (Proc.devRef .tc KernelIdeal.main_v250)
      = shapeCast KernelIdeal.S1x16 (val_main_v253 (F := Ideal) x10) KernelIdeal.Facts₀.shapeCasts_S16_S1x16 := by
  after_results_simp
  rw [h_arg10]
  rfl

/-- The same at the run's stage contents: the stretch's entry is stage 43, its exit stage 44. -/
theorem host21_v250 (c : Dev KernelIdeal.nD)
    (x10 : (⟨ReferenceIdeal.S10x16, .f32⟩ : BufTy).Contents (Elt Ideal))
    (h_arg10 : W43 (F := Ideal) m ρ c (Proc.devRef .tc KernelIdeal.main_arg10) = x10) :
    W44 (F := Ideal) m ρ c (Proc.devRef .tc KernelIdeal.main_v250)
      = shapeCast KernelIdeal.S1x16 (val_main_v253 (F := Ideal) x10) KernelIdeal.Facts₀.shapeCasts_S16_S1x16 :=
  host21_v250_of (W43 (F := Ideal) m ρ c) x10 h_arg10

set_option maxRecDepth 8192 in
/-- The node mask over the 16 label columns, widened from one bit to 32-bit integers. -/
theorem host21_v251_of (V : Valuation KernelIdeal.τ KernelIdeal.sig (Elt Ideal)) :
    StableHlo.after (hostOps21 (F := Ideal)) V (Proc.devRef .tc KernelIdeal.main_v251)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 43, its exit stage 44. -/
theorem host21_v251 (c : Dev KernelIdeal.nD) :
    W44 (F := Ideal) m ρ c (Proc.devRef .tc KernelIdeal.main_v251)
      = extui 32 ((W43 (F := Ideal) m ρ c) (Proc.devRef .tc KernelIdeal.main_v63) : (⟨KernelIdeal.S100000x16, .i1⟩ : BufTy).Contents (Elt Ideal)) KernelIdeal.Facts₀.natLt_1_32 :=
  host21_v251_of (W43 (F := Ideal) m ρ c)

end Cert.KV.Host

end
-- ==== Proof.ChainL8.lean ====
/-
  Label layer 8, stage by stage: the layer's 16×16 weight is the reference's slice of the weight stack; the linear map of the
  current labels is the whole matrix product; the aggregation is the reference's gather, normalisation and scatter-add
  applied to it; the update keeps the given label where the mask bit is set and otherwise adds the layer's bias and
  cuts off below at zero.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg20
import proofs.«146329_j1168231104595_1_alg».proof.Proof.Reg21
import proofs.«146329_j1168231104595_1_alg».proof.Proof.HostPro
import proofs.«146329_j1168231104595_1_alg».proof.Proof.HostFeat
import proofs.«146329_j1168231104595_1_alg».proof.Proof.HostL8
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L8_w (c : Dev nD) : W42 (F := Ideal) m ρ c (Proc.devRef .tc main_v233) = Cert.ReferenceIdeal.ReadP.val_main_v251 (F := Ideal) (m ((c : Thread nD τ).loc main_arg9)) :=
  Cert.KV.Host.host20_v233 m ρ c _ (KeepA9.k41 m ρ c)

/-- The layer's linear map: the whole product of the current labels and the weight. -/
theorem L8_mm (c : Dev nD)
    (hin : W41 (F := Ideal) m ρ c (Proc.devRef .tc main_v231) = Cert.ReferenceIdeal.ReadP.val_main_v249 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W43 (F := Ideal) m ρ c (Proc.devRef .tc main_v234) = Cert.ReferenceIdeal.ReadP.val_main_v254 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W42 (F := Ideal) m ρ c (Proc.devRef .tc main_v231) = Cert.ReferenceIdeal.ReadP.val_main_v249 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W42 (F := Ideal) m ρ c (Proc.devRef .tc main_v231) = W41 (F := Ideal) m ρ c (Proc.devRef .tc main_v231) from by keep_host hostOps20).trans hin
  refine ((W43_arr m ρ c 2).trans (Reg20.final (V42 (F := Ideal) m ρ) c)).trans ?_
  show Host.dotGeneral (F := Ideal) (φ₁ := .f32) (φ₂ := .f32) Cert.ReferenceIdeal.dot_S100000x16_S16x16_S100000x16_1_0_0_1_n_n none (W42 (F := Ideal) m ρ c (Proc.devRef .tc main_v231)) (W42 (F := Ideal) m ρ c (Proc.devRef .tc main_v233)) = _
  rw [hx, L8_w m ρ c]
  rfl

/-- The layer's aggregation. -/
theorem L8_agg (c : Dev nD)
    (hin : W41 (F := Ideal) m ρ c (Proc.devRef .tc main_v231) = Cert.ReferenceIdeal.ReadP.val_main_v249 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W44 (F := Ideal) m ρ c (Proc.devRef .tc main_v247) = Cert.ReferenceIdeal.ReadP.val_main_v267 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W43 (F := Ideal) m ρ c (Proc.devRef .tc main_v3) = Cert.ReferenceIdeal.ReadP.val_main_v3 (F := Ideal) (m ((c : Thread nD τ).loc main_arg2)) := (KeepV3.k43 m ρ c).trans (Cert.KV.Host.host0_v3 m ρ c)
  have h6 : W43 (F := Ideal) m ρ c (Proc.devRef .tc main_v6) = Cert.ReferenceIdeal.ReadP.val_main_v6 (F := Ideal) (m ((c : Thread nD τ).loc main_arg2)) := (KeepV6.k43 m ρ c).trans (Cert.KV.Host.host0_v6 m ρ c)
  have h29 : W43 (F := Ideal) m ρ c (Proc.devRef .tc main_v29) = Cert.ReferenceIdeal.ReadP.val_main_v29 (F := Ideal) (m ((c : Thread nD τ).loc main_arg2)) := (KeepV29.k43 m ρ c).trans (Cert.KV.Host.host0_v29 m ρ c)
  exact Cert.KV.Host.host21_v247 m ρ c _ _ _ _ _ h6 (L8_mm m ρ c hin) h3 h29

/-- The bias row the update finds is the layer's bias vector. -/
theorem L8_brow (c : Dev nD) (q : Fin 16) :
    (V44 (F := Ideal) m ρ c (Pipeline.arrRef spec21 1) : S1x16.Idx → Elt Ideal .f32) (ix2 (0 : Fin 1) q) = (Cert.ReferenceIdeal.ReadP.val_main_v253 (F := Ideal) (m ((c : Thread nD τ).loc main_arg10))) (ix1 q) := by
  show (W44 (F := Ideal) m ρ c (Proc.devRef .tc main_v250) : S1x16.Idx → Elt Ideal .f32) (ix2 (0 : Fin 1) q) = _
  rw [Cert.KV.Host.host21_v250 m ρ c _ (KeepA10.k43 m ρ c)]
  exact Cert.KernelBody.shapeCast_row_apply _ _ q

/-- The integer mask the update finds is the mask bit of the row, widened. -/
theorem L8_mask (c : Dev nD) :
    (V44 (F := Ideal) m ρ c (Pipeline.arrRef spec21 3) : S100000x16.Idx → BitVec 32) = Cert.KV.Dense.kerMask16 (m ((c : Thread nD τ).loc main_arg4)) := by
  show (W44 (F := Ideal) m ρ c (Proc.devRef .tc main_v251) : S100000x16.Idx → BitVec 32) = _
  rw [Cert.KV.Host.host21_v251 m ρ c, (KeepV63.k43 m ρ c).trans (Cert.KV.Host.host4_v63 m ρ c _ (KeepA4.k9 m ρ c))]
  rfl

/-- The layer's output labels. -/
theorem layer8 (c : Dev nD)
    (hin : W41 (F := Ideal) m ρ c (Proc.devRef .tc main_v231) = Cert.ReferenceIdeal.ReadP.val_main_v249 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W45 (F := Ideal) m ρ c (Proc.devRef .tc main_v252) = Cert.ReferenceIdeal.ReadP.val_main_v272 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W44 (F := Ideal) m ρ c (Proc.devRef .tc main_arg1) = (m ((c : Thread nD τ).loc main_arg1)) := KeepA1.k44 m ρ c
  refine ((W45_arr m ρ c 4).trans (Reg21.final (V44 (F := Ideal) m ρ) c (Cert.ReferenceIdeal.ReadP.val_main_v253 (F := Ideal) (m ((c : Thread nD τ).loc main_arg10))) (m ((c : Thread nD τ).loc main_arg4)) (L8_brow m ρ c) (L8_mask m ρ c))).trans ?_
  show Cert.KV.Dense.refUpdate16 (W44 (F := Ideal) m ρ c (Proc.devRef .tc main_v247)) (Cert.ReferenceIdeal.ReadP.val_main_v253 (F := Ideal) (m ((c : Thread nD τ).loc main_arg10))) (W44 (F := Ideal) m ρ c (Proc.devRef .tc main_arg1)) (m ((c : Thread nD τ).loc main_arg4)) = _
  rw [L8_agg m ρ c hin, hy]
  rfl

end Cert.KernelIdeal.KV

end
-- ==== Proof.Reg22.lean ====
/-
  Region 22: a label layer's linear map.  Point t of the 20-point grid reads rows 5000·t … 5000·t + 4999 of the label array
  (16 columns) and the whole 16×16 weight, and writes the same rows of the product; read back after the last point the
  output array is the plain matrix product of the two input arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg22

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg22.N,
    win22_0.index t (0 : Fin 2) = t.val ∧ win22_0.index t (1 : Fin 2) = 0
    ∧ win22_1.index t (0 : Fin 2) = 0 ∧ win22_1.index t (1 : Fin 2) = 0
    ∧ win22_2.index t (0 : Fin 2) = t.val ∧ win22_2.index t (1 : Fin 2) = 0 :=
  (by decide +kernel : ∀ t : Fin grid22.N, _)

/-- Window 0's block at point t is rows 5000·t … 5000·t + 4999 of its array. -/
theorem iblk0_apply (c : Dev nD) (t : Fin cfg22.N) (x : S5000x16.Idx) (k : S100000x16.Idx)
    (hk0 : (k 0).val = 5000 * t.val + (x 0).val) (hk1 : (k 1).val = (x 1).val) :
    (iblk22 V c 0 t : Vec Ideal S5000x16 .f32) x = (V c (Pipeline.arrRef spec22 0) : S100000x16.Idx → Elt Ideal .f32) k := by
  obtain ⟨e0, e1, -, -, -, -⟩ := idx t
  unfold iblk22
  rw [View.read_apply]
  show (V c (Pipeline.arrRef spec22 0) : S100000x16.Idx → Elt Ideal .f32) _ = _
  congr 1
  funext a
  apply Fin.ext
  match a with
  | ⟨0, _⟩ => show win22_0.index t 0 * 5000 + 1 * (x 0).val = (k 0).val; rw [e0, hk0]; omega
  | ⟨1, _⟩ => show win22_0.index t 1 * 16 + 1 * (x 1).val = (k 1).val; rw [e1, hk1]; omega

/-- Window 1's block at every point is the whole of its (small) array. -/
theorem iblk1_apply (c : Dev nD) (t : Fin cfg22.N) (x : S16x16.Idx) :
    (iblk22 V c 1 t : Vec Ideal S16x16 .f32) x = (V c (Pipeline.arrRef spec22 1) : S16x16.Idx → Elt Ideal .f32) x := by
  obtain ⟨-, -, e0, e1, -, -⟩ := idx t
  unfold iblk22
  rw [View.read_apply]
  show (V c (Pipeline.arrRef spec22 1) : S16x16.Idx → Elt Ideal .f32) _ = _
  congr 1
  funext a
  apply Fin.ext
  match a with
  | ⟨0, _⟩ => show win22_1.index t 0 * 16 + 1 * (x 0).val = (x 0).val; rw [e0]; omega
  | ⟨1, _⟩ => show win22_1.index t 1 * 16 + 1 * (x 1).val = (x 1).val; rw [e1]; omega

/-- What point t writes back is block t of the whole-array function of the arrays as the region finds them. -/
theorem flushed_eq (c : Dev nD) (t : Fin cfg22.N) :
    (dat22 V c).flushed 2 t = ((cfg22.win 2).blk t).view.read (Elt Ideal)
      (Host.dotGeneral (F := Ideal) (φ₁ := .f32) (φ₂ := .f32) Cert.ReferenceIdeal.dot_S100000x16_S16x16_S100000x16_1_0_0_1_n_n none (V c (Pipeline.arrRef spec22 0) : FVec Ideal S100000x16 .f32) (V c (Pipeline.arrRef spec22 1) : FVec Ideal S16x16 .f32)) := by
  show (cfg22.win 2).cut (grid22.coords t) ((dat22 V c).after 2 t) = _
  rw [after22_2]
  unfold out22_2
  rw [View.canon_unit_zero hz]
  simp only [View.ld_unit_zero (S := S5000x16) hz, View.ld_unit_zero (S := S16x16) hz]
  obtain ⟨-, -, -, -, e0, e1⟩ := idx t
  funext j
  refine (show k22_pay1 (F := Ideal) (iblk22 V c 0 t) (iblk22 V c 1 t) j = k6_pay1 (F := Ideal) (iblk22 V c 0 t) (iblk22 V c 1 t) j from rfl).trans ?_
  refine Cert.KV.KForms.mm16_at' (V c (Pipeline.arrRef spec22 0) : FVec Ideal S100000x16 .f32) (V c (Pipeline.arrRef spec22 1) : FVec Ideal S16x16 .f32) (iblk22 V c 0 t) (iblk22 V c 1 t) t.val (fun x k h0 h1 => iblk0_apply V c t x k h0 h1) (fun x => iblk1_apply V c t x) j _ ?_ ?_
  · show win22_2.index t 0 * 5000 + 1 * (j 0).val = 5000 * t.val + (j 0).val; rw [e0]; omega
  · show win22_2.index t 1 * 16 + 1 * (j 1).val = (j 1).val; rw [e1]; omega

/-- An index of the output array is in point t's block iff each coordinate is in the block's range on its axis. -/
theorem mem_blk (t : Fin cfg22.N) (i : S100000x16.Idx) :
    i ∈ ((cfg22.win 2).blk t).view.set ↔ ∀ a : Fin 2, win22_2.index t a * S5000x16.size a ≤ (i a).val ∧ (i a).val < win22_2.index t a * S5000x16.size a + S5000x16.size a := by
  show i ∈ ((View.whole main_v255).slice (win22_2.rect t)).set ↔ _
  rw [View.set_slice_whole, Rect.mem_set_unit]
  exact Iff.rfl

/-- Every row lies in some point's block: row i in block i / 5000. -/
theorem cover (i : S100000x16.Idx) : ∃ t : Fin cfg22.N, (cfg22.win 2).flush t = true ∧ i ∈ ((cfg22.win 2).blk t).view.set := by
  have hN : cfg22.N = 20 := N_22
  have hi0 : (i 0).val < 100000 := (i 0).isLt
  have hi1 : (i 1).val < 16 := (i 1).isLt
  refine ⟨⟨(i 0).val / 5000, by rw [hN]; omega⟩, flush22_2 _, ?_⟩
  rw [mem_blk]
  obtain ⟨-, -, -, -, e0, e1⟩ := idx ⟨(i 0).val / 5000, by rw [hN]; omega⟩
  intro a
  match a with
  | ⟨0, _⟩ => show win22_2.index _ 0 * 5000 ≤ (i 0).val ∧ (i 0).val < win22_2.index _ 0 * 5000 + 5000; rw [e0]; show (i 0).val / 5000 * 5000 ≤ (i 0).val ∧ (i 0).val < (i 0).val / 5000 * 5000 + 5000; omega
  | ⟨1, _⟩ => show win22_2.index _ 1 * 16 ≤ (i 1).val ∧ (i 1).val < win22_2.index _ 1 * 16 + 16; rw [e1]; omega

/-- The output array after the region, as one function of the arrays the region finds. -/
theorem final (c : Dev nD) :
    (dat22 V c).arrAt 2 cfg22.N
      = Host.dotGeneral (F := Ideal) (φ₁ := .f32) (φ₂ := .f32) Cert.ReferenceIdeal.dot_S100000x16_S16x16_S100000x16_1_0_0_1_n_n none (V c (Pipeline.arrRef spec22 0) : FVec Ideal S100000x16 .f32) (V c (Pipeline.arrRef spec22 1) : FVec Ideal S16x16 .f32) :=
  (dat22 V c).arrAt_eq_of_cover 2 _ (fun t _ => flushed_eq V c t) (cover)

end Cert.KernelIdeal.KV.Reg22

end
-- ==== Proof.Reg23.lean ====
/-
  Region 23: a label layer's masked update.  Point t reads rows 5000·t … of the aggregated sums, of the given labels and
  of the integer mask, and the whole bias row; it writes, entry by entry, the given label where the mask word is nonzero
  and otherwise the sum plus the bias.  Read back after the last point the output array is that function of
  the sums and labels as the region finds them, of the bias vector whose row the region finds, and of the mask whose
  widened copy the region finds.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg23

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg23.N,
    win23_0.index t (0 : Fin 2) = t.val ∧ win23_0.index t (1 : Fin 2) = 0
    ∧ win23_1.index t (0 : Fin 2) = 0 ∧ win23_1.index t (1 : Fin 2) = 0
    ∧ win23_2.index t (0 : Fin 2) = t.val ∧ win23_2.index t (1 : Fin 2) = 0
    ∧ win23_3.index t (0 : Fin 2) = t.val ∧ win23_3.index t (1 : Fin 2) = 0
    ∧ win23_4.index t (0 : Fin 2) = t.val ∧ win23_4.index t (1 : Fin 2) = 0 :=
  (by decide +kernel : ∀ t : Fin grid23.N, _)

/-- Window 0's block at point t is rows 5000·t … 5000·t + 4999 of its array. -/
theorem iblk0_apply (c : Dev nD) (t : Fin cfg23.N) (x : S5000x16.Idx) (k : S100000x16.Idx)
    (hk0 : (k 0).val = 5000 * t.val + (x 0).val) (hk1 : (k 1).val = (x 1).val) :
    (iblk23 V c 0 t : Vec Ideal S5000x16 .f32) x = (V c (Pipeline.arrRef spec23 0) : S100000x16.Idx → Elt Ideal .f32) k := by
  obtain ⟨e0, e1, -, -, -, -, -, -, -, -⟩ := idx t
  unfold iblk23
  rw [View.read_apply]
  show (V c (Pipeline.arrRef spec23 0) : S100000x16.Idx → Elt Ideal .f32) _ = _
  congr 1
  funext a
  apply Fin.ext
  match a with
  | ⟨0, _⟩ => show win23_0.index t 0 * 5000 + 1 * (x 0).val = (k 0).val; rw [e0, hk0]; omega
  | ⟨1, _⟩ => show win23_0.index t 1 * 16 + 1 * (x 1).val = (k 1).val; rw [e1, hk1]; omega

/-- Window 1's block at every point is the whole of its (small) array. -/
theorem iblk1_apply (c : Dev nD) (t : Fin cfg23.N) (x : S1x16.Idx) :
    (iblk23 V c 1 t : Vec Ideal S1x16 .f32) x = (V c (Pipeline.arrRef spec23 1) : S1x16.Idx → Elt Ideal .f32) x := by
  obtain ⟨-, -, e0, e1, -, -, -, -, -, -⟩ := idx t
  unfold iblk23
  rw [View.read_apply]
  show (V c (Pipeline.arrRef spec23 1) : S1x16.Idx → Elt Ideal .f32) _ = _
  congr 1
  funext a
  apply Fin.ext
  match a with
  | ⟨0, _⟩ => show win23_1.index t 0 * 1 + 1 * (x 0).val = (x 0).val; rw [e0]; omega
  | ⟨1, _⟩ => show win23_1.index t 1 * 16 + 1 * (x 1).val = (x 1).val; rw [e1]; omega

/-- Window 2's block at point t is rows 5000·t … 5000·t + 4999 of its array. -/
theorem iblk2_apply (c : Dev nD) (t : Fin cfg23.N) (x : S5000x16.Idx) (k : S100000x16.Idx)
    (hk0 : (k 0).val = 5000 * t.val + (x 0).val) (hk1 : (k 1).val = (x 1).val) :
    (iblk23 V c 2 t : Vec Ideal S5000x16 .f32) x = (V c (Pipeline.arrRef spec23 2) : S100000x16.Idx → Elt Ideal .f32) k := by
  obtain ⟨-, -, -, -, e0, e1, -, -, -, -⟩ := idx t
  unfold iblk23
  rw [View.read_apply]
  show (V c (Pipeline.arrRef spec23 2) : S100000x16.Idx → Elt Ideal .f32) _ = _
  congr 1
  funext a
  apply Fin.ext
  match a with
  | ⟨0, _⟩ => show win23_2.index t 0 * 5000 + 1 * (x 0).val = (k 0).val; rw [e0, hk0]; omega
  | ⟨1, _⟩ => show win23_2.index t 1 * 16 + 1 * (x 1).val = (k 1).val; rw [e1, hk1]; omega

/-- Window 3's block at point t is rows 5000·t … 5000·t + 4999 of its array. -/
theorem iblk3_apply (c : Dev nD) (t : Fin cfg23.N) (x : S5000x16.Idx) (k : S100000x16.Idx)
    (hk0 : (k 0).val = 5000 * t.val + (x 0).val) (hk1 : (k 1).val = (x 1).val) :
    (iblk23 V c 3 t : Vec Ideal S5000x16 .i32) x = (V c (Pipeline.arrRef spec23 3) : S100000x16.Idx → Elt Ideal .i32) k := by
  obtain ⟨-, -, -, -, -, -, e0, e1, -, -⟩ := idx t
  unfold iblk23
  rw [View.read_apply]
  show (V c (Pipeline.arrRef spec23 3) : S100000x16.Idx → Elt Ideal .i32) _ = _
  congr 1
  funext a
  apply Fin.ext
  match a with
  | ⟨0, _⟩ => show win23_3.index t 0 * 5000 + 1 * (x 0).val = (k 0).val; rw [e0, hk0]; omega
  | ⟨1, _⟩ => show win23_3.index t 1 * 16 + 1 * (x 1).val = (k 1).val; rw [e1, hk1]; omega

/-- What point t writes back is block t of the whole-array function of the arrays as the region finds them. -/
theorem flushed_eq (c : Dev nD) (b : FVec Ideal Cert.ReferenceIdeal.S16 .f32) (mask : IVec S100000 1)
    (hb : ∀ q : Fin 16, (V c (Pipeline.arrRef spec23 1) : S1x16.Idx → Elt Ideal .f32) (ix2 (0 : Fin 1) q) = b (ix1 q))
    (hm : (V c (Pipeline.arrRef spec23 3) : S100000x16.Idx → BitVec 32) = Cert.KV.Dense.kerMask16 mask) (t : Fin cfg23.N) :
    (dat23 V c).flushed 4 t = ((cfg23.win 4).blk t).view.read (Elt Ideal)
      (Cert.KV.Dense.refUpdateLast16 (V c (Pipeline.arrRef spec23 0) : FVec Ideal S100000x16 .f32) b (V c (Pipeline.arrRef spec23 2) : FVec Ideal S100000x16 .f32) mask) := by
  show (cfg23.win 4).cut (grid23.coords t) ((dat23 V c).after 4 t) = _
  rw [after23_4]
  unfold out23_4
  rw [View.canon_unit_zero hz]
  simp only [View.ld_unit_zero (S := S5000x16) hz, View.ld_unit_zero (S := S1x16) hz]
  obtain ⟨-, -, -, -, -, -, -, -, e0, e1⟩ := idx t
  funext j
  refine Cert.KV.Dense.update16last_at (V c (Pipeline.arrRef spec23 0) : FVec Ideal S100000x16 .f32) b (V c (Pipeline.arrRef spec23 2) : FVec Ideal S100000x16 .f32) mask (iblk23 V c 0 t) (iblk23 V c 1 t) (iblk23 V c 3 t) (iblk23 V c 2 t) t.val (fun x k h0 h1 => iblk0_apply V c t x k h0 h1) (fun q => (iblk1_apply V c t (ix2 (0 : Fin 1) q)).trans (hb q)) (fun x k h0 h1 => (iblk3_apply V c t x k h0 h1).trans (congrFun hm k)) (fun x k h0 h1 => iblk2_apply V c t x k h0 h1) j _ ?_ ?_
  · show win23_4.index t 0 * 5000 + 1 * (j 0).val = 5000 * t.val + (j 0).val; rw [e0]; omega
  · show win23_4.index t 1 * 16 + 1 * (j 1).val = (j 1).val; rw [e1]; omega

/-- An index of the output array is in point t's block iff each coordinate is in the block's range on its axis. -/
theorem mem_blk (t : Fin cfg23.N) (i : S100000x16.Idx) :
    i ∈ ((cfg23.win 4).blk t).view.set ↔ ∀ a : Fin 2, win23_4.index t a * S5000x16.size a ≤ (i a).val ∧ (i a).val < win23_4.index t a * S5000x16.size a + S5000x16.size a := by
  show i ∈ ((View.whole main_v273).slice (win23_4.rect t)).set ↔ _
  rw [View.set_slice_whole, Rect.mem_set_unit]
  exact Iff.rfl

/-- Every row lies in some point's block: row i in block i / 5000. -/
theorem cover (i : S100000x16.Idx) : ∃ t : Fin cfg23.N, (cfg23.win 4).flush t = true ∧ i ∈ ((cfg23.win 4).blk t).view.set := by
  have hN : cfg23.N = 20 := N_23
  have hi0 : (i 0).val < 100000 := (i 0).isLt
  have hi1 : (i 1).val < 16 := (i 1).isLt
  refine ⟨⟨(i 0).val / 5000, by rw [hN]; omega⟩, flush23_4 _, ?_⟩
  rw [mem_blk]
  obtain ⟨-, -, -, -, -, -, -, -, e0, e1⟩ := idx ⟨(i 0).val / 5000, by rw [hN]; omega⟩
  intro a
  match a with
  | ⟨0, _⟩ => show win23_4.index _ 0 * 5000 ≤ (i 0).val ∧ (i 0).val < win23_4.index _ 0 * 5000 + 5000; rw [e0]; show (i 0).val / 5000 * 5000 ≤ (i 0).val ∧ (i 0).val < (i 0).val / 5000 * 5000 + 5000; omega
  | ⟨1, _⟩ => show win23_4.index _ 1 * 16 ≤ (i 1).val ∧ (i 1).val < win23_4.index _ 1 * 16 + 16; rw [e1]; omega

/-- The output array after the region, as one function of the arrays the region finds. -/
theorem final (c : Dev nD) (b : FVec Ideal Cert.ReferenceIdeal.S16 .f32) (mask : IVec S100000 1)
    (hb : ∀ q : Fin 16, (V c (Pipeline.arrRef spec23 1) : S1x16.Idx → Elt Ideal .f32) (ix2 (0 : Fin 1) q) = b (ix1 q))
    (hm : (V c (Pipeline.arrRef spec23 3) : S100000x16.Idx → BitVec 32) = Cert.KV.Dense.kerMask16 mask) :
    (dat23 V c).arrAt 4 cfg23.N
      = Cert.KV.Dense.refUpdateLast16 (V c (Pipeline.arrRef spec23 0) : FVec Ideal S100000x16 .f32) b (V c (Pipeline.arrRef spec23 2) : FVec Ideal S100000x16 .f32) mask :=
  (dat23 V c).arrAt_eq_of_cover 4 _ (fun t _ => flushed_eq V c b mask hb hm t) (cover)

end Cert.KernelIdeal.KV.Reg23

end
-- ==== Proof.HostL9.lean ====
/-
Host stretches of label layer 9: what each writes, read as the reference's stages. Every statement is first proved for an
arbitrary buffer valuation `V` at the stretch's entry (`_of`), then instantiated at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- Label layer 9's `[16,16]` weight: slab 9 of the stacked weights. -/
theorem host22_v254_of (V : Valuation KernelIdeal.τ KernelIdeal.sig (Elt Ideal))
    (x9 : (⟨ReferenceIdeal.S10x16x16, .f32⟩ : BufTy).Contents (Elt Ideal))
    (h_arg9 : V (Proc.devRef .tc KernelIdeal.main_arg9) = x9) :
    StableHlo.after (hostOps22 (F := Ideal)) V (Proc.devRef .tc KernelIdeal.main_v254) = val_main_v274 (F := Ideal) x9 := by
  after_results_simp
  rw [h_arg9]
  rfl

/-- The same at the run's stage contents: the stretch's entry is stage 45, its exit stage 46. -/
theorem host22_v254 (c : Dev KernelIdeal.nD)
    (x9 : (⟨ReferenceIdeal.S10x16x16, .f32⟩ : BufTy).Contents (Elt Ideal))
    (h_arg9 : W45 (F := Ideal) m ρ c (Proc.devRef .tc KernelIdeal.main_arg9) = x9) :
    W46 (F := Ideal) m ρ c (Proc.devRef .tc KernelIdeal.main_v254) = val_main_v274 (F := Ideal) x9 :=
  host22_v254_of (W45 (F := Ideal) m ρ c) x9 h_arg9

set_option maxRecDepth 8192 in
/-- Label layer 9, aggregation. With the stretch's inputs at the reference's stages (the projected labels, the two edge-endpoint columns, the edge weights), its scatter-add result is the reference's: each edge's source row is gathered, scaled by the edge weight and added into the destination row. -/
theorem host23_v268_of (V : Valuation KernelIdeal.τ KernelIdeal.sig (Elt Ideal))
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : V (Proc.devRef .tc KernelIdeal.main_v6) = val_main_v6 (F := Ideal) x2)
    (h_v255 : V (Proc.devRef .tc KernelIdeal.main_v255) = val_main_v277 (F := Ideal) x1 x2 x4 x9 x10)
    (h_v3 : V (Proc.devRef .tc KernelIdeal.main_v3) = val_main_v3 (F := Ideal) x2)
    (h_v29 : V (Proc.devRef .tc KernelIdeal.main_v29) = val_main_v29 (F := Ideal) x2) :
    StableHlo.after (hostOps23 (F := Ideal)) V (Proc.devRef .tc KernelIdeal.main_v268) = val_main_v290 (F := Ideal) x1 x2 x4 x9 x10 := by
  after_results_simp
  rw [h_v6, h_v255, h_v3, h_v29]
  rfl

/-- The same at the run's stage contents: the stretch's entry is stage 47, its exit stage 48. -/
theorem host23_v268 (c : Dev KernelIdeal.nD)
    (x1 : (⟨ReferenceIdeal.S100000x16, .f32⟩ : BufTy).Contents (Elt Ideal))
    (x2 : (⟨ReferenceIdeal.S2x1600000, .i32⟩ : BufTy).Contents (Elt Ideal))
    (x4 : (⟨ReferenceIdeal.S100000, .i1⟩ : BufTy).Contents (Elt Ideal))
    (x9 : (⟨ReferenceIdeal.S10x16x16, .f32⟩ : BufTy).Contents (Elt Ideal))
    (x10 : (⟨ReferenceIdeal.S10x16, .f32⟩ : BufTy).Contents (Elt Ideal))
    (h_v6 : W47 (F := Ideal) m ρ c (Proc.devRef .tc KernelIdeal.main_v6) = val_main_v6 (F := Ideal) x2)
    (h_v255 : W47 (F := Ideal) m ρ c (Proc.devRef .tc KernelIdeal.main_v255) = val_main_v277 (F := Ideal) x1 x2 x4 x9 x10)
    (h_v3 : W47 (F := Ideal) m ρ c (Proc.devRef .tc KernelIdeal.main_v3) = val_main_v3 (F := Ideal) x2)
    (h_v29 : W47 (F := Ideal) m ρ c (Proc.devRef .tc KernelIdeal.main_v29) = val_main_v29 (F := Ideal) x2) :
    W48 (F := Ideal) m ρ c (Proc.devRef .tc KernelIdeal.main_v268) = val_main_v290 (F := Ideal) x1 x2 x4 x9 x10 :=
  host23_v268_of (W47 (F := Ideal) m ρ c) x1 x2 x4 x9 x10 h_v6 h_v255 h_v3 h_v29

set_option maxRecDepth 8192 in
/-- Label layer 9's bias as a `[16]` vector: row 9 of the stacked biases. -/
theorem host23_v270_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps23 (F := Ideal)) V (Proc.devRef .tc KernelIdeal.main_v270) = val_main_v276 (F := Ideal) x10 := by
  after_results_simp
  rw [h_arg10]
  rfl

/-- The same at the run's stage contents: the stretch's entry is stage 47, its exit stage 48. -/
theorem host23_v270 (c : Dev KernelIdeal.nD)
    (x10 : (⟨ReferenceIdeal.S10x16, .f32⟩ : BufTy).Contents (Elt Ideal))
    (h_arg10 : W47 (F := Ideal) m ρ c (Proc.devRef .tc KernelIdeal.main_arg10) = x10) :
    W48 (F := Ideal) m ρ c (Proc.devRef .tc KernelIdeal.main_v270) = val_main_v276 (F := Ideal) x10 :=
  host23_v270_of (W47 (F := Ideal) m ρ c) x10 h_arg10

set_option maxRecDepth 8192 in
/-- Label layer 9's bias as one `[1,16]` row: row 9 of the stacked biases, relaid. -/
theorem host23_v271_of (V : Valuation KernelIdeal.τ KernelIdeal.sig (Elt Ideal))
    (x10 : (⟨ReferenceIdeal.S10x16, .f32⟩ : BufTy).Contents (Elt Ideal))
    (h_arg10 : V (Proc.devRef .tc KernelIdeal.main_arg10) = x10) :
    StableHlo.after (hostOps23 (F := Ideal)) V (Proc.devRef .tc KernelIdeal.main_v271)
      = shapeCast KernelIdeal.S1x16 (val_main_v276 (F := Ideal) x10) KernelIdeal.Facts₀.shapeCasts_S16_S1x16 := by
  after_results_simp
  rw [h_arg10]
  rfl

/-- The same at the run's stage contents: the stretch's entry is stage 47, its exit stage 48. -/
theorem host23_v271 (c : Dev KernelIdeal.nD)
    (x10 : (⟨ReferenceIdeal.S10x16, .f32⟩ : BufTy).Contents (Elt Ideal))
    (h_arg10 : W47 (F := Ideal) m ρ c (Proc.devRef .tc KernelIdeal.main_arg10) = x10) :
    W48 (F := Ideal) m ρ c (Proc.devRef .tc KernelIdeal.main_v271)
      = shapeCast KernelIdeal.S1x16 (val_main_v276 (F := Ideal) x10) KernelIdeal.Facts₀.shapeCasts_S16_S1x16 :=
  host23_v271_of (W47 (F := Ideal) m ρ c) x10 h_arg10

set_option maxRecDepth 8192 in
/-- The node mask over the 16 label columns, widened from one bit to 32-bit integers. -/
theorem host23_v272_of (V : Valuation KernelIdeal.τ KernelIdeal.sig (Elt Ideal)) :
    StableHlo.after (hostOps23 (F := Ideal)) V (Proc.devRef .tc KernelIdeal.main_v272)
      = extui 32 (V (Proc.devRef .tc KernelIdeal.main_v63) : (⟨KernelIdeal.S100000x16, .i1⟩ : BufTy).Contents (Elt Ideal)) KernelIdeal.Facts₀.natLt_1_32 := by
  after_results_simp <;> rfl

/-- The same at the run's stage contents: the stretch's entry is stage 47, its exit stage 48. -/
theorem host23_v272 (c : Dev KernelIdeal.nD) :
    W48 (F := Ideal) m ρ c (Proc.devRef .tc KernelIdeal.main_v272)
      = extui 32 ((W47 (F := Ideal) m ρ c) (Proc.devRef .tc KernelIdeal.main_v63) : (⟨KernelIdeal.S100000x16, .i1⟩ : BufTy).Contents (Elt Ideal)) KernelIdeal.Facts₀.natLt_1_32 :=
  host23_v272_of (W47 (F := Ideal) m ρ c)

end Cert.KV.Host

end
-- ==== Proof.ChainL9.lean ====
/-
  Label layer 9, stage by stage: the layer's 16×16 weight is the reference's slice of the weight stack; the linear map of the
  current labels is the whole matrix product; the aggregation is the reference's gather, normalisation and scatter-add
  applied to it; the update keeps the given label where the mask bit is set and otherwise adds the layer's bias.  The bias row the update finds is the layer's bias vector, and the integer mask it finds is nonzero exactly
  where the mask bit is set.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg22
import proofs.«146329_j1168231104595_1_alg».proof.Proof.Reg23
import proofs.«146329_j1168231104595_1_alg».proof.Proof.HostPro
import proofs.«146329_j1168231104595_1_alg».proof.Proof.HostFeat
import proofs.«146329_j1168231104595_1_alg».proof.Proof.HostL9
import proofs.«146329_j1168231104595_1_alg».proof.Proof.KVTac
import proofs.«146329_j1168231104595_1_alg».proof.Proof.KeepA1
import proofs.«146329_j1168231104595_1_alg».proof.Proof.KeepA4
import proofs.«146329_j1168231104595_1_alg».proof.Proof.KeepA9
import proofs.«146329_j1168231104595_1_alg».proof.Proof.KeepA10
import proofs.«146329_j1168231104595_1_alg».proof.Proof.KeepV3
import proofs.«146329_j1168231104595_1_alg».proof.Proof.KeepV6
import proofs.«146329_j1168231104595_1_alg».proof.Proof.KeepV29
import proofs.«146329_j1168231104595_1_alg».proof.Proof.KeepV63

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer's weight, as the linear map finds it. -/
theorem L9_w (c : Dev nD) : W46 (F := Ideal) m ρ c (Proc.devRef .tc main_v254) = Cert.ReferenceIdeal.ReadP.val_main_v274 (F := Ideal) (m ((c : Thread nD τ).loc main_arg9)) :=
  Cert.KV.Host.host22_v254 m ρ c _ (KeepA9.k45 m ρ c)

/-- The layer's linear map: the whole product of the current labels and the weight. -/
theorem L9_mm (c : Dev nD)
    (hin : W45 (F := Ideal) m ρ c (Proc.devRef .tc main_v252) = Cert.ReferenceIdeal.ReadP.val_main_v272 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W47 (F := Ideal) m ρ c (Proc.devRef .tc main_v255) = Cert.ReferenceIdeal.ReadP.val_main_v277 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hx : W46 (F := Ideal) m ρ c (Proc.devRef .tc main_v252) = Cert.ReferenceIdeal.ReadP.val_main_v272 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := (show W46 (F := Ideal) m ρ c (Proc.devRef .tc main_v252) = W45 (F := Ideal) m ρ c (Proc.devRef .tc main_v252) from by keep_host hostOps22).trans hin
  refine ((W47_arr m ρ c 2).trans (Reg22.final (V46 (F := Ideal) m ρ) c)).trans ?_
  show Host.dotGeneral (F := Ideal) (φ₁ := .f32) (φ₂ := .f32) Cert.ReferenceIdeal.dot_S100000x16_S16x16_S100000x16_1_0_0_1_n_n none (W46 (F := Ideal) m ρ c (Proc.devRef .tc main_v252)) (W46 (F := Ideal) m ρ c (Proc.devRef .tc main_v254)) = _
  rw [hx, L9_w m ρ c]
  rfl

/-- The layer's aggregation. -/
theorem L9_agg (c : Dev nD)
    (hin : W45 (F := Ideal) m ρ c (Proc.devRef .tc main_v252) = Cert.ReferenceIdeal.ReadP.val_main_v272 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W48 (F := Ideal) m ρ c (Proc.devRef .tc main_v268) = Cert.ReferenceIdeal.ReadP.val_main_v290 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have h3 : W47 (F := Ideal) m ρ c (Proc.devRef .tc main_v3) = Cert.ReferenceIdeal.ReadP.val_main_v3 (F := Ideal) (m ((c : Thread nD τ).loc main_arg2)) := (KeepV3.k47 m ρ c).trans (Cert.KV.Host.host0_v3 m ρ c)
  have h6 : W47 (F := Ideal) m ρ c (Proc.devRef .tc main_v6) = Cert.ReferenceIdeal.ReadP.val_main_v6 (F := Ideal) (m ((c : Thread nD τ).loc main_arg2)) := (KeepV6.k47 m ρ c).trans (Cert.KV.Host.host0_v6 m ρ c)
  have h29 : W47 (F := Ideal) m ρ c (Proc.devRef .tc main_v29) = Cert.ReferenceIdeal.ReadP.val_main_v29 (F := Ideal) (m ((c : Thread nD τ).loc main_arg2)) := (KeepV29.k47 m ρ c).trans (Cert.KV.Host.host0_v29 m ρ c)
  exact Cert.KV.Host.host23_v268 m ρ c _ _ _ _ _ h6 (L9_mm m ρ c hin) h3 h29

/-- The bias row the update finds is the layer's bias vector. -/
theorem L9_brow (c : Dev nD) (q : Fin 16) :
    (V48 (F := Ideal) m ρ c (Pipeline.arrRef spec23 1) : S1x16.Idx → Elt Ideal .f32) (ix2 (0 : Fin 1) q) = (Cert.ReferenceIdeal.ReadP.val_main_v276 (F := Ideal) (m ((c : Thread nD τ).loc main_arg10))) (ix1 q) := by
  show (W48 (F := Ideal) m ρ c (Proc.devRef .tc main_v271) : S1x16.Idx → Elt Ideal .f32) (ix2 (0 : Fin 1) q) = _
  rw [Cert.KV.Host.host23_v271 m ρ c _ (KeepA10.k47 m ρ c)]
  exact Cert.KernelBody.shapeCast_row_apply _ _ q

/-- The integer mask the update finds is the mask bit of the row, widened. -/
theorem L9_mask (c : Dev nD) :
    (V48 (F := Ideal) m ρ c (Pipeline.arrRef spec23 3) : S100000x16.Idx → BitVec 32) = Cert.KV.Dense.kerMask16 (m ((c : Thread nD τ).loc main_arg4)) := by
  show (W48 (F := Ideal) m ρ c (Proc.devRef .tc main_v272) : S100000x16.Idx → BitVec 32) = _
  rw [Cert.KV.Host.host23_v272 m ρ c, (KeepV63.k47 m ρ c).trans (Cert.KV.Host.host4_v63 m ρ c _ (KeepA4.k9 m ρ c))]
  rfl

/-- The layer's output labels. -/
theorem layer9 (c : Dev nD)
    (hin : W45 (F := Ideal) m ρ c (Proc.devRef .tc main_v252) = Cert.ReferenceIdeal.ReadP.val_main_v272 (F := Ideal) (m ((c : Thread nD τ).loc main_arg1)) (m ((c : Thread nD τ).loc main_arg2)) (m ((c : Thread nD τ).loc main_arg4)) (m ((c : Thread nD τ).loc main_arg9)) (m ((c : Thread nD τ).loc main_arg10))) : W49 (F := Ideal) m ρ c (Proc.devRef .tc main_v273) = Cert.ReferenceIdeal.ReadP.val_main_v294 (F := Ideal) (m ((c : Thread nD τ).loc main_arg1)) (m ((c : Thread nD τ).loc main_arg2)) (m ((c : Thread nD τ).loc main_arg4)) (m ((c : Thread nD τ).loc main_arg9)) (m ((c : Thread nD τ).loc main_arg10)) := by
  have hy : W48 (F := Ideal) m ρ c (Proc.devRef .tc main_arg1) = (m ((c : Thread nD τ).loc main_arg1)) := KeepA1.k48 m ρ c
  refine ((W49_arr m ρ c 4).trans (Reg23.final (V48 (F := Ideal) m ρ) c (Cert.ReferenceIdeal.ReadP.val_main_v276 (F := Ideal) (m ((c : Thread nD τ).loc main_arg10))) (m ((c : Thread nD τ).loc main_arg4)) (L9_brow m ρ c) (L9_mask m ρ c))).trans ?_
  show Cert.KV.Dense.refUpdateLast16 (W48 (F := Ideal) m ρ c (Proc.devRef .tc main_v268)) (Cert.ReferenceIdeal.ReadP.val_main_v276 (F := Ideal) (m ((c : Thread nD τ).loc main_arg10))) (W48 (F := Ideal) m ρ c (Proc.devRef .tc main_arg1)) (m ((c : Thread nD τ).loc main_arg4)) = _
  rw [L9_agg m ρ c hin, hy]
  rfl

end Cert.KernelIdeal.KV

end
-- ==== Proof.Reg24.lean ====
/-
  Region 24: the dense head.  Point t reads rows 5000·t … of the convolved features (128 columns), of the propagated labels
  (16) and of the walk embedding (64), and the whole of three weight pieces and of the bias row; it writes the logistic
  function of the three products' sum plus the bias.  The three weight pieces the region finds are rows 0–127, 128–143 and
  144–207 of the head's weight, so the three sums are one sum over the 208 stacked columns; read back after the last point
  the output array is the reference's head applied to the three arrays as the region finds them.
-/
import proofs.«146329_j1168231104595_1_alg».proof.Proof.Gen.KernelIdeal.Frame
import proofs.«146329_j1168231104595_1_alg».proof.Proof.KForms
import Idealize.ShloMosaic.Lib.Pipeline.Value
import Idealize.ShloMosaic.Lib.ValueIdx

set_option maxRecDepth 16384

noncomputable section

namespace Cert.KernelIdeal.KV.Reg24

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block (t, 0), a small operand at block (0, 0). -/
theorem idx : ∀ t : Fin cfg24.N,
    win24_0.index t (0 : Fin 2) = t.val ∧ win24_0.index t (1 : Fin 2) = 0
    ∧ win24_1.index t (0 : Fin 2) = t.val ∧ win24_1.index t (1 : Fin 2) = 0
    ∧ win24_2.index t (0 : Fin 2) = t.val ∧ win24_2.index t (1 : Fin 2) = 0
    ∧ win24_3.index t (0 : Fin 2) = 0 ∧ win24_3.index t (1 : Fin 2) = 0
    ∧ win24_4.index t (0 : Fin 2) = 0 ∧ win24_4.index t (1 : Fin 2) = 0
    ∧ win24_5.index t (0 : Fin 2) = 0 ∧ win24_5.index t (1 : Fin 2) = 0
    ∧ win24_6.index t (0 : Fin 2) = 0 ∧ win24_6.index t (1 : Fin 2) = 0
    ∧ win24_7.index t (0 : Fin 2) = t.val ∧ win24_7.index t (1 : Fin 2) = 0 :=
  (by decide +kernel : ∀ t : Fin grid24.N, _)

/-- Window 0's block at point t is rows 5000·t … 5000·t + 4999 of its array. -/
theorem iblk0_apply (c : Dev nD) (t : Fin cfg24.N) (x : S5000x128.Idx) (k : S100000x128.Idx)
    (hk0 : (k 0).val = 5000 * t.val + (x 0).val) (hk1 : (k 1).val = (x 1).val) :
    (iblk24 V c 0 t : Vec Ideal S5000x128 .f32) x = (V c (Pipeline.arrRef spec24 0) : S100000x128.Idx → Elt Ideal .f32) k := by
  obtain ⟨e0, e1, -, -, -, -, -, -, -, -, -, -, -, -, -, -⟩ := idx t
  unfold iblk24
  rw [View.read_apply]
  show (V c (Pipeline.arrRef spec24 0) : S100000x128.Idx → Elt Ideal .f32) _ = _
  congr 1
  funext a
  apply Fin.ext
  match a with
  | ⟨0, _⟩ => show win24_0.index t 0 * 5000 + 1 * (x 0).val = (k 0).val; rw [e0, hk0]; omega
  | ⟨1, _⟩ => show win24_0.index t 1 * 128 + 1 * (x 1).val = (k 1).val; rw [e1, hk1]; omega

/-- Window 1's block at point t is rows 5000·t … 5000·t + 4999 of its array. -/
theorem iblk1_apply (c : Dev nD) (t : Fin cfg24.N) (x : S5000x16.Idx) (k : S100000x16.Idx)
    (hk0 : (k 0).val = 5000 * t.val + (x 0).val) (hk1 : (k 1).val = (x 1).val) :
    (iblk24 V c 1 t : Vec Ideal S5000x16 .f32) x = (V c (Pipeline.arrRef spec24 1) : S100000x16.Idx → Elt Ideal .f32) k := by
  obtain ⟨-, -, e0, e1, -, -, -, -, -, -, -, -, -, -, -, -⟩ := idx t
  unfold iblk24
  rw [View.read_apply]
  show (V c (Pipeline.arrRef spec24 1) : S100000x16.Idx → Elt Ideal .f32) _ = _
  congr 1
  funext a
  apply Fin.ext
  match a with
  | ⟨0, _⟩ => show win24_1.index t 0 * 5000 + 1 * (x 0).val = (k 0).val; rw [e0, hk0]; omega
  | ⟨1, _⟩ => show win24_1.index t 1 * 16 + 1 * (x 1).val = (k 1).val; rw [e1, hk1]; omega

/-- Window 2's block at point t is rows 5000·t … 5000·t + 4999 of its array. -/
theorem iblk2_apply (c : Dev nD) (t : Fin cfg24.N) (x : S5000x64.Idx) (k : S100000x64.Idx)
    (hk0 : (k 0).val = 5000 * t.val + (x 0).val) (hk1 : (k 1).val = (x 1).val) :
    (iblk24 V c 2 t : Vec Ideal S5000x64 .f32) x = (V c (Pipeline.arrRef spec24 2) : S100000x64.Idx → Elt Ideal .f32) k := by
  obtain ⟨-, -, -, -, e0, e1, -, -, -, -, -, -, -, -, -, -⟩ := idx t
  unfold iblk24
  rw [View.read_apply]
  show (V c (Pipeline.arrRef spec24 2) : S100000x64.Idx → Elt Ideal .f32) _ = _
  congr 1
  funext a
  apply Fin.ext
  match a with
  | ⟨0, _⟩ => show win24_2.index t 0 * 5000 + 1 * (x 0).val = (k 0).val; rw [e0, hk0]; omega
  | ⟨1, _⟩ => show win24_2.index t 1 * 64 + 1 * (x 1).val = (k 1).val; rw [e1, hk1]; omega

/-- Window 3's block at every point is the whole of its (small) array. -/
theorem iblk3_apply (c : Dev nD) (t : Fin cfg24.N) (x : S128x16.Idx) :
    (iblk24 V c 3 t : Vec Ideal S128x16 .f32) x = (V c (Pipeline.arrRef spec24 3) : S128x16.Idx → Elt Ideal .f32) x := by
  obtain ⟨-, -, -, -, -, -, e0, e1, -, -, -, -, -, -, -, -⟩ := idx t
  unfold iblk24
  rw [View.read_apply]
  show (V c (Pipeline.arrRef spec24 3) : S128x16.Idx → Elt Ideal .f32) _ = _
  congr 1
  funext a
  apply Fin.ext
  match a with
  | ⟨0, _⟩ => show win24_3.index t 0 * 128 + 1 * (x 0).val = (x 0).val; rw [e0]; omega
  | ⟨1, _⟩ => show win24_3.index t 1 * 16 + 1 * (x 1).val = (x 1).val; rw [e1]; omega

/-- Window 4's block at every point is the whole of its (small) array. -/
theorem iblk4_apply (c : Dev nD) (t : Fin cfg24.N) (x : S16x16.Idx) :
    (iblk24 V c 4 t : Vec Ideal S16x16 .f32) x = (V c (Pipeline.arrRef spec24 4) : S16x16.Idx → Elt Ideal .f32) x := by
  obtain ⟨-, -, -, -, -, -, -, -, e0, e1, -, -, -, -, -, -⟩ := idx t
  unfold iblk24
  rw [View.read_apply]
  show (V c (Pipeline.arrRef spec24 4) : S16x16.Idx → Elt Ideal .f32) _ = _
  congr 1
  funext a
  apply Fin.ext
  match a with
  | ⟨0, _⟩ => show win24_4.index t 0 * 16 + 1 * (x 0).val = (x 0).val; rw [e0]; omega
  | ⟨1, _⟩ => show win24_4.index t 1 * 16 + 1 * (x 1).val = (x 1).val; rw [e1]; omega

/-- Window 5's block at every point is the whole of its (small) array. -/
theorem iblk5_apply (c : Dev nD) (t : Fin cfg24.N) (x : S64x16.Idx) :
    (iblk24 V c 5 t : Vec Ideal S64x16 .f32) x = (V c (Pipeline.arrRef spec24 5) : S64x16.Idx → Elt Ideal .f32) x := by
  obtain ⟨-, -, -, -, -, -, -, -, -, -, e0, e1, -, -, -, -⟩ := idx t
  unfold iblk24
  rw [View.read_apply]
  show (V c (Pipeline.arrRef spec24 5) : S64x16.Idx → Elt Ideal .f32) _ = _
  congr 1
  funext a
  apply Fin.ext
  match a with
  | ⟨0, _⟩ => show win24_5.index t 0 * 64 + 1 * (x 0).val = (x 0).val; rw [e0]; omega
  | ⟨1, _⟩ => show win24_5.index t 1 * 16 + 1 * (x 1).val = (x 1).val; rw [e1]; omega

/-- Window 6's block at every point is the whole of its (small) array. -/
theorem iblk6_apply (c : Dev nD) (t : Fin cfg24.N) (x : S1x16.Idx) :
    (iblk24 V c 6 t : Vec Ideal S1x16 .f32) x = (V c (Pipeline.arrRef spec24 6) : S1x16.Idx → Elt Ideal .f32) x := by
  obtain ⟨-, -, -, -, -, -, -, -, -, -, -, -, e0, e1, -, -⟩ := idx t
  unfold iblk24
  rw [View.read_apply]
  show (V c (Pipeline.arrRef spec24 6) : S1x16.Idx → Elt Ideal .f32) _ = _
  congr 1
  funext a
  apply Fin.ext
  match a with
  | ⟨0, _⟩ => show win24_6.index t 0 * 1 + 1 * (x 0).val = (x 0).val; rw [e0]; omega
  | ⟨1, _⟩ => show win24_6.index t 1 * 16 + 1 * (x 1).val = (x 1).val; rw [e1]; omega

/-- What point t writes back is block t of the whole-array function of the arrays as the region finds them. -/
theorem flushed_eq (c : Dev nD) (Wf : FVec Ideal Cert.ReferenceIdeal.S208x16 .f32) (bf : FVec Ideal Cert.ReferenceIdeal.S16 .f32)
    (hW1 : (V c (Pipeline.arrRef spec24 3) : S128x16.Idx → Elt Ideal .f32) = extractStridedSlice S128x16 ![0, 0] Wf Facts₀.slices_S208x16_S128x16_0_0)
    (hW2 : (V c (Pipeline.arrRef spec24 4) : S16x16.Idx → Elt Ideal .f32) = extractStridedSlice S16x16 ![128, 0] Wf Facts₀.slices_S208x16_S16x16_128_0)
    (hW3 : (V c (Pipeline.arrRef spec24 5) : S64x16.Idx → Elt Ideal .f32) = extractStridedSlice S64x16 ![144, 0] Wf Facts₀.slices_S208x16_S64x16_144_0)
    (hb : ∀ q : Fin 16, (V c (Pipeline.arrRef spec24 6) : S1x16.Idx → Elt Ideal .f32) (ix2 (0 : Fin 1) q) = bf (ix1 q)) (t : Fin cfg24.N) :
    (dat24 V c).flushed 7 t = ((cfg24.win 7).blk t).view.read (Elt Ideal)
      (Cert.KV.Dense.refFuse (V c (Pipeline.arrRef spec24 0) : FVec Ideal S100000x128 .f32) (V c (Pipeline.arrRef spec24 1) : FVec Ideal S100000x16 .f32) (V c (Pipeline.arrRef spec24 2) : FVec Ideal S100000x64 .f32) Wf bf) := by
  show (cfg24.win 7).cut (grid24.coords t) ((dat24 V c).after 7 t) = _
  rw [after24_7]
  unfold out24_7
  rw [View.canon_unit_zero hz]
  simp only [View.ld_unit_zero (S := S5000x128) hz, View.ld_unit_zero (S := S5000x16) hz, View.ld_unit_zero (S := S5000x64) hz, View.ld_unit_zero (S := S128x16) hz, View.ld_unit_zero (S := S16x16) hz, View.ld_unit_zero (S := S64x16) hz, View.ld_unit_zero (S := S1x16) hz]
  obtain ⟨-, -, -, -, -, -, -, -, -, -, -, -, -, -, e0, e1⟩ := idx t
  funext j
  refine Cert.KV.Dense.fuse_at (V c (Pipeline.arrRef spec24 0) : FVec Ideal S100000x128 .f32) (V c (Pipeline.arrRef spec24 1) : FVec Ideal S100000x16 .f32) (V c (Pipeline.arrRef spec24 2) : FVec Ideal S100000x64 .f32) Wf bf (iblk24 V c 0 t) (iblk24 V c 1 t) (iblk24 V c 2 t) (iblk24 V c 3 t) (iblk24 V c 4 t) (iblk24 V c 5 t) (iblk24 V c 6 t) t.val (fun x k h0 h1 => iblk0_apply V c t x k h0 h1) (fun x k h0 h1 => iblk1_apply V c t x k h0 h1) (fun x k h0 h1 => iblk2_apply V c t x k h0 h1) (V c (Pipeline.arrRef spec24 3) : FVec Ideal S128x16 .f32) (V c (Pipeline.arrRef spec24 4) : FVec Ideal S16x16 .f32) (V c (Pipeline.arrRef spec24 5) : FVec Ideal S64x16 .f32) hW1 hW2 hW3 (fun x => iblk3_apply V c t x) (fun x => iblk4_apply V c t x) (fun x => iblk5_apply V c t x) (fun q => (iblk6_apply V c t (ix2 (0 : Fin 1) q)).trans (hb q)) j _ ?_ ?_
  · show win24_7.index t 0 * 5000 + 1 * (j 0).val = 5000 * t.val + (j 0).val; rw [e0]; omega
  · show win24_7.index t 1 * 16 + 1 * (j 1).val = (j 1).val; rw [e1]; omega

/-- An index of the output array is in point t's block iff each coordinate is in the block's range on its axis. -/
theorem mem_blk (t : Fin cfg24.N) (i : S100000x16.Idx) :
    i ∈ ((cfg24.win 7).blk t).view.set ↔ ∀ a : Fin 2, win24_7.index t a * S5000x16.size a ≤ (i a).val ∧ (i a).val < win24_7.index t a * S5000x16.size a + S5000x16.size a := by
  show i ∈ ((View.whole main_v278).slice (win24_7.rect t)).set ↔ _
  rw [View.set_slice_whole, Rect.mem_set_unit]
  exact Iff.rfl

/-- Every row lies in some point's block: row i in block i / 5000. -/
theorem cover (i : S100000x16.Idx) : ∃ t : Fin cfg24.N, (cfg24.win 7).flush t = true ∧ i ∈ ((cfg24.win 7).blk t).view.set := by
  have hN : cfg24.N = 20 := N_24
  have hi0 : (i 0).val < 100000 := (i 0).isLt
  have hi1 : (i 1).val < 16 := (i 1).isLt
  refine ⟨⟨(i 0).val / 5000, by rw [hN]; omega⟩, flush24_7 _, ?_⟩
  rw [mem_blk]
  obtain ⟨-, -, -, -, -, -, -, -, -, -, -, -, -, -, e0, e1⟩ := idx ⟨(i 0).val / 5000, by rw [hN]; omega⟩
  intro a
  match a with
  | ⟨0, _⟩ => show win24_7.index _ 0 * 5000 ≤ (i 0).val ∧ (i 0).val < win24_7.index _ 0 * 5000 + 5000; rw [e0]; show (i 0).val / 5000 * 5000 ≤ (i 0).val ∧ (i 0).val < (i 0).val / 5000 * 5000 + 5000; omega
  | ⟨1, _⟩ => show win24_7.index _ 1 * 16 ≤ (i 1).val ∧ (i 1).val < win24_7.index _ 1 * 16 + 16; rw [e1]; omega

/-- The output array after the region, as one function of the arrays the region finds. -/
theorem final (c : Dev nD) (Wf : FVec Ideal Cert.ReferenceIdeal.S208x16 .f32) (bf : FVec Ideal Cert.ReferenceIdeal.S16 .f32)
    (hW1 : (V c (Pipeline.arrRef spec24 3) : S128x16.Idx → Elt Ideal .f32) = extractStridedSlice S128x16 ![0, 0] Wf Facts₀.slices_S208x16_S128x16_0_0)
    (hW2 : (V c (Pipeline.arrRef spec24 4) : S16x16.Idx → Elt Ideal .f32) = extractStridedSlice S16x16 ![128, 0] Wf Facts₀.slices_S208x16_S16x16_128_0)
    (hW3 : (V c (Pipeline.arrRef spec24 5) : S64x16.Idx → Elt Ideal .f32) = extractStridedSlice S64x16 ![144, 0] Wf Facts₀.slices_S208x16_S64x16_144_0)
    (hb : ∀ q : Fin 16, (V c (Pipeline.arrRef spec24 6) : S1x16.Idx → Elt Ideal .f32) (ix2 (0 : Fin 1) q) = bf (ix1 q)) :
    (dat24 V c).arrAt 7 cfg24.N
      = Cert.KV.Dense.refFuse (V c (Pipeline.arrRef spec24 0) : FVec Ideal S100000x128 .f32) (V c (Pipeline.arrRef spec24 1) : FVec Ideal S100000x16 .f32) (V c (Pipeline.arrRef spec24 2) : FVec Ideal S100000x64 .f32) Wf bf :=
  (dat24 V c).arrAt_eq_of_cover 7 _ (fun t _ => flushed_eq V c Wf bf hW1 hW2 hW3 hb t) (cover)

end Cert.KernelIdeal.KV.Reg24

end
-- ==== Proof.HostFin.lean ====
/-
The host stretch before the last region: the three row blocks of the output weight and the output bias as a row.
Every statement is first proved for an arbitrary buffer valuation `V` at the stretch's entry (`_of`), then instantiated
at the run's stage contents.
-/
import proofs.«146329_j1168231104595_1_alg».proof.Proof.Gen.KernelIdeal.Frame
import proofs.«146329_j1168231104595_1_alg».proof.Proof.ReadP
import Idealize.ShloMosaic.Lib.StableHlo.Run

noncomputable section

namespace Cert.KV.Host

open Idealize.ShloMosaic Idealize.ShloMosaic.TcCoe Idealize.SL.Sem
open Cert.KernelIdeal.Gen Cert.ReferenceIdeal.ReadP

variable (m : (ℓ : Loc KernelIdeal.nD KernelIdeal.τ KernelIdeal.sig) → Buf (Elt Ideal) ℓ)
  (ρ : Dev KernelIdeal.nD → PrngReg)

set_option maxRecDepth 8192 in
/-- The output weight's rows 0 to 127: the block that multiplies the feature half. -/
theorem host24_v274_of (V : Valuation KernelIdeal.τ KernelIdeal.sig (Elt Ideal)) :
    StableHlo.after (hostOps24 (F := Ideal)) V (Proc.devRef .tc KernelIdeal.main_v274)
      = extractStridedSlice KernelIdeal.S128x16 ![0, 0] (V (Proc.devRef .tc KernelIdeal.main_arg11) : (⟨KernelIdeal.S208x16, .f32⟩ : BufTy).Contents (Elt Ideal)) KernelIdeal.Facts₀.slices_S208x16_S128x16_0_0 := by
  after_results_simp <;> rfl

/-- The same at the run's stage contents: the stretch's entry is stage 49, its exit stage 50. -/
theorem host24_v274 (c : Dev KernelIdeal.nD) :
    W50 (F := Ideal) m ρ c (Proc.devRef .tc KernelIdeal.main_v274)
      = extractStridedSlice KernelIdeal.S128x16 ![0, 0] ((W49 (F := Ideal) m ρ c) (Proc.devRef .tc KernelIdeal.main_arg11) : (⟨KernelIdeal.S208x16, .f32⟩ : BufTy).Contents (Elt Ideal)) KernelIdeal.Facts₀.slices_S208x16_S128x16_0_0 :=
  host24_v274_of (W49 (F := Ideal) m ρ c)

set_option maxRecDepth 8192 in
/-- The output weight's rows 128 to 143: the block that multiplies the propagated labels. -/
theorem host24_v275_of (V : Valuation KernelIdeal.τ KernelIdeal.sig (Elt Ideal)) :
    StableHlo.after (hostOps24 (F := Ideal)) V (Proc.devRef .tc KernelIdeal.main_v275)
      = extractStridedSlice KernelIdeal.S16x16 ![128, 0] (V (Proc.devRef .tc KernelIdeal.main_arg11) : (⟨KernelIdeal.S208x16, .f32⟩ : BufTy).Contents (Elt Ideal)) KernelIdeal.Facts₀.slices_S208x16_S16x16_128_0 := by
  after_results_simp <;> rfl

/-- The same at the run's stage contents: the stretch's entry is stage 49, its exit stage 50. -/
theorem host24_v275 (c : Dev KernelIdeal.nD) :
    W50 (F := Ideal) m ρ c (Proc.devRef .tc KernelIdeal.main_v275)
      = extractStridedSlice KernelIdeal.S16x16 ![128, 0] ((W49 (F := Ideal) m ρ c) (Proc.devRef .tc KernelIdeal.main_arg11) : (⟨KernelIdeal.S208x16, .f32⟩ : BufTy).Contents (Elt Ideal)) KernelIdeal.Facts₀.slices_S208x16_S16x16_128_0 :=
  host24_v275_of (W49 (F := Ideal) m ρ c)

set_option maxRecDepth 8192 in
/-- The output weight's rows 144 to 207: the last block. -/
theorem host24_v276_of (V : Valuation KernelIdeal.τ KernelIdeal.sig (Elt Ideal)) :
    StableHlo.after (hostOps24 (F := Ideal)) V (Proc.devRef .tc KernelIdeal.main_v276)
      = extractStridedSlice KernelIdeal.S64x16 ![144, 0] (V (Proc.devRef .tc KernelIdeal.main_arg11) : (⟨KernelIdeal.S208x16, .f32⟩ : BufTy).Contents (Elt Ideal)) KernelIdeal.Facts₀.slices_S208x16_S64x16_144_0 := by
  after_results_simp <;> rfl

/-- The same at the run's stage contents: the stretch's entry is stage 49, its exit stage 50. -/
theorem host24_v276 (c : Dev KernelIdeal.nD) :
    W50 (F := Ideal) m ρ c (Proc.devRef .tc KernelIdeal.main_v276)
      = extractStridedSlice KernelIdeal.S64x16 ![144, 0] ((W49 (F := Ideal) m ρ c) (Proc.devRef .tc KernelIdeal.main_arg11) : (⟨KernelIdeal.S208x16, .f32⟩ : BufTy).Contents (Elt Ideal)) KernelIdeal.Facts₀.slices_S208x16_S64x16_144_0 :=
  host24_v276_of (W49 (F := Ideal) m ρ c)

set_option maxRecDepth 8192 in
/-- The output bias: the `[16]` vector relaid as one `[1,16]` row. -/
theorem host24_v277_of (V : Valuation KernelIdeal.τ KernelIdeal.sig (Elt Ideal)) :
    StableHlo.after (hostOps24 (F := Ideal)) V (Proc.devRef .tc KernelIdeal.main_v277)
      = shapeCast KernelIdeal.S1x16 (V (Proc.devRef .tc KernelIdeal.main_arg12) : (⟨KernelIdeal.S16, .f32⟩ : BufTy).Contents (Elt Ideal)) KernelIdeal.Facts₀.shapeCasts_S16_S1x16 := by
  after_results_simp <;> rfl

/-- The same at the run's stage contents: the stretch's entry is stage 49, its exit stage 50. -/
theorem host24_v277 (c : Dev KernelIdeal.nD) :
    W50 (F := Ideal) m ρ c (Proc.devRef .tc KernelIdeal.main_v277)
      = shapeCast KernelIdeal.S1x16 ((W49 (F := Ideal) m ρ c) (Proc.devRef .tc KernelIdeal.main_arg12) : (⟨KernelIdeal.S16, .f32⟩ : BufTy).Contents (Elt Ideal)) KernelIdeal.Facts₀.shapeCasts_S16_S1x16 :=
  host24_v277_of (W49 (F := Ideal) m ρ c)

end Cert.KV.Host

end
-- ==== Proof.KeepA3.lean ====
/-
  The buffer arg3 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA3

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg3) = W0 m ρ c (Proc.devRef .tc main_arg3) :=
  (show W1 m ρ c (Proc.devRef .tc main_arg3) = W0 m ρ c (Proc.devRef .tc main_arg3) from (by keep_host hostOps0))
theorem k2 (c : Dev nD) : W2 m ρ c (Proc.devRef .tc main_arg3) = W0 m ρ c (Proc.devRef .tc main_arg3) :=
  ((show W2 m ρ c (Proc.devRef .tc main_arg3) = W1 m ρ c (Proc.devRef .tc main_arg3) from (by keep_host hostOps0_1))).trans (k1 m ρ c)
theorem k3 (c : Dev nD) : W3 m ρ c (Proc.devRef .tc main_arg3) = W0 m ρ c (Proc.devRef .tc main_arg3) :=
  ((show W3 m ρ c (Proc.devRef .tc main_arg3) = W2 m ρ c (Proc.devRef .tc main_arg3) from (by keep_host hostOps0_2))).trans (k2 m ρ c)
theorem k4 (c : Dev nD) : W4 m ρ c (Proc.devRef .tc main_arg3) = W0 m ρ c (Proc.devRef .tc main_arg3) :=
  (W4_of_ne m ρ c main_arg3 (by decide)).trans (k3 m ρ c)
theorem k5 (c : Dev nD) : W5 m ρ c (Proc.devRef .tc main_arg3) = W0 m ρ c (Proc.devRef .tc main_arg3) :=
  ((show W5 m ρ c (Proc.devRef .tc main_arg3) = W4 m ρ c (Proc.devRef .tc main_arg3) from (by keep_host hostOps1))).trans (k4 m ρ c)
theorem k6 (c : Dev nD) : W6 m ρ c (Proc.devRef .tc main_arg3) = W0 m ρ c (Proc.devRef .tc main_arg3) :=
  (W6_of_ne m ρ c main_arg3 (by decide)).trans (k5 m ρ c)
theorem k7 (c : Dev nD) : W7 m ρ c (Proc.devRef .tc main_arg3) = W0 m ρ c (Proc.devRef .tc main_arg3) :=
  (W7_of_ne m ρ c main_arg3 (by decide)).trans (k6 m ρ c)
theorem k8 (c : Dev nD) : W8 m ρ c (Proc.devRef .tc main_arg3) = W0 m ρ c (Proc.devRef .tc main_arg3) :=
  ((show W8 m ρ c (Proc.devRef .tc main_arg3) = W7 m ρ c (Proc.devRef .tc main_arg3) from (by keep_host hostOps3))).trans (k7 m ρ c)
theorem k9 (c : Dev nD) : W9 m ρ c (Proc.devRef .tc main_arg3) = W0 m ρ c (Proc.devRef .tc main_arg3) :=
  (W9_of_ne m ρ c main_arg3 (by decide)).trans (k8 m ρ c)
theorem k10 (c : Dev nD) : W10 m ρ c (Proc.devRef .tc main_arg3) = W0 m ρ c (Proc.devRef .tc main_arg3) :=
  ((show W10 m ρ c (Proc.devRef .tc main_arg3) = W9 m ρ c (Proc.devRef .tc main_arg3) from (by keep_host hostOps4))).trans (k9 m ρ c)
theorem k11 (c : Dev nD) : W11 m ρ c (Proc.devRef .tc main_arg3) = W0 m ρ c (Proc.devRef .tc main_arg3) :=
  (W11_of_ne m ρ c main_arg3 (by decide)).trans (k10 m ρ c)
theorem k12 (c : Dev nD) : W12 m ρ c (Proc.devRef .tc main_arg3) = W0 m ρ c (Proc.devRef .tc main_arg3) :=
  ((show W12 m ρ c (Proc.devRef .tc main_arg3) = W11 m ρ c (Proc.devRef .tc main_arg3) from (by keep_host hostOps5))).trans (k11 m ρ c)
theorem k13 (c : Dev nD) : W13 m ρ c (Proc.devRef .tc main_arg3) = W0 m ρ c (Proc.devRef .tc main_arg3) :=
  (W13_of_ne m ρ c main_arg3 (by decide)).trans (k12 m ρ c)
theorem k14 (c : Dev nD) : W14 m ρ c (Proc.devRef .tc main_arg3) = W0 m ρ c (Proc.devRef .tc main_arg3) :=
  ((show W14 m ρ c (Proc.devRef .tc main_arg3) = W13 m ρ c (Proc.devRef .tc main_arg3) from (by keep_host hostOps6))).trans (k13 m ρ c)
theorem k15 (c : Dev nD) : W15 m ρ c (Proc.devRef .tc main_arg3) = W0 m ρ c (Proc.devRef .tc main_arg3) :=
  (W15_of_ne m ρ c main_arg3 (by decide)).trans (k14 m ρ c)
theorem k16 (c : Dev nD) : W16 m ρ c (Proc.devRef .tc main_arg3) = W0 m ρ c (Proc.devRef .tc main_arg3) :=
  ((show W16 m ρ c (Proc.devRef .tc main_arg3) = W15 m ρ c (Proc.devRef .tc main_arg3) from (by keep_host hostOps7))).trans (k15 m ρ c)
theorem k17 (c : Dev nD) : W17 m ρ c (Proc.devRef .tc main_arg3) = W0 m ρ c (Proc.devRef .tc main_arg3) :=
  (W17_of_ne m ρ c main_arg3 (by decide)).trans (k16 m ρ c)
theorem k18 (c : Dev nD) : W18 m ρ c (Proc.devRef .tc main_arg3) = W0 m ρ c (Proc.devRef .tc main_arg3) :=
  ((show W18 m ρ c (Proc.devRef .tc main_arg3) = W17 m ρ c (Proc.devRef .tc main_arg3) from (by keep_host hostOps8))).trans (k17 m ρ c)
theorem k19 (c : Dev nD) : W19 m ρ c (Proc.devRef .tc main_arg3) = W0 m ρ c (Proc.devRef .tc main_arg3) :=
  (W19_of_ne m ρ c main_arg3 (by decide)).trans (k18 m ρ c)
theorem k20 (c : Dev nD) : W20 m ρ c (Proc.devRef .tc main_arg3) = W0 m ρ c (Proc.devRef .tc main_arg3) :=
  ((show W20 m ρ c (Proc.devRef .tc main_arg3) = W19 m ρ c (Proc.devRef .tc main_arg3) from (by keep_host hostOps9))).trans (k19 m ρ c)
theorem k21 (c : Dev nD) : W21 m ρ c (Proc.devRef .tc main_arg3) = W0 m ρ c (Proc.devRef .tc main_arg3) :=
  (W21_of_ne m ρ c main_arg3 (by decide)).trans (k20 m ρ c)
theorem k22 (c : Dev nD) : W22 m ρ c (Proc.devRef .tc main_arg3) = W0 m ρ c (Proc.devRef .tc main_arg3) :=
  ((show W22 m ρ c (Proc.devRef .tc main_arg3) = W21 m ρ c (Proc.devRef .tc main_arg3) from (by keep_host hostOps10))).trans (k21 m ρ c)
theorem k23 (c : Dev nD) : W23 m ρ c (Proc.devRef .tc main_arg3) = W0 m ρ c (Proc.devRef .tc main_arg3) :=
  (W23_of_ne m ρ c main_arg3 (by decide)).trans (k22 m ρ c)
theorem k24 (c : Dev nD) : W24 m ρ c (Proc.devRef .tc main_arg3) = W0 m ρ c (Proc.devRef .tc main_arg3) :=
  ((show W24 m ρ c (Proc.devRef .tc main_arg3) = W23 m ρ c (Proc.devRef .tc main_arg3) from (by keep_host hostOps11))).trans (k23 m ρ c)
theorem k25 (c : Dev nD) : W25 m ρ c (Proc.devRef .tc main_arg3) = W0 m ρ c (Proc.devRef .tc main_arg3) :=
  (W25_of_ne m ρ c main_arg3 (by decide)).trans (k24 m ρ c)
theorem k26 (c : Dev nD) : W26 m ρ c (Proc.devRef .tc main_arg3) = W0 m ρ c (Proc.devRef .tc main_arg3) :=
  ((show W26 m ρ c (Proc.devRef .tc main_arg3) = W25 m ρ c (Proc.devRef .tc main_arg3) from (by keep_host hostOps12))).trans (k25 m ρ c)
theorem k27 (c : Dev nD) : W27 m ρ c (Proc.devRef .tc main_arg3) = W0 m ρ c (Proc.devRef .tc main_arg3) :=
  (W27_of_ne m ρ c main_arg3 (by decide)).trans (k26 m ρ c)
theorem k28 (c : Dev nD) : W28 m ρ c (Proc.devRef .tc main_arg3) = W0 m ρ c (Proc.devRef .tc main_arg3) :=
  ((show W28 m ρ c (Proc.devRef .tc main_arg3) = W27 m ρ c (Proc.devRef .tc main_arg3) from (by keep_host hostOps13))).trans (k27 m ρ c)
theorem k29 (c : Dev nD) : W29 m ρ c (Proc.devRef .tc main_arg3) = W0 m ρ c (Proc.devRef .tc main_arg3) :=
  (W29_of_ne m ρ c main_arg3 (by decide)).trans (k28 m ρ c)
theorem k30 (c : Dev nD) : W30 m ρ c (Proc.devRef .tc main_arg3) = W0 m ρ c (Proc.devRef .tc main_arg3) :=
  ((show W30 m ρ c (Proc.devRef .tc main_arg3) = W29 m ρ c (Proc.devRef .tc main_arg3) from (by keep_host hostOps14))).trans (k29 m ρ c)
theorem k31 (c : Dev nD) : W31 m ρ c (Proc.devRef .tc main_arg3) = W0 m ρ c (Proc.devRef .tc main_arg3) :=
  (W31_of_ne m ρ c main_arg3 (by decide)).trans (k30 m ρ c)
theorem k32 (c : Dev nD) : W32 m ρ c (Proc.devRef .tc main_arg3) = W0 m ρ c (Proc.devRef .tc main_arg3) :=
  ((show W32 m ρ c (Proc.devRef .tc main_arg3) = W31 m ρ c (Proc.devRef .tc main_arg3) from (by keep_host hostOps15))).trans (k31 m ρ c)
theorem k33 (c : Dev nD) : W33 m ρ c (Proc.devRef .tc main_arg3) = W0 m ρ c (Proc.devRef .tc main_arg3) :=
  (W33_of_ne m ρ c main_arg3 (by decide)).trans (k32 m ρ c)
theorem k34 (c : Dev nD) : W34 m ρ c (Proc.devRef .tc main_arg3) = W0 m ρ c (Proc.devRef .tc main_arg3) :=
  ((show W34 m ρ c (Proc.devRef .tc main_arg3) = W33 m ρ c (Proc.devRef .tc main_arg3) from (by keep_host hostOps16))).trans (k33 m ρ c)
theorem k35 (c : Dev nD) : W35 m ρ c (Proc.devRef .tc main_arg3) = W0 m ρ c (Proc.devRef .tc main_arg3) :=
  (W35_of_ne m ρ c main_arg3 (by decide)).trans (k34 m ρ c)
theorem k36 (c : Dev nD) : W36 m ρ c (Proc.devRef .tc main_arg3) = W0 m ρ c (Proc.devRef .tc main_arg3) :=
  ((show W36 m ρ c (Proc.devRef .tc main_arg3) = W35 m ρ c (Proc.devRef .tc main_arg3) from (by keep_host hostOps17))).trans (k35 m ρ c)
theorem k37 (c : Dev nD) : W37 m ρ c (Proc.devRef .tc main_arg3) = W0 m ρ c (Proc.devRef .tc main_arg3) :=
  (W37_of_ne m ρ c main_arg3 (by decide)).trans (k36 m ρ c)
theorem k38 (c : Dev nD) : W38 m ρ c (Proc.devRef .tc main_arg3) = W0 m ρ c (Proc.devRef .tc main_arg3) :=
  ((show W38 m ρ c (Proc.devRef .tc main_arg3) = W37 m ρ c (Proc.devRef .tc main_arg3) from (by keep_host hostOps18))).trans (k37 m ρ c)
theorem k39 (c : Dev nD) : W39 m ρ c (Proc.devRef .tc main_arg3) = W0 m ρ c (Proc.devRef .tc main_arg3) :=
  (W39_of_ne m ρ c main_arg3 (by decide)).trans (k38 m ρ c)
theorem k40 (c : Dev nD) : W40 m ρ c (Proc.devRef .tc main_arg3) = W0 m ρ c (Proc.devRef .tc main_arg3) :=
  ((show W40 m ρ c (Proc.devRef .tc main_arg3) = W39 m ρ c (Proc.devRef .tc main_arg3) from (by keep_host hostOps19))).trans (k39 m ρ c)
theorem k41 (c : Dev nD) : W41 m ρ c (Proc.devRef .tc main_arg3) = W0 m ρ c (Proc.devRef .tc main_arg3) :=
  (W41_of_ne m ρ c main_arg3 (by decide)).trans (k40 m ρ c)
theorem k42 (c : Dev nD) : W42 m ρ c (Proc.devRef .tc main_arg3) = W0 m ρ c (Proc.devRef .tc main_arg3) :=
  ((show W42 m ρ c (Proc.devRef .tc main_arg3) = W41 m ρ c (Proc.devRef .tc main_arg3) from (by keep_host hostOps20))).trans (k41 m ρ c)
theorem k43 (c : Dev nD) : W43 m ρ c (Proc.devRef .tc main_arg3) = W0 m ρ c (Proc.devRef .tc main_arg3) :=
  (W43_of_ne m ρ c main_arg3 (by decide)).trans (k42 m ρ c)
theorem k44 (c : Dev nD) : W44 m ρ c (Proc.devRef .tc main_arg3) = W0 m ρ c (Proc.devRef .tc main_arg3) :=
  ((show W44 m ρ c (Proc.devRef .tc main_arg3) = W43 m ρ c (Proc.devRef .tc main_arg3) from (by keep_host hostOps21))).trans (k43 m ρ c)
theorem k45 (c : Dev nD) : W45 m ρ c (Proc.devRef .tc main_arg3) = W0 m ρ c (Proc.devRef .tc main_arg3) :=
  (W45_of_ne m ρ c main_arg3 (by decide)).trans (k44 m ρ c)
theorem k46 (c : Dev nD) : W46 m ρ c (Proc.devRef .tc main_arg3) = W0 m ρ c (Proc.devRef .tc main_arg3) :=
  ((show W46 m ρ c (Proc.devRef .tc main_arg3) = W45 m ρ c (Proc.devRef .tc main_arg3) from (by keep_host hostOps22))).trans (k45 m ρ c)
theorem k47 (c : Dev nD) : W47 m ρ c (Proc.devRef .tc main_arg3) = W0 m ρ c (Proc.devRef .tc main_arg3) :=
  (W47_of_ne m ρ c main_arg3 (by decide)).trans (k46 m ρ c)
theorem k48 (c : Dev nD) : W48 m ρ c (Proc.devRef .tc main_arg3) = W0 m ρ c (Proc.devRef .tc main_arg3) :=
  ((show W48 m ρ c (Proc.devRef .tc main_arg3) = W47 m ρ c (Proc.devRef .tc main_arg3) from (by keep_host hostOps23))).trans (k47 m ρ c)
theorem k49 (c : Dev nD) : W49 m ρ c (Proc.devRef .tc main_arg3) = W0 m ρ c (Proc.devRef .tc main_arg3) :=
  (W49_of_ne m ρ c main_arg3 (by decide)).trans (k48 m ρ c)
theorem k50 (c : Dev nD) : W50 m ρ c (Proc.devRef .tc main_arg3) = W0 m ρ c (Proc.devRef .tc main_arg3) :=
  ((show W50 m ρ c (Proc.devRef .tc main_arg3) = W49 m ρ c (Proc.devRef .tc main_arg3) from (by keep_host hostOps24))).trans (k49 m ρ c)

end Cert.KernelIdeal.KV.KeepA3

end
-- ==== Proof.KeepA11.lean ====
/-
  The buffer arg11 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA11

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg11) = W0 m ρ c (Proc.devRef .tc main_arg11) :=
  (show W1 m ρ c (Proc.devRef .tc main_arg11) = W0 m ρ c (Proc.devRef .tc main_arg11) from (by keep_host hostOps0))
theorem k2 (c : Dev nD) : W2 m ρ c (Proc.devRef .tc main_arg11) = W0 m ρ c (Proc.devRef .tc main_arg11) :=
  ((show W2 m ρ c (Proc.devRef .tc main_arg11) = W1 m ρ c (Proc.devRef .tc main_arg11) from (by keep_host hostOps0_1))).trans (k1 m ρ c)
theorem k3 (c : Dev nD) : W3 m ρ c (Proc.devRef .tc main_arg11) = W0 m ρ c (Proc.devRef .tc main_arg11) :=
  ((show W3 m ρ c (Proc.devRef .tc main_arg11) = W2 m ρ c (Proc.devRef .tc main_arg11) from (by keep_host hostOps0_2))).trans (k2 m ρ c)
theorem k4 (c : Dev nD) : W4 m ρ c (Proc.devRef .tc main_arg11) = W0 m ρ c (Proc.devRef .tc main_arg11) :=
  (W4_of_ne m ρ c main_arg11 (by decide)).trans (k3 m ρ c)
theorem k5 (c : Dev nD) : W5 m ρ c (Proc.devRef .tc main_arg11) = W0 m ρ c (Proc.devRef .tc main_arg11) :=
  ((show W5 m ρ c (Proc.devRef .tc main_arg11) = W4 m ρ c (Proc.devRef .tc main_arg11) from (by keep_host hostOps1))).trans (k4 m ρ c)
theorem k6 (c : Dev nD) : W6 m ρ c (Proc.devRef .tc main_arg11) = W0 m ρ c (Proc.devRef .tc main_arg11) :=
  (W6_of_ne m ρ c main_arg11 (by decide)).trans (k5 m ρ c)
theorem k7 (c : Dev nD) : W7 m ρ c (Proc.devRef .tc main_arg11) = W0 m ρ c (Proc.devRef .tc main_arg11) :=
  (W7_of_ne m ρ c main_arg11 (by decide)).trans (k6 m ρ c)
theorem k8 (c : Dev nD) : W8 m ρ c (Proc.devRef .tc main_arg11) = W0 m ρ c (Proc.devRef .tc main_arg11) :=
  ((show W8 m ρ c (Proc.devRef .tc main_arg11) = W7 m ρ c (Proc.devRef .tc main_arg11) from (by keep_host hostOps3))).trans (k7 m ρ c)
theorem k9 (c : Dev nD) : W9 m ρ c (Proc.devRef .tc main_arg11) = W0 m ρ c (Proc.devRef .tc main_arg11) :=
  (W9_of_ne m ρ c main_arg11 (by decide)).trans (k8 m ρ c)
theorem k10 (c : Dev nD) : W10 m ρ c (Proc.devRef .tc main_arg11) = W0 m ρ c (Proc.devRef .tc main_arg11) :=
  ((show W10 m ρ c (Proc.devRef .tc main_arg11) = W9 m ρ c (Proc.devRef .tc main_arg11) from (by keep_host hostOps4))).trans (k9 m ρ c)
theorem k11 (c : Dev nD) : W11 m ρ c (Proc.devRef .tc main_arg11) = W0 m ρ c (Proc.devRef .tc main_arg11) :=
  (W11_of_ne m ρ c main_arg11 (by decide)).trans (k10 m ρ c)
theorem k12 (c : Dev nD) : W12 m ρ c (Proc.devRef .tc main_arg11) = W0 m ρ c (Proc.devRef .tc main_arg11) :=
  ((show W12 m ρ c (Proc.devRef .tc main_arg11) = W11 m ρ c (Proc.devRef .tc main_arg11) from (by keep_host hostOps5))).trans (k11 m ρ c)
theorem k13 (c : Dev nD) : W13 m ρ c (Proc.devRef .tc main_arg11) = W0 m ρ c (Proc.devRef .tc main_arg11) :=
  (W13_of_ne m ρ c main_arg11 (by decide)).trans (k12 m ρ c)
theorem k14 (c : Dev nD) : W14 m ρ c (Proc.devRef .tc main_arg11) = W0 m ρ c (Proc.devRef .tc main_arg11) :=
  ((show W14 m ρ c (Proc.devRef .tc main_arg11) = W13 m ρ c (Proc.devRef .tc main_arg11) from (by keep_host hostOps6))).trans (k13 m ρ c)
theorem k15 (c : Dev nD) : W15 m ρ c (Proc.devRef .tc main_arg11) = W0 m ρ c (Proc.devRef .tc main_arg11) :=
  (W15_of_ne m ρ c main_arg11 (by decide)).trans (k14 m ρ c)
theorem k16 (c : Dev nD) : W16 m ρ c (Proc.devRef .tc main_arg11) = W0 m ρ c (Proc.devRef .tc main_arg11) :=
  ((show W16 m ρ c (Proc.devRef .tc main_arg11) = W15 m ρ c (Proc.devRef .tc main_arg11) from (by keep_host hostOps7))).trans (k15 m ρ c)
theorem k17 (c : Dev nD) : W17 m ρ c (Proc.devRef .tc main_arg11) = W0 m ρ c (Proc.devRef .tc main_arg11) :=
  (W17_of_ne m ρ c main_arg11 (by decide)).trans (k16 m ρ c)
theorem k18 (c : Dev nD) : W18 m ρ c (Proc.devRef .tc main_arg11) = W0 m ρ c (Proc.devRef .tc main_arg11) :=
  ((show W18 m ρ c (Proc.devRef .tc main_arg11) = W17 m ρ c (Proc.devRef .tc main_arg11) from (by keep_host hostOps8))).trans (k17 m ρ c)
theorem k19 (c : Dev nD) : W19 m ρ c (Proc.devRef .tc main_arg11) = W0 m ρ c (Proc.devRef .tc main_arg11) :=
  (W19_of_ne m ρ c main_arg11 (by decide)).trans (k18 m ρ c)
theorem k20 (c : Dev nD) : W20 m ρ c (Proc.devRef .tc main_arg11) = W0 m ρ c (Proc.devRef .tc main_arg11) :=
  ((show W20 m ρ c (Proc.devRef .tc main_arg11) = W19 m ρ c (Proc.devRef .tc main_arg11) from (by keep_host hostOps9))).trans (k19 m ρ c)
theorem k21 (c : Dev nD) : W21 m ρ c (Proc.devRef .tc main_arg11) = W0 m ρ c (Proc.devRef .tc main_arg11) :=
  (W21_of_ne m ρ c main_arg11 (by decide)).trans (k20 m ρ c)
theorem k22 (c : Dev nD) : W22 m ρ c (Proc.devRef .tc main_arg11) = W0 m ρ c (Proc.devRef .tc main_arg11) :=
  ((show W22 m ρ c (Proc.devRef .tc main_arg11) = W21 m ρ c (Proc.devRef .tc main_arg11) from (by keep_host hostOps10))).trans (k21 m ρ c)
theorem k23 (c : Dev nD) : W23 m ρ c (Proc.devRef .tc main_arg11) = W0 m ρ c (Proc.devRef .tc main_arg11) :=
  (W23_of_ne m ρ c main_arg11 (by decide)).trans (k22 m ρ c)
theorem k24 (c : Dev nD) : W24 m ρ c (Proc.devRef .tc main_arg11) = W0 m ρ c (Proc.devRef .tc main_arg11) :=
  ((show W24 m ρ c (Proc.devRef .tc main_arg11) = W23 m ρ c (Proc.devRef .tc main_arg11) from (by keep_host hostOps11))).trans (k23 m ρ c)
theorem k25 (c : Dev nD) : W25 m ρ c (Proc.devRef .tc main_arg11) = W0 m ρ c (Proc.devRef .tc main_arg11) :=
  (W25_of_ne m ρ c main_arg11 (by decide)).trans (k24 m ρ c)
theorem k26 (c : Dev nD) : W26 m ρ c (Proc.devRef .tc main_arg11) = W0 m ρ c (Proc.devRef .tc main_arg11) :=
  ((show W26 m ρ c (Proc.devRef .tc main_arg11) = W25 m ρ c (Proc.devRef .tc main_arg11) from (by keep_host hostOps12))).trans (k25 m ρ c)
theorem k27 (c : Dev nD) : W27 m ρ c (Proc.devRef .tc main_arg11) = W0 m ρ c (Proc.devRef .tc main_arg11) :=
  (W27_of_ne m ρ c main_arg11 (by decide)).trans (k26 m ρ c)
theorem k28 (c : Dev nD) : W28 m ρ c (Proc.devRef .tc main_arg11) = W0 m ρ c (Proc.devRef .tc main_arg11) :=
  ((show W28 m ρ c (Proc.devRef .tc main_arg11) = W27 m ρ c (Proc.devRef .tc main_arg11) from (by keep_host hostOps13))).trans (k27 m ρ c)
theorem k29 (c : Dev nD) : W29 m ρ c (Proc.devRef .tc main_arg11) = W0 m ρ c (Proc.devRef .tc main_arg11) :=
  (W29_of_ne m ρ c main_arg11 (by decide)).trans (k28 m ρ c)
theorem k30 (c : Dev nD) : W30 m ρ c (Proc.devRef .tc main_arg11) = W0 m ρ c (Proc.devRef .tc main_arg11) :=
  ((show W30 m ρ c (Proc.devRef .tc main_arg11) = W29 m ρ c (Proc.devRef .tc main_arg11) from (by keep_host hostOps14))).trans (k29 m ρ c)
theorem k31 (c : Dev nD) : W31 m ρ c (Proc.devRef .tc main_arg11) = W0 m ρ c (Proc.devRef .tc main_arg11) :=
  (W31_of_ne m ρ c main_arg11 (by decide)).trans (k30 m ρ c)
theorem k32 (c : Dev nD) : W32 m ρ c (Proc.devRef .tc main_arg11) = W0 m ρ c (Proc.devRef .tc main_arg11) :=
  ((show W32 m ρ c (Proc.devRef .tc main_arg11) = W31 m ρ c (Proc.devRef .tc main_arg11) from (by keep_host hostOps15))).trans (k31 m ρ c)
theorem k33 (c : Dev nD) : W33 m ρ c (Proc.devRef .tc main_arg11) = W0 m ρ c (Proc.devRef .tc main_arg11) :=
  (W33_of_ne m ρ c main_arg11 (by decide)).trans (k32 m ρ c)
theorem k34 (c : Dev nD) : W34 m ρ c (Proc.devRef .tc main_arg11) = W0 m ρ c (Proc.devRef .tc main_arg11) :=
  ((show W34 m ρ c (Proc.devRef .tc main_arg11) = W33 m ρ c (Proc.devRef .tc main_arg11) from (by keep_host hostOps16))).trans (k33 m ρ c)
theorem k35 (c : Dev nD) : W35 m ρ c (Proc.devRef .tc main_arg11) = W0 m ρ c (Proc.devRef .tc main_arg11) :=
  (W35_of_ne m ρ c main_arg11 (by decide)).trans (k34 m ρ c)
theorem k36 (c : Dev nD) : W36 m ρ c (Proc.devRef .tc main_arg11) = W0 m ρ c (Proc.devRef .tc main_arg11) :=
  ((show W36 m ρ c (Proc.devRef .tc main_arg11) = W35 m ρ c (Proc.devRef .tc main_arg11) from (by keep_host hostOps17))).trans (k35 m ρ c)
theorem k37 (c : Dev nD) : W37 m ρ c (Proc.devRef .tc main_arg11) = W0 m ρ c (Proc.devRef .tc main_arg11) :=
  (W37_of_ne m ρ c main_arg11 (by decide)).trans (k36 m ρ c)
theorem k38 (c : Dev nD) : W38 m ρ c (Proc.devRef .tc main_arg11) = W0 m ρ c (Proc.devRef .tc main_arg11) :=
  ((show W38 m ρ c (Proc.devRef .tc main_arg11) = W37 m ρ c (Proc.devRef .tc main_arg11) from (by keep_host hostOps18))).trans (k37 m ρ c)
theorem k39 (c : Dev nD) : W39 m ρ c (Proc.devRef .tc main_arg11) = W0 m ρ c (Proc.devRef .tc main_arg11) :=
  (W39_of_ne m ρ c main_arg11 (by decide)).trans (k38 m ρ c)
theorem k40 (c : Dev nD) : W40 m ρ c (Proc.devRef .tc main_arg11) = W0 m ρ c (Proc.devRef .tc main_arg11) :=
  ((show W40 m ρ c (Proc.devRef .tc main_arg11) = W39 m ρ c (Proc.devRef .tc main_arg11) from (by keep_host hostOps19))).trans (k39 m ρ c)
theorem k41 (c : Dev nD) : W41 m ρ c (Proc.devRef .tc main_arg11) = W0 m ρ c (Proc.devRef .tc main_arg11) :=
  (W41_of_ne m ρ c main_arg11 (by decide)).trans (k40 m ρ c)
theorem k42 (c : Dev nD) : W42 m ρ c (Proc.devRef .tc main_arg11) = W0 m ρ c (Proc.devRef .tc main_arg11) :=
  ((show W42 m ρ c (Proc.devRef .tc main_arg11) = W41 m ρ c (Proc.devRef .tc main_arg11) from (by keep_host hostOps20))).trans (k41 m ρ c)
theorem k43 (c : Dev nD) : W43 m ρ c (Proc.devRef .tc main_arg11) = W0 m ρ c (Proc.devRef .tc main_arg11) :=
  (W43_of_ne m ρ c main_arg11 (by decide)).trans (k42 m ρ c)
theorem k44 (c : Dev nD) : W44 m ρ c (Proc.devRef .tc main_arg11) = W0 m ρ c (Proc.devRef .tc main_arg11) :=
  ((show W44 m ρ c (Proc.devRef .tc main_arg11) = W43 m ρ c (Proc.devRef .tc main_arg11) from (by keep_host hostOps21))).trans (k43 m ρ c)
theorem k45 (c : Dev nD) : W45 m ρ c (Proc.devRef .tc main_arg11) = W0 m ρ c (Proc.devRef .tc main_arg11) :=
  (W45_of_ne m ρ c main_arg11 (by decide)).trans (k44 m ρ c)
theorem k46 (c : Dev nD) : W46 m ρ c (Proc.devRef .tc main_arg11) = W0 m ρ c (Proc.devRef .tc main_arg11) :=
  ((show W46 m ρ c (Proc.devRef .tc main_arg11) = W45 m ρ c (Proc.devRef .tc main_arg11) from (by keep_host hostOps22))).trans (k45 m ρ c)
theorem k47 (c : Dev nD) : W47 m ρ c (Proc.devRef .tc main_arg11) = W0 m ρ c (Proc.devRef .tc main_arg11) :=
  (W47_of_ne m ρ c main_arg11 (by decide)).trans (k46 m ρ c)
theorem k48 (c : Dev nD) : W48 m ρ c (Proc.devRef .tc main_arg11) = W0 m ρ c (Proc.devRef .tc main_arg11) :=
  ((show W48 m ρ c (Proc.devRef .tc main_arg11) = W47 m ρ c (Proc.devRef .tc main_arg11) from (by keep_host hostOps23))).trans (k47 m ρ c)
theorem k49 (c : Dev nD) : W49 m ρ c (Proc.devRef .tc main_arg11) = W0 m ρ c (Proc.devRef .tc main_arg11) :=
  (W49_of_ne m ρ c main_arg11 (by decide)).trans (k48 m ρ c)

end Cert.KernelIdeal.KV.KeepA11

end
-- ==== Proof.KeepA12.lean ====
/-
  The buffer arg12 is written by no region and by no host stretch after stage 0: at every later stage it holds what it
  held at stage 0 (the launch memory).  One step per stage: a region leaves every buffer that is not one of its arrays, a host
  stretch every buffer none of its operations writes.
-/
import proofs.«146329_j1168231104595_1_alg».proof.Proof.KVTac

set_option maxRecDepth 16384

noncomputable section

namespace Cert.KernelIdeal.KV.KeepA12

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k1 (c : Dev nD) : W1 m ρ c (Proc.devRef .tc main_arg12) = W0 m ρ c (Proc.devRef .tc main_arg12) :=
  (show W1 m ρ c (Proc.devRef .tc main_arg12) = W0 m ρ c (Proc.devRef .tc main_arg12) from (by keep_host hostOps0))
theorem k2 (c : Dev nD) : W2 m ρ c (Proc.devRef .tc main_arg12) = W0 m ρ c (Proc.devRef .tc main_arg12) :=
  ((show W2 m ρ c (Proc.devRef .tc main_arg12) = W1 m ρ c (Proc.devRef .tc main_arg12) from (by keep_host hostOps0_1))).trans (k1 m ρ c)
theorem k3 (c : Dev nD) : W3 m ρ c (Proc.devRef .tc main_arg12) = W0 m ρ c (Proc.devRef .tc main_arg12) :=
  ((show W3 m ρ c (Proc.devRef .tc main_arg12) = W2 m ρ c (Proc.devRef .tc main_arg12) from (by keep_host hostOps0_2))).trans (k2 m ρ c)
theorem k4 (c : Dev nD) : W4 m ρ c (Proc.devRef .tc main_arg12) = W0 m ρ c (Proc.devRef .tc main_arg12) :=
  (W4_of_ne m ρ c main_arg12 (by decide)).trans (k3 m ρ c)
theorem k5 (c : Dev nD) : W5 m ρ c (Proc.devRef .tc main_arg12) = W0 m ρ c (Proc.devRef .tc main_arg12) :=
  ((show W5 m ρ c (Proc.devRef .tc main_arg12) = W4 m ρ c (Proc.devRef .tc main_arg12) from (by keep_host hostOps1))).trans (k4 m ρ c)
theorem k6 (c : Dev nD) : W6 m ρ c (Proc.devRef .tc main_arg12) = W0 m ρ c (Proc.devRef .tc main_arg12) :=
  (W6_of_ne m ρ c main_arg12 (by decide)).trans (k5 m ρ c)
theorem k7 (c : Dev nD) : W7 m ρ c (Proc.devRef .tc main_arg12) = W0 m ρ c (Proc.devRef .tc main_arg12) :=
  (W7_of_ne m ρ c main_arg12 (by decide)).trans (k6 m ρ c)
theorem k8 (c : Dev nD) : W8 m ρ c (Proc.devRef .tc main_arg12) = W0 m ρ c (Proc.devRef .tc main_arg12) :=
  ((show W8 m ρ c (Proc.devRef .tc main_arg12) = W7 m ρ c (Proc.devRef .tc main_arg12) from (by keep_host hostOps3))).trans (k7 m ρ c)
theorem k9 (c : Dev nD) : W9 m ρ c (Proc.devRef .tc main_arg12) = W0 m ρ c (Proc.devRef .tc main_arg12) :=
  (W9_of_ne m ρ c main_arg12 (by decide)).trans (k8 m ρ c)
theorem k10 (c : Dev nD) : W10 m ρ c (Proc.devRef .tc main_arg12) = W0 m ρ c (Proc.devRef .tc main_arg12) :=
  ((show W10 m ρ c (Proc.devRef .tc main_arg12) = W9 m ρ c (Proc.devRef .tc main_arg12) from (by keep_host hostOps4))).trans (k9 m ρ c)
theorem k11 (c : Dev nD) : W11 m ρ c (Proc.devRef .tc main_arg12) = W0 m ρ c (Proc.devRef .tc main_arg12) :=
  (W11_of_ne m ρ c main_arg12 (by decide)).trans (k10 m ρ c)
theorem k12 (c : Dev nD) : W12 m ρ c (Proc.devRef .tc main_arg12) = W0 m ρ c (Proc.devRef .tc main_arg12) :=
  ((show W12 m ρ c (Proc.devRef .tc main_arg12) = W11 m ρ c (Proc.devRef .tc main_arg12) from (by keep_host hostOps5))).trans (k11 m ρ c)
theorem k13 (c : Dev nD) : W13 m ρ c (Proc.devRef .tc main_arg12) = W0 m ρ c (Proc.devRef .tc main_arg12) :=
  (W13_of_ne m ρ c main_arg12 (by decide)).trans (k12 m ρ c)
theorem k14 (c : Dev nD) : W14 m ρ c (Proc.devRef .tc main_arg12) = W0 m ρ c (Proc.devRef .tc main_arg12) :=
  ((show W14 m ρ c (Proc.devRef .tc main_arg12) = W13 m ρ c (Proc.devRef .tc main_arg12) from (by keep_host hostOps6))).trans (k13 m ρ c)
theorem k15 (c : Dev nD) : W15 m ρ c (Proc.devRef .tc main_arg12) = W0 m ρ c (Proc.devRef .tc main_arg12) :=
  (W15_of_ne m ρ c main_arg12 (by decide)).trans (k14 m ρ c)
theorem k16 (c : Dev nD) : W16 m ρ c (Proc.devRef .tc main_arg12) = W0 m ρ c (Proc.devRef .tc main_arg12) :=
  ((show W16 m ρ c (Proc.devRef .tc main_arg12) = W15 m ρ c (Proc.devRef .tc main_arg12) from (by keep_host hostOps7))).trans (k15 m ρ c)
theorem k17 (c : Dev nD) : W17 m ρ c (Proc.devRef .tc main_arg12) = W0 m ρ c (Proc.devRef .tc main_arg12) :=
  (W17_of_ne m ρ c main_arg12 (by decide)).trans (k16 m ρ c)
theorem k18 (c : Dev nD) : W18 m ρ c (Proc.devRef .tc main_arg12) = W0 m ρ c (Proc.devRef .tc main_arg12) :=
  ((show W18 m ρ c (Proc.devRef .tc main_arg12) = W17 m ρ c (Proc.devRef .tc main_arg12) from (by keep_host hostOps8))).trans (k17 m ρ c)
theorem k19 (c : Dev nD) : W19 m ρ c (Proc.devRef .tc main_arg12) = W0 m ρ c (Proc.devRef .tc main_arg12) :=
  (W19_of_ne m ρ c main_arg12 (by decide)).trans (k18 m ρ c)
theorem k20 (c : Dev nD) : W20 m ρ c (Proc.devRef .tc main_arg12) = W0 m ρ c (Proc.devRef .tc main_arg12) :=
  ((show W20 m ρ c (Proc.devRef .tc main_arg12) = W19 m ρ c (Proc.devRef .tc main_arg12) from (by keep_host hostOps9))).trans (k19 m ρ c)
theorem k21 (c : Dev nD) : W21 m ρ c (Proc.devRef .tc main_arg12) = W0 m ρ c (Proc.devRef .tc main_arg12) :=
  (W21_of_ne m ρ c main_arg12 (by decide)).trans (k20 m ρ c)
theorem k22 (c : Dev nD) : W22 m ρ c (Proc.devRef .tc main_arg12) = W0 m ρ c (Proc.devRef .tc main_arg12) :=
  ((show W22 m ρ c (Proc.devRef .tc main_arg12) = W21 m ρ c (Proc.devRef .tc main_arg12) from (by keep_host hostOps10))).trans (k21 m ρ c)
theorem k23 (c : Dev nD) : W23 m ρ c (Proc.devRef .tc main_arg12) = W0 m ρ c (Proc.devRef .tc main_arg12) :=
  (W23_of_ne m ρ c main_arg12 (by decide)).trans (k22 m ρ c)
theorem k24 (c : Dev nD) : W24 m ρ c (Proc.devRef .tc main_arg12) = W0 m ρ c (Proc.devRef .tc main_arg12) :=
  ((show W24 m ρ c (Proc.devRef .tc main_arg12) = W23 m ρ c (Proc.devRef .tc main_arg12) from (by keep_host hostOps11))).trans (k23 m ρ c)
theorem k25 (c : Dev nD) : W25 m ρ c (Proc.devRef .tc main_arg12) = W0 m ρ c (Proc.devRef .tc main_arg12) :=
  (W25_of_ne m ρ c main_arg12 (by decide)).trans (k24 m ρ c)
theorem k26 (c : Dev nD) : W26 m ρ c (Proc.devRef .tc main_arg12) = W0 m ρ c (Proc.devRef .tc main_arg12) :=
  ((show W26 m ρ c (Proc.devRef .tc main_arg12) = W25 m ρ c (Proc.devRef .tc main_arg12) from (by keep_host hostOps12))).trans (k25 m ρ c)
theorem k27 (c : Dev nD) : W27 m ρ c (Proc.devRef .tc main_arg12) = W0 m ρ c (Proc.devRef .tc main_arg12) :=
  (W27_of_ne m ρ c main_arg12 (by decide)).trans (k26 m ρ c)
theorem k28 (c : Dev nD) : W28 m ρ c (Proc.devRef .tc main_arg12) = W0 m ρ c (Proc.devRef .tc main_arg12) :=
  ((show W28 m ρ c (Proc.devRef .tc main_arg12) = W27 m ρ c (Proc.devRef .tc main_arg12) from (by keep_host hostOps13))).trans (k27 m ρ c)
theorem k29 (c : Dev nD) : W29 m ρ c (Proc.devRef .tc main_arg12) = W0 m ρ c (Proc.devRef .tc main_arg12) :=
  (W29_of_ne m ρ c main_arg12 (by decide)).trans (k28 m ρ c)
theorem k30 (c : Dev nD) : W30 m ρ c (Proc.devRef .tc main_arg12) = W0 m ρ c (Proc.devRef .tc main_arg12) :=
  ((show W30 m ρ c (Proc.devRef .tc main_arg12) = W29 m ρ c (Proc.devRef .tc main_arg12) from (by keep_host hostOps14))).trans (k29 m ρ c)
theorem k31 (c : Dev nD) : W31 m ρ c (Proc.devRef .tc main_arg12) = W0 m ρ c (Proc.devRef .tc main_arg12) :=
  (W31_of_ne m ρ c main_arg12 (by decide)).trans (k30 m ρ c)
theorem k32 (c : Dev nD) : W32 m ρ c (Proc.devRef .tc main_arg12) = W0 m ρ c (Proc.devRef .tc main_arg12) :=
  ((show W32 m ρ c (Proc.devRef .tc main_arg12) = W31 m ρ c (Proc.devRef .tc main_arg12) from (by keep_host hostOps15))).trans (k31 m ρ c)
theorem k33 (c : Dev nD) : W33 m ρ c (Proc.devRef .tc main_arg12) = W0 m ρ c (Proc.devRef .tc main_arg12) :=
  (W33_of_ne m ρ c main_arg12 (by decide)).trans (k32 m ρ c)
theorem k34 (c : Dev nD) : W34 m ρ c (Proc.devRef .tc main_arg12) = W0 m ρ c (Proc.devRef .tc main_arg12) :=
  ((show W34 m ρ c (Proc.devRef .tc main_arg12) = W33 m ρ c (Proc.devRef .tc main_arg12) from (by keep_host hostOps16))).trans (k33 m ρ c)
theorem k35 (c : Dev nD) : W35 m ρ c (Proc.devRef .tc main_arg12) = W0 m ρ c (Proc.devRef .tc main_arg12) :=
  (W35_of_ne m ρ c main_arg12 (by decide)).trans (k34 m ρ c)
theorem k36 (c : Dev nD) : W36 m ρ c (Proc.devRef .tc main_arg12) = W0 m ρ c (Proc.devRef .tc main_arg12) :=
  ((show W36 m ρ c (Proc.devRef .tc main_arg12) = W35 m ρ c (Proc.devRef .tc main_arg12) from (by keep_host hostOps17))).trans (k35 m ρ c)
theorem k37 (c : Dev nD) : W37 m ρ c (Proc.devRef .tc main_arg12) = W0 m ρ c (Proc.devRef .tc main_arg12) :=
  (W37_of_ne m ρ c main_arg12 (by decide)).trans (k36 m ρ c)
theorem k38 (c : Dev nD) : W38 m ρ c (Proc.devRef .tc main_arg12) = W0 m ρ c (Proc.devRef .tc main_arg12) :=
  ((show W38 m ρ c (Proc.devRef .tc main_arg12) = W37 m ρ c (Proc.devRef .tc main_arg12) from (by keep_host hostOps18))).trans (k37 m ρ c)
theorem k39 (c : Dev nD) : W39 m ρ c (Proc.devRef .tc main_arg12) = W0 m ρ c (Proc.devRef .tc main_arg12) :=
  (W39_of_ne m ρ c main_arg12 (by decide)).trans (k38 m ρ c)
theorem k40 (c : Dev nD) : W40 m ρ c (Proc.devRef .tc main_arg12) = W0 m ρ c (Proc.devRef .tc main_arg12) :=
  ((show W40 m ρ c (Proc.devRef .tc main_arg12) = W39 m ρ c (Proc.devRef .tc main_arg12) from (by keep_host hostOps19))).trans (k39 m ρ c)
theorem k41 (c : Dev nD) : W41 m ρ c (Proc.devRef .tc main_arg12) = W0 m ρ c (Proc.devRef .tc main_arg12) :=
  (W41_of_ne m ρ c main_arg12 (by decide)).trans (k40 m ρ c)
theorem k42 (c : Dev nD) : W42 m ρ c (Proc.devRef .tc main_arg12) = W0 m ρ c (Proc.devRef .tc main_arg12) :=
  ((show W42 m ρ c (Proc.devRef .tc main_arg12) = W41 m ρ c (Proc.devRef .tc main_arg12) from (by keep_host hostOps20))).trans (k41 m ρ c)
theorem k43 (c : Dev nD) : W43 m ρ c (Proc.devRef .tc main_arg12) = W0 m ρ c (Proc.devRef .tc main_arg12) :=
  (W43_of_ne m ρ c main_arg12 (by decide)).trans (k42 m ρ c)
theorem k44 (c : Dev nD) : W44 m ρ c (Proc.devRef .tc main_arg12) = W0 m ρ c (Proc.devRef .tc main_arg12) :=
  ((show W44 m ρ c (Proc.devRef .tc main_arg12) = W43 m ρ c (Proc.devRef .tc main_arg12) from (by keep_host hostOps21))).trans (k43 m ρ c)
theorem k45 (c : Dev nD) : W45 m ρ c (Proc.devRef .tc main_arg12) = W0 m ρ c (Proc.devRef .tc main_arg12) :=
  (W45_of_ne m ρ c main_arg12 (by decide)).trans (k44 m ρ c)
theorem k46 (c : Dev nD) : W46 m ρ c (Proc.devRef .tc main_arg12) = W0 m ρ c (Proc.devRef .tc main_arg12) :=
  ((show W46 m ρ c (Proc.devRef .tc main_arg12) = W45 m ρ c (Proc.devRef .tc main_arg12) from (by keep_host hostOps22))).trans (k45 m ρ c)
theorem k47 (c : Dev nD) : W47 m ρ c (Proc.devRef .tc main_arg12) = W0 m ρ c (Proc.devRef .tc main_arg12) :=
  (W47_of_ne m ρ c main_arg12 (by decide)).trans (k46 m ρ c)
theorem k48 (c : Dev nD) : W48 m ρ c (Proc.devRef .tc main_arg12) = W0 m ρ c (Proc.devRef .tc main_arg12) :=
  ((show W48 m ρ c (Proc.devRef .tc main_arg12) = W47 m ρ c (Proc.devRef .tc main_arg12) from (by keep_host hostOps23))).trans (k47 m ρ c)
theorem k49 (c : Dev nD) : W49 m ρ c (Proc.devRef .tc main_arg12) = W0 m ρ c (Proc.devRef .tc main_arg12) :=
  (W49_of_ne m ρ c main_arg12 (by decide)).trans (k48 m ρ c)

end Cert.KernelIdeal.KV.KeepA12

end
-- ==== Proof.KeepV61.lean ====
/-
  The buffer v61 is written by no region and by no host stretch after stage 9: at every later stage it holds what it
  held at stage 9.  One step per stage: a region leaves every buffer that is not one of its arrays, a host
  stretch every buffer none of its operations writes.
-/
import proofs.«146329_j1168231104595_1_alg».proof.Proof.KVTac

set_option maxRecDepth 16384

noncomputable section

namespace Cert.KernelIdeal.KV.KeepV61

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem k10 (c : Dev nD) : W10 m ρ c (Proc.devRef .tc main_v61) = W9 m ρ c (Proc.devRef .tc main_v61) :=
  (show W10 m ρ c (Proc.devRef .tc main_v61) = W9 m ρ c (Proc.devRef .tc main_v61) from (by keep_host hostOps4))
theorem k11 (c : Dev nD) : W11 m ρ c (Proc.devRef .tc main_v61) = W9 m ρ c (Proc.devRef .tc main_v61) :=
  (W11_of_ne m ρ c main_v61 (by decide)).trans (k10 m ρ c)
theorem k12 (c : Dev nD) : W12 m ρ c (Proc.devRef .tc main_v61) = W9 m ρ c (Proc.devRef .tc main_v61) :=
  ((show W12 m ρ c (Proc.devRef .tc main_v61) = W11 m ρ c (Proc.devRef .tc main_v61) from (by keep_host hostOps5))).trans (k11 m ρ c)
theorem k13 (c : Dev nD) : W13 m ρ c (Proc.devRef .tc main_v61) = W9 m ρ c (Proc.devRef .tc main_v61) :=
  (W13_of_ne m ρ c main_v61 (by decide)).trans (k12 m ρ c)
theorem k14 (c : Dev nD) : W14 m ρ c (Proc.devRef .tc main_v61) = W9 m ρ c (Proc.devRef .tc main_v61) :=
  ((show W14 m ρ c (Proc.devRef .tc main_v61) = W13 m ρ c (Proc.devRef .tc main_v61) from (by keep_host hostOps6))).trans (k13 m ρ c)
theorem k15 (c : Dev nD) : W15 m ρ c (Proc.devRef .tc main_v61) = W9 m ρ c (Proc.devRef .tc main_v61) :=
  (W15_of_ne m ρ c main_v61 (by decide)).trans (k14 m ρ c)
theorem k16 (c : Dev nD) : W16 m ρ c (Proc.devRef .tc main_v61) = W9 m ρ c (Proc.devRef .tc main_v61) :=
  ((show W16 m ρ c (Proc.devRef .tc main_v61) = W15 m ρ c (Proc.devRef .tc main_v61) from (by keep_host hostOps7))).trans (k15 m ρ c)
theorem k17 (c : Dev nD) : W17 m ρ c (Proc.devRef .tc main_v61) = W9 m ρ c (Proc.devRef .tc main_v61) :=
  (W17_of_ne m ρ c main_v61 (by decide)).trans (k16 m ρ c)
theorem k18 (c : Dev nD) : W18 m ρ c (Proc.devRef .tc main_v61) = W9 m ρ c (Proc.devRef .tc main_v61) :=
  ((show W18 m ρ c (Proc.devRef .tc main_v61) = W17 m ρ c (Proc.devRef .tc main_v61) from (by keep_host hostOps8))).trans (k17 m ρ c)
theorem k19 (c : Dev nD) : W19 m ρ c (Proc.devRef .tc main_v61) = W9 m ρ c (Proc.devRef .tc main_v61) :=
  (W19_of_ne m ρ c main_v61 (by decide)).trans (k18 m ρ c)
theorem k20 (c : Dev nD) : W20 m ρ c (Proc.devRef .tc main_v61) = W9 m ρ c (Proc.devRef .tc main_v61) :=
  ((show W20 m ρ c (Proc.devRef .tc main_v61) = W19 m ρ c (Proc.devRef .tc main_v61) from (by keep_host hostOps9))).trans (k19 m ρ c)
theorem k21 (c : Dev nD) : W21 m ρ c (Proc.devRef .tc main_v61) = W9 m ρ c (Proc.devRef .tc main_v61) :=
  (W21_of_ne m ρ c main_v61 (by decide)).trans (k20 m ρ c)
theorem k22 (c : Dev nD) : W22 m ρ c (Proc.devRef .tc main_v61) = W9 m ρ c (Proc.devRef .tc main_v61) :=
  ((show W22 m ρ c (Proc.devRef .tc main_v61) = W21 m ρ c (Proc.devRef .tc main_v61) from (by keep_host hostOps10))).trans (k21 m ρ c)
theorem k23 (c : Dev nD) : W23 m ρ c (Proc.devRef .tc main_v61) = W9 m ρ c (Proc.devRef .tc main_v61) :=
  (W23_of_ne m ρ c main_v61 (by decide)).trans (k22 m ρ c)
theorem k24 (c : Dev nD) : W24 m ρ c (Proc.devRef .tc main_v61) = W9 m ρ c (Proc.devRef .tc main_v61) :=
  ((show W24 m ρ c (Proc.devRef .tc main_v61) = W23 m ρ c (Proc.devRef .tc main_v61) from (by keep_host hostOps11))).trans (k23 m ρ c)
theorem k25 (c : Dev nD) : W25 m ρ c (Proc.devRef .tc main_v61) = W9 m ρ c (Proc.devRef .tc main_v61) :=
  (W25_of_ne m ρ c main_v61 (by decide)).trans (k24 m ρ c)
theorem k26 (c : Dev nD) : W26 m ρ c (Proc.devRef .tc main_v61) = W9 m ρ c (Proc.devRef .tc main_v61) :=
  ((show W26 m ρ c (Proc.devRef .tc main_v61) = W25 m ρ c (Proc.devRef .tc main_v61) from (by keep_host hostOps12))).trans (k25 m ρ c)
theorem k27 (c : Dev nD) : W27 m ρ c (Proc.devRef .tc main_v61) = W9 m ρ c (Proc.devRef .tc main_v61) :=
  (W27_of_ne m ρ c main_v61 (by decide)).trans (k26 m ρ c)
theorem k28 (c : Dev nD) : W28 m ρ c (Proc.devRef .tc main_v61) = W9 m ρ c (Proc.devRef .tc main_v61) :=
  ((show W28 m ρ c (Proc.devRef .tc main_v61) = W27 m ρ c (Proc.devRef .tc main_v61) from (by keep_host hostOps13))).trans (k27 m ρ c)
theorem k29 (c : Dev nD) : W29 m ρ c (Proc.devRef .tc main_v61) = W9 m ρ c (Proc.devRef .tc main_v61) :=
  (W29_of_ne m ρ c main_v61 (by decide)).trans (k28 m ρ c)
theorem k30 (c : Dev nD) : W30 m ρ c (Proc.devRef .tc main_v61) = W9 m ρ c (Proc.devRef .tc main_v61) :=
  ((show W30 m ρ c (Proc.devRef .tc main_v61) = W29 m ρ c (Proc.devRef .tc main_v61) from (by keep_host hostOps14))).trans (k29 m ρ c)
theorem k31 (c : Dev nD) : W31 m ρ c (Proc.devRef .tc main_v61) = W9 m ρ c (Proc.devRef .tc main_v61) :=
  (W31_of_ne m ρ c main_v61 (by decide)).trans (k30 m ρ c)
theorem k32 (c : Dev nD) : W32 m ρ c (Proc.devRef .tc main_v61) = W9 m ρ c (Proc.devRef .tc main_v61) :=
  ((show W32 m ρ c (Proc.devRef .tc main_v61) = W31 m ρ c (Proc.devRef .tc main_v61) from (by keep_host hostOps15))).trans (k31 m ρ c)
theorem k33 (c : Dev nD) : W33 m ρ c (Proc.devRef .tc main_v61) = W9 m ρ c (Proc.devRef .tc main_v61) :=
  (W33_of_ne m ρ c main_v61 (by decide)).trans (k32 m ρ c)
theorem k34 (c : Dev nD) : W34 m ρ c (Proc.devRef .tc main_v61) = W9 m ρ c (Proc.devRef .tc main_v61) :=
  ((show W34 m ρ c (Proc.devRef .tc main_v61) = W33 m ρ c (Proc.devRef .tc main_v61) from (by keep_host hostOps16))).trans (k33 m ρ c)
theorem k35 (c : Dev nD) : W35 m ρ c (Proc.devRef .tc main_v61) = W9 m ρ c (Proc.devRef .tc main_v61) :=
  (W35_of_ne m ρ c main_v61 (by decide)).trans (k34 m ρ c)
theorem k36 (c : Dev nD) : W36 m ρ c (Proc.devRef .tc main_v61) = W9 m ρ c (Proc.devRef .tc main_v61) :=
  ((show W36 m ρ c (Proc.devRef .tc main_v61) = W35 m ρ c (Proc.devRef .tc main_v61) from (by keep_host hostOps17))).trans (k35 m ρ c)
theorem k37 (c : Dev nD) : W37 m ρ c (Proc.devRef .tc main_v61) = W9 m ρ c (Proc.devRef .tc main_v61) :=
  (W37_of_ne m ρ c main_v61 (by decide)).trans (k36 m ρ c)
theorem k38 (c : Dev nD) : W38 m ρ c (Proc.devRef .tc main_v61) = W9 m ρ c (Proc.devRef .tc main_v61) :=
  ((show W38 m ρ c (Proc.devRef .tc main_v61) = W37 m ρ c (Proc.devRef .tc main_v61) from (by keep_host hostOps18))).trans (k37 m ρ c)
theorem k39 (c : Dev nD) : W39 m ρ c (Proc.devRef .tc main_v61) = W9 m ρ c (Proc.devRef .tc main_v61) :=
  (W39_of_ne m ρ c main_v61 (by decide)).trans (k38 m ρ c)
theorem k40 (c : Dev nD) : W40 m ρ c (Proc.devRef .tc main_v61) = W9 m ρ c (Proc.devRef .tc main_v61) :=
  ((show W40 m ρ c (Proc.devRef .tc main_v61) = W39 m ρ c (Proc.devRef .tc main_v61) from (by keep_host hostOps19))).trans (k39 m ρ c)
theorem k41 (c : Dev nD) : W41 m ρ c (Proc.devRef .tc main_v61) = W9 m ρ c (Proc.devRef .tc main_v61) :=
  (W41_of_ne m ρ c main_v61 (by decide)).trans (k40 m ρ c)
theorem k42 (c : Dev nD) : W42 m ρ c (Proc.devRef .tc main_v61) = W9 m ρ c (Proc.devRef .tc main_v61) :=
  ((show W42 m ρ c (Proc.devRef .tc main_v61) = W41 m ρ c (Proc.devRef .tc main_v61) from (by keep_host hostOps20))).trans (k41 m ρ c)
theorem k43 (c : Dev nD) : W43 m ρ c (Proc.devRef .tc main_v61) = W9 m ρ c (Proc.devRef .tc main_v61) :=
  (W43_of_ne m ρ c main_v61 (by decide)).trans (k42 m ρ c)
theorem k44 (c : Dev nD) : W44 m ρ c (Proc.devRef .tc main_v61) = W9 m ρ c (Proc.devRef .tc main_v61) :=
  ((show W44 m ρ c (Proc.devRef .tc main_v61) = W43 m ρ c (Proc.devRef .tc main_v61) from (by keep_host hostOps21))).trans (k43 m ρ c)
theorem k45 (c : Dev nD) : W45 m ρ c (Proc.devRef .tc main_v61) = W9 m ρ c (Proc.devRef .tc main_v61) :=
  (W45_of_ne m ρ c main_v61 (by decide)).trans (k44 m ρ c)
theorem k46 (c : Dev nD) : W46 m ρ c (Proc.devRef .tc main_v61) = W9 m ρ c (Proc.devRef .tc main_v61) :=
  ((show W46 m ρ c (Proc.devRef .tc main_v61) = W45 m ρ c (Proc.devRef .tc main_v61) from (by keep_host hostOps22))).trans (k45 m ρ c)
theorem k47 (c : Dev nD) : W47 m ρ c (Proc.devRef .tc main_v61) = W9 m ρ c (Proc.devRef .tc main_v61) :=
  (W47_of_ne m ρ c main_v61 (by decide)).trans (k46 m ρ c)
theorem k48 (c : Dev nD) : W48 m ρ c (Proc.devRef .tc main_v61) = W9 m ρ c (Proc.devRef .tc main_v61) :=
  ((show W48 m ρ c (Proc.devRef .tc main_v61) = W47 m ρ c (Proc.devRef .tc main_v61) from (by keep_host hostOps23))).trans (k47 m ρ c)
theorem k49 (c : Dev nD) : W49 m ρ c (Proc.devRef .tc main_v61) = W9 m ρ c (Proc.devRef .tc main_v61) :=
  (W49_of_ne m ρ c main_v61 (by decide)).trans (k48 m ρ c)
theorem k50 (c : Dev nD) : W50 m ρ c (Proc.devRef .tc main_v61) = W9 m ρ c (Proc.devRef .tc main_v61) :=
  ((show W50 m ρ c (Proc.devRef .tc main_v61) = W49 m ρ c (Proc.devRef .tc main_v61) from (by keep_host hostOps24))).trans (k49 m ρ c)

end Cert.KernelIdeal.KV.KeepV61

end
-- ==== Proof.ChainHead.lean ====
/-
  The head, stage by stage: the three weight pieces are the reference's rows 0–127, 128–143 and 144–207 of the head's weight,
  the bias row is the head's bias vector, the convolved features and the propagated labels are read where the feature
  stack and the tenth label layer left them, and the head region's output is the reference's last value.
-/
import proofs.«146329_j1168231104595_1_alg».proof.Proof.Gen.KernelIdeal.Frame
import proofs.«146329_j1168231104595_1_alg».proof.Proof.ReadP
import proofs.«146329_j1168231104595_1_alg».proof.Proof.Dense
import proofs.«146329_j1168231104595_1_alg».proof.Proof.LibRowOps
import proofs.«146329_j1168231104595_1_alg».proof.Proof.Reg24
import proofs.«146329_j1168231104595_1_alg».proof.Proof.HostFin
import proofs.«146329_j1168231104595_1_alg».proof.Proof.KVTac
import proofs.«146329_j1168231104595_1_alg».proof.Proof.ChainFeat
import proofs.«146329_j1168231104595_1_alg».proof.Proof.KeepA3
import proofs.«146329_j1168231104595_1_alg».proof.Proof.KeepA11
import proofs.«146329_j1168231104595_1_alg».proof.Proof.KeepA12
import proofs.«146329_j1168231104595_1_alg».proof.Proof.KeepV61

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

theorem head (c : Dev nD)
    (hin : W49 (F := Ideal) m ρ c (Proc.devRef .tc main_v273) = Cert.ReferenceIdeal.ReadP.val_main_v294 (F := Ideal) (m ((c : Thread nD τ).loc main_arg1)) (m ((c : Thread nD τ).loc main_arg2)) (m ((c : Thread nD τ).loc main_arg4)) (m ((c : Thread nD τ).loc main_arg9)) (m ((c : Thread nD τ).loc main_arg10))) :
    W51 (F := Ideal) m ρ c (Proc.devRef .tc main_v278) = Cert.ReferenceIdeal.ReadP.val_main_v305 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hh : W50 (F := Ideal) m ρ c (Proc.devRef .tc main_v61) = Cert.ReferenceIdeal.ReadP.val_main_v64 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := (KeepV61.k50 m ρ c).trans (st9 m ρ c)
  have hxl : W50 (F := Ideal) m ρ c (Proc.devRef .tc main_v273) = Cert.ReferenceIdeal.ReadP.val_main_v294 (F := Ideal) (m ((c : Thread nD τ).loc main_arg1)) (m ((c : Thread nD τ).loc main_arg2)) (m ((c : Thread nD τ).loc main_arg4)) (m ((c : Thread nD τ).loc main_arg9)) (m ((c : Thread nD τ).loc main_arg10)) :=
    (show W50 (F := Ideal) m ρ c (Proc.devRef .tc main_v273) = W49 (F := Ideal) m ρ c (Proc.devRef .tc main_v273) from by keep_host hostOps24).trans hin
  have hdw : W50 (F := Ideal) m ρ c (Proc.devRef .tc main_arg3) = (m ((c : Thread nD τ).loc main_arg3)) := KeepA3.k50 m ρ c
  have hW1 : (V50 (F := Ideal) m ρ c (Pipeline.arrRef spec24 3) : S128x16.Idx → Elt Ideal .f32) = extractStridedSlice S128x16 ![0, 0] (m ((c : Thread nD τ).loc main_arg11)) Facts₀.slices_S208x16_S128x16_0_0 := by
    show (W50 (F := Ideal) m ρ c (Proc.devRef .tc main_v274) : S128x16.Idx → Elt Ideal .f32) = _
    rw [Cert.KV.Host.host24_v274 m ρ c, KeepA11.k49 m ρ c]
  have hW2 : (V50 (F := Ideal) m ρ c (Pipeline.arrRef spec24 4) : S16x16.Idx → Elt Ideal .f32) = extractStridedSlice S16x16 ![128, 0] (m ((c : Thread nD τ).loc main_arg11)) Facts₀.slices_S208x16_S16x16_128_0 := by
    show (W50 (F := Ideal) m ρ c (Proc.devRef .tc main_v275) : S16x16.Idx → Elt Ideal .f32) = _
    rw [Cert.KV.Host.host24_v275 m ρ c, KeepA11.k49 m ρ c]
  have hW3 : (V50 (F := Ideal) m ρ c (Pipeline.arrRef spec24 5) : S64x16.Idx → Elt Ideal .f32) = extractStridedSlice S64x16 ![144, 0] (m ((c : Thread nD τ).loc main_arg11)) Facts₀.slices_S208x16_S64x16_144_0 := by
    show (W50 (F := Ideal) m ρ c (Proc.devRef .tc main_v276) : S64x16.Idx → Elt Ideal .f32) = _
    rw [Cert.KV.Host.host24_v276 m ρ c, KeepA11.k49 m ρ c]
  have hb : ∀ q : Fin 16, (V50 (F := Ideal) m ρ c (Pipeline.arrRef spec24 6) : S1x16.Idx → Elt Ideal .f32) (ix2 (0 : Fin 1) q) = (m ((c : Thread nD τ).loc main_arg12)) (ix1 q) := fun q => by
    show (W50 (F := Ideal) m ρ c (Proc.devRef .tc main_v277) : S1x16.Idx → Elt Ideal .f32) (ix2 (0 : Fin 1) q) = _
    rw [Cert.KV.Host.host24_v277 m ρ c, KeepA12.k49 m ρ c]
    exact Cert.KernelBody.shapeCast_row_apply _ _ q
  refine ((W51_arr m ρ c 7).trans (Reg24.final (V50 (F := Ideal) m ρ) c (m ((c : Thread nD τ).loc main_arg11)) (m ((c : Thread nD τ).loc main_arg12)) hW1 hW2 hW3 hb)).trans ?_
  show Cert.KV.Dense.refFuse (W50 (F := Ideal) m ρ c (Proc.devRef .tc main_v61)) (W50 (F := Ideal) m ρ c (Proc.devRef .tc main_v273)) (W50 (F := Ideal) m ρ c (Proc.devRef .tc main_arg3)) (m ((c : Thread nD τ).loc main_arg11)) (m ((c : Thread nD τ).loc main_arg12)) = _
  rw [hh, hxl, hdw]
  rfl

end Cert.KernelIdeal.KV

end
-- ==== Proof.Value.lean ====
/-
  The whole run's value: the stages composed.  The feature stack gives the node features' two-layer convolution; the ten
  label layers are chained, each taking the previous layer's labels; the head combines the two with the walk embedding.
  The result array at the last stage is the reference's last operation's value of the launch arguments.
-/
import proofs.«146329_j1168231104595_1_alg».proof.Proof.ChainFeat
import proofs.«146329_j1168231104595_1_alg».proof.Proof.ChainL0
import proofs.«146329_j1168231104595_1_alg».proof.Proof.ChainL1
import proofs.«146329_j1168231104595_1_alg».proof.Proof.ChainL2
import proofs.«146329_j1168231104595_1_alg».proof.Proof.ChainL3
import proofs.«146329_j1168231104595_1_alg».proof.Proof.ChainL4
import proofs.«146329_j1168231104595_1_alg».proof.Proof.ChainL5
import proofs.«146329_j1168231104595_1_alg».proof.Proof.ChainL6
import proofs.«146329_j1168231104595_1_alg».proof.Proof.ChainL7
import proofs.«146329_j1168231104595_1_alg».proof.Proof.ChainL8
import proofs.«146329_j1168231104595_1_alg».proof.Proof.ChainL9
import proofs.«146329_j1168231104595_1_alg».proof.Proof.ChainHead

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The labels after the tenth layer. -/
theorem labels (c : Dev nD) : W49 (F := Ideal) m ρ c (Proc.devRef .tc main_v273) = Cert.ReferenceIdeal.ReadP.val_main_v294 (F := Ideal) (m ((c : Thread nD τ).loc main_arg1)) (m ((c : Thread nD τ).loc main_arg2)) (m ((c : Thread nD τ).loc main_arg4)) (m ((c : Thread nD τ).loc main_arg9)) (m ((c : Thread nD τ).loc main_arg10)) :=
  layer9 m ρ c (layer8 m ρ c (layer7 m ρ c (layer6 m ρ c (layer5 m ρ c (layer4 m ρ c (layer3 m ρ c (layer2 m ρ c (layer1 m ρ c (layer0 m ρ c)))))))))

/-- The result array at the last stage of the boundary fold is the reference's value of the arguments. -/
theorem value (c : Dev nD) : W51 (F := Ideal) m ρ c (Proc.devRef .tc main_v278) = Cert.ReferenceIdeal.ReadP.val_main_v305 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  head m ρ c (labels m ρ c)

end Cert.KernelIdeal.KV

end
-- ==== Proof.lean ====
/-
  The certificate of the graph network: a convolutional stack on node features, ten masked label-propagation layers and
  a dense head, computed by 25 tiled regions (the linear maps, the bias and update steps, the head) around the irregular
  gather and scatter-add of each layer, against the same network written with whole-array operations.

  Over the extended reals the two programs are one function of the arguments.  The irregular part of every layer (the
  normalised adjacency applied by gather, multiply and scatter-add) is the same list of operations in both programs,
  applied to that layer's linear map.  A tiled linear map is the whole matrix product, because a product's entry is a
  sum over the contracted coordinate that reads one row of the left operand, and point t of a region's grid holds rows
  5000·t … 5000·t + 4999.  The bias, rectifier and masked-update steps act entry by entry, the bias row being the bias
  vector and the integer mask being nonzero exactly where the mask bit is set.  The head's product with the 208 stacked
  columns is the sum of the three products with the 128, 16 and 64 columns of its three pieces (a regrouping of one
  finite sum, which holds on the extended reals without any finiteness), and the logistic function is spelt
  1 / (1 + exp(−x)) on both sides.  So no precondition on the inputs is used.

  The three frames are the generated frame of each tiled program and the reference's run with its result dropped; the idealization rewrote no operation, so its conjunct is trivial.
-/
import proofs.«146329_j1168231104595_1_alg».proof.Defs
import proofs.«146329_j1168231104595_1_alg».proof.Proof.Gen.Kernel
import proofs.«146329_j1168231104595_1_alg».proof.Proof.Gen.Kernel.Frame
import proofs.«146329_j1168231104595_1_alg».proof.Proof.Gen.KernelIdeal
import proofs.«146329_j1168231104595_1_alg».proof.Proof.Gen.KernelIdeal.Frame
import proofs.«146329_j1168231104595_1_alg».proof.Proof.Gen.ReferenceIdeal
import proofs.«146329_j1168231104595_1_alg».proof.Proof.Gen.Pre_finite_inputs
import proofs.«146329_j1168231104595_1_alg».proof.Proof.RefRun
import proofs.«146329_j1168231104595_1_alg».proof.Proof.KRun
import proofs.«146329_j1168231104595_1_alg».proof.Proof.Value
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both programs run from memories agreeing on the arguments and end with the same result array: the tiled program's
    result is the last stage of its boundary fold, which is the reference's last operation's value of the arguments;
    the reference's result is that value by its run, read back. -/
theorem algebraic : Cert.algebraic_KernelIdeal_ReferenceIdeal := by
  intro m ρ m' ρ' _ hagree
  refine ⟨fun c => Cert.ReferenceIdeal.ReadP.val_main_v305 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.KV.value m ρ c), (h c).2⟩)
      (Cert.KernelIdeal.KV.run_value (F := Ideal) m ρ)
  · refine (θ_run Cert.ReferenceIdeal.defs _ _).mono (fun _ h c => ⟨?_, (h c).2⟩)
      (Cert.ReferenceIdeal.RefRun.run m' ρ')
    obtain ⟨e0, e1, e2, e3, e4, e5, e6, e7, e8, e9, e10, e11, e12⟩ := hagree c
    rw [(h c).1, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
